-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v391)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v391) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v500) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S51200x40 : Shape := ⟨2, ![51200, 40]⟩
abbrev S2x819200 : Shape := ⟨2, ![2, 819200]⟩
abbrev S819200x2 : Shape := ⟨2, ![819200, 2]⟩
abbrev S51200 : Shape := ⟨1, ![51200]⟩
abbrev S102400x36 : Shape := ⟨2, ![102400, 36]⟩
abbrev S2x409600 : Shape := ⟨2, ![2, 409600]⟩
abbrev S2x204800 : Shape := ⟨2, ![2, 204800]⟩
abbrev S102400 : Shape := ⟨1, ![102400]⟩
abbrev S40x64 : Shape := ⟨2, ![40, 64]⟩
abbrev S64 : Shape := ⟨1, ![64]⟩
abbrev S5x64x128 : Shape := ⟨3, ![5, 64, 128]⟩
abbrev S5x128 : Shape := ⟨2, ![5, 128]⟩
abbrev S5x128x64 : Shape := ⟨3, ![5, 128, 64]⟩
abbrev S5x64 : Shape := ⟨2, ![5, 64]⟩
abbrev S5x6x64 : Shape := ⟨3, ![5, 6, 64]⟩
abbrev S5x3x64 : Shape := ⟨3, ![5, 3, 64]⟩
abbrev S100x64 : Shape := ⟨2, ![100, 64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S51200x40 : S_.BroadcastsInDim S51200x40 (![] : Fin 0 → Fin S51200x40.rank)
  reducesTo_S51200x40_S_d0_1 : S51200x40.ReducesTo [0, 1] S_
  h_S_ : 0 < S_.numel
  bcast_S_S102400x36 : S_.BroadcastsInDim S102400x36 (![] : Fin 0 → Fin S102400x36.rank)
  reducesTo_S102400x36_S_d0_1 : S102400x36.ReducesTo [0, 1] S_
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S5x64x128 : S_.BroadcastsInDim S5x64x128 (![] : Fin 0 → Fin S5x64x128.rank)
  reducesTo_S5x64x128_S_d0_1_2 : S5x64x128.ReducesTo [0, 1, 2] S_
  bcast_S_S5x128 : S_.BroadcastsInDim S5x128 (![] : Fin 0 → Fin S5x128.rank)
  reducesTo_S5x128_S_d0_1 : S5x128.ReducesTo [0, 1] S_
  bcast_S_S5x128x64 : S_.BroadcastsInDim S5x128x64 (![] : Fin 0 → Fin S5x128x64.rank)
  reducesTo_S5x128x64_S_d0_1_2 : S5x128x64.ReducesTo [0, 1, 2] S_
  bcast_S_S5x64 : S_.BroadcastsInDim S5x64 (![] : Fin 0 → Fin S5x64.rank)
  reducesTo_S5x64_S_d0_1 : S5x64.ReducesTo [0, 1] S_
  bcast_S_S5x6x64 : S_.BroadcastsInDim S5x6x64 (![] : Fin 0 → Fin S5x6x64.rank)
  reducesTo_S5x6x64_S_d0_1_2 : S5x6x64.ReducesTo [0, 1, 2] S_
  bcast_S_S5x3x64 : S_.BroadcastsInDim S5x3x64 (![] : Fin 0 → Fin S5x3x64.rank)
  reducesTo_S5x3x64_S_d0_1_2 : S5x3x64.ReducesTo [0, 1, 2] S_
  bcast_S_S100x64 : S_.BroadcastsInDim S100x64 (![] : Fin 0 → Fin S100x64.rank)
  reducesTo_S100x64_S_d0_1 : S100x64.ReducesTo [0, 1] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg31 : FVec F S1 .f32) (main_v118 : IVec S_ 1) (main_v119 : FVec F S16x1 .f32) : IVec S_ 1 :=
  let main_cst_46 : FVec F S_ .f32 := constant S_ .f32 0x7F800000#32
  let main_v120 : FVec F S16x1 .f32 := broadcastInDim S16x1 ![] bcast_S_S16x1 main_cst_46
  let main_v121 : IVec S16x1 1 := cmpf .olt main_v119 main_v120
  let main_c_47 : IVec S_ 1 := constantI S_ 1 1#1
  let main_v122 : IVec S_ 1 := (fun x v => Host.reduce IntOp.andi x v reducesTo_S16x1_S_d0_1 h_S_) main_v121 main_c_47
  let main_v123 : IVec S_ 1 := andi main_v118 main_v122
  let main_v124 : FVec F S1 .f32 := Host.absf main_arg31
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg27 : FVec F S32 .f32) (main_arg28 : FVec F S32x16 .f32) (main_arg29 : FVec F S16 .f32) (main_arg30 : FVec F S16x1 .f32) (main_arg31 : FVec F S1 .f32) (main_v98 : IVec S_ 1) (main_v101 : IVec S64x32 1) (main_c_39 : IVec S_ 1) : IVec S_ 1 :=
  let main_v102 : IVec S_ 1 := (fun x v => Host.reduce IntOp.andi x v reducesTo_S64x32_S_d0_1 h_S_) main_v101 main_c_39
  let main_v103 : IVec S_ 1 := andi main_v98 main_v102
  let main_v104 : FVec F S32 .f32 := Host.absf main_arg27
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32x16 .f32 := Host.absf main_arg28
  let main_cst_42 : FVec F S_ .f32 := constant S_ .f32 0x7F800000#32
  let main_v110 : FVec F S32x16 .f32 := broadcastInDim S32x16 ![] bcast_S_S32x16 main_cst_42
  let main_v111 : IVec S32x16 1 := cmpf .olt main_v109 main_v110
  let main_c_43 : IVec S_ 1 := constantI S_ 1 1#1
  let main_v112 : IVec S_ 1 := (fun x v => Host.reduce IntOp.andi x v reducesTo_S32x16_S_d0_1 h_S_) main_v111 main_c_43
  let main_v113 : IVec S_ 1 := andi main_v108 main_v112
  let main_v114 : FVec F S16 .f32 := Host.absf main_arg29
  let main_cst_44 : FVec F S_ .f32 := constant S_ .f32 0x7F800000#32
  let main_v115 : FVec F S16 .f32 := broadcastInDim S16 ![] bcast_S_S16 main_cst_44
  let main_v116 : IVec S16 1 := cmpf .olt main_v114 main_v115
  let main_c_45 : IVec S_ 1 := constantI S_ 1 1#1
  let main_v117 : IVec S_ 1 := (fun x v => Host.reduce IntOp.andi x v reducesTo_S16_S_d0 h_S_) main_v116 main_c_45
  let main_v118 : IVec S_ 1 := andi main_v113 main_v117
  let main_v119 : FVec F S16x1 .f32 := Host.absf main_arg30
  fn_part7 (F := F) main_arg31 main_v118 main_v119

def fn_part5 {F : FTy → Type} [FloatOps F] (main_arg24 : FVec F S128x64 .f32) (main_arg25 : FVec F S64 .f32) (main_arg26 : FVec F S64x32 .f32) (main_arg27 : FVec F S32 .f32) (main_arg28 : FVec F S32x16 .f32) (main_arg29 : FVec F S16 .f32) (main_arg30 : FVec F S16x1 .f32) (main_arg31 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S128x64 .f32 := Host.absf main_arg24
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg25
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x32 .f32 := Host.absf main_arg26
  let main_cst_38 : FVec F S_ .f32 := constant S_ .f32 0x7F800000#32
  let main_v100 : FVec F S64x32 .f32 := broadcastInDim S64x32 ![] bcast_S_S64x32 main_cst_38
  let main_v101 : IVec S64x32 1 := cmpf .olt main_v99 main_v100
  let main_c_39 : IVec S_ 1 := constantI S_ 1 1#1
  fn_part6 (F := F) main_arg27 main_arg28 main_arg29 main_arg30 main_arg31 main_v98 main_v101 main_c_39

def fn_part4 {F : FTy → Type} [FloatOps F] (main_arg20 : FVec F S100x64 .f32) (main_arg21 : FVec F S64x64 .f32) (main_arg22 : FVec F S64 .f32) (main_arg23 : FVec F S64x64 .f32) (main_arg24 : FVec F S128x64 .f32) (main_arg25 : FVec F S64 .f32) (main_arg26 : FVec F S64x32 .f32) (main_arg27 : FVec F S32 .f32) (main_arg28 : FVec F S32x16 .f32) (main_arg29 : FVec F S16 .f32) (main_arg30 : FVec F S16x1 .f32) (main_arg31 : FVec F S1 .f32) (main_v63 : IVec S_ 1) (main_v67 : IVec S_ 1) : IVec S_ 1 :=
  let main_v68 : IVec S_ 1 := andi main_v63 main_v67
  let main_v69 : FVec F S100x64 .f32 := Host.absf main_arg20
  let main_cst_26 : FVec F S_ .f32 := constant S_ .f32 0x7F800000#32
  let main_v70 : FVec F S100x64 .f32 := broadcastInDim S100x64 ![] bcast_S_S100x64 main_cst_26
  let main_v71 : IVec S100x64 1 := cmpf .olt main_v69 main_v70
  let main_c_27 : IVec S_ 1 := constantI S_ 1 1#1
  let main_v72 : IVec S_ 1 := (fun x v => Host.reduce IntOp.andi x v reducesTo_S100x64_S_d0_1 h_S_) main_v71 main_c_27
  let main_v73 : IVec S_ 1 := andi main_v68 main_v72
  let main_v74 : FVec F S64x64 .f32 := Host.absf main_arg21
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg22
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg23
  let main_cst_32 : FVec F S_ .f32 := constant S_ .f32 0x7F800000#32
  fn_part5 (F := F) main_arg24 main_arg25 main_arg26 main_arg27 main_arg28 main_arg29 main_arg30 main_arg31 main_v83 main_v84 main_cst_32

def fn_part3 {F : FTy → Type} [FloatOps F] (main_arg17 : FVec F S5x64 .f32) (main_arg18 : FVec F S100x64 .f32) (main_arg19 : FVec F S64 .f32) (main_arg20 : FVec F S100x64 .f32) (main_arg21 : FVec F S64x64 .f32) (main_arg22 : FVec F S64 .f32) (main_arg23 : FVec F S64x64 .f32) (main_arg24 : FVec F S128x64 .f32) (main_arg25 : FVec F S64 .f32) (main_arg26 : FVec F S64x32 .f32) (main_arg27 : FVec F S32 .f32) (main_arg28 : FVec F S32x16 .f32) (main_arg29 : FVec F S16 .f32) (main_arg30 : FVec F S16x1 .f32) (main_arg31 : FVec F S1 .f32) (main_v48 : IVec S_ 1) (main_v49 : FVec F S5x64 .f32) (main_v50 : FVec F S5x64 .f32) : IVec S_ 1 :=
  let main_v51 : IVec S5x64 1 := cmpf .olt main_v49 main_v50
  let main_c_19 : IVec S_ 1 := constantI S_ 1 1#1
  let main_v52 : IVec S_ 1 := (fun x v => Host.reduce IntOp.andi x v reducesTo_S5x64_S_d0_1 h_S_) main_v51 main_c_19
  let main_v53 : IVec S_ 1 := andi main_v48 main_v52
  let main_v54 : FVec F S5x64 .f32 := Host.absf main_arg17
  let main_cst_20 : FVec F S_ .f32 := constant S_ .f32 0x7F800000#32
  let main_v55 : FVec F S5x64 .f32 := broadcastInDim S5x64 ![] bcast_S_S5x64 main_cst_20
  let main_v56 : IVec S5x64 1 := cmpf .olt main_v54 main_v55
  let main_c_21 : IVec S_ 1 := constantI S_ 1 1#1
  let main_v57 : IVec S_ 1 := (fun x v => Host.reduce IntOp.andi x v reducesTo_S5x64_S_d0_1 h_S_) main_v56 main_c_21
  let main_v58 : IVec S_ 1 := andi main_v53 main_v57
  let main_v59 : FVec F S100x64 .f32 := Host.absf main_arg18
  let main_cst_22 : FVec F S_ .f32 := constant S_ .f32 0x7F800000#32
  let main_v60 : FVec F S100x64 .f32 := broadcastInDim S100x64 ![] bcast_S_S100x64 main_cst_22
  let main_v61 : IVec S100x64 1 := cmpf .olt main_v59 main_v60
  let main_c_23 : IVec S_ 1 := constantI S_ 1 1#1
  let main_v62 : IVec S_ 1 := (fun x v => Host.reduce IntOp.andi x v reducesTo_S100x64_S_d0_1 h_S_) main_v61 main_c_23
  let main_v63 : IVec S_ 1 := andi main_v58 main_v62
  let main_v64 : FVec F S64 .f32 := Host.absf main_arg19
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg20 main_arg21 main_arg22 main_arg23 main_arg24 main_arg25 main_arg26 main_arg27 main_arg28 main_arg29 main_arg30 main_arg31 main_v63 main_v67

def fn_part2 {F : FTy → Type} [FloatOps F] (main_arg13 : FVec F S5x64 .f32) (main_arg14 : FVec F S5x6x64 .f32) (main_arg15 : FVec F S5x3x64 .f32) (main_arg16 : FVec F S5x64 .f32) (main_arg17 : FVec F S5x64 .f32) (main_arg18 : FVec F S100x64 .f32) (main_arg19 : FVec F S64 .f32) (main_arg20 : FVec F S100x64 .f32) (main_arg21 : FVec F S64x64 .f32) (main_arg22 : FVec F S64 .f32) (main_arg23 : FVec F S64x64 .f32) (main_arg24 : FVec F S128x64 .f32) (main_arg25 : FVec F S64 .f32) (main_arg26 : FVec F S64x32 .f32) (main_arg27 : FVec F S32 .f32) (main_arg28 : FVec F S32x16 .f32) (main_arg29 : FVec F S16 .f32) (main_arg30 : FVec F S16x1 .f32) (main_arg31 : FVec F S1 .f32) (main_v33 : IVec S_ 1) : IVec S_ 1 :=
  let main_v34 : FVec F S5x64 .f32 := Host.absf main_arg13
  let main_cst_12 : FVec F S_ .f32 := constant S_ .f32 0x7F800000#32
  let main_v35 : FVec F S5x64 .f32 := broadcastInDim S5x64 ![] bcast_S_S5x64 main_cst_12
  let main_v36 : IVec S5x64 1 := cmpf .olt main_v34 main_v35
  let main_c_13 : IVec S_ 1 := constantI S_ 1 1#1
  let main_v37 : IVec S_ 1 := (fun x v => Host.reduce IntOp.andi x v reducesTo_S5x64_S_d0_1 h_S_) main_v36 main_c_13
  let main_v38 : IVec S_ 1 := andi main_v33 main_v37
  let main_v39 : FVec F S5x6x64 .f32 := Host.absf main_arg14
  let main_cst_14 : FVec F S_ .f32 := constant S_ .f32 0x7F800000#32
  let main_v40 : FVec F S5x6x64 .f32 := broadcastInDim S5x6x64 ![] bcast_S_S5x6x64 main_cst_14
  let main_v41 : IVec S5x6x64 1 := cmpf .olt main_v39 main_v40
  let main_c_15 : IVec S_ 1 := constantI S_ 1 1#1
  let main_v42 : IVec S_ 1 := (fun x v => Host.reduce IntOp.andi x v reducesTo_S5x6x64_S_d0_1_2 h_S_) main_v41 main_c_15
  let main_v43 : IVec S_ 1 := andi main_v38 main_v42
  let main_v44 : FVec F S5x3x64 .f32 := Host.absf main_arg15
  let main_cst_16 : FVec F S_ .f32 := constant S_ .f32 0x7F800000#32
  let main_v45 : FVec F S5x3x64 .f32 := broadcastInDim S5x3x64 ![] bcast_S_S5x3x64 main_cst_16
  let main_v46 : IVec S5x3x64 1 := cmpf .olt main_v44 main_v45
  let main_c_17 : IVec S_ 1 := constantI S_ 1 1#1
  let main_v47 : IVec S_ 1 := (fun x v => Host.reduce IntOp.andi x v reducesTo_S5x3x64_S_d0_1_2 h_S_) main_v46 main_c_17
  let main_v48 : IVec S_ 1 := andi main_v43 main_v47
  let main_v49 : FVec F S5x64 .f32 := Host.absf main_arg16
  let main_cst_18 : FVec F S_ .f32 := constant S_ .f32 0x7F800000#32
  let main_v50 : FVec F S5x64 .f32 := broadcastInDim S5x64 ![] bcast_S_S5x64 main_cst_18
  fn_part3 (F := F) main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg10 : FVec F S5x64x128 .f32) (main_arg11 : FVec F S5x128 .f32) (main_arg12 : FVec F S5x128x64 .f32) (main_arg13 : FVec F S5x64 .f32) (main_arg14 : FVec F S5x6x64 .f32) (main_arg15 : FVec F S5x3x64 .f32) (main_arg16 : FVec F S5x64 .f32) (main_arg17 : FVec F S5x64 .f32) (main_arg18 : FVec F S100x64 .f32) (main_arg19 : FVec F S64 .f32) (main_arg20 : FVec F S100x64 .f32) (main_arg21 : FVec F S64x64 .f32) (main_arg22 : FVec F S64 .f32) (main_arg23 : FVec F S64x64 .f32) (main_arg24 : FVec F S128x64 .f32) (main_arg25 : FVec F S64 .f32) (main_arg26 : FVec F S64x32 .f32) (main_arg27 : FVec F S32 .f32) (main_arg28 : FVec F S32x16 .f32) (main_arg29 : FVec F S16 .f32) (main_arg30 : FVec F S16x1 .f32) (main_arg31 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S5x64x128 .f32 := Host.absf main_arg10
  let main_cst_6 : FVec F S_ .f32 := constant S_ .f32 0x7F800000#32
  let main_v20 : FVec F S5x64x128 .f32 := broadcastInDim S5x64x128 ![] bcast_S_S5x64x128 main_cst_6
  let main_v21 : IVec S5x64x128 1 := cmpf .olt main_v19 main_v20
  let main_c_7 : IVec S_ 1 := constantI S_ 1 1#1
  let main_v22 : IVec S_ 1 := (fun x v => Host.reduce IntOp.andi x v reducesTo_S5x64x128_S_d0_1_2 h_S_) main_v21 main_c_7
  let main_v23 : IVec S_ 1 := andi main_v18 main_v22
  let main_v24 : FVec F S5x128 .f32 := Host.absf main_arg11
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128x64 .f32 := Host.absf main_arg12
  let main_cst_10 : FVec F S_ .f32 := constant S_ .f32 0x7F800000#32
  let main_v30 : FVec F S5x128x64 .f32 := broadcastInDim S5x128x64 ![] bcast_S_S5x128x64 main_cst_10
  let main_v31 : IVec S5x128x64 1 := cmpf .olt main_v29 main_v30
  let main_c_11 : IVec S_ 1 := constantI S_ 1 1#1
  let main_v32 : IVec S_ 1 := (fun x v => Host.reduce IntOp.andi x v reducesTo_S5x128x64_S_d0_1_2 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S51200x40 .f32) (main_arg1 : IVec S2x819200 32) (main_arg2 : IVec S819200x2 32) (main_arg3 : IVec S51200 32) (main_arg4 : FVec F S102400x36 .f32) (main_arg5 : IVec S2x409600 32) (main_arg6 : IVec S2x204800 32) (main_arg7 : IVec S102400 32) (main_arg8 : FVec F S40x64 .f32) (main_arg9 : FVec F S64 .f32) (main_arg10 : FVec F S5x64x128 .f32) (main_arg11 : FVec F S5x128 .f32) (main_arg12 : FVec F S5x128x64 .f32) (main_arg13 : FVec F S5x64 .f32) (main_arg14 : FVec F S5x6x64 .f32) (main_arg15 : FVec F S5x3x64 .f32) (main_arg16 : FVec F S5x64 .f32) (main_arg17 : FVec F S5x64 .f32) (main_arg18 : FVec F S100x64 .f32) (main_arg19 : FVec F S64 .f32) (main_arg20 : FVec F S100x64 .f32) (main_arg21 : FVec F S64x64 .f32) (main_arg22 : FVec F S64 .f32) (main_arg23 : FVec F S64x64 .f32) (main_arg24 : FVec F S128x64 .f32) (main_arg25 : FVec F S64 .f32) (main_arg26 : FVec F S64x32 .f32) (main_arg27 : FVec F S32 .f32) (main_arg28 : FVec F S32x16 .f32) (main_arg29 : FVec F S16 .f32) (main_arg30 : FVec F S16x1 .f32) (main_arg31 : FVec F S1 .f32) : IVec S_ 1 :=
  let main_v0 : FVec F S51200x40 .f32 := Host.absf main_arg0
  let main_cst : FVec F S_ .f32 := constant S_ .f32 0x7F800000#32
  let main_v1 : FVec F S51200x40 .f32 := broadcastInDim S51200x40 ![] bcast_S_S51200x40 main_cst
  let main_v2 : IVec S51200x40 1 := cmpf .olt main_v0 main_v1
  let main_c : IVec S_ 1 := constantI S_ 1 1#1
  let main_v3 : IVec S_ 1 := (fun x v => Host.reduce IntOp.andi x v reducesTo_S51200x40_S_d0_1 h_S_) main_v2 main_c
  let main_v4 : FVec F S102400x36 .f32 := Host.absf main_arg4
  let main_cst_0 : FVec F S_ .f32 := constant S_ .f32 0x7F800000#32
  let main_v5 : FVec F S102400x36 .f32 := broadcastInDim S102400x36 ![] bcast_S_S102400x36 main_cst_0
  let main_v6 : IVec S102400x36 1 := cmpf .olt main_v4 main_v5
  let main_c_1 : IVec S_ 1 := constantI S_ 1 1#1
  let main_v7 : IVec S_ 1 := (fun x v => Host.reduce IntOp.andi x v reducesTo_S102400x36_S_d0_1 h_S_) main_v6 main_c_1
  let main_v8 : IVec S_ 1 := andi main_v3 main_v7
  let main_v9 : FVec F S40x64 .f32 := Host.absf main_arg8
  let main_cst_2 : FVec F S_ .f32 := constant S_ .f32 0x7F800000#32
  let main_v10 : FVec F S40x64 .f32 := broadcastInDim S40x64 ![] bcast_S_S40x64 main_cst_2
  let main_v11 : IVec S40x64 1 := cmpf .olt main_v9 main_v10
  let main_c_3 : IVec S_ 1 := constantI S_ 1 1#1
  let main_v12 : IVec S_ 1 := (fun x v => Host.reduce IntOp.andi x v reducesTo_S40x64_S_d0_1 h_S_) main_v11 main_c_3
  let main_v13 : IVec S_ 1 := andi main_v8 main_v12
  let main_v14 : FVec F S64 .f32 := Host.absf main_arg9
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S51200x40 : Shape := ⟨2, ![51200, 40]⟩
abbrev S2x819200 : Shape := ⟨2, ![2, 819200]⟩
abbrev S819200x2 : Shape := ⟨2, ![819200, 2]⟩
abbrev S51200 : Shape := ⟨1, ![51200]⟩
abbrev S102400x36 : Shape := ⟨2, ![102400, 36]⟩
abbrev S2x409600 : Shape := ⟨2, ![2, 409600]⟩
abbrev S2x204800 : Shape := ⟨2, ![2, 204800]⟩
abbrev S102400 : Shape := ⟨1, ![102400]⟩
abbrev S40x64 : Shape := ⟨2, ![40, 64]⟩
abbrev S64 : Shape := ⟨1, ![64]⟩
abbrev S5x64x128 : Shape := ⟨3, ![5, 64, 128]⟩
abbrev S5x128 : Shape := ⟨2, ![5, 128]⟩
abbrev S5x128x64 : Shape := ⟨3, ![5, 128, 64]⟩
abbrev S5x64 : Shape := ⟨2, ![5, 64]⟩
abbrev S5x6x64 : Shape := ⟨3, ![5, 6, 64]⟩
abbrev S5x3x64 : Shape := ⟨3, ![5, 3, 64]⟩
abbrev S100x64 : Shape := ⟨2, ![100, 64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x2 : Shape := ⟨2, ![1, 2]⟩
abbrev S1x819200 : Shape := ⟨2, ![1, 819200]⟩
abbrev S819200 : Shape := ⟨1, ![819200]⟩
abbrev S870400 : Shape := ⟨1, ![870400]⟩
abbrev S1x1x1x2 : Shape := ⟨4, ![1, 1, 1, 2]⟩
abbrev S51200x1x1x2 : Shape := ⟨4, ![51200, 1, 1, 2]⟩
abbrev S51200x2 : Shape := ⟨2, ![51200, 2]⟩
abbrev S870400x2 : Shape := ⟨2, ![870400, 2]⟩
abbrev S51200x64 : Shape := ⟨2, ![51200, 64]⟩
abbrev S1x64 : Shape := ⟨2, ![1, 64]⟩
abbrev S_ : Shape := ⟨0, ![]⟩
abbrev S1x6x64 : Shape := ⟨3, ![1, 6, 64]⟩
abbrev S6x64 : Shape := ⟨2, ![6, 64]⟩
abbrev S870400x1 : Shape := ⟨2, ![870400, 1]⟩
abbrev S870400x64 : Shape := ⟨2, ![870400, 64]⟩
abbrev S1x3x64 : Shape := ⟨3, ![1, 3, 64]⟩
abbrev S3x64 : Shape := ⟨2, ![3, 64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S6400x64 : Shape := ⟨2, ![6400, 64]⟩
abbrev S6400x128 : Shape := ⟨2, ![6400, 128]⟩
abbrev S256x64 : Shape := ⟨2, ![256, 64]⟩
abbrev S51200x1 : Shape := ⟨2, ![51200, 1]⟩
abbrev S256 : Shape := ⟨1, ![256]⟩
abbrev S256x1 : Shape := ⟨2, ![256, 1]⟩
abbrev S1x204800 : Shape := ⟨2, ![1, 204800]⟩
abbrev S204800 : Shape := ⟨1, ![204800]⟩
abbrev S204800x1 : Shape := ⟨2, ![204800, 1]⟩
abbrev S204800x64 : Shape := ⟨2, ![204800, 64]⟩
abbrev S102400x64 : Shape := ⟨2, ![102400, 64]⟩
abbrev S102400x1 : Shape := ⟨2, ![102400, 1]⟩
abbrev S102400x100 : Shape := ⟨2, ![102400, 100]⟩
abbrev S1x409600 : Shape := ⟨2, ![1, 409600]⟩
abbrev S409600 : Shape := ⟨1, ![409600]⟩
abbrev S409600x1 : Shape := ⟨2, ![409600, 1]⟩
abbrev S409600x100 : Shape := ⟨2, ![409600, 100]⟩
abbrev S6400x100 : Shape := ⟨2, ![6400, 100]⟩
abbrev S409600x64 : Shape := ⟨2, ![409600, 64]⟩
abbrev S1x32 : Shape := ⟨2, ![1, 32]⟩
abbrev S1x16 : Shape := ⟨2, ![1, 16]⟩
abbrev S1x1 : Shape := ⟨2, ![1, 1]⟩
abbrev S256x128 : Shape := ⟨2, ![256, 128]⟩
abbrev S256x32 : Shape := ⟨2, ![256, 32]⟩
abbrev S256x16 : Shape := ⟨2, ![256, 16]⟩

abbrev nBuf : Space → Nat
  | .hbm => 602
  | .vmem => 109
  | .smem => 0
  | _ => 0

abbrev hbmTy0_0 (i : Nat) : BufTy := match i % 128 with
  | 0 => ⟨S51200x40, .f32⟩
  | 1 => ⟨S2x819200, .i32⟩
  | 2 => ⟨S819200x2, .i32⟩
  | 3 => ⟨S51200, .i32⟩
  | 4 => ⟨S102400x36, .f32⟩
  | 5 => ⟨S2x409600, .i32⟩
  | 6 => ⟨S2x204800, .i32⟩
  | 7 => ⟨S102400, .i32⟩
  | 8 => ⟨S40x64, .f32⟩
  | 9 => ⟨S64, .f32⟩
  | 10 => ⟨S5x64x128, .f32⟩
  | 11 => ⟨S5x128, .f32⟩
  | 12 => ⟨S5x128x64, .f32⟩
  | 13 => ⟨S5x64, .f32⟩
  | 14 => ⟨S5x6x64, .f32⟩
  | 15 => ⟨S5x3x64, .f32⟩
  | 16 => ⟨S5x64, .f32⟩
  | 17 => ⟨S5x64, .f32⟩
  | 18 => ⟨S100x64, .f32⟩
  | 19 => ⟨S64, .f32⟩
  | 20 => ⟨S100x64, .f32⟩
  | 21 => ⟨S64x64, .f32⟩
  | 22 => ⟨S64, .f32⟩
  | 23 => ⟨S64x64, .f32⟩
  | 24 => ⟨S128x64, .f32⟩
  | 25 => ⟨S64, .f32⟩
  | 26 => ⟨S64x32, .f32⟩
  | 27 => ⟨S32, .f32⟩
  | 28 => ⟨S32x16, .f32⟩
  | 29 => ⟨S16, .f32⟩
  | 30 => ⟨S16x1, .f32⟩
  | 31 => ⟨S1, .f32⟩
  | 32 => ⟨S1x2, .i32⟩
  | 33 => ⟨S51200, .i32⟩
  | 34 => ⟨S1x819200, .i32⟩
  | 35 => ⟨S819200, .i32⟩
  | 36 => ⟨S870400, .i32⟩
  | 37 => ⟨S1x819200, .i32⟩
  | 38 => ⟨S819200, .i32⟩
  | 39 => ⟨S870400, .i32⟩
  | 40 => ⟨S1x1x1x2, .i32⟩
  | 41 => ⟨S51200x1x1x2, .i32⟩
  | 42 => ⟨S51200x2, .i32⟩
  | 43 => ⟨S870400x2, .i32⟩
  | 44 => ⟨S51200x64, .f32⟩
  | 45 => ⟨S1x64, .f32⟩
  | 46 => ⟨S51200x64, .f32⟩
  | 47 => ⟨S51200x64, .f32⟩
  | 48 => ⟨S_, .f32⟩
  | 49 => ⟨S51200x64, .f32⟩
  | 50 => ⟨S51200x64, .f32⟩
  | 51 => ⟨S1x6x64, .f32⟩
  | 52 => ⟨S6x64, .f32⟩
  | 53 => ⟨S870400x1, .i32⟩
  | 54 => ⟨S870400, .i32⟩
  | 55 => ⟨S_, .i32⟩
  | 56 => ⟨S870400, .i32⟩
  | 57 => ⟨S870400, .i1⟩
  | 58 => ⟨S_, .i32⟩
  | 59 => ⟨S870400, .i32⟩
  | 60 => ⟨S870400, .i32⟩
  | 61 => ⟨S870400, .i32⟩
  | 62 => ⟨S870400x1, .i32⟩
  | 63 => ⟨S870400x64, .f32⟩
  | 64 => ⟨S1x3x64, .f32⟩
  | 65 => ⟨S3x64, .f32⟩
  | 66 => ⟨S870400x1, .i32⟩
  | 67 => ⟨S870400, .i32⟩
  | 68 => ⟨S_, .i32⟩
  | 69 => ⟨S870400, .i32⟩
  | 70 => ⟨S870400, .i1⟩
  | 71 => ⟨S_, .i32⟩
  | 72 => ⟨S870400, .i32⟩
  | 73 => ⟨S870400, .i32⟩
  | 74 => ⟨S870400, .i32⟩
  | 75 => ⟨S870400x1, .i32⟩
  | 76 => ⟨S870400x64, .f32⟩
  | 77 => ⟨S870400x64, .f32⟩
  | 78 => ⟨S_, .i32⟩
  | 79 => ⟨S870400, .i32⟩
  | 80 => ⟨S870400, .i1⟩
  | 81 => ⟨S_, .i32⟩
  | 82 => ⟨S870400, .i32⟩
  | 83 => ⟨S870400, .i32⟩
  | 84 => ⟨S870400, .i32⟩
  | 85 => ⟨S870400x1, .i32⟩
  | 86 => ⟨S870400x64, .f32⟩
  | 87 => ⟨S870400x64, .f32⟩
  | 88 => ⟨S_, .f32⟩
  | 89 => ⟨S51200x64, .f32⟩
  | 90 => ⟨S870400x1, .i32⟩
  | 91 => ⟨S51200x64, .f32⟩
  | 92 => ⟨S1x64x128, .f32⟩
  | 93 => ⟨S64x128, .f32⟩
  | 94 => ⟨S1x128, .f32⟩
  | 95 => ⟨S128, .f32⟩
  | 96 => ⟨S1x128x64, .f32⟩
  | 97 => ⟨S128x64, .f32⟩
  | 98 => ⟨S1x64, .f32⟩
  | 99 => ⟨S64, .f32⟩
  | 100 => ⟨S1x128, .f32⟩
  | 101 => ⟨S1x64, .f32⟩
  | 102 => ⟨S51200x64, .f32⟩
  | 103 => ⟨S_, .f32⟩
  | 104 => ⟨S64, .f32⟩
  | 105 => ⟨S_, .f32⟩
  | 106 => ⟨S64, .f32⟩
  | 107 => ⟨S64, .f32⟩
  | 108 => ⟨S_, .i32⟩
  | 109 => ⟨S_, .f32⟩
  | 110 => ⟨S64, .f32⟩
  | 111 => ⟨S1x64, .f32⟩
  | 112 => ⟨S_, .f32⟩
  | 113 => ⟨S1x64, .f32⟩
  | 114 => ⟨S1x64, .f32⟩
  | 115 => ⟨S51200x64, .f32⟩
  | 116 => ⟨S51200x64, .f32⟩
  | 117 => ⟨S51200x64, .f32⟩
  | 118 => ⟨S_, .f32⟩
  | 119 => ⟨S_, .f32⟩
  | 120 => ⟨S_, .f32⟩
  | 121 => ⟨S_, .f32⟩
  | 122 => ⟨S64, .f32⟩
  | 123 => ⟨S64, .f32⟩
  | 124 => ⟨S64, .f32⟩
  | 125 => ⟨S_, .f32⟩
  | 126 => ⟨S_, .i1⟩
  | 127 => ⟨S_, .f32⟩
  | _ => ⟨S51200x40, .f32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64, .f32⟩
  | 8 => ⟨S1x64, .f32⟩
  | 9 => ⟨S1x64, .f32⟩
  | 10 => ⟨S1x64, .f32⟩
  | 11 => ⟨S51200x64, .f32⟩
  | 12 => ⟨S1x6x64, .f32⟩
  | 13 => ⟨S6x64, .f32⟩
  | 14 => ⟨S870400x1, .i32⟩
  | 15 => ⟨S870400, .i32⟩
  | 16 => ⟨S_, .i32⟩
  | 17 => ⟨S870400, .i32⟩
  | 18 => ⟨S870400, .i1⟩
  | 19 => ⟨S_, .i32⟩
  | 20 => ⟨S870400, .i32⟩
  | 21 => ⟨S870400, .i32⟩
  | 22 => ⟨S870400, .i32⟩
  | 23 => ⟨S870400x1, .i32⟩
  | 24 => ⟨S870400x64, .f32⟩
  | 25 => ⟨S1x3x64, .f32⟩
  | 26 => ⟨S3x64, .f32⟩
  | 27 => ⟨S870400x1, .i32⟩
  | 28 => ⟨S870400, .i32⟩
  | 29 => ⟨S_, .i32⟩
  | 30 => ⟨S870400, .i32⟩
  | 31 => ⟨S870400, .i1⟩
  | 32 => ⟨S_, .i32⟩
  | 33 => ⟨S870400, .i32⟩
  | 34 => ⟨S870400, .i32⟩
  | 35 => ⟨S870400, .i32⟩
  | 36 => ⟨S870400x1, .i32⟩
  | 37 => ⟨S870400x64, .f32⟩
  | 38 => ⟨S870400x64, .f32⟩
  | 39 => ⟨S_, .i32⟩
  | 40 => ⟨S870400, .i32⟩
  | 41 => ⟨S870400, .i1⟩
  | 42 => ⟨S_, .i32⟩
  | 43 => ⟨S870400, .i32⟩
  | 44 => ⟨S870400, .i32⟩
  | 45 => ⟨S870400, .i32⟩
  | 46 => ⟨S870400x1, .i32⟩
  | 47 => ⟨S870400x64, .f32⟩
  | 48 => ⟨S870400x64, .f32⟩
  | 49 => ⟨S_, .f32⟩
  | 50 => ⟨S51200x64, .f32⟩
  | 51 => ⟨S870400x1, .i32⟩
  | 52 => ⟨S51200x64, .f32⟩
  | 53 => ⟨S1x64x128, .f32⟩
  | 54 => ⟨S64x128, .f32⟩
  | 55 => ⟨S1x128, .f32⟩
  | 56 => ⟨S128, .f32⟩
  | 57 => ⟨S1x128x64, .f32⟩
  | 58 => ⟨S128x64, .f32⟩
  | 59 => ⟨S1x64, .f32⟩
  | 60 => ⟨S64, .f32⟩
  | 61 => ⟨S1x128, .f32⟩
  | 62 => ⟨S1x64, .f32⟩
  | 63 => ⟨S51200x64, .f32⟩
  | 64 => ⟨S_, .f32⟩
  | 65 => ⟨S64, .f32⟩
  | 66 => ⟨S_, .f32⟩
  | 67 => ⟨S64, .f32⟩
  | 68 => ⟨S64, .f32⟩
  | 69 => ⟨S_, .i32⟩
  | 70 => ⟨S_, .f32⟩
  | 71 => ⟨S64, .f32⟩
  | 72 => ⟨S1x64, .f32⟩
  | 73 => ⟨S_, .f32⟩
  | 74 => ⟨S1x64, .f32⟩
  | 75 => ⟨S1x64, .f32⟩
  | 76 => ⟨S51200x64, .f32⟩
  | 77 => ⟨S51200x64, .f32⟩
  | 78 => ⟨S51200x64, .f32⟩
  | 79 => ⟨S_, .f32⟩
  | 80 => ⟨S_, .f32⟩
  | 81 => ⟨S_, .f32⟩
  | 82 => ⟨S_, .f32⟩
  | 83 => ⟨S64, .f32⟩
  | 84 => ⟨S64, .f32⟩
  | 85 => ⟨S64, .f32⟩
  | 86 => ⟨S_, .f32⟩
  | 87 => ⟨S_, .i1⟩
  | 88 => ⟨S_, .f32⟩
  | 89 => ⟨S_, .f32⟩
  | 90 => ⟨S64, .f32⟩
  | 91 => ⟨S64, .f32⟩
  | 92 => ⟨S1x64, .f32⟩
  | 93 => ⟨S64, .f32⟩
  | 94 => ⟨S1x64, .f32⟩
  | 95 => ⟨S64, .f32⟩
  | 96 => ⟨S1x64, .f32⟩
  | 97 => ⟨S1x64, .f32⟩
  | 98 => ⟨S1x64, .f32⟩
  | 99 => ⟨S1x64, .f32⟩
  | 100 => ⟨S51200x64, .f32⟩
  | 101 => ⟨S1x6x64, .f32⟩
  | 102 => ⟨S6x64, .f32⟩
  | 103 => ⟨S870400x1, .i32⟩
  | 104 => ⟨S870400, .i32⟩
  | 105 => ⟨S_, .i32⟩
  | 106 => ⟨S870400, .i32⟩
  | 107 => ⟨S870400, .i1⟩
  | 108 => ⟨S_, .i32⟩
  | 109 => ⟨S870400, .i32⟩
  | 110 => ⟨S870400, .i32⟩
  | 111 => ⟨S870400, .i32⟩
  | 112 => ⟨S870400x1, .i32⟩
  | 113 => ⟨S870400x64, .f32⟩
  | 114 => ⟨S1x3x64, .f32⟩
  | 115 => ⟨S3x64, .f32⟩
  | 116 => ⟨S870400x1, .i32⟩
  | 117 => ⟨S870400, .i32⟩
  | 118 => ⟨S_, .i32⟩
  | 119 => ⟨S870400, .i32⟩
  | 120 => ⟨S870400, .i1⟩
  | 121 => ⟨S_, .i32⟩
  | 122 => ⟨S870400, .i32⟩
  | 123 => ⟨S870400, .i32⟩
  | 124 => ⟨S870400, .i32⟩
  | 125 => ⟨S870400x1, .i32⟩
  | 126 => ⟨S870400x64, .f32⟩
  | 127 => ⟨S870400x64, .f32⟩
  | _ => ⟨S51200x40, .f32⟩

abbrev hbmTy0_2 (i : Nat) : BufTy := match i % 128 with
  | 0 => ⟨S_, .i32⟩
  | 1 => ⟨S870400, .i32⟩
  | 2 => ⟨S870400, .i1⟩
  | 3 => ⟨S_, .i32⟩
  | 4 => ⟨S870400, .i32⟩
  | 5 => ⟨S870400, .i32⟩
  | 6 => ⟨S870400, .i32⟩
  | 7 => ⟨S870400x1, .i32⟩
  | 8 => ⟨S870400x64, .f32⟩
  | 9 => ⟨S870400x64, .f32⟩
  | 10 => ⟨S_, .f32⟩
  | 11 => ⟨S51200x64, .f32⟩
  | 12 => ⟨S870400x1, .i32⟩
  | 13 => ⟨S51200x64, .f32⟩
  | 14 => ⟨S1x64x128, .f32⟩
  | 15 => ⟨S64x128, .f32⟩
  | 16 => ⟨S1x128, .f32⟩
  | 17 => ⟨S128, .f32⟩
  | 18 => ⟨S1x128x64, .f32⟩
  | 19 => ⟨S128x64, .f32⟩
  | 20 => ⟨S1x64, .f32⟩
  | 21 => ⟨S64, .f32⟩
  | 22 => ⟨S1x128, .f32⟩
  | 23 => ⟨S1x64, .f32⟩
  | 24 => ⟨S51200x64, .f32⟩
  | 25 => ⟨S_, .f32⟩
  | 26 => ⟨S64, .f32⟩
  | 27 => ⟨S_, .f32⟩
  | 28 => ⟨S64, .f32⟩
  | 29 => ⟨S64, .f32⟩
  | 30 => ⟨S_, .i32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S51200x64, .f32⟩
  | 38 => ⟨S51200x64, .f32⟩
  | 39 => ⟨S51200x64, .f32⟩
  | 40 => ⟨S_, .f32⟩
  | 41 => ⟨S_, .f32⟩
  | 42 => ⟨S_, .f32⟩
  | 43 => ⟨S_, .f32⟩
  | 44 => ⟨S64, .f32⟩
  | 45 => ⟨S64, .f32⟩
  | 46 => ⟨S64, .f32⟩
  | 47 => ⟨S_, .f32⟩
  | 48 => ⟨S_, .i1⟩
  | 49 => ⟨S_, .f32⟩
  | 50 => ⟨S_, .f32⟩
  | 51 => ⟨S64, .f32⟩
  | 52 => ⟨S64, .f32⟩
  | 53 => ⟨S1x64, .f32⟩
  | 54 => ⟨S64, .f32⟩
  | 55 => ⟨S1x64, .f32⟩
  | 56 => ⟨S64, .f32⟩
  | 57 => ⟨S1x64, .f32⟩
  | 58 => ⟨S1x64, .f32⟩
  | 59 => ⟨S1x64, .f32⟩
  | 60 => ⟨S1x64, .f32⟩
  | 61 => ⟨S51200x64, .f32⟩
  | 62 => ⟨S1x6x64, .f32⟩
  | 63 => ⟨S6x64, .f32⟩
  | 64 => ⟨S870400x1, .i32⟩
  | 65 => ⟨S870400, .i32⟩
  | 66 => ⟨S_, .i32⟩
  | 67 => ⟨S870400, .i32⟩
  | 68 => ⟨S870400, .i1⟩
  | 69 => ⟨S_, .i32⟩
  | 70 => ⟨S870400, .i32⟩
  | 71 => ⟨S870400, .i32⟩
  | 72 => ⟨S870400, .i32⟩
  | 73 => ⟨S870400x1, .i32⟩
  | 74 => ⟨S870400x64, .f32⟩
  | 75 => ⟨S1x3x64, .f32⟩
  | 76 => ⟨S3x64, .f32⟩
  | 77 => ⟨S870400x1, .i32⟩
  | 78 => ⟨S870400, .i32⟩
  | 79 => ⟨S_, .i32⟩
  | 80 => ⟨S870400, .i32⟩
  | 81 => ⟨S870400, .i1⟩
  | 82 => ⟨S_, .i32⟩
  | 83 => ⟨S870400, .i32⟩
  | 84 => ⟨S870400, .i32⟩
  | 85 => ⟨S870400, .i32⟩
  | 86 => ⟨S870400x1, .i32⟩
  | 87 => ⟨S870400x64, .f32⟩
  | 88 => ⟨S870400x64, .f32⟩
  | 89 => ⟨S_, .i32⟩
  | 90 => ⟨S870400, .i32⟩
  | 91 => ⟨S870400, .i1⟩
  | 92 => ⟨S_, .i32⟩
  | 93 => ⟨S870400, .i32⟩
  | 94 => ⟨S870400, .i32⟩
  | 95 => ⟨S870400, .i32⟩
  | 96 => ⟨S870400x1, .i32⟩
  | 97 => ⟨S870400x64, .f32⟩
  | 98 => ⟨S870400x64, .f32⟩
  | 99 => ⟨S_, .f32⟩
  | 100 => ⟨S51200x64, .f32⟩
  | 101 => ⟨S870400x1, .i32⟩
  | 102 => ⟨S51200x64, .f32⟩
  | 103 => ⟨S1x64x128, .f32⟩
  | 104 => ⟨S64x128, .f32⟩
  | 105 => ⟨S1x128, .f32⟩
  | 106 => ⟨S128, .f32⟩
  | 107 => ⟨S1x128x64, .f32⟩
  | 108 => ⟨S128x64, .f32⟩
  | 109 => ⟨S1x64, .f32⟩
  | 110 => ⟨S64, .f32⟩
  | 111 => ⟨S1x128, .f32⟩
  | 112 => ⟨S1x64, .f32⟩
  | 113 => ⟨S51200x64, .f32⟩
  | 114 => ⟨S_, .f32⟩
  | 115 => ⟨S64, .f32⟩
  | 116 => ⟨S_, .f32⟩
  | 117 => ⟨S64, .f32⟩
  | 118 => ⟨S64, .f32⟩
  | 119 => ⟨S_, .i32⟩
  | 120 => ⟨S_, .f32⟩
  | 121 => ⟨S64, .f32⟩
  | 122 => ⟨S1x64, .f32⟩
  | 123 => ⟨S_, .f32⟩
  | 124 => ⟨S1x64, .f32⟩
  | 125 => ⟨S1x64, .f32⟩
  | 126 => ⟨S51200x64, .f32⟩
  | 127 => ⟨S51200x64, .f32⟩
  | _ => ⟨S51200x40, .f32⟩

abbrev hbmTy0_3 (i : Nat) : BufTy := match i % 128 with
  | 0 => ⟨S51200x64, .f32⟩
  | 1 => ⟨S_, .f32⟩
  | 2 => ⟨S_, .f32⟩
  | 3 => ⟨S_, .f32⟩
  | 4 => ⟨S_, .f32⟩
  | 5 => ⟨S64, .f32⟩
  | 6 => ⟨S64, .f32⟩
  | 7 => ⟨S64, .f32⟩
  | 8 => ⟨S_, .f32⟩
  | 9 => ⟨S_, .i1⟩
  | 10 => ⟨S_, .f32⟩
  | 11 => ⟨S_, .f32⟩
  | 12 => ⟨S64, .f32⟩
  | 13 => ⟨S64, .f32⟩
  | 14 => ⟨S1x64, .f32⟩
  | 15 => ⟨S64, .f32⟩
  | 16 => ⟨S1x64, .f32⟩
  | 17 => ⟨S64, .f32⟩
  | 18 => ⟨S1x64, .f32⟩
  | 19 => ⟨S1x64, .f32⟩
  | 20 => ⟨S1x64, .f32⟩
  | 21 => ⟨S1x64, .f32⟩
  | 22 => ⟨S51200x64, .f32⟩
  | 23 => ⟨S1x6x64, .f32⟩
  | 24 => ⟨S6x64, .f32⟩
  | 25 => ⟨S870400x1, .i32⟩
  | 26 => ⟨S870400, .i32⟩
  | 27 => ⟨S_, .i32⟩
  | 28 => ⟨S870400, .i32⟩
  | 29 => ⟨S870400, .i1⟩
  | 30 => ⟨S_, .i32⟩
  | 31 => ⟨S870400, .i32⟩
  | 32 => ⟨S870400, .i32⟩
  | 33 => ⟨S870400, .i32⟩
  | 34 => ⟨S870400x1, .i32⟩
  | 35 => ⟨S870400x64, .f32⟩
  | 36 => ⟨S1x3x64, .f32⟩
  | 37 => ⟨S3x64, .f32⟩
  | 38 => ⟨S870400x1, .i32⟩
  | 39 => ⟨S870400, .i32⟩
  | 40 => ⟨S_, .i32⟩
  | 41 => ⟨S870400, .i32⟩
  | 42 => ⟨S870400, .i1⟩
  | 43 => ⟨S_, .i32⟩
  | 44 => ⟨S870400, .i32⟩
  | 45 => ⟨S870400, .i32⟩
  | 46 => ⟨S870400, .i32⟩
  | 47 => ⟨S870400x1, .i32⟩
  | 48 => ⟨S870400x64, .f32⟩
  | 49 => ⟨S870400x64, .f32⟩
  | 50 => ⟨S_, .i32⟩
  | 51 => ⟨S870400, .i32⟩
  | 52 => ⟨S870400, .i1⟩
  | 53 => ⟨S_, .i32⟩
  | 54 => ⟨S870400, .i32⟩
  | 55 => ⟨S870400, .i32⟩
  | 56 => ⟨S870400, .i32⟩
  | 57 => ⟨S870400x1, .i32⟩
  | 58 => ⟨S870400x64, .f32⟩
  | 59 => ⟨S870400x64, .f32⟩
  | 60 => ⟨S_, .f32⟩
  | 61 => ⟨S51200x64, .f32⟩
  | 62 => ⟨S870400x1, .i32⟩
  | 63 => ⟨S51200x64, .f32⟩
  | 64 => ⟨S1x64x128, .f32⟩
  | 65 => ⟨S64x128, .f32⟩
  | 66 => ⟨S1x128, .f32⟩
  | 67 => ⟨S128, .f32⟩
  | 68 => ⟨S1x128x64, .f32⟩
  | 69 => ⟨S128x64, .f32⟩
  | 70 => ⟨S1x64, .f32⟩
  | 71 => ⟨S64, .f32⟩
  | 72 => ⟨S1x128, .f32⟩
  | 73 => ⟨S1x64, .f32⟩
  | 74 => ⟨S51200x64, .f32⟩
  | 75 => ⟨S_, .f32⟩
  | 76 => ⟨S64, .f32⟩
  | 77 => ⟨S_, .f32⟩
  | 78 => ⟨S64, .f32⟩
  | 79 => ⟨S64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S51200x64, .f32⟩
  | 88 => ⟨S51200x64, .f32⟩
  | 89 => ⟨S51200x64, .f32⟩
  | 90 => ⟨S_, .f32⟩
  | 91 => ⟨S_, .f32⟩
  | 92 => ⟨S_, .f32⟩
  | 93 => ⟨S_, .f32⟩
  | 94 => ⟨S64, .f32⟩
  | 95 => ⟨S64, .f32⟩
  | 96 => ⟨S64, .f32⟩
  | 97 => ⟨S_, .f32⟩
  | 98 => ⟨S_, .i1⟩
  | 99 => ⟨S_, .f32⟩
  | 100 => ⟨S_, .f32⟩
  | 101 => ⟨S64, .f32⟩
  | 102 => ⟨S64, .f32⟩
  | 103 => ⟨S1x64, .f32⟩
  | 104 => ⟨S64, .f32⟩
  | 105 => ⟨S1x64, .f32⟩
  | 106 => ⟨S64, .f32⟩
  | 107 => ⟨S1x64, .f32⟩
  | 108 => ⟨S1x64, .f32⟩
  | 109 => ⟨S1x64, .f32⟩
  | 110 => ⟨S1x64, .f32⟩
  | 111 => ⟨S51200x64, .f32⟩
  | 112 => ⟨S_, .f32⟩
  | 113 => ⟨S256x64, .f32⟩
  | 114 => ⟨S51200x1, .i32⟩
  | 115 => ⟨S256x64, .f32⟩
  | 116 => ⟨S_, .f32⟩
  | 117 => ⟨S51200, .f32⟩
  | 118 => ⟨S_, .f32⟩
  | 119 => ⟨S256, .f32⟩
  | 120 => ⟨S51200x1, .i32⟩
  | 121 => ⟨S256, .f32⟩
  | 122 => ⟨S_, .f32⟩
  | 123 => ⟨S256, .f32⟩
  | 124 => ⟨S256, .f32⟩
  | 125 => ⟨S256x1, .f32⟩
  | 126 => ⟨S256x64, .f32⟩
  | 127 => ⟨S256x64, .f32⟩
  | _ => ⟨S51200x40, .f32⟩

abbrev hbmTy0_4 (i : Nat) : BufTy := match i % 128 with
  | 0 => ⟨S1x204800, .i32⟩
  | 1 => ⟨S204800, .i32⟩
  | 2 => ⟨S_, .i32⟩
  | 3 => ⟨S204800, .i32⟩
  | 4 => ⟨S204800, .i1⟩
  | 5 => ⟨S_, .i32⟩
  | 6 => ⟨S204800, .i32⟩
  | 7 => ⟨S204800, .i32⟩
  | 8 => ⟨S204800, .i32⟩
  | 9 => ⟨S204800x1, .i32⟩
  | 10 => ⟨S204800x64, .f32⟩
  | 11 => ⟨S1x204800, .i32⟩
  | 12 => ⟨S204800, .i32⟩
  | 13 => ⟨S_, .f32⟩
  | 14 => ⟨S102400x64, .f32⟩
  | 15 => ⟨S204800x1, .i32⟩
  | 16 => ⟨S102400x64, .f32⟩
  | 17 => ⟨S_, .f32⟩
  | 18 => ⟨S204800, .f32⟩
  | 19 => ⟨S_, .f32⟩
  | 20 => ⟨S102400, .f32⟩
  | 21 => ⟨S204800x1, .i32⟩
  | 22 => ⟨S102400, .f32⟩
  | 23 => ⟨S_, .f32⟩
  | 24 => ⟨S102400, .f32⟩
  | 25 => ⟨S102400, .f32⟩
  | 26 => ⟨S102400x1, .f32⟩
  | 27 => ⟨S102400x64, .f32⟩
  | 28 => ⟨S102400x64, .f32⟩
  | 29 => ⟨S102400x100, .f32⟩
  | 30 => ⟨S1x409600, .i32⟩
  | 31 => ⟨S409600, .i32⟩
  | 32 => ⟨S_, .i32⟩
  | 33 => ⟨S409600, .i32⟩
  | 34 => ⟨S409600, .i1⟩
  | 35 => ⟨S_, .i32⟩
  | 36 => ⟨S409600, .i32⟩
  | 37 => ⟨S409600, .i32⟩
  | 38 => ⟨S409600, .i32⟩
  | 39 => ⟨S409600x1, .i32⟩
  | 40 => ⟨S409600x100, .f32⟩
  | 41 => ⟨S1x409600, .i32⟩
  | 42 => ⟨S409600, .i32⟩
  | 43 => ⟨S_, .f32⟩
  | 44 => ⟨S102400x100, .f32⟩
  | 45 => ⟨S409600x1, .i32⟩
  | 46 => ⟨S102400x100, .f32⟩
  | 47 => ⟨S1x64, .f32⟩
  | 48 => ⟨S102400x64, .f32⟩
  | 49 => ⟨S1x409600, .i32⟩
  | 50 => ⟨S409600, .i32⟩
  | 51 => ⟨S_, .i32⟩
  | 52 => ⟨S409600, .i32⟩
  | 53 => ⟨S409600, .i1⟩
  | 54 => ⟨S_, .i32⟩
  | 55 => ⟨S409600, .i32⟩
  | 56 => ⟨S409600, .i32⟩
  | 57 => ⟨S409600, .i32⟩
  | 58 => ⟨S409600x1, .i32⟩
  | 59 => ⟨S409600x64, .f32⟩
  | 60 => ⟨S1x409600, .i32⟩
  | 61 => ⟨S409600, .i32⟩
  | 62 => ⟨S_, .f32⟩
  | 63 => ⟨S102400x64, .f32⟩
  | 64 => ⟨S409600x1, .i32⟩
  | 65 => ⟨S102400x64, .f32⟩
  | 66 => ⟨S1x64, .f32⟩
  | 67 => ⟨S102400x64, .f32⟩
  | 68 => ⟨S_, .f32⟩
  | 69 => ⟨S256x64, .f32⟩
  | 70 => ⟨S102400x1, .i32⟩
  | 71 => ⟨S256x64, .f32⟩
  | 72 => ⟨S_, .f32⟩
  | 73 => ⟨S102400, .f32⟩
  | 74 => ⟨S_, .f32⟩
  | 75 => ⟨S256, .f32⟩
  | 76 => ⟨S102400x1, .i32⟩
  | 77 => ⟨S256, .f32⟩
  | 78 => ⟨S_, .f32⟩
  | 79 => ⟨S256, .f32⟩
  | 80 => ⟨S256, .f32⟩
  | 81 => ⟨S256x1, .f32⟩
  | 82 => ⟨S256x64, .f32⟩
  | 83 => ⟨S256x64, .f32⟩
  | 84 => ⟨S1x64, .f32⟩
  | 85 => ⟨S1x32, .f32⟩
  | 86 => ⟨S1x16, .f32⟩
  | 87 => ⟨S1x1, .f32⟩
  | 88 => ⟨S256x1, .f32⟩
  | 89 => ⟨S256, .f32⟩
  | _ => ⟨S51200x40, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S51200x40, .f32⟩

abbrev bufTy : (tb : Table) → Fin (tcTables nBuf tb) → BufTy
  | .hbm, ⟨i, _⟩ => hbmTy i
  | .local _ .vmem, ⟨0, _⟩ => ⟨S6400x64, .f32⟩
  | .local _ .vmem, ⟨1, _⟩ => ⟨S6400x64, .f32⟩
  | .local _ .vmem, ⟨2, _⟩ => ⟨S64x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S6400x64, .f32⟩
  | .local _ .vmem, ⟨7, _⟩ => ⟨S6400x64, .f32⟩
  | .local _ .vmem, ⟨8, _⟩ => ⟨S6400x64, .f32⟩
  | .local _ .vmem, ⟨9, _⟩ => ⟨S6400x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S6400x64, .f32⟩
  | .local _ .vmem, ⟨15, _⟩ => ⟨S6400x64, .f32⟩
  | .local _ .vmem, ⟨16, _⟩ => ⟨S6400x64, .f32⟩
  | .local _ .vmem, ⟨17, _⟩ => ⟨S6400x64, .f32⟩
  | .local _ .vmem, ⟨18, _⟩ => ⟨S64x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S6400x64, .f32⟩
  | .local _ .vmem, ⟨23, _⟩ => ⟨S6400x64, .f32⟩
  | .local _ .vmem, ⟨24, _⟩ => ⟨S6400x64, .f32⟩
  | .local _ .vmem, ⟨25, _⟩ => ⟨S6400x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S6400x64, .f32⟩
  | .local _ .vmem, ⟨31, _⟩ => ⟨S6400x64, .f32⟩
  | .local _ .vmem, ⟨32, _⟩ => ⟨S6400x64, .f32⟩
  | .local _ .vmem, ⟨33, _⟩ => ⟨S6400x64, .f32⟩
  | .local _ .vmem, ⟨34, _⟩ => ⟨S64x128, .f32⟩
  | .local _ .vmem, ⟨35, _⟩ => ⟨S1x128, .f32⟩
  | .local _ .vmem, ⟨36, _⟩ => ⟨S128x64, .f32⟩
  | .local _ .vmem, ⟨37, _⟩ => ⟨S1x64, .f32⟩
  | .local _ .vmem, ⟨38, _⟩ => ⟨S6400x64, .f32⟩
  | .local _ .vmem, ⟨39, _⟩ => ⟨S6400x64, .f32⟩
  | .local _ .vmem, ⟨40, _⟩ => ⟨S6400x64, .f32⟩
  | .local _ .vmem, ⟨41, _⟩ => ⟨S6400x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S6400x64, .f32⟩
  | .local _ .vmem, ⟨47, _⟩ => ⟨S6400x64, .f32⟩
  | .local _ .vmem, ⟨48, _⟩ => ⟨S6400x64, .f32⟩
  | .local _ .vmem, ⟨49, _⟩ => ⟨S6400x64, .f32⟩
  | .local _ .vmem, ⟨50, _⟩ => ⟨S64x128, .f32⟩
  | .local _ .vmem, ⟨51, _⟩ => ⟨S1x128, .f32⟩
  | .local _ .vmem, ⟨52, _⟩ => ⟨S128x64, .f32⟩
  | .local _ .vmem, ⟨53, _⟩ => ⟨S1x64, .f32⟩
  | .local _ .vmem, ⟨54, _⟩ => ⟨S6400x64, .f32⟩
  | .local _ .vmem, ⟨55, _⟩ => ⟨S6400x64, .f32⟩
  | .local _ .vmem, ⟨56, _⟩ => ⟨S6400x64, .f32⟩
  | .local _ .vmem, ⟨57, _⟩ => ⟨S6400x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S6400x64, .f32⟩
  | .local _ .vmem, ⟨63, _⟩ => ⟨S6400x64, .f32⟩
  | .local _ .vmem, ⟨64, _⟩ => ⟨S6400x64, .f32⟩
  | .local _ .vmem, ⟨65, _⟩ => ⟨S6400x64, .f32⟩
  | .local _ .vmem, ⟨66, _⟩ => ⟨S64x128, .f32⟩
  | .local _ .vmem, ⟨67, _⟩ => ⟨S1x128, .f32⟩
  | .local _ .vmem, ⟨68, _⟩ => ⟨S128x64, .f32⟩
  | .local _ .vmem, ⟨69, _⟩ => ⟨S1x64, .f32⟩
  | .local _ .vmem, ⟨70, _⟩ => ⟨S6400x64, .f32⟩
  | .local _ .vmem, ⟨71, _⟩ => ⟨S6400x64, .f32⟩
  | .local _ .vmem, ⟨72, _⟩ => ⟨S6400x64, .f32⟩
  | .local _ .vmem, ⟨73, _⟩ => ⟨S6400x64, .f32⟩
  | .local _ .vmem, ⟨74, _⟩ => ⟨S1x64, .f32⟩
  | .local _ .vmem, ⟨75, _⟩ => ⟨S1x64, .f32⟩
  | .local _ .vmem, ⟨76, _⟩ => ⟨S1x64, .f32⟩
  | .local _ .vmem, ⟨77, _⟩ => ⟨S1x64, .f32⟩
  | .local _ .vmem, ⟨78, _⟩ => ⟨S6400x64, .f32⟩
  | .local _ .vmem, ⟨79, _⟩ => ⟨S6400x64, .f32⟩
  | .local _ .vmem, ⟨80, _⟩ => ⟨S6400x100, .f32⟩
  | .local _ .vmem, ⟨81, _⟩ => ⟨S6400x100, .f32⟩
  | .local _ .vmem, ⟨82, _⟩ => ⟨S6400x100, .f32⟩
  | .local _ .vmem, ⟨83, _⟩ => ⟨S6400x100, .f32⟩
  | .local _ .vmem, ⟨84, _⟩ => ⟨S100x64, .f32⟩
  | .local _ .vmem, ⟨85, _⟩ => ⟨S1x64, .f32⟩
  | .local _ .vmem, ⟨86, _⟩ => ⟨S100x64, .f32⟩
  | .local _ .vmem, ⟨87, _⟩ => ⟨S6400x64, .f32⟩
  | .local _ .vmem, ⟨88, _⟩ => ⟨S6400x64, .f32⟩
  | .local _ .vmem, ⟨89, _⟩ => ⟨S6400x64, .f32⟩
  | .local _ .vmem, ⟨90, _⟩ => ⟨S6400x64, .f32⟩
  | .local _ .vmem, ⟨91, _⟩ => ⟨S6400x64, .f32⟩
  | .local _ .vmem, ⟨92, _⟩ => ⟨S6400x64, .f32⟩
  | .local _ .vmem, ⟨93, _⟩ => ⟨S64x64, .f32⟩
  | .local _ .vmem, ⟨94, _⟩ => ⟨S1x64, .f32⟩
  | .local _ .vmem, ⟨95, _⟩ => ⟨S64x64, .f32⟩
  | .local _ .vmem, ⟨96, _⟩ => ⟨S6400x64, .f32⟩
  | .local _ .vmem, ⟨97, _⟩ => ⟨S6400x64, .f32⟩
  | .local _ .vmem, ⟨98, _⟩ => ⟨S256x64, .f32⟩
  | .local _ .vmem, ⟨99, _⟩ => ⟨S256x64, .f32⟩
  | .local _ .vmem, ⟨100, _⟩ => ⟨S128x64, .f32⟩
  | .local _ .vmem, ⟨101, _⟩ => ⟨S1x64, .f32⟩
  | .local _ .vmem, ⟨102, _⟩ => ⟨S64x32, .f32⟩
  | .local _ .vmem, ⟨103, _⟩ => ⟨S1x32, .f32⟩
  | .local _ .vmem, ⟨104, _⟩ => ⟨S32x16, .f32⟩
  | .local _ .vmem, ⟨105, _⟩ => ⟨S1x16, .f32⟩
  | .local _ .vmem, ⟨106, _⟩ => ⟨S16x1, .f32⟩
  | .local _ .vmem, ⟨107, _⟩ => ⟨S1x1, .f32⟩
  | .local _ .vmem, ⟨108, _⟩ => ⟨S256x1, .f32⟩
  | _, _ => ⟨S51200x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  ofTc nBuf bufTy 0 109 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_call0_cst : Ref sig .tc := ⟨.hbm, 48, rfl⟩
abbrev main_call0_v0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c_0 : Ref sig .tc := ⟨.hbm, 55, rfl⟩
abbrev main_v20 : Ref sig .tc := ⟨.hbm, 56, rfl⟩
abbrev main_v21 : Ref sig .tc := ⟨.hbm, 57, rfl⟩
abbrev main_c_1 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_c_2 : Ref sig .tc := ⟨.hbm, 68, rfl⟩
abbrev main_v31 : Ref sig .tc := ⟨.hbm, 69, rfl⟩
abbrev main_v32 : Ref sig .tc := ⟨.hbm, 70, rfl⟩
abbrev main_c_3 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_4 : Ref sig .tc := ⟨.hbm, 78, rfl⟩
abbrev main_v39 : Ref sig .tc := ⟨.hbm, 79, rfl⟩
abbrev main_v40 : Ref sig .tc := ⟨.hbm, 80, rfl⟩
abbrev main_c_5 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_6 : Ref sig .tc := ⟨.hbm, 103, rfl⟩
abbrev main_v61 : Ref sig .tc := ⟨.hbm, 104, rfl⟩
abbrev main_cst_7 : Ref sig .tc := ⟨.hbm, 105, rfl⟩
abbrev main_v62 : Ref sig .tc := ⟨.hbm, 106, rfl⟩
abbrev main_v63 : Ref sig .tc := ⟨.hbm, 107, rfl⟩
abbrev main_c_8 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_cst_3 : Ref sig .tc := ⟨.hbm, 125, rfl⟩
abbrev main_call1_v12 : Ref sig .tc := ⟨.hbm, 126, rfl⟩
abbrev main_call1_cst_4 : Ref sig .tc := ⟨.hbm, 127, rfl⟩
abbrev main_call1_call0_v0 : Ref sig .tc := ⟨.hbm, 128, rfl⟩
abbrev main_call1_call0_v1 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_c_9 : Ref sig .tc := ⟨.hbm, 144, rfl⟩
abbrev main_v78 : Ref sig .tc := ⟨.hbm, 145, rfl⟩
abbrev main_v79 : Ref sig .tc := ⟨.hbm, 146, rfl⟩
abbrev main_c_10 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_c_11 : Ref sig .tc := ⟨.hbm, 157, rfl⟩
abbrev main_v89 : Ref sig .tc := ⟨.hbm, 158, rfl⟩
abbrev main_v90 : Ref sig .tc := ⟨.hbm, 159, rfl⟩
abbrev main_c_12 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_c_13 : Ref sig .tc := ⟨.hbm, 167, rfl⟩
abbrev main_v97 : Ref sig .tc := ⟨.hbm, 168, rfl⟩
abbrev main_v98 : Ref sig .tc := ⟨.hbm, 169, rfl⟩
abbrev main_c_14 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_cst_15 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_16 : Ref sig .tc := ⟨.hbm, 192, rfl⟩
abbrev main_v119 : Ref sig .tc := ⟨.hbm, 193, rfl⟩
abbrev main_cst_17 : Ref sig .tc := ⟨.hbm, 194, rfl⟩
abbrev main_v120 : Ref sig .tc := ⟨.hbm, 195, rfl⟩
abbrev main_v121 : Ref sig .tc := ⟨.hbm, 196, rfl⟩
abbrev main_c_18 : Ref sig .tc := ⟨.hbm, 197, rfl⟩
abbrev main_call2_cst : Ref sig .tc := ⟨.hbm, 198, rfl⟩
abbrev main_call2_v0 : Ref sig .tc := ⟨.hbm, 199, rfl⟩
abbrev main_call2_v1 : Ref sig .tc := ⟨.hbm, 200, rfl⟩
abbrev main_call2_cst_0 : Ref sig .tc := ⟨.hbm, 201, rfl⟩
abbrev main_call2_v2 : Ref sig .tc := ⟨.hbm, 202, rfl⟩
abbrev main_call2_v3 : Ref sig .tc := ⟨.hbm, 203, rfl⟩
abbrev main_call2_v4 : Ref sig .tc := ⟨.hbm, 204, rfl⟩
abbrev main_call2_v5 : Ref sig .tc := ⟨.hbm, 205, rfl⟩
abbrev main_call2_v6 : Ref sig .tc := ⟨.hbm, 206, rfl⟩
abbrev main_call2_v7 : Ref sig .tc := ⟨.hbm, 207, rfl⟩
abbrev main_call2_cst_1 : Ref sig .tc := ⟨.hbm, 208, rfl⟩
abbrev main_call2_v8 : Ref sig .tc := ⟨.hbm, 209, rfl⟩
abbrev main_call2_cst_2 : Ref sig .tc := ⟨.hbm, 210, rfl⟩
abbrev main_call2_v9 : Ref sig .tc := ⟨.hbm, 211, rfl⟩
abbrev main_call2_v10 : Ref sig .tc := ⟨.hbm, 212, rfl⟩
abbrev main_call2_v11 : Ref sig .tc := ⟨.hbm, 213, rfl⟩
abbrev main_call2_cst_3 : Ref sig .tc := ⟨.hbm, 214, rfl⟩
abbrev main_call2_v12 : Ref sig .tc := ⟨.hbm, 215, rfl⟩
abbrev main_call2_cst_4 : Ref sig .tc := ⟨.hbm, 216, rfl⟩
abbrev main_call2_call0_v0 : Ref sig .tc := ⟨.hbm, 217, rfl⟩
abbrev main_call2_call0_v1 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_c_19 : Ref sig .tc := ⟨.hbm, 233, rfl⟩
abbrev main_v136 : Ref sig .tc := ⟨.hbm, 234, rfl⟩
abbrev main_v137 : Ref sig .tc := ⟨.hbm, 235, rfl⟩
abbrev main_c_20 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_c_21 : Ref sig .tc := ⟨.hbm, 246, rfl⟩
abbrev main_v147 : Ref sig .tc := ⟨.hbm, 247, rfl⟩
abbrev main_v148 : Ref sig .tc := ⟨.hbm, 248, rfl⟩
abbrev main_c_22 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_c_23 : Ref sig .tc := ⟨.hbm, 256, rfl⟩
abbrev main_v155 : Ref sig .tc := ⟨.hbm, 257, rfl⟩
abbrev main_v156 : Ref sig .tc := ⟨.hbm, 258, rfl⟩
abbrev main_c_24 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_cst_25 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_cst_26 : Ref sig .tc := ⟨.hbm, 281, rfl⟩
abbrev main_v177 : Ref sig .tc := ⟨.hbm, 282, rfl⟩
abbrev main_cst_27 : Ref sig .tc := ⟨.hbm, 283, rfl⟩
abbrev main_v178 : Ref sig .tc := ⟨.hbm, 284, rfl⟩
abbrev main_v179 : Ref sig .tc := ⟨.hbm, 285, rfl⟩
abbrev main_c_28 : Ref sig .tc := ⟨.hbm, 286, rfl⟩
abbrev main_call3_cst : Ref sig .tc := ⟨.hbm, 287, rfl⟩
abbrev main_call3_v0 : Ref sig .tc := ⟨.hbm, 288, rfl⟩
abbrev main_call3_v1 : Ref sig .tc := ⟨.hbm, 289, rfl⟩
abbrev main_call3_cst_0 : Ref sig .tc := ⟨.hbm, 290, rfl⟩
abbrev main_call3_v2 : Ref sig .tc := ⟨.hbm, 291, rfl⟩
abbrev main_call3_v3 : Ref sig .tc := ⟨.hbm, 292, rfl⟩
abbrev main_call3_v4 : Ref sig .tc := ⟨.hbm, 293, rfl⟩
abbrev main_call3_v5 : Ref sig .tc := ⟨.hbm, 294, rfl⟩
abbrev main_call3_v6 : Ref sig .tc := ⟨.hbm, 295, rfl⟩
abbrev main_call3_v7 : Ref sig .tc := ⟨.hbm, 296, rfl⟩
abbrev main_call3_cst_1 : Ref sig .tc := ⟨.hbm, 297, rfl⟩
abbrev main_call3_v8 : Ref sig .tc := ⟨.hbm, 298, rfl⟩
abbrev main_call3_cst_2 : Ref sig .tc := ⟨.hbm, 299, rfl⟩
abbrev main_call3_v9 : Ref sig .tc := ⟨.hbm, 300, rfl⟩
abbrev main_call3_v10 : Ref sig .tc := ⟨.hbm, 301, rfl⟩
abbrev main_call3_v11 : Ref sig .tc := ⟨.hbm, 302, rfl⟩
abbrev main_call3_cst_3 : Ref sig .tc := ⟨.hbm, 303, rfl⟩
abbrev main_call3_v12 : Ref sig .tc := ⟨.hbm, 304, rfl⟩
abbrev main_call3_cst_4 : Ref sig .tc := ⟨.hbm, 305, rfl⟩
abbrev main_call3_call0_v0 : Ref sig .tc := ⟨.hbm, 306, rfl⟩
abbrev main_call3_call0_v1 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_c_29 : Ref sig .tc := ⟨.hbm, 322, rfl⟩
abbrev main_v194 : Ref sig .tc := ⟨.hbm, 323, rfl⟩
abbrev main_v195 : Ref sig .tc := ⟨.hbm, 324, rfl⟩
abbrev main_c_30 : Ref sig .tc := ⟨.hbm, 325, rfl⟩
abbrev main_v196 : Ref sig .tc := ⟨.hbm, 326, rfl⟩
abbrev main_v197 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_v203 : Ref sig .tc := ⟨.hbm, 333, rfl⟩
abbrev main_v204 : Ref sig .tc := ⟨.hbm, 334, rfl⟩
abbrev main_c_31 : Ref sig .tc := ⟨.hbm, 335, rfl⟩
abbrev main_v205 : Ref sig .tc := ⟨.hbm, 336, rfl⟩
abbrev main_v206 : Ref sig .tc := ⟨.hbm, 337, rfl⟩
abbrev main_c_32 : Ref sig .tc := ⟨.hbm, 338, rfl⟩
abbrev main_v207 : Ref sig .tc := ⟨.hbm, 339, rfl⟩
abbrev main_v208 : Ref sig .tc := ⟨.hbm, 340, rfl⟩
abbrev main_v209 : Ref sig .tc := ⟨.hbm, 341, rfl⟩
abbrev main_v210 : Ref sig .tc := ⟨.hbm, 342, rfl⟩
abbrev main_v211 : Ref sig .tc := ⟨.hbm, 343, rfl⟩
abbrev main_v212 : Ref sig .tc := ⟨.hbm, 344, rfl⟩
abbrev main_c_33 : Ref sig .tc := ⟨.hbm, 345, rfl⟩
abbrev main_v213 : Ref sig .tc := ⟨.hbm, 346, rfl⟩
abbrev main_v214 : Ref sig .tc := ⟨.hbm, 347, rfl⟩
abbrev main_c_34 : Ref sig .tc := ⟨.hbm, 348, rfl⟩
abbrev main_v215 : Ref sig .tc := ⟨.hbm, 349, rfl⟩
abbrev main_v216 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_cst_35 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_v224 : Ref sig .tc := ⟨.hbm, 359, rfl⟩
abbrev main_v225 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_cst_36 : Ref sig .tc := ⟨.hbm, 370, rfl⟩
abbrev main_v235 : Ref sig .tc := ⟨.hbm, 371, rfl⟩
abbrev main_cst_37 : Ref sig .tc := ⟨.hbm, 372, rfl⟩
abbrev main_v236 : Ref sig .tc := ⟨.hbm, 373, rfl⟩
abbrev main_v237 : Ref sig .tc := ⟨.hbm, 374, rfl⟩
abbrev main_c_38 : Ref sig .tc := ⟨.hbm, 375, rfl⟩
abbrev main_call4_cst : Ref sig .tc := ⟨.hbm, 376, rfl⟩
abbrev main_call4_v0 : Ref sig .tc := ⟨.hbm, 377, rfl⟩
abbrev main_call4_v1 : Ref sig .tc := ⟨.hbm, 378, rfl⟩
abbrev main_call4_cst_0 : Ref sig .tc := ⟨.hbm, 379, rfl⟩
abbrev main_call4_v2 : Ref sig .tc := ⟨.hbm, 380, rfl⟩
abbrev main_call4_v3 : Ref sig .tc := ⟨.hbm, 381, rfl⟩
abbrev main_call4_v4 : Ref sig .tc := ⟨.hbm, 382, rfl⟩
abbrev main_call4_v5 : Ref sig .tc := ⟨.hbm, 383, rfl⟩
abbrev main_call4_v6 : Ref sig .tc := ⟨.hbm, 384, rfl⟩
abbrev main_call4_v7 : Ref sig .tc := ⟨.hbm, 385, rfl⟩
abbrev main_call4_cst_1 : Ref sig .tc := ⟨.hbm, 386, rfl⟩
abbrev main_call4_v8 : Ref sig .tc := ⟨.hbm, 387, rfl⟩
abbrev main_call4_cst_2 : Ref sig .tc := ⟨.hbm, 388, rfl⟩
abbrev main_call4_v9 : Ref sig .tc := ⟨.hbm, 389, rfl⟩
abbrev main_call4_v10 : Ref sig .tc := ⟨.hbm, 390, rfl⟩
abbrev main_call4_v11 : Ref sig .tc := ⟨.hbm, 391, rfl⟩
abbrev main_call4_cst_3 : Ref sig .tc := ⟨.hbm, 392, rfl⟩
abbrev main_call4_v12 : Ref sig .tc := ⟨.hbm, 393, rfl⟩
abbrev main_call4_cst_4 : Ref sig .tc := ⟨.hbm, 394, rfl⟩
abbrev main_call4_call0_v0 : Ref sig .tc := ⟨.hbm, 395, rfl⟩
abbrev main_call4_call0_v1 : Ref sig .tc := ⟨.hbm, 396, rfl⟩
abbrev main_v238 : Ref sig .tc := ⟨.hbm, 397, rfl⟩
abbrev main_v239 : Ref sig .tc := ⟨.hbm, 398, rfl⟩
abbrev main_v240 : Ref sig .tc := ⟨.hbm, 399, rfl⟩
abbrev main_v241 : Ref sig .tc := ⟨.hbm, 400, rfl⟩
abbrev main_v242 : Ref sig .tc := ⟨.hbm, 401, rfl⟩
abbrev main_v243 : Ref sig .tc := ⟨.hbm, 402, rfl⟩
abbrev main_v244 : Ref sig .tc := ⟨.hbm, 403, rfl⟩
abbrev main_v245 : Ref sig .tc := ⟨.hbm, 404, rfl⟩
abbrev main_v246 : Ref sig .tc := ⟨.hbm, 405, rfl⟩
abbrev main_v247 : Ref sig .tc := ⟨.hbm, 406, rfl⟩
abbrev main_v248 : Ref sig .tc := ⟨.hbm, 407, rfl⟩
abbrev main_v249 : Ref sig .tc := ⟨.hbm, 408, rfl⟩
abbrev main_v250 : Ref sig .tc := ⟨.hbm, 409, rfl⟩
abbrev main_v251 : Ref sig .tc := ⟨.hbm, 410, rfl⟩
abbrev main_c_39 : Ref sig .tc := ⟨.hbm, 411, rfl⟩
abbrev main_v252 : Ref sig .tc := ⟨.hbm, 412, rfl⟩
abbrev main_v253 : Ref sig .tc := ⟨.hbm, 413, rfl⟩
abbrev main_c_40 : Ref sig .tc := ⟨.hbm, 414, rfl⟩
abbrev main_v254 : Ref sig .tc := ⟨.hbm, 415, rfl⟩
abbrev main_v255 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_v259 : Ref sig .tc := ⟨.hbm, 420, rfl⟩
abbrev main_v260 : Ref sig .tc := ⟨.hbm, 421, rfl⟩
abbrev main_v261 : Ref sig .tc := ⟨.hbm, 422, rfl⟩
abbrev main_v262 : Ref sig .tc := ⟨.hbm, 423, rfl⟩
abbrev main_c_41 : Ref sig .tc := ⟨.hbm, 424, rfl⟩
abbrev main_v263 : Ref sig .tc := ⟨.hbm, 425, rfl⟩
abbrev main_v264 : Ref sig .tc := ⟨.hbm, 426, rfl⟩
abbrev main_c_42 : Ref sig .tc := ⟨.hbm, 427, rfl⟩
abbrev main_v265 : Ref sig .tc := ⟨.hbm, 428, rfl⟩
abbrev main_v266 : Ref sig .tc := ⟨.hbm, 429, rfl⟩
abbrev main_v267 : Ref sig .tc := ⟨.hbm, 430, rfl⟩
abbrev main_v268 : Ref sig .tc := ⟨.hbm, 431, rfl⟩
abbrev main_v269 : Ref sig .tc := ⟨.hbm, 432, rfl⟩
abbrev main_v270 : Ref sig .tc := ⟨.hbm, 433, rfl⟩
abbrev main_c_43 : Ref sig .tc := ⟨.hbm, 434, rfl⟩
abbrev main_v271 : Ref sig .tc := ⟨.hbm, 435, rfl⟩
abbrev main_v272 : Ref sig .tc := ⟨.hbm, 436, rfl⟩
abbrev main_c_44 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_cst_45 : Ref sig .tc := ⟨.hbm, 444, rfl⟩
abbrev main_v279 : Ref sig .tc := ⟨.hbm, 445, rfl⟩
abbrev main_v280 : Ref sig .tc := ⟨.hbm, 446, rfl⟩
abbrev main_v281 : Ref sig .tc := ⟨.hbm, 447, rfl⟩
abbrev main_v282 : Ref sig .tc := ⟨.hbm, 448, rfl⟩
abbrev main_v283 : Ref sig .tc := ⟨.hbm, 449, rfl⟩
abbrev main_v284 : Ref sig .tc := ⟨.hbm, 450, rfl⟩
abbrev main_v285 : Ref sig .tc := ⟨.hbm, 451, rfl⟩
abbrev main_v286 : Ref sig .tc := ⟨.hbm, 452, rfl⟩
abbrev main_v287 : Ref sig .tc := ⟨.hbm, 453, rfl⟩
abbrev main_v288 : Ref sig .tc := ⟨.hbm, 454, rfl⟩
abbrev main_v289 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_cst_46 : Ref sig .tc := ⟨.hbm, 459, rfl⟩
abbrev main_v293 : Ref sig .tc := ⟨.hbm, 460, rfl⟩
abbrev main_cst_47 : Ref sig .tc := ⟨.hbm, 461, rfl⟩
abbrev main_v294 : Ref sig .tc := ⟨.hbm, 462, rfl⟩
abbrev main_v295 : Ref sig .tc := ⟨.hbm, 463, rfl⟩
abbrev main_c_48 : Ref sig .tc := ⟨.hbm, 464, rfl⟩
abbrev main_call5_cst : Ref sig .tc := ⟨.hbm, 465, rfl⟩
abbrev main_call5_v0 : Ref sig .tc := ⟨.hbm, 466, rfl⟩
abbrev main_call5_v1 : Ref sig .tc := ⟨.hbm, 467, rfl⟩
abbrev main_call5_cst_0 : Ref sig .tc := ⟨.hbm, 468, rfl⟩
abbrev main_call5_v2 : Ref sig .tc := ⟨.hbm, 469, rfl⟩
abbrev main_call5_v3 : Ref sig .tc := ⟨.hbm, 470, rfl⟩
abbrev main_call5_v4 : Ref sig .tc := ⟨.hbm, 471, rfl⟩
abbrev main_call5_v5 : Ref sig .tc := ⟨.hbm, 472, rfl⟩
abbrev main_call5_v6 : Ref sig .tc := ⟨.hbm, 473, rfl⟩
abbrev main_call5_v7 : Ref sig .tc := ⟨.hbm, 474, rfl⟩
abbrev main_call5_cst_1 : Ref sig .tc := ⟨.hbm, 475, rfl⟩
abbrev main_call5_v8 : Ref sig .tc := ⟨.hbm, 476, rfl⟩
abbrev main_call5_cst_2 : Ref sig .tc := ⟨.hbm, 477, rfl⟩
abbrev main_call5_v9 : Ref sig .tc := ⟨.hbm, 478, rfl⟩
abbrev main_call5_v10 : Ref sig .tc := ⟨.hbm, 479, rfl⟩
abbrev main_call5_v11 : Ref sig .tc := ⟨.hbm, 480, rfl⟩
abbrev main_call5_cst_3 : Ref sig .tc := ⟨.hbm, 481, rfl⟩
abbrev main_call5_v12 : Ref sig .tc := ⟨.hbm, 482, rfl⟩
abbrev main_call5_cst_4 : Ref sig .tc := ⟨.hbm, 483, rfl⟩
abbrev main_call5_call0_v0 : Ref sig .tc := ⟨.hbm, 484, rfl⟩
abbrev main_call5_call0_v1 : Ref sig .tc := ⟨.hbm, 485, rfl⟩
abbrev main_v296 : Ref sig .tc := ⟨.hbm, 486, rfl⟩
abbrev main_v297 : Ref sig .tc := ⟨.hbm, 487, rfl⟩
abbrev main_v298 : Ref sig .tc := ⟨.hbm, 488, rfl⟩
abbrev main_v299 : Ref sig .tc := ⟨.hbm, 489, rfl⟩
abbrev main_v300 : Ref sig .tc := ⟨.hbm, 490, rfl⟩
abbrev main_v301 : Ref sig .tc := ⟨.hbm, 491, rfl⟩
abbrev main_v302 : Ref sig .tc := ⟨.hbm, 492, rfl⟩
abbrev main_v303 : Ref sig .tc := ⟨.hbm, 493, rfl⟩
abbrev main_v304 : Ref sig .tc := ⟨.hbm, 494, rfl⟩
abbrev main_v305 : Ref sig .tc := ⟨.hbm, 495, rfl⟩
abbrev main_cst_49 : Ref sig .tc := ⟨.hbm, 496, rfl⟩
abbrev main_v306 : Ref sig .tc := ⟨.hbm, 497, rfl⟩
abbrev main_v307 : Ref sig .tc := ⟨.hbm, 498, rfl⟩
abbrev main_v308 : Ref sig .tc := ⟨.hbm, 499, rfl⟩
abbrev main_cst_50 : Ref sig .tc := ⟨.hbm, 500, rfl⟩
abbrev main_v309 : Ref sig .tc := ⟨.hbm, 501, rfl⟩
abbrev main_cst_51 : Ref sig .tc := ⟨.hbm, 502, rfl⟩
abbrev main_v310 : Ref sig .tc := ⟨.hbm, 503, rfl⟩
abbrev main_v311 : Ref sig .tc := ⟨.hbm, 504, rfl⟩
abbrev main_v312 : Ref sig .tc := ⟨.hbm, 505, rfl⟩
abbrev main_cst_52 : Ref sig .tc := ⟨.hbm, 506, rfl⟩
abbrev main_v313 : Ref sig .tc := ⟨.hbm, 507, rfl⟩
abbrev main_v314 : Ref sig .tc := ⟨.hbm, 508, rfl⟩
abbrev main_v315 : Ref sig .tc := ⟨.hbm, 509, rfl⟩
abbrev main_v316 : Ref sig .tc := ⟨.hbm, 510, rfl⟩
abbrev main_v317 : Ref sig .tc := ⟨.hbm, 511, rfl⟩
abbrev main_v318 : Ref sig .tc := ⟨.hbm, 512, rfl⟩
abbrev main_v319 : Ref sig .tc := ⟨.hbm, 513, rfl⟩
abbrev main_c_53 : Ref sig .tc := ⟨.hbm, 514, rfl⟩
abbrev main_v320 : Ref sig .tc := ⟨.hbm, 515, rfl⟩
abbrev main_v321 : Ref sig .tc := ⟨.hbm, 516, rfl⟩
abbrev main_c_54 : Ref sig .tc := ⟨.hbm, 517, rfl⟩
abbrev main_v322 : Ref sig .tc := ⟨.hbm, 518, rfl⟩
abbrev main_v323 : Ref sig .tc := ⟨.hbm, 519, rfl⟩
abbrev main_v324 : Ref sig .tc := ⟨.hbm, 520, rfl⟩
abbrev main_v325 : Ref sig .tc := ⟨.hbm, 521, rfl⟩
abbrev main_v326 : Ref sig .tc := ⟨.hbm, 522, rfl⟩
abbrev main_v327 : Ref sig .tc := ⟨.hbm, 523, rfl⟩
abbrev main_v328 : Ref sig .tc := ⟨.hbm, 524, rfl⟩
abbrev main_cst_55 : Ref sig .tc := ⟨.hbm, 525, rfl⟩
abbrev main_v329 : Ref sig .tc := ⟨.hbm, 526, rfl⟩
abbrev main_v330 : Ref sig .tc := ⟨.hbm, 527, rfl⟩
abbrev main_v331 : Ref sig .tc := ⟨.hbm, 528, rfl⟩
abbrev main_cst_56 : Ref sig .tc := ⟨.hbm, 529, rfl⟩
abbrev main_v332 : Ref sig .tc := ⟨.hbm, 530, rfl⟩
abbrev main_cst_57 : Ref sig .tc := ⟨.hbm, 531, rfl⟩
abbrev main_v333 : Ref sig .tc := ⟨.hbm, 532, rfl⟩
abbrev main_v334 : Ref sig .tc := ⟨.hbm, 533, rfl⟩
abbrev main_v335 : Ref sig .tc := ⟨.hbm, 534, rfl⟩
abbrev main_cst_58 : Ref sig .tc := ⟨.hbm, 535, rfl⟩
abbrev main_v336 : Ref sig .tc := ⟨.hbm, 536, rfl⟩
abbrev main_v337 : Ref sig .tc := ⟨.hbm, 537, rfl⟩
abbrev main_v338 : Ref sig .tc := ⟨.hbm, 538, rfl⟩
abbrev main_v339 : Ref sig .tc := ⟨.hbm, 539, rfl⟩
abbrev main_v340 : Ref sig .tc := ⟨.hbm, 540, rfl⟩
abbrev main_v341 : Ref sig .tc := ⟨.hbm, 541, rfl⟩
abbrev main_v342 : Ref sig .tc := ⟨.hbm, 542, rfl⟩
abbrev main_v343 : Ref sig .tc := ⟨.hbm, 543, rfl⟩
abbrev main_c_59 : Ref sig .tc := ⟨.hbm, 544, rfl⟩
abbrev main_v344 : Ref sig .tc := ⟨.hbm, 545, rfl⟩
abbrev main_v345 : Ref sig .tc := ⟨.hbm, 546, rfl⟩
abbrev main_c_60 : Ref sig .tc := ⟨.hbm, 547, rfl⟩
abbrev main_v346 : Ref sig .tc := ⟨.hbm, 548, rfl⟩
abbrev main_v347 : Ref sig .tc := ⟨.hbm, 549, rfl⟩
abbrev main_v348 : Ref sig .tc := ⟨.hbm, 550, rfl⟩
abbrev main_v349 : Ref sig .tc := ⟨.hbm, 551, rfl⟩
abbrev main_v350 : Ref sig .tc := ⟨.hbm, 552, rfl⟩
abbrev main_v351 : Ref sig .tc := ⟨.hbm, 553, rfl⟩
abbrev main_v352 : Ref sig .tc := ⟨.hbm, 554, rfl⟩
abbrev main_cst_61 : Ref sig .tc := ⟨.hbm, 555, rfl⟩
abbrev main_v353 : Ref sig .tc := ⟨.hbm, 556, rfl⟩
abbrev main_v354 : Ref sig .tc := ⟨.hbm, 557, rfl⟩
abbrev main_v355 : Ref sig .tc := ⟨.hbm, 558, rfl⟩
abbrev main_v356 : Ref sig .tc := ⟨.hbm, 559, rfl⟩
abbrev main_v357 : Ref sig .tc := ⟨.hbm, 560, rfl⟩
abbrev main_v358 : Ref sig .tc := ⟨.hbm, 561, rfl⟩
abbrev main_v359 : Ref sig .tc := ⟨.hbm, 562, rfl⟩
abbrev main_c_62 : Ref sig .tc := ⟨.hbm, 563, rfl⟩
abbrev main_v360 : Ref sig .tc := ⟨.hbm, 564, rfl⟩
abbrev main_v361 : Ref sig .tc := ⟨.hbm, 565, rfl⟩
abbrev main_c_63 : Ref sig .tc := ⟨.hbm, 566, rfl⟩
abbrev main_v362 : Ref sig .tc := ⟨.hbm, 567, rfl⟩
abbrev main_v363 : Ref sig .tc := ⟨.hbm, 568, rfl⟩
abbrev main_v364 : Ref sig .tc := ⟨.hbm, 569, rfl⟩
abbrev main_v365 : Ref sig .tc := ⟨.hbm, 570, rfl⟩
abbrev main_v366 : Ref sig .tc := ⟨.hbm, 571, rfl⟩
abbrev main_v367 : Ref sig .tc := ⟨.hbm, 572, rfl⟩
abbrev main_v368 : Ref sig .tc := ⟨.hbm, 573, rfl⟩
abbrev main_cst_64 : Ref sig .tc := ⟨.hbm, 574, rfl⟩
abbrev main_v369 : Ref sig .tc := ⟨.hbm, 575, rfl⟩
abbrev main_v370 : Ref sig .tc := ⟨.hbm, 576, rfl⟩
abbrev main_v371 : Ref sig .tc := ⟨.hbm, 577, rfl⟩
abbrev main_v372 : Ref sig .tc := ⟨.hbm, 578, rfl⟩
abbrev main_v373 : Ref sig .tc := ⟨.hbm, 579, rfl⟩
abbrev main_cst_65 : Ref sig .tc := ⟨.hbm, 580, rfl⟩
abbrev main_v374 : Ref sig .tc := ⟨.hbm, 581, rfl⟩
abbrev main_v375 : Ref sig .tc := ⟨.hbm, 582, rfl⟩
abbrev main_v376 : Ref sig .tc := ⟨.hbm, 583, rfl⟩
abbrev main_cst_66 : Ref sig .tc := ⟨.hbm, 584, rfl⟩
abbrev main_v377 : Ref sig .tc := ⟨.hbm, 585, rfl⟩
abbrev main_cst_67 : Ref sig .tc := ⟨.hbm, 586, rfl⟩
abbrev main_v378 : Ref sig .tc := ⟨.hbm, 587, rfl⟩
abbrev main_v379 : Ref sig .tc := ⟨.hbm, 588, rfl⟩
abbrev main_v380 : Ref sig .tc := ⟨.hbm, 589, rfl⟩
abbrev main_cst_68 : Ref sig .tc := ⟨.hbm, 590, rfl⟩
abbrev main_v381 : Ref sig .tc := ⟨.hbm, 591, rfl⟩
abbrev main_v382 : Ref sig .tc := ⟨.hbm, 592, rfl⟩
abbrev main_v383 : Ref sig .tc := ⟨.hbm, 593, rfl⟩
abbrev main_v384 : Ref sig .tc := ⟨.hbm, 594, rfl⟩
abbrev main_v385 : Ref sig .tc := ⟨.hbm, 595, rfl⟩
abbrev main_v386 : Ref sig .tc := ⟨.hbm, 596, rfl⟩
abbrev main_v387 : Ref sig .tc := ⟨.hbm, 597, rfl⟩
abbrev main_v388 : Ref sig .tc := ⟨.hbm, 598, rfl⟩
abbrev main_v389 : Ref sig .tc := ⟨.hbm, 599, rfl⟩
abbrev main_v390 : Ref sig .tc := ⟨.hbm, 600, rfl⟩
abbrev main_v391 : Ref sig .tc := ⟨.hbm, 601, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg1_1 : Ref sig .tc := ⟨.vmem, 83, rfl⟩
abbrev cc10_stg2_0 : Ref sig .tc := ⟨.vmem, 84, rfl⟩
abbrev cc10_stg3_0 : Ref sig .tc := ⟨.vmem, 85, rfl⟩
abbrev cc10_stg4_0 : Ref sig .tc := ⟨.vmem, 86, rfl⟩
abbrev cc10_stg5_0 : Ref sig .tc := ⟨.vmem, 87, rfl⟩
abbrev cc10_stg5_1 : Ref sig .tc := ⟨.vmem, 88, rfl⟩
abbrev cc11_stg0_0 : Ref sig .tc := ⟨.vmem, 89, rfl⟩
abbrev cc11_stg0_1 : Ref sig .tc := ⟨.vmem, 90, rfl⟩
abbrev cc11_stg1_0 : Ref sig .tc := ⟨.vmem, 91, rfl⟩
abbrev cc11_stg1_1 : Ref sig .tc := ⟨.vmem, 92, rfl⟩
abbrev cc11_stg2_0 : Ref sig .tc := ⟨.vmem, 93, rfl⟩
abbrev cc11_stg3_0 : Ref sig .tc := ⟨.vmem, 94, rfl⟩
abbrev cc11_stg4_0 : Ref sig .tc := ⟨.vmem, 95, rfl⟩
abbrev cc11_stg5_0 : Ref sig .tc := ⟨.vmem, 96, rfl⟩
abbrev cc11_stg5_1 : Ref sig .tc := ⟨.vmem, 97, rfl⟩
abbrev cc12_stg0_0 : Ref sig .tc := ⟨.vmem, 98, rfl⟩
abbrev cc12_stg1_0 : Ref sig .tc := ⟨.vmem, 99, rfl⟩
abbrev cc12_stg2_0 : Ref sig .tc := ⟨.vmem, 100, rfl⟩
abbrev cc12_stg3_0 : Ref sig .tc := ⟨.vmem, 101, rfl⟩
abbrev cc12_stg4_0 : Ref sig .tc := ⟨.vmem, 102, rfl⟩
abbrev cc12_stg5_0 : Ref sig .tc := ⟨.vmem, 103, rfl⟩
abbrev cc12_stg6_0 : Ref sig .tc := ⟨.vmem, 104, rfl⟩
abbrev cc12_stg7_0 : Ref sig .tc := ⟨.vmem, 105, rfl⟩
abbrev cc12_stg8_0 : Ref sig .tc := ⟨.vmem, 106, rfl⟩
abbrev cc12_stg9_0 : Ref sig .tc := ⟨.vmem, 107, rfl⟩
abbrev cc12_stg10_0 : Ref sig .tc := ⟨.vmem, 108, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem5_1 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc10_sem3_0 : DmaSem sig := 85
abbrev cc10_sem4_0 : DmaSem sig := 86
abbrev cc10_sem5_0 : DmaSem sig := 87
abbrev cc10_sem5_1 : DmaSem sig := 88
abbrev cc11_sem0_0 : DmaSem sig := 89
abbrev cc11_sem0_1 : DmaSem sig := 90
abbrev cc11_sem1_0 : DmaSem sig := 91
abbrev cc11_sem1_1 : DmaSem sig := 92
abbrev cc11_sem2_0 : DmaSem sig := 93
abbrev cc11_sem3_0 : DmaSem sig := 94
abbrev cc11_sem4_0 : DmaSem sig := 95
abbrev cc11_sem5_0 : DmaSem sig := 96
abbrev cc11_sem5_1 : DmaSem sig := 97
abbrev cc12_sem0_0 : DmaSem sig := 98
abbrev cc12_sem1_0 : DmaSem sig := 99
abbrev cc12_sem2_0 : DmaSem sig := 100
abbrev cc12_sem3_0 : DmaSem sig := 101
abbrev cc12_sem4_0 : DmaSem sig := 102
abbrev cc12_sem5_0 : DmaSem sig := 103
abbrev cc12_sem6_0 : DmaSem sig := 104
abbrev cc12_sem7_0 : DmaSem sig := 105
abbrev cc12_sem8_0 : DmaSem sig := 106
abbrev cc12_sem9_0 : DmaSem sig := 107
abbrev cc12_sem10_0 : DmaSem sig := 108

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S6400x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S6400x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6400x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S6400x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6400x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S6400x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S6400x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S6400x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S6400x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S6400x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S6400x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S6400x100 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S6400x100 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S100x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S100x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S6400x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S6400x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S6400x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S6400x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_10 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S256x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S256x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S128x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S64x32 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x32 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S32x16 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1x16 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S16x1 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S1x1 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

abbrev stage12_10 : Fin 1 → Memref sig .tc .vmem S256x1 .f32 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))
abbrev reads12_10 : Fin grid12.rank → Bool := ![false]

class Facts₀ : Prop where
  slices_S2x819200_S1x819200_0_0 : S2x819200.Slices ![0, 0] S1x819200
  shapeCasts_S1x819200_S819200 : S1x819200.ShapeCasts S819200
  concatenates_S819200_S51200_S870400_d0 : Shape.Concatenates [S819200, S51200] S870400 0
  slices_S2x819200_S1x819200_1_0 : S2x819200.Slices ![1, 0] S1x819200
  shapeCasts_S1x2_S1x1x1x2 : S1x2.ShapeCasts S1x1x1x2
  bcast_S1x1x1x2_S51200x1x1x2_0_1_2_3 : S1x1x1x2.BroadcastsInDim S51200x1x1x2 (![0, 1, 2, 3] : Fin 4 → Fin S51200x1x1x2.rank)
  shapeCasts_S51200x1x1x2_S51200x2 : S51200x1x1x2.ShapeCasts S51200x2
  concatenates_S819200x2_S51200x2_S870400x2_d0 : Shape.Concatenates [S819200x2, S51200x2] S870400x2 0
  bcast_S64_S1x64_1 : S64.BroadcastsInDim S1x64 (![1] : Fin 1 → Fin S1x64.rank)
  bcast_S1x64_S51200x64_0_1 : S1x64.BroadcastsInDim S51200x64 (![0, 1] : Fin 2 → Fin S51200x64.rank)
  bcast_S_S51200x64 : S_.BroadcastsInDim S51200x64 (![] : Fin 0 → Fin S51200x64.rank)
  slices_S5x6x64_S1x6x64_0_0_0 : S5x6x64.Slices ![0, 0, 0] S1x6x64
  shapeCasts_S1x6x64_S6x64 : S1x6x64.ShapeCasts S6x64
  slices_S870400x2_S870400x1_0_0 : S870400x2.Slices ![0, 0] S870400x1
  shapeCasts_S870400x1_S870400 : S870400x1.ShapeCasts S870400
  bcast_S_S870400 : S_.BroadcastsInDim S870400 (![] : Fin 0 → Fin S870400.rank)
  bcast_S870400_S870400x1_0 : S870400.BroadcastsInDim S870400x1 (![0] : Fin 1 → Fin S870400x1.rank)
  slices_S5x3x64_S1x3x64_0_0_0 : S5x3x64.Slices ![0, 0, 0] S1x3x64
  shapeCasts_S1x3x64_S3x64 : S1x3x64.ShapeCasts S3x64
  slices_S870400x2_S870400x1_0_1 : S870400x2.Slices ![0, 1] S870400x1
  slices_S5x64x128_S1x64x128_0_0_0 : S5x64x128.Slices ![0, 0, 0] S1x64x128
  shapeCasts_S1x64x128_S64x128 : S1x64x128.ShapeCasts S64x128
  slices_S5x128_S1x128_0_0 : S5x128.Slices ![0, 0] S1x128
  shapeCasts_S1x128_S128 : S1x128.ShapeCasts S128
  slices_S5x128x64_S1x128x64_0_0_0 : S5x128x64.Slices ![0, 0, 0] S1x128x64
  shapeCasts_S1x128x64_S128x64 : S1x128x64.ShapeCasts S128x64
  slices_S5x64_S1x64_0_0 : S5x64.Slices ![0, 0] S1x64
  shapeCasts_S1x64_S64 : S1x64.ShapeCasts S64
  shapeCasts_S128_S1x128 : S128.ShapeCasts S1x128
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  reducesTo_S51200x64_S64_d0 : S51200x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S5x6x64_S1x6x64_1_0_0 : S5x6x64.Slices ![1, 0, 0] S1x6x64
  slices_S5x3x64_S1x3x64_1_0_0 : S5x3x64.Slices ![1, 0, 0] S1x3x64
  slices_S5x64x128_S1x64x128_1_0_0 : S5x64x128.Slices ![1, 0, 0] S1x64x128
  slices_S5x128_S1x128_1_0 : S5x128.Slices ![1, 0] S1x128
  slices_S5x128x64_S1x128x64_1_0_0 : S5x128x64.Slices ![1, 0, 0] S1x128x64
  slices_S5x64_S1x64_1_0 : S5x64.Slices ![1, 0] S1x64
  slices_S5x6x64_S1x6x64_2_0_0 : S5x6x64.Slices ![2, 0, 0] S1x6x64
  slices_S5x3x64_S1x3x64_2_0_0 : S5x3x64.Slices ![2, 0, 0] S1x3x64
  slices_S5x64x128_S1x64x128_2_0_0 : S5x64x128.Slices ![2, 0, 0] S1x64x128
  slices_S5x128_S1x128_2_0 : S5x128.Slices ![2, 0] S1x128
  slices_S5x128x64_S1x128x64_2_0_0 : S5x128x64.Slices ![2, 0, 0] S1x128x64
  slices_S5x64_S1x64_2_0 : S5x64.Slices ![2, 0] S1x64
  slices_S5x6x64_S1x6x64_3_0_0 : S5x6x64.Slices ![3, 0, 0] S1x6x64
  slices_S5x3x64_S1x3x64_3_0_0 : S5x3x64.Slices ![3, 0, 0] S1x3x64
  slices_S5x64x128_S1x64x128_3_0_0 : S5x64x128.Slices ![3, 0, 0] S1x64x128
  slices_S5x128_S1x128_3_0 : S5x128.Slices ![3, 0] S1x128
  slices_S5x128x64_S1x128x64_3_0_0 : S5x128x64.Slices ![3, 0, 0] S1x128x64
  slices_S5x64_S1x64_3_0 : S5x64.Slices ![3, 0] S1x64
  slices_S5x6x64_S1x6x64_4_0_0 : S5x6x64.Slices ![4, 0, 0] S1x6x64
  slices_S5x3x64_S1x3x64_4_0_0 : S5x3x64.Slices ![4, 0, 0] S1x3x64
  slices_S5x64x128_S1x64x128_4_0_0 : S5x64x128.Slices ![4, 0, 0] S1x64x128
  slices_S5x128_S1x128_4_0 : S5x128.Slices ![4, 0] S1x128
  slices_S5x128x64_S1x128x64_4_0_0 : S5x128x64.Slices ![4, 0, 0] S1x128x64
  slices_S5x64_S1x64_4_0 : S5x64.Slices ![4, 0] S1x64
  bcast_S_S256x64 : S_.BroadcastsInDim S256x64 (![] : Fin 0 → Fin S256x64.rank)
  bcast_S51200_S51200x1_0 : S51200.BroadcastsInDim S51200x1 (![0] : Fin 1 → Fin S51200x1.rank)
  bcast_S_S51200 : S_.BroadcastsInDim S51200 (![] : Fin 0 → Fin S51200.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  slices_S2x204800_S1x204800_0_0 : S2x204800.Slices ![0, 0] S1x204800
  shapeCasts_S1x204800_S204800 : S1x204800.ShapeCasts S204800
  bcast_S_S204800 : S_.BroadcastsInDim S204800 (![] : Fin 0 → Fin S204800.rank)
  bcast_S204800_S204800x1_0 : S204800.BroadcastsInDim S204800x1 (![0] : Fin 1 → Fin S204800x1.rank)
  slices_S2x204800_S1x204800_1_0 : S2x204800.Slices ![1, 0] S1x204800
  bcast_S_S102400x64 : S_.BroadcastsInDim S102400x64 (![] : Fin 0 → Fin S102400x64.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x64_0_1 : S102400x1.BroadcastsInDim S102400x64 (![0, 1] : Fin 2 → Fin S102400x64.rank)
  concatenates_S102400x64_S102400x36_S102400x100_d1 : Shape.Concatenates [S102400x64, S102400x36] S102400x100 1
  slices_S2x409600_S1x409600_0_0 : S2x409600.Slices ![0, 0] S1x409600
  shapeCasts_S1x409600_S409600 : S1x409600.ShapeCasts S409600
  bcast_S_S409600 : S_.BroadcastsInDim S409600 (![] : Fin 0 → Fin S409600.rank)
  bcast_S409600_S409600x1_0 : S409600.BroadcastsInDim S409600x1 (![0] : Fin 1 → Fin S409600x1.rank)
  slices_S2x409600_S1x409600_1_0 : S2x409600.Slices ![1, 0] S1x409600
  bcast_S_S102400x100 : S_.BroadcastsInDim S102400x100 (![] : Fin 0 → Fin S102400x100.rank)
  inb_S6400x100_S6400x100_0_0 : ∀ a, (![0, 0] : Fin 2 → Nat) a + S6400x100.size a ≤ S6400x100.size a
  h_S6400x100 : 0 < S6400x100.numel
  shapeCasts_S6400x100_S6400x100 : S6400x100.ShapeCasts S6400x100
  inb_S100x64_S100x64_0_0 : ∀ a, (![0, 0] : Fin 2 → Nat) a + S100x64.size a ≤ S100x64.size a
  h_S100x64 : 0 < S100x64.numel
  inb_S64x64_S64x64_0_0 : ∀ a, (![0, 0] : Fin 2 → Nat) a + S64x64.size a ≤ S64x64.size a
  h_S64x64 : 0 < S64x64.numel
  shapeCasts_S32_S1x32 : S32.ShapeCasts S1x32
  shapeCasts_S16_S1x16 : S16.ShapeCasts S1x16
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  concatenates_S256x64_S256x64_S256x128_d1 : Shape.Concatenates [S256x64, S256x64] S256x128 1
  broadcasts_S1x64_S256x64 : S1x64.Broadcasts S256x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  dot_S51200x40_S40x64_S51200x64_1_0_0_1_n_n_wf : DotDims.WF S51200x40 S40x64 S51200x64 [1] [0] [0] [1] [] []
  gather_S6x64_S870400x1_S870400x64_1_0_n_n_0_1_164_wf : GatherDims.WF S6x64 S870400x1 S870400x64 [1] [0] [] [0] [] 1 ![1, 64]
  gather_S3x64_S870400x1_S870400x64_1_0_n_n_0_1_164_wf : GatherDims.WF S3x64 S870400x1 S870400x64 [1] [0] [] [0] [] 1 ![1, 64]
  gather_S51200x64_S870400x1_S870400x64_1_0_n_n_0_1_164_wf : GatherDims.WF S51200x64 S870400x1 S870400x64 [1] [0] [] [0] [] 1 ![1, 64]
  scatter_S51200x64_S870400x1_S870400x64_1_0_0_1_wf : ScatterDims.WF S51200x64 S870400x1 S870400x64 [1] [0] [0] 1
  dot_S6400x64_S64x128_S6400x128_1_0_0_1_n_n_wf : DotDims.WF S6400x64 S64x128 S6400x128 [1] [0] [0] [1] [] []
  dot_S6400x128_S128x64_S6400x64_1_0_0_1_n_n_wf : DotDims.WF S6400x128 S128x64 S6400x64 [1] [0] [0] [1] [] []
  scatter_S256x64_S51200x1_S51200x64_1_0_0_1_wf : ScatterDims.WF S256x64 S51200x1 S51200x64 [1] [0] [0] 1
  scatter_S256_S51200x1_S51200_n_0_0_1_wf : ScatterDims.WF S256 S51200x1 S51200 [] [0] [0] 1
  gather_S51200x64_S204800x1_S204800x64_1_0_n_n_0_1_164_wf : GatherDims.WF S51200x64 S204800x1 S204800x64 [1] [0] [] [0] [] 1 ![1, 64]
  scatter_S102400x64_S204800x1_S204800x64_1_0_0_1_wf : ScatterDims.WF S102400x64 S204800x1 S204800x64 [1] [0] [0] 1
  scatter_S102400_S204800x1_S204800_n_0_0_1_wf : ScatterDims.WF S102400 S204800x1 S204800 [] [0] [0] 1
  gather_S102400x100_S409600x1_S409600x100_1_0_n_n_0_1_1100_wf : GatherDims.WF S102400x100 S409600x1 S409600x100 [1] [0] [] [0] [] 1 ![1, 100]
  scatter_S102400x100_S409600x1_S409600x100_1_0_0_1_wf : ScatterDims.WF S102400x100 S409600x1 S409600x100 [1] [0] [0] 1
  dot_S6400x100_S100x64_S6400x64_1_0_0_1_n_n_wf : DotDims.WF S6400x100 S100x64 S6400x64 [1] [0] [0] [1] [] []
  gather_S102400x64_S409600x1_S409600x64_1_0_n_n_0_1_164_wf : GatherDims.WF S102400x64 S409600x1 S409600x64 [1] [0] [] [0] [] 1 ![1, 64]
  scatter_S102400x64_S409600x1_S409600x64_1_0_0_1_wf : ScatterDims.WF S102400x64 S409600x1 S409600x64 [1] [0] [0] 1
  dot_S6400x64_S64x64_S6400x64_1_0_0_1_n_n_wf : DotDims.WF S6400x64 S64x64 S6400x64 [1] [0] [0] [1] [] []
  scatter_S256x64_S102400x1_S102400x64_1_0_0_1_wf : ScatterDims.WF S256x64 S102400x1 S102400x64 [1] [0] [0] 1
  scatter_S256_S102400x1_S102400_n_0_0_1_wf : ScatterDims.WF S256 S102400x1 S102400 [] [0] [0] 1
  dot_S256x128_S128x64_S256x64_1_0_0_1_n_n_wf : DotDims.WF S256x128 S128x64 S256x64 [1] [0] [0] [1] [] []
  dot_S256x64_S64x32_S256x32_1_0_0_1_n_n_wf : DotDims.WF S256x64 S64x32 S256x32 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S51200x64.size a
  hwx0_0 : ∀ i : grid0.Coords, EltTy.bits .f32 = 32 ∨ (Rect.block (s := S51200x64) S6400x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S51200x64.size a
  hwx0_5 : ∀ i : grid0.Coords, EltTy.bits .f32 = 32 ∨ (Rect.block (s := S51200x64) S6400x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S51200x64.size a
  hwx1_0 : ∀ i : grid1.Coords, EltTy.bits .f32 = 32 ∨ (Rect.block (s := S51200x64) S6400x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x64.size a ≤ S51200x64.size a
  hwx1_5 : ∀ i : grid1.Coords, EltTy.bits .f32 = 32 ∨ (Rect.block (s := S51200x64) S6400x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S51200x64.size a
  hwx2_0 : ∀ i : grid2.Coords, EltTy.bits .f32 = 32 ∨ (Rect.block (s := S51200x64) S6400x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x64.size a ≤ S51200x64.size a
  hwx2_5 : ∀ i : grid2.Coords, EltTy.bits .f32 = 32 ∨ (Rect.block (s := S51200x64) S6400x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x64.size a ≤ S51200x64.size a
  hwx3_0 : ∀ i : grid3.Coords, EltTy.bits .f32 = 32 ∨ (Rect.block (s := S51200x64) S6400x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S6400x64.size a ≤ S51200x64.size a
  hwx3_5 : ∀ i : grid3.Coords, EltTy.bits .f32 = 32 ∨ (Rect.block (s := S51200x64) S6400x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S51200x64.size a
  hwx4_0 : ∀ i : grid4.Coords, EltTy.bits .f32 = 32 ∨ (Rect.block (s := S51200x64) S6400x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S6400x64.size a ≤ S51200x64.size a
  hwx4_5 : ∀ i : grid4.Coords, EltTy.bits .f32 = 32 ∨ (Rect.block (s := S51200x64) S6400x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6400x64.size a ≤ S51200x64.size a
  hwx5_0 : ∀ i : grid5.Coords, EltTy.bits .f32 = 32 ∨ (Rect.block (s := S51200x64) S6400x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S6400x64.size a ≤ S51200x64.size a
  hwx5_5 : ∀ i : grid5.Coords, EltTy.bits .f32 = 32 ∨ (Rect.block (s := S51200x64) S6400x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6400x64.size a ≤ S51200x64.size a
  hwx6_0 : ∀ i : grid6.Coords, EltTy.bits .f32 = 32 ∨ (Rect.block (s := S51200x64) S6400x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S6400x64.size a ≤ S51200x64.size a
  hwx6_5 : ∀ i : grid6.Coords, EltTy.bits .f32 = 32 ∨ (Rect.block (s := S51200x64) S6400x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x64.size a ≤ S51200x64.size a
  hwx7_0 : ∀ i : grid7.Coords, EltTy.bits .f32 = 32 ∨ (Rect.block (s := S51200x64) S6400x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S6400x64.size a ≤ S51200x64.size a
  hwx7_5 : ∀ i : grid7.Coords, EltTy.bits .f32 = 32 ∨ (Rect.block (s := S51200x64) S6400x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S6400x64.size a ≤ S51200x64.size a
  hwx8_0 : ∀ i : grid8.Coords, EltTy.bits .f32 = 32 ∨ (Rect.block (s := S51200x64) S6400x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x128.size a ≤ S64x128.size a
  hwx8_1 : ∀ i : grid8.Coords, EltTy.bits .f32 = 32 ∨ (Rect.block (s := S64x128) S64x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .f32 = 32 ∨ (Rect.block (s := S128x64) S128x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S6400x64.size a ≤ S51200x64.size a
  hwx8_5 : ∀ i : grid8.Coords, EltTy.bits .f32 = 32 ∨ (Rect.block (s := S51200x64) S6400x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S6400x64.size a ≤ S51200x64.size a
  hwx9_0 : ∀ i : grid9.Coords, EltTy.bits .f32 = 32 ∨ (Rect.block (s := S51200x64) S6400x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S6400x64.size a ≤ S51200x64.size a
  hwx9_5 : ∀ i : grid9.Coords, EltTy.bits .f32 = 32 ∨ (Rect.block (s := S51200x64) S6400x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S6400x100.size a ≤ S102400x100.size a
  hwx10_0 : ∀ i : grid10.Coords, EltTy.bits .f32 = 32 ∨ (Rect.block (s := S102400x100) S6400x100.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S6400x100.size a ≤ S102400x100.size a
  hwx10_1 : ∀ i : grid10.Coords, EltTy.bits .f32 = 32 ∨ (Rect.block (s := S102400x100) S6400x100.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S100x64.size a ≤ S100x64.size a
  hwx10_2 : ∀ i : grid10.Coords, EltTy.bits .f32 = 32 ∨ (Rect.block (s := S100x64) S100x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S100x64.size a ≤ S100x64.size a
  hwx10_4 : ∀ i : grid10.Coords, EltTy.bits .f32 = 32 ∨ (Rect.block (s := S100x64) S100x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S6400x64.size a ≤ S102400x64.size a
  hwx10_5 : ∀ i : grid10.Coords, EltTy.bits .f32 = 32 ∨ (Rect.block (s := S102400x64) S6400x64.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S6400x64.size a ≤ S102400x64.size a
  hwx11_0 : ∀ i : grid11.Coords, EltTy.bits .f32 = 32 ∨ (Rect.block (s := S102400x64) S6400x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S6400x64.size a ≤ S102400x64.size a
  hwx11_1 : ∀ i : grid11.Coords, EltTy.bits .f32 = 32 ∨ (Rect.block (s := S102400x64) S6400x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64x64.size a ≤ S64x64.size a
  hwx11_4 : ∀ i : grid11.Coords, EltTy.bits .f32 = 32 ∨ (Rect.block (s := S64x64) S64x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S6400x64.size a ≤ S102400x64.size a
  hwx11_5 : ∀ i : grid11.Coords, EltTy.bits .f32 = 32 ∨ (Rect.block (s := S102400x64) S6400x64.size (cc11_transform_5 i) (hinb11_5 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S256x64.size a ≤ S256x64.size a
  hwx12_0 : ∀ i : grid12.Coords, EltTy.bits .f32 = 32 ∨ (Rect.block (s := S256x64) S256x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S256x64.size a ≤ S256x64.size a
  hwx12_1 : ∀ i : grid12.Coords, EltTy.bits .f32 = 32 ∨ (Rect.block (s := S256x64) S256x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x64.size a ≤ S128x64.size a
  hwx12_2 : ∀ i : grid12.Coords, EltTy.bits .f32 = 32 ∨ (Rect.block (s := S128x64) S128x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S64x32.size a ≤ S64x32.size a
  hwx12_4 : ∀ i : grid12.Coords, EltTy.bits .f32 = 32 ∨ (Rect.block (s := S64x32) S64x32.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x32.size a ≤ S1x32.size a
  hwx12_5 : ∀ i : grid12.Coords, EltTy.bits .f32 = 32 ∨ (Rect.block (s := S1x32) S1x32.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S32x16.size a ≤ S32x16.size a
  hwx12_6 : ∀ i : grid12.Coords, EltTy.bits .f32 = 32 ∨ (Rect.block (s := S32x16) S32x16.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x16.size a ≤ S1x16.size a
  hwx12_7 : ∀ i : grid12.Coords, EltTy.bits .f32 = 32 ∨ (Rect.block (s := S1x16) S1x16.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S16x1.size a ≤ S16x1.size a
  hwx12_8 : ∀ i : grid12.Coords, EltTy.bits .f32 = 32 ∨ (Rect.block (s := S16x1) S16x1.size (cc12_transform_8 i) (hinb12_8 i)).WholeWords (EltTy.packing .f32)
  hstage12_9 : ∀ j, (stage12_9 j).IsWhole
  nbuf12_9 : grid12.bufCount reads12_9 true = 1
  hreads12_9 : ∀ i i' : grid12.Coords, (∀ a, reads12_9 a = true → i a = i' a) → cc12_transform_9 i = cc12_transform_9 i'
  hinb12_9 : ∀ (i : grid12.Coords) a, (cc12_transform_9 i a + 1) * S1x1.size a ≤ S1x1.size a
  hwx12_9 : ∀ i : grid12.Coords, EltTy.bits .f32 = 32 ∨ (Rect.block (s := S1x1) S1x1.size (cc12_transform_9 i) (hinb12_9 i)).WholeWords (EltTy.packing .f32)
  hstage12_10 : ∀ j, (stage12_10 j).IsWhole
  nbuf12_10 : grid12.bufCount reads12_10 true = 1
  hreads12_10 : ∀ i i' : grid12.Coords, (∀ a, reads12_10 a = true → i a = i' a) → cc12_transform_10 i = cc12_transform_10 i'
  hinb12_10 : ∀ (i : grid12.Coords) a, (cc12_transform_10 i a + 1) * S256x1.size a ≤ S256x1.size a
  hwx12_10 : ∀ i : grid12.Coords, EltTy.bits .f32 = 32 ∨ (Rect.block (s := S256x1) S256x1.size (cc12_transform_10 i) (hinb12_10 i)).WholeWords (EltTy.packing .f32)

variable [Facts₀]

def dot_S51200x40_S40x64_S51200x64_1_0_0_1_n_n : DotDims S51200x40 S40x64 S51200x64 where
  lhsContracting := [1]
  rhsContracting := [0]
  lhsNonContracting := [0]
  rhsNonContracting := [1]
  lhsBatch := []
  rhsBatch := []
  wf := dot_S51200x40_S40x64_S51200x64_1_0_0_1_n_n_wf
def gather_S6x64_S870400x1_S870400x64_1_0_n_n_0_1_164 : GatherDims S6x64 S870400x1 S870400x64 where
  offsetDims := [1]
  collapsedSliceDims := [0]
  operandBatchingDims := []
  startIndicesBatchingDims := []
  startIndexMap := [0]
  indexVectorDim := 1
  sliceSizes := ![1, 64]
  wf := gather_S6x64_S870400x1_S870400x64_1_0_n_n_0_1_164_wf
def gather_S3x64_S870400x1_S870400x64_1_0_n_n_0_1_164 : GatherDims S3x64 S870400x1 S870400x64 where
  offsetDims := [1]
  collapsedSliceDims := [0]
  operandBatchingDims := []
  startIndicesBatchingDims := []
  startIndexMap := [0]
  indexVectorDim := 1
  sliceSizes := ![1, 64]
  wf := gather_S3x64_S870400x1_S870400x64_1_0_n_n_0_1_164_wf
def gather_S51200x64_S870400x1_S870400x64_1_0_n_n_0_1_164 : GatherDims S51200x64 S870400x1 S870400x64 where
  offsetDims := [1]
  collapsedSliceDims := [0]
  operandBatchingDims := []
  startIndicesBatchingDims := []
  startIndexMap := [0]
  indexVectorDim := 1
  sliceSizes := ![1, 64]
  wf := gather_S51200x64_S870400x1_S870400x64_1_0_n_n_0_1_164_wf
def scatter_S51200x64_S870400x1_S870400x64_1_0_0_1 : ScatterDims S51200x64 S870400x1 S870400x64 where
  updateWindowDims := [1]
  insertedWindowDims := [0]
  scatterDimsToOperandDims := [0]
  indexVectorDim := 1
  wf := scatter_S51200x64_S870400x1_S870400x64_1_0_0_1_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S256x64_S51200x1_S51200x64_1_0_0_1 : ScatterDims S256x64 S51200x1 S51200x64 where
  updateWindowDims := [1]
  insertedWindowDims := [0]
  scatterDimsToOperandDims := [0]
  indexVectorDim := 1
  wf := scatter_S256x64_S51200x1_S51200x64_1_0_0_1_wf
def scatter_S256_S51200x1_S51200_n_0_0_1 : ScatterDims S256 S51200x1 S51200 where
  updateWindowDims := []
  insertedWindowDims := [0]
  scatterDimsToOperandDims := [0]
  indexVectorDim := 1
  wf := scatter_S256_S51200x1_S51200_n_0_0_1_wf
def gather_S51200x64_S204800x1_S204800x64_1_0_n_n_0_1_164 : GatherDims S51200x64 S204800x1 S204800x64 where
  offsetDims := [1]
  collapsedSliceDims := [0]
  operandBatchingDims := []
  startIndicesBatchingDims := []
  startIndexMap := [0]
  indexVectorDim := 1
  sliceSizes := ![1, 64]
  wf := gather_S51200x64_S204800x1_S204800x64_1_0_n_n_0_1_164_wf
def scatter_S102400x64_S204800x1_S204800x64_1_0_0_1 : ScatterDims S102400x64 S204800x1 S204800x64 where
  updateWindowDims := [1]
  insertedWindowDims := [0]
  scatterDimsToOperandDims := [0]
  indexVectorDim := 1
  wf := scatter_S102400x64_S204800x1_S204800x64_1_0_0_1_wf
def scatter_S102400_S204800x1_S204800_n_0_0_1 : ScatterDims S102400 S204800x1 S204800 where
  updateWindowDims := []
  insertedWindowDims := [0]
  scatterDimsToOperandDims := [0]
  indexVectorDim := 1
  wf := scatter_S102400_S204800x1_S204800_n_0_0_1_wf
def gather_S102400x100_S409600x1_S409600x100_1_0_n_n_0_1_1100 : GatherDims S102400x100 S409600x1 S409600x100 where
  offsetDims := [1]
  collapsedSliceDims := [0]
  operandBatchingDims := []
  startIndicesBatchingDims := []
  startIndexMap := [0]
  indexVectorDim := 1
  sliceSizes := ![1, 100]
  wf := gather_S102400x100_S409600x1_S409600x100_1_0_n_n_0_1_1100_wf
def scatter_S102400x100_S409600x1_S409600x100_1_0_0_1 : ScatterDims S102400x100 S409600x1 S409600x100 where
  updateWindowDims := [1]
  insertedWindowDims := [0]
  scatterDimsToOperandDims := [0]
  indexVectorDim := 1
  wf := scatter_S102400x100_S409600x1_S409600x100_1_0_0_1_wf
def dot_S6400x100_S100x64_S6400x64_1_0_0_1_n_n : DotDims S6400x100 S100x64 S6400x64 where
  lhsContracting := [1]
  rhsContracting := [0]
  lhsNonContracting := [0]
  rhsNonContracting := [1]
  lhsBatch := []
  rhsBatch := []
  wf := dot_S6400x100_S100x64_S6400x64_1_0_0_1_n_n_wf
def gather_S102400x64_S409600x1_S409600x64_1_0_n_n_0_1_164 : GatherDims S102400x64 S409600x1 S409600x64 where
  offsetDims := [1]
  collapsedSliceDims := [0]
  operandBatchingDims := []
  startIndicesBatchingDims := []
  startIndexMap := [0]
  indexVectorDim := 1
  sliceSizes := ![1, 64]
  wf := gather_S102400x64_S409600x1_S409600x64_1_0_n_n_0_1_164_wf
def scatter_S102400x64_S409600x1_S409600x64_1_0_0_1 : ScatterDims S102400x64 S409600x1 S409600x64 where
  updateWindowDims := [1]
  insertedWindowDims := [0]
  scatterDimsToOperandDims := [0]
  indexVectorDim := 1
  wf := scatter_S102400x64_S409600x1_S409600x64_1_0_0_1_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S256x64_S102400x1_S102400x64_1_0_0_1 : ScatterDims S256x64 S102400x1 S102400x64 where
  updateWindowDims := [1]
  insertedWindowDims := [0]
  scatterDimsToOperandDims := [0]
  indexVectorDim := 1
  wf := scatter_S256x64_S102400x1_S102400x64_1_0_0_1_wf
def scatter_S256_S102400x1_S102400_n_0_0_1 : ScatterDims S256 S102400x1 S102400 where
  updateWindowDims := []
  insertedWindowDims := [0]
  scatterDimsToOperandDims := [0]
  indexVectorDim := 1
  wf := scatter_S256_S102400x1_S102400_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v49) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v60) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v72) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S6400x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v107) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v109) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v116) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v113) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v118) S6400x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v118) S6400x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v127) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v128) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v129) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v130) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v131) S6400x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v165) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v167) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v174) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v171) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v175) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v176) S6400x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v176) S6400x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v185) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v186) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v187) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v188) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v189) S6400x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v223) S6400x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v225) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v232) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v229) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v233) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v234) S6400x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v234) S6400x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v243) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v244) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v245) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v246) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v247) S6400x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v281) S6400x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v283) S64x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v290) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v287) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v291) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v292) S6400x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v292) S6400x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v301) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v302) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v303) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v304) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v305) S6400x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v355) S6400x100.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v341) S6400x100.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg18) S100x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v356) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg20) S100x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v357) S6400x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v371) S6400x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v357) S6400x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg21) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v372) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg23) S64x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v373) S6400x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v317) S256x64.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_v385) S256x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_arg24) S128x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v386) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_arg26) S64x32.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v387) S1x32.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_arg28) S32x16.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v388) S1x16.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_arg30) S16x1.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v389) S1x1.size cc12_transform_9 reads12_9 false true 1 stage12_9 sem12_9
    hrank12 hreads12_9 hinb12_9 nbuf12_9 (Memref.isWhole_whole _) hwx12_9 hstage12_9

abbrev win12_10 : Pipeline.Window sig grid12 :=
  Pipeline.Window.ofSpec (Memref.whole main_v390) S256x1.size cc12_transform_10 reads12_10 true true 1 stage12_10 sem12_10
    hrank12 hreads12_10 hinb12_10 nbuf12_10 (Memref.isWhole_whole _) hwx12_10 hstage12_10

abbrev win12 : Fin 11 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | ⟨_ + 11, h⟩ => absurd h (Nat.not_lt.2 (Nat.le_add_left _ _))
abbrev spec12 : Fin 11 → Pipeline.WinSpec sig grid12.rank := fun w => (win12 w).toWinSpec

class Facts : Prop extends Facts₀ where

variable [Facts]
-- ==== ReferenceIdeal.lean ====
abbrev S51200x40 : Shape := ⟨2, ![51200, 40]⟩
abbrev S2x819200 : Shape := ⟨2, ![2, 819200]⟩
abbrev S819200x2 : Shape := ⟨2, ![819200, 2]⟩
abbrev S51200 : Shape := ⟨1, ![51200]⟩
abbrev S102400x36 : Shape := ⟨2, ![102400, 36]⟩
abbrev S2x409600 : Shape := ⟨2, ![2, 409600]⟩
abbrev S2x204800 : Shape := ⟨2, ![2, 204800]⟩
abbrev S102400 : Shape := ⟨1, ![102400]⟩
abbrev S40x64 : Shape := ⟨2, ![40, 64]⟩
abbrev S64 : Shape := ⟨1, ![64]⟩
abbrev S5x64x128 : Shape := ⟨3, ![5, 64, 128]⟩
abbrev S5x128 : Shape := ⟨2, ![5, 128]⟩
abbrev S5x128x64 : Shape := ⟨3, ![5, 128, 64]⟩
abbrev S5x64 : Shape := ⟨2, ![5, 64]⟩
abbrev S5x6x64 : Shape := ⟨3, ![5, 6, 64]⟩
abbrev S5x3x64 : Shape := ⟨3, ![5, 3, 64]⟩
abbrev S100x64 : Shape := ⟨2, ![100, 64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x2 : Shape := ⟨2, ![1, 2]⟩
abbrev S1x819200 : Shape := ⟨2, ![1, 819200]⟩
abbrev S819200 : Shape := ⟨1, ![819200]⟩
abbrev S870400 : Shape := ⟨1, ![870400]⟩
abbrev S1x1x1x2 : Shape := ⟨4, ![1, 1, 1, 2]⟩
abbrev S51200x1x1x2 : Shape := ⟨4, ![51200, 1, 1, 2]⟩
abbrev S51200x2 : Shape := ⟨2, ![51200, 2]⟩
abbrev S870400x2 : Shape := ⟨2, ![870400, 2]⟩
abbrev S51200x64 : Shape := ⟨2, ![51200, 64]⟩
abbrev S1x64 : Shape := ⟨2, ![1, 64]⟩
abbrev S_ : Shape := ⟨0, ![]⟩
abbrev S1x6x64 : Shape := ⟨3, ![1, 6, 64]⟩
abbrev S6x64 : Shape := ⟨2, ![6, 64]⟩
abbrev S870400x1 : Shape := ⟨2, ![870400, 1]⟩
abbrev S870400x64 : Shape := ⟨2, ![870400, 64]⟩
abbrev S1x3x64 : Shape := ⟨3, ![1, 3, 64]⟩
abbrev S3x64 : Shape := ⟨2, ![3, 64]⟩
abbrev S1x64x128 : Shape := ⟨3, ![1, 64, 128]⟩
abbrev S64x128 : Shape := ⟨2, ![64, 128]⟩
abbrev S51200x128 : Shape := ⟨2, ![51200, 128]⟩
abbrev S1x128 : Shape := ⟨2, ![1, 128]⟩
abbrev S128 : Shape := ⟨1, ![128]⟩
abbrev S1x128x64 : Shape := ⟨3, ![1, 128, 64]⟩
abbrev S256x64 : Shape := ⟨2, ![256, 64]⟩
abbrev S51200x1 : Shape := ⟨2, ![51200, 1]⟩
abbrev S256 : Shape := ⟨1, ![256]⟩
abbrev S256x1 : Shape := ⟨2, ![256, 1]⟩
abbrev S1x204800 : Shape := ⟨2, ![1, 204800]⟩
abbrev S204800 : Shape := ⟨1, ![204800]⟩
abbrev S204800x1 : Shape := ⟨2, ![204800, 1]⟩
abbrev S204800x64 : Shape := ⟨2, ![204800, 64]⟩
abbrev S102400x64 : Shape := ⟨2, ![102400, 64]⟩
abbrev S102400x1 : Shape := ⟨2, ![102400, 1]⟩
abbrev S102400x100 : Shape := ⟨2, ![102400, 100]⟩
abbrev S1x409600 : Shape := ⟨2, ![1, 409600]⟩
abbrev S409600 : Shape := ⟨1, ![409600]⟩
abbrev S409600x1 : Shape := ⟨2, ![409600, 1]⟩
abbrev S409600x100 : Shape := ⟨2, ![409600, 100]⟩
abbrev S409600x64 : Shape := ⟨2, ![409600, 64]⟩
abbrev S256x128 : Shape := ⟨2, ![256, 128]⟩
abbrev S256x32 : Shape := ⟨2, ![256, 32]⟩
abbrev S1x32 : Shape := ⟨2, ![1, 32]⟩
abbrev S256x16 : Shape := ⟨2, ![256, 16]⟩
abbrev S1x16 : Shape := ⟨2, ![1, 16]⟩
abbrev S1x1 : Shape := ⟨2, ![1, 1]⟩

abbrev nBuf : Space → Nat
  | .hbm => 744
  | .vmem => 0
  | .smem => 0
  | _ => 0

abbrev hbmTy0_0 (i : Nat) : BufTy := match i % 128 with
  | 0 => ⟨S51200x40, .f32⟩
  | 1 => ⟨S2x819200, .i32⟩
  | 2 => ⟨S819200x2, .i32⟩
  | 3 => ⟨S51200, .i32⟩
  | 4 => ⟨S102400x36, .f32⟩
  | 5 => ⟨S2x409600, .i32⟩
  | 6 => ⟨S2x204800, .i32⟩
  | 7 => ⟨S102400, .i32⟩
  | 8 => ⟨S40x64, .f32⟩
  | 9 => ⟨S64, .f32⟩
  | 10 => ⟨S5x64x128, .f32⟩
  | 11 => ⟨S5x128, .f32⟩
  | 12 => ⟨S5x128x64, .f32⟩
  | 13 => ⟨S5x64, .f32⟩
  | 14 => ⟨S5x6x64, .f32⟩
  | 15 => ⟨S5x3x64, .f32⟩
  | 16 => ⟨S5x64, .f32⟩
  | 17 => ⟨S5x64, .f32⟩
  | 18 => ⟨S100x64, .f32⟩
  | 19 => ⟨S64, .f32⟩
  | 20 => ⟨S100x64, .f32⟩
  | 21 => ⟨S64x64, .f32⟩
  | 22 => ⟨S64, .f32⟩
  | 23 => ⟨S64x64, .f32⟩
  | 24 => ⟨S128x64, .f32⟩
  | 25 => ⟨S64, .f32⟩
  | 26 => ⟨S64x32, .f32⟩
  | 27 => ⟨S32, .f32⟩
  | 28 => ⟨S32x16, .f32⟩
  | 29 => ⟨S16, .f32⟩
  | 30 => ⟨S16x1, .f32⟩
  | 31 => ⟨S1, .f32⟩
  | 32 => ⟨S1x2, .i32⟩
  | 33 => ⟨S51200, .i32⟩
  | 34 => ⟨S1x819200, .i32⟩
  | 35 => ⟨S819200, .i32⟩
  | 36 => ⟨S870400, .i32⟩
  | 37 => ⟨S1x819200, .i32⟩
  | 38 => ⟨S819200, .i32⟩
  | 39 => ⟨S870400, .i32⟩
  | 40 => ⟨S1x1x1x2, .i32⟩
  | 41 => ⟨S51200x1x1x2, .i32⟩
  | 42 => ⟨S51200x2, .i32⟩
  | 43 => ⟨S870400x2, .i32⟩
  | 44 => ⟨S51200x64, .f32⟩
  | 45 => ⟨S1x64, .f32⟩
  | 46 => ⟨S51200x64, .f32⟩
  | 47 => ⟨S51200x64, .f32⟩
  | 48 => ⟨S_, .f32⟩
  | 49 => ⟨S51200x64, .f32⟩
  | 50 => ⟨S51200x64, .f32⟩
  | 51 => ⟨S1x6x64, .f32⟩
  | 52 => ⟨S6x64, .f32⟩
  | 53 => ⟨S870400x1, .i32⟩
  | 54 => ⟨S870400, .i32⟩
  | 55 => ⟨S_, .i32⟩
  | 56 => ⟨S870400, .i32⟩
  | 57 => ⟨S870400, .i1⟩
  | 58 => ⟨S_, .i32⟩
  | 59 => ⟨S870400, .i32⟩
  | 60 => ⟨S870400, .i32⟩
  | 61 => ⟨S870400, .i32⟩
  | 62 => ⟨S870400x1, .i32⟩
  | 63 => ⟨S870400x64, .f32⟩
  | 64 => ⟨S1x3x64, .f32⟩
  | 65 => ⟨S3x64, .f32⟩
  | 66 => ⟨S870400x1, .i32⟩
  | 67 => ⟨S870400, .i32⟩
  | 68 => ⟨S_, .i32⟩
  | 69 => ⟨S870400, .i32⟩
  | 70 => ⟨S870400, .i1⟩
  | 71 => ⟨S_, .i32⟩
  | 72 => ⟨S870400, .i32⟩
  | 73 => ⟨S870400, .i32⟩
  | 74 => ⟨S870400, .i32⟩
  | 75 => ⟨S870400x1, .i32⟩
  | 76 => ⟨S870400x64, .f32⟩
  | 77 => ⟨S870400x64, .f32⟩
  | 78 => ⟨S_, .i32⟩
  | 79 => ⟨S870400, .i32⟩
  | 80 => ⟨S870400, .i1⟩
  | 81 => ⟨S_, .i32⟩
  | 82 => ⟨S870400, .i32⟩
  | 83 => ⟨S870400, .i32⟩
  | 84 => ⟨S870400, .i32⟩
  | 85 => ⟨S870400x1, .i32⟩
  | 86 => ⟨S870400x64, .f32⟩
  | 87 => ⟨S870400x64, .f32⟩
  | 88 => ⟨S_, .f32⟩
  | 89 => ⟨S51200x64, .f32⟩
  | 90 => ⟨S870400x1, .i32⟩
  | 91 => ⟨S51200x64, .f32⟩
  | 92 => ⟨S1x64x128, .f32⟩
  | 93 => ⟨S64x128, .f32⟩
  | 94 => ⟨S51200x128, .f32⟩
  | 95 => ⟨S1x128, .f32⟩
  | 96 => ⟨S128, .f32⟩
  | 97 => ⟨S1x128, .f32⟩
  | 98 => ⟨S51200x128, .f32⟩
  | 99 => ⟨S51200x128, .f32⟩
  | 100 => ⟨S_, .f32⟩
  | 101 => ⟨S51200x128, .f32⟩
  | 102 => ⟨S51200x128, .f32⟩
  | 103 => ⟨S1x128x64, .f32⟩
  | 104 => ⟨S128x64, .f32⟩
  | 105 => ⟨S51200x64, .f32⟩
  | 106 => ⟨S1x64, .f32⟩
  | 107 => ⟨S64, .f32⟩
  | 108 => ⟨S1x64, .f32⟩
  | 109 => ⟨S51200x64, .f32⟩
  | 110 => ⟨S51200x64, .f32⟩
  | 111 => ⟨S_, .f32⟩
  | 112 => ⟨S64, .f32⟩
  | 113 => ⟨S_, .f32⟩
  | 114 => ⟨S64, .f32⟩
  | 115 => ⟨S64, .f32⟩
  | 116 => ⟨S_, .i32⟩
  | 117 => ⟨S_, .f32⟩
  | 118 => ⟨S64, .f32⟩
  | 119 => ⟨S1x64, .f32⟩
  | 120 => ⟨S_, .f32⟩
  | 121 => ⟨S1x64, .f32⟩
  | 122 => ⟨S1x64, .f32⟩
  | 123 => ⟨S51200x64, .f32⟩
  | 124 => ⟨S51200x64, .f32⟩
  | 125 => ⟨S51200x64, .f32⟩
  | 126 => ⟨S_, .f32⟩
  | 127 => ⟨S_, .f32⟩
  | _ => ⟨S51200x40, .f32⟩

abbrev hbmTy0_1 (i : Nat) : BufTy := match i % 128 with
  | 0 => ⟨S_, .f32⟩
  | 1 => ⟨S_, .f32⟩
  | 2 => ⟨S64, .f32⟩
  | 3 => ⟨S64, .f32⟩
  | 4 => ⟨S64, .f32⟩
  | 5 => ⟨S_, .f32⟩
  | 6 => ⟨S_, .i1⟩
  | 7 => ⟨S_, .f32⟩
  | 8 => ⟨S_, .f32⟩
  | 9 => ⟨S64, .f32⟩
  | 10 => ⟨S64, .f32⟩
  | 11 => ⟨S1x64, .f32⟩
  | 12 => ⟨S51200x64, .f32⟩
  | 13 => ⟨S51200x64, .f32⟩
  | 14 => ⟨S_, .f32⟩
  | 15 => ⟨S64, .f32⟩
  | 16 => ⟨S64, .f32⟩
  | 17 => ⟨S64, .f32⟩
  | 18 => ⟨S1x64, .f32⟩
  | 19 => ⟨S51200x64, .f32⟩
  | 20 => ⟨S51200x64, .f32⟩
  | 21 => ⟨S1x64, .f32⟩
  | 22 => ⟨S64, .f32⟩
  | 23 => ⟨S1x64, .f32⟩
  | 24 => ⟨S51200x64, .f32⟩
  | 25 => ⟨S51200x64, .f32⟩
  | 26 => ⟨S1x64, .f32⟩
  | 27 => ⟨S64, .f32⟩
  | 28 => ⟨S1x64, .f32⟩
  | 29 => ⟨S51200x64, .f32⟩
  | 30 => ⟨S51200x64, .f32⟩
  | 31 => ⟨S_, .f32⟩
  | 32 => ⟨S51200x64, .f32⟩
  | 33 => ⟨S51200x64, .f32⟩
  | 34 => ⟨S1x6x64, .f32⟩
  | 35 => ⟨S6x64, .f32⟩
  | 36 => ⟨S870400x1, .i32⟩
  | 37 => ⟨S870400, .i32⟩
  | 38 => ⟨S_, .i32⟩
  | 39 => ⟨S870400, .i32⟩
  | 40 => ⟨S870400, .i1⟩
  | 41 => ⟨S_, .i32⟩
  | 42 => ⟨S870400, .i32⟩
  | 43 => ⟨S870400, .i32⟩
  | 44 => ⟨S870400, .i32⟩
  | 45 => ⟨S870400x1, .i32⟩
  | 46 => ⟨S870400x64, .f32⟩
  | 47 => ⟨S1x3x64, .f32⟩
  | 48 => ⟨S3x64, .f32⟩
  | 49 => ⟨S870400x1, .i32⟩
  | 50 => ⟨S870400, .i32⟩
  | 51 => ⟨S_, .i32⟩
  | 52 => ⟨S870400, .i32⟩
  | 53 => ⟨S870400, .i1⟩
  | 54 => ⟨S_, .i32⟩
  | 55 => ⟨S870400, .i32⟩
  | 56 => ⟨S870400, .i32⟩
  | 57 => ⟨S870400, .i32⟩
  | 58 => ⟨S870400x1, .i32⟩
  | 59 => ⟨S870400x64, .f32⟩
  | 60 => ⟨S870400x64, .f32⟩
  | 61 => ⟨S_, .i32⟩
  | 62 => ⟨S870400, .i32⟩
  | 63 => ⟨S870400, .i1⟩
  | 64 => ⟨S_, .i32⟩
  | 65 => ⟨S870400, .i32⟩
  | 66 => ⟨S870400, .i32⟩
  | 67 => ⟨S870400, .i32⟩
  | 68 => ⟨S870400x1, .i32⟩
  | 69 => ⟨S870400x64, .f32⟩
  | 70 => ⟨S870400x64, .f32⟩
  | 71 => ⟨S_, .f32⟩
  | 72 => ⟨S51200x64, .f32⟩
  | 73 => ⟨S870400x1, .i32⟩
  | 74 => ⟨S51200x64, .f32⟩
  | 75 => ⟨S1x64x128, .f32⟩
  | 76 => ⟨S64x128, .f32⟩
  | 77 => ⟨S51200x128, .f32⟩
  | 78 => ⟨S1x128, .f32⟩
  | 79 => ⟨S128, .f32⟩
  | 80 => ⟨S1x128, .f32⟩
  | 81 => ⟨S51200x128, .f32⟩
  | 82 => ⟨S51200x128, .f32⟩
  | 83 => ⟨S_, .f32⟩
  | 84 => ⟨S51200x128, .f32⟩
  | 85 => ⟨S51200x128, .f32⟩
  | 86 => ⟨S1x128x64, .f32⟩
  | 87 => ⟨S128x64, .f32⟩
  | 88 => ⟨S51200x64, .f32⟩
  | 89 => ⟨S1x64, .f32⟩
  | 90 => ⟨S64, .f32⟩
  | 91 => ⟨S1x64, .f32⟩
  | 92 => ⟨S51200x64, .f32⟩
  | 93 => ⟨S51200x64, .f32⟩
  | 94 => ⟨S_, .f32⟩
  | 95 => ⟨S64, .f32⟩
  | 96 => ⟨S_, .f32⟩
  | 97 => ⟨S64, .f32⟩
  | 98 => ⟨S64, .f32⟩
  | 99 => ⟨S_, .i32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S51200x64, .f32⟩
  | 107 => ⟨S51200x64, .f32⟩
  | 108 => ⟨S51200x64, .f32⟩
  | 109 => ⟨S_, .f32⟩
  | 110 => ⟨S_, .f32⟩
  | 111 => ⟨S_, .f32⟩
  | 112 => ⟨S_, .f32⟩
  | 113 => ⟨S64, .f32⟩
  | 114 => ⟨S64, .f32⟩
  | 115 => ⟨S64, .f32⟩
  | 116 => ⟨S_, .f32⟩
  | 117 => ⟨S_, .i1⟩
  | 118 => ⟨S_, .f32⟩
  | 119 => ⟨S_, .f32⟩
  | 120 => ⟨S64, .f32⟩
  | 121 => ⟨S64, .f32⟩
  | 122 => ⟨S1x64, .f32⟩
  | 123 => ⟨S51200x64, .f32⟩
  | 124 => ⟨S51200x64, .f32⟩
  | 125 => ⟨S_, .f32⟩
  | 126 => ⟨S64, .f32⟩
  | 127 => ⟨S64, .f32⟩
  | _ => ⟨S51200x40, .f32⟩

abbrev hbmTy0_2 (i : Nat) : BufTy := match i % 128 with
  | 0 => ⟨S64, .f32⟩
  | 1 => ⟨S1x64, .f32⟩
  | 2 => ⟨S51200x64, .f32⟩
  | 3 => ⟨S51200x64, .f32⟩
  | 4 => ⟨S1x64, .f32⟩
  | 5 => ⟨S64, .f32⟩
  | 6 => ⟨S1x64, .f32⟩
  | 7 => ⟨S51200x64, .f32⟩
  | 8 => ⟨S51200x64, .f32⟩
  | 9 => ⟨S1x64, .f32⟩
  | 10 => ⟨S64, .f32⟩
  | 11 => ⟨S1x64, .f32⟩
  | 12 => ⟨S51200x64, .f32⟩
  | 13 => ⟨S51200x64, .f32⟩
  | 14 => ⟨S_, .f32⟩
  | 15 => ⟨S51200x64, .f32⟩
  | 16 => ⟨S51200x64, .f32⟩
  | 17 => ⟨S1x6x64, .f32⟩
  | 18 => ⟨S6x64, .f32⟩
  | 19 => ⟨S870400x1, .i32⟩
  | 20 => ⟨S870400, .i32⟩
  | 21 => ⟨S_, .i32⟩
  | 22 => ⟨S870400, .i32⟩
  | 23 => ⟨S870400, .i1⟩
  | 24 => ⟨S_, .i32⟩
  | 25 => ⟨S870400, .i32⟩
  | 26 => ⟨S870400, .i32⟩
  | 27 => ⟨S870400, .i32⟩
  | 28 => ⟨S870400x1, .i32⟩
  | 29 => ⟨S870400x64, .f32⟩
  | 30 => ⟨S1x3x64, .f32⟩
  | 31 => ⟨S3x64, .f32⟩
  | 32 => ⟨S870400x1, .i32⟩
  | 33 => ⟨S870400, .i32⟩
  | 34 => ⟨S_, .i32⟩
  | 35 => ⟨S870400, .i32⟩
  | 36 => ⟨S870400, .i1⟩
  | 37 => ⟨S_, .i32⟩
  | 38 => ⟨S870400, .i32⟩
  | 39 => ⟨S870400, .i32⟩
  | 40 => ⟨S870400, .i32⟩
  | 41 => ⟨S870400x1, .i32⟩
  | 42 => ⟨S870400x64, .f32⟩
  | 43 => ⟨S870400x64, .f32⟩
  | 44 => ⟨S_, .i32⟩
  | 45 => ⟨S870400, .i32⟩
  | 46 => ⟨S870400, .i1⟩
  | 47 => ⟨S_, .i32⟩
  | 48 => ⟨S870400, .i32⟩
  | 49 => ⟨S870400, .i32⟩
  | 50 => ⟨S870400, .i32⟩
  | 51 => ⟨S870400x1, .i32⟩
  | 52 => ⟨S870400x64, .f32⟩
  | 53 => ⟨S870400x64, .f32⟩
  | 54 => ⟨S_, .f32⟩
  | 55 => ⟨S51200x64, .f32⟩
  | 56 => ⟨S870400x1, .i32⟩
  | 57 => ⟨S51200x64, .f32⟩
  | 58 => ⟨S1x64x128, .f32⟩
  | 59 => ⟨S64x128, .f32⟩
  | 60 => ⟨S51200x128, .f32⟩
  | 61 => ⟨S1x128, .f32⟩
  | 62 => ⟨S128, .f32⟩
  | 63 => ⟨S1x128, .f32⟩
  | 64 => ⟨S51200x128, .f32⟩
  | 65 => ⟨S51200x128, .f32⟩
  | 66 => ⟨S_, .f32⟩
  | 67 => ⟨S51200x128, .f32⟩
  | 68 => ⟨S51200x128, .f32⟩
  | 69 => ⟨S1x128x64, .f32⟩
  | 70 => ⟨S128x64, .f32⟩
  | 71 => ⟨S51200x64, .f32⟩
  | 72 => ⟨S1x64, .f32⟩
  | 73 => ⟨S64, .f32⟩
  | 74 => ⟨S1x64, .f32⟩
  | 75 => ⟨S51200x64, .f32⟩
  | 76 => ⟨S51200x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S51200x64, .f32⟩
  | 90 => ⟨S51200x64, .f32⟩
  | 91 => ⟨S51200x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S51200x64, .f32⟩
  | 107 => ⟨S51200x64, .f32⟩
  | 108 => ⟨S_, .f32⟩
  | 109 => ⟨S64, .f32⟩
  | 110 => ⟨S64, .f32⟩
  | 111 => ⟨S64, .f32⟩
  | 112 => ⟨S1x64, .f32⟩
  | 113 => ⟨S51200x64, .f32⟩
  | 114 => ⟨S51200x64, .f32⟩
  | 115 => ⟨S1x64, .f32⟩
  | 116 => ⟨S64, .f32⟩
  | 117 => ⟨S1x64, .f32⟩
  | 118 => ⟨S51200x64, .f32⟩
  | 119 => ⟨S51200x64, .f32⟩
  | 120 => ⟨S1x64, .f32⟩
  | 121 => ⟨S64, .f32⟩
  | 122 => ⟨S1x64, .f32⟩
  | 123 => ⟨S51200x64, .f32⟩
  | 124 => ⟨S51200x64, .f32⟩
  | 125 => ⟨S_, .f32⟩
  | 126 => ⟨S51200x64, .f32⟩
  | 127 => ⟨S51200x64, .f32⟩
  | _ => ⟨S51200x40, .f32⟩

abbrev hbmTy0_3 (i : Nat) : BufTy := match i % 128 with
  | 0 => ⟨S1x6x64, .f32⟩
  | 1 => ⟨S6x64, .f32⟩
  | 2 => ⟨S870400x1, .i32⟩
  | 3 => ⟨S870400, .i32⟩
  | 4 => ⟨S_, .i32⟩
  | 5 => ⟨S870400, .i32⟩
  | 6 => ⟨S870400, .i1⟩
  | 7 => ⟨S_, .i32⟩
  | 8 => ⟨S870400, .i32⟩
  | 9 => ⟨S870400, .i32⟩
  | 10 => ⟨S870400, .i32⟩
  | 11 => ⟨S870400x1, .i32⟩
  | 12 => ⟨S870400x64, .f32⟩
  | 13 => ⟨S1x3x64, .f32⟩
  | 14 => ⟨S3x64, .f32⟩
  | 15 => ⟨S870400x1, .i32⟩
  | 16 => ⟨S870400, .i32⟩
  | 17 => ⟨S_, .i32⟩
  | 18 => ⟨S870400, .i32⟩
  | 19 => ⟨S870400, .i1⟩
  | 20 => ⟨S_, .i32⟩
  | 21 => ⟨S870400, .i32⟩
  | 22 => ⟨S870400, .i32⟩
  | 23 => ⟨S870400, .i32⟩
  | 24 => ⟨S870400x1, .i32⟩
  | 25 => ⟨S870400x64, .f32⟩
  | 26 => ⟨S870400x64, .f32⟩
  | 27 => ⟨S_, .i32⟩
  | 28 => ⟨S870400, .i32⟩
  | 29 => ⟨S870400, .i1⟩
  | 30 => ⟨S_, .i32⟩
  | 31 => ⟨S870400, .i32⟩
  | 32 => ⟨S870400, .i32⟩
  | 33 => ⟨S870400, .i32⟩
  | 34 => ⟨S870400x1, .i32⟩
  | 35 => ⟨S870400x64, .f32⟩
  | 36 => ⟨S870400x64, .f32⟩
  | 37 => ⟨S_, .f32⟩
  | 38 => ⟨S51200x64, .f32⟩
  | 39 => ⟨S870400x1, .i32⟩
  | 40 => ⟨S51200x64, .f32⟩
  | 41 => ⟨S1x64x128, .f32⟩
  | 42 => ⟨S64x128, .f32⟩
  | 43 => ⟨S51200x128, .f32⟩
  | 44 => ⟨S1x128, .f32⟩
  | 45 => ⟨S128, .f32⟩
  | 46 => ⟨S1x128, .f32⟩
  | 47 => ⟨S51200x128, .f32⟩
  | 48 => ⟨S51200x128, .f32⟩
  | 49 => ⟨S_, .f32⟩
  | 50 => ⟨S51200x128, .f32⟩
  | 51 => ⟨S51200x128, .f32⟩
  | 52 => ⟨S1x128x64, .f32⟩
  | 53 => ⟨S128x64, .f32⟩
  | 54 => ⟨S51200x64, .f32⟩
  | 55 => ⟨S1x64, .f32⟩
  | 56 => ⟨S64, .f32⟩
  | 57 => ⟨S1x64, .f32⟩
  | 58 => ⟨S51200x64, .f32⟩
  | 59 => ⟨S51200x64, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S51200x64, .f32⟩
  | 73 => ⟨S51200x64, .f32⟩
  | 74 => ⟨S51200x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x64, .f32⟩
  | 89 => ⟨S51200x64, .f32⟩
  | 90 => ⟨S51200x64, .f32⟩
  | 91 => ⟨S_, .f32⟩
  | 92 => ⟨S64, .f32⟩
  | 93 => ⟨S64, .f32⟩
  | 94 => ⟨S64, .f32⟩
  | 95 => ⟨S1x64, .f32⟩
  | 96 => ⟨S51200x64, .f32⟩
  | 97 => ⟨S51200x64, .f32⟩
  | 98 => ⟨S1x64, .f32⟩
  | 99 => ⟨S64, .f32⟩
  | 100 => ⟨S1x64, .f32⟩
  | 101 => ⟨S51200x64, .f32⟩
  | 102 => ⟨S51200x64, .f32⟩
  | 103 => ⟨S1x64, .f32⟩
  | 104 => ⟨S64, .f32⟩
  | 105 => ⟨S1x64, .f32⟩
  | 106 => ⟨S51200x64, .f32⟩
  | 107 => ⟨S51200x64, .f32⟩
  | 108 => ⟨S_, .f32⟩
  | 109 => ⟨S51200x64, .f32⟩
  | 110 => ⟨S51200x64, .f32⟩
  | 111 => ⟨S1x6x64, .f32⟩
  | 112 => ⟨S6x64, .f32⟩
  | 113 => ⟨S870400x1, .i32⟩
  | 114 => ⟨S870400, .i32⟩
  | 115 => ⟨S_, .i32⟩
  | 116 => ⟨S870400, .i32⟩
  | 117 => ⟨S870400, .i1⟩
  | 118 => ⟨S_, .i32⟩
  | 119 => ⟨S870400, .i32⟩
  | 120 => ⟨S870400, .i32⟩
  | 121 => ⟨S870400, .i32⟩
  | 122 => ⟨S870400x1, .i32⟩
  | 123 => ⟨S870400x64, .f32⟩
  | 124 => ⟨S1x3x64, .f32⟩
  | 125 => ⟨S3x64, .f32⟩
  | 126 => ⟨S870400x1, .i32⟩
  | 127 => ⟨S870400, .i32⟩
  | _ => ⟨S51200x40, .f32⟩

abbrev hbmTy0_4 (i : Nat) : BufTy := match i % 128 with
  | 0 => ⟨S_, .i32⟩
  | 1 => ⟨S870400, .i32⟩
  | 2 => ⟨S870400, .i1⟩
  | 3 => ⟨S_, .i32⟩
  | 4 => ⟨S870400, .i32⟩
  | 5 => ⟨S870400, .i32⟩
  | 6 => ⟨S870400, .i32⟩
  | 7 => ⟨S870400x1, .i32⟩
  | 8 => ⟨S870400x64, .f32⟩
  | 9 => ⟨S870400x64, .f32⟩
  | 10 => ⟨S_, .i32⟩
  | 11 => ⟨S870400, .i32⟩
  | 12 => ⟨S870400, .i1⟩
  | 13 => ⟨S_, .i32⟩
  | 14 => ⟨S870400, .i32⟩
  | 15 => ⟨S870400, .i32⟩
  | 16 => ⟨S870400, .i32⟩
  | 17 => ⟨S870400x1, .i32⟩
  | 18 => ⟨S870400x64, .f32⟩
  | 19 => ⟨S870400x64, .f32⟩
  | 20 => ⟨S_, .f32⟩
  | 21 => ⟨S51200x64, .f32⟩
  | 22 => ⟨S870400x1, .i32⟩
  | 23 => ⟨S51200x64, .f32⟩
  | 24 => ⟨S1x64x128, .f32⟩
  | 25 => ⟨S64x128, .f32⟩
  | 26 => ⟨S51200x128, .f32⟩
  | 27 => ⟨S1x128, .f32⟩
  | 28 => ⟨S128, .f32⟩
  | 29 => ⟨S1x128, .f32⟩
  | 30 => ⟨S51200x128, .f32⟩
  | 31 => ⟨S51200x128, .f32⟩
  | 32 => ⟨S_, .f32⟩
  | 33 => ⟨S51200x128, .f32⟩
  | 34 => ⟨S51200x128, .f32⟩
  | 35 => ⟨S1x128x64, .f32⟩
  | 36 => ⟨S128x64, .f32⟩
  | 37 => ⟨S51200x64, .f32⟩
  | 38 => ⟨S1x64, .f32⟩
  | 39 => ⟨S64, .f32⟩
  | 40 => ⟨S1x64, .f32⟩
  | 41 => ⟨S51200x64, .f32⟩
  | 42 => ⟨S51200x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S51200x64, .f32⟩
  | 56 => ⟨S51200x64, .f32⟩
  | 57 => ⟨S51200x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S51200x64, .f32⟩
  | 73 => ⟨S51200x64, .f32⟩
  | 74 => ⟨S_, .f32⟩
  | 75 => ⟨S64, .f32⟩
  | 76 => ⟨S64, .f32⟩
  | 77 => ⟨S64, .f32⟩
  | 78 => ⟨S1x64, .f32⟩
  | 79 => ⟨S51200x64, .f32⟩
  | 80 => ⟨S51200x64, .f32⟩
  | 81 => ⟨S1x64, .f32⟩
  | 82 => ⟨S64, .f32⟩
  | 83 => ⟨S1x64, .f32⟩
  | 84 => ⟨S51200x64, .f32⟩
  | 85 => ⟨S51200x64, .f32⟩
  | 86 => ⟨S1x64, .f32⟩
  | 87 => ⟨S64, .f32⟩
  | 88 => ⟨S1x64, .f32⟩
  | 89 => ⟨S51200x64, .f32⟩
  | 90 => ⟨S51200x64, .f32⟩
  | 91 => ⟨S_, .f32⟩
  | 92 => ⟨S256x64, .f32⟩
  | 93 => ⟨S51200x1, .i32⟩
  | 94 => ⟨S256x64, .f32⟩
  | 95 => ⟨S_, .f32⟩
  | 96 => ⟨S51200, .f32⟩
  | 97 => ⟨S_, .f32⟩
  | 98 => ⟨S256, .f32⟩
  | 99 => ⟨S51200x1, .i32⟩
  | 100 => ⟨S256, .f32⟩
  | 101 => ⟨S_, .f32⟩
  | 102 => ⟨S256, .f32⟩
  | 103 => ⟨S256, .f32⟩
  | 104 => ⟨S256x1, .f32⟩
  | 105 => ⟨S256x64, .f32⟩
  | 106 => ⟨S256x64, .f32⟩
  | 107 => ⟨S1x204800, .i32⟩
  | 108 => ⟨S204800, .i32⟩
  | 109 => ⟨S_, .i32⟩
  | 110 => ⟨S204800, .i32⟩
  | 111 => ⟨S204800, .i1⟩
  | 112 => ⟨S_, .i32⟩
  | 113 => ⟨S204800, .i32⟩
  | 114 => ⟨S204800, .i32⟩
  | 115 => ⟨S204800, .i32⟩
  | 116 => ⟨S204800x1, .i32⟩
  | 117 => ⟨S204800x64, .f32⟩
  | 118 => ⟨S1x204800, .i32⟩
  | 119 => ⟨S204800, .i32⟩
  | 120 => ⟨S_, .f32⟩
  | 121 => ⟨S102400x64, .f32⟩
  | 122 => ⟨S204800x1, .i32⟩
  | 123 => ⟨S102400x64, .f32⟩
  | 124 => ⟨S_, .f32⟩
  | 125 => ⟨S204800, .f32⟩
  | 126 => ⟨S_, .f32⟩
  | 127 => ⟨S102400, .f32⟩
  | _ => ⟨S51200x40, .f32⟩

abbrev hbmTy0_5 (i : Nat) : BufTy := match i % 128 with
  | 0 => ⟨S204800x1, .i32⟩
  | 1 => ⟨S102400, .f32⟩
  | 2 => ⟨S_, .f32⟩
  | 3 => ⟨S102400, .f32⟩
  | 4 => ⟨S102400, .f32⟩
  | 5 => ⟨S102400x1, .f32⟩
  | 6 => ⟨S102400x64, .f32⟩
  | 7 => ⟨S102400x64, .f32⟩
  | 8 => ⟨S102400x100, .f32⟩
  | 9 => ⟨S1x409600, .i32⟩
  | 10 => ⟨S409600, .i32⟩
  | 11 => ⟨S_, .i32⟩
  | 12 => ⟨S409600, .i32⟩
  | 13 => ⟨S409600, .i1⟩
  | 14 => ⟨S_, .i32⟩
  | 15 => ⟨S409600, .i32⟩
  | 16 => ⟨S409600, .i32⟩
  | 17 => ⟨S409600, .i32⟩
  | 18 => ⟨S409600x1, .i32⟩
  | 19 => ⟨S409600x100, .f32⟩
  | 20 => ⟨S1x409600, .i32⟩
  | 21 => ⟨S409600, .i32⟩
  | 22 => ⟨S_, .f32⟩
  | 23 => ⟨S102400x100, .f32⟩
  | 24 => ⟨S409600x1, .i32⟩
  | 25 => ⟨S102400x100, .f32⟩
  | 26 => ⟨S102400x64, .f32⟩
  | 27 => ⟨S1x64, .f32⟩
  | 28 => ⟨S102400x64, .f32⟩
  | 29 => ⟨S102400x64, .f32⟩
  | 30 => ⟨S102400x64, .f32⟩
  | 31 => ⟨S102400x64, .f32⟩
  | 32 => ⟨S_, .f32⟩
  | 33 => ⟨S102400x64, .f32⟩
  | 34 => ⟨S102400x64, .f32⟩
  | 35 => ⟨S1x409600, .i32⟩
  | 36 => ⟨S409600, .i32⟩
  | 37 => ⟨S_, .i32⟩
  | 38 => ⟨S409600, .i32⟩
  | 39 => ⟨S409600, .i1⟩
  | 40 => ⟨S_, .i32⟩
  | 41 => ⟨S409600, .i32⟩
  | 42 => ⟨S409600, .i32⟩
  | 43 => ⟨S409600, .i32⟩
  | 44 => ⟨S409600x1, .i32⟩
  | 45 => ⟨S409600x64, .f32⟩
  | 46 => ⟨S1x409600, .i32⟩
  | 47 => ⟨S409600, .i32⟩
  | 48 => ⟨S_, .f32⟩
  | 49 => ⟨S102400x64, .f32⟩
  | 50 => ⟨S409600x1, .i32⟩
  | 51 => ⟨S102400x64, .f32⟩
  | 52 => ⟨S102400x64, .f32⟩
  | 53 => ⟨S1x64, .f32⟩
  | 54 => ⟨S102400x64, .f32⟩
  | 55 => ⟨S102400x64, .f32⟩
  | 56 => ⟨S102400x64, .f32⟩
  | 57 => ⟨S102400x64, .f32⟩
  | 58 => ⟨S_, .f32⟩
  | 59 => ⟨S102400x64, .f32⟩
  | 60 => ⟨S102400x64, .f32⟩
  | 61 => ⟨S_, .f32⟩
  | 62 => ⟨S256x64, .f32⟩
  | 63 => ⟨S102400x1, .i32⟩
  | 64 => ⟨S256x64, .f32⟩
  | 65 => ⟨S_, .f32⟩
  | 66 => ⟨S102400, .f32⟩
  | 67 => ⟨S_, .f32⟩
  | 68 => ⟨S256, .f32⟩
  | 69 => ⟨S102400x1, .i32⟩
  | 70 => ⟨S256, .f32⟩
  | 71 => ⟨S_, .f32⟩
  | 72 => ⟨S256, .f32⟩
  | 73 => ⟨S256, .f32⟩
  | 74 => ⟨S256x1, .f32⟩
  | 75 => ⟨S256x64, .f32⟩
  | 76 => ⟨S256x64, .f32⟩
  | 77 => ⟨S256x128, .f32⟩
  | 78 => ⟨S256x64, .f32⟩
  | 79 => ⟨S1x64, .f32⟩
  | 80 => ⟨S256x64, .f32⟩
  | 81 => ⟨S256x64, .f32⟩
  | 82 => ⟨S_, .f32⟩
  | 83 => ⟨S256x64, .f32⟩
  | 84 => ⟨S256x64, .f32⟩
  | 85 => ⟨S256x32, .f32⟩
  | 86 => ⟨S1x32, .f32⟩
  | 87 => ⟨S256x32, .f32⟩
  | 88 => ⟨S256x32, .f32⟩
  | 89 => ⟨S_, .f32⟩
  | 90 => ⟨S256x32, .f32⟩
  | 91 => ⟨S256x32, .f32⟩
  | 92 => ⟨S256x16, .f32⟩
  | 93 => ⟨S1x16, .f32⟩
  | 94 => ⟨S256x16, .f32⟩
  | 95 => ⟨S256x16, .f32⟩
  | 96 => ⟨S_, .f32⟩
  | 97 => ⟨S256x16, .f32⟩
  | 98 => ⟨S256x16, .f32⟩
  | 99 => ⟨S256x1, .f32⟩
  | 100 => ⟨S1x1, .f32⟩
  | 101 => ⟨S256x1, .f32⟩
  | 102 => ⟨S256x1, .f32⟩
  | 103 => ⟨S256, .f32⟩
  | _ => ⟨S51200x40, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S51200x40, .f32⟩

abbrev bufTy : (tb : Table) → Fin (tcTables nBuf tb) → BufTy
  | .hbm, ⟨i, _⟩ => hbmTy i
  | _, _ => ⟨S51200x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_call0_cst : Ref sig .tc := ⟨.hbm, 48, rfl⟩
abbrev main_call0_v0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c_0 : Ref sig .tc := ⟨.hbm, 55, rfl⟩
abbrev main_v20 : Ref sig .tc := ⟨.hbm, 56, rfl⟩
abbrev main_v21 : Ref sig .tc := ⟨.hbm, 57, rfl⟩
abbrev main_c_1 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_c_2 : Ref sig .tc := ⟨.hbm, 68, rfl⟩
abbrev main_v31 : Ref sig .tc := ⟨.hbm, 69, rfl⟩
abbrev main_v32 : Ref sig .tc := ⟨.hbm, 70, rfl⟩
abbrev main_c_3 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_4 : Ref sig .tc := ⟨.hbm, 78, rfl⟩
abbrev main_v39 : Ref sig .tc := ⟨.hbm, 79, rfl⟩
abbrev main_v40 : Ref sig .tc := ⟨.hbm, 80, rfl⟩
abbrev main_c_5 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_call1_cst : Ref sig .tc := ⟨.hbm, 100, rfl⟩
abbrev main_call1_v0 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_6 : Ref sig .tc := ⟨.hbm, 111, rfl⟩
abbrev main_v67 : Ref sig .tc := ⟨.hbm, 112, rfl⟩
abbrev main_cst_7 : Ref sig .tc := ⟨.hbm, 113, rfl⟩
abbrev main_v68 : Ref sig .tc := ⟨.hbm, 114, rfl⟩
abbrev main_v69 : Ref sig .tc := ⟨.hbm, 115, rfl⟩
abbrev main_c_8 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_cst_3 : Ref sig .tc := ⟨.hbm, 133, rfl⟩
abbrev main_call2_v12 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_9 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_call3_cst : Ref sig .tc := ⟨.hbm, 159, rfl⟩
abbrev main_call3_v0 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_c_10 : Ref sig .tc := ⟨.hbm, 166, rfl⟩
abbrev main_v95 : Ref sig .tc := ⟨.hbm, 167, rfl⟩
abbrev main_v96 : Ref sig .tc := ⟨.hbm, 168, rfl⟩
abbrev main_c_11 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_c_12 : Ref sig .tc := ⟨.hbm, 179, rfl⟩
abbrev main_v106 : Ref sig .tc := ⟨.hbm, 180, rfl⟩
abbrev main_v107 : Ref sig .tc := ⟨.hbm, 181, rfl⟩
abbrev main_c_13 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_c_14 : Ref sig .tc := ⟨.hbm, 189, rfl⟩
abbrev main_v114 : Ref sig .tc := ⟨.hbm, 190, rfl⟩
abbrev main_v115 : Ref sig .tc := ⟨.hbm, 191, rfl⟩
abbrev main_c_15 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_cst_16 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_call4_cst : Ref sig .tc := ⟨.hbm, 211, rfl⟩
abbrev main_call4_v0 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_17 : Ref sig .tc := ⟨.hbm, 222, rfl⟩
abbrev main_v142 : Ref sig .tc := ⟨.hbm, 223, rfl⟩
abbrev main_cst_18 : Ref sig .tc := ⟨.hbm, 224, rfl⟩
abbrev main_v143 : Ref sig .tc := ⟨.hbm, 225, rfl⟩
abbrev main_v144 : Ref sig .tc := ⟨.hbm, 226, rfl⟩
abbrev main_c_19 : Ref sig .tc := ⟨.hbm, 227, rfl⟩
abbrev main_call5_cst : Ref sig .tc := ⟨.hbm, 228, rfl⟩
abbrev main_call5_v0 : Ref sig .tc := ⟨.hbm, 229, rfl⟩
abbrev main_call5_v1 : Ref sig .tc := ⟨.hbm, 230, rfl⟩
abbrev main_call5_cst_0 : Ref sig .tc := ⟨.hbm, 231, rfl⟩
abbrev main_call5_v2 : Ref sig .tc := ⟨.hbm, 232, rfl⟩
abbrev main_call5_v3 : Ref sig .tc := ⟨.hbm, 233, rfl⟩
abbrev main_call5_v4 : Ref sig .tc := ⟨.hbm, 234, rfl⟩
abbrev main_call5_v5 : Ref sig .tc := ⟨.hbm, 235, rfl⟩
abbrev main_call5_v6 : Ref sig .tc := ⟨.hbm, 236, rfl⟩
abbrev main_call5_v7 : Ref sig .tc := ⟨.hbm, 237, rfl⟩
abbrev main_call5_cst_1 : Ref sig .tc := ⟨.hbm, 238, rfl⟩
abbrev main_call5_v8 : Ref sig .tc := ⟨.hbm, 239, rfl⟩
abbrev main_call5_cst_2 : Ref sig .tc := ⟨.hbm, 240, rfl⟩
abbrev main_call5_v9 : Ref sig .tc := ⟨.hbm, 241, rfl⟩
abbrev main_call5_v10 : Ref sig .tc := ⟨.hbm, 242, rfl⟩
abbrev main_call5_v11 : Ref sig .tc := ⟨.hbm, 243, rfl⟩
abbrev main_call5_cst_3 : Ref sig .tc := ⟨.hbm, 244, rfl⟩
abbrev main_call5_v12 : Ref sig .tc := ⟨.hbm, 245, rfl⟩
abbrev main_call5_cst_4 : Ref sig .tc := ⟨.hbm, 246, rfl⟩
abbrev main_call5_call0_v0 : Ref sig .tc := ⟨.hbm, 247, rfl⟩
abbrev main_call5_call0_v1 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_20 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_call6_cst : Ref sig .tc := ⟨.hbm, 270, rfl⟩
abbrev main_call6_v0 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_c_21 : Ref sig .tc := ⟨.hbm, 277, rfl⟩
abbrev main_v170 : Ref sig .tc := ⟨.hbm, 278, rfl⟩
abbrev main_v171 : Ref sig .tc := ⟨.hbm, 279, rfl⟩
abbrev main_c_22 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_c_23 : Ref sig .tc := ⟨.hbm, 290, rfl⟩
abbrev main_v181 : Ref sig .tc := ⟨.hbm, 291, rfl⟩
abbrev main_v182 : Ref sig .tc := ⟨.hbm, 292, rfl⟩
abbrev main_c_24 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_c_25 : Ref sig .tc := ⟨.hbm, 300, rfl⟩
abbrev main_v189 : Ref sig .tc := ⟨.hbm, 301, rfl⟩
abbrev main_v190 : Ref sig .tc := ⟨.hbm, 302, rfl⟩
abbrev main_c_26 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_cst_27 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_call7_cst : Ref sig .tc := ⟨.hbm, 322, rfl⟩
abbrev main_call7_v0 : Ref sig .tc := ⟨.hbm, 323, rfl⟩
abbrev main_v208 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_cst_28 : Ref sig .tc := ⟨.hbm, 333, rfl⟩
abbrev main_v217 : Ref sig .tc := ⟨.hbm, 334, rfl⟩
abbrev main_cst_29 : Ref sig .tc := ⟨.hbm, 335, rfl⟩
abbrev main_v218 : Ref sig .tc := ⟨.hbm, 336, rfl⟩
abbrev main_v219 : Ref sig .tc := ⟨.hbm, 337, rfl⟩
abbrev main_c_30 : Ref sig .tc := ⟨.hbm, 338, rfl⟩
abbrev main_call8_cst : Ref sig .tc := ⟨.hbm, 339, rfl⟩
abbrev main_call8_v0 : Ref sig .tc := ⟨.hbm, 340, rfl⟩
abbrev main_call8_v1 : Ref sig .tc := ⟨.hbm, 341, rfl⟩
abbrev main_call8_cst_0 : Ref sig .tc := ⟨.hbm, 342, rfl⟩
abbrev main_call8_v2 : Ref sig .tc := ⟨.hbm, 343, rfl⟩
abbrev main_call8_v3 : Ref sig .tc := ⟨.hbm, 344, rfl⟩
abbrev main_call8_v4 : Ref sig .tc := ⟨.hbm, 345, rfl⟩
abbrev main_call8_v5 : Ref sig .tc := ⟨.hbm, 346, rfl⟩
abbrev main_call8_v6 : Ref sig .tc := ⟨.hbm, 347, rfl⟩
abbrev main_call8_v7 : Ref sig .tc := ⟨.hbm, 348, rfl⟩
abbrev main_call8_cst_1 : Ref sig .tc := ⟨.hbm, 349, rfl⟩
abbrev main_call8_v8 : Ref sig .tc := ⟨.hbm, 350, rfl⟩
abbrev main_call8_cst_2 : Ref sig .tc := ⟨.hbm, 351, rfl⟩
abbrev main_call8_v9 : Ref sig .tc := ⟨.hbm, 352, rfl⟩
abbrev main_call8_v10 : Ref sig .tc := ⟨.hbm, 353, rfl⟩
abbrev main_call8_v11 : Ref sig .tc := ⟨.hbm, 354, rfl⟩
abbrev main_call8_cst_3 : Ref sig .tc := ⟨.hbm, 355, rfl⟩
abbrev main_call8_v12 : Ref sig .tc := ⟨.hbm, 356, rfl⟩
abbrev main_call8_cst_4 : Ref sig .tc := ⟨.hbm, 357, rfl⟩
abbrev main_call8_call0_v0 : Ref sig .tc := ⟨.hbm, 358, rfl⟩
abbrev main_call8_call0_v1 : Ref sig .tc := ⟨.hbm, 359, rfl⟩
abbrev main_v220 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_31 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_v238 : Ref sig .tc := ⟨.hbm, 379, rfl⟩
abbrev main_v239 : Ref sig .tc := ⟨.hbm, 380, rfl⟩
abbrev main_call9_cst : Ref sig .tc := ⟨.hbm, 381, rfl⟩
abbrev main_call9_v0 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_c_32 : Ref sig .tc := ⟨.hbm, 388, rfl⟩
abbrev main_v245 : Ref sig .tc := ⟨.hbm, 389, rfl⟩
abbrev main_v246 : Ref sig .tc := ⟨.hbm, 390, rfl⟩
abbrev main_c_33 : Ref sig .tc := ⟨.hbm, 391, rfl⟩
abbrev main_v247 : Ref sig .tc := ⟨.hbm, 392, rfl⟩
abbrev main_v248 : Ref sig .tc := ⟨.hbm, 393, rfl⟩
abbrev main_v249 : Ref sig .tc := ⟨.hbm, 394, rfl⟩
abbrev main_v250 : Ref sig .tc := ⟨.hbm, 395, rfl⟩
abbrev main_v251 : Ref sig .tc := ⟨.hbm, 396, rfl⟩
abbrev main_v252 : Ref sig .tc := ⟨.hbm, 397, rfl⟩
abbrev main_v253 : Ref sig .tc := ⟨.hbm, 398, rfl⟩
abbrev main_v254 : Ref sig .tc := ⟨.hbm, 399, rfl⟩
abbrev main_v255 : Ref sig .tc := ⟨.hbm, 400, rfl⟩
abbrev main_c_34 : Ref sig .tc := ⟨.hbm, 401, rfl⟩
abbrev main_v256 : Ref sig .tc := ⟨.hbm, 402, rfl⟩
abbrev main_v257 : Ref sig .tc := ⟨.hbm, 403, rfl⟩
abbrev main_c_35 : Ref sig .tc := ⟨.hbm, 404, rfl⟩
abbrev main_v258 : Ref sig .tc := ⟨.hbm, 405, rfl⟩
abbrev main_v259 : Ref sig .tc := ⟨.hbm, 406, rfl⟩
abbrev main_v260 : Ref sig .tc := ⟨.hbm, 407, rfl⟩
abbrev main_v261 : Ref sig .tc := ⟨.hbm, 408, rfl⟩
abbrev main_v262 : Ref sig .tc := ⟨.hbm, 409, rfl⟩
abbrev main_v263 : Ref sig .tc := ⟨.hbm, 410, rfl⟩
abbrev main_c_36 : Ref sig .tc := ⟨.hbm, 411, rfl⟩
abbrev main_v264 : Ref sig .tc := ⟨.hbm, 412, rfl⟩
abbrev main_v265 : Ref sig .tc := ⟨.hbm, 413, rfl⟩
abbrev main_c_37 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_v269 : Ref sig .tc := ⟨.hbm, 418, rfl⟩
abbrev main_v270 : Ref sig .tc := ⟨.hbm, 419, rfl⟩
abbrev main_v271 : Ref sig .tc := ⟨.hbm, 420, rfl⟩
abbrev main_cst_38 : Ref sig .tc := ⟨.hbm, 421, rfl⟩
abbrev main_v272 : Ref sig .tc := ⟨.hbm, 422, rfl⟩
abbrev main_v273 : Ref sig .tc := ⟨.hbm, 423, rfl⟩
abbrev main_v274 : Ref sig .tc := ⟨.hbm, 424, rfl⟩
abbrev main_v275 : Ref sig .tc := ⟨.hbm, 425, rfl⟩
abbrev main_v276 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_call10_cst : Ref sig .tc := ⟨.hbm, 433, rfl⟩
abbrev main_call10_v0 : Ref sig .tc := ⟨.hbm, 434, rfl⟩
abbrev main_v283 : Ref sig .tc := ⟨.hbm, 435, rfl⟩
abbrev main_v284 : Ref sig .tc := ⟨.hbm, 436, rfl⟩
abbrev main_v285 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_v291 : Ref sig .tc := ⟨.hbm, 443, rfl⟩
abbrev main_cst_39 : Ref sig .tc := ⟨.hbm, 444, rfl⟩
abbrev main_v292 : Ref sig .tc := ⟨.hbm, 445, rfl⟩
abbrev main_cst_40 : Ref sig .tc := ⟨.hbm, 446, rfl⟩
abbrev main_v293 : Ref sig .tc := ⟨.hbm, 447, rfl⟩
abbrev main_v294 : Ref sig .tc := ⟨.hbm, 448, rfl⟩
abbrev main_c_41 : Ref sig .tc := ⟨.hbm, 449, rfl⟩
abbrev main_call11_cst : Ref sig .tc := ⟨.hbm, 450, rfl⟩
abbrev main_call11_v0 : Ref sig .tc := ⟨.hbm, 451, rfl⟩
abbrev main_call11_v1 : Ref sig .tc := ⟨.hbm, 452, rfl⟩
abbrev main_call11_cst_0 : Ref sig .tc := ⟨.hbm, 453, rfl⟩
abbrev main_call11_v2 : Ref sig .tc := ⟨.hbm, 454, rfl⟩
abbrev main_call11_v3 : Ref sig .tc := ⟨.hbm, 455, rfl⟩
abbrev main_call11_v4 : Ref sig .tc := ⟨.hbm, 456, rfl⟩
abbrev main_call11_v5 : Ref sig .tc := ⟨.hbm, 457, rfl⟩
abbrev main_call11_v6 : Ref sig .tc := ⟨.hbm, 458, rfl⟩
abbrev main_call11_v7 : Ref sig .tc := ⟨.hbm, 459, rfl⟩
abbrev main_call11_cst_1 : Ref sig .tc := ⟨.hbm, 460, rfl⟩
abbrev main_call11_v8 : Ref sig .tc := ⟨.hbm, 461, rfl⟩
abbrev main_call11_cst_2 : Ref sig .tc := ⟨.hbm, 462, rfl⟩
abbrev main_call11_v9 : Ref sig .tc := ⟨.hbm, 463, rfl⟩
abbrev main_call11_v10 : Ref sig .tc := ⟨.hbm, 464, rfl⟩
abbrev main_call11_v11 : Ref sig .tc := ⟨.hbm, 465, rfl⟩
abbrev main_call11_cst_3 : Ref sig .tc := ⟨.hbm, 466, rfl⟩
abbrev main_call11_v12 : Ref sig .tc := ⟨.hbm, 467, rfl⟩
abbrev main_call11_cst_4 : Ref sig .tc := ⟨.hbm, 468, rfl⟩
abbrev main_call11_call0_v0 : Ref sig .tc := ⟨.hbm, 469, rfl⟩
abbrev main_call11_call0_v1 : Ref sig .tc := ⟨.hbm, 470, rfl⟩
abbrev main_v295 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev main_cst_42 : Ref sig .tc := ⟨.hbm, 475, rfl⟩
abbrev main_v299 : Ref sig .tc := ⟨.hbm, 476, rfl⟩
abbrev main_v300 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩
abbrev main_v304 : Ref sig .tc := ⟨.hbm, 481, rfl⟩
abbrev main_v305 : Ref sig .tc := ⟨.hbm, 482, rfl⟩
abbrev main_v306 : Ref sig .tc := ⟨.hbm, 483, rfl⟩
abbrev main_v307 : Ref sig .tc := ⟨.hbm, 484, rfl⟩
abbrev main_v308 : Ref sig .tc := ⟨.hbm, 485, rfl⟩
abbrev main_v309 : Ref sig .tc := ⟨.hbm, 486, rfl⟩
abbrev main_v310 : Ref sig .tc := ⟨.hbm, 487, rfl⟩
abbrev main_v311 : Ref sig .tc := ⟨.hbm, 488, rfl⟩
abbrev main_v312 : Ref sig .tc := ⟨.hbm, 489, rfl⟩
abbrev main_v313 : Ref sig .tc := ⟨.hbm, 490, rfl⟩
abbrev main_v314 : Ref sig .tc := ⟨.hbm, 491, rfl⟩
abbrev main_call12_cst : Ref sig .tc := ⟨.hbm, 492, rfl⟩
abbrev main_call12_v0 : Ref sig .tc := ⟨.hbm, 493, rfl⟩
abbrev main_v315 : Ref sig .tc := ⟨.hbm, 494, rfl⟩
abbrev main_v316 : Ref sig .tc := ⟨.hbm, 495, rfl⟩
abbrev main_v317 : Ref sig .tc := ⟨.hbm, 496, rfl⟩
abbrev main_v318 : Ref sig .tc := ⟨.hbm, 497, rfl⟩
abbrev main_v319 : Ref sig .tc := ⟨.hbm, 498, rfl⟩
abbrev main_c_43 : Ref sig .tc := ⟨.hbm, 499, rfl⟩
abbrev main_v320 : Ref sig .tc := ⟨.hbm, 500, rfl⟩
abbrev main_v321 : Ref sig .tc := ⟨.hbm, 501, rfl⟩
abbrev main_c_44 : Ref sig .tc := ⟨.hbm, 502, rfl⟩
abbrev main_v322 : Ref sig .tc := ⟨.hbm, 503, rfl⟩
abbrev main_v323 : Ref sig .tc := ⟨.hbm, 504, rfl⟩
abbrev main_v324 : Ref sig .tc := ⟨.hbm, 505, rfl⟩
abbrev main_v325 : Ref sig .tc := ⟨.hbm, 506, rfl⟩
abbrev main_v326 : Ref sig .tc := ⟨.hbm, 507, rfl⟩
abbrev main_v327 : Ref sig .tc := ⟨.hbm, 508, rfl⟩
abbrev main_v328 : Ref sig .tc := ⟨.hbm, 509, rfl⟩
abbrev main_v329 : Ref sig .tc := ⟨.hbm, 510, rfl⟩
abbrev main_v330 : Ref sig .tc := ⟨.hbm, 511, rfl⟩
abbrev main_c_45 : Ref sig .tc := ⟨.hbm, 512, rfl⟩
abbrev main_v331 : Ref sig .tc := ⟨.hbm, 513, rfl⟩
abbrev main_v332 : Ref sig .tc := ⟨.hbm, 514, rfl⟩
abbrev main_c_46 : Ref sig .tc := ⟨.hbm, 515, rfl⟩
abbrev main_v333 : Ref sig .tc := ⟨.hbm, 516, rfl⟩
abbrev main_v334 : Ref sig .tc := ⟨.hbm, 517, rfl⟩
abbrev main_v335 : Ref sig .tc := ⟨.hbm, 518, rfl⟩
abbrev main_v336 : Ref sig .tc := ⟨.hbm, 519, rfl⟩
abbrev main_v337 : Ref sig .tc := ⟨.hbm, 520, rfl⟩
abbrev main_v338 : Ref sig .tc := ⟨.hbm, 521, rfl⟩
abbrev main_c_47 : Ref sig .tc := ⟨.hbm, 522, rfl⟩
abbrev main_v339 : Ref sig .tc := ⟨.hbm, 523, rfl⟩
abbrev main_v340 : Ref sig .tc := ⟨.hbm, 524, rfl⟩
abbrev main_c_48 : Ref sig .tc := ⟨.hbm, 525, rfl⟩
abbrev main_v341 : Ref sig .tc := ⟨.hbm, 526, rfl⟩
abbrev main_v342 : Ref sig .tc := ⟨.hbm, 527, rfl⟩
abbrev main_v343 : Ref sig .tc := ⟨.hbm, 528, rfl⟩
abbrev main_v344 : Ref sig .tc := ⟨.hbm, 529, rfl⟩
abbrev main_v345 : Ref sig .tc := ⟨.hbm, 530, rfl⟩
abbrev main_v346 : Ref sig .tc := ⟨.hbm, 531, rfl⟩
abbrev main_cst_49 : Ref sig .tc := ⟨.hbm, 532, rfl⟩
abbrev main_v347 : Ref sig .tc := ⟨.hbm, 533, rfl⟩
abbrev main_v348 : Ref sig .tc := ⟨.hbm, 534, rfl⟩
abbrev main_v349 : Ref sig .tc := ⟨.hbm, 535, rfl⟩
abbrev main_v350 : Ref sig .tc := ⟨.hbm, 536, rfl⟩
abbrev main_v351 : Ref sig .tc := ⟨.hbm, 537, rfl⟩
abbrev main_v352 : Ref sig .tc := ⟨.hbm, 538, rfl⟩
abbrev main_v353 : Ref sig .tc := ⟨.hbm, 539, rfl⟩
abbrev main_v354 : Ref sig .tc := ⟨.hbm, 540, rfl⟩
abbrev main_v355 : Ref sig .tc := ⟨.hbm, 541, rfl⟩
abbrev main_v356 : Ref sig .tc := ⟨.hbm, 542, rfl⟩
abbrev main_v357 : Ref sig .tc := ⟨.hbm, 543, rfl⟩
abbrev main_call13_cst : Ref sig .tc := ⟨.hbm, 544, rfl⟩
abbrev main_call13_v0 : Ref sig .tc := ⟨.hbm, 545, rfl⟩
abbrev main_v358 : Ref sig .tc := ⟨.hbm, 546, rfl⟩
abbrev main_v359 : Ref sig .tc := ⟨.hbm, 547, rfl⟩
abbrev main_v360 : Ref sig .tc := ⟨.hbm, 548, rfl⟩
abbrev main_v361 : Ref sig .tc := ⟨.hbm, 549, rfl⟩
abbrev main_v362 : Ref sig .tc := ⟨.hbm, 550, rfl⟩
abbrev main_v363 : Ref sig .tc := ⟨.hbm, 551, rfl⟩
abbrev main_v364 : Ref sig .tc := ⟨.hbm, 552, rfl⟩
abbrev main_v365 : Ref sig .tc := ⟨.hbm, 553, rfl⟩
abbrev main_v366 : Ref sig .tc := ⟨.hbm, 554, rfl⟩
abbrev main_cst_50 : Ref sig .tc := ⟨.hbm, 555, rfl⟩
abbrev main_v367 : Ref sig .tc := ⟨.hbm, 556, rfl⟩
abbrev main_cst_51 : Ref sig .tc := ⟨.hbm, 557, rfl⟩
abbrev main_v368 : Ref sig .tc := ⟨.hbm, 558, rfl⟩
abbrev main_v369 : Ref sig .tc := ⟨.hbm, 559, rfl⟩
abbrev main_c_52 : Ref sig .tc := ⟨.hbm, 560, rfl⟩
abbrev main_call14_cst : Ref sig .tc := ⟨.hbm, 561, rfl⟩
abbrev main_call14_v0 : Ref sig .tc := ⟨.hbm, 562, rfl⟩
abbrev main_call14_v1 : Ref sig .tc := ⟨.hbm, 563, rfl⟩
abbrev main_call14_cst_0 : Ref sig .tc := ⟨.hbm, 564, rfl⟩
abbrev main_call14_v2 : Ref sig .tc := ⟨.hbm, 565, rfl⟩
abbrev main_call14_v3 : Ref sig .tc := ⟨.hbm, 566, rfl⟩
abbrev main_call14_v4 : Ref sig .tc := ⟨.hbm, 567, rfl⟩
abbrev main_call14_v5 : Ref sig .tc := ⟨.hbm, 568, rfl⟩
abbrev main_call14_v6 : Ref sig .tc := ⟨.hbm, 569, rfl⟩
abbrev main_call14_v7 : Ref sig .tc := ⟨.hbm, 570, rfl⟩
abbrev main_call14_cst_1 : Ref sig .tc := ⟨.hbm, 571, rfl⟩
abbrev main_call14_v8 : Ref sig .tc := ⟨.hbm, 572, rfl⟩
abbrev main_call14_cst_2 : Ref sig .tc := ⟨.hbm, 573, rfl⟩
abbrev main_call14_v9 : Ref sig .tc := ⟨.hbm, 574, rfl⟩
abbrev main_call14_v10 : Ref sig .tc := ⟨.hbm, 575, rfl⟩
abbrev main_call14_v11 : Ref sig .tc := ⟨.hbm, 576, rfl⟩
abbrev main_call14_cst_3 : Ref sig .tc := ⟨.hbm, 577, rfl⟩
abbrev main_call14_v12 : Ref sig .tc := ⟨.hbm, 578, rfl⟩
abbrev main_call14_cst_4 : Ref sig .tc := ⟨.hbm, 579, rfl⟩
abbrev main_call14_call0_v0 : Ref sig .tc := ⟨.hbm, 580, rfl⟩
abbrev main_call14_call0_v1 : Ref sig .tc := ⟨.hbm, 581, rfl⟩
abbrev main_v370 : Ref sig .tc := ⟨.hbm, 582, rfl⟩
abbrev main_v371 : Ref sig .tc := ⟨.hbm, 583, rfl⟩
abbrev main_v372 : Ref sig .tc := ⟨.hbm, 584, rfl⟩
abbrev main_v373 : Ref sig .tc := ⟨.hbm, 585, rfl⟩
abbrev main_cst_53 : Ref sig .tc := ⟨.hbm, 586, rfl⟩
abbrev main_v374 : Ref sig .tc := ⟨.hbm, 587, rfl⟩
abbrev main_v375 : Ref sig .tc := ⟨.hbm, 588, rfl⟩
abbrev main_v376 : Ref sig .tc := ⟨.hbm, 589, rfl⟩
abbrev main_v377 : Ref sig .tc := ⟨.hbm, 590, rfl⟩
abbrev main_v378 : Ref sig .tc := ⟨.hbm, 591, rfl⟩
abbrev main_v379 : Ref sig .tc := ⟨.hbm, 592, rfl⟩
abbrev main_v380 : Ref sig .tc := ⟨.hbm, 593, rfl⟩
abbrev main_v381 : Ref sig .tc := ⟨.hbm, 594, rfl⟩
abbrev main_v382 : Ref sig .tc := ⟨.hbm, 595, rfl⟩
abbrev main_v383 : Ref sig .tc := ⟨.hbm, 596, rfl⟩
abbrev main_v384 : Ref sig .tc := ⟨.hbm, 597, rfl⟩
abbrev main_v385 : Ref sig .tc := ⟨.hbm, 598, rfl⟩
abbrev main_v386 : Ref sig .tc := ⟨.hbm, 599, rfl⟩
abbrev main_v387 : Ref sig .tc := ⟨.hbm, 600, rfl⟩
abbrev main_v388 : Ref sig .tc := ⟨.hbm, 601, rfl⟩
abbrev main_v389 : Ref sig .tc := ⟨.hbm, 602, rfl⟩
abbrev main_cst_54 : Ref sig .tc := ⟨.hbm, 603, rfl⟩
abbrev main_v390 : Ref sig .tc := ⟨.hbm, 604, rfl⟩
abbrev main_v391 : Ref sig .tc := ⟨.hbm, 605, rfl⟩
abbrev main_v392 : Ref sig .tc := ⟨.hbm, 606, rfl⟩
abbrev main_cst_55 : Ref sig .tc := ⟨.hbm, 607, rfl⟩
abbrev main_v393 : Ref sig .tc := ⟨.hbm, 608, rfl⟩
abbrev main_cst_56 : Ref sig .tc := ⟨.hbm, 609, rfl⟩
abbrev main_v394 : Ref sig .tc := ⟨.hbm, 610, rfl⟩
abbrev main_v395 : Ref sig .tc := ⟨.hbm, 611, rfl⟩
abbrev main_v396 : Ref sig .tc := ⟨.hbm, 612, rfl⟩
abbrev main_cst_57 : Ref sig .tc := ⟨.hbm, 613, rfl⟩
abbrev main_v397 : Ref sig .tc := ⟨.hbm, 614, rfl⟩
abbrev main_v398 : Ref sig .tc := ⟨.hbm, 615, rfl⟩
abbrev main_v399 : Ref sig .tc := ⟨.hbm, 616, rfl⟩
abbrev main_v400 : Ref sig .tc := ⟨.hbm, 617, rfl⟩
abbrev main_v401 : Ref sig .tc := ⟨.hbm, 618, rfl⟩
abbrev main_v402 : Ref sig .tc := ⟨.hbm, 619, rfl⟩
abbrev main_v403 : Ref sig .tc := ⟨.hbm, 620, rfl⟩
abbrev main_c_58 : Ref sig .tc := ⟨.hbm, 621, rfl⟩
abbrev main_v404 : Ref sig .tc := ⟨.hbm, 622, rfl⟩
abbrev main_v405 : Ref sig .tc := ⟨.hbm, 623, rfl⟩
abbrev main_c_59 : Ref sig .tc := ⟨.hbm, 624, rfl⟩
abbrev main_v406 : Ref sig .tc := ⟨.hbm, 625, rfl⟩
abbrev main_v407 : Ref sig .tc := ⟨.hbm, 626, rfl⟩
abbrev main_v408 : Ref sig .tc := ⟨.hbm, 627, rfl⟩
abbrev main_v409 : Ref sig .tc := ⟨.hbm, 628, rfl⟩
abbrev main_v410 : Ref sig .tc := ⟨.hbm, 629, rfl⟩
abbrev main_v411 : Ref sig .tc := ⟨.hbm, 630, rfl⟩
abbrev main_v412 : Ref sig .tc := ⟨.hbm, 631, rfl⟩
abbrev main_cst_60 : Ref sig .tc := ⟨.hbm, 632, rfl⟩
abbrev main_v413 : Ref sig .tc := ⟨.hbm, 633, rfl⟩
abbrev main_v414 : Ref sig .tc := ⟨.hbm, 634, rfl⟩
abbrev main_v415 : Ref sig .tc := ⟨.hbm, 635, rfl⟩
abbrev main_cst_61 : Ref sig .tc := ⟨.hbm, 636, rfl⟩
abbrev main_v416 : Ref sig .tc := ⟨.hbm, 637, rfl⟩
abbrev main_cst_62 : Ref sig .tc := ⟨.hbm, 638, rfl⟩
abbrev main_v417 : Ref sig .tc := ⟨.hbm, 639, rfl⟩
abbrev main_v418 : Ref sig .tc := ⟨.hbm, 640, rfl⟩
abbrev main_v419 : Ref sig .tc := ⟨.hbm, 641, rfl⟩
abbrev main_cst_63 : Ref sig .tc := ⟨.hbm, 642, rfl⟩
abbrev main_v420 : Ref sig .tc := ⟨.hbm, 643, rfl⟩
abbrev main_v421 : Ref sig .tc := ⟨.hbm, 644, rfl⟩
abbrev main_v422 : Ref sig .tc := ⟨.hbm, 645, rfl⟩
abbrev main_v423 : Ref sig .tc := ⟨.hbm, 646, rfl⟩
abbrev main_v424 : Ref sig .tc := ⟨.hbm, 647, rfl⟩
abbrev main_v425 : Ref sig .tc := ⟨.hbm, 648, rfl⟩
abbrev main_v426 : Ref sig .tc := ⟨.hbm, 649, rfl⟩
abbrev main_v427 : Ref sig .tc := ⟨.hbm, 650, rfl⟩
abbrev main_c_64 : Ref sig .tc := ⟨.hbm, 651, rfl⟩
abbrev main_v428 : Ref sig .tc := ⟨.hbm, 652, rfl⟩
abbrev main_v429 : Ref sig .tc := ⟨.hbm, 653, rfl⟩
abbrev main_c_65 : Ref sig .tc := ⟨.hbm, 654, rfl⟩
abbrev main_v430 : Ref sig .tc := ⟨.hbm, 655, rfl⟩
abbrev main_v431 : Ref sig .tc := ⟨.hbm, 656, rfl⟩
abbrev main_v432 : Ref sig .tc := ⟨.hbm, 657, rfl⟩
abbrev main_v433 : Ref sig .tc := ⟨.hbm, 658, rfl⟩
abbrev main_v434 : Ref sig .tc := ⟨.hbm, 659, rfl⟩
abbrev main_v435 : Ref sig .tc := ⟨.hbm, 660, rfl⟩
abbrev main_v436 : Ref sig .tc := ⟨.hbm, 661, rfl⟩
abbrev main_cst_66 : Ref sig .tc := ⟨.hbm, 662, rfl⟩
abbrev main_v437 : Ref sig .tc := ⟨.hbm, 663, rfl⟩
abbrev main_v438 : Ref sig .tc := ⟨.hbm, 664, rfl⟩
abbrev main_v439 : Ref sig .tc := ⟨.hbm, 665, rfl⟩
abbrev main_v440 : Ref sig .tc := ⟨.hbm, 666, rfl⟩
abbrev main_v441 : Ref sig .tc := ⟨.hbm, 667, rfl⟩
abbrev main_v442 : Ref sig .tc := ⟨.hbm, 668, rfl⟩
abbrev main_v443 : Ref sig .tc := ⟨.hbm, 669, rfl⟩
abbrev main_v444 : Ref sig .tc := ⟨.hbm, 670, rfl⟩
abbrev main_v445 : Ref sig .tc := ⟨.hbm, 671, rfl⟩
abbrev main_call15_cst : Ref sig .tc := ⟨.hbm, 672, rfl⟩
abbrev main_call15_v0 : Ref sig .tc := ⟨.hbm, 673, rfl⟩
abbrev main_v446 : Ref sig .tc := ⟨.hbm, 674, rfl⟩
abbrev main_v447 : Ref sig .tc := ⟨.hbm, 675, rfl⟩
abbrev main_v448 : Ref sig .tc := ⟨.hbm, 676, rfl⟩
abbrev main_c_67 : Ref sig .tc := ⟨.hbm, 677, rfl⟩
abbrev main_v449 : Ref sig .tc := ⟨.hbm, 678, rfl⟩
abbrev main_v450 : Ref sig .tc := ⟨.hbm, 679, rfl⟩
abbrev main_c_68 : Ref sig .tc := ⟨.hbm, 680, rfl⟩
abbrev main_v451 : Ref sig .tc := ⟨.hbm, 681, rfl⟩
abbrev main_v452 : Ref sig .tc := ⟨.hbm, 682, rfl⟩
abbrev main_v453 : Ref sig .tc := ⟨.hbm, 683, rfl⟩
abbrev main_v454 : Ref sig .tc := ⟨.hbm, 684, rfl⟩
abbrev main_v455 : Ref sig .tc := ⟨.hbm, 685, rfl⟩
abbrev main_v456 : Ref sig .tc := ⟨.hbm, 686, rfl⟩
abbrev main_v457 : Ref sig .tc := ⟨.hbm, 687, rfl⟩
abbrev main_cst_69 : Ref sig .tc := ⟨.hbm, 688, rfl⟩
abbrev main_v458 : Ref sig .tc := ⟨.hbm, 689, rfl⟩
abbrev main_v459 : Ref sig .tc := ⟨.hbm, 690, rfl⟩
abbrev main_v460 : Ref sig .tc := ⟨.hbm, 691, rfl⟩
abbrev main_v461 : Ref sig .tc := ⟨.hbm, 692, rfl⟩
abbrev main_v462 : Ref sig .tc := ⟨.hbm, 693, rfl⟩
abbrev main_v463 : Ref sig .tc := ⟨.hbm, 694, rfl⟩
abbrev main_v464 : Ref sig .tc := ⟨.hbm, 695, rfl⟩
abbrev main_v465 : Ref sig .tc := ⟨.hbm, 696, rfl⟩
abbrev main_v466 : Ref sig .tc := ⟨.hbm, 697, rfl⟩
abbrev main_call16_cst : Ref sig .tc := ⟨.hbm, 698, rfl⟩
abbrev main_call16_v0 : Ref sig .tc := ⟨.hbm, 699, rfl⟩
abbrev main_v467 : Ref sig .tc := ⟨.hbm, 700, rfl⟩
abbrev main_cst_70 : Ref sig .tc := ⟨.hbm, 701, rfl⟩
abbrev main_v468 : Ref sig .tc := ⟨.hbm, 702, rfl⟩
abbrev main_v469 : Ref sig .tc := ⟨.hbm, 703, rfl⟩
abbrev main_v470 : Ref sig .tc := ⟨.hbm, 704, rfl⟩
abbrev main_cst_71 : Ref sig .tc := ⟨.hbm, 705, rfl⟩
abbrev main_v471 : Ref sig .tc := ⟨.hbm, 706, rfl⟩
abbrev main_cst_72 : Ref sig .tc := ⟨.hbm, 707, rfl⟩
abbrev main_v472 : Ref sig .tc := ⟨.hbm, 708, rfl⟩
abbrev main_v473 : Ref sig .tc := ⟨.hbm, 709, rfl⟩
abbrev main_v474 : Ref sig .tc := ⟨.hbm, 710, rfl⟩
abbrev main_cst_73 : Ref sig .tc := ⟨.hbm, 711, rfl⟩
abbrev main_v475 : Ref sig .tc := ⟨.hbm, 712, rfl⟩
abbrev main_v476 : Ref sig .tc := ⟨.hbm, 713, rfl⟩
abbrev main_v477 : Ref sig .tc := ⟨.hbm, 714, rfl⟩
abbrev main_v478 : Ref sig .tc := ⟨.hbm, 715, rfl⟩
abbrev main_v479 : Ref sig .tc := ⟨.hbm, 716, rfl⟩
abbrev main_v480 : Ref sig .tc := ⟨.hbm, 717, rfl⟩
abbrev main_v481 : Ref sig .tc := ⟨.hbm, 718, rfl⟩
abbrev main_v482 : Ref sig .tc := ⟨.hbm, 719, rfl⟩
abbrev main_v483 : Ref sig .tc := ⟨.hbm, 720, rfl⟩
abbrev main_v484 : Ref sig .tc := ⟨.hbm, 721, rfl⟩
abbrev main_call17_cst : Ref sig .tc := ⟨.hbm, 722, rfl⟩
abbrev main_call17_v0 : Ref sig .tc := ⟨.hbm, 723, rfl⟩
abbrev main_v485 : Ref sig .tc := ⟨.hbm, 724, rfl⟩
abbrev main_v486 : Ref sig .tc := ⟨.hbm, 725, rfl⟩
abbrev main_v487 : Ref sig .tc := ⟨.hbm, 726, rfl⟩
abbrev main_v488 : Ref sig .tc := ⟨.hbm, 727, rfl⟩
abbrev main_v489 : Ref sig .tc := ⟨.hbm, 728, rfl⟩
abbrev main_call18_cst : Ref sig .tc := ⟨.hbm, 729, rfl⟩
abbrev main_call18_v0 : Ref sig .tc := ⟨.hbm, 730, rfl⟩
abbrev main_v490 : Ref sig .tc := ⟨.hbm, 731, rfl⟩
abbrev main_v491 : Ref sig .tc := ⟨.hbm, 732, rfl⟩
abbrev main_v492 : Ref sig .tc := ⟨.hbm, 733, rfl⟩
abbrev main_v493 : Ref sig .tc := ⟨.hbm, 734, rfl⟩
abbrev main_v494 : Ref sig .tc := ⟨.hbm, 735, rfl⟩
abbrev main_call19_cst : Ref sig .tc := ⟨.hbm, 736, rfl⟩
abbrev main_call19_v0 : Ref sig .tc := ⟨.hbm, 737, rfl⟩
abbrev main_v495 : Ref sig .tc := ⟨.hbm, 738, rfl⟩
abbrev main_v496 : Ref sig .tc := ⟨.hbm, 739, rfl⟩
abbrev main_v497 : Ref sig .tc := ⟨.hbm, 740, rfl⟩
abbrev main_v498 : Ref sig .tc := ⟨.hbm, 741, rfl⟩
abbrev main_v499 : Ref sig .tc := ⟨.hbm, 742, rfl⟩
abbrev main_v500 : Ref sig .tc := ⟨.hbm, 743, rfl⟩

abbrev nD : Nat := 1
abbrev τ : Topo := Topo.v7x

variable {F : FTy → Type} [FloatOps F]

class Facts₀ : Prop where
  slices_S2x819200_S1x819200_0_0 : S2x819200.Slices ![0, 0] S1x819200
  shapeCasts_S1x819200_S819200 : S1x819200.ShapeCasts S819200
  concatenates_S819200_S51200_S870400_d0 : Shape.Concatenates [S819200, S51200] S870400 0
  slices_S2x819200_S1x819200_1_0 : S2x819200.Slices ![1, 0] S1x819200
  shapeCasts_S1x2_S1x1x1x2 : S1x2.ShapeCasts S1x1x1x2
  bcast_S1x1x1x2_S51200x1x1x2_0_1_2_3 : S1x1x1x2.BroadcastsInDim S51200x1x1x2 (![0, 1, 2, 3] : Fin 4 → Fin S51200x1x1x2.rank)
  shapeCasts_S51200x1x1x2_S51200x2 : S51200x1x1x2.ShapeCasts S51200x2
  concatenates_S819200x2_S51200x2_S870400x2_d0 : Shape.Concatenates [S819200x2, S51200x2] S870400x2 0
  bcast_S64_S1x64_1 : S64.BroadcastsInDim S1x64 (![1] : Fin 1 → Fin S1x64.rank)
  bcast_S1x64_S51200x64_0_1 : S1x64.BroadcastsInDim S51200x64 (![0, 1] : Fin 2 → Fin S51200x64.rank)
  bcast_S_S51200x64 : S_.BroadcastsInDim S51200x64 (![] : Fin 0 → Fin S51200x64.rank)
  slices_S5x6x64_S1x6x64_0_0_0 : S5x6x64.Slices ![0, 0, 0] S1x6x64
  shapeCasts_S1x6x64_S6x64 : S1x6x64.ShapeCasts S6x64
  slices_S870400x2_S870400x1_0_0 : S870400x2.Slices ![0, 0] S870400x1
  shapeCasts_S870400x1_S870400 : S870400x1.ShapeCasts S870400
  bcast_S_S870400 : S_.BroadcastsInDim S870400 (![] : Fin 0 → Fin S870400.rank)
  bcast_S870400_S870400x1_0 : S870400.BroadcastsInDim S870400x1 (![0] : Fin 1 → Fin S870400x1.rank)
  slices_S5x3x64_S1x3x64_0_0_0 : S5x3x64.Slices ![0, 0, 0] S1x3x64
  shapeCasts_S1x3x64_S3x64 : S1x3x64.ShapeCasts S3x64
  slices_S870400x2_S870400x1_0_1 : S870400x2.Slices ![0, 1] S870400x1
  slices_S5x64x128_S1x64x128_0_0_0 : S5x64x128.Slices ![0, 0, 0] S1x64x128
  shapeCasts_S1x64x128_S64x128 : S1x64x128.ShapeCasts S64x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S51200x128_0_1 : S1x128.BroadcastsInDim S51200x128 (![0, 1] : Fin 2 → Fin S51200x128.rank)
  bcast_S_S51200x128 : S_.BroadcastsInDim S51200x128 (![] : Fin 0 → Fin S51200x128.rank)
  slices_S5x128x64_S1x128x64_0_0_0 : S5x128x64.Slices ![0, 0, 0] S1x128x64
  shapeCasts_S1x128x64_S128x64 : S1x128x64.ShapeCasts S128x64
  slices_S5x64_S1x64_0_0 : S5x64.Slices ![0, 0] S1x64
  shapeCasts_S1x64_S64 : S1x64.ShapeCasts S64
  reducesTo_S51200x64_S64_d0 : S51200x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S5x6x64_S1x6x64_1_0_0 : S5x6x64.Slices ![1, 0, 0] S1x6x64
  slices_S5x3x64_S1x3x64_1_0_0 : S5x3x64.Slices ![1, 0, 0] S1x3x64
  slices_S5x64x128_S1x64x128_1_0_0 : S5x64x128.Slices ![1, 0, 0] S1x64x128
  slices_S5x128_S1x128_1_0 : S5x128.Slices ![1, 0] S1x128
  slices_S5x128x64_S1x128x64_1_0_0 : S5x128x64.Slices ![1, 0, 0] S1x128x64
  slices_S5x64_S1x64_1_0 : S5x64.Slices ![1, 0] S1x64
  slices_S5x6x64_S1x6x64_2_0_0 : S5x6x64.Slices ![2, 0, 0] S1x6x64
  slices_S5x3x64_S1x3x64_2_0_0 : S5x3x64.Slices ![2, 0, 0] S1x3x64
  slices_S5x64x128_S1x64x128_2_0_0 : S5x64x128.Slices ![2, 0, 0] S1x64x128
  slices_S5x128_S1x128_2_0 : S5x128.Slices ![2, 0] S1x128
  slices_S5x128x64_S1x128x64_2_0_0 : S5x128x64.Slices ![2, 0, 0] S1x128x64
  slices_S5x64_S1x64_2_0 : S5x64.Slices ![2, 0] S1x64
  slices_S5x6x64_S1x6x64_3_0_0 : S5x6x64.Slices ![3, 0, 0] S1x6x64
  slices_S5x3x64_S1x3x64_3_0_0 : S5x3x64.Slices ![3, 0, 0] S1x3x64
  slices_S5x64x128_S1x64x128_3_0_0 : S5x64x128.Slices ![3, 0, 0] S1x64x128
  slices_S5x128_S1x128_3_0 : S5x128.Slices ![3, 0] S1x128
  slices_S5x128x64_S1x128x64_3_0_0 : S5x128x64.Slices ![3, 0, 0] S1x128x64
  slices_S5x64_S1x64_3_0 : S5x64.Slices ![3, 0] S1x64
  slices_S5x6x64_S1x6x64_4_0_0 : S5x6x64.Slices ![4, 0, 0] S1x6x64
  slices_S5x3x64_S1x3x64_4_0_0 : S5x3x64.Slices ![4, 0, 0] S1x3x64
  slices_S5x64x128_S1x64x128_4_0_0 : S5x64x128.Slices ![4, 0, 0] S1x64x128
  slices_S5x128_S1x128_4_0 : S5x128.Slices ![4, 0] S1x128
  slices_S5x128x64_S1x128x64_4_0_0 : S5x128x64.Slices ![4, 0, 0] S1x128x64
  slices_S5x64_S1x64_4_0 : S5x64.Slices ![4, 0] S1x64
  bcast_S_S256x64 : S_.BroadcastsInDim S256x64 (![] : Fin 0 → Fin S256x64.rank)
  bcast_S51200_S51200x1_0 : S51200.BroadcastsInDim S51200x1 (![0] : Fin 1 → Fin S51200x1.rank)
  bcast_S_S51200 : S_.BroadcastsInDim S51200 (![] : Fin 0 → Fin S51200.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  slices_S2x204800_S1x204800_0_0 : S2x204800.Slices ![0, 0] S1x204800
  shapeCasts_S1x204800_S204800 : S1x204800.ShapeCasts S204800
  bcast_S_S204800 : S_.BroadcastsInDim S204800 (![] : Fin 0 → Fin S204800.rank)
  bcast_S204800_S204800x1_0 : S204800.BroadcastsInDim S204800x1 (![0] : Fin 1 → Fin S204800x1.rank)
  slices_S2x204800_S1x204800_1_0 : S2x204800.Slices ![1, 0] S1x204800
  bcast_S_S102400x64 : S_.BroadcastsInDim S102400x64 (![] : Fin 0 → Fin S102400x64.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x64_0_1 : S102400x1.BroadcastsInDim S102400x64 (![0, 1] : Fin 2 → Fin S102400x64.rank)
  concatenates_S102400x64_S102400x36_S102400x100_d1 : Shape.Concatenates [S102400x64, S102400x36] S102400x100 1
  slices_S2x409600_S1x409600_0_0 : S2x409600.Slices ![0, 0] S1x409600
  shapeCasts_S1x409600_S409600 : S1x409600.ShapeCasts S409600
  bcast_S_S409600 : S_.BroadcastsInDim S409600 (![] : Fin 0 → Fin S409600.rank)
  bcast_S409600_S409600x1_0 : S409600.BroadcastsInDim S409600x1 (![0] : Fin 1 → Fin S409600x1.rank)
  slices_S2x409600_S1x409600_1_0 : S2x409600.Slices ![1, 0] S1x409600
  bcast_S_S102400x100 : S_.BroadcastsInDim S102400x100 (![] : Fin 0 → Fin S102400x100.rank)
  bcast_S1x64_S102400x64_0_1 : S1x64.BroadcastsInDim S102400x64 (![0, 1] : Fin 2 → Fin S102400x64.rank)
  concatenates_S256x64_S256x64_S256x128_d1 : Shape.Concatenates [S256x64, S256x64] S256x128 1
  bcast_S1x64_S256x64_0_1 : S1x64.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  dot_S51200x40_S40x64_S51200x64_1_0_0_1_n_n_wf : DotDims.WF S51200x40 S40x64 S51200x64 [1] [0] [0] [1] [] []
  gather_S6x64_S870400x1_S870400x64_1_0_n_n_0_1_164_wf : GatherDims.WF S6x64 S870400x1 S870400x64 [1] [0] [] [0] [] 1 ![1, 64]
  gather_S3x64_S870400x1_S870400x64_1_0_n_n_0_1_164_wf : GatherDims.WF S3x64 S870400x1 S870400x64 [1] [0] [] [0] [] 1 ![1, 64]
  gather_S51200x64_S870400x1_S870400x64_1_0_n_n_0_1_164_wf : GatherDims.WF S51200x64 S870400x1 S870400x64 [1] [0] [] [0] [] 1 ![1, 64]
  scatter_S51200x64_S870400x1_S870400x64_1_0_0_1_wf : ScatterDims.WF S51200x64 S870400x1 S870400x64 [1] [0] [0] 1
  dot_S51200x64_S64x128_S51200x128_1_0_0_1_n_n_wf : DotDims.WF S51200x64 S64x128 S51200x128 [1] [0] [0] [1] [] []
  dot_S51200x128_S128x64_S51200x64_1_0_0_1_n_n_wf : DotDims.WF S51200x128 S128x64 S51200x64 [1] [0] [0] [1] [] []
  scatter_S256x64_S51200x1_S51200x64_1_0_0_1_wf : ScatterDims.WF S256x64 S51200x1 S51200x64 [1] [0] [0] 1
  scatter_S256_S51200x1_S51200_n_0_0_1_wf : ScatterDims.WF S256 S51200x1 S51200 [] [0] [0] 1
  gather_S51200x64_S204800x1_S204800x64_1_0_n_n_0_1_164_wf : GatherDims.WF S51200x64 S204800x1 S204800x64 [1] [0] [] [0] [] 1 ![1, 64]
  scatter_S102400x64_S204800x1_S204800x64_1_0_0_1_wf : ScatterDims.WF S102400x64 S204800x1 S204800x64 [1] [0] [0] 1
  scatter_S102400_S204800x1_S204800_n_0_0_1_wf : ScatterDims.WF S102400 S204800x1 S204800 [] [0] [0] 1
  gather_S102400x100_S409600x1_S409600x100_1_0_n_n_0_1_1100_wf : GatherDims.WF S102400x100 S409600x1 S409600x100 [1] [0] [] [0] [] 1 ![1, 100]
  scatter_S102400x100_S409600x1_S409600x100_1_0_0_1_wf : ScatterDims.WF S102400x100 S409600x1 S409600x100 [1] [0] [0] 1
  dot_S102400x100_S100x64_S102400x64_1_0_0_1_n_n_wf : DotDims.WF S102400x100 S100x64 S102400x64 [1] [0] [0] [1] [] []
  gather_S102400x64_S409600x1_S409600x64_1_0_n_n_0_1_164_wf : GatherDims.WF S102400x64 S409600x1 S409600x64 [1] [0] [] [0] [] 1 ![1, 64]
  scatter_S102400x64_S409600x1_S409600x64_1_0_0_1_wf : ScatterDims.WF S102400x64 S409600x1 S409600x64 [1] [0] [0] 1
  dot_S102400x64_S64x64_S102400x64_1_0_0_1_n_n_wf : DotDims.WF S102400x64 S64x64 S102400x64 [1] [0] [0] [1] [] []
  scatter_S256x64_S102400x1_S102400x64_1_0_0_1_wf : ScatterDims.WF S256x64 S102400x1 S102400x64 [1] [0] [0] 1
  scatter_S256_S102400x1_S102400_n_0_0_1_wf : ScatterDims.WF S256 S102400x1 S102400 [] [0] [0] 1
  dot_S256x128_S128x64_S256x64_1_0_0_1_n_n_wf : DotDims.WF S256x128 S128x64 S256x64 [1] [0] [0] [1] [] []
  dot_S256x64_S64x32_S256x32_1_0_0_1_n_n_wf : DotDims.WF S256x64 S64x32 S256x32 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []

variable [Facts₀]

def dot_S51200x40_S40x64_S51200x64_1_0_0_1_n_n : DotDims S51200x40 S40x64 S51200x64 where
  lhsContracting := [1]
  rhsContracting := [0]
  lhsNonContracting := [0]
  rhsNonContracting := [1]
  lhsBatch := []
  rhsBatch := []
  wf := dot_S51200x40_S40x64_S51200x64_1_0_0_1_n_n_wf
def gather_S6x64_S870400x1_S870400x64_1_0_n_n_0_1_164 : GatherDims S6x64 S870400x1 S870400x64 where
  offsetDims := [1]
  collapsedSliceDims := [0]
  operandBatchingDims := []
  startIndicesBatchingDims := []
  startIndexMap := [0]
  indexVectorDim := 1
  sliceSizes := ![1, 64]
  wf := gather_S6x64_S870400x1_S870400x64_1_0_n_n_0_1_164_wf
def gather_S3x64_S870400x1_S870400x64_1_0_n_n_0_1_164 : GatherDims S3x64 S870400x1 S870400x64 where
  offsetDims := [1]
  collapsedSliceDims := [0]
  operandBatchingDims := []
  startIndicesBatchingDims := []
  startIndexMap := [0]
  indexVectorDim := 1
  sliceSizes := ![1, 64]
  wf := gather_S3x64_S870400x1_S870400x64_1_0_n_n_0_1_164_wf
def gather_S51200x64_S870400x1_S870400x64_1_0_n_n_0_1_164 : GatherDims S51200x64 S870400x1 S870400x64 where
  offsetDims := [1]
  collapsedSliceDims := [0]
  operandBatchingDims := []
  startIndicesBatchingDims := []
  startIndexMap := [0]
  indexVectorDim := 1
  sliceSizes := ![1, 64]
  wf := gather_S51200x64_S870400x1_S870400x64_1_0_n_n_0_1_164_wf
def scatter_S51200x64_S870400x1_S870400x64_1_0_0_1 : ScatterDims S51200x64 S870400x1 S870400x64 where
  updateWindowDims := [1]
  insertedWindowDims := [0]
  scatterDimsToOperandDims := [0]
  indexVectorDim := 1
  wf := scatter_S51200x64_S870400x1_S870400x64_1_0_0_1_wf
def dot_S51200x64_S64x128_S51200x128_1_0_0_1_n_n : DotDims S51200x64 S64x128 S51200x128 where
  lhsContracting := [1]
  rhsContracting := [0]
  lhsNonContracting := [0]
  rhsNonContracting := [1]
  lhsBatch := []
  rhsBatch := []
  wf := dot_S51200x64_S64x128_S51200x128_1_0_0_1_n_n_wf
def dot_S51200x128_S128x64_S51200x64_1_0_0_1_n_n : DotDims S51200x128 S128x64 S51200x64 where
  lhsContracting := [1]
  rhsContracting := [0]
  lhsNonContracting := [0]
  rhsNonContracting := [1]
  lhsBatch := []
  rhsBatch := []
  wf := dot_S51200x128_S128x64_S51200x64_1_0_0_1_n_n_wf
def scatter_S256x64_S51200x1_S51200x64_1_0_0_1 : ScatterDims S256x64 S51200x1 S51200x64 where
  updateWindowDims := [1]
  insertedWindowDims := [0]
  scatterDimsToOperandDims := [0]
  indexVectorDim := 1
  wf := scatter_S256x64_S51200x1_S51200x64_1_0_0_1_wf
def scatter_S256_S51200x1_S51200_n_0_0_1 : ScatterDims S256 S51200x1 S51200 where
  updateWindowDims := []
  insertedWindowDims := [0]
  scatterDimsToOperandDims := [0]
  indexVectorDim := 1
  wf := scatter_S256_S51200x1_S51200_n_0_0_1_wf
def gather_S51200x64_S204800x1_S204800x64_1_0_n_n_0_1_164 : GatherDims S51200x64 S204800x1 S204800x64 where
  offsetDims := [1]
  collapsedSliceDims := [0]
  operandBatchingDims := []
  startIndicesBatchingDims := []
  startIndexMap := [0]
  indexVectorDim := 1
  sliceSizes := ![1, 64]
  wf := gather_S51200x64_S204800x1_S204800x64_1_0_n_n_0_1_164_wf
def scatter_S102400x64_S204800x1_S204800x64_1_0_0_1 : ScatterDims S102400x64 S204800x1 S204800x64 where
  updateWindowDims := [1]
  insertedWindowDims := [0]
  scatterDimsToOperandDims := [0]
  indexVectorDim := 1
  wf := scatter_S102400x64_S204800x1_S204800x64_1_0_0_1_wf
def scatter_S102400_S204800x1_S204800_n_0_0_1 : ScatterDims S102400 S204800x1 S204800 where
  updateWindowDims := []
  insertedWindowDims := [0]
  scatterDimsToOperandDims := [0]
  indexVectorDim := 1
  wf := scatter_S102400_S204800x1_S204800_n_0_0_1_wf
def gather_S102400x100_S409600x1_S409600x100_1_0_n_n_0_1_1100 : GatherDims S102400x100 S409600x1 S409600x100 where
  offsetDims := [1]
  collapsedSliceDims := [0]
  operandBatchingDims := []
  startIndicesBatchingDims := []
  startIndexMap := [0]
  indexVectorDim := 1
  sliceSizes := ![1, 100]
  wf := gather_S102400x100_S409600x1_S409600x100_1_0_n_n_0_1_1100_wf
def scatter_S102400x100_S409600x1_S409600x100_1_0_0_1 : ScatterDims S102400x100 S409600x1 S409600x100 where
  updateWindowDims := [1]
  insertedWindowDims := [0]
  scatterDimsToOperandDims := [0]
  indexVectorDim := 1
  wf := scatter_S102400x100_S409600x1_S409600x100_1_0_0_1_wf
def dot_S102400x100_S100x64_S102400x64_1_0_0_1_n_n : DotDims S102400x100 S100x64 S102400x64 where
  lhsContracting := [1]
  rhsContracting := [0]
  lhsNonContracting := [0]
  rhsNonContracting := [1]
  lhsBatch := []
  rhsBatch := []
  wf := dot_S102400x100_S100x64_S102400x64_1_0_0_1_n_n_wf
def gather_S102400x64_S409600x1_S409600x64_1_0_n_n_0_1_164 : GatherDims S102400x64 S409600x1 S409600x64 where
  offsetDims := [1]
  collapsedSliceDims := [0]
  operandBatchingDims := []
  startIndicesBatchingDims := []
  startIndexMap := [0]
  indexVectorDim := 1
  sliceSizes := ![1, 64]
  wf := gather_S102400x64_S409600x1_S409600x64_1_0_n_n_0_1_164_wf
def scatter_S102400x64_S409600x1_S409600x64_1_0_0_1 : ScatterDims S102400x64 S409600x1 S409600x64 where
  updateWindowDims := [1]
  insertedWindowDims := [0]
  scatterDimsToOperandDims := [0]
  indexVectorDim := 1
  wf := scatter_S102400x64_S409600x1_S409600x64_1_0_0_1_wf
def dot_S102400x64_S64x64_S102400x64_1_0_0_1_n_n : DotDims S102400x64 S64x64 S102400x64 where
  lhsContracting := [1]
  rhsContracting := [0]
  lhsNonContracting := [0]
  rhsNonContracting := [1]
  lhsBatch := []
  rhsBatch := []
  wf := dot_S102400x64_S64x64_S102400x64_1_0_0_1_n_n_wf
def scatter_S256x64_S102400x1_S102400x64_1_0_0_1 : ScatterDims S256x64 S102400x1 S102400x64 where
  updateWindowDims := [1]
  insertedWindowDims := [0]
  scatterDimsToOperandDims := [0]
  indexVectorDim := 1
  wf := scatter_S256x64_S102400x1_S102400x64_1_0_0_1_wf
def scatter_S256_S102400x1_S102400_n_0_0_1 : ScatterDims S256 S102400x1 S102400 where
  updateWindowDims := []
  insertedWindowDims := [0]
  scatterDimsToOperandDims := [0]
  indexVectorDim := 1
  wf := scatter_S256_S102400x1_S102400_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.KKeptK.lean ====
/- No host operation of the printed kernel program's @main writes an argument buffer, and the three index arrays
   main_v3, main_v6, main_v10 are written once, in the first stretch of host operations, and by no later one: every
   host stretch leaves each argument's contents as they were, and every stretch after the first two leaves the three
   index arrays as they were. -/
import proofs.«133701_j46024869544456_1_alg».proof.Proof.Gen.Kernel.Launch

noncomputable section

namespace Cert.Kernel.Kept

open Cert.Kernel Cert.Kernel.Gen Idealize.ShloMosaic Idealize.ShloMosaic.TcCoe Idealize.SL.Sem Idealize.ShloMosaic.StableHlo

variable {F : FTy → Type} [FloatOps F]

/-- @main's thirty-two arguments. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26, main_arg27, main_arg28, main_arg29, main_arg30,
   main_arg31]

/-- The arguments and the three index arrays the first stretch computes from them. -/
abbrev keptRefs : List (Ref sig .tc) := argRefs ++ [main_v3, main_v6, main_v10]

/-- The operation writes none of the references `K`. -/
def NoWrite (K : List (Ref sig .tc)) (op : HloOp τ sig (Elt F)) : Prop := ∀ b ∈ K, Proc.devRef (τ := τ) .tc b ∉ op.writes

/-- An operation whose written set is the one reference `y`, not among `K`, writes none of `K`
    (distinct references are distinct device buffers). -/
theorem noWrite_of_writes {K : List (Ref sig .tc)} {op : HloOp τ sig (Elt F)} {y : Ref sig .tc}
    (hw : op.writes = {Proc.devRef (τ := τ) .tc y}) (hy : y ∉ K) : NoWrite K op := by
  intro b hb hmem
  rw [hw, Finset.mem_singleton] at hmem
  exact hy (Proc.devRef_injective _ hmem ▸ hb)

/-- A list of operations none of which writes any of `K` keeps every one of `K`. -/
theorem kept_of_noWrite {K : List (Ref sig .tc)} {l : List (HloOp τ sig (Elt F))} (h : l.Forall (NoWrite K))
    (V : Valuation τ sig (Elt F)) : ∀ b ∈ K, after l V (Proc.devRef .tc b) = V (Proc.devRef .tc b) :=
  fun b hb => after_of_forall_not_mem l V fun op hop => List.forall_iff_forall_mem.1 h op hop b hb

/-- One builder's operation: its written set is its one result reference by computation, and that reference is
    decidably none of the listed ones. -/
macro "nowrite_op" : tactic => `(tactic| exact noWrite_of_writes rfl (by decide))

/-- A literal list, entry by entry. -/
macro "nowrite_list" : tactic =>
  `(tactic| repeat' (first | refine (List.forall_cons _ _ _).2 ⟨?_, ?_⟩ | nowrite_op | exact trivial))

/-! The first stretch (it writes the three index arrays) and the rectifier after it write no argument; every later
    stretch writes neither an argument nor an index array. -/
theorem hostOps0_noWrite : List.Forall (NoWrite (F := F) argRefs) hostOps0 := by nowrite_list
theorem hostOps0_1_noWrite : List.Forall (NoWrite (F := F) argRefs) hostOps0_1 := by nowrite_list
theorem hostOps0_2_noWrite : List.Forall (NoWrite (F := F) keptRefs) hostOps0_2 := by nowrite_list
theorem hostOps1_noWrite : List.Forall (NoWrite (F := F) keptRefs) hostOps1 := by nowrite_list
theorem hostOps1_1_noWrite : List.Forall (NoWrite (F := F) keptRefs) hostOps1_1 := by nowrite_list
theorem hostOps1_2_noWrite : List.Forall (NoWrite (F := F) keptRefs) hostOps1_2 := by nowrite_list
theorem hostOps2_noWrite : List.Forall (NoWrite (F := F) keptRefs) hostOps2 := by nowrite_list
theorem hostOps3_noWrite : List.Forall (NoWrite (F := F) keptRefs) hostOps3 := by nowrite_list
theorem hostOps3_1_noWrite : List.Forall (NoWrite (F := F) keptRefs) hostOps3_1 := by nowrite_list
theorem hostOps3_2_noWrite : List.Forall (NoWrite (F := F) keptRefs) hostOps3_2 := by nowrite_list
theorem hostOps4_noWrite : List.Forall (NoWrite (F := F) keptRefs) hostOps4 := by nowrite_list
theorem hostOps5_noWrite : List.Forall (NoWrite (F := F) keptRefs) hostOps5 := by nowrite_list
theorem hostOps5_1_noWrite : List.Forall (NoWrite (F := F) keptRefs) hostOps5_1 := by nowrite_list
theorem hostOps5_2_noWrite : List.Forall (NoWrite (F := F) keptRefs) hostOps5_2 := by nowrite_list
theorem hostOps6_noWrite : List.Forall (NoWrite (F := F) keptRefs) hostOps6 := by nowrite_list
theorem hostOps7_noWrite : List.Forall (NoWrite (F := F) keptRefs) hostOps7 := by nowrite_list
theorem hostOps7_1_noWrite : List.Forall (NoWrite (F := F) keptRefs) hostOps7_1 := by nowrite_list
theorem hostOps7_2_noWrite : List.Forall (NoWrite (F := F) keptRefs) hostOps7_2 := by nowrite_list
theorem hostOps8_noWrite : List.Forall (NoWrite (F := F) keptRefs) hostOps8 := by nowrite_list
theorem hostOps9_noWrite : List.Forall (NoWrite (F := F) keptRefs) hostOps9 := by nowrite_list
theorem hostOps9_1_noWrite : List.Forall (NoWrite (F := F) keptRefs) hostOps9_1 := by nowrite_list
theorem hostOps9_2_noWrite : List.Forall (NoWrite (F := F) keptRefs) hostOps9_2 := by nowrite_list
theorem hostOps10_noWrite : List.Forall (NoWrite (F := F) keptRefs) hostOps10 := by nowrite_list
theorem hostOps11_noWrite : List.Forall (NoWrite (F := F) keptRefs) hostOps11 := by nowrite_list
theorem hostOps12_noWrite : List.Forall (NoWrite (F := F) keptRefs) hostOps12 := by nowrite_list
theorem hostOps13_noWrite : List.Forall (NoWrite (F := F) keptRefs) hostOps13 := by nowrite_list

theorem kept_hostOps0 : ∀ (V : Valuation τ sig (Elt F)), ∀ b ∈ argRefs, StableHlo.after hostOps0 V (Proc.devRef .tc b) = V (Proc.devRef .tc b) :=
  kept_of_noWrite hostOps0_noWrite
theorem kept_hostOps0_1 : ∀ (V : Valuation τ sig (Elt F)), ∀ b ∈ argRefs, StableHlo.after hostOps0_1 V (Proc.devRef .tc b) = V (Proc.devRef .tc b) :=
  kept_of_noWrite hostOps0_1_noWrite
theorem kept_hostOps0_2 : ∀ (V : Valuation τ sig (Elt F)), ∀ b ∈ keptRefs, StableHlo.after hostOps0_2 V (Proc.devRef .tc b) = V (Proc.devRef .tc b) :=
  kept_of_noWrite hostOps0_2_noWrite
theorem kept_hostOps1 : ∀ (V : Valuation τ sig (Elt F)), ∀ b ∈ keptRefs, StableHlo.after hostOps1 V (Proc.devRef .tc b) = V (Proc.devRef .tc b) :=
  kept_of_noWrite hostOps1_noWrite
theorem kept_hostOps1_1 : ∀ (V : Valuation τ sig (Elt F)), ∀ b ∈ keptRefs, StableHlo.after hostOps1_1 V (Proc.devRef .tc b) = V (Proc.devRef .tc b) :=
  kept_of_noWrite hostOps1_1_noWrite
theorem kept_hostOps1_2 : ∀ (V : Valuation τ sig (Elt F)), ∀ b ∈ keptRefs, StableHlo.after hostOps1_2 V (Proc.devRef .tc b) = V (Proc.devRef .tc b) :=
  kept_of_noWrite hostOps1_2_noWrite
theorem kept_hostOps2 : ∀ (V : Valuation τ sig (Elt F)), ∀ b ∈ keptRefs, StableHlo.after hostOps2 V (Proc.devRef .tc b) = V (Proc.devRef .tc b) :=
  kept_of_noWrite hostOps2_noWrite
theorem kept_hostOps3 : ∀ (V : Valuation τ sig (Elt F)), ∀ b ∈ keptRefs, StableHlo.after hostOps3 V (Proc.devRef .tc b) = V (Proc.devRef .tc b) :=
  kept_of_noWrite hostOps3_noWrite
theorem kept_hostOps3_1 : ∀ (V : Valuation τ sig (Elt F)), ∀ b ∈ keptRefs, StableHlo.after hostOps3_1 V (Proc.devRef .tc b) = V (Proc.devRef .tc b) :=
  kept_of_noWrite hostOps3_1_noWrite
theorem kept_hostOps3_2 : ∀ (V : Valuation τ sig (Elt F)), ∀ b ∈ keptRefs, StableHlo.after hostOps3_2 V (Proc.devRef .tc b) = V (Proc.devRef .tc b) :=
  kept_of_noWrite hostOps3_2_noWrite
theorem kept_hostOps4 : ∀ (V : Valuation τ sig (Elt F)), ∀ b ∈ keptRefs, StableHlo.after hostOps4 V (Proc.devRef .tc b) = V (Proc.devRef .tc b) :=
  kept_of_noWrite hostOps4_noWrite
theorem kept_hostOps5 : ∀ (V : Valuation τ sig (Elt F)), ∀ b ∈ keptRefs, StableHlo.after hostOps5 V (Proc.devRef .tc b) = V (Proc.devRef .tc b) :=
  kept_of_noWrite hostOps5_noWrite
theorem kept_hostOps5_1 : ∀ (V : Valuation τ sig (Elt F)), ∀ b ∈ keptRefs, StableHlo.after hostOps5_1 V (Proc.devRef .tc b) = V (Proc.devRef .tc b) :=
  kept_of_noWrite hostOps5_1_noWrite
theorem kept_hostOps5_2 : ∀ (V : Valuation τ sig (Elt F)), ∀ b ∈ keptRefs, StableHlo.after hostOps5_2 V (Proc.devRef .tc b) = V (Proc.devRef .tc b) :=
  kept_of_noWrite hostOps5_2_noWrite
theorem kept_hostOps6 : ∀ (V : Valuation τ sig (Elt F)), ∀ b ∈ keptRefs, StableHlo.after hostOps6 V (Proc.devRef .tc b) = V (Proc.devRef .tc b) :=
  kept_of_noWrite hostOps6_noWrite
theorem kept_hostOps7 : ∀ (V : Valuation τ sig (Elt F)), ∀ b ∈ keptRefs, StableHlo.after hostOps7 V (Proc.devRef .tc b) = V (Proc.devRef .tc b) :=
  kept_of_noWrite hostOps7_noWrite
theorem kept_hostOps7_1 : ∀ (V : Valuation τ sig (Elt F)), ∀ b ∈ keptRefs, StableHlo.after hostOps7_1 V (Proc.devRef .tc b) = V (Proc.devRef .tc b) :=
  kept_of_noWrite hostOps7_1_noWrite
theorem kept_hostOps7_2 : ∀ (V : Valuation τ sig (Elt F)), ∀ b ∈ keptRefs, StableHlo.after hostOps7_2 V (Proc.devRef .tc b) = V (Proc.devRef .tc b) :=
  kept_of_noWrite hostOps7_2_noWrite
theorem kept_hostOps8 : ∀ (V : Valuation τ sig (Elt F)), ∀ b ∈ keptRefs, StableHlo.after hostOps8 V (Proc.devRef .tc b) = V (Proc.devRef .tc b) :=
  kept_of_noWrite hostOps8_noWrite
theorem kept_hostOps9 : ∀ (V : Valuation τ sig (Elt F)), ∀ b ∈ keptRefs, StableHlo.after hostOps9 V (Proc.devRef .tc b) = V (Proc.devRef .tc b) :=
  kept_of_noWrite hostOps9_noWrite
theorem kept_hostOps9_1 : ∀ (V : Valuation τ sig (Elt F)), ∀ b ∈ keptRefs, StableHlo.after hostOps9_1 V (Proc.devRef .tc b) = V (Proc.devRef .tc b) :=
  kept_of_noWrite hostOps9_1_noWrite
theorem kept_hostOps9_2 : ∀ (V : Valuation τ sig (Elt F)), ∀ b ∈ keptRefs, StableHlo.after hostOps9_2 V (Proc.devRef .tc b) = V (Proc.devRef .tc b) :=
  kept_of_noWrite hostOps9_2_noWrite
theorem kept_hostOps10 : ∀ (V : Valuation τ sig (Elt F)), ∀ b ∈ keptRefs, StableHlo.after hostOps10 V (Proc.devRef .tc b) = V (Proc.devRef .tc b) :=
  kept_of_noWrite hostOps10_noWrite
theorem kept_hostOps11 : ∀ (V : Valuation τ sig (Elt F)), ∀ b ∈ keptRefs, StableHlo.after hostOps11 V (Proc.devRef .tc b) = V (Proc.devRef .tc b) :=
  kept_of_noWrite hostOps11_noWrite
theorem kept_hostOps12 : ∀ (V : Valuation τ sig (Elt F)), ∀ b ∈ keptRefs, StableHlo.after hostOps12 V (Proc.devRef .tc b) = V (Proc.devRef .tc b) :=
  kept_of_noWrite hostOps12_noWrite
theorem kept_hostOps13 : ∀ (V : Valuation τ sig (Elt F)), ∀ b ∈ keptRefs, StableHlo.after hostOps13 V (Proc.devRef .tc b) = V (Proc.devRef .tc b) :=
  kept_of_noWrite hostOps13_noWrite

end Cert.Kernel.Kept

end
-- ==== Proof.KKept.lean ====
/- No host operation of the idealized kernel program's @main writes an argument buffer, and the three index arrays
   main_v3, main_v6, main_v10 are written once, in the first stretch of host operations, and by no later one: every
   host stretch leaves each argument's contents as they were, and every stretch after the first two leaves the three
   index arrays as they were. -/
import proofs.«133701_j46024869544456_1_alg».proof.Proof.Gen.KernelIdeal.Launch

noncomputable section

namespace Cert.KernelIdeal.Kept

open Cert.KernelIdeal Cert.KernelIdeal.Gen Idealize.ShloMosaic Idealize.ShloMosaic.TcCoe Idealize.SL.Sem Idealize.ShloMosaic.StableHlo

variable {F : FTy → Type} [FloatOps F]

/-- @main's thirty-two arguments. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26, main_arg27, main_arg28, main_arg29, main_arg30,
   main_arg31]

/-- The arguments and the three index arrays the first stretch computes from them. -/
abbrev keptRefs : List (Ref sig .tc) := argRefs ++ [main_v3, main_v6, main_v10]

/-- The operation writes none of the references `K`. -/
def NoWrite (K : List (Ref sig .tc)) (op : HloOp τ sig (Elt F)) : Prop := ∀ b ∈ K, Proc.devRef (τ := τ) .tc b ∉ op.writes

/-- An operation whose written set is the one reference `y`, not among `K`, writes none of `K`
    (distinct references are distinct device buffers). -/
theorem noWrite_of_writes {K : List (Ref sig .tc)} {op : HloOp τ sig (Elt F)} {y : Ref sig .tc}
    (hw : op.writes = {Proc.devRef (τ := τ) .tc y}) (hy : y ∉ K) : NoWrite K op := by
  intro b hb hmem
  rw [hw, Finset.mem_singleton] at hmem
  exact hy (Proc.devRef_injective _ hmem ▸ hb)

/-- A list of operations none of which writes any of `K` keeps every one of `K`. -/
theorem kept_of_noWrite {K : List (Ref sig .tc)} {l : List (HloOp τ sig (Elt F))} (h : l.Forall (NoWrite K))
    (V : Valuation τ sig (Elt F)) : ∀ b ∈ K, after l V (Proc.devRef .tc b) = V (Proc.devRef .tc b) :=
  fun b hb => after_of_forall_not_mem l V fun op hop => List.forall_iff_forall_mem.1 h op hop b hb

/-- One builder's operation: its written set is its one result reference by computation, and that reference is
    decidably none of the listed ones. -/
macro "nowrite_op" : tactic => `(tactic| exact noWrite_of_writes rfl (by decide))

/-- A literal list, entry by entry. -/
macro "nowrite_list" : tactic =>
  `(tactic| repeat' (first | refine (List.forall_cons _ _ _).2 ⟨?_, ?_⟩ | nowrite_op | exact trivial))

/-! The first stretch (it writes the three index arrays) and the rectifier after it write no argument; every later
    stretch writes neither an argument nor an index array. -/
theorem hostOps0_noWrite : List.Forall (NoWrite (F := F) argRefs) hostOps0 := by nowrite_list
theorem hostOps0_1_noWrite : List.Forall (NoWrite (F := F) argRefs) hostOps0_1 := by nowrite_list
theorem hostOps0_2_noWrite : List.Forall (NoWrite (F := F) keptRefs) hostOps0_2 := by nowrite_list
theorem hostOps1_noWrite : List.Forall (NoWrite (F := F) keptRefs) hostOps1 := by nowrite_list
theorem hostOps1_1_noWrite : List.Forall (NoWrite (F := F) keptRefs) hostOps1_1 := by nowrite_list
theorem hostOps1_2_noWrite : List.Forall (NoWrite (F := F) keptRefs) hostOps1_2 := by nowrite_list
theorem hostOps2_noWrite : List.Forall (NoWrite (F := F) keptRefs) hostOps2 := by nowrite_list
theorem hostOps3_noWrite : List.Forall (NoWrite (F := F) keptRefs) hostOps3 := by nowrite_list
theorem hostOps3_1_noWrite : List.Forall (NoWrite (F := F) keptRefs) hostOps3_1 := by nowrite_list
theorem hostOps3_2_noWrite : List.Forall (NoWrite (F := F) keptRefs) hostOps3_2 := by nowrite_list
theorem hostOps4_noWrite : List.Forall (NoWrite (F := F) keptRefs) hostOps4 := by nowrite_list
theorem hostOps5_noWrite : List.Forall (NoWrite (F := F) keptRefs) hostOps5 := by nowrite_list
theorem hostOps5_1_noWrite : List.Forall (NoWrite (F := F) keptRefs) hostOps5_1 := by nowrite_list
theorem hostOps5_2_noWrite : List.Forall (NoWrite (F := F) keptRefs) hostOps5_2 := by nowrite_list
theorem hostOps6_noWrite : List.Forall (NoWrite (F := F) keptRefs) hostOps6 := by nowrite_list
theorem hostOps7_noWrite : List.Forall (NoWrite (F := F) keptRefs) hostOps7 := by nowrite_list
theorem hostOps7_1_noWrite : List.Forall (NoWrite (F := F) keptRefs) hostOps7_1 := by nowrite_list
theorem hostOps7_2_noWrite : List.Forall (NoWrite (F := F) keptRefs) hostOps7_2 := by nowrite_list
theorem hostOps8_noWrite : List.Forall (NoWrite (F := F) keptRefs) hostOps8 := by nowrite_list
theorem hostOps9_noWrite : List.Forall (NoWrite (F := F) keptRefs) hostOps9 := by nowrite_list
theorem hostOps9_1_noWrite : List.Forall (NoWrite (F := F) keptRefs) hostOps9_1 := by nowrite_list
theorem hostOps9_2_noWrite : List.Forall (NoWrite (F := F) keptRefs) hostOps9_2 := by nowrite_list
theorem hostOps10_noWrite : List.Forall (NoWrite (F := F) keptRefs) hostOps10 := by nowrite_list
theorem hostOps11_noWrite : List.Forall (NoWrite (F := F) keptRefs) hostOps11 := by nowrite_list
theorem hostOps12_noWrite : List.Forall (NoWrite (F := F) keptRefs) hostOps12 := by nowrite_list
theorem hostOps13_noWrite : List.Forall (NoWrite (F := F) keptRefs) hostOps13 := by nowrite_list

theorem kept_hostOps0 : ∀ (V : Valuation τ sig (Elt F)), ∀ b ∈ argRefs, StableHlo.after hostOps0 V (Proc.devRef .tc b) = V (Proc.devRef .tc b) :=
  kept_of_noWrite hostOps0_noWrite
theorem kept_hostOps0_1 : ∀ (V : Valuation τ sig (Elt F)), ∀ b ∈ argRefs, StableHlo.after hostOps0_1 V (Proc.devRef .tc b) = V (Proc.devRef .tc b) :=
  kept_of_noWrite hostOps0_1_noWrite
theorem kept_hostOps0_2 : ∀ (V : Valuation τ sig (Elt F)), ∀ b ∈ keptRefs, StableHlo.after hostOps0_2 V (Proc.devRef .tc b) = V (Proc.devRef .tc b) :=
  kept_of_noWrite hostOps0_2_noWrite
theorem kept_hostOps1 : ∀ (V : Valuation τ sig (Elt F)), ∀ b ∈ keptRefs, StableHlo.after hostOps1 V (Proc.devRef .tc b) = V (Proc.devRef .tc b) :=
  kept_of_noWrite hostOps1_noWrite
theorem kept_hostOps1_1 : ∀ (V : Valuation τ sig (Elt F)), ∀ b ∈ keptRefs, StableHlo.after hostOps1_1 V (Proc.devRef .tc b) = V (Proc.devRef .tc b) :=
  kept_of_noWrite hostOps1_1_noWrite
theorem kept_hostOps1_2 : ∀ (V : Valuation τ sig (Elt F)), ∀ b ∈ keptRefs, StableHlo.after hostOps1_2 V (Proc.devRef .tc b) = V (Proc.devRef .tc b) :=
  kept_of_noWrite hostOps1_2_noWrite
theorem kept_hostOps2 : ∀ (V : Valuation τ sig (Elt F)), ∀ b ∈ keptRefs, StableHlo.after hostOps2 V (Proc.devRef .tc b) = V (Proc.devRef .tc b) :=
  kept_of_noWrite hostOps2_noWrite
theorem kept_hostOps3 : ∀ (V : Valuation τ sig (Elt F)), ∀ b ∈ keptRefs, StableHlo.after hostOps3 V (Proc.devRef .tc b) = V (Proc.devRef .tc b) :=
  kept_of_noWrite hostOps3_noWrite
theorem kept_hostOps3_1 : ∀ (V : Valuation τ sig (Elt F)), ∀ b ∈ keptRefs, StableHlo.after hostOps3_1 V (Proc.devRef .tc b) = V (Proc.devRef .tc b) :=
  kept_of_noWrite hostOps3_1_noWrite
theorem kept_hostOps3_2 : ∀ (V : Valuation τ sig (Elt F)), ∀ b ∈ keptRefs, StableHlo.after hostOps3_2 V (Proc.devRef .tc b) = V (Proc.devRef .tc b) :=
  kept_of_noWrite hostOps3_2_noWrite
theorem kept_hostOps4 : ∀ (V : Valuation τ sig (Elt F)), ∀ b ∈ keptRefs, StableHlo.after hostOps4 V (Proc.devRef .tc b) = V (Proc.devRef .tc b) :=
  kept_of_noWrite hostOps4_noWrite
theorem kept_hostOps5 : ∀ (V : Valuation τ sig (Elt F)), ∀ b ∈ keptRefs, StableHlo.after hostOps5 V (Proc.devRef .tc b) = V (Proc.devRef .tc b) :=
  kept_of_noWrite hostOps5_noWrite
theorem kept_hostOps5_1 : ∀ (V : Valuation τ sig (Elt F)), ∀ b ∈ keptRefs, StableHlo.after hostOps5_1 V (Proc.devRef .tc b) = V (Proc.devRef .tc b) :=
  kept_of_noWrite hostOps5_1_noWrite
theorem kept_hostOps5_2 : ∀ (V : Valuation τ sig (Elt F)), ∀ b ∈ keptRefs, StableHlo.after hostOps5_2 V (Proc.devRef .tc b) = V (Proc.devRef .tc b) :=
  kept_of_noWrite hostOps5_2_noWrite
theorem kept_hostOps6 : ∀ (V : Valuation τ sig (Elt F)), ∀ b ∈ keptRefs, StableHlo.after hostOps6 V (Proc.devRef .tc b) = V (Proc.devRef .tc b) :=
  kept_of_noWrite hostOps6_noWrite
theorem kept_hostOps7 : ∀ (V : Valuation τ sig (Elt F)), ∀ b ∈ keptRefs, StableHlo.after hostOps7 V (Proc.devRef .tc b) = V (Proc.devRef .tc b) :=
  kept_of_noWrite hostOps7_noWrite
theorem kept_hostOps7_1 : ∀ (V : Valuation τ sig (Elt F)), ∀ b ∈ keptRefs, StableHlo.after hostOps7_1 V (Proc.devRef .tc b) = V (Proc.devRef .tc b) :=
  kept_of_noWrite hostOps7_1_noWrite
theorem kept_hostOps7_2 : ∀ (V : Valuation τ sig (Elt F)), ∀ b ∈ keptRefs, StableHlo.after hostOps7_2 V (Proc.devRef .tc b) = V (Proc.devRef .tc b) :=
  kept_of_noWrite hostOps7_2_noWrite
theorem kept_hostOps8 : ∀ (V : Valuation τ sig (Elt F)), ∀ b ∈ keptRefs, StableHlo.after hostOps8 V (Proc.devRef .tc b) = V (Proc.devRef .tc b) :=
  kept_of_noWrite hostOps8_noWrite
theorem kept_hostOps9 : ∀ (V : Valuation τ sig (Elt F)), ∀ b ∈ keptRefs, StableHlo.after hostOps9 V (Proc.devRef .tc b) = V (Proc.devRef .tc b) :=
  kept_of_noWrite hostOps9_noWrite
theorem kept_hostOps9_1 : ∀ (V : Valuation τ sig (Elt F)), ∀ b ∈ keptRefs, StableHlo.after hostOps9_1 V (Proc.devRef .tc b) = V (Proc.devRef .tc b) :=
  kept_of_noWrite hostOps9_1_noWrite
theorem kept_hostOps9_2 : ∀ (V : Valuation τ sig (Elt F)), ∀ b ∈ keptRefs, StableHlo.after hostOps9_2 V (Proc.devRef .tc b) = V (Proc.devRef .tc b) :=
  kept_of_noWrite hostOps9_2_noWrite
theorem kept_hostOps10 : ∀ (V : Valuation τ sig (Elt F)), ∀ b ∈ keptRefs, StableHlo.after hostOps10 V (Proc.devRef .tc b) = V (Proc.devRef .tc b) :=
  kept_of_noWrite hostOps10_noWrite
theorem kept_hostOps11 : ∀ (V : Valuation τ sig (Elt F)), ∀ b ∈ keptRefs, StableHlo.after hostOps11 V (Proc.devRef .tc b) = V (Proc.devRef .tc b) :=
  kept_of_noWrite hostOps11_noWrite
theorem kept_hostOps12 : ∀ (V : Valuation τ sig (Elt F)), ∀ b ∈ keptRefs, StableHlo.after hostOps12 V (Proc.devRef .tc b) = V (Proc.devRef .tc b) :=
  kept_of_noWrite hostOps12_noWrite
theorem kept_hostOps13 : ∀ (V : Valuation τ sig (Elt F)), ∀ b ∈ keptRefs, StableHlo.after hostOps13 V (Proc.devRef .tc b) = V (Proc.devRef .tc b) :=
  kept_of_noWrite hostOps13_noWrite

end Cert.KernelIdeal.Kept

end
-- ==== Proof.KRun.lean ====
/-
  The idealized kernel's run with its result NAMED.  @main is thirty-nine segments — stretches of host
  operations and thirteen kernel regions — and the buffer contents at each segment boundary are a fold from the
  launch memory: a stretch applies its operations, a region replaces its arrays by what its grid points' write-backs
  leave.  Every weakly fair execution terminates in a state whose unscoped buffers hold the LAST boundary's contents;
  read at the result buffer this names the program's result, and read at each argument it gives the argument back.
-/
import proofs.«133701_j46024869544456_1_alg».proof.Proof.FrameKI

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair execution of @main terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v391) = W39 m ρ c (Proc.devRef .tc main_v391)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h c =>
      ⟨h c _ (mem_uc main_v391 (by decide)),
       (h c _ (mem_uc main_arg0 (by decide))).trans (W39_main_arg0 m ρ c),
       (h c _ (mem_uc main_arg1 (by decide))).trans (W39_main_arg1 m ρ c),
       (h c _ (mem_uc main_arg2 (by decide))).trans (W39_main_arg2 m ρ c),
       (h c _ (mem_uc main_arg3 (by decide))).trans (W39_main_arg3 m ρ c),
       (h c _ (mem_uc main_arg4 (by decide))).trans (W39_main_arg4 m ρ c),
       (h c _ (mem_uc main_arg5 (by decide))).trans (W39_main_arg5 m ρ c),
       (h c _ (mem_uc main_arg6 (by decide))).trans (W39_main_arg6 m ρ c),
       (h c _ (mem_uc main_arg7 (by decide))).trans (W39_main_arg7 m ρ c),
       (h c _ (mem_uc main_arg8 (by decide))).trans (W39_main_arg8 m ρ c),
       (h c _ (mem_uc main_arg9 (by decide))).trans (W39_main_arg9 m ρ c),
       (h c _ (mem_uc main_arg10 (by decide))).trans (W39_main_arg10 m ρ c),
       (h c _ (mem_uc main_arg11 (by decide))).trans (W39_main_arg11 m ρ c),
       (h c _ (mem_uc main_arg12 (by decide))).trans (W39_main_arg12 m ρ c),
       (h c _ (mem_uc main_arg13 (by decide))).trans (W39_main_arg13 m ρ c),
       (h c _ (mem_uc main_arg14 (by decide))).trans (W39_main_arg14 m ρ c),
       (h c _ (mem_uc main_arg15 (by decide))).trans (W39_main_arg15 m ρ c),
       (h c _ (mem_uc main_arg16 (by decide))).trans (W39_main_arg16 m ρ c),
       (h c _ (mem_uc main_arg17 (by decide))).trans (W39_main_arg17 m ρ c),
       (h c _ (mem_uc main_arg18 (by decide))).trans (W39_main_arg18 m ρ c),
       (h c _ (mem_uc main_arg19 (by decide))).trans (W39_main_arg19 m ρ c),
       (h c _ (mem_uc main_arg20 (by decide))).trans (W39_main_arg20 m ρ c),
       (h c _ (mem_uc main_arg21 (by decide))).trans (W39_main_arg21 m ρ c),
       (h c _ (mem_uc main_arg22 (by decide))).trans (W39_main_arg22 m ρ c),
       (h c _ (mem_uc main_arg23 (by decide))).trans (W39_main_arg23 m ρ c),
       (h c _ (mem_uc main_arg24 (by decide))).trans (W39_main_arg24 m ρ c),
       (h c _ (mem_uc main_arg25 (by decide))).trans (W39_main_arg25 m ρ c),
       (h c _ (mem_uc main_arg26 (by decide))).trans (W39_main_arg26 m ρ c),
       (h c _ (mem_uc main_arg27 (by decide))).trans (W39_main_arg27 m ρ c),
       (h c _ (mem_uc main_arg28 (by decide))).trans (W39_main_arg28 m ρ c),
       (h c _ (mem_uc main_arg29 (by decide))).trans (W39_main_arg29 m ρ c),
       (h c _ (mem_uc main_arg30 (by decide))).trans (W39_main_arg30 m ρ c),
       (h c _ (mem_uc main_arg31 (by decide))).trans (W39_main_arg31 m ρ c)⟩)

end Cert.KernelIdeal.Named

end
-- ==== Proof.RefOps0.lean ====
/- The operations of the reference program's @main, statements of its window main_part0 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 0 … 18 of the 712 (the last one writes main_v15). -/
abbrev q0 : List (HloOp τ sig (Elt F)) :=
  [ StableHlo.nullary main_c (fun i => lit0 (S1x2.rowMajor i)),
    StableHlo.nullary main_v0 (iotaInDim S51200 32 0),
    StableHlo.unary main_arg1 main_v1 ((extractStridedSlice S1x819200 ![0, 0] · slices_S2x819200_S1x819200_0_0) : (⟨S2x819200, .i32⟩ : BufTy).Contents (Elt F) → (⟨S1x819200, .i32⟩ : BufTy).Contents (Elt F)),
    StableHlo.reshape main_v1 main_v2 rfl shapeCasts_S1x819200_S819200,
    StableHlo.binary main_v2 main_v0 main_v3 ((fun a b => concatenate S870400 0 [⟨S819200, a⟩, ⟨S51200, b⟩] concatenates_S819200_S51200_S870400_d0) : (⟨S819200, .i32⟩ : BufTy).Contents (Elt F) → (⟨S51200, .i32⟩ : BufTy).Contents (Elt F) → (⟨S870400, .i32⟩ : BufTy).Contents (Elt F)),
    StableHlo.unary main_arg1 main_v4 ((extractStridedSlice S1x819200 ![1, 0] · slices_S2x819200_S1x819200_1_0) : (⟨S2x819200, .i32⟩ : BufTy).Contents (Elt F) → (⟨S1x819200, .i32⟩ : BufTy).Contents (Elt F)),
    StableHlo.reshape main_v4 main_v5 rfl shapeCasts_S1x819200_S819200,
    StableHlo.binary main_v5 main_v0 main_v6 ((fun a b => concatenate S870400 0 [⟨S819200, a⟩, ⟨S51200, b⟩] concatenates_S819200_S51200_S870400_d0) : (⟨S819200, .i32⟩ : BufTy).Contents (Elt F) → (⟨S51200, .i32⟩ : BufTy).Contents (Elt F) → (⟨S870400, .i32⟩ : BufTy).Contents (Elt F)),
    StableHlo.reshape main_c main_v7 rfl shapeCasts_S1x2_S1x1x1x2,
    StableHlo.unary main_v7 main_v8 (broadcastInDim S51200x1x1x2 ![0, 1, 2, 3] bcast_S1x1x1x2_S51200x1x1x2_0_1_2_3 : (⟨S1x1x1x2, .i32⟩ : BufTy).Contents (Elt F) → (⟨S51200x1x1x2, .i32⟩ : BufTy).Contents (Elt F)),
    StableHlo.reshape main_v8 main_v9 rfl shapeCasts_S51200x1x1x2_S51200x2,
    StableHlo.binary main_arg2 main_v9 main_v10 ((fun a b => concatenate S870400x2 0 [⟨S819200x2, a⟩, ⟨S51200x2, b⟩] concatenates_S819200x2_S51200x2_S870400x2_d0) : (⟨S819200x2, .i32⟩ : BufTy).Contents (Elt F) → (⟨S51200x2, .i32⟩ : BufTy).Contents (Elt F) → (⟨S870400x2, .i32⟩ : BufTy).Contents (Elt F)),
    StableHlo.binary main_arg0 main_arg8 main_v11 ((fun l r => Host.dotGeneral dot_S51200x40_S40x64_S51200x64_1_0_0_1_n_n none l r) : (⟨S51200x40, .f32⟩ : BufTy).Contents (Elt F) → (⟨S40x64, .f32⟩ : BufTy).Contents (Elt F) → (⟨S51200x64, .f32⟩ : BufTy).Contents (Elt F)),
    StableHlo.unary main_arg9 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S51200x64 ![0, 1] bcast_S1x64_S51200x64_0_1 : (⟨S1x64, .f32⟩ : BufTy).Contents (Elt F) → (⟨S51200x64, .f32⟩ : BufTy).Contents (Elt F)),
    StableHlo.binary main_v11 main_v13 main_v14 (addf : (⟨S51200x64, .f32⟩ : BufTy).Contents (Elt F) → (⟨S51200x64, .f32⟩ : BufTy).Contents (Elt F) → (⟨S51200x64, .f32⟩ : BufTy).Contents (Elt F)),
    StableHlo.TRef.nullary main_call0.cst (constant S_ .f32 0x00000000#32),
    StableHlo.TRef.unary main_call0.cst main_call0.v0 (broadcastInDim S51200x64 ![] bcast_S_S51200x64),
    StableHlo.TRef.binary (.of main_v14 : StableHlo.TRef sig ⟨S51200x64, .f32⟩) main_call0.v0 main_call0.v1 maximumf ]

/-- Operations 19 … 59 of the 712 (the last one writes main_v49). -/
abbrev q1 : List (HloOp τ sig (Elt F)) :=
  [ StableHlo.unary main_arg14 main_v16 ((extractStridedSlice S1x6x64 ![0, 0, 0] · slices_S5x6x64_S1x6x64_0_0_0) : (⟨S5x6x64, .f32⟩ : BufTy).Contents (Elt F) → (⟨S1x6x64, .f32⟩ : BufTy).Contents (Elt F)),
    StableHlo.reshape main_v16 main_v17 rfl shapeCasts_S1x6x64_S6x64,
    StableHlo.unary main_v10 main_v18 ((extractStridedSlice S870400x1 ![0, 0] · slices_S870400x2_S870400x1_0_0) : (⟨S870400x2, .i32⟩ : BufTy).Contents (Elt F) → (⟨S870400x1, .i32⟩ : BufTy).Contents (Elt F)),
    StableHlo.reshape main_v18 main_v19 rfl shapeCasts_S870400x1_S870400,
    StableHlo.nullary main_c_0 (constantI S_ 32 0#32),
    StableHlo.unary main_c_0 main_v20 (broadcastInDim S870400 ![] bcast_S_S870400 : (⟨S_, .i32⟩ : BufTy).Contents (Elt F) → (⟨S870400, .i32⟩ : BufTy).Contents (Elt F)),
    StableHlo.binary main_v19 main_v20 main_v21 (cmpi .slt : (⟨S870400, .i32⟩ : BufTy).Contents (Elt F) → (⟨S870400, .i32⟩ : BufTy).Contents (Elt F) → (⟨S870400, .i1⟩ : BufTy).Contents (Elt F)),
    StableHlo.nullary main_c_1 (constantI S_ 32 6#32),
    StableHlo.unary main_c_1 main_v22 (broadcastInDim S870400 ![] bcast_S_S870400 : (⟨S_, .i32⟩ : BufTy).Contents (Elt F) → (⟨S870400, .i32⟩ : BufTy).Contents (Elt F)),
    StableHlo.binary main_v19 main_v22 main_v23 (addi : (⟨S870400, .i32⟩ : BufTy).Contents (Elt F) → (⟨S870400, .i32⟩ : BufTy).Contents (Elt F) → (⟨S870400, .i32⟩ : BufTy).Contents (Elt F)),
    StableHlo.ternary main_v21 main_v23 main_v19 main_v24 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v24 main_v25 (broadcastInDim S870400x1 ![0] bcast_S870400_S870400x1_0 : (⟨S870400, .i32⟩ : BufTy).Contents (Elt F) → (⟨S870400x1, .i32⟩ : BufTy).Contents (Elt F)),
    StableHlo.binary main_v17 main_v25 main_v26 ((fun x i => Host.gather gather_S6x64_S870400x1_S870400x64_1_0_n_n_0_1_164 x i) : (⟨S6x64, .f32⟩ : BufTy).Contents (Elt F) → (⟨S870400x1, .i32⟩ : BufTy).Contents (Elt F) → (⟨S870400x64, .f32⟩ : BufTy).Contents (Elt F)),
    StableHlo.unary main_arg15 main_v27 ((extractStridedSlice S1x3x64 ![0, 0, 0] · slices_S5x3x64_S1x3x64_0_0_0) : (⟨S5x3x64, .f32⟩ : BufTy).Contents (Elt F) → (⟨S1x3x64, .f32⟩ : BufTy).Contents (Elt F)),
    StableHlo.reshape main_v27 main_v28 rfl shapeCasts_S1x3x64_S3x64,
    StableHlo.unary main_v10 main_v29 ((extractStridedSlice S870400x1 ![0, 1] · slices_S870400x2_S870400x1_0_1) : (⟨S870400x2, .i32⟩ : BufTy).Contents (Elt F) → (⟨S870400x1, .i32⟩ : BufTy).Contents (Elt F)),
    StableHlo.reshape main_v29 main_v30 rfl shapeCasts_S870400x1_S870400,
    StableHlo.nullary main_c_2 (constantI S_ 32 0#32),
    StableHlo.unary main_c_2 main_v31 (broadcastInDim S870400 ![] bcast_S_S870400 : (⟨S_, .i32⟩ : BufTy).Contents (Elt F) → (⟨S870400, .i32⟩ : BufTy).Contents (Elt F)),
    StableHlo.binary main_v30 main_v31 main_v32 (cmpi .slt : (⟨S870400, .i32⟩ : BufTy).Contents (Elt F) → (⟨S870400, .i32⟩ : BufTy).Contents (Elt F) → (⟨S870400, .i1⟩ : BufTy).Contents (Elt F)),
    StableHlo.nullary main_c_3 (constantI S_ 32 3#32),
    StableHlo.unary main_c_3 main_v33 (broadcastInDim S870400 ![] bcast_S_S870400 : (⟨S_, .i32⟩ : BufTy).Contents (Elt F) → (⟨S870400, .i32⟩ : BufTy).Contents (Elt F)),
    StableHlo.binary main_v30 main_v33 main_v34 (addi : (⟨S870400, .i32⟩ : BufTy).Contents (Elt F) → (⟨S870400, .i32⟩ : BufTy).Contents (Elt F) → (⟨S870400, .i32⟩ : BufTy).Contents (Elt F)),
    StableHlo.ternary main_v32 main_v34 main_v30 main_v35 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v35 main_v36 (broadcastInDim S870400x1 ![0] bcast_S870400_S870400x1_0 : (⟨S870400, .i32⟩ : BufTy).Contents (Elt F) → (⟨S870400x1, .i32⟩ : BufTy).Contents (Elt F)),
    StableHlo.binary main_v28 main_v36 main_v37 ((fun x i => Host.gather gather_S3x64_S870400x1_S870400x64_1_0_n_n_0_1_164 x i) : (⟨S3x64, .f32⟩ : BufTy).Contents (Elt F) → (⟨S870400x1, .i32⟩ : BufTy).Contents (Elt F) → (⟨S870400x64, .f32⟩ : BufTy).Contents (Elt F)),
    StableHlo.binary main_v26 main_v37 main_v38 (addf : (⟨S870400x64, .f32⟩ : BufTy).Contents (Elt F) → (⟨S870400x64, .f32⟩ : BufTy).Contents (Elt F) → (⟨S870400x64, .f32⟩ : BufTy).Contents (Elt F)),
    StableHlo.nullary main_c_4 (constantI S_ 32 0#32),
    StableHlo.unary main_c_4 main_v39 (broadcastInDim S870400 ![] bcast_S_S870400 : (⟨S_, .i32⟩ : BufTy).Contents (Elt F) → (⟨S870400, .i32⟩ : BufTy).Contents (Elt F)),
    StableHlo.binary main_v3 main_v39 main_v40 (cmpi .slt : (⟨S870400, .i32⟩ : BufTy).Contents (Elt F) → (⟨S870400, .i32⟩ : BufTy).Contents (Elt F) → (⟨S870400, .i1⟩ : BufTy).Contents (Elt F)),
    StableHlo.nullary main_c_5 (constantI S_ 32 51200#32),
    StableHlo.unary main_c_5 main_v41 (broadcastInDim S870400 ![] bcast_S_S870400 : (⟨S_, .i32⟩ : BufTy).Contents (Elt F) → (⟨S870400, .i32⟩ : BufTy).Contents (Elt F)),
    StableHlo.binary main_v3 main_v41 main_v42 (addi : (⟨S870400, .i32⟩ : BufTy).Contents (Elt F) → (⟨S870400, .i32⟩ : BufTy).Contents (Elt F) → (⟨S870400, .i32⟩ : BufTy).Contents (Elt F)),
    StableHlo.ternary main_v40 main_v42 main_v3 main_v43 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v43 main_v44 (broadcastInDim S870400x1 ![0] bcast_S870400_S870400x1_0 : (⟨S870400, .i32⟩ : BufTy).Contents (Elt F) → (⟨S870400x1, .i32⟩ : BufTy).Contents (Elt F)),
    StableHlo.binary main_v15 main_v44 main_v45 ((fun x i => Host.gather gather_S51200x64_S870400x1_S870400x64_1_0_n_n_0_1_164 x i) : (⟨S51200x64, .f32⟩ : BufTy).Contents (Elt F) → (⟨S870400x1, .i32⟩ : BufTy).Contents (Elt F) → (⟨S870400x64, .f32⟩ : BufTy).Contents (Elt F)),
    StableHlo.binary main_v45 main_v38 main_v46 (addf : (⟨S870400x64, .f32⟩ : BufTy).Contents (Elt F) → (⟨S870400x64, .f32⟩ : BufTy).Contents (Elt F) → (⟨S870400x64, .f32⟩ : BufTy).Contents (Elt F)),
    StableHlo.nullary main_cst (constant S_ .f32 0x00000000#32),
    StableHlo.unary main_cst main_v47 (broadcastInDim S51200x64 ![] bcast_S_S51200x64 : (⟨S_, .f32⟩ : BufTy).Contents (Elt F) → (⟨S51200x64, .f32⟩ : BufTy).Contents (Elt F)),
    StableHlo.unary main_v6 main_v48 (broadcastInDim S870400x1 ![0] bcast_S870400_S870400x1_0 : (⟨S870400, .i32⟩ : BufTy).Contents (Elt F) → (⟨S870400x1, .i32⟩ : BufTy).Contents (Elt F)),
    StableHlo.ternary main_v47 main_v48 main_v46 main_v49 ((fun x i u => Host.scatterAdd scatter_S51200x64_S870400x1_S870400x64_1_0_0_1 x i u) : (⟨S51200x64, .f32⟩ : BufTy).Contents (Elt F) → (⟨S870400x1, .i32⟩ : BufTy).Contents (Elt F) → (⟨S870400x64, .f32⟩ : BufTy).Contents (Elt F) → (⟨S51200x64, .f32⟩ : BufTy).Contents (Elt F)) ]

/-- Operations 60 … 61 of the 712 (the last one writes main_v51). -/
abbrev q2 : List (HloOp τ sig (Elt F)) :=
  [ StableHlo.unary main_arg10 main_v50 ((extractStridedSlice S1x64x128 ![0, 0, 0] · slices_S5x64x128_S1x64x128_0_0_0) : (⟨S5x64x128, .f32⟩ : BufTy).Contents (Elt F) → (⟨S1x64x128, .f32⟩ : BufTy).Contents (Elt F)),
    StableHlo.reshape main_v50 main_v51 rfl shapeCasts_S1x64x128_S64x128 ]

end Cert.ReferenceIdeal.Hand

end
-- ==== Proof.RefOps1.lean ====
/- The operations of the reference program's @main, statements of its window main_part1 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 62 … 78 of the 712 (the last one writes main_v66). -/
abbrev q3 : List (HloOp τ sig (Elt F)) :=
  [ StableHlo.binary main_v49 main_v51 main_v52 ((fun l r => Host.dotGeneral dot_S51200x64_S64x128_S51200x128_1_0_0_1_n_n none l r) : (⟨S51200x64, .f32⟩ : BufTy).Contents (Elt F) → (⟨S64x128, .f32⟩ : BufTy).Contents (Elt F) → (⟨S51200x128, .f32⟩ : BufTy).Contents (Elt F)),
    StableHlo.unary main_arg11 main_v53 ((extractStridedSlice S1x128 ![0, 0] · slices_S5x128_S1x128_0_0) : (⟨S5x128, .f32⟩ : BufTy).Contents (Elt F) → (⟨S1x128, .f32⟩ : BufTy).Contents (Elt F)),
    StableHlo.reshape main_v53 main_v54 rfl shapeCasts_S1x128_S128,
    StableHlo.unary main_v54 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S51200x128 ![0, 1] bcast_S1x128_S51200x128_0_1 : (⟨S1x128, .f32⟩ : BufTy).Contents (Elt F) → (⟨S51200x128, .f32⟩ : BufTy).Contents (Elt F)),
    StableHlo.binary main_v52 main_v56 main_v57 (addf : (⟨S51200x128, .f32⟩ : BufTy).Contents (Elt F) → (⟨S51200x128, .f32⟩ : BufTy).Contents (Elt F) → (⟨S51200x128, .f32⟩ : BufTy).Contents (Elt F)),
    StableHlo.TRef.nullary main_call1.cst (constant S_ .f32 0x00000000#32),
    StableHlo.TRef.unary main_call1.cst main_call1.v0 (broadcastInDim S51200x128 ![] bcast_S_S51200x128),
    StableHlo.TRef.binary (.of main_v57 : StableHlo.TRef sig ⟨S51200x128, .f32⟩) main_call1.v0 main_call1.v1 maximumf,
    StableHlo.unary main_arg12 main_v59 ((extractStridedSlice S1x128x64 ![0, 0, 0] · slices_S5x128x64_S1x128x64_0_0_0) : (⟨S5x128x64, .f32⟩ : BufTy).Contents (Elt F) → (⟨S1x128x64, .f32⟩ : BufTy).Contents (Elt F)),
    StableHlo.reshape main_v59 main_v60 rfl shapeCasts_S1x128x64_S128x64,
    StableHlo.binary main_v58 main_v60 main_v61 ((fun l r => Host.dotGeneral dot_S51200x128_S128x64_S51200x64_1_0_0_1_n_n none l r) : (⟨S51200x128, .f32⟩ : BufTy).Contents (Elt F) → (⟨S128x64, .f32⟩ : BufTy).Contents (Elt F) → (⟨S51200x64, .f32⟩ : BufTy).Contents (Elt F)),
    StableHlo.unary main_arg13 main_v62 ((extractStridedSlice S1x64 ![0, 0] · slices_S5x64_S1x64_0_0) : (⟨S5x64, .f32⟩ : BufTy).Contents (Elt F) → (⟨S1x64, .f32⟩ : BufTy).Contents (Elt F)),
    StableHlo.reshape main_v62 main_v63 rfl shapeCasts_S1x64_S64,
    StableHlo.unary main_v63 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S51200x64 ![0, 1] bcast_S1x64_S51200x64_0_1 : (⟨S1x64, .f32⟩ : BufTy).Contents (Elt F) → (⟨S51200x64, .f32⟩ : BufTy).Contents (Elt F)),
    StableHlo.binary main_v61 main_v65 main_v66 (addf : (⟨S51200x64, .f32⟩ : BufTy).Contents (Elt F) → (⟨S51200x64, .f32⟩ : BufTy).Contents (Elt F) → (⟨S51200x64, .f32⟩ : BufTy).Contents (Elt F)) ]

/-- Operations 79 … 106 of the 712 (the last one writes main_v70). -/
abbrev q4 : List (HloOp τ sig (Elt F)) :=
  [ StableHlo.nullary main_cst_6 (constant S_ .f32 0x00000000#32),
    StableHlo.binary main_v66 main_cst_6 main_v67 ((fun x v => Host.reduceAdd x v reducesTo_S51200x64_S64_d0 h_S_) : (⟨S51200x64, .f32⟩ : BufTy).Contents (Elt F) → (⟨S_, .f32⟩ : BufTy).Contents (Elt F) → (⟨S64, .f32⟩ : BufTy).Contents (Elt F)),
    StableHlo.nullary main_cst_7 (constant S_ .f32 0x47480000#32),
    StableHlo.unary main_cst_7 main_v68 (broadcastInDim S64 ![] bcast_S_S64 : (⟨S_, .f32⟩ : BufTy).Contents (Elt F) → (⟨S64, .f32⟩ : BufTy).Contents (Elt F)),
    StableHlo.binary main_v67 main_v68 main_v69 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary main_call2.cst (constant S_ .f32 0x00000000#32),
    StableHlo.TRef.binary (.of main_v66 : StableHlo.TRef sig ⟨S51200x64, .f32⟩) main_call2.cst main_call2.v0 (fun x v => Host.reduceAdd x v reducesTo_S51200x64_S64_d0 h_S_),
    StableHlo.TRef.unary main_call2.v0 main_call2.v1 (broadcastInDim S1x64 ![1] bcast_S64_S1x64_1),
    StableHlo.TRef.nullary main_call2.cst_0 (constant S_ .f32 0x47480000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S51200x64 ![0, 1] bcast_S1x64_S51200x64_0_1),
    StableHlo.TRef.binary (.of main_v66 : StableHlo.TRef sig ⟨S51200x64, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x47480000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S51200x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

/-- Operations 107 … 129 of the 712 (the last one writes main_v90). -/
abbrev q5 : List (HloOp τ sig (Elt F)) :=
  [ StableHlo.unary main_v69 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S51200x64 ![0, 1] bcast_S1x64_S51200x64_0_1 : (⟨S1x64, .f32⟩ : BufTy).Contents (Elt F) → (⟨S51200x64, .f32⟩ : BufTy).Contents (Elt F)),
    StableHlo.binary main_v66 main_v72 main_v73 (subf : (⟨S51200x64, .f32⟩ : BufTy).Contents (Elt F) → (⟨S51200x64, .f32⟩ : BufTy).Contents (Elt F) → (⟨S51200x64, .f32⟩ : BufTy).Contents (Elt F)),
    StableHlo.nullary main_cst_9 (constant S_ .f32 0x3727C5AC#32),
    StableHlo.unary main_cst_9 main_v74 (broadcastInDim S64 ![] bcast_S_S64 : (⟨S_, .f32⟩ : BufTy).Contents (Elt F) → (⟨S64, .f32⟩ : BufTy).Contents (Elt F)),
    StableHlo.binary main_v70 main_v74 main_v75 (addf : (⟨S64, .f32⟩ : BufTy).Contents (Elt F) → (⟨S64, .f32⟩ : BufTy).Contents (Elt F) → (⟨S64, .f32⟩ : BufTy).Contents (Elt F)),
    StableHlo.unary main_v75 main_v76 (Host.sqrt : (⟨S64, .f32⟩ : BufTy).Contents (Elt F) → (⟨S64, .f32⟩ : BufTy).Contents (Elt F)),
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S51200x64 ![0, 1] bcast_S1x64_S51200x64_0_1 : (⟨S1x64, .f32⟩ : BufTy).Contents (Elt F) → (⟨S51200x64, .f32⟩ : BufTy).Contents (Elt F)),
    StableHlo.binary main_v73 main_v78 main_v79 (Host.divf : (⟨S51200x64, .f32⟩ : BufTy).Contents (Elt F) → (⟨S51200x64, .f32⟩ : BufTy).Contents (Elt F) → (⟨S51200x64, .f32⟩ : BufTy).Contents (Elt F)),
    StableHlo.unary main_arg16 main_v80 ((extractStridedSlice S1x64 ![0, 0] · slices_S5x64_S1x64_0_0) : (⟨S5x64, .f32⟩ : BufTy).Contents (Elt F) → (⟨S1x64, .f32⟩ : BufTy).Contents (Elt F)),
    StableHlo.reshape main_v80 main_v81 rfl shapeCasts_S1x64_S64,
    StableHlo.unary main_v81 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S51200x64 ![0, 1] bcast_S1x64_S51200x64_0_1 : (⟨S1x64, .f32⟩ : BufTy).Contents (Elt F) → (⟨S51200x64, .f32⟩ : BufTy).Contents (Elt F)),
    StableHlo.binary main_v79 main_v83 main_v84 (mulf : (⟨S51200x64, .f32⟩ : BufTy).Contents (Elt F) → (⟨S51200x64, .f32⟩ : BufTy).Contents (Elt F) → (⟨S51200x64, .f32⟩ : BufTy).Contents (Elt F)),
    StableHlo.unary main_arg17 main_v85 ((extractStridedSlice S1x64 ![0, 0] · slices_S5x64_S1x64_0_0) : (⟨S5x64, .f32⟩ : BufTy).Contents (Elt F) → (⟨S1x64, .f32⟩ : BufTy).Contents (Elt F)),
    StableHlo.reshape main_v85 main_v86 rfl shapeCasts_S1x64_S64,
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S51200x64 ![0, 1] bcast_S1x64_S51200x64_0_1 : (⟨S1x64, .f32⟩ : BufTy).Contents (Elt F) → (⟨S51200x64, .f32⟩ : BufTy).Contents (Elt F)),
    StableHlo.binary main_v84 main_v88 main_v89 (addf : (⟨S51200x64, .f32⟩ : BufTy).Contents (Elt F) → (⟨S51200x64, .f32⟩ : BufTy).Contents (Elt F) → (⟨S51200x64, .f32⟩ : BufTy).Contents (Elt F)),
    StableHlo.TRef.nullary main_call3.cst (constant S_ .f32 0x00000000#32),
    StableHlo.TRef.unary main_call3.cst main_call3.v0 (broadcastInDim S51200x64 ![] bcast_S_S51200x64),
    StableHlo.TRef.binary (.of main_v89 : StableHlo.TRef sig ⟨S51200x64, .f32⟩) main_call3.v0 main_call3.v1 maximumf ]

/-- Operations 130 … 146 of the 712 (the last one writes main_v105). -/
abbrev q6 : List (HloOp τ sig (Elt F)) :=
  [ StableHlo.unary main_arg14 main_v91 ((extractStridedSlice S1x6x64 ![1, 0, 0] · slices_S5x6x64_S1x6x64_1_0_0) : (⟨S5x6x64, .f32⟩ : BufTy).Contents (Elt F) → (⟨S1x6x64, .f32⟩ : BufTy).Contents (Elt F)),
    StableHlo.reshape main_v91 main_v92 rfl shapeCasts_S1x6x64_S6x64,
    StableHlo.unary main_v10 main_v93 ((extractStridedSlice S870400x1 ![0, 0] · slices_S870400x2_S870400x1_0_0) : (⟨S870400x2, .i32⟩ : BufTy).Contents (Elt F) → (⟨S870400x1, .i32⟩ : BufTy).Contents (Elt F)),
    StableHlo.reshape main_v93 main_v94 rfl shapeCasts_S870400x1_S870400,
    StableHlo.nullary main_c_10 (constantI S_ 32 0#32),
    StableHlo.unary main_c_10 main_v95 (broadcastInDim S870400 ![] bcast_S_S870400 : (⟨S_, .i32⟩ : BufTy).Contents (Elt F) → (⟨S870400, .i32⟩ : BufTy).Contents (Elt F)),
    StableHlo.binary main_v94 main_v95 main_v96 (cmpi .slt : (⟨S870400, .i32⟩ : BufTy).Contents (Elt F) → (⟨S870400, .i32⟩ : BufTy).Contents (Elt F) → (⟨S870400, .i1⟩ : BufTy).Contents (Elt F)),
    StableHlo.nullary main_c_11 (constantI S_ 32 6#32),
    StableHlo.unary main_c_11 main_v97 (broadcastInDim S870400 ![] bcast_S_S870400 : (⟨S_, .i32⟩ : BufTy).Contents (Elt F) → (⟨S870400, .i32⟩ : BufTy).Contents (Elt F)),
    StableHlo.binary main_v94 main_v97 main_v98 (addi : (⟨S870400, .i32⟩ : BufTy).Contents (Elt F) → (⟨S870400, .i32⟩ : BufTy).Contents (Elt F) → (⟨S870400, .i32⟩ : BufTy).Contents (Elt F)),
    StableHlo.ternary main_v96 main_v98 main_v94 main_v99 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v99 main_v100 (broadcastInDim S870400x1 ![0] bcast_S870400_S870400x1_0 : (⟨S870400, .i32⟩ : BufTy).Contents (Elt F) → (⟨S870400x1, .i32⟩ : BufTy).Contents (Elt F)),
    StableHlo.binary main_v92 main_v100 main_v101 ((fun x i => Host.gather gather_S6x64_S870400x1_S870400x64_1_0_n_n_0_1_164 x i) : (⟨S6x64, .f32⟩ : BufTy).Contents (Elt F) → (⟨S870400x1, .i32⟩ : BufTy).Contents (Elt F) → (⟨S870400x64, .f32⟩ : BufTy).Contents (Elt F)),
    StableHlo.unary main_arg15 main_v102 ((extractStridedSlice S1x3x64 ![1, 0, 0] · slices_S5x3x64_S1x3x64_1_0_0) : (⟨S5x3x64, .f32⟩ : BufTy).Contents (Elt F) → (⟨S1x3x64, .f32⟩ : BufTy).Contents (Elt F)),
    StableHlo.reshape main_v102 main_v103 rfl shapeCasts_S1x3x64_S3x64,
    StableHlo.unary main_v10 main_v104 ((extractStridedSlice S870400x1 ![0, 1] · slices_S870400x2_S870400x1_0_1) : (⟨S870400x2, .i32⟩ : BufTy).Contents (Elt F) → (⟨S870400x1, .i32⟩ : BufTy).Contents (Elt F)),
    StableHlo.reshape main_v104 main_v105 rfl shapeCasts_S870400x1_S870400 ]

end Cert.ReferenceIdeal.Hand

end
-- ==== Proof.RefOps2.lean ====
/- The operations of the reference program's @main, statements of its window main_part2 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 147 … 170 of the 712 (the last one writes main_v124). -/
abbrev q7 : List (HloOp τ sig (Elt F)) :=
  [ StableHlo.nullary main_c_12 (constantI S_ 32 0#32),
    StableHlo.unary main_c_12 main_v106 (broadcastInDim S870400 ![] bcast_S_S870400 : (⟨S_, .i32⟩ : BufTy).Contents (Elt F) → (⟨S870400, .i32⟩ : BufTy).Contents (Elt F)),
    StableHlo.binary main_v105 main_v106 main_v107 (cmpi .slt : (⟨S870400, .i32⟩ : BufTy).Contents (Elt F) → (⟨S870400, .i32⟩ : BufTy).Contents (Elt F) → (⟨S870400, .i1⟩ : BufTy).Contents (Elt F)),
    StableHlo.nullary main_c_13 (constantI S_ 32 3#32),
    StableHlo.unary main_c_13 main_v108 (broadcastInDim S870400 ![] bcast_S_S870400 : (⟨S_, .i32⟩ : BufTy).Contents (Elt F) → (⟨S870400, .i32⟩ : BufTy).Contents (Elt F)),
    StableHlo.binary main_v105 main_v108 main_v109 (addi : (⟨S870400, .i32⟩ : BufTy).Contents (Elt F) → (⟨S870400, .i32⟩ : BufTy).Contents (Elt F) → (⟨S870400, .i32⟩ : BufTy).Contents (Elt F)),
    StableHlo.ternary main_v107 main_v109 main_v105 main_v110 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v110 main_v111 (broadcastInDim S870400x1 ![0] bcast_S870400_S870400x1_0 : (⟨S870400, .i32⟩ : BufTy).Contents (Elt F) → (⟨S870400x1, .i32⟩ : BufTy).Contents (Elt F)),
    StableHlo.binary main_v103 main_v111 main_v112 ((fun x i => Host.gather gather_S3x64_S870400x1_S870400x64_1_0_n_n_0_1_164 x i) : (⟨S3x64, .f32⟩ : BufTy).Contents (Elt F) → (⟨S870400x1, .i32⟩ : BufTy).Contents (Elt F) → (⟨S870400x64, .f32⟩ : BufTy).Contents (Elt F)),
    StableHlo.binary main_v101 main_v112 main_v113 (addf : (⟨S870400x64, .f32⟩ : BufTy).Contents (Elt F) → (⟨S870400x64, .f32⟩ : BufTy).Contents (Elt F) → (⟨S870400x64, .f32⟩ : BufTy).Contents (Elt F)),
    StableHlo.nullary main_c_14 (constantI S_ 32 0#32),
    StableHlo.unary main_c_14 main_v114 (broadcastInDim S870400 ![] bcast_S_S870400 : (⟨S_, .i32⟩ : BufTy).Contents (Elt F) → (⟨S870400, .i32⟩ : BufTy).Contents (Elt F)),
    StableHlo.binary main_v3 main_v114 main_v115 (cmpi .slt : (⟨S870400, .i32⟩ : BufTy).Contents (Elt F) → (⟨S870400, .i32⟩ : BufTy).Contents (Elt F) → (⟨S870400, .i1⟩ : BufTy).Contents (Elt F)),
    StableHlo.nullary main_c_15 (constantI S_ 32 51200#32),
    StableHlo.unary main_c_15 main_v116 (broadcastInDim S870400 ![] bcast_S_S870400 : (⟨S_, .i32⟩ : BufTy).Contents (Elt F) → (⟨S870400, .i32⟩ : BufTy).Contents (Elt F)),
    StableHlo.binary main_v3 main_v116 main_v117 (addi : (⟨S870400, .i32⟩ : BufTy).Contents (Elt F) → (⟨S870400, .i32⟩ : BufTy).Contents (Elt F) → (⟨S870400, .i32⟩ : BufTy).Contents (Elt F)),
    StableHlo.ternary main_v115 main_v117 main_v3 main_v118 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v118 main_v119 (broadcastInDim S870400x1 ![0] bcast_S870400_S870400x1_0 : (⟨S870400, .i32⟩ : BufTy).Contents (Elt F) → (⟨S870400x1, .i32⟩ : BufTy).Contents (Elt F)),
    StableHlo.binary main_v90 main_v119 main_v120 ((fun x i => Host.gather gather_S51200x64_S870400x1_S870400x64_1_0_n_n_0_1_164 x i) : (⟨S51200x64, .f32⟩ : BufTy).Contents (Elt F) → (⟨S870400x1, .i32⟩ : BufTy).Contents (Elt F) → (⟨S870400x64, .f32⟩ : BufTy).Contents (Elt F)),
    StableHlo.binary main_v120 main_v113 main_v121 (addf : (⟨S870400x64, .f32⟩ : BufTy).Contents (Elt F) → (⟨S870400x64, .f32⟩ : BufTy).Contents (Elt F) → (⟨S870400x64, .f32⟩ : BufTy).Contents (Elt F)),
    StableHlo.nullary main_cst_16 (constant S_ .f32 0x00000000#32),
    StableHlo.unary main_cst_16 main_v122 (broadcastInDim S51200x64 ![] bcast_S_S51200x64 : (⟨S_, .f32⟩ : BufTy).Contents (Elt F) → (⟨S51200x64, .f32⟩ : BufTy).Contents (Elt F)),
    StableHlo.unary main_v6 main_v123 (broadcastInDim S870400x1 ![0] bcast_S870400_S870400x1_0 : (⟨S870400, .i32⟩ : BufTy).Contents (Elt F) → (⟨S870400x1, .i32⟩ : BufTy).Contents (Elt F)),
    StableHlo.ternary main_v122 main_v123 main_v121 main_v124 ((fun x i u => Host.scatterAdd scatter_S51200x64_S870400x1_S870400x64_1_0_0_1 x i u) : (⟨S51200x64, .f32⟩ : BufTy).Contents (Elt F) → (⟨S870400x1, .i32⟩ : BufTy).Contents (Elt F) → (⟨S870400x64, .f32⟩ : BufTy).Contents (Elt F) → (⟨S51200x64, .f32⟩ : BufTy).Contents (Elt F)) ]

/-- Operations 171 … 189 of the 712 (the last one writes main_v141). -/
abbrev q8 : List (HloOp τ sig (Elt F)) :=
  [ StableHlo.unary main_arg10 main_v125 ((extractStridedSlice S1x64x128 ![1, 0, 0] · slices_S5x64x128_S1x64x128_1_0_0) : (⟨S5x64x128, .f32⟩ : BufTy).Contents (Elt F) → (⟨S1x64x128, .f32⟩ : BufTy).Contents (Elt F)),
    StableHlo.reshape main_v125 main_v126 rfl shapeCasts_S1x64x128_S64x128,
    StableHlo.binary main_v124 main_v126 main_v127 ((fun l r => Host.dotGeneral dot_S51200x64_S64x128_S51200x128_1_0_0_1_n_n none l r) : (⟨S51200x64, .f32⟩ : BufTy).Contents (Elt F) → (⟨S64x128, .f32⟩ : BufTy).Contents (Elt F) → (⟨S51200x128, .f32⟩ : BufTy).Contents (Elt F)),
    StableHlo.unary main_arg11 main_v128 ((extractStridedSlice S1x128 ![1, 0] · slices_S5x128_S1x128_1_0) : (⟨S5x128, .f32⟩ : BufTy).Contents (Elt F) → (⟨S1x128, .f32⟩ : BufTy).Contents (Elt F)),
    StableHlo.reshape main_v128 main_v129 rfl shapeCasts_S1x128_S128,
    StableHlo.unary main_v129 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S51200x128 ![0, 1] bcast_S1x128_S51200x128_0_1 : (⟨S1x128, .f32⟩ : BufTy).Contents (Elt F) → (⟨S51200x128, .f32⟩ : BufTy).Contents (Elt F)),
    StableHlo.binary main_v127 main_v131 main_v132 (addf : (⟨S51200x128, .f32⟩ : BufTy).Contents (Elt F) → (⟨S51200x128, .f32⟩ : BufTy).Contents (Elt F) → (⟨S51200x128, .f32⟩ : BufTy).Contents (Elt F)),
    StableHlo.TRef.nullary main_call4.cst (constant S_ .f32 0x00000000#32),
    StableHlo.TRef.unary main_call4.cst main_call4.v0 (broadcastInDim S51200x128 ![] bcast_S_S51200x128),
    StableHlo.TRef.binary (.of main_v132 : StableHlo.TRef sig ⟨S51200x128, .f32⟩) main_call4.v0 main_call4.v1 maximumf,
    StableHlo.unary main_arg12 main_v134 ((extractStridedSlice S1x128x64 ![1, 0, 0] · slices_S5x128x64_S1x128x64_1_0_0) : (⟨S5x128x64, .f32⟩ : BufTy).Contents (Elt F) → (⟨S1x128x64, .f32⟩ : BufTy).Contents (Elt F)),
    StableHlo.reshape main_v134 main_v135 rfl shapeCasts_S1x128x64_S128x64,
    StableHlo.binary main_v133 main_v135 main_v136 ((fun l r => Host.dotGeneral dot_S51200x128_S128x64_S51200x64_1_0_0_1_n_n none l r) : (⟨S51200x128, .f32⟩ : BufTy).Contents (Elt F) → (⟨S128x64, .f32⟩ : BufTy).Contents (Elt F) → (⟨S51200x64, .f32⟩ : BufTy).Contents (Elt F)),
    StableHlo.unary main_arg13 main_v137 ((extractStridedSlice S1x64 ![1, 0] · slices_S5x64_S1x64_1_0) : (⟨S5x64, .f32⟩ : BufTy).Contents (Elt F) → (⟨S1x64, .f32⟩ : BufTy).Contents (Elt F)),
    StableHlo.reshape main_v137 main_v138 rfl shapeCasts_S1x64_S64,
    StableHlo.unary main_v138 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S51200x64 ![0, 1] bcast_S1x64_S51200x64_0_1 : (⟨S1x64, .f32⟩ : BufTy).Contents (Elt F) → (⟨S51200x64, .f32⟩ : BufTy).Contents (Elt F)),
    StableHlo.binary main_v136 main_v140 main_v141 (addf : (⟨S51200x64, .f32⟩ : BufTy).Contents (Elt F) → (⟨S51200x64, .f32⟩ : BufTy).Contents (Elt F) → (⟨S51200x64, .f32⟩ : BufTy).Contents (Elt F)) ]

/-- Operations 190 … 217 of the 712 (the last one writes main_v145). -/
abbrev q9 : List (HloOp τ sig (Elt F)) :=
  [ StableHlo.nullary main_cst_17 (constant S_ .f32 0x00000000#32),
    StableHlo.binary main_v141 main_cst_17 main_v142 ((fun x v => Host.reduceAdd x v reducesTo_S51200x64_S64_d0 h_S_) : (⟨S51200x64, .f32⟩ : BufTy).Contents (Elt F) → (⟨S_, .f32⟩ : BufTy).Contents (Elt F) → (⟨S64, .f32⟩ : BufTy).Contents (Elt F)),
    StableHlo.nullary main_cst_18 (constant S_ .f32 0x47480000#32),
    StableHlo.unary main_cst_18 main_v143 (broadcastInDim S64 ![] bcast_S_S64 : (⟨S_, .f32⟩ : BufTy).Contents (Elt F) → (⟨S64, .f32⟩ : BufTy).Contents (Elt F)),
    StableHlo.binary main_v142 main_v143 main_v144 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32),
    StableHlo.TRef.nullary main_call5.cst (constant S_ .f32 0x00000000#32),
    StableHlo.TRef.binary (.of main_v141 : StableHlo.TRef sig ⟨S51200x64, .f32⟩) main_call5.cst main_call5.v0 (fun x v => Host.reduceAdd x v reducesTo_S51200x64_S64_d0 h_S_),
    StableHlo.TRef.unary main_call5.v0 main_call5.v1 (broadcastInDim S1x64 ![1] bcast_S64_S1x64_1),
    StableHlo.TRef.nullary main_call5.cst_0 (constant S_ .f32 0x47480000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S51200x64 ![0, 1] bcast_S1x64_S51200x64_0_1),
    StableHlo.TRef.binary (.of main_v141 : StableHlo.TRef sig ⟨S51200x64, .f32⟩) main_call5.v4 main_call5.v5 subf,
    StableHlo.TRef.binary main_call5.v5 main_call5.v5 main_call5.v6 mulf,
    StableHlo.TRef.unary (.of main_c_19 : StableHlo.TRef sig ⟨S_, .i32⟩) main_call5.v7 (sitofp .f32),
    StableHlo.TRef.nullary main_call5.cst_1 (constant S_ .f32 0x47480000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S51200x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b) ]

/-- Operations 218 … 229 of the 712 (the last one writes main_v156). -/
abbrev q10 : List (HloOp τ sig (Elt F)) :=
  [ StableHlo.unary main_v144 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S51200x64 ![0, 1] bcast_S1x64_S51200x64_0_1 : (⟨S1x64, .f32⟩ : BufTy).Contents (Elt F) → (⟨S51200x64, .f32⟩ : BufTy).Contents (Elt F)),
    StableHlo.binary main_v141 main_v147 main_v148 (subf : (⟨S51200x64, .f32⟩ : BufTy).Contents (Elt F) → (⟨S51200x64, .f32⟩ : BufTy).Contents (Elt F) → (⟨S51200x64, .f32⟩ : BufTy).Contents (Elt F)),
    StableHlo.nullary main_cst_20 (constant S_ .f32 0x3727C5AC#32),
    StableHlo.unary main_cst_20 main_v149 (broadcastInDim S64 ![] bcast_S_S64 : (⟨S_, .f32⟩ : BufTy).Contents (Elt F) → (⟨S64, .f32⟩ : BufTy).Contents (Elt F)),
    StableHlo.binary main_v145 main_v149 main_v150 (addf : (⟨S64, .f32⟩ : BufTy).Contents (Elt F) → (⟨S64, .f32⟩ : BufTy).Contents (Elt F) → (⟨S64, .f32⟩ : BufTy).Contents (Elt F)),
    StableHlo.unary main_v150 main_v151 (Host.sqrt : (⟨S64, .f32⟩ : BufTy).Contents (Elt F) → (⟨S64, .f32⟩ : BufTy).Contents (Elt F)),
    StableHlo.unary main_v151 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S51200x64 ![0, 1] bcast_S1x64_S51200x64_0_1 : (⟨S1x64, .f32⟩ : BufTy).Contents (Elt F) → (⟨S51200x64, .f32⟩ : BufTy).Contents (Elt F)),
    StableHlo.binary main_v148 main_v153 main_v154 (Host.divf : (⟨S51200x64, .f32⟩ : BufTy).Contents (Elt F) → (⟨S51200x64, .f32⟩ : BufTy).Contents (Elt F) → (⟨S51200x64, .f32⟩ : BufTy).Contents (Elt F)),
    StableHlo.unary main_arg16 main_v155 ((extractStridedSlice S1x64 ![1, 0] · slices_S5x64_S1x64_1_0) : (⟨S5x64, .f32⟩ : BufTy).Contents (Elt F) → (⟨S1x64, .f32⟩ : BufTy).Contents (Elt F)),
    StableHlo.reshape main_v155 main_v156 rfl shapeCasts_S1x64_S64 ]

end Cert.ReferenceIdeal.Hand

end
-- ==== Proof.RefOps3.lean ====
/- The operations of the reference program's @main, statements of its window main_part3 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 230 … 240 of the 712 (the last one writes main_v165). -/
abbrev q11 : List (HloOp τ sig (Elt F)) :=
  [ StableHlo.unary main_v156 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S51200x64 ![0, 1] bcast_S1x64_S51200x64_0_1 : (⟨S1x64, .f32⟩ : BufTy).Contents (Elt F) → (⟨S51200x64, .f32⟩ : BufTy).Contents (Elt F)),
    StableHlo.binary main_v154 main_v158 main_v159 (mulf : (⟨S51200x64, .f32⟩ : BufTy).Contents (Elt F) → (⟨S51200x64, .f32⟩ : BufTy).Contents (Elt F) → (⟨S51200x64, .f32⟩ : BufTy).Contents (Elt F)),
    StableHlo.unary main_arg17 main_v160 ((extractStridedSlice S1x64 ![1, 0] · slices_S5x64_S1x64_1_0) : (⟨S5x64, .f32⟩ : BufTy).Contents (Elt F) → (⟨S1x64, .f32⟩ : BufTy).Contents (Elt F)),
    StableHlo.reshape main_v160 main_v161 rfl shapeCasts_S1x64_S64,
    StableHlo.unary main_v161 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S51200x64 ![0, 1] bcast_S1x64_S51200x64_0_1 : (⟨S1x64, .f32⟩ : BufTy).Contents (Elt F) → (⟨S51200x64, .f32⟩ : BufTy).Contents (Elt F)),
    StableHlo.binary main_v159 main_v163 main_v164 (addf : (⟨S51200x64, .f32⟩ : BufTy).Contents (Elt F) → (⟨S51200x64, .f32⟩ : BufTy).Contents (Elt F) → (⟨S51200x64, .f32⟩ : BufTy).Contents (Elt F)),
    StableHlo.TRef.nullary main_call6.cst (constant S_ .f32 0x00000000#32),
    StableHlo.TRef.unary main_call6.cst main_call6.v0 (broadcastInDim S51200x64 ![] bcast_S_S51200x64),
    StableHlo.TRef.binary (.of main_v164 : StableHlo.TRef sig ⟨S51200x64, .f32⟩) main_call6.v0 main_call6.v1 maximumf ]

/-- Operations 241 … 281 of the 712 (the last one writes main_v199). -/
abbrev q12 : List (HloOp τ sig (Elt F)) :=
  [ StableHlo.unary main_arg14 main_v166 ((extractStridedSlice S1x6x64 ![2, 0, 0] · slices_S5x6x64_S1x6x64_2_0_0) : (⟨S5x6x64, .f32⟩ : BufTy).Contents (Elt F) → (⟨S1x6x64, .f32⟩ : BufTy).Contents (Elt F)),
    StableHlo.reshape main_v166 main_v167 rfl shapeCasts_S1x6x64_S6x64,
    StableHlo.unary main_v10 main_v168 ((extractStridedSlice S870400x1 ![0, 0] · slices_S870400x2_S870400x1_0_0) : (⟨S870400x2, .i32⟩ : BufTy).Contents (Elt F) → (⟨S870400x1, .i32⟩ : BufTy).Contents (Elt F)),
    StableHlo.reshape main_v168 main_v169 rfl shapeCasts_S870400x1_S870400,
    StableHlo.nullary main_c_21 (constantI S_ 32 0#32),
    StableHlo.unary main_c_21 main_v170 (broadcastInDim S870400 ![] bcast_S_S870400 : (⟨S_, .i32⟩ : BufTy).Contents (Elt F) → (⟨S870400, .i32⟩ : BufTy).Contents (Elt F)),
    StableHlo.binary main_v169 main_v170 main_v171 (cmpi .slt : (⟨S870400, .i32⟩ : BufTy).Contents (Elt F) → (⟨S870400, .i32⟩ : BufTy).Contents (Elt F) → (⟨S870400, .i1⟩ : BufTy).Contents (Elt F)),
    StableHlo.nullary main_c_22 (constantI S_ 32 6#32),
    StableHlo.unary main_c_22 main_v172 (broadcastInDim S870400 ![] bcast_S_S870400 : (⟨S_, .i32⟩ : BufTy).Contents (Elt F) → (⟨S870400, .i32⟩ : BufTy).Contents (Elt F)),
    StableHlo.binary main_v169 main_v172 main_v173 (addi : (⟨S870400, .i32⟩ : BufTy).Contents (Elt F) → (⟨S870400, .i32⟩ : BufTy).Contents (Elt F) → (⟨S870400, .i32⟩ : BufTy).Contents (Elt F)),
    StableHlo.ternary main_v171 main_v173 main_v169 main_v174 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v174 main_v175 (broadcastInDim S870400x1 ![0] bcast_S870400_S870400x1_0 : (⟨S870400, .i32⟩ : BufTy).Contents (Elt F) → (⟨S870400x1, .i32⟩ : BufTy).Contents (Elt F)),
    StableHlo.binary main_v167 main_v175 main_v176 ((fun x i => Host.gather gather_S6x64_S870400x1_S870400x64_1_0_n_n_0_1_164 x i) : (⟨S6x64, .f32⟩ : BufTy).Contents (Elt F) → (⟨S870400x1, .i32⟩ : BufTy).Contents (Elt F) → (⟨S870400x64, .f32⟩ : BufTy).Contents (Elt F)),
    StableHlo.unary main_arg15 main_v177 ((extractStridedSlice S1x3x64 ![2, 0, 0] · slices_S5x3x64_S1x3x64_2_0_0) : (⟨S5x3x64, .f32⟩ : BufTy).Contents (Elt F) → (⟨S1x3x64, .f32⟩ : BufTy).Contents (Elt F)),
    StableHlo.reshape main_v177 main_v178 rfl shapeCasts_S1x3x64_S3x64,
    StableHlo.unary main_v10 main_v179 ((extractStridedSlice S870400x1 ![0, 1] · slices_S870400x2_S870400x1_0_1) : (⟨S870400x2, .i32⟩ : BufTy).Contents (Elt F) → (⟨S870400x1, .i32⟩ : BufTy).Contents (Elt F)),
    StableHlo.reshape main_v179 main_v180 rfl shapeCasts_S870400x1_S870400,
    StableHlo.nullary main_c_23 (constantI S_ 32 0#32),
    StableHlo.unary main_c_23 main_v181 (broadcastInDim S870400 ![] bcast_S_S870400 : (⟨S_, .i32⟩ : BufTy).Contents (Elt F) → (⟨S870400, .i32⟩ : BufTy).Contents (Elt F)),
    StableHlo.binary main_v180 main_v181 main_v182 (cmpi .slt : (⟨S870400, .i32⟩ : BufTy).Contents (Elt F) → (⟨S870400, .i32⟩ : BufTy).Contents (Elt F) → (⟨S870400, .i1⟩ : BufTy).Contents (Elt F)),
    StableHlo.nullary main_c_24 (constantI S_ 32 3#32),
    StableHlo.unary main_c_24 main_v183 (broadcastInDim S870400 ![] bcast_S_S870400 : (⟨S_, .i32⟩ : BufTy).Contents (Elt F) → (⟨S870400, .i32⟩ : BufTy).Contents (Elt F)),
    StableHlo.binary main_v180 main_v183 main_v184 (addi : (⟨S870400, .i32⟩ : BufTy).Contents (Elt F) → (⟨S870400, .i32⟩ : BufTy).Contents (Elt F) → (⟨S870400, .i32⟩ : BufTy).Contents (Elt F)),
    StableHlo.ternary main_v182 main_v184 main_v180 main_v185 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v185 main_v186 (broadcastInDim S870400x1 ![0] bcast_S870400_S870400x1_0 : (⟨S870400, .i32⟩ : BufTy).Contents (Elt F) → (⟨S870400x1, .i32⟩ : BufTy).Contents (Elt F)),
    StableHlo.binary main_v178 main_v186 main_v187 ((fun x i => Host.gather gather_S3x64_S870400x1_S870400x64_1_0_n_n_0_1_164 x i) : (⟨S3x64, .f32⟩ : BufTy).Contents (Elt F) → (⟨S870400x1, .i32⟩ : BufTy).Contents (Elt F) → (⟨S870400x64, .f32⟩ : BufTy).Contents (Elt F)),
    StableHlo.binary main_v176 main_v187 main_v188 (addf : (⟨S870400x64, .f32⟩ : BufTy).Contents (Elt F) → (⟨S870400x64, .f32⟩ : BufTy).Contents (Elt F) → (⟨S870400x64, .f32⟩ : BufTy).Contents (Elt F)),
    StableHlo.nullary main_c_25 (constantI S_ 32 0#32),
    StableHlo.unary main_c_25 main_v189 (broadcastInDim S870400 ![] bcast_S_S870400 : (⟨S_, .i32⟩ : BufTy).Contents (Elt F) → (⟨S870400, .i32⟩ : BufTy).Contents (Elt F)),
    StableHlo.binary main_v3 main_v189 main_v190 (cmpi .slt : (⟨S870400, .i32⟩ : BufTy).Contents (Elt F) → (⟨S870400, .i32⟩ : BufTy).Contents (Elt F) → (⟨S870400, .i1⟩ : BufTy).Contents (Elt F)),
    StableHlo.nullary main_c_26 (constantI S_ 32 51200#32),
    StableHlo.unary main_c_26 main_v191 (broadcastInDim S870400 ![] bcast_S_S870400 : (⟨S_, .i32⟩ : BufTy).Contents (Elt F) → (⟨S870400, .i32⟩ : BufTy).Contents (Elt F)),
    StableHlo.binary main_v3 main_v191 main_v192 (addi : (⟨S870400, .i32⟩ : BufTy).Contents (Elt F) → (⟨S870400, .i32⟩ : BufTy).Contents (Elt F) → (⟨S870400, .i32⟩ : BufTy).Contents (Elt F)),
    StableHlo.ternary main_v190 main_v192 main_v3 main_v193 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v193 main_v194 (broadcastInDim S870400x1 ![0] bcast_S870400_S870400x1_0 : (⟨S870400, .i32⟩ : BufTy).Contents (Elt F) → (⟨S870400x1, .i32⟩ : BufTy).Contents (Elt F)),
    StableHlo.binary main_v165 main_v194 main_v195 ((fun x i => Host.gather gather_S51200x64_S870400x1_S870400x64_1_0_n_n_0_1_164 x i) : (⟨S51200x64, .f32⟩ : BufTy).Contents (Elt F) → (⟨S870400x1, .i32⟩ : BufTy).Contents (Elt F) → (⟨S870400x64, .f32⟩ : BufTy).Contents (Elt F)),
    StableHlo.binary main_v195 main_v188 main_v196 (addf : (⟨S870400x64, .f32⟩ : BufTy).Contents (Elt F) → (⟨S870400x64, .f32⟩ : BufTy).Contents (Elt F) → (⟨S870400x64, .f32⟩ : BufTy).Contents (Elt F)),
    StableHlo.nullary main_cst_27 (constant S_ .f32 0x00000000#32),
    StableHlo.unary main_cst_27 main_v197 (broadcastInDim S51200x64 ![] bcast_S_S51200x64 : (⟨S_, .f32⟩ : BufTy).Contents (Elt F) → (⟨S51200x64, .f32⟩ : BufTy).Contents (Elt F)),
    StableHlo.unary main_v6 main_v198 (broadcastInDim S870400x1 ![0] bcast_S870400_S870400x1_0 : (⟨S870400, .i32⟩ : BufTy).Contents (Elt F) → (⟨S870400x1, .i32⟩ : BufTy).Contents (Elt F)),
    StableHlo.ternary main_v197 main_v198 main_v196 main_v199 ((fun x i u => Host.scatterAdd scatter_S51200x64_S870400x1_S870400x64_1_0_0_1 x i u) : (⟨S51200x64, .f32⟩ : BufTy).Contents (Elt F) → (⟨S870400x1, .i32⟩ : BufTy).Contents (Elt F) → (⟨S870400x64, .f32⟩ : BufTy).Contents (Elt F) → (⟨S51200x64, .f32⟩ : BufTy).Contents (Elt F)) ]

/-- Operations 282 … 293 of the 712 (the last one writes main_v209). -/
abbrev q13 : List (HloOp τ sig (Elt F)) :=
  [ StableHlo.unary main_arg10 main_v200 ((extractStridedSlice S1x64x128 ![2, 0, 0] · slices_S5x64x128_S1x64x128_2_0_0) : (⟨S5x64x128, .f32⟩ : BufTy).Contents (Elt F) → (⟨S1x64x128, .f32⟩ : BufTy).Contents (Elt F)),
    StableHlo.reshape main_v200 main_v201 rfl shapeCasts_S1x64x128_S64x128,
    StableHlo.binary main_v199 main_v201 main_v202 ((fun l r => Host.dotGeneral dot_S51200x64_S64x128_S51200x128_1_0_0_1_n_n none l r) : (⟨S51200x64, .f32⟩ : BufTy).Contents (Elt F) → (⟨S64x128, .f32⟩ : BufTy).Contents (Elt F) → (⟨S51200x128, .f32⟩ : BufTy).Contents (Elt F)),
    StableHlo.unary main_arg11 main_v203 ((extractStridedSlice S1x128 ![2, 0] · slices_S5x128_S1x128_2_0) : (⟨S5x128, .f32⟩ : BufTy).Contents (Elt F) → (⟨S1x128, .f32⟩ : BufTy).Contents (Elt F)),
    StableHlo.reshape main_v203 main_v204 rfl shapeCasts_S1x128_S128,
    StableHlo.unary main_v204 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S51200x128 ![0, 1] bcast_S1x128_S51200x128_0_1 : (⟨S1x128, .f32⟩ : BufTy).Contents (Elt F) → (⟨S51200x128, .f32⟩ : BufTy).Contents (Elt F)),
    StableHlo.binary main_v202 main_v206 main_v207 (addf : (⟨S51200x128, .f32⟩ : BufTy).Contents (Elt F) → (⟨S51200x128, .f32⟩ : BufTy).Contents (Elt F) → (⟨S51200x128, .f32⟩ : BufTy).Contents (Elt F)),
    StableHlo.TRef.nullary main_call7.cst (constant S_ .f32 0x00000000#32),
    StableHlo.TRef.unary main_call7.cst main_call7.v0 (broadcastInDim S51200x128 ![] bcast_S_S51200x128),
    StableHlo.TRef.binary (.of main_v207 : StableHlo.TRef sig ⟨S51200x128, .f32⟩) main_call7.v0 main_call7.v1 maximumf,
    StableHlo.unary main_arg12 main_v209 ((extractStridedSlice S1x128x64 ![2, 0, 0] · slices_S5x128x64_S1x128x64_2_0_0) : (⟨S5x128x64, .f32⟩ : BufTy).Contents (Elt F) → (⟨S1x128x64, .f32⟩ : BufTy).Contents (Elt F)) ]

end Cert.ReferenceIdeal.Hand

end
-- ==== Proof.RefOps4.lean ====
/- The operations of the reference program's @main, statements of its window main_part4 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 294 … 300 of the 712 (the last one writes main_v216). -/
abbrev q14 : List (HloOp τ sig (Elt F)) :=
  [ StableHlo.reshape main_v209 main_v210 rfl shapeCasts_S1x128x64_S128x64,
    StableHlo.binary main_v208 main_v210 main_v211 ((fun l r => Host.dotGeneral dot_S51200x128_S128x64_S51200x64_1_0_0_1_n_n none l r) : (⟨S51200x128, .f32⟩ : BufTy).Contents (Elt F) → (⟨S128x64, .f32⟩ : BufTy).Contents (Elt F) → (⟨S51200x64, .f32⟩ : BufTy).Contents (Elt F)),
    StableHlo.unary main_arg13 main_v212 ((extractStridedSlice S1x64 ![2, 0] · slices_S5x64_S1x64_2_0) : (⟨S5x64, .f32⟩ : BufTy).Contents (Elt F) → (⟨S1x64, .f32⟩ : BufTy).Contents (Elt F)),
    StableHlo.reshape main_v212 main_v213 rfl shapeCasts_S1x64_S64,
    StableHlo.unary main_v213 main_v214 (broadcastInDim S1x64 ![1] bcast_S64_S1x64_1 : (⟨S64, .f32⟩ : BufTy).Contents (Elt F) → (⟨S1x64, .f32⟩ : BufTy).Contents (Elt F)),
    StableHlo.unary main_v214 main_v215 (broadcastInDim S51200x64 ![0, 1] bcast_S1x64_S51200x64_0_1 : (⟨S1x64, .f32⟩ : BufTy).Contents (Elt F) → (⟨S51200x64, .f32⟩ : BufTy).Contents (Elt F)),
    StableHlo.binary main_v211 main_v215 main_v216 (addf : (⟨S51200x64, .f32⟩ : BufTy).Contents (Elt F) → (⟨S51200x64, .f32⟩ : BufTy).Contents (Elt F) → (⟨S51200x64, .f32⟩ : BufTy).Contents (Elt F)) ]

/-- Operations 301 … 328 of the 712 (the last one writes main_v220). -/
abbrev q15 : List (HloOp τ sig (Elt F)) :=
  [ StableHlo.nullary main_cst_28 (constant S_ .f32 0x00000000#32),
    StableHlo.binary main_v216 main_cst_28 main_v217 ((fun x v => Host.reduceAdd x v reducesTo_S51200x64_S64_d0 h_S_) : (⟨S51200x64, .f32⟩ : BufTy).Contents (Elt F) → (⟨S_, .f32⟩ : BufTy).Contents (Elt F) → (⟨S64, .f32⟩ : BufTy).Contents (Elt F)),
    StableHlo.nullary main_cst_29 (constant S_ .f32 0x47480000#32),
    StableHlo.unary main_cst_29 main_v218 (broadcastInDim S64 ![] bcast_S_S64 : (⟨S_, .f32⟩ : BufTy).Contents (Elt F) → (⟨S64, .f32⟩ : BufTy).Contents (Elt F)),
    StableHlo.binary main_v217 main_v218 main_v219 (Host.divf : (⟨S64, .f32⟩ : BufTy).Contents (Elt F) → (⟨S64, .f32⟩ : BufTy).Contents (Elt F) → (⟨S64, .f32⟩ : BufTy).Contents (Elt F)),
    StableHlo.nullary main_c_30 (constantI S_ 32 0#32),
    StableHlo.TRef.nullary main_call8.cst (constant S_ .f32 0x00000000#32),
    StableHlo.TRef.binary (.of main_v216 : StableHlo.TRef sig ⟨S51200x64, .f32⟩) main_call8.cst main_call8.v0 (fun x v => Host.reduceAdd x v reducesTo_S51200x64_S64_d0 h_S_),
    StableHlo.TRef.unary main_call8.v0 main_call8.v1 (broadcastInDim S1x64 ![1] bcast_S64_S1x64_1),
    StableHlo.TRef.nullary main_call8.cst_0 (constant S_ .f32 0x47480000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S51200x64 ![0, 1] bcast_S1x64_S51200x64_0_1),
    StableHlo.TRef.binary (.of main_v216 : StableHlo.TRef sig ⟨S51200x64, .f32⟩) main_call8.v4 main_call8.v5 subf,
    StableHlo.TRef.binary main_call8.v5 main_call8.v5 main_call8.v6 mulf,
    StableHlo.TRef.unary (.of main_c_30 : StableHlo.TRef sig ⟨S_, .i32⟩) main_call8.v7 (sitofp .f32),
    StableHlo.TRef.nullary main_call8.cst_1 (constant S_ .f32 0x47480000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S51200x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b) ]

/-- Operations 329 … 351 of the 712 (the last one writes main_v240). -/
abbrev q16 : List (HloOp τ sig (Elt F)) :=
  [ StableHlo.unary main_v219 main_v221 (broadcastInDim S1x64 ![1] bcast_S64_S1x64_1 : (⟨S64, .f32⟩ : BufTy).Contents (Elt F) → (⟨S1x64, .f32⟩ : BufTy).Contents (Elt F)),
    StableHlo.unary main_v221 main_v222 (broadcastInDim S51200x64 ![0, 1] bcast_S1x64_S51200x64_0_1 : (⟨S1x64, .f32⟩ : BufTy).Contents (Elt F) → (⟨S51200x64, .f32⟩ : BufTy).Contents (Elt F)),
    StableHlo.binary main_v216 main_v222 main_v223 (subf : (⟨S51200x64, .f32⟩ : BufTy).Contents (Elt F) → (⟨S51200x64, .f32⟩ : BufTy).Contents (Elt F) → (⟨S51200x64, .f32⟩ : BufTy).Contents (Elt F)),
    StableHlo.nullary main_cst_31 (constant S_ .f32 0x3727C5AC#32),
    StableHlo.unary main_cst_31 main_v224 (broadcastInDim S64 ![] bcast_S_S64 : (⟨S_, .f32⟩ : BufTy).Contents (Elt F) → (⟨S64, .f32⟩ : BufTy).Contents (Elt F)),
    StableHlo.binary main_v220 main_v224 main_v225 (addf : (⟨S64, .f32⟩ : BufTy).Contents (Elt F) → (⟨S64, .f32⟩ : BufTy).Contents (Elt F) → (⟨S64, .f32⟩ : BufTy).Contents (Elt F)),
    StableHlo.unary main_v225 main_v226 (Host.sqrt : (⟨S64, .f32⟩ : BufTy).Contents (Elt F) → (⟨S64, .f32⟩ : BufTy).Contents (Elt F)),
    StableHlo.unary main_v226 main_v227 (broadcastInDim S1x64 ![1] bcast_S64_S1x64_1 : (⟨S64, .f32⟩ : BufTy).Contents (Elt F) → (⟨S1x64, .f32⟩ : BufTy).Contents (Elt F)),
    StableHlo.unary main_v227 main_v228 (broadcastInDim S51200x64 ![0, 1] bcast_S1x64_S51200x64_0_1 : (⟨S1x64, .f32⟩ : BufTy).Contents (Elt F) → (⟨S51200x64, .f32⟩ : BufTy).Contents (Elt F)),
    StableHlo.binary main_v223 main_v228 main_v229 (Host.divf : (⟨S51200x64, .f32⟩ : BufTy).Contents (Elt F) → (⟨S51200x64, .f32⟩ : BufTy).Contents (Elt F) → (⟨S51200x64, .f32⟩ : BufTy).Contents (Elt F)),
    StableHlo.unary main_arg16 main_v230 ((extractStridedSlice S1x64 ![2, 0] · slices_S5x64_S1x64_2_0) : (⟨S5x64, .f32⟩ : BufTy).Contents (Elt F) → (⟨S1x64, .f32⟩ : BufTy).Contents (Elt F)),
    StableHlo.reshape main_v230 main_v231 rfl shapeCasts_S1x64_S64,
    StableHlo.unary main_v231 main_v232 (broadcastInDim S1x64 ![1] bcast_S64_S1x64_1 : (⟨S64, .f32⟩ : BufTy).Contents (Elt F) → (⟨S1x64, .f32⟩ : BufTy).Contents (Elt F)),
    StableHlo.unary main_v232 main_v233 (broadcastInDim S51200x64 ![0, 1] bcast_S1x64_S51200x64_0_1 : (⟨S1x64, .f32⟩ : BufTy).Contents (Elt F) → (⟨S51200x64, .f32⟩ : BufTy).Contents (Elt F)),
    StableHlo.binary main_v229 main_v233 main_v234 (mulf : (⟨S51200x64, .f32⟩ : BufTy).Contents (Elt F) → (⟨S51200x64, .f32⟩ : BufTy).Contents (Elt F) → (⟨S51200x64, .f32⟩ : BufTy).Contents (Elt F)),
    StableHlo.unary main_arg17 main_v235 ((extractStridedSlice S1x64 ![2, 0] · slices_S5x64_S1x64_2_0) : (⟨S5x64, .f32⟩ : BufTy).Contents (Elt F) → (⟨S1x64, .f32⟩ : BufTy).Contents (Elt F)),
    StableHlo.reshape main_v235 main_v236 rfl shapeCasts_S1x64_S64,
    StableHlo.unary main_v236 main_v237 (broadcastInDim S1x64 ![1] bcast_S64_S1x64_1 : (⟨S64, .f32⟩ : BufTy).Contents (Elt F) → (⟨S1x64, .f32⟩ : BufTy).Contents (Elt F)),
    StableHlo.unary main_v237 main_v238 (broadcastInDim S51200x64 ![0, 1] bcast_S1x64_S51200x64_0_1 : (⟨S1x64, .f32⟩ : BufTy).Contents (Elt F) → (⟨S51200x64, .f32⟩ : BufTy).Contents (Elt F)),
    StableHlo.binary main_v234 main_v238 main_v239 (addf : (⟨S51200x64, .f32⟩ : BufTy).Contents (Elt F) → (⟨S51200x64, .f32⟩ : BufTy).Contents (Elt F) → (⟨S51200x64, .f32⟩ : BufTy).Contents (Elt F)),
    StableHlo.TRef.nullary main_call9.cst (constant S_ .f32 0x00000000#32),
    StableHlo.TRef.unary main_call9.cst main_call9.v0 (broadcastInDim S51200x64 ![] bcast_S_S51200x64),
    StableHlo.TRef.binary (.of main_v239 : StableHlo.TRef sig ⟨S51200x64, .f32⟩) main_call9.v0 main_call9.v1 maximumf ]

/-- Operations 352 … 376 of the 712 (the last one writes main_v261). -/
abbrev q17 : List (HloOp τ sig (Elt F)) :=
  [ StableHlo.unary main_arg14 main_v241 ((extractStridedSlice S1x6x64 ![3, 0, 0] · slices_S5x6x64_S1x6x64_3_0_0) : (⟨S5x6x64, .f32⟩ : BufTy).Contents (Elt F) → (⟨S1x6x64, .f32⟩ : BufTy).Contents (Elt F)),
    StableHlo.reshape main_v241 main_v242 rfl shapeCasts_S1x6x64_S6x64,
    StableHlo.unary main_v10 main_v243 ((extractStridedSlice S870400x1 ![0, 0] · slices_S870400x2_S870400x1_0_0) : (⟨S870400x2, .i32⟩ : BufTy).Contents (Elt F) → (⟨S870400x1, .i32⟩ : BufTy).Contents (Elt F)),
    StableHlo.reshape main_v243 main_v244 rfl shapeCasts_S870400x1_S870400,
    StableHlo.nullary main_c_32 (constantI S_ 32 0#32),
    StableHlo.unary main_c_32 main_v245 (broadcastInDim S870400 ![] bcast_S_S870400 : (⟨S_, .i32⟩ : BufTy).Contents (Elt F) → (⟨S870400, .i32⟩ : BufTy).Contents (Elt F)),
    StableHlo.binary main_v244 main_v245 main_v246 (cmpi .slt : (⟨S870400, .i32⟩ : BufTy).Contents (Elt F) → (⟨S870400, .i32⟩ : BufTy).Contents (Elt F) → (⟨S870400, .i1⟩ : BufTy).Contents (Elt F)),
    StableHlo.nullary main_c_33 (constantI S_ 32 6#32),
    StableHlo.unary main_c_33 main_v247 (broadcastInDim S870400 ![] bcast_S_S870400 : (⟨S_, .i32⟩ : BufTy).Contents (Elt F) → (⟨S870400, .i32⟩ : BufTy).Contents (Elt F)),
    StableHlo.binary main_v244 main_v247 main_v248 (addi : (⟨S870400, .i32⟩ : BufTy).Contents (Elt F) → (⟨S870400, .i32⟩ : BufTy).Contents (Elt F) → (⟨S870400, .i32⟩ : BufTy).Contents (Elt F)),
    StableHlo.ternary main_v246 main_v248 main_v244 main_v249 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v249 main_v250 (broadcastInDim S870400x1 ![0] bcast_S870400_S870400x1_0 : (⟨S870400, .i32⟩ : BufTy).Contents (Elt F) → (⟨S870400x1, .i32⟩ : BufTy).Contents (Elt F)),
    StableHlo.binary main_v242 main_v250 main_v251 ((fun x i => Host.gather gather_S6x64_S870400x1_S870400x64_1_0_n_n_0_1_164 x i) : (⟨S6x64, .f32⟩ : BufTy).Contents (Elt F) → (⟨S870400x1, .i32⟩ : BufTy).Contents (Elt F) → (⟨S870400x64, .f32⟩ : BufTy).Contents (Elt F)),
    StableHlo.unary main_arg15 main_v252 ((extractStridedSlice S1x3x64 ![3, 0, 0] · slices_S5x3x64_S1x3x64_3_0_0) : (⟨S5x3x64, .f32⟩ : BufTy).Contents (Elt F) → (⟨S1x3x64, .f32⟩ : BufTy).Contents (Elt F)),
    StableHlo.reshape main_v252 main_v253 rfl shapeCasts_S1x3x64_S3x64,
    StableHlo.unary main_v10 main_v254 ((extractStridedSlice S870400x1 ![0, 1] · slices_S870400x2_S870400x1_0_1) : (⟨S870400x2, .i32⟩ : BufTy).Contents (Elt F) → (⟨S870400x1, .i32⟩ : BufTy).Contents (Elt F)),
    StableHlo.reshape main_v254 main_v255 rfl shapeCasts_S870400x1_S870400,
    StableHlo.nullary main_c_34 (constantI S_ 32 0#32),
    StableHlo.unary main_c_34 main_v256 (broadcastInDim S870400 ![] bcast_S_S870400 : (⟨S_, .i32⟩ : BufTy).Contents (Elt F) → (⟨S870400, .i32⟩ : BufTy).Contents (Elt F)),
    StableHlo.binary main_v255 main_v256 main_v257 (cmpi .slt : (⟨S870400, .i32⟩ : BufTy).Contents (Elt F) → (⟨S870400, .i32⟩ : BufTy).Contents (Elt F) → (⟨S870400, .i1⟩ : BufTy).Contents (Elt F)),
    StableHlo.nullary main_c_35 (constantI S_ 32 3#32),
    StableHlo.unary main_c_35 main_v258 (broadcastInDim S870400 ![] bcast_S_S870400 : (⟨S_, .i32⟩ : BufTy).Contents (Elt F) → (⟨S870400, .i32⟩ : BufTy).Contents (Elt F)),
    StableHlo.binary main_v255 main_v258 main_v259 (addi : (⟨S870400, .i32⟩ : BufTy).Contents (Elt F) → (⟨S870400, .i32⟩ : BufTy).Contents (Elt F) → (⟨S870400, .i32⟩ : BufTy).Contents (Elt F)),
    StableHlo.ternary main_v257 main_v259 main_v255 main_v260 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v260 main_v261 (broadcastInDim S870400x1 ![0] bcast_S870400_S870400x1_0 : (⟨S870400, .i32⟩ : BufTy).Contents (Elt F) → (⟨S870400x1, .i32⟩ : BufTy).Contents (Elt F)) ]

end Cert.ReferenceIdeal.Hand

end
-- ==== Proof.RefOps5.lean ====
/- The operations of the reference program's @main, statements of its window main_part5 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 377 … 392 of the 712 (the last one writes main_v274). -/
abbrev q18 : List (HloOp τ sig (Elt F)) :=
  [ StableHlo.binary main_v253 main_v261 main_v262 ((fun x i => Host.gather gather_S3x64_S870400x1_S870400x64_1_0_n_n_0_1_164 x i) : (⟨S3x64, .f32⟩ : BufTy).Contents (Elt F) → (⟨S870400x1, .i32⟩ : BufTy).Contents (Elt F) → (⟨S870400x64, .f32⟩ : BufTy).Contents (Elt F)),
    StableHlo.binary main_v251 main_v262 main_v263 (addf : (⟨S870400x64, .f32⟩ : BufTy).Contents (Elt F) → (⟨S870400x64, .f32⟩ : BufTy).Contents (Elt F) → (⟨S870400x64, .f32⟩ : BufTy).Contents (Elt F)),
    StableHlo.nullary main_c_36 (constantI S_ 32 0#32),
    StableHlo.unary main_c_36 main_v264 (broadcastInDim S870400 ![] bcast_S_S870400 : (⟨S_, .i32⟩ : BufTy).Contents (Elt F) → (⟨S870400, .i32⟩ : BufTy).Contents (Elt F)),
    StableHlo.binary main_v3 main_v264 main_v265 (cmpi .slt : (⟨S870400, .i32⟩ : BufTy).Contents (Elt F) → (⟨S870400, .i32⟩ : BufTy).Contents (Elt F) → (⟨S870400, .i1⟩ : BufTy).Contents (Elt F)),
    StableHlo.nullary main_c_37 (constantI S_ 32 51200#32),
    StableHlo.unary main_c_37 main_v266 (broadcastInDim S870400 ![] bcast_S_S870400 : (⟨S_, .i32⟩ : BufTy).Contents (Elt F) → (⟨S870400, .i32⟩ : BufTy).Contents (Elt F)),
    StableHlo.binary main_v3 main_v266 main_v267 (addi : (⟨S870400, .i32⟩ : BufTy).Contents (Elt F) → (⟨S870400, .i32⟩ : BufTy).Contents (Elt F) → (⟨S870400, .i32⟩ : BufTy).Contents (Elt F)),
    StableHlo.ternary main_v265 main_v267 main_v3 main_v268 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v268 main_v269 (broadcastInDim S870400x1 ![0] bcast_S870400_S870400x1_0 : (⟨S870400, .i32⟩ : BufTy).Contents (Elt F) → (⟨S870400x1, .i32⟩ : BufTy).Contents (Elt F)),
    StableHlo.binary main_v240 main_v269 main_v270 ((fun x i => Host.gather gather_S51200x64_S870400x1_S870400x64_1_0_n_n_0_1_164 x i) : (⟨S51200x64, .f32⟩ : BufTy).Contents (Elt F) → (⟨S870400x1, .i32⟩ : BufTy).Contents (Elt F) → (⟨S870400x64, .f32⟩ : BufTy).Contents (Elt F)),
    StableHlo.binary main_v270 main_v263 main_v271 (addf : (⟨S870400x64, .f32⟩ : BufTy).Contents (Elt F) → (⟨S870400x64, .f32⟩ : BufTy).Contents (Elt F) → (⟨S870400x64, .f32⟩ : BufTy).Contents (Elt F)),
    StableHlo.nullary main_cst_38 (constant S_ .f32 0x00000000#32),
    StableHlo.unary main_cst_38 main_v272 (broadcastInDim S51200x64 ![] bcast_S_S51200x64 : (⟨S_, .f32⟩ : BufTy).Contents (Elt F) → (⟨S51200x64, .f32⟩ : BufTy).Contents (Elt F)),
    StableHlo.unary main_v6 main_v273 (broadcastInDim S870400x1 ![0] bcast_S870400_S870400x1_0 : (⟨S870400, .i32⟩ : BufTy).Contents (Elt F) → (⟨S870400x1, .i32⟩ : BufTy).Contents (Elt F)),
    StableHlo.ternary main_v272 main_v273 main_v271 main_v274 ((fun x i u => Host.scatterAdd scatter_S51200x64_S870400x1_S870400x64_1_0_0_1 x i u) : (⟨S51200x64, .f32⟩ : BufTy).Contents (Elt F) → (⟨S870400x1, .i32⟩ : BufTy).Contents (Elt F) → (⟨S870400x64, .f32⟩ : BufTy).Contents (Elt F) → (⟨S51200x64, .f32⟩ : BufTy).Contents (Elt F)) ]

/-- Operations 393 … 411 of the 712 (the last one writes main_v291). -/
abbrev q19 : List (HloOp τ sig (Elt F)) :=
  [ StableHlo.unary main_arg10 main_v275 ((extractStridedSlice S1x64x128 ![3, 0, 0] · slices_S5x64x128_S1x64x128_3_0_0) : (⟨S5x64x128, .f32⟩ : BufTy).Contents (Elt F) → (⟨S1x64x128, .f32⟩ : BufTy).Contents (Elt F)),
    StableHlo.reshape main_v275 main_v276 rfl shapeCasts_S1x64x128_S64x128,
    StableHlo.binary main_v274 main_v276 main_v277 ((fun l r => Host.dotGeneral dot_S51200x64_S64x128_S51200x128_1_0_0_1_n_n none l r) : (⟨S51200x64, .f32⟩ : BufTy).Contents (Elt F) → (⟨S64x128, .f32⟩ : BufTy).Contents (Elt F) → (⟨S51200x128, .f32⟩ : BufTy).Contents (Elt F)),
    StableHlo.unary main_arg11 main_v278 ((extractStridedSlice S1x128 ![3, 0] · slices_S5x128_S1x128_3_0) : (⟨S5x128, .f32⟩ : BufTy).Contents (Elt F) → (⟨S1x128, .f32⟩ : BufTy).Contents (Elt F)),
    StableHlo.reshape main_v278 main_v279 rfl shapeCasts_S1x128_S128,
    StableHlo.unary main_v279 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S51200x128 ![0, 1] bcast_S1x128_S51200x128_0_1 : (⟨S1x128, .f32⟩ : BufTy).Contents (Elt F) → (⟨S51200x128, .f32⟩ : BufTy).Contents (Elt F)),
    StableHlo.binary main_v277 main_v281 main_v282 (addf : (⟨S51200x128, .f32⟩ : BufTy).Contents (Elt F) → (⟨S51200x128, .f32⟩ : BufTy).Contents (Elt F) → (⟨S51200x128, .f32⟩ : BufTy).Contents (Elt F)),
    StableHlo.TRef.nullary main_call10.cst (constant S_ .f32 0x00000000#32),
    StableHlo.TRef.unary main_call10.cst main_call10.v0 (broadcastInDim S51200x128 ![] bcast_S_S51200x128),
    StableHlo.TRef.binary (.of main_v282 : StableHlo.TRef sig ⟨S51200x128, .f32⟩) main_call10.v0 main_call10.v1 maximumf,
    StableHlo.unary main_arg12 main_v284 ((extractStridedSlice S1x128x64 ![3, 0, 0] · slices_S5x128x64_S1x128x64_3_0_0) : (⟨S5x128x64, .f32⟩ : BufTy).Contents (Elt F) → (⟨S1x128x64, .f32⟩ : BufTy).Contents (Elt F)),
    StableHlo.reshape main_v284 main_v285 rfl shapeCasts_S1x128x64_S128x64,
    StableHlo.binary main_v283 main_v285 main_v286 ((fun l r => Host.dotGeneral dot_S51200x128_S128x64_S51200x64_1_0_0_1_n_n none l r) : (⟨S51200x128, .f32⟩ : BufTy).Contents (Elt F) → (⟨S128x64, .f32⟩ : BufTy).Contents (Elt F) → (⟨S51200x64, .f32⟩ : BufTy).Contents (Elt F)),
    StableHlo.unary main_arg13 main_v287 ((extractStridedSlice S1x64 ![3, 0] · slices_S5x64_S1x64_3_0) : (⟨S5x64, .f32⟩ : BufTy).Contents (Elt F) → (⟨S1x64, .f32⟩ : BufTy).Contents (Elt F)),
    StableHlo.reshape main_v287 main_v288 rfl shapeCasts_S1x64_S64,
    StableHlo.unary main_v288 main_v289 (broadcastInDim S1x64 ![1] bcast_S64_S1x64_1 : (⟨S64, .f32⟩ : BufTy).Contents (Elt F) → (⟨S1x64, .f32⟩ : BufTy).Contents (Elt F)),
    StableHlo.unary main_v289 main_v290 (broadcastInDim S51200x64 ![0, 1] bcast_S1x64_S51200x64_0_1 : (⟨S1x64, .f32⟩ : BufTy).Contents (Elt F) → (⟨S51200x64, .f32⟩ : BufTy).Contents (Elt F)),
    StableHlo.binary main_v286 main_v290 main_v291 (addf : (⟨S51200x64, .f32⟩ : BufTy).Contents (Elt F) → (⟨S51200x64, .f32⟩ : BufTy).Contents (Elt F) → (⟨S51200x64, .f32⟩ : BufTy).Contents (Elt F)) ]

/-- Operations 412 … 439 of the 712 (the last one writes main_v295). -/
abbrev q20 : List (HloOp τ sig (Elt F)) :=
  [ StableHlo.nullary main_cst_39 (constant S_ .f32 0x00000000#32),
    StableHlo.binary main_v291 main_cst_39 main_v292 ((fun x v => Host.reduceAdd x v reducesTo_S51200x64_S64_d0 h_S_) : (⟨S51200x64, .f32⟩ : BufTy).Contents (Elt F) → (⟨S_, .f32⟩ : BufTy).Contents (Elt F) → (⟨S64, .f32⟩ : BufTy).Contents (Elt F)),
    StableHlo.nullary main_cst_40 (constant S_ .f32 0x47480000#32),
    StableHlo.unary main_cst_40 main_v293 (broadcastInDim S64 ![] bcast_S_S64 : (⟨S_, .f32⟩ : BufTy).Contents (Elt F) → (⟨S64, .f32⟩ : BufTy).Contents (Elt F)),
    StableHlo.binary main_v292 main_v293 main_v294 (Host.divf : (⟨S64, .f32⟩ : BufTy).Contents (Elt F) → (⟨S64, .f32⟩ : BufTy).Contents (Elt F) → (⟨S64, .f32⟩ : BufTy).Contents (Elt F)),
    StableHlo.nullary main_c_41 (constantI S_ 32 0#32),
    StableHlo.TRef.nullary main_call11.cst (constant S_ .f32 0x00000000#32),
    StableHlo.TRef.binary (.of main_v291 : StableHlo.TRef sig ⟨S51200x64, .f32⟩) main_call11.cst main_call11.v0 (fun x v => Host.reduceAdd x v reducesTo_S51200x64_S64_d0 h_S_),
    StableHlo.TRef.unary main_call11.v0 main_call11.v1 (broadcastInDim S1x64 ![1] bcast_S64_S1x64_1),
    StableHlo.TRef.nullary main_call11.cst_0 (constant S_ .f32 0x47480000#32),
    StableHlo.TRef.unary main_call11.cst_0 main_call11.v2 (broadcastInDim S1x64 ![] bcast_S_S1x64),
    StableHlo.TRef.binary main_call11.v1 main_call11.v2 main_call11.v3 Host.divf,
    StableHlo.TRef.unary main_call11.v3 main_call11.v4 (broadcastInDim S51200x64 ![0, 1] bcast_S1x64_S51200x64_0_1),
    StableHlo.TRef.binary (.of main_v291 : StableHlo.TRef sig ⟨S51200x64, .f32⟩) main_call11.v4 main_call11.v5 subf,
    StableHlo.TRef.binary main_call11.v5 main_call11.v5 main_call11.v6 mulf,
    StableHlo.TRef.unary (.of main_c_41 : StableHlo.TRef sig ⟨S_, .i32⟩) main_call11.v7 (sitofp .f32),
    StableHlo.TRef.nullary main_call11.cst_1 (constant S_ .f32 0x47480000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S51200x64_S64_d0 h_S_),
    StableHlo.TRef.unary main_call11.v8 main_call11.v10 (broadcastInDim S64 ![] bcast_S_S64),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S64 ![] bcast_S_S64),
    StableHlo.TRef.ternary main_call11.v12 main_call11.v11 main_call11.call0.v1 main_call11.call0.v2 (fun p a b => select (broadcastInDim S64 ![] bcast_S_S64 p) a b) ]

/-- Operations 440 … 459 of the 712 (the last one writes main_v314). -/
abbrev q21 : List (HloOp τ sig (Elt F)) :=
  [ StableHlo.unary main_v294 main_v296 (broadcastInDim S1x64 ![1] bcast_S64_S1x64_1 : (⟨S64, .f32⟩ : BufTy).Contents (Elt F) → (⟨S1x64, .f32⟩ : BufTy).Contents (Elt F)),
    StableHlo.unary main_v296 main_v297 (broadcastInDim S51200x64 ![0, 1] bcast_S1x64_S51200x64_0_1 : (⟨S1x64, .f32⟩ : BufTy).Contents (Elt F) → (⟨S51200x64, .f32⟩ : BufTy).Contents (Elt F)),
    StableHlo.binary main_v291 main_v297 main_v298 (subf : (⟨S51200x64, .f32⟩ : BufTy).Contents (Elt F) → (⟨S51200x64, .f32⟩ : BufTy).Contents (Elt F) → (⟨S51200x64, .f32⟩ : BufTy).Contents (Elt F)),
    StableHlo.nullary main_cst_42 (constant S_ .f32 0x3727C5AC#32),
    StableHlo.unary main_cst_42 main_v299 (broadcastInDim S64 ![] bcast_S_S64 : (⟨S_, .f32⟩ : BufTy).Contents (Elt F) → (⟨S64, .f32⟩ : BufTy).Contents (Elt F)),
    StableHlo.binary main_v295 main_v299 main_v300 (addf : (⟨S64, .f32⟩ : BufTy).Contents (Elt F) → (⟨S64, .f32⟩ : BufTy).Contents (Elt F) → (⟨S64, .f32⟩ : BufTy).Contents (Elt F)),
    StableHlo.unary main_v300 main_v301 (Host.sqrt : (⟨S64, .f32⟩ : BufTy).Contents (Elt F) → (⟨S64, .f32⟩ : BufTy).Contents (Elt F)),
    StableHlo.unary main_v301 main_v302 (broadcastInDim S1x64 ![1] bcast_S64_S1x64_1 : (⟨S64, .f32⟩ : BufTy).Contents (Elt F) → (⟨S1x64, .f32⟩ : BufTy).Contents (Elt F)),
    StableHlo.unary main_v302 main_v303 (broadcastInDim S51200x64 ![0, 1] bcast_S1x64_S51200x64_0_1 : (⟨S1x64, .f32⟩ : BufTy).Contents (Elt F) → (⟨S51200x64, .f32⟩ : BufTy).Contents (Elt F)),
    StableHlo.binary main_v298 main_v303 main_v304 (Host.divf : (⟨S51200x64, .f32⟩ : BufTy).Contents (Elt F) → (⟨S51200x64, .f32⟩ : BufTy).Contents (Elt F) → (⟨S51200x64, .f32⟩ : BufTy).Contents (Elt F)),
    StableHlo.unary main_arg16 main_v305 ((extractStridedSlice S1x64 ![3, 0] · slices_S5x64_S1x64_3_0) : (⟨S5x64, .f32⟩ : BufTy).Contents (Elt F) → (⟨S1x64, .f32⟩ : BufTy).Contents (Elt F)),
    StableHlo.reshape main_v305 main_v306 rfl shapeCasts_S1x64_S64,
    StableHlo.unary main_v306 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S51200x64 ![0, 1] bcast_S1x64_S51200x64_0_1 : (⟨S1x64, .f32⟩ : BufTy).Contents (Elt F) → (⟨S51200x64, .f32⟩ : BufTy).Contents (Elt F)),
    StableHlo.binary main_v304 main_v308 main_v309 (mulf : (⟨S51200x64, .f32⟩ : BufTy).Contents (Elt F) → (⟨S51200x64, .f32⟩ : BufTy).Contents (Elt F) → (⟨S51200x64, .f32⟩ : BufTy).Contents (Elt F)),
    StableHlo.unary main_arg17 main_v310 ((extractStridedSlice S1x64 ![3, 0] · slices_S5x64_S1x64_3_0) : (⟨S5x64, .f32⟩ : BufTy).Contents (Elt F) → (⟨S1x64, .f32⟩ : BufTy).Contents (Elt F)),
    StableHlo.reshape main_v310 main_v311 rfl shapeCasts_S1x64_S64,
    StableHlo.unary main_v311 main_v312 (broadcastInDim S1x64 ![1] bcast_S64_S1x64_1 : (⟨S64, .f32⟩ : BufTy).Contents (Elt F) → (⟨S1x64, .f32⟩ : BufTy).Contents (Elt F)),
    StableHlo.unary main_v312 main_v313 (broadcastInDim S51200x64 ![0, 1] bcast_S1x64_S51200x64_0_1 : (⟨S1x64, .f32⟩ : BufTy).Contents (Elt F) → (⟨S51200x64, .f32⟩ : BufTy).Contents (Elt F)),
    StableHlo.binary main_v309 main_v313 main_v314 (addf : (⟨S51200x64, .f32⟩ : BufTy).Contents (Elt F) → (⟨S51200x64, .f32⟩ : BufTy).Contents (Elt F) → (⟨S51200x64, .f32⟩ : BufTy).Contents (Elt F)) ]

end Cert.ReferenceIdeal.Hand

end
-- ==== Proof.RefOps6.lean ====
/- The operations of the reference program's @main, statements of its window main_part6 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 460 … 462 of the 712 (the last one writes main_v315). -/
abbrev q22 : List (HloOp τ sig (Elt F)) :=
  [ StableHlo.TRef.nullary main_call12.cst (constant S_ .f32 0x00000000#32),
    StableHlo.TRef.unary main_call12.cst main_call12.v0 (broadcastInDim S51200x64 ![] bcast_S_S51200x64),
    StableHlo.TRef.binary (.of main_v314 : StableHlo.TRef sig ⟨S51200x64, .f32⟩) main_call12.v0 main_call12.v1 maximumf ]

/-- Operations 463 … 503 of the 712 (the last one writes main_v349). -/
abbrev q23 : List (HloOp τ sig (Elt F)) :=
  [ StableHlo.unary main_arg14 main_v316 ((extractStridedSlice S1x6x64 ![4, 0, 0] · slices_S5x6x64_S1x6x64_4_0_0) : (⟨S5x6x64, .f32⟩ : BufTy).Contents (Elt F) → (⟨S1x6x64, .f32⟩ : BufTy).Contents (Elt F)),
    StableHlo.reshape main_v316 main_v317 rfl shapeCasts_S1x6x64_S6x64,
    StableHlo.unary main_v10 main_v318 ((extractStridedSlice S870400x1 ![0, 0] · slices_S870400x2_S870400x1_0_0) : (⟨S870400x2, .i32⟩ : BufTy).Contents (Elt F) → (⟨S870400x1, .i32⟩ : BufTy).Contents (Elt F)),
    StableHlo.reshape main_v318 main_v319 rfl shapeCasts_S870400x1_S870400,
    StableHlo.nullary main_c_43 (constantI S_ 32 0#32),
    StableHlo.unary main_c_43 main_v320 (broadcastInDim S870400 ![] bcast_S_S870400 : (⟨S_, .i32⟩ : BufTy).Contents (Elt F) → (⟨S870400, .i32⟩ : BufTy).Contents (Elt F)),
    StableHlo.binary main_v319 main_v320 main_v321 (cmpi .slt : (⟨S870400, .i32⟩ : BufTy).Contents (Elt F) → (⟨S870400, .i32⟩ : BufTy).Contents (Elt F) → (⟨S870400, .i1⟩ : BufTy).Contents (Elt F)),
    StableHlo.nullary main_c_44 (constantI S_ 32 6#32),
    StableHlo.unary main_c_44 main_v322 (broadcastInDim S870400 ![] bcast_S_S870400 : (⟨S_, .i32⟩ : BufTy).Contents (Elt F) → (⟨S870400, .i32⟩ : BufTy).Contents (Elt F)),
    StableHlo.binary main_v319 main_v322 main_v323 (addi : (⟨S870400, .i32⟩ : BufTy).Contents (Elt F) → (⟨S870400, .i32⟩ : BufTy).Contents (Elt F) → (⟨S870400, .i32⟩ : BufTy).Contents (Elt F)),
    StableHlo.ternary main_v321 main_v323 main_v319 main_v324 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v324 main_v325 (broadcastInDim S870400x1 ![0] bcast_S870400_S870400x1_0 : (⟨S870400, .i32⟩ : BufTy).Contents (Elt F) → (⟨S870400x1, .i32⟩ : BufTy).Contents (Elt F)),
    StableHlo.binary main_v317 main_v325 main_v326 ((fun x i => Host.gather gather_S6x64_S870400x1_S870400x64_1_0_n_n_0_1_164 x i) : (⟨S6x64, .f32⟩ : BufTy).Contents (Elt F) → (⟨S870400x1, .i32⟩ : BufTy).Contents (Elt F) → (⟨S870400x64, .f32⟩ : BufTy).Contents (Elt F)),
    StableHlo.unary main_arg15 main_v327 ((extractStridedSlice S1x3x64 ![4, 0, 0] · slices_S5x3x64_S1x3x64_4_0_0) : (⟨S5x3x64, .f32⟩ : BufTy).Contents (Elt F) → (⟨S1x3x64, .f32⟩ : BufTy).Contents (Elt F)),
    StableHlo.reshape main_v327 main_v328 rfl shapeCasts_S1x3x64_S3x64,
    StableHlo.unary main_v10 main_v329 ((extractStridedSlice S870400x1 ![0, 1] · slices_S870400x2_S870400x1_0_1) : (⟨S870400x2, .i32⟩ : BufTy).Contents (Elt F) → (⟨S870400x1, .i32⟩ : BufTy).Contents (Elt F)),
    StableHlo.reshape main_v329 main_v330 rfl shapeCasts_S870400x1_S870400,
    StableHlo.nullary main_c_45 (constantI S_ 32 0#32),
    StableHlo.unary main_c_45 main_v331 (broadcastInDim S870400 ![] bcast_S_S870400 : (⟨S_, .i32⟩ : BufTy).Contents (Elt F) → (⟨S870400, .i32⟩ : BufTy).Contents (Elt F)),
    StableHlo.binary main_v330 main_v331 main_v332 (cmpi .slt : (⟨S870400, .i32⟩ : BufTy).Contents (Elt F) → (⟨S870400, .i32⟩ : BufTy).Contents (Elt F) → (⟨S870400, .i1⟩ : BufTy).Contents (Elt F)),
    StableHlo.nullary main_c_46 (constantI S_ 32 3#32),
    StableHlo.unary main_c_46 main_v333 (broadcastInDim S870400 ![] bcast_S_S870400 : (⟨S_, .i32⟩ : BufTy).Contents (Elt F) → (⟨S870400, .i32⟩ : BufTy).Contents (Elt F)),
    StableHlo.binary main_v330 main_v333 main_v334 (addi : (⟨S870400, .i32⟩ : BufTy).Contents (Elt F) → (⟨S870400, .i32⟩ : BufTy).Contents (Elt F) → (⟨S870400, .i32⟩ : BufTy).Contents (Elt F)),
    StableHlo.ternary main_v332 main_v334 main_v330 main_v335 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v335 main_v336 (broadcastInDim S870400x1 ![0] bcast_S870400_S870400x1_0 : (⟨S870400, .i32⟩ : BufTy).Contents (Elt F) → (⟨S870400x1, .i32⟩ : BufTy).Contents (Elt F)),
    StableHlo.binary main_v328 main_v336 main_v337 ((fun x i => Host.gather gather_S3x64_S870400x1_S870400x64_1_0_n_n_0_1_164 x i) : (⟨S3x64, .f32⟩ : BufTy).Contents (Elt F) → (⟨S870400x1, .i32⟩ : BufTy).Contents (Elt F) → (⟨S870400x64, .f32⟩ : BufTy).Contents (Elt F)),
    StableHlo.binary main_v326 main_v337 main_v338 (addf : (⟨S870400x64, .f32⟩ : BufTy).Contents (Elt F) → (⟨S870400x64, .f32⟩ : BufTy).Contents (Elt F) → (⟨S870400x64, .f32⟩ : BufTy).Contents (Elt F)),
    StableHlo.nullary main_c_47 (constantI S_ 32 0#32),
    StableHlo.unary main_c_47 main_v339 (broadcastInDim S870400 ![] bcast_S_S870400 : (⟨S_, .i32⟩ : BufTy).Contents (Elt F) → (⟨S870400, .i32⟩ : BufTy).Contents (Elt F)),
    StableHlo.binary main_v3 main_v339 main_v340 (cmpi .slt : (⟨S870400, .i32⟩ : BufTy).Contents (Elt F) → (⟨S870400, .i32⟩ : BufTy).Contents (Elt F) → (⟨S870400, .i1⟩ : BufTy).Contents (Elt F)),
    StableHlo.nullary main_c_48 (constantI S_ 32 51200#32),
    StableHlo.unary main_c_48 main_v341 (broadcastInDim S870400 ![] bcast_S_S870400 : (⟨S_, .i32⟩ : BufTy).Contents (Elt F) → (⟨S870400, .i32⟩ : BufTy).Contents (Elt F)),
    StableHlo.binary main_v3 main_v341 main_v342 (addi : (⟨S870400, .i32⟩ : BufTy).Contents (Elt F) → (⟨S870400, .i32⟩ : BufTy).Contents (Elt F) → (⟨S870400, .i32⟩ : BufTy).Contents (Elt F)),
    StableHlo.ternary main_v340 main_v342 main_v3 main_v343 (select : (⟨S870400, .i1⟩ : BufTy).Contents (Elt F) → (⟨S870400, .i32⟩ : BufTy).Contents (Elt F) → (⟨S870400, .i32⟩ : BufTy).Contents (Elt F) → (⟨S870400, .i32⟩ : BufTy).Contents (Elt F)),
    StableHlo.unary main_v343 main_v344 (broadcastInDim S870400x1 ![0] bcast_S870400_S870400x1_0 : (⟨S870400, .i32⟩ : BufTy).Contents (Elt F) → (⟨S870400x1, .i32⟩ : BufTy).Contents (Elt F)),
    StableHlo.binary main_v315 main_v344 main_v345 ((fun x i => Host.gather gather_S51200x64_S870400x1_S870400x64_1_0_n_n_0_1_164 x i) : (⟨S51200x64, .f32⟩ : BufTy).Contents (Elt F) → (⟨S870400x1, .i32⟩ : BufTy).Contents (Elt F) → (⟨S870400x64, .f32⟩ : BufTy).Contents (Elt F)),
    StableHlo.binary main_v345 main_v338 main_v346 (addf : (⟨S870400x64, .f32⟩ : BufTy).Contents (Elt F) → (⟨S870400x64, .f32⟩ : BufTy).Contents (Elt F) → (⟨S870400x64, .f32⟩ : BufTy).Contents (Elt F)),
    StableHlo.nullary main_cst_49 (constant S_ .f32 0x00000000#32),
    StableHlo.unary main_cst_49 main_v347 (broadcastInDim S51200x64 ![] bcast_S_S51200x64 : (⟨S_, .f32⟩ : BufTy).Contents (Elt F) → (⟨S51200x64, .f32⟩ : BufTy).Contents (Elt F)),
    StableHlo.unary main_v6 main_v348 (broadcastInDim S870400x1 ![0] bcast_S870400_S870400x1_0 : (⟨S870400, .i32⟩ : BufTy).Contents (Elt F) → (⟨S870400x1, .i32⟩ : BufTy).Contents (Elt F)),
    StableHlo.ternary main_v347 main_v348 main_v346 main_v349 ((fun x i u => Host.scatterAdd scatter_S51200x64_S870400x1_S870400x64_1_0_0_1 x i u) : (⟨S51200x64, .f32⟩ : BufTy).Contents (Elt F) → (⟨S870400x1, .i32⟩ : BufTy).Contents (Elt F) → (⟨S870400x64, .f32⟩ : BufTy).Contents (Elt F) → (⟨S51200x64, .f32⟩ : BufTy).Contents (Elt F)) ]

/-- Operations 504 … 522 of the 712 (the last one writes main_v366). -/
abbrev q24 : List (HloOp τ sig (Elt F)) :=
  [ StableHlo.unary main_arg10 main_v350 ((extractStridedSlice S1x64x128 ![4, 0, 0] · slices_S5x64x128_S1x64x128_4_0_0) : (⟨S5x64x128, .f32⟩ : BufTy).Contents (Elt F) → (⟨S1x64x128, .f32⟩ : BufTy).Contents (Elt F)),
    StableHlo.reshape main_v350 main_v351 rfl shapeCasts_S1x64x128_S64x128,
    StableHlo.binary main_v349 main_v351 main_v352 ((fun l r => Host.dotGeneral dot_S51200x64_S64x128_S51200x128_1_0_0_1_n_n none l r) : (⟨S51200x64, .f32⟩ : BufTy).Contents (Elt F) → (⟨S64x128, .f32⟩ : BufTy).Contents (Elt F) → (⟨S51200x128, .f32⟩ : BufTy).Contents (Elt F)),
    StableHlo.unary main_arg11 main_v353 ((extractStridedSlice S1x128 ![4, 0] · slices_S5x128_S1x128_4_0) : (⟨S5x128, .f32⟩ : BufTy).Contents (Elt F) → (⟨S1x128, .f32⟩ : BufTy).Contents (Elt F)),
    StableHlo.reshape main_v353 main_v354 rfl shapeCasts_S1x128_S128,
    StableHlo.unary main_v354 main_v355 (broadcastInDim S1x128 ![1] bcast_S128_S1x128_1 : (⟨S128, .f32⟩ : BufTy).Contents (Elt F) → (⟨S1x128, .f32⟩ : BufTy).Contents (Elt F)),
    StableHlo.unary main_v355 main_v356 (broadcastInDim S51200x128 ![0, 1] bcast_S1x128_S51200x128_0_1 : (⟨S1x128, .f32⟩ : BufTy).Contents (Elt F) → (⟨S51200x128, .f32⟩ : BufTy).Contents (Elt F)),
    StableHlo.binary main_v352 main_v356 main_v357 (addf : (⟨S51200x128, .f32⟩ : BufTy).Contents (Elt F) → (⟨S51200x128, .f32⟩ : BufTy).Contents (Elt F) → (⟨S51200x128, .f32⟩ : BufTy).Contents (Elt F)),
    StableHlo.TRef.nullary main_call13.cst (constant S_ .f32 0x00000000#32),
    StableHlo.TRef.unary main_call13.cst main_call13.v0 (broadcastInDim S51200x128 ![] bcast_S_S51200x128),
    StableHlo.TRef.binary (.of main_v357 : StableHlo.TRef sig ⟨S51200x128, .f32⟩) main_call13.v0 main_call13.v1 maximumf,
    StableHlo.unary main_arg12 main_v359 ((extractStridedSlice S1x128x64 ![4, 0, 0] · slices_S5x128x64_S1x128x64_4_0_0) : (⟨S5x128x64, .f32⟩ : BufTy).Contents (Elt F) → (⟨S1x128x64, .f32⟩ : BufTy).Contents (Elt F)),
    StableHlo.reshape main_v359 main_v360 rfl shapeCasts_S1x128x64_S128x64,
    StableHlo.binary main_v358 main_v360 main_v361 ((fun l r => Host.dotGeneral dot_S51200x128_S128x64_S51200x64_1_0_0_1_n_n none l r) : (⟨S51200x128, .f32⟩ : BufTy).Contents (Elt F) → (⟨S128x64, .f32⟩ : BufTy).Contents (Elt F) → (⟨S51200x64, .f32⟩ : BufTy).Contents (Elt F)),
    StableHlo.unary main_arg13 main_v362 ((extractStridedSlice S1x64 ![4, 0] · slices_S5x64_S1x64_4_0) : (⟨S5x64, .f32⟩ : BufTy).Contents (Elt F) → (⟨S1x64, .f32⟩ : BufTy).Contents (Elt F)),
    StableHlo.reshape main_v362 main_v363 rfl shapeCasts_S1x64_S64,
    StableHlo.unary main_v363 main_v364 (broadcastInDim S1x64 ![1] bcast_S64_S1x64_1 : (⟨S64, .f32⟩ : BufTy).Contents (Elt F) → (⟨S1x64, .f32⟩ : BufTy).Contents (Elt F)),
    StableHlo.unary main_v364 main_v365 (broadcastInDim S51200x64 ![0, 1] bcast_S1x64_S51200x64_0_1 : (⟨S1x64, .f32⟩ : BufTy).Contents (Elt F) → (⟨S51200x64, .f32⟩ : BufTy).Contents (Elt F)),
    StableHlo.binary main_v361 main_v365 main_v366 (addf : (⟨S51200x64, .f32⟩ : BufTy).Contents (Elt F) → (⟨S51200x64, .f32⟩ : BufTy).Contents (Elt F) → (⟨S51200x64, .f32⟩ : BufTy).Contents (Elt F)) ]

/-- Operations 523 … 523 of the 712 (the last one writes main_cst_50). -/
abbrev q25 : List (HloOp τ sig (Elt F)) :=
  [ StableHlo.nullary main_cst_50 (constant S_ .f32 0x00000000#32) ]

end Cert.ReferenceIdeal.Hand

end
-- ==== Proof.RefOps7.lean ====
/- The operations of the reference program's @main, statements of its window main_part7 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 524 … 550 of the 712 (the last one writes main_v370). -/
abbrev q26 : List (HloOp τ sig (Elt F)) :=
  [ StableHlo.binary main_v366 main_cst_50 main_v367 ((fun x v => Host.reduceAdd x v reducesTo_S51200x64_S64_d0 h_S_) : (⟨S51200x64, .f32⟩ : BufTy).Contents (Elt F) → (⟨S_, .f32⟩ : BufTy).Contents (Elt F) → (⟨S64, .f32⟩ : BufTy).Contents (Elt F)),
    StableHlo.nullary main_cst_51 (constant S_ .f32 0x47480000#32),
    StableHlo.unary main_cst_51 main_v368 (broadcastInDim S64 ![] bcast_S_S64 : (⟨S_, .f32⟩ : BufTy).Contents (Elt F) → (⟨S64, .f32⟩ : BufTy).Contents (Elt F)),
    StableHlo.binary main_v367 main_v368 main_v369 (Host.divf : (⟨S64, .f32⟩ : BufTy).Contents (Elt F) → (⟨S64, .f32⟩ : BufTy).Contents (Elt F) → (⟨S64, .f32⟩ : BufTy).Contents (Elt F)),
    StableHlo.nullary main_c_52 (constantI S_ 32 0#32),
    StableHlo.TRef.nullary main_call14.cst (constant S_ .f32 0x00000000#32),
    StableHlo.TRef.binary (.of main_v366 : StableHlo.TRef sig ⟨S51200x64, .f32⟩) main_call14.cst main_call14.v0 (fun x v => Host.reduceAdd x v reducesTo_S51200x64_S64_d0 h_S_),
    StableHlo.TRef.unary main_call14.v0 main_call14.v1 (broadcastInDim S1x64 ![1] bcast_S64_S1x64_1),
    StableHlo.TRef.nullary main_call14.cst_0 (constant S_ .f32 0x47480000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S51200x64 ![0, 1] bcast_S1x64_S51200x64_0_1),
    StableHlo.TRef.binary (.of main_v366 : StableHlo.TRef sig ⟨S51200x64, .f32⟩) main_call14.v4 main_call14.v5 subf,
    StableHlo.TRef.binary main_call14.v5 main_call14.v5 main_call14.v6 mulf,
    StableHlo.TRef.unary (.of main_c_52 : StableHlo.TRef sig ⟨S_, .i32⟩) main_call14.v7 (sitofp .f32),
    StableHlo.TRef.nullary main_call14.cst_1 (constant S_ .f32 0x47480000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S51200x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b) ]

/-- Operations 551 … 570 of the 712 (the last one writes main_v389). -/
abbrev q27 : List (HloOp τ sig (Elt F)) :=
  [ StableHlo.unary main_v369 main_v371 (broadcastInDim S1x64 ![1] bcast_S64_S1x64_1 : (⟨S64, .f32⟩ : BufTy).Contents (Elt F) → (⟨S1x64, .f32⟩ : BufTy).Contents (Elt F)),
    StableHlo.unary main_v371 main_v372 (broadcastInDim S51200x64 ![0, 1] bcast_S1x64_S51200x64_0_1 : (⟨S1x64, .f32⟩ : BufTy).Contents (Elt F) → (⟨S51200x64, .f32⟩ : BufTy).Contents (Elt F)),
    StableHlo.binary main_v366 main_v372 main_v373 (subf : (⟨S51200x64, .f32⟩ : BufTy).Contents (Elt F) → (⟨S51200x64, .f32⟩ : BufTy).Contents (Elt F) → (⟨S51200x64, .f32⟩ : BufTy).Contents (Elt F)),
    StableHlo.nullary main_cst_53 (constant S_ .f32 0x3727C5AC#32),
    StableHlo.unary main_cst_53 main_v374 (broadcastInDim S64 ![] bcast_S_S64 : (⟨S_, .f32⟩ : BufTy).Contents (Elt F) → (⟨S64, .f32⟩ : BufTy).Contents (Elt F)),
    StableHlo.binary main_v370 main_v374 main_v375 (addf : (⟨S64, .f32⟩ : BufTy).Contents (Elt F) → (⟨S64, .f32⟩ : BufTy).Contents (Elt F) → (⟨S64, .f32⟩ : BufTy).Contents (Elt F)),
    StableHlo.unary main_v375 main_v376 (Host.sqrt : (⟨S64, .f32⟩ : BufTy).Contents (Elt F) → (⟨S64, .f32⟩ : BufTy).Contents (Elt F)),
    StableHlo.unary main_v376 main_v377 (broadcastInDim S1x64 ![1] bcast_S64_S1x64_1 : (⟨S64, .f32⟩ : BufTy).Contents (Elt F) → (⟨S1x64, .f32⟩ : BufTy).Contents (Elt F)),
    StableHlo.unary main_v377 main_v378 (broadcastInDim S51200x64 ![0, 1] bcast_S1x64_S51200x64_0_1 : (⟨S1x64, .f32⟩ : BufTy).Contents (Elt F) → (⟨S51200x64, .f32⟩ : BufTy).Contents (Elt F)),
    StableHlo.binary main_v373 main_v378 main_v379 (Host.divf : (⟨S51200x64, .f32⟩ : BufTy).Contents (Elt F) → (⟨S51200x64, .f32⟩ : BufTy).Contents (Elt F) → (⟨S51200x64, .f32⟩ : BufTy).Contents (Elt F)),
    StableHlo.unary main_arg16 main_v380 ((extractStridedSlice S1x64 ![4, 0] · slices_S5x64_S1x64_4_0) : (⟨S5x64, .f32⟩ : BufTy).Contents (Elt F) → (⟨S1x64, .f32⟩ : BufTy).Contents (Elt F)),
    StableHlo.reshape main_v380 main_v381 rfl shapeCasts_S1x64_S64,
    StableHlo.unary main_v381 main_v382 (broadcastInDim S1x64 ![1] bcast_S64_S1x64_1 : (⟨S64, .f32⟩ : BufTy).Contents (Elt F) → (⟨S1x64, .f32⟩ : BufTy).Contents (Elt F)),
    StableHlo.unary main_v382 main_v383 (broadcastInDim S51200x64 ![0, 1] bcast_S1x64_S51200x64_0_1 : (⟨S1x64, .f32⟩ : BufTy).Contents (Elt F) → (⟨S51200x64, .f32⟩ : BufTy).Contents (Elt F)),
    StableHlo.binary main_v379 main_v383 main_v384 (mulf : (⟨S51200x64, .f32⟩ : BufTy).Contents (Elt F) → (⟨S51200x64, .f32⟩ : BufTy).Contents (Elt F) → (⟨S51200x64, .f32⟩ : BufTy).Contents (Elt F)),
    StableHlo.unary main_arg17 main_v385 ((extractStridedSlice S1x64 ![4, 0] · slices_S5x64_S1x64_4_0) : (⟨S5x64, .f32⟩ : BufTy).Contents (Elt F) → (⟨S1x64, .f32⟩ : BufTy).Contents (Elt F)),
    StableHlo.reshape main_v385 main_v386 rfl shapeCasts_S1x64_S64,
    StableHlo.unary main_v386 main_v387 (broadcastInDim S1x64 ![1] bcast_S64_S1x64_1 : (⟨S64, .f32⟩ : BufTy).Contents (Elt F) → (⟨S1x64, .f32⟩ : BufTy).Contents (Elt F)),
    StableHlo.unary main_v387 main_v388 (broadcastInDim S51200x64 ![0, 1] bcast_S1x64_S51200x64_0_1 : (⟨S1x64, .f32⟩ : BufTy).Contents (Elt F) → (⟨S51200x64, .f32⟩ : BufTy).Contents (Elt F)),
    StableHlo.binary main_v384 main_v388 main_v389 (addf : (⟨S51200x64, .f32⟩ : BufTy).Contents (Elt F) → (⟨S51200x64, .f32⟩ : BufTy).Contents (Elt F) → (⟨S51200x64, .f32⟩ : BufTy).Contents (Elt F)) ]

/-- Operations 571 … 586 of the 712 (the last one writes main_v401). -/
abbrev q28 : List (HloOp τ sig (Elt F)) :=
  [ StableHlo.nullary main_cst_54 (constant S_ .f32 0x00000000#32),
    StableHlo.unary main_cst_54 main_v390 (broadcastInDim S256x64 ![] bcast_S_S256x64 : (⟨S_, .f32⟩ : BufTy).Contents (Elt F) → (⟨S256x64, .f32⟩ : BufTy).Contents (Elt F)),
    StableHlo.unary main_arg3 main_v391 (broadcastInDim S51200x1 ![0] bcast_S51200_S51200x1_0 : (⟨S51200, .i32⟩ : BufTy).Contents (Elt F) → (⟨S51200x1, .i32⟩ : BufTy).Contents (Elt F)),
    StableHlo.ternary main_v390 main_v391 main_v389 main_v392 ((fun x i u => Host.scatterAdd scatter_S256x64_S51200x1_S51200x64_1_0_0_1 x i u) : (⟨S256x64, .f32⟩ : BufTy).Contents (Elt F) → (⟨S51200x1, .i32⟩ : BufTy).Contents (Elt F) → (⟨S51200x64, .f32⟩ : BufTy).Contents (Elt F) → (⟨S256x64, .f32⟩ : BufTy).Contents (Elt F)),
    StableHlo.nullary main_cst_55 (constant S_ .f32 0x3F800000#32),
    StableHlo.unary main_cst_55 main_v393 (broadcastInDim S51200 ![] bcast_S_S51200 : (⟨S_, .f32⟩ : BufTy).Contents (Elt F) → (⟨S51200, .f32⟩ : BufTy).Contents (Elt F)),
    StableHlo.nullary main_cst_56 (constant S_ .f32 0x00000000#32),
    StableHlo.unary main_cst_56 main_v394 (broadcastInDim S256 ![] bcast_S_S256 : (⟨S_, .f32⟩ : BufTy).Contents (Elt F) → (⟨S256, .f32⟩ : BufTy).Contents (Elt F)),
    StableHlo.unary main_arg3 main_v395 (broadcastInDim S51200x1 ![0] bcast_S51200_S51200x1_0 : (⟨S51200, .i32⟩ : BufTy).Contents (Elt F) → (⟨S51200x1, .i32⟩ : BufTy).Contents (Elt F)),
    StableHlo.ternary main_v394 main_v395 main_v393 main_v396 ((fun x i u => Host.scatterAdd scatter_S256_S51200x1_S51200_n_0_0_1 x i u) : (⟨S256, .f32⟩ : BufTy).Contents (Elt F) → (⟨S51200x1, .i32⟩ : BufTy).Contents (Elt F) → (⟨S51200, .f32⟩ : BufTy).Contents (Elt F) → (⟨S256, .f32⟩ : BufTy).Contents (Elt F)),
    StableHlo.nullary main_cst_57 (constant S_ .f32 0x3F800000#32),
    StableHlo.unary main_cst_57 main_v397 (broadcastInDim S256 ![] bcast_S_S256 : (⟨S_, .f32⟩ : BufTy).Contents (Elt F) → (⟨S256, .f32⟩ : BufTy).Contents (Elt F)),
    StableHlo.binary main_v396 main_v397 main_v398 (maximumf : (⟨S256, .f32⟩ : BufTy).Contents (Elt F) → (⟨S256, .f32⟩ : BufTy).Contents (Elt F) → (⟨S256, .f32⟩ : BufTy).Contents (Elt F)),
    StableHlo.unary main_v398 main_v399 (broadcastInDim S256x1 ![0] bcast_S256_S256x1_0 : (⟨S256, .f32⟩ : BufTy).Contents (Elt F) → (⟨S256x1, .f32⟩ : BufTy).Contents (Elt F)),
    StableHlo.unary main_v399 main_v400 (broadcastInDim S256x64 ![0, 1] bcast_S256x1_S256x64_0_1 : (⟨S256x1, .f32⟩ : BufTy).Contents (Elt F) → (⟨S256x64, .f32⟩ : BufTy).Contents (Elt F)),
    StableHlo.binary main_v392 main_v400 main_v401 (Host.divf : (⟨S256x64, .f32⟩ : BufTy).Contents (Elt F) → (⟨S256x64, .f32⟩ : BufTy).Contents (Elt F) → (⟨S256x64, .f32⟩ : BufTy).Contents (Elt F)) ]

/-- Operations 587 … 604 of the 712 (the last one writes main_cst_61). -/
abbrev q29 : List (HloOp τ sig (Elt F)) :=
  [ StableHlo.unary main_arg6 main_v402 ((extractStridedSlice S1x204800 ![0, 0] · slices_S2x204800_S1x204800_0_0) : (⟨S2x204800, .i32⟩ : BufTy).Contents (Elt F) → (⟨S1x204800, .i32⟩ : BufTy).Contents (Elt F)),
    StableHlo.reshape main_v402 main_v403 rfl shapeCasts_S1x204800_S204800,
    StableHlo.nullary main_c_58 (constantI S_ 32 0#32),
    StableHlo.unary main_c_58 main_v404 (broadcastInDim S204800 ![] bcast_S_S204800 : (⟨S_, .i32⟩ : BufTy).Contents (Elt F) → (⟨S204800, .i32⟩ : BufTy).Contents (Elt F)),
    StableHlo.binary main_v403 main_v404 main_v405 (cmpi .slt : (⟨S204800, .i32⟩ : BufTy).Contents (Elt F) → (⟨S204800, .i32⟩ : BufTy).Contents (Elt F) → (⟨S204800, .i1⟩ : BufTy).Contents (Elt F)),
    StableHlo.nullary main_c_59 (constantI S_ 32 51200#32),
    StableHlo.unary main_c_59 main_v406 (broadcastInDim S204800 ![] bcast_S_S204800 : (⟨S_, .i32⟩ : BufTy).Contents (Elt F) → (⟨S204800, .i32⟩ : BufTy).Contents (Elt F)),
    StableHlo.binary main_v403 main_v406 main_v407 (addi : (⟨S204800, .i32⟩ : BufTy).Contents (Elt F) → (⟨S204800, .i32⟩ : BufTy).Contents (Elt F) → (⟨S204800, .i32⟩ : BufTy).Contents (Elt F)),
    StableHlo.ternary main_v405 main_v407 main_v403 main_v408 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v408 main_v409 (broadcastInDim S204800x1 ![0] bcast_S204800_S204800x1_0 : (⟨S204800, .i32⟩ : BufTy).Contents (Elt F) → (⟨S204800x1, .i32⟩ : BufTy).Contents (Elt F)),
    StableHlo.binary main_v389 main_v409 main_v410 ((fun x i => Host.gather gather_S51200x64_S204800x1_S204800x64_1_0_n_n_0_1_164 x i) : (⟨S51200x64, .f32⟩ : BufTy).Contents (Elt F) → (⟨S204800x1, .i32⟩ : BufTy).Contents (Elt F) → (⟨S204800x64, .f32⟩ : BufTy).Contents (Elt F)),
    StableHlo.unary main_arg6 main_v411 ((extractStridedSlice S1x204800 ![1, 0] · slices_S2x204800_S1x204800_1_0) : (⟨S2x204800, .i32⟩ : BufTy).Contents (Elt F) → (⟨S1x204800, .i32⟩ : BufTy).Contents (Elt F)),
    StableHlo.reshape main_v411 main_v412 rfl shapeCasts_S1x204800_S204800,
    StableHlo.nullary main_cst_60 (constant S_ .f32 0x00000000#32),
    StableHlo.unary main_cst_60 main_v413 (broadcastInDim S102400x64 ![] bcast_S_S102400x64 : (⟨S_, .f32⟩ : BufTy).Contents (Elt F) → (⟨S102400x64, .f32⟩ : BufTy).Contents (Elt F)),
    StableHlo.unary main_v412 main_v414 (broadcastInDim S204800x1 ![0] bcast_S204800_S204800x1_0 : (⟨S204800, .i32⟩ : BufTy).Contents (Elt F) → (⟨S204800x1, .i32⟩ : BufTy).Contents (Elt F)),
    StableHlo.ternary main_v413 main_v414 main_v410 main_v415 ((fun x i u => Host.scatterAdd scatter_S102400x64_S204800x1_S204800x64_1_0_0_1 x i u) : (⟨S102400x64, .f32⟩ : BufTy).Contents (Elt F) → (⟨S204800x1, .i32⟩ : BufTy).Contents (Elt F) → (⟨S204800x64, .f32⟩ : BufTy).Contents (Elt F) → (⟨S102400x64, .f32⟩ : BufTy).Contents (Elt F)),
    StableHlo.nullary main_cst_61 (constant S_ .f32 0x3F800000#32) ]

end Cert.ReferenceIdeal.Hand

end
-- ==== Proof.RefOps8.lean ====
/- The operations of the reference program's @main, statements of its window main_part8 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 605 … 616 of the 712 (the last one writes main_v425). -/
abbrev q30 : List (HloOp τ sig (Elt F)) :=
  [ StableHlo.unary main_cst_61 main_v416 (broadcastInDim S204800 ![] bcast_S_S204800 : (⟨S_, .f32⟩ : BufTy).Contents (Elt F) → (⟨S204800, .f32⟩ : BufTy).Contents (Elt F)),
    StableHlo.nullary main_cst_62 (constant S_ .f32 0x00000000#32),
    StableHlo.unary main_cst_62 main_v417 (broadcastInDim S102400 ![] bcast_S_S102400 : (⟨S_, .f32⟩ : BufTy).Contents (Elt F) → (⟨S102400, .f32⟩ : BufTy).Contents (Elt F)),
    StableHlo.unary main_v412 main_v418 (broadcastInDim S204800x1 ![0] bcast_S204800_S204800x1_0 : (⟨S204800, .i32⟩ : BufTy).Contents (Elt F) → (⟨S204800x1, .i32⟩ : BufTy).Contents (Elt F)),
    StableHlo.ternary main_v417 main_v418 main_v416 main_v419 ((fun x i u => Host.scatterAdd scatter_S102400_S204800x1_S204800_n_0_0_1 x i u) : (⟨S102400, .f32⟩ : BufTy).Contents (Elt F) → (⟨S204800x1, .i32⟩ : BufTy).Contents (Elt F) → (⟨S204800, .f32⟩ : BufTy).Contents (Elt F) → (⟨S102400, .f32⟩ : BufTy).Contents (Elt F)),
    StableHlo.nullary main_cst_63 (constant S_ .f32 0x3F800000#32),
    StableHlo.unary main_cst_63 main_v420 (broadcastInDim S102400 ![] bcast_S_S102400 : (⟨S_, .f32⟩ : BufTy).Contents (Elt F) → (⟨S102400, .f32⟩ : BufTy).Contents (Elt F)),
    StableHlo.binary main_v419 main_v420 main_v421 (maximumf : (⟨S102400, .f32⟩ : BufTy).Contents (Elt F) → (⟨S102400, .f32⟩ : BufTy).Contents (Elt F) → (⟨S102400, .f32⟩ : BufTy).Contents (Elt F)),
    StableHlo.unary main_v421 main_v422 (broadcastInDim S102400x1 ![0] bcast_S102400_S102400x1_0 : (⟨S102400, .f32⟩ : BufTy).Contents (Elt F) → (⟨S102400x1, .f32⟩ : BufTy).Contents (Elt F)),
    StableHlo.unary main_v422 main_v423 (broadcastInDim S102400x64 ![0, 1] bcast_S102400x1_S102400x64_0_1 : (⟨S102400x1, .f32⟩ : BufTy).Contents (Elt F) → (⟨S102400x64, .f32⟩ : BufTy).Contents (Elt F)),
    StableHlo.binary main_v415 main_v423 main_v424 (Host.divf : (⟨S102400x64, .f32⟩ : BufTy).Contents (Elt F) → (⟨S102400x64, .f32⟩ : BufTy).Contents (Elt F) → (⟨S102400x64, .f32⟩ : BufTy).Contents (Elt F)),
    StableHlo.binary main_v424 main_arg4 main_v425 ((fun a b => concatenate S102400x100 1 [⟨S102400x64, a⟩, ⟨S102400x36, b⟩] concatenates_S102400x64_S102400x36_S102400x100_d1) : (⟨S102400x64, .f32⟩ : BufTy).Contents (Elt F) → (⟨S102400x36, .f32⟩ : BufTy).Contents (Elt F) → (⟨S102400x100, .f32⟩ : BufTy).Contents (Elt F)) ]

/-- Operations 617 … 633 of the 712 (the last one writes main_v439). -/
abbrev q31 : List (HloOp τ sig (Elt F)) :=
  [ StableHlo.unary main_arg5 main_v426 ((extractStridedSlice S1x409600 ![0, 0] · slices_S2x409600_S1x409600_0_0) : (⟨S2x409600, .i32⟩ : BufTy).Contents (Elt F) → (⟨S1x409600, .i32⟩ : BufTy).Contents (Elt F)),
    StableHlo.reshape main_v426 main_v427 rfl shapeCasts_S1x409600_S409600,
    StableHlo.nullary main_c_64 (constantI S_ 32 0#32),
    StableHlo.unary main_c_64 main_v428 (broadcastInDim S409600 ![] bcast_S_S409600 : (⟨S_, .i32⟩ : BufTy).Contents (Elt F) → (⟨S409600, .i32⟩ : BufTy).Contents (Elt F)),
    StableHlo.binary main_v427 main_v428 main_v429 (cmpi .slt : (⟨S409600, .i32⟩ : BufTy).Contents (Elt F) → (⟨S409600, .i32⟩ : BufTy).Contents (Elt F) → (⟨S409600, .i1⟩ : BufTy).Contents (Elt F)),
    StableHlo.nullary main_c_65 (constantI S_ 32 102400#32),
    StableHlo.unary main_c_65 main_v430 (broadcastInDim S409600 ![] bcast_S_S409600 : (⟨S_, .i32⟩ : BufTy).Contents (Elt F) → (⟨S409600, .i32⟩ : BufTy).Contents (Elt F)),
    StableHlo.binary main_v427 main_v430 main_v431 (addi : (⟨S409600, .i32⟩ : BufTy).Contents (Elt F) → (⟨S409600, .i32⟩ : BufTy).Contents (Elt F) → (⟨S409600, .i32⟩ : BufTy).Contents (Elt F)),
    StableHlo.ternary main_v429 main_v431 main_v427 main_v432 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v432 main_v433 (broadcastInDim S409600x1 ![0] bcast_S409600_S409600x1_0 : (⟨S409600, .i32⟩ : BufTy).Contents (Elt F) → (⟨S409600x1, .i32⟩ : BufTy).Contents (Elt F)),
    StableHlo.binary main_v425 main_v433 main_v434 ((fun x i => Host.gather gather_S102400x100_S409600x1_S409600x100_1_0_n_n_0_1_1100 x i) : (⟨S102400x100, .f32⟩ : BufTy).Contents (Elt F) → (⟨S409600x1, .i32⟩ : BufTy).Contents (Elt F) → (⟨S409600x100, .f32⟩ : BufTy).Contents (Elt F)),
    StableHlo.unary main_arg5 main_v435 ((extractStridedSlice S1x409600 ![1, 0] · slices_S2x409600_S1x409600_1_0) : (⟨S2x409600, .i32⟩ : BufTy).Contents (Elt F) → (⟨S1x409600, .i32⟩ : BufTy).Contents (Elt F)),
    StableHlo.reshape main_v435 main_v436 rfl shapeCasts_S1x409600_S409600,
    StableHlo.nullary main_cst_66 (constant S_ .f32 0x00000000#32),
    StableHlo.unary main_cst_66 main_v437 (broadcastInDim S102400x100 ![] bcast_S_S102400x100 : (⟨S_, .f32⟩ : BufTy).Contents (Elt F) → (⟨S102400x100, .f32⟩ : BufTy).Contents (Elt F)),
    StableHlo.unary main_v436 main_v438 (broadcastInDim S409600x1 ![0] bcast_S409600_S409600x1_0 : (⟨S409600, .i32⟩ : BufTy).Contents (Elt F) → (⟨S409600x1, .i32⟩ : BufTy).Contents (Elt F)),
    StableHlo.ternary main_v437 main_v438 main_v434 main_v439 ((fun x i u => Host.scatterAdd scatter_S102400x100_S409600x1_S409600x100_1_0_0_1 x i u) : (⟨S102400x100, .f32⟩ : BufTy).Contents (Elt F) → (⟨S409600x1, .i32⟩ : BufTy).Contents (Elt F) → (⟨S409600x100, .f32⟩ : BufTy).Contents (Elt F) → (⟨S102400x100, .f32⟩ : BufTy).Contents (Elt F)) ]

/-- Operations 634 … 642 of the 712 (the last one writes main_v446). -/
abbrev q32 : List (HloOp τ sig (Elt F)) :=
  [ StableHlo.binary main_v439 main_arg18 main_v440 ((fun l r => Host.dotGeneral dot_S102400x100_S100x64_S102400x64_1_0_0_1_n_n none l r) : (⟨S102400x100, .f32⟩ : BufTy).Contents (Elt F) → (⟨S100x64, .f32⟩ : BufTy).Contents (Elt F) → (⟨S102400x64, .f32⟩ : BufTy).Contents (Elt F)),
    StableHlo.unary main_arg19 main_v441 (broadcastInDim S1x64 ![1] bcast_S64_S1x64_1 : (⟨S64, .f32⟩ : BufTy).Contents (Elt F) → (⟨S1x64, .f32⟩ : BufTy).Contents (Elt F)),
    StableHlo.unary main_v441 main_v442 (broadcastInDim S102400x64 ![0, 1] bcast_S1x64_S102400x64_0_1 : (⟨S1x64, .f32⟩ : BufTy).Contents (Elt F) → (⟨S102400x64, .f32⟩ : BufTy).Contents (Elt F)),
    StableHlo.binary main_v440 main_v442 main_v443 (addf : (⟨S102400x64, .f32⟩ : BufTy).Contents (Elt F) → (⟨S102400x64, .f32⟩ : BufTy).Contents (Elt F) → (⟨S102400x64, .f32⟩ : BufTy).Contents (Elt F)),
    StableHlo.binary main_v425 main_arg20 main_v444 ((fun l r => Host.dotGeneral dot_S102400x100_S100x64_S102400x64_1_0_0_1_n_n none l r) : (⟨S102400x100, .f32⟩ : BufTy).Contents (Elt F) → (⟨S100x64, .f32⟩ : BufTy).Contents (Elt F) → (⟨S102400x64, .f32⟩ : BufTy).Contents (Elt F)),
    StableHlo.binary main_v443 main_v444 main_v445 (addf : (⟨S102400x64, .f32⟩ : BufTy).Contents (Elt F) → (⟨S102400x64, .f32⟩ : BufTy).Contents (Elt F) → (⟨S102400x64, .f32⟩ : BufTy).Contents (Elt F)),
    StableHlo.TRef.nullary main_call15.cst (constant S_ .f32 0x00000000#32),
    StableHlo.TRef.unary main_call15.cst main_call15.v0 (broadcastInDim S102400x64 ![] bcast_S_S102400x64),
    StableHlo.TRef.binary (.of main_v445 : StableHlo.TRef sig ⟨S102400x64, .f32⟩) main_call15.v0 main_call15.v1 maximumf ]

/-- Operations 643 … 659 of the 712 (the last one writes main_v460). -/
abbrev q33 : List (HloOp τ sig (Elt F)) :=
  [ StableHlo.unary main_arg5 main_v447 ((extractStridedSlice S1x409600 ![0, 0] · slices_S2x409600_S1x409600_0_0) : (⟨S2x409600, .i32⟩ : BufTy).Contents (Elt F) → (⟨S1x409600, .i32⟩ : BufTy).Contents (Elt F)),
    StableHlo.reshape main_v447 main_v448 rfl shapeCasts_S1x409600_S409600,
    StableHlo.nullary main_c_67 (constantI S_ 32 0#32),
    StableHlo.unary main_c_67 main_v449 (broadcastInDim S409600 ![] bcast_S_S409600 : (⟨S_, .i32⟩ : BufTy).Contents (Elt F) → (⟨S409600, .i32⟩ : BufTy).Contents (Elt F)),
    StableHlo.binary main_v448 main_v449 main_v450 (cmpi .slt : (⟨S409600, .i32⟩ : BufTy).Contents (Elt F) → (⟨S409600, .i32⟩ : BufTy).Contents (Elt F) → (⟨S409600, .i1⟩ : BufTy).Contents (Elt F)),
    StableHlo.nullary main_c_68 (constantI S_ 32 102400#32),
    StableHlo.unary main_c_68 main_v451 (broadcastInDim S409600 ![] bcast_S_S409600 : (⟨S_, .i32⟩ : BufTy).Contents (Elt F) → (⟨S409600, .i32⟩ : BufTy).Contents (Elt F)),
    StableHlo.binary main_v448 main_v451 main_v452 (addi : (⟨S409600, .i32⟩ : BufTy).Contents (Elt F) → (⟨S409600, .i32⟩ : BufTy).Contents (Elt F) → (⟨S409600, .i32⟩ : BufTy).Contents (Elt F)),
    StableHlo.ternary main_v450 main_v452 main_v448 main_v453 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v453 main_v454 (broadcastInDim S409600x1 ![0] bcast_S409600_S409600x1_0 : (⟨S409600, .i32⟩ : BufTy).Contents (Elt F) → (⟨S409600x1, .i32⟩ : BufTy).Contents (Elt F)),
    StableHlo.binary main_v446 main_v454 main_v455 ((fun x i => Host.gather gather_S102400x64_S409600x1_S409600x64_1_0_n_n_0_1_164 x i) : (⟨S102400x64, .f32⟩ : BufTy).Contents (Elt F) → (⟨S409600x1, .i32⟩ : BufTy).Contents (Elt F) → (⟨S409600x64, .f32⟩ : BufTy).Contents (Elt F)),
    StableHlo.unary main_arg5 main_v456 ((extractStridedSlice S1x409600 ![1, 0] · slices_S2x409600_S1x409600_1_0) : (⟨S2x409600, .i32⟩ : BufTy).Contents (Elt F) → (⟨S1x409600, .i32⟩ : BufTy).Contents (Elt F)),
    StableHlo.reshape main_v456 main_v457 rfl shapeCasts_S1x409600_S409600,
    StableHlo.nullary main_cst_69 (constant S_ .f32 0x00000000#32),
    StableHlo.unary main_cst_69 main_v458 (broadcastInDim S102400x64 ![] bcast_S_S102400x64 : (⟨S_, .f32⟩ : BufTy).Contents (Elt F) → (⟨S102400x64, .f32⟩ : BufTy).Contents (Elt F)),
    StableHlo.unary main_v457 main_v459 (broadcastInDim S409600x1 ![0] bcast_S409600_S409600x1_0 : (⟨S409600, .i32⟩ : BufTy).Contents (Elt F) → (⟨S409600x1, .i32⟩ : BufTy).Contents (Elt F)),
    StableHlo.ternary main_v458 main_v459 main_v455 main_v460 ((fun x i u => Host.scatterAdd scatter_S102400x64_S409600x1_S409600x64_1_0_0_1 x i u) : (⟨S102400x64, .f32⟩ : BufTy).Contents (Elt F) → (⟨S409600x1, .i32⟩ : BufTy).Contents (Elt F) → (⟨S409600x64, .f32⟩ : BufTy).Contents (Elt F) → (⟨S102400x64, .f32⟩ : BufTy).Contents (Elt F)) ]

/-- Operations 660 … 668 of the 712 (the last one writes main_v467). -/
abbrev q34 : List (HloOp τ sig (Elt F)) :=
  [ StableHlo.binary main_v460 main_arg21 main_v461 ((fun l r => Host.dotGeneral dot_S102400x64_S64x64_S102400x64_1_0_0_1_n_n none l r) : (⟨S102400x64, .f32⟩ : BufTy).Contents (Elt F) → (⟨S64x64, .f32⟩ : BufTy).Contents (Elt F) → (⟨S102400x64, .f32⟩ : BufTy).Contents (Elt F)),
    StableHlo.unary main_arg22 main_v462 (broadcastInDim S1x64 ![1] bcast_S64_S1x64_1 : (⟨S64, .f32⟩ : BufTy).Contents (Elt F) → (⟨S1x64, .f32⟩ : BufTy).Contents (Elt F)),
    StableHlo.unary main_v462 main_v463 (broadcastInDim S102400x64 ![0, 1] bcast_S1x64_S102400x64_0_1 : (⟨S1x64, .f32⟩ : BufTy).Contents (Elt F) → (⟨S102400x64, .f32⟩ : BufTy).Contents (Elt F)),
    StableHlo.binary main_v461 main_v463 main_v464 (addf : (⟨S102400x64, .f32⟩ : BufTy).Contents (Elt F) → (⟨S102400x64, .f32⟩ : BufTy).Contents (Elt F) → (⟨S102400x64, .f32⟩ : BufTy).Contents (Elt F)),
    StableHlo.binary main_v446 main_arg23 main_v465 ((fun l r => Host.dotGeneral dot_S102400x64_S64x64_S102400x64_1_0_0_1_n_n none l r) : (⟨S102400x64, .f32⟩ : BufTy).Contents (Elt F) → (⟨S64x64, .f32⟩ : BufTy).Contents (Elt F) → (⟨S102400x64, .f32⟩ : BufTy).Contents (Elt F)),
    StableHlo.binary main_v464 main_v465 main_v466 (addf : (⟨S102400x64, .f32⟩ : BufTy).Contents (Elt F) → (⟨S102400x64, .f32⟩ : BufTy).Contents (Elt F) → (⟨S102400x64, .f32⟩ : BufTy).Contents (Elt F)),
    StableHlo.TRef.nullary main_call16.cst (constant S_ .f32 0x00000000#32),
    StableHlo.TRef.unary main_call16.cst main_call16.v0 (broadcastInDim S102400x64 ![] bcast_S_S102400x64),
    StableHlo.TRef.binary (.of main_v466 : StableHlo.TRef sig ⟨S102400x64, .f32⟩) main_call16.v0 main_call16.v1 maximumf ]

end Cert.ReferenceIdeal.Hand

end
-- ==== Proof.RefOps9.lean ====
/- The operations of the reference program's @main, statements of its window main_part9 in order, every call of an
   outlined function replaced by that function's operations over the call's own buffers and actual arguments. -/
import proofs.«133701_j46024869544456_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 669 … 684 of the 712 (the last one writes main_v479). -/
abbrev q35 : List (HloOp τ sig (Elt F)) :=
  [ StableHlo.nullary main_cst_70 (constant S_ .f32 0x00000000#32),
    StableHlo.unary main_cst_70 main_v468 (broadcastInDim S256x64 ![] bcast_S_S256x64 : (⟨S_, .f32⟩ : BufTy).Contents (Elt F) → (⟨S256x64, .f32⟩ : BufTy).Contents (Elt F)),
    StableHlo.unary main_arg7 main_v469 (broadcastInDim S102400x1 ![0] bcast_S102400_S102400x1_0 : (⟨S102400, .i32⟩ : BufTy).Contents (Elt F) → (⟨S102400x1, .i32⟩ : BufTy).Contents (Elt F)),
    StableHlo.ternary main_v468 main_v469 main_v467 main_v470 ((fun x i u => Host.scatterAdd scatter_S256x64_S102400x1_S102400x64_1_0_0_1 x i u) : (⟨S256x64, .f32⟩ : BufTy).Contents (Elt F) → (⟨S102400x1, .i32⟩ : BufTy).Contents (Elt F) → (⟨S102400x64, .f32⟩ : BufTy).Contents (Elt F) → (⟨S256x64, .f32⟩ : BufTy).Contents (Elt F)),
    StableHlo.nullary main_cst_71 (constant S_ .f32 0x3F800000#32),
    StableHlo.unary main_cst_71 main_v471 (broadcastInDim S102400 ![] bcast_S_S102400 : (⟨S_, .f32⟩ : BufTy).Contents (Elt F) → (⟨S102400, .f32⟩ : BufTy).Contents (Elt F)),
    StableHlo.nullary main_cst_72 (constant S_ .f32 0x00000000#32),
    StableHlo.unary main_cst_72 main_v472 (broadcastInDim S256 ![] bcast_S_S256 : (⟨S_, .f32⟩ : BufTy).Contents (Elt F) → (⟨S256, .f32⟩ : BufTy).Contents (Elt F)),
    StableHlo.unary main_arg7 main_v473 (broadcastInDim S102400x1 ![0] bcast_S102400_S102400x1_0 : (⟨S102400, .i32⟩ : BufTy).Contents (Elt F) → (⟨S102400x1, .i32⟩ : BufTy).Contents (Elt F)),
    StableHlo.ternary main_v472 main_v473 main_v471 main_v474 ((fun x i u => Host.scatterAdd scatter_S256_S102400x1_S102400_n_0_0_1 x i u) : (⟨S256, .f32⟩ : BufTy).Contents (Elt F) → (⟨S102400x1, .i32⟩ : BufTy).Contents (Elt F) → (⟨S102400, .f32⟩ : BufTy).Contents (Elt F) → (⟨S256, .f32⟩ : BufTy).Contents (Elt F)),
    StableHlo.nullary main_cst_73 (constant S_ .f32 0x3F800000#32),
    StableHlo.unary main_cst_73 main_v475 (broadcastInDim S256 ![] bcast_S_S256 : (⟨S_, .f32⟩ : BufTy).Contents (Elt F) → (⟨S256, .f32⟩ : BufTy).Contents (Elt F)),
    StableHlo.binary main_v474 main_v475 main_v476 (maximumf : (⟨S256, .f32⟩ : BufTy).Contents (Elt F) → (⟨S256, .f32⟩ : BufTy).Contents (Elt F) → (⟨S256, .f32⟩ : BufTy).Contents (Elt F)),
    StableHlo.unary main_v476 main_v477 (broadcastInDim S256x1 ![0] bcast_S256_S256x1_0 : (⟨S256, .f32⟩ : BufTy).Contents (Elt F) → (⟨S256x1, .f32⟩ : BufTy).Contents (Elt F)),
    StableHlo.unary main_v477 main_v478 (broadcastInDim S256x64 ![0, 1] bcast_S256x1_S256x64_0_1 : (⟨S256x1, .f32⟩ : BufTy).Contents (Elt F) → (⟨S256x64, .f32⟩ : BufTy).Contents (Elt F)),
    StableHlo.binary main_v470 main_v478 main_v479 (Host.divf : (⟨S256x64, .f32⟩ : BufTy).Contents (Elt F) → (⟨S256x64, .f32⟩ : BufTy).Contents (Elt F) → (⟨S256x64, .f32⟩ : BufTy).Contents (Elt F)) ]

/-- Operations 685 … 711 of the 712 (the last one writes main_v500). -/
abbrev q36 : List (HloOp τ sig (Elt F)) :=
  [ StableHlo.binary main_v401 main_v479 main_v480 ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)),
    StableHlo.binary main_v480 main_arg24 main_v481 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    StableHlo.unary main_arg25 main_v482 (broadcastInDim S1x64 ![1] bcast_S64_S1x64_1 : (⟨S64, .f32⟩ : BufTy).Contents (Elt F) → (⟨S1x64, .f32⟩ : BufTy).Contents (Elt F)),
    StableHlo.unary main_v482 main_v483 (broadcastInDim S256x64 ![0, 1] bcast_S1x64_S256x64_0_1 : (⟨S1x64, .f32⟩ : BufTy).Contents (Elt F) → (⟨S256x64, .f32⟩ : BufTy).Contents (Elt F)),
    StableHlo.binary main_v481 main_v483 main_v484 (addf : (⟨S256x64, .f32⟩ : BufTy).Contents (Elt F) → (⟨S256x64, .f32⟩ : BufTy).Contents (Elt F) → (⟨S256x64, .f32⟩ : BufTy).Contents (Elt F)),
    StableHlo.TRef.nullary main_call17.cst (constant S_ .f32 0x00000000#32),
    StableHlo.TRef.unary main_call17.cst main_call17.v0 (broadcastInDim S256x64 ![] bcast_S_S256x64),
    StableHlo.TRef.binary (.of main_v484 : StableHlo.TRef sig ⟨S256x64, .f32⟩) main_call17.v0 main_call17.v1 maximumf,
    StableHlo.binary main_v485 main_arg26 main_v486 ((fun l r => Host.dotGeneral dot_S256x64_S64x32_S256x32_1_0_0_1_n_n none l r) : (⟨S256x64, .f32⟩ : BufTy).Contents (Elt F) → (⟨S64x32, .f32⟩ : BufTy).Contents (Elt F) → (⟨S256x32, .f32⟩ : BufTy).Contents (Elt F)),
    StableHlo.unary main_arg27 main_v487 (broadcastInDim S1x32 ![1] bcast_S32_S1x32_1 : (⟨S32, .f32⟩ : BufTy).Contents (Elt F) → (⟨S1x32, .f32⟩ : BufTy).Contents (Elt F)),
    StableHlo.unary main_v487 main_v488 (broadcastInDim S256x32 ![0, 1] bcast_S1x32_S256x32_0_1 : (⟨S1x32, .f32⟩ : BufTy).Contents (Elt F) → (⟨S256x32, .f32⟩ : BufTy).Contents (Elt F)),
    StableHlo.binary main_v486 main_v488 main_v489 (addf : (⟨S256x32, .f32⟩ : BufTy).Contents (Elt F) → (⟨S256x32, .f32⟩ : BufTy).Contents (Elt F) → (⟨S256x32, .f32⟩ : BufTy).Contents (Elt F)),
    StableHlo.TRef.nullary main_call18.cst (constant S_ .f32 0x00000000#32),
    StableHlo.TRef.unary main_call18.cst main_call18.v0 (broadcastInDim S256x32 ![] bcast_S_S256x32),
    StableHlo.TRef.binary (.of main_v489 : StableHlo.TRef sig ⟨S256x32, .f32⟩) main_call18.v0 main_call18.v1 maximumf,
    StableHlo.binary main_v490 main_arg28 main_v491 ((fun l r => Host.dotGeneral dot_S256x32_S32x16_S256x16_1_0_0_1_n_n none l r) : (⟨S256x32, .f32⟩ : BufTy).Contents (Elt F) → (⟨S32x16, .f32⟩ : BufTy).Contents (Elt F) → (⟨S256x16, .f32⟩ : BufTy).Contents (Elt F)),
    StableHlo.unary main_arg29 main_v492 (broadcastInDim S1x16 ![1] bcast_S16_S1x16_1 : (⟨S16, .f32⟩ : BufTy).Contents (Elt F) → (⟨S1x16, .f32⟩ : BufTy).Contents (Elt F)),
    StableHlo.unary main_v492 main_v493 (broadcastInDim S256x16 ![0, 1] bcast_S1x16_S256x16_0_1 : (⟨S1x16, .f32⟩ : BufTy).Contents (Elt F) → (⟨S256x16, .f32⟩ : BufTy).Contents (Elt F)),
    StableHlo.binary main_v491 main_v493 main_v494 (addf : (⟨S256x16, .f32⟩ : BufTy).Contents (Elt F) → (⟨S256x16, .f32⟩ : BufTy).Contents (Elt F) → (⟨S256x16, .f32⟩ : BufTy).Contents (Elt F)),
    StableHlo.TRef.nullary main_call19.cst (constant S_ .f32 0x00000000#32),
    StableHlo.TRef.unary main_call19.cst main_call19.v0 (broadcastInDim S256x16 ![] bcast_S_S256x16),
    StableHlo.TRef.binary (.of main_v494 : StableHlo.TRef sig ⟨S256x16, .f32⟩) main_call19.v0 main_call19.v1 maximumf,
    StableHlo.binary main_v495 main_arg30 main_v496 ((fun l r => Host.dotGeneral dot_S256x16_S16x1_S256x1_1_0_0_1_n_n none l r) : (⟨S256x16, .f32⟩ : BufTy).Contents (Elt F) → (⟨S16x1, .f32⟩ : BufTy).Contents (Elt F) → (⟨S256x1, .f32⟩ : BufTy).Contents (Elt F)),
    StableHlo.unary main_arg31 main_v497 (broadcastInDim S1x1 ![1] bcast_S1_S1x1_1 : (⟨S1, .f32⟩ : BufTy).Contents (Elt F) → (⟨S1x1, .f32⟩ : BufTy).Contents (Elt F)),
    StableHlo.unary main_v497 main_v498 (broadcastInDim S256x1 ![0, 1] bcast_S1x1_S256x1_0_1 : (⟨S1x1, .f32⟩ : BufTy).Contents (Elt F) → (⟨S256x1, .f32⟩ : BufTy).Contents (Elt F)),
    StableHlo.binary main_v496 main_v498 main_v499 (addf : (⟨S256x1, .f32⟩ : BufTy).Contents (Elt F) → (⟨S256x1, .f32⟩ : BufTy).Contents (Elt F) → (⟨S256x1, .f32⟩ : BufTy).Contents (Elt F)),
    StableHlo.reshape main_v499 main_v500 rfl shapeCasts_S256x1_S256 ]

end Cert.ReferenceIdeal.Hand

end
-- ==== Proof.RefOps.lean ====
/- The reference program's @main as ONE list of its 712 host operations, every call of an outlined function
   (the rectifiers, the variance and its select) replaced by the function's operations over that call's buffers.
   The list is the concatenation of 37 literal pieces q0 … q36 (modules RefOps0 … RefOps9, one per printed
   window of @main); a piece ends where a window ends, where one of the seven segments below ends, or where a
   stage of a layer ends. Piece, its positions in the list, (length), the window it lies in, its segment,
   and the buffer its LAST operation writes:
     q0     0 … 18   (19)   main_part0   seg0   main_v15
     q1    19 … 59   (41)   main_part0   seg1   main_v49
     q2    60 … 61   ( 2)   main_part0   seg1   main_v51
     q3    62 … 78   (17)   main_part1   seg1   main_v66
     q4    79 … 106  (28)   main_part1   seg1   main_v70
     q5   107 … 129  (23)   main_part1   seg1   main_v90
     q6   130 … 146  (17)   main_part1   seg2   main_v105
     q7   147 … 170  (24)   main_part2   seg2   main_v124
     q8   171 … 189  (19)   main_part2   seg2   main_v141
     q9   190 … 217  (28)   main_part2   seg2   main_v145
     q10  218 … 229  (12)   main_part2   seg2   main_v156
     q11  230 … 240  (11)   main_part3   seg2   main_v165
     q12  241 … 281  (41)   main_part3   seg3   main_v199
     q13  282 … 293  (12)   main_part3   seg3   main_v209
     q14  294 … 300  ( 7)   main_part4   seg3   main_v216
     q15  301 … 328  (28)   main_part4   seg3   main_v220
     q16  329 … 351  (23)   main_part4   seg3   main_v240
     q17  352 … 376  (25)   main_part4   seg4   main_v261
     q18  377 … 392  (16)   main_part5   seg4   main_v274
     q19  393 … 411  (19)   main_part5   seg4   main_v291
     q20  412 … 439  (28)   main_part5   seg4   main_v295
     q21  440 … 459  (20)   main_part5   seg4   main_v314
     q22  460 … 462  ( 3)   main_part6   seg4   main_v315
     q23  463 … 503  (41)   main_part6   seg5   main_v349
     q24  504 … 522  (19)   main_part6   seg5   main_v366
     q25  523 … 523  ( 1)   main_part6   seg5   main_cst_50
     q26  524 … 550  (27)   main_part7   seg5   main_v370
     q27  551 … 570  (20)   main_part7   seg5   main_v389
     q28  571 … 586  (16)   main_part7   seg6   main_v401
     q29  587 … 604  (18)   main_part7   seg6   main_cst_61
     q30  605 … 616  (12)   main_part8   seg6   main_v425
     q31  617 … 633  (17)   main_part8   seg6   main_v439
     q32  634 … 642  ( 9)   main_part8   seg6   main_v446
     q33  643 … 659  (17)   main_part8   seg6   main_v460
     q34  660 … 668  ( 9)   main_part8   seg6   main_v467
     q35  669 … 684  (16)   main_part9   seg6   main_v479
     q36  685 … 711  (27)   main_part9   seg6   main_v500
   seg0 is the input embedding (it ends with the first rectifier, main_v15); seg1 … seg5 are the five
   message-passing layers, each ending with its closing rectifier (main_v90, main_v165, main_v240, main_v315,
   main_v389); seg6 is the read-out, ending with the program's result main_v500. -/
import proofs.«133701_j46024869544456_1_alg».proof.Proof.RefOps0
import proofs.«133701_j46024869544456_1_alg».proof.Proof.RefOps1
import proofs.«133701_j46024869544456_1_alg».proof.Proof.RefOps2
import proofs.«133701_j46024869544456_1_alg».proof.Proof.RefOps3
import proofs.«133701_j46024869544456_1_alg».proof.Proof.RefOps4
import proofs.«133701_j46024869544456_1_alg».proof.Proof.RefOps5
import proofs.«133701_j46024869544456_1_alg».proof.Proof.RefOps6
import proofs.«133701_j46024869544456_1_alg».proof.Proof.RefOps7
import proofs.«133701_j46024869544456_1_alg».proof.Proof.RefOps8
import proofs.«133701_j46024869544456_1_alg».proof.Proof.RefOps9

noncomputable section

namespace Cert.ReferenceIdeal.Hand

open Cert.ReferenceIdeal Cert.ReferenceIdeal.Gen Idealize.ShloMosaic Idealize.ShloMosaic.TcCoe Idealize.SL.Sem Idealize.ShloMosaic.StableHlo

/-- The fold over a concatenation is the fold over the second list from the fold over the first:
    running `A` then `B` from `V` is running `B` from what `A` leaves. -/
theorem after_append {t : Topo} {s : RefSig} {Val : EltTy → Type} (A B : List (HloOp t s Val)) (V : Valuation t s Val) :
    after (A ++ B) V = after B (after A V) := by
  induction A generalizing V with
  | nil => rfl
  | cons a A ih => rw [List.cons_append, after_cons, after_cons, ih]

variable {F : FTy → Type} [FloatOps F]

/-- The input embedding: up to and including the first rectifier's result main_v15. -/
abbrev seg0 : List (HloOp τ sig (Elt F)) := q0
/-- Layer 1: up to and including main_v90. -/
abbrev seg1 : List (HloOp τ sig (Elt F)) := q1 ++ (q2 ++ (q3 ++ (q4 ++ q5)))
/-- Layer 2: up to and including main_v165. -/
abbrev seg2 : List (HloOp τ sig (Elt F)) := q6 ++ (q7 ++ (q8 ++ (q9 ++ (q10 ++ q11))))
/-- Layer 3: up to and including main_v240. -/
abbrev seg3 : List (HloOp τ sig (Elt F)) := q12 ++ (q13 ++ (q14 ++ (q15 ++ q16)))
/-- Layer 4: up to and including main_v315. -/
abbrev seg4 : List (HloOp τ sig (Elt F)) := q17 ++ (q18 ++ (q19 ++ (q20 ++ (q21 ++ q22))))
/-- Layer 5: up to and including main_v389. -/
abbrev seg5 : List (HloOp τ sig (Elt F)) := q23 ++ (q24 ++ (q25 ++ (q26 ++ q27)))
/-- The read-out: the remaining operations, the last one writing the result main_v500. -/
abbrev seg6 : List (HloOp τ sig (Elt F)) := q28 ++ (q29 ++ (q30 ++ (q31 ++ (q32 ++ (q33 ++ (q34 ++ (q35 ++ q36)))))))

/-- @main's 712 operations, in order. -/
abbrev ops : List (HloOp τ sig (Elt F)) := seg0 ++ (seg1 ++ (seg2 ++ (seg3 ++ (seg4 ++ (seg5 ++ seg6)))))

/-! The fold over each segment, and over the whole list, piece after piece. -/

variable (V : Valuation τ sig (Elt F))

theorem after_seg1 : after (seg1 (F := F)) V = after q5 (after q4 (after q3 (after q2 (after q1 V)))) := by
  simp only [seg1, after_append]
theorem after_seg2 : after (seg2 (F := F)) V = after q11 (after q10 (after q9 (after q8 (after q7 (after q6 V))))) := by
  simp only [seg2, after_append]
theorem after_seg3 : after (seg3 (F := F)) V = after q16 (after q15 (after q14 (after q13 (after q12 V)))) := by
  simp only [seg3, after_append]
theorem after_seg4 : after (seg4 (F := F)) V = after q22 (after q21 (after q20 (after q19 (after q18 (after q17 V))))) := by
  simp only [seg4, after_append]
theorem after_seg5 : after (seg5 (F := F)) V = after q27 (after q26 (after q25 (after q24 (after q23 V)))) := by
  simp only [seg5, after_append]
theorem after_seg6 : after (seg6 (F := F)) V = after q36 (after q35 (after q34 (after q33 (after q32 (after q31 (after q30 (after q29 (after q28 V)))))))) := by
  simp only [seg6, after_append]
theorem after_ops : after (ops (F := F)) V = after seg6 (after seg5 (after seg4 (after seg3 (after seg2 (after seg1 (after seg0 V)))))) := by
  simp only [ops, after_append]

end Cert.ReferenceIdeal.Hand

end
-- ==== Proof.RefWin.lean ====
/- The reference program's @main is the straight line of its 712 operations: each printed window main_partK is the
   line of its own pieces (the outlined functions' bodies unfolded at their calls, the calls' records at their
   fields, and sequencing reassociated), and @main runs the windows in order. -/
import proofs.«133701_j46024869544456_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part0_eq (c : Dev nD) : main_part0 (F := F) c = seq (q0 ++ (q1 ++ q2)) := rfl

set_option maxRecDepth 8192 in
theorem part1_eq (c : Dev nD) : main_part1 (F := F) c = seq (q3 ++ (q4 ++ (q5 ++ q6))) := rfl

set_option maxRecDepth 8192 in
theorem part2_eq (c : Dev nD) : main_part2 (F := F) c = seq (q7 ++ (q8 ++ (q9 ++ q10))) := rfl

set_option maxRecDepth 8192 in
theorem part3_eq (c : Dev nD) : main_part3 (F := F) c = seq (q11 ++ (q12 ++ q13)) := rfl

set_option maxRecDepth 8192 in
theorem part4_eq (c : Dev nD) : main_part4 (F := F) c = seq (q14 ++ (q15 ++ (q16 ++ q17))) := rfl

set_option maxRecDepth 8192 in
theorem part5_eq (c : Dev nD) : main_part5 (F := F) c = seq (q18 ++ (q19 ++ (q20 ++ q21))) := rfl

set_option maxRecDepth 8192 in
theorem part6_eq (c : Dev nD) : main_part6 (F := F) c = seq (q22 ++ (q23 ++ (q24 ++ q25))) := rfl

set_option maxRecDepth 8192 in
theorem part7_eq (c : Dev nD) : main_part7 (F := F) c = seq (q26 ++ (q27 ++ (q28 ++ q29))) := rfl

set_option maxRecDepth 8192 in
theorem part8_eq (c : Dev nD) : main_part8 (F := F) c = seq (q30 ++ (q31 ++ (q32 ++ (q33 ++ q34)))) := rfl

set_option maxRecDepth 8192 in
theorem part9_eq (c : Dev nD) : main_part9 (F := F) c = seq (q35 ++ q36) := rfl

/-- @main is the line of all the operations: the windows in order are the pieces in order, and a concatenation
    runs as its parts one after the other. -/
theorem main_eq (c : Dev nD) : main (F := F) c = seq ops := by
  simp only [main, part0_eq, part1_eq, part2_eq, part3_eq, part4_eq, part5_eq, part6_eq, part7_eq, part8_eq, part9_eq,
    ops, seg0, seg1, seg2, seg3, seg4, seg5, seg6, List.append_assoc, seq_append, bind_assoc]

end Cert.ReferenceIdeal.Hand

end
-- ==== Proof.RefSub.lean ====
/- Every operation of the reference program's list touches TensorCore references only and determines its results
   (none leaves a buffer with arbitrary contents): the two side conditions the run of a straight line of host
   operations asks of its list. Proved entry by entry on each literal piece, then carried over the concatenations. -/
import proofs.«133701_j46024869544456_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- What the run asks of one operation: it touches TensorCore references only, and it leaves no buffer undetermined. -/
def Good (op : HloOp τ sig (Elt F)) : Prop := op.bufs ⊆ tcRefs τ sig ∧ op.fresh = ∅

/-- One operation made by a builder (nullary … ternary, reshape; the typed builders unfold to these) is good: its
    buffers are the builder's literal set of TensorCore references (the builder's own lemma, found by the builder's
    name), and no builder here allocates (by computation). -/
macro "good_op" : tactic =>
  `(tactic| exact ⟨by simp only [nullary_bufs_sub, unary_bufs_sub, binary_bufs_sub, ternary_bufs_sub, reshape_bufs_sub], rfl⟩)

/-- A literal list is good when each entry is: peel it entry by entry. -/
macro "good_list" : tactic =>
  `(tactic| repeat' (first | refine (List.forall_cons _ _ _).2 ⟨?_, ?_⟩ | good_op | exact trivial))

theorem q0_good : List.Forall (Good (F := F)) q0 := by good_list
theorem q1_good : List.Forall (Good (F := F)) q1 := by good_list
theorem q2_good : List.Forall (Good (F := F)) q2 := by good_list
theorem q3_good : List.Forall (Good (F := F)) q3 := by good_list
theorem q4_good : List.Forall (Good (F := F)) q4 := by good_list
theorem q5_good : List.Forall (Good (F := F)) q5 := by good_list
theorem q6_good : List.Forall (Good (F := F)) q6 := by good_list
theorem q7_good : List.Forall (Good (F := F)) q7 := by good_list
theorem q8_good : List.Forall (Good (F := F)) q8 := by good_list
theorem q9_good : List.Forall (Good (F := F)) q9 := by good_list
theorem q10_good : List.Forall (Good (F := F)) q10 := by good_list
theorem q11_good : List.Forall (Good (F := F)) q11 := by good_list
theorem q12_good : List.Forall (Good (F := F)) q12 := by good_list
theorem q13_good : List.Forall (Good (F := F)) q13 := by good_list
theorem q14_good : List.Forall (Good (F := F)) q14 := by good_list
theorem q15_good : List.Forall (Good (F := F)) q15 := by good_list
theorem q16_good : List.Forall (Good (F := F)) q16 := by good_list
theorem q17_good : List.Forall (Good (F := F)) q17 := by good_list
theorem q18_good : List.Forall (Good (F := F)) q18 := by good_list
theorem q19_good : List.Forall (Good (F := F)) q19 := by good_list
theorem q20_good : List.Forall (Good (F := F)) q20 := by good_list
theorem q21_good : List.Forall (Good (F := F)) q21 := by good_list
theorem q22_good : List.Forall (Good (F := F)) q22 := by good_list
theorem q23_good : List.Forall (Good (F := F)) q23 := by good_list
theorem q24_good : List.Forall (Good (F := F)) q24 := by good_list
theorem q25_good : List.Forall (Good (F := F)) q25 := by good_list
theorem q26_good : List.Forall (Good (F := F)) q26 := by good_list
theorem q27_good : List.Forall (Good (F := F)) q27 := by good_list
theorem q28_good : List.Forall (Good (F := F)) q28 := by good_list
theorem q29_good : List.Forall (Good (F := F)) q29 := by good_list
theorem q30_good : List.Forall (Good (F := F)) q30 := by good_list
theorem q31_good : List.Forall (Good (F := F)) q31 := by good_list
theorem q32_good : List.Forall (Good (F := F)) q32 := by good_list
theorem q33_good : List.Forall (Good (F := F)) q33 := by good_list
theorem q34_good : List.Forall (Good (F := F)) q34 := by good_list
theorem q35_good : List.Forall (Good (F := F)) q35 := by good_list
theorem q36_good : List.Forall (Good (F := F)) q36 := by good_list

theorem seg0_good : List.Forall (Good (F := F)) seg0 :=
  q0_good
theorem seg1_good : List.Forall (Good (F := F)) seg1 :=
  List.forall_append.2 ⟨q1_good, List.forall_append.2 ⟨q2_good, List.forall_append.2 ⟨q3_good, List.forall_append.2 ⟨q4_good, q5_good⟩⟩⟩⟩
theorem seg2_good : List.Forall (Good (F := F)) seg2 :=
  List.forall_append.2 ⟨q6_good, List.forall_append.2 ⟨q7_good, List.forall_append.2 ⟨q8_good, List.forall_append.2 ⟨q9_good, List.forall_append.2 ⟨q10_good, q11_good⟩⟩⟩⟩⟩
theorem seg3_good : List.Forall (Good (F := F)) seg3 :=
  List.forall_append.2 ⟨q12_good, List.forall_append.2 ⟨q13_good, List.forall_append.2 ⟨q14_good, List.forall_append.2 ⟨q15_good, q16_good⟩⟩⟩⟩
theorem seg4_good : List.Forall (Good (F := F)) seg4 :=
  List.forall_append.2 ⟨q17_good, List.forall_append.2 ⟨q18_good, List.forall_append.2 ⟨q19_good, List.forall_append.2 ⟨q20_good, List.forall_append.2 ⟨q21_good, q22_good⟩⟩⟩⟩⟩
theorem seg5_good : List.Forall (Good (F := F)) seg5 :=
  List.forall_append.2 ⟨q23_good, List.forall_append.2 ⟨q24_good, List.forall_append.2 ⟨q25_good, List.forall_append.2 ⟨q26_good, q27_good⟩⟩⟩⟩
theorem seg6_good : List.Forall (Good (F := F)) seg6 :=
  List.forall_append.2 ⟨q28_good, List.forall_append.2 ⟨q29_good, List.forall_append.2 ⟨q30_good, List.forall_append.2 ⟨q31_good, List.forall_append.2 ⟨q32_good, List.forall_append.2 ⟨q33_good, List.forall_append.2 ⟨q34_good, List.forall_append.2 ⟨q35_good, q36_good⟩⟩⟩⟩⟩⟩⟩⟩

/-- Every one of the 712 operations is good. -/
theorem ops_good : List.Forall (Good (F := F)) ops :=
  List.forall_append.2 ⟨seg0_good, List.forall_append.2 ⟨seg1_good, List.forall_append.2 ⟨seg2_good, List.forall_append.2 ⟨seg3_good, List.forall_append.2 ⟨seg4_good, List.forall_append.2 ⟨seg5_good, seg6_good⟩⟩⟩⟩⟩⟩

/-- Every operation touches TensorCore references only. -/
theorem ops_sub : (ops : List (HloOp τ sig (Elt F))).Forall fun op => op.bufs ⊆ tcRefs τ sig :=
  ops_good.imp fun _ h => h.1

/-- Every operation determines its results. -/
theorem ops_fresh : ∀ op ∈ (ops : List (HloOp τ sig (Elt F))), op.fresh = ∅ :=
  fun op h => (List.forall_iff_forall_mem.1 ops_good op h).2

end Cert.ReferenceIdeal.Hand

end
-- ==== Proof.RefRun.lean ====
/- The run of the reference program, read back: its @main is the straight line of the 712 host operations `ops`
   (RefWin), every one of which touches TensorCore references only and determines its results (RefSub), over a
   signature that scopes no buffer and no semaphore; so from any memory with zero counters every weakly fair
   execution terminates with each TensorCore buffer at the fold of the operations over its launch contents. -/
import proofs.«133701_j46024869544456_1_alg».proof.Proof.RefWin
import proofs.«133701_j46024869544456_1_alg».proof.Proof.RefSub

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The signature scopes no TensorCore buffer: all its buffers are the program's tensor values, in HBM. -/
theorem scopedRefs_eq : (Finset.univ.filter fun b : Ref sig .tc => b.isScoped) = ∅ := by decide
/-- No semaphore of the signature is scoped on the TensorCore (it declares zero regular and zero DMA semaphores). -/
theorem scopedSems_eq : (Finset.univ.filter fun sm : SemLoc sig => sm.isScoped .tc) = ∅ := by decide

/-- On every device, for any float values, from any memory with zero counters: every weakly fair execution of @main on
    the TensorCores terminates, and every final state has each TensorCore buffer at the operations' fold over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.RefKept.lean ====
/- No operation of the reference program's @main writes an argument buffer: every operation's one written reference
   is a value of the program (or of a call), none of the thirty-two arguments; and the three index arrays main_v3,
   main_v6, main_v10 are written once, in the first piece, and by no later operation. Hence every piece of the list,
   every segment and the whole list leave each argument's contents as they were, and every piece and segment after
   the first leaves the three index arrays as they were. -/
import proofs.«133701_j46024869544456_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's thirty-two arguments. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26, main_arg27, main_arg28, main_arg29, main_arg30,
   main_arg31]

/-- The arguments and the three index arrays the first piece computes from them. -/
abbrev keptRefs : List (Ref sig .tc) := argRefs ++ [main_v3, main_v6, main_v10]

/-- The operation writes none of the references `K`. -/
def NoWrite (K : List (Ref sig .tc)) (op : HloOp τ sig (Elt F)) : Prop := ∀ b ∈ K, Proc.devRef (τ := τ) .tc b ∉ op.writes

/-- An operation whose written set is the one reference `y`, not among `K`, writes none of `K`
    (distinct references are distinct device buffers). -/
theorem noWrite_of_writes {K : List (Ref sig .tc)} {op : HloOp τ sig (Elt F)} {y : Ref sig .tc}
    (hw : op.writes = {Proc.devRef (τ := τ) .tc y}) (hy : y ∉ K) : NoWrite K op := by
  intro b hb hmem
  rw [hw, Finset.mem_singleton] at hmem
  exact hy (Proc.devRef_injective _ hmem ▸ hb)

/-- Writing none of a list is writing none of a part of it. -/
theorem NoWrite.mono {K K' : List (Ref sig .tc)} (hK : ∀ b ∈ K', b ∈ K) {op : HloOp τ sig (Elt F)} (h : NoWrite K op) :
    NoWrite K' op := fun b hb => h b (hK b hb)

/-- The arguments are among the kept references. -/
theorem arg_mem_kept : ∀ b ∈ argRefs, b ∈ keptRefs := fun _ hb => List.mem_append_left _ hb

/-- A list of operations none of which writes any of `K` keeps every one of `K`. -/
theorem kept_of_noWrite {K : List (Ref sig .tc)} {l : List (HloOp τ sig (Elt F))} (h : l.Forall (NoWrite K))
    (V : Valuation τ sig (Elt F)) : ∀ b ∈ K, after l V (Proc.devRef .tc b) = V (Proc.devRef .tc b) :=
  fun b hb => after_of_forall_not_mem l V fun op hop => List.forall_iff_forall_mem.1 h op hop b hb

/-- One builder's operation: its written set is its one result reference by computation, and that reference is
    decidably none of the listed ones. -/
macro "nowrite_op" : tactic => `(tactic| exact noWrite_of_writes rfl (by decide))

/-- A literal list, entry by entry. -/
macro "nowrite_list" : tactic =>
  `(tactic| repeat' (first | refine (List.forall_cons _ _ _).2 ⟨?_, ?_⟩ | nowrite_op | exact trivial))

/-! The first piece writes no argument (it is the one that writes the three index arrays); every later piece writes
    neither an argument nor an index array. -/
theorem q0_noWrite : List.Forall (NoWrite (F := F) argRefs) q0 := by nowrite_list
theorem q1_noWrite : List.Forall (NoWrite (F := F) keptRefs) q1 := by nowrite_list
theorem q2_noWrite : List.Forall (NoWrite (F := F) keptRefs) q2 := by nowrite_list
theorem q3_noWrite : List.Forall (NoWrite (F := F) keptRefs) q3 := by nowrite_list
theorem q4_noWrite : List.Forall (NoWrite (F := F) keptRefs) q4 := by nowrite_list
theorem q5_noWrite : List.Forall (NoWrite (F := F) keptRefs) q5 := by nowrite_list
theorem q6_noWrite : List.Forall (NoWrite (F := F) keptRefs) q6 := by nowrite_list
theorem q7_noWrite : List.Forall (NoWrite (F := F) keptRefs) q7 := by nowrite_list
theorem q8_noWrite : List.Forall (NoWrite (F := F) keptRefs) q8 := by nowrite_list
theorem q9_noWrite : List.Forall (NoWrite (F := F) keptRefs) q9 := by nowrite_list
theorem q10_noWrite : List.Forall (NoWrite (F := F) keptRefs) q10 := by nowrite_list
theorem q11_noWrite : List.Forall (NoWrite (F := F) keptRefs) q11 := by nowrite_list
theorem q12_noWrite : List.Forall (NoWrite (F := F) keptRefs) q12 := by nowrite_list
theorem q13_noWrite : List.Forall (NoWrite (F := F) keptRefs) q13 := by nowrite_list
theorem q14_noWrite : List.Forall (NoWrite (F := F) keptRefs) q14 := by nowrite_list
theorem q15_noWrite : List.Forall (NoWrite (F := F) keptRefs) q15 := by nowrite_list
theorem q16_noWrite : List.Forall (NoWrite (F := F) keptRefs) q16 := by nowrite_list
theorem q17_noWrite : List.Forall (NoWrite (F := F) keptRefs) q17 := by nowrite_list
theorem q18_noWrite : List.Forall (NoWrite (F := F) keptRefs) q18 := by nowrite_list
theorem q19_noWrite : List.Forall (NoWrite (F := F) keptRefs) q19 := by nowrite_list
theorem q20_noWrite : List.Forall (NoWrite (F := F) keptRefs) q20 := by nowrite_list
theorem q21_noWrite : List.Forall (NoWrite (F := F) keptRefs) q21 := by nowrite_list
theorem q22_noWrite : List.Forall (NoWrite (F := F) keptRefs) q22 := by nowrite_list
theorem q23_noWrite : List.Forall (NoWrite (F := F) keptRefs) q23 := by nowrite_list
theorem q24_noWrite : List.Forall (NoWrite (F := F) keptRefs) q24 := by nowrite_list
theorem q25_noWrite : List.Forall (NoWrite (F := F) keptRefs) q25 := by nowrite_list
theorem q26_noWrite : List.Forall (NoWrite (F := F) keptRefs) q26 := by nowrite_list
theorem q27_noWrite : List.Forall (NoWrite (F := F) keptRefs) q27 := by nowrite_list
theorem q28_noWrite : List.Forall (NoWrite (F := F) keptRefs) q28 := by nowrite_list
theorem q29_noWrite : List.Forall (NoWrite (F := F) keptRefs) q29 := by nowrite_list
theorem q30_noWrite : List.Forall (NoWrite (F := F) keptRefs) q30 := by nowrite_list
theorem q31_noWrite : List.Forall (NoWrite (F := F) keptRefs) q31 := by nowrite_list
theorem q32_noWrite : List.Forall (NoWrite (F := F) keptRefs) q32 := by nowrite_list
theorem q33_noWrite : List.Forall (NoWrite (F := F) keptRefs) q33 := by nowrite_list
theorem q34_noWrite : List.Forall (NoWrite (F := F) keptRefs) q34 := by nowrite_list
theorem q35_noWrite : List.Forall (NoWrite (F := F) keptRefs) q35 := by nowrite_list
theorem q36_noWrite : List.Forall (NoWrite (F := F) keptRefs) q36 := by nowrite_list

theorem seg0_noWrite : List.Forall (NoWrite (F := F) argRefs) seg0 := q0_noWrite
theorem seg1_noWrite : List.Forall (NoWrite (F := F) keptRefs) seg1 :=
  List.forall_append.2 ⟨q1_noWrite, List.forall_append.2 ⟨q2_noWrite, List.forall_append.2 ⟨q3_noWrite, List.forall_append.2 ⟨q4_noWrite, q5_noWrite⟩⟩⟩⟩
theorem seg2_noWrite : List.Forall (NoWrite (F := F) keptRefs) seg2 :=
  List.forall_append.2 ⟨q6_noWrite, List.forall_append.2 ⟨q7_noWrite, List.forall_append.2 ⟨q8_noWrite, List.forall_append.2 ⟨q9_noWrite, List.forall_append.2 ⟨q10_noWrite, q11_noWrite⟩⟩⟩⟩⟩
theorem seg3_noWrite : List.Forall (NoWrite (F := F) keptRefs) seg3 :=
  List.forall_append.2 ⟨q12_noWrite, List.forall_append.2 ⟨q13_noWrite, List.forall_append.2 ⟨q14_noWrite, List.forall_append.2 ⟨q15_noWrite, q16_noWrite⟩⟩⟩⟩
theorem seg4_noWrite : List.Forall (NoWrite (F := F) keptRefs) seg4 :=
  List.forall_append.2 ⟨q17_noWrite, List.forall_append.2 ⟨q18_noWrite, List.forall_append.2 ⟨q19_noWrite, List.forall_append.2 ⟨q20_noWrite, List.forall_append.2 ⟨q21_noWrite, q22_noWrite⟩⟩⟩⟩⟩
theorem seg5_noWrite : List.Forall (NoWrite (F := F) keptRefs) seg5 :=
  List.forall_append.2 ⟨q23_noWrite, List.forall_append.2 ⟨q24_noWrite, List.forall_append.2 ⟨q25_noWrite, List.forall_append.2 ⟨q26_noWrite, q27_noWrite⟩⟩⟩⟩
theorem seg6_noWrite : List.Forall (NoWrite (F := F) keptRefs) seg6 :=
  List.forall_append.2 ⟨q28_noWrite, List.forall_append.2 ⟨q29_noWrite, List.forall_append.2 ⟨q30_noWrite, List.forall_append.2 ⟨q31_noWrite, List.forall_append.2 ⟨q32_noWrite, List.forall_append.2 ⟨q33_noWrite, List.forall_append.2 ⟨q34_noWrite, List.forall_append.2 ⟨q35_noWrite, q36_noWrite⟩⟩⟩⟩⟩⟩⟩⟩

theorem ops_noWrite : List.Forall (NoWrite (F := F) argRefs) ops :=
  List.forall_append.2 ⟨seg0_noWrite, List.forall_append.2 ⟨(seg1_noWrite.imp fun _ => NoWrite.mono arg_mem_kept), List.forall_append.2 ⟨(seg2_noWrite.imp fun _ => NoWrite.mono arg_mem_kept), List.forall_append.2 ⟨(seg3_noWrite.imp fun _ => NoWrite.mono arg_mem_kept), List.forall_append.2 ⟨(seg4_noWrite.imp fun _ => NoWrite.mono arg_mem_kept), List.forall_append.2 ⟨(seg5_noWrite.imp fun _ => NoWrite.mono arg_mem_kept), (seg6_noWrite.imp fun _ => NoWrite.mono arg_mem_kept)⟩⟩⟩⟩⟩⟩

variable (V : Valuation τ sig (Elt F))

/-! Each piece keeps every argument, and after the first also the three index arrays. -/
theorem kept_q0 : ∀ b ∈ argRefs, after (q0 (F := F)) V (Proc.devRef .tc b) = V (Proc.devRef .tc b) := kept_of_noWrite q0_noWrite V
theorem kept_q1 : ∀ b ∈ keptRefs, after (q1 (F := F)) V (Proc.devRef .tc b) = V (Proc.devRef .tc b) := kept_of_noWrite q1_noWrite V
theorem kept_q2 : ∀ b ∈ keptRefs, after (q2 (F := F)) V (Proc.devRef .tc b) = V (Proc.devRef .tc b) := kept_of_noWrite q2_noWrite V
theorem kept_q3 : ∀ b ∈ keptRefs, after (q3 (F := F)) V (Proc.devRef .tc b) = V (Proc.devRef .tc b) := kept_of_noWrite q3_noWrite V
theorem kept_q4 : ∀ b ∈ keptRefs, after (q4 (F := F)) V (Proc.devRef .tc b) = V (Proc.devRef .tc b) := kept_of_noWrite q4_noWrite V
theorem kept_q5 : ∀ b ∈ keptRefs, after (q5 (F := F)) V (Proc.devRef .tc b) = V (Proc.devRef .tc b) := kept_of_noWrite q5_noWrite V
theorem kept_q6 : ∀ b ∈ keptRefs, after (q6 (F := F)) V (Proc.devRef .tc b) = V (Proc.devRef .tc b) := kept_of_noWrite q6_noWrite V
theorem kept_q7 : ∀ b ∈ keptRefs, after (q7 (F := F)) V (Proc.devRef .tc b) = V (Proc.devRef .tc b) := kept_of_noWrite q7_noWrite V
theorem kept_q8 : ∀ b ∈ keptRefs, after (q8 (F := F)) V (Proc.devRef .tc b) = V (Proc.devRef .tc b) := kept_of_noWrite q8_noWrite V
theorem kept_q9 : ∀ b ∈ keptRefs, after (q9 (F := F)) V (Proc.devRef .tc b) = V (Proc.devRef .tc b) := kept_of_noWrite q9_noWrite V
theorem kept_q10 : ∀ b ∈ keptRefs, after (q10 (F := F)) V (Proc.devRef .tc b) = V (Proc.devRef .tc b) := kept_of_noWrite q10_noWrite V
theorem kept_q11 : ∀ b ∈ keptRefs, after (q11 (F := F)) V (Proc.devRef .tc b) = V (Proc.devRef .tc b) := kept_of_noWrite q11_noWrite V
theorem kept_q12 : ∀ b ∈ keptRefs, after (q12 (F := F)) V (Proc.devRef .tc b) = V (Proc.devRef .tc b) := kept_of_noWrite q12_noWrite V
theorem kept_q13 : ∀ b ∈ keptRefs, after (q13 (F := F)) V (Proc.devRef .tc b) = V (Proc.devRef .tc b) := kept_of_noWrite q13_noWrite V
theorem kept_q14 : ∀ b ∈ keptRefs, after (q14 (F := F)) V (Proc.devRef .tc b) = V (Proc.devRef .tc b) := kept_of_noWrite q14_noWrite V
theorem kept_q15 : ∀ b ∈ keptRefs, after (q15 (F := F)) V (Proc.devRef .tc b) = V (Proc.devRef .tc b) := kept_of_noWrite q15_noWrite V
theorem kept_q16 : ∀ b ∈ keptRefs, after (q16 (F := F)) V (Proc.devRef .tc b) = V (Proc.devRef .tc b) := kept_of_noWrite q16_noWrite V
theorem kept_q17 : ∀ b ∈ keptRefs, after (q17 (F := F)) V (Proc.devRef .tc b) = V (Proc.devRef .tc b) := kept_of_noWrite q17_noWrite V
theorem kept_q18 : ∀ b ∈ keptRefs, after (q18 (F := F)) V (Proc.devRef .tc b) = V (Proc.devRef .tc b) := kept_of_noWrite q18_noWrite V
theorem kept_q19 : ∀ b ∈ keptRefs, after (q19 (F := F)) V (Proc.devRef .tc b) = V (Proc.devRef .tc b) := kept_of_noWrite q19_noWrite V
theorem kept_q20 : ∀ b ∈ keptRefs, after (q20 (F := F)) V (Proc.devRef .tc b) = V (Proc.devRef .tc b) := kept_of_noWrite q20_noWrite V
theorem kept_q21 : ∀ b ∈ keptRefs, after (q21 (F := F)) V (Proc.devRef .tc b) = V (Proc.devRef .tc b) := kept_of_noWrite q21_noWrite V
theorem kept_q22 : ∀ b ∈ keptRefs, after (q22 (F := F)) V (Proc.devRef .tc b) = V (Proc.devRef .tc b) := kept_of_noWrite q22_noWrite V
theorem kept_q23 : ∀ b ∈ keptRefs, after (q23 (F := F)) V (Proc.devRef .tc b) = V (Proc.devRef .tc b) := kept_of_noWrite q23_noWrite V
theorem kept_q24 : ∀ b ∈ keptRefs, after (q24 (F := F)) V (Proc.devRef .tc b) = V (Proc.devRef .tc b) := kept_of_noWrite q24_noWrite V
theorem kept_q25 : ∀ b ∈ keptRefs, after (q25 (F := F)) V (Proc.devRef .tc b) = V (Proc.devRef .tc b) := kept_of_noWrite q25_noWrite V
theorem kept_q26 : ∀ b ∈ keptRefs, after (q26 (F := F)) V (Proc.devRef .tc b) = V (Proc.devRef .tc b) := kept_of_noWrite q26_noWrite V
theorem kept_q27 : ∀ b ∈ keptRefs, after (q27 (F := F)) V (Proc.devRef .tc b) = V (Proc.devRef .tc b) := kept_of_noWrite q27_noWrite V
theorem kept_q28 : ∀ b ∈ keptRefs, after (q28 (F := F)) V (Proc.devRef .tc b) = V (Proc.devRef .tc b) := kept_of_noWrite q28_noWrite V
theorem kept_q29 : ∀ b ∈ keptRefs, after (q29 (F := F)) V (Proc.devRef .tc b) = V (Proc.devRef .tc b) := kept_of_noWrite q29_noWrite V
theorem kept_q30 : ∀ b ∈ keptRefs, after (q30 (F := F)) V (Proc.devRef .tc b) = V (Proc.devRef .tc b) := kept_of_noWrite q30_noWrite V
theorem kept_q31 : ∀ b ∈ keptRefs, after (q31 (F := F)) V (Proc.devRef .tc b) = V (Proc.devRef .tc b) := kept_of_noWrite q31_noWrite V
theorem kept_q32 : ∀ b ∈ keptRefs, after (q32 (F := F)) V (Proc.devRef .tc b) = V (Proc.devRef .tc b) := kept_of_noWrite q32_noWrite V
theorem kept_q33 : ∀ b ∈ keptRefs, after (q33 (F := F)) V (Proc.devRef .tc b) = V (Proc.devRef .tc b) := kept_of_noWrite q33_noWrite V
theorem kept_q34 : ∀ b ∈ keptRefs, after (q34 (F := F)) V (Proc.devRef .tc b) = V (Proc.devRef .tc b) := kept_of_noWrite q34_noWrite V
theorem kept_q35 : ∀ b ∈ keptRefs, after (q35 (F := F)) V (Proc.devRef .tc b) = V (Proc.devRef .tc b) := kept_of_noWrite q35_noWrite V
theorem kept_q36 : ∀ b ∈ keptRefs, after (q36 (F := F)) V (Proc.devRef .tc b) = V (Proc.devRef .tc b) := kept_of_noWrite q36_noWrite V

/-! Each segment likewise, and the whole list keeps every argument. -/
theorem kept_seg0 : ∀ b ∈ argRefs, after (seg0 (F := F)) V (Proc.devRef .tc b) = V (Proc.devRef .tc b) := kept_of_noWrite seg0_noWrite V
theorem kept_seg1 : ∀ b ∈ keptRefs, after (seg1 (F := F)) V (Proc.devRef .tc b) = V (Proc.devRef .tc b) := kept_of_noWrite seg1_noWrite V
theorem kept_seg2 : ∀ b ∈ keptRefs, after (seg2 (F := F)) V (Proc.devRef .tc b) = V (Proc.devRef .tc b) := kept_of_noWrite seg2_noWrite V
theorem kept_seg3 : ∀ b ∈ keptRefs, after (seg3 (F := F)) V (Proc.devRef .tc b) = V (Proc.devRef .tc b) := kept_of_noWrite seg3_noWrite V
theorem kept_seg4 : ∀ b ∈ keptRefs, after (seg4 (F := F)) V (Proc.devRef .tc b) = V (Proc.devRef .tc b) := kept_of_noWrite seg4_noWrite V
theorem kept_seg5 : ∀ b ∈ keptRefs, after (seg5 (F := F)) V (Proc.devRef .tc b) = V (Proc.devRef .tc b) := kept_of_noWrite seg5_noWrite V
theorem kept_seg6 : ∀ b ∈ keptRefs, after (seg6 (F := F)) V (Proc.devRef .tc b) = V (Proc.devRef .tc b) := kept_of_noWrite seg6_noWrite V
theorem kept_ops : ∀ b ∈ argRefs, after (ops (F := F)) V (Proc.devRef .tc b) = V (Proc.devRef .tc b) := kept_of_noWrite ops_noWrite V

end Cert.ReferenceIdeal.Hand

end
-- ==== Proof.RefChain.lean ====
/- The reference's valuations piece after piece: from a memory `m'` and a device `c`, the launch contents, then what
   each of the 37 pieces leaves. The whole list ends at the last of these; the arguments are the launch contents at every
   one of them, and the three index arrays are, after every piece past the first, what the first piece made them. -/
import proofs.«133701_j46024869544456_1_alg».proof.Proof.RefRun
import proofs.«133701_j46024869544456_1_alg».proof.Proof.RefKept

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (m' : (ℓ : Loc nD τ sig) → Buf (Elt F) ℓ) (c : Dev nD)

/-- The device's buffers at launch. -/
abbrev R_init : Valuation τ sig (Elt F) := launchContents m' c
/-- The device's buffers after the pieces up to the one named. -/
abbrev R_q0 : Valuation τ sig (Elt F) := after q0 (R_init m' c)
abbrev R_q1 : Valuation τ sig (Elt F) := after q1 (R_q0 m' c)
abbrev R_q2 : Valuation τ sig (Elt F) := after q2 (R_q1 m' c)
abbrev R_q3 : Valuation τ sig (Elt F) := after q3 (R_q2 m' c)
abbrev R_q4 : Valuation τ sig (Elt F) := after q4 (R_q3 m' c)
abbrev R_q5 : Valuation τ sig (Elt F) := after q5 (R_q4 m' c)
abbrev R_q6 : Valuation τ sig (Elt F) := after q6 (R_q5 m' c)
abbrev R_q7 : Valuation τ sig (Elt F) := after q7 (R_q6 m' c)
abbrev R_q8 : Valuation τ sig (Elt F) := after q8 (R_q7 m' c)
abbrev R_q9 : Valuation τ sig (Elt F) := after q9 (R_q8 m' c)
abbrev R_q10 : Valuation τ sig (Elt F) := after q10 (R_q9 m' c)
abbrev R_q11 : Valuation τ sig (Elt F) := after q11 (R_q10 m' c)
abbrev R_q12 : Valuation τ sig (Elt F) := after q12 (R_q11 m' c)
abbrev R_q13 : Valuation τ sig (Elt F) := after q13 (R_q12 m' c)
abbrev R_q14 : Valuation τ sig (Elt F) := after q14 (R_q13 m' c)
abbrev R_q15 : Valuation τ sig (Elt F) := after q15 (R_q14 m' c)
abbrev R_q16 : Valuation τ sig (Elt F) := after q16 (R_q15 m' c)
abbrev R_q17 : Valuation τ sig (Elt F) := after q17 (R_q16 m' c)
abbrev R_q18 : Valuation τ sig (Elt F) := after q18 (R_q17 m' c)
abbrev R_q19 : Valuation τ sig (Elt F) := after q19 (R_q18 m' c)
abbrev R_q20 : Valuation τ sig (Elt F) := after q20 (R_q19 m' c)
abbrev R_q21 : Valuation τ sig (Elt F) := after q21 (R_q20 m' c)
abbrev R_q22 : Valuation τ sig (Elt F) := after q22 (R_q21 m' c)
abbrev R_q23 : Valuation τ sig (Elt F) := after q23 (R_q22 m' c)
abbrev R_q24 : Valuation τ sig (Elt F) := after q24 (R_q23 m' c)
abbrev R_q25 : Valuation τ sig (Elt F) := after q25 (R_q24 m' c)
abbrev R_q26 : Valuation τ sig (Elt F) := after q26 (R_q25 m' c)
abbrev R_q27 : Valuation τ sig (Elt F) := after q27 (R_q26 m' c)
abbrev R_q28 : Valuation τ sig (Elt F) := after q28 (R_q27 m' c)
abbrev R_q29 : Valuation τ sig (Elt F) := after q29 (R_q28 m' c)
abbrev R_q30 : Valuation τ sig (Elt F) := after q30 (R_q29 m' c)
abbrev R_q31 : Valuation τ sig (Elt F) := after q31 (R_q30 m' c)
abbrev R_q32 : Valuation τ sig (Elt F) := after q32 (R_q31 m' c)
abbrev R_q33 : Valuation τ sig (Elt F) := after q33 (R_q32 m' c)
abbrev R_q34 : Valuation τ sig (Elt F) := after q34 (R_q33 m' c)
abbrev R_q35 : Valuation τ sig (Elt F) := after q35 (R_q34 m' c)
abbrev R_q36 : Valuation τ sig (Elt F) := after q36 (R_q35 m' c)

/-- The whole list from the launch contents ends at the last piece's valuation. -/
theorem after_ops_chain : after (ops (F := F)) (launchContents m' c) = R_q36 m' c := by
  rw [after_ops, after_seg6, after_seg5, after_seg4, after_seg3, after_seg2, after_seg1]

/-- A launch content is the memory's cell of that device's buffer. -/
theorem launch_at (b : Ref sig .tc) : launchContents m' c (Proc.devRef .tc b) = m' ((c.tc : Thread nD τ).loc b) := rfl

/-- The first piece keeps the arguments. -/
theorem args_at_q0 : ∀ b ∈ argRefs, R_q0 m' c (Proc.devRef .tc b) = launchContents m' c (Proc.devRef .tc b) :=
  kept_q0 (R_init m' c)

/-! After each later piece, the arguments and the three index arrays are what they were after the first piece. -/
theorem kept_at_q1 : ∀ b ∈ keptRefs, R_q1 m' c (Proc.devRef .tc b) = R_q0 m' c (Proc.devRef .tc b) :=
  kept_q1 (R_q0 m' c)
theorem kept_at_q2 : ∀ b ∈ keptRefs, R_q2 m' c (Proc.devRef .tc b) = R_q0 m' c (Proc.devRef .tc b) :=
  fun b hb => (kept_q2 (R_q1 m' c) b hb).trans (kept_at_q1 m' c b hb)
theorem kept_at_q3 : ∀ b ∈ keptRefs, R_q3 m' c (Proc.devRef .tc b) = R_q0 m' c (Proc.devRef .tc b) :=
  fun b hb => (kept_q3 (R_q2 m' c) b hb).trans (kept_at_q2 m' c b hb)
theorem kept_at_q4 : ∀ b ∈ keptRefs, R_q4 m' c (Proc.devRef .tc b) = R_q0 m' c (Proc.devRef .tc b) :=
  fun b hb => (kept_q4 (R_q3 m' c) b hb).trans (kept_at_q3 m' c b hb)
theorem kept_at_q5 : ∀ b ∈ keptRefs, R_q5 m' c (Proc.devRef .tc b) = R_q0 m' c (Proc.devRef .tc b) :=
  fun b hb => (kept_q5 (R_q4 m' c) b hb).trans (kept_at_q4 m' c b hb)
theorem kept_at_q6 : ∀ b ∈ keptRefs, R_q6 m' c (Proc.devRef .tc b) = R_q0 m' c (Proc.devRef .tc b) :=
  fun b hb => (kept_q6 (R_q5 m' c) b hb).trans (kept_at_q5 m' c b hb)
theorem kept_at_q7 : ∀ b ∈ keptRefs, R_q7 m' c (Proc.devRef .tc b) = R_q0 m' c (Proc.devRef .tc b) :=
  fun b hb => (kept_q7 (R_q6 m' c) b hb).trans (kept_at_q6 m' c b hb)
theorem kept_at_q8 : ∀ b ∈ keptRefs, R_q8 m' c (Proc.devRef .tc b) = R_q0 m' c (Proc.devRef .tc b) :=
  fun b hb => (kept_q8 (R_q7 m' c) b hb).trans (kept_at_q7 m' c b hb)
theorem kept_at_q9 : ∀ b ∈ keptRefs, R_q9 m' c (Proc.devRef .tc b) = R_q0 m' c (Proc.devRef .tc b) :=
  fun b hb => (kept_q9 (R_q8 m' c) b hb).trans (kept_at_q8 m' c b hb)
theorem kept_at_q10 : ∀ b ∈ keptRefs, R_q10 m' c (Proc.devRef .tc b) = R_q0 m' c (Proc.devRef .tc b) :=
  fun b hb => (kept_q10 (R_q9 m' c) b hb).trans (kept_at_q9 m' c b hb)
theorem kept_at_q11 : ∀ b ∈ keptRefs, R_q11 m' c (Proc.devRef .tc b) = R_q0 m' c (Proc.devRef .tc b) :=
  fun b hb => (kept_q11 (R_q10 m' c) b hb).trans (kept_at_q10 m' c b hb)
theorem kept_at_q12 : ∀ b ∈ keptRefs, R_q12 m' c (Proc.devRef .tc b) = R_q0 m' c (Proc.devRef .tc b) :=
  fun b hb => (kept_q12 (R_q11 m' c) b hb).trans (kept_at_q11 m' c b hb)
theorem kept_at_q13 : ∀ b ∈ keptRefs, R_q13 m' c (Proc.devRef .tc b) = R_q0 m' c (Proc.devRef .tc b) :=
  fun b hb => (kept_q13 (R_q12 m' c) b hb).trans (kept_at_q12 m' c b hb)
theorem kept_at_q14 : ∀ b ∈ keptRefs, R_q14 m' c (Proc.devRef .tc b) = R_q0 m' c (Proc.devRef .tc b) :=
  fun b hb => (kept_q14 (R_q13 m' c) b hb).trans (kept_at_q13 m' c b hb)
theorem kept_at_q15 : ∀ b ∈ keptRefs, R_q15 m' c (Proc.devRef .tc b) = R_q0 m' c (Proc.devRef .tc b) :=
  fun b hb => (kept_q15 (R_q14 m' c) b hb).trans (kept_at_q14 m' c b hb)
theorem kept_at_q16 : ∀ b ∈ keptRefs, R_q16 m' c (Proc.devRef .tc b) = R_q0 m' c (Proc.devRef .tc b) :=
  fun b hb => (kept_q16 (R_q15 m' c) b hb).trans (kept_at_q15 m' c b hb)
theorem kept_at_q17 : ∀ b ∈ keptRefs, R_q17 m' c (Proc.devRef .tc b) = R_q0 m' c (Proc.devRef .tc b) :=
  fun b hb => (kept_q17 (R_q16 m' c) b hb).trans (kept_at_q16 m' c b hb)
theorem kept_at_q18 : ∀ b ∈ keptRefs, R_q18 m' c (Proc.devRef .tc b) = R_q0 m' c (Proc.devRef .tc b) :=
  fun b hb => (kept_q18 (R_q17 m' c) b hb).trans (kept_at_q17 m' c b hb)
theorem kept_at_q19 : ∀ b ∈ keptRefs, R_q19 m' c (Proc.devRef .tc b) = R_q0 m' c (Proc.devRef .tc b) :=
  fun b hb => (kept_q19 (R_q18 m' c) b hb).trans (kept_at_q18 m' c b hb)
theorem kept_at_q20 : ∀ b ∈ keptRefs, R_q20 m' c (Proc.devRef .tc b) = R_q0 m' c (Proc.devRef .tc b) :=
  fun b hb => (kept_q20 (R_q19 m' c) b hb).trans (kept_at_q19 m' c b hb)
theorem kept_at_q21 : ∀ b ∈ keptRefs, R_q21 m' c (Proc.devRef .tc b) = R_q0 m' c (Proc.devRef .tc b) :=
  fun b hb => (kept_q21 (R_q20 m' c) b hb).trans (kept_at_q20 m' c b hb)
theorem kept_at_q22 : ∀ b ∈ keptRefs, R_q22 m' c (Proc.devRef .tc b) = R_q0 m' c (Proc.devRef .tc b) :=
  fun b hb => (kept_q22 (R_q21 m' c) b hb).trans (kept_at_q21 m' c b hb)
theorem kept_at_q23 : ∀ b ∈ keptRefs, R_q23 m' c (Proc.devRef .tc b) = R_q0 m' c (Proc.devRef .tc b) :=
  fun b hb => (kept_q23 (R_q22 m' c) b hb).trans (kept_at_q22 m' c b hb)
theorem kept_at_q24 : ∀ b ∈ keptRefs, R_q24 m' c (Proc.devRef .tc b) = R_q0 m' c (Proc.devRef .tc b) :=
  fun b hb => (kept_q24 (R_q23 m' c) b hb).trans (kept_at_q23 m' c b hb)
theorem kept_at_q25 : ∀ b ∈ keptRefs, R_q25 m' c (Proc.devRef .tc b) = R_q0 m' c (Proc.devRef .tc b) :=
  fun b hb => (kept_q25 (R_q24 m' c) b hb).trans (kept_at_q24 m' c b hb)
theorem kept_at_q26 : ∀ b ∈ keptRefs, R_q26 m' c (Proc.devRef .tc b) = R_q0 m' c (Proc.devRef .tc b) :=
  fun b hb => (kept_q26 (R_q25 m' c) b hb).trans (kept_at_q25 m' c b hb)
theorem kept_at_q27 : ∀ b ∈ keptRefs, R_q27 m' c (Proc.devRef .tc b) = R_q0 m' c (Proc.devRef .tc b) :=
  fun b hb => (kept_q27 (R_q26 m' c) b hb).trans (kept_at_q26 m' c b hb)
theorem kept_at_q28 : ∀ b ∈ keptRefs, R_q28 m' c (Proc.devRef .tc b) = R_q0 m' c (Proc.devRef .tc b) :=
  fun b hb => (kept_q28 (R_q27 m' c) b hb).trans (kept_at_q27 m' c b hb)
theorem kept_at_q29 : ∀ b ∈ keptRefs, R_q29 m' c (Proc.devRef .tc b) = R_q0 m' c (Proc.devRef .tc b) :=
  fun b hb => (kept_q29 (R_q28 m' c) b hb).trans (kept_at_q28 m' c b hb)
theorem kept_at_q30 : ∀ b ∈ keptRefs, R_q30 m' c (Proc.devRef .tc b) = R_q0 m' c (Proc.devRef .tc b) :=
  fun b hb => (kept_q30 (R_q29 m' c) b hb).trans (kept_at_q29 m' c b hb)
theorem kept_at_q31 : ∀ b ∈ keptRefs, R_q31 m' c (Proc.devRef .tc b) = R_q0 m' c (Proc.devRef .tc b) :=
  fun b hb => (kept_q31 (R_q30 m' c) b hb).trans (kept_at_q30 m' c b hb)
theorem kept_at_q32 : ∀ b ∈ keptRefs, R_q32 m' c (Proc.devRef .tc b) = R_q0 m' c (Proc.devRef .tc b) :=
  fun b hb => (kept_q32 (R_q31 m' c) b hb).trans (kept_at_q31 m' c b hb)
theorem kept_at_q33 : ∀ b ∈ keptRefs, R_q33 m' c (Proc.devRef .tc b) = R_q0 m' c (Proc.devRef .tc b) :=
  fun b hb => (kept_q33 (R_q32 m' c) b hb).trans (kept_at_q32 m' c b hb)
theorem kept_at_q34 : ∀ b ∈ keptRefs, R_q34 m' c (Proc.devRef .tc b) = R_q0 m' c (Proc.devRef .tc b) :=
  fun b hb => (kept_q34 (R_q33 m' c) b hb).trans (kept_at_q33 m' c b hb)
theorem kept_at_q35 : ∀ b ∈ keptRefs, R_q35 m' c (Proc.devRef .tc b) = R_q0 m' c (Proc.devRef .tc b) :=
  fun b hb => (kept_q35 (R_q34 m' c) b hb).trans (kept_at_q34 m' c b hb)
theorem kept_at_q36 : ∀ b ∈ keptRefs, R_q36 m' c (Proc.devRef .tc b) = R_q0 m' c (Proc.devRef .tc b) :=
  fun b hb => (kept_q36 (R_q35 m' c) b hb).trans (kept_at_q35 m' c b hb)

/-! After every piece, each argument is its launch content. -/
theorem args_at_q1 : ∀ b ∈ argRefs, R_q1 m' c (Proc.devRef .tc b) = launchContents m' c (Proc.devRef .tc b) :=
  fun b hb => (kept_at_q1 m' c b (arg_mem_kept b hb)).trans (args_at_q0 m' c b hb)
theorem args_at_q2 : ∀ b ∈ argRefs, R_q2 m' c (Proc.devRef .tc b) = launchContents m' c (Proc.devRef .tc b) :=
  fun b hb => (kept_at_q2 m' c b (arg_mem_kept b hb)).trans (args_at_q0 m' c b hb)
theorem args_at_q3 : ∀ b ∈ argRefs, R_q3 m' c (Proc.devRef .tc b) = launchContents m' c (Proc.devRef .tc b) :=
  fun b hb => (kept_at_q3 m' c b (arg_mem_kept b hb)).trans (args_at_q0 m' c b hb)
theorem args_at_q4 : ∀ b ∈ argRefs, R_q4 m' c (Proc.devRef .tc b) = launchContents m' c (Proc.devRef .tc b) :=
  fun b hb => (kept_at_q4 m' c b (arg_mem_kept b hb)).trans (args_at_q0 m' c b hb)
theorem args_at_q5 : ∀ b ∈ argRefs, R_q5 m' c (Proc.devRef .tc b) = launchContents m' c (Proc.devRef .tc b) :=
  fun b hb => (kept_at_q5 m' c b (arg_mem_kept b hb)).trans (args_at_q0 m' c b hb)
theorem args_at_q6 : ∀ b ∈ argRefs, R_q6 m' c (Proc.devRef .tc b) = launchContents m' c (Proc.devRef .tc b) :=
  fun b hb => (kept_at_q6 m' c b (arg_mem_kept b hb)).trans (args_at_q0 m' c b hb)
theorem args_at_q7 : ∀ b ∈ argRefs, R_q7 m' c (Proc.devRef .tc b) = launchContents m' c (Proc.devRef .tc b) :=
  fun b hb => (kept_at_q7 m' c b (arg_mem_kept b hb)).trans (args_at_q0 m' c b hb)
theorem args_at_q8 : ∀ b ∈ argRefs, R_q8 m' c (Proc.devRef .tc b) = launchContents m' c (Proc.devRef .tc b) :=
  fun b hb => (kept_at_q8 m' c b (arg_mem_kept b hb)).trans (args_at_q0 m' c b hb)
theorem args_at_q9 : ∀ b ∈ argRefs, R_q9 m' c (Proc.devRef .tc b) = launchContents m' c (Proc.devRef .tc b) :=
  fun b hb => (kept_at_q9 m' c b (arg_mem_kept b hb)).trans (args_at_q0 m' c b hb)
theorem args_at_q10 : ∀ b ∈ argRefs, R_q10 m' c (Proc.devRef .tc b) = launchContents m' c (Proc.devRef .tc b) :=
  fun b hb => (kept_at_q10 m' c b (arg_mem_kept b hb)).trans (args_at_q0 m' c b hb)
theorem args_at_q11 : ∀ b ∈ argRefs, R_q11 m' c (Proc.devRef .tc b) = launchContents m' c (Proc.devRef .tc b) :=
  fun b hb => (kept_at_q11 m' c b (arg_mem_kept b hb)).trans (args_at_q0 m' c b hb)
theorem args_at_q12 : ∀ b ∈ argRefs, R_q12 m' c (Proc.devRef .tc b) = launchContents m' c (Proc.devRef .tc b) :=
  fun b hb => (kept_at_q12 m' c b (arg_mem_kept b hb)).trans (args_at_q0 m' c b hb)
theorem args_at_q13 : ∀ b ∈ argRefs, R_q13 m' c (Proc.devRef .tc b) = launchContents m' c (Proc.devRef .tc b) :=
  fun b hb => (kept_at_q13 m' c b (arg_mem_kept b hb)).trans (args_at_q0 m' c b hb)
theorem args_at_q14 : ∀ b ∈ argRefs, R_q14 m' c (Proc.devRef .tc b) = launchContents m' c (Proc.devRef .tc b) :=
  fun b hb => (kept_at_q14 m' c b (arg_mem_kept b hb)).trans (args_at_q0 m' c b hb)
theorem args_at_q15 : ∀ b ∈ argRefs, R_q15 m' c (Proc.devRef .tc b) = launchContents m' c (Proc.devRef .tc b) :=
  fun b hb => (kept_at_q15 m' c b (arg_mem_kept b hb)).trans (args_at_q0 m' c b hb)
theorem args_at_q16 : ∀ b ∈ argRefs, R_q16 m' c (Proc.devRef .tc b) = launchContents m' c (Proc.devRef .tc b) :=
  fun b hb => (kept_at_q16 m' c b (arg_mem_kept b hb)).trans (args_at_q0 m' c b hb)
theorem args_at_q17 : ∀ b ∈ argRefs, R_q17 m' c (Proc.devRef .tc b) = launchContents m' c (Proc.devRef .tc b) :=
  fun b hb => (kept_at_q17 m' c b (arg_mem_kept b hb)).trans (args_at_q0 m' c b hb)
theorem args_at_q18 : ∀ b ∈ argRefs, R_q18 m' c (Proc.devRef .tc b) = launchContents m' c (Proc.devRef .tc b) :=
  fun b hb => (kept_at_q18 m' c b (arg_mem_kept b hb)).trans (args_at_q0 m' c b hb)
theorem args_at_q19 : ∀ b ∈ argRefs, R_q19 m' c (Proc.devRef .tc b) = launchContents m' c (Proc.devRef .tc b) :=
  fun b hb => (kept_at_q19 m' c b (arg_mem_kept b hb)).trans (args_at_q0 m' c b hb)
theorem args_at_q20 : ∀ b ∈ argRefs, R_q20 m' c (Proc.devRef .tc b) = launchContents m' c (Proc.devRef .tc b) :=
  fun b hb => (kept_at_q20 m' c b (arg_mem_kept b hb)).trans (args_at_q0 m' c b hb)
theorem args_at_q21 : ∀ b ∈ argRefs, R_q21 m' c (Proc.devRef .tc b) = launchContents m' c (Proc.devRef .tc b) :=
  fun b hb => (kept_at_q21 m' c b (arg_mem_kept b hb)).trans (args_at_q0 m' c b hb)
theorem args_at_q22 : ∀ b ∈ argRefs, R_q22 m' c (Proc.devRef .tc b) = launchContents m' c (Proc.devRef .tc b) :=
  fun b hb => (kept_at_q22 m' c b (arg_mem_kept b hb)).trans (args_at_q0 m' c b hb)
theorem args_at_q23 : ∀ b ∈ argRefs, R_q23 m' c (Proc.devRef .tc b) = launchContents m' c (Proc.devRef .tc b) :=
  fun b hb => (kept_at_q23 m' c b (arg_mem_kept b hb)).trans (args_at_q0 m' c b hb)
theorem args_at_q24 : ∀ b ∈ argRefs, R_q24 m' c (Proc.devRef .tc b) = launchContents m' c (Proc.devRef .tc b) :=
  fun b hb => (kept_at_q24 m' c b (arg_mem_kept b hb)).trans (args_at_q0 m' c b hb)
theorem args_at_q25 : ∀ b ∈ argRefs, R_q25 m' c (Proc.devRef .tc b) = launchContents m' c (Proc.devRef .tc b) :=
  fun b hb => (kept_at_q25 m' c b (arg_mem_kept b hb)).trans (args_at_q0 m' c b hb)
theorem args_at_q26 : ∀ b ∈ argRefs, R_q26 m' c (Proc.devRef .tc b) = launchContents m' c (Proc.devRef .tc b) :=
  fun b hb => (kept_at_q26 m' c b (arg_mem_kept b hb)).trans (args_at_q0 m' c b hb)
theorem args_at_q27 : ∀ b ∈ argRefs, R_q27 m' c (Proc.devRef .tc b) = launchContents m' c (Proc.devRef .tc b) :=
  fun b hb => (kept_at_q27 m' c b (arg_mem_kept b hb)).trans (args_at_q0 m' c b hb)
theorem args_at_q28 : ∀ b ∈ argRefs, R_q28 m' c (Proc.devRef .tc b) = launchContents m' c (Proc.devRef .tc b) :=
  fun b hb => (kept_at_q28 m' c b (arg_mem_kept b hb)).trans (args_at_q0 m' c b hb)
theorem args_at_q29 : ∀ b ∈ argRefs, R_q29 m' c (Proc.devRef .tc b) = launchContents m' c (Proc.devRef .tc b) :=
  fun b hb => (kept_at_q29 m' c b (arg_mem_kept b hb)).trans (args_at_q0 m' c b hb)
theorem args_at_q30 : ∀ b ∈ argRefs, R_q30 m' c (Proc.devRef .tc b) = launchContents m' c (Proc.devRef .tc b) :=
  fun b hb => (kept_at_q30 m' c b (arg_mem_kept b hb)).trans (args_at_q0 m' c b hb)
theorem args_at_q31 : ∀ b ∈ argRefs, R_q31 m' c (Proc.devRef .tc b) = launchContents m' c (Proc.devRef .tc b) :=
  fun b hb => (kept_at_q31 m' c b (arg_mem_kept b hb)).trans (args_at_q0 m' c b hb)
theorem args_at_q32 : ∀ b ∈ argRefs, R_q32 m' c (Proc.devRef .tc b) = launchContents m' c (Proc.devRef .tc b) :=
  fun b hb => (kept_at_q32 m' c b (arg_mem_kept b hb)).trans (args_at_q0 m' c b hb)
theorem args_at_q33 : ∀ b ∈ argRefs, R_q33 m' c (Proc.devRef .tc b) = launchContents m' c (Proc.devRef .tc b) :=
  fun b hb => (kept_at_q33 m' c b (arg_mem_kept b hb)).trans (args_at_q0 m' c b hb)
theorem args_at_q34 : ∀ b ∈ argRefs, R_q34 m' c (Proc.devRef .tc b) = launchContents m' c (Proc.devRef .tc b) :=
  fun b hb => (kept_at_q34 m' c b (arg_mem_kept b hb)).trans (args_at_q0 m' c b hb)
theorem args_at_q35 : ∀ b ∈ argRefs, R_q35 m' c (Proc.devRef .tc b) = launchContents m' c (Proc.devRef .tc b) :=
  fun b hb => (kept_at_q35 m' c b (arg_mem_kept b hb)).trans (args_at_q0 m' c b hb)
theorem args_at_q36 : ∀ b ∈ argRefs, R_q36 m' c (Proc.devRef .tc b) = launchContents m' c (Proc.devRef .tc b) :=
  fun b hb => (kept_at_q36 m' c b (arg_mem_kept b hb)).trans (args_at_q0 m' c b hb)

end Cert.ReferenceIdeal.Hand

end
-- ==== Proof.KChain.lean ====
/-
  The buffers the idealized kernel's run never rewrites. Its buffer contents at each segment boundary are a fold from the
  launch memory; no host operation writes an argument array, nor the three index arrays the first stretch prepares (the
  edge sources, the edge targets, the edge attributes, each with the self loops appended), and a kernel region replaces
  only its own arrays. So at every boundary these buffers hold what they held after the first stretch, and the arguments
  what the launch memory holds.
-/
import proofs.«133701_j46024869544456_1_alg».proof.Proof.FrameKI
import proofs.«133701_j46024869544456_1_alg».proof.Proof.KKept

set_option maxRecDepth 16384
-- one declaration at a time: each decision over a region's windows holds memory while it runs
set_option Elab.async false

noncomputable section

namespace Cert.KernelIdeal.Chain

open Cert.KernelIdeal Cert.KernelIdeal.Gen Cert.KernelIdeal.Kept
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The launch contents of a buffer are the launch memory's. -/
theorem launch_at (b : Ref sig .tc) : W0 m ρ c (Proc.devRef .tc b) = m ((c : Thread nD τ).loc b) := rfl

/-- The first two stretches (the input embedding) write no argument. -/
theorem args2 : ∀ b ∈ argRefs, W2 m ρ c (Proc.devRef .tc b) = W0 m ρ c (Proc.devRef .tc b) := fun b hb =>
  (kept_hostOps0_1 (W1 m ρ c) b hb).trans (kept_hostOps0 (W0 m ρ c) b hb)

/-- None of the kept buffers is an array of region 0. -/
theorem noWin0 : ∀ b ∈ keptRefs, ∀ w, Pipeline.arrRef spec0 w ≠ b := by decide

/-- None of the kept buffers is an array of region 1. -/
theorem noWin1 : ∀ b ∈ keptRefs, ∀ w, Pipeline.arrRef spec1 w ≠ b := by decide

/-- None of the kept buffers is an array of region 2. -/
theorem noWin2 : ∀ b ∈ keptRefs, ∀ w, Pipeline.arrRef spec2 w ≠ b := by decide

/-- None of the kept buffers is an array of region 3. -/
theorem noWin3 : ∀ b ∈ keptRefs, ∀ w, Pipeline.arrRef spec3 w ≠ b := by decide

/-- None of the kept buffers is an array of region 4. -/
theorem noWin4 : ∀ b ∈ keptRefs, ∀ w, Pipeline.arrRef spec4 w ≠ b := by decide

/-- None of the kept buffers is an array of region 5. -/
theorem noWin5 : ∀ b ∈ keptRefs, ∀ w, Pipeline.arrRef spec5 w ≠ b := by decide

/-- None of the kept buffers is an array of region 6. -/
theorem noWin6 : ∀ b ∈ keptRefs, ∀ w, Pipeline.arrRef spec6 w ≠ b := by decide

/-- None of the kept buffers is an array of region 7. -/
theorem noWin7 : ∀ b ∈ keptRefs, ∀ w, Pipeline.arrRef spec7 w ≠ b := by decide

/-- None of the kept buffers is an array of region 8. -/
theorem noWin8 : ∀ b ∈ keptRefs, ∀ w, Pipeline.arrRef spec8 w ≠ b := by decide

/-- None of the kept buffers is an array of region 9. -/
theorem noWin9 : ∀ b ∈ keptRefs, ∀ w, Pipeline.arrRef spec9 w ≠ b := by decide

/-- Regions 10, 11 and 12 read some arguments directly; the others are none of their arrays. -/
theorem noWin10 : ∀ b ∈ keptRefs, b ≠ main_arg18 → b ≠ main_arg20 → ∀ w, Pipeline.arrRef spec10 w ≠ b := by decide
theorem noWin11 : ∀ b ∈ keptRefs, b ≠ main_arg21 → b ≠ main_arg23 → ∀ w, Pipeline.arrRef spec11 w ≠ b := by decide
theorem keep3 : ∀ b ∈ keptRefs, W3 m ρ c (Proc.devRef .tc b) = W2 m ρ c (Proc.devRef .tc b) := fun b hb =>
  kept_hostOps0_2 (W2 m ρ c) b hb
theorem keep4 : ∀ b ∈ keptRefs, W4 m ρ c (Proc.devRef .tc b) = W2 m ρ c (Proc.devRef .tc b) := fun b hb =>
  (W4_of_ne m ρ c b (noWin0 b hb)).trans (keep3 m ρ c b hb)
theorem keep5 : ∀ b ∈ keptRefs, W5 m ρ c (Proc.devRef .tc b) = W2 m ρ c (Proc.devRef .tc b) := fun b hb =>
  (kept_hostOps1 (W4 m ρ c) b hb).trans (keep4 m ρ c b hb)
theorem keep6 : ∀ b ∈ keptRefs, W6 m ρ c (Proc.devRef .tc b) = W2 m ρ c (Proc.devRef .tc b) := fun b hb =>
  (kept_hostOps1_1 (W5 m ρ c) b hb).trans (keep5 m ρ c b hb)
theorem keep7 : ∀ b ∈ keptRefs, W7 m ρ c (Proc.devRef .tc b) = W2 m ρ c (Proc.devRef .tc b) := fun b hb =>
  (kept_hostOps1_2 (W6 m ρ c) b hb).trans (keep6 m ρ c b hb)
theorem keep8 : ∀ b ∈ keptRefs, W8 m ρ c (Proc.devRef .tc b) = W2 m ρ c (Proc.devRef .tc b) := fun b hb =>
  (W8_of_ne m ρ c b (noWin1 b hb)).trans (keep7 m ρ c b hb)
theorem keep9 : ∀ b ∈ keptRefs, W9 m ρ c (Proc.devRef .tc b) = W2 m ρ c (Proc.devRef .tc b) := fun b hb =>
  (kept_hostOps2 (W8 m ρ c) b hb).trans (keep8 m ρ c b hb)
theorem keep10 : ∀ b ∈ keptRefs, W10 m ρ c (Proc.devRef .tc b) = W2 m ρ c (Proc.devRef .tc b) := fun b hb =>
  (W10_of_ne m ρ c b (noWin2 b hb)).trans (keep9 m ρ c b hb)
theorem keep11 : ∀ b ∈ keptRefs, W11 m ρ c (Proc.devRef .tc b) = W2 m ρ c (Proc.devRef .tc b) := fun b hb =>
  (kept_hostOps3 (W10 m ρ c) b hb).trans (keep10 m ρ c b hb)
theorem keep12 : ∀ b ∈ keptRefs, W12 m ρ c (Proc.devRef .tc b) = W2 m ρ c (Proc.devRef .tc b) := fun b hb =>
  (kept_hostOps3_1 (W11 m ρ c) b hb).trans (keep11 m ρ c b hb)
theorem keep13 : ∀ b ∈ keptRefs, W13 m ρ c (Proc.devRef .tc b) = W2 m ρ c (Proc.devRef .tc b) := fun b hb =>
  (kept_hostOps3_2 (W12 m ρ c) b hb).trans (keep12 m ρ c b hb)
theorem keep14 : ∀ b ∈ keptRefs, W14 m ρ c (Proc.devRef .tc b) = W2 m ρ c (Proc.devRef .tc b) := fun b hb =>
  (W14_of_ne m ρ c b (noWin3 b hb)).trans (keep13 m ρ c b hb)
theorem keep15 : ∀ b ∈ keptRefs, W15 m ρ c (Proc.devRef .tc b) = W2 m ρ c (Proc.devRef .tc b) := fun b hb =>
  (kept_hostOps4 (W14 m ρ c) b hb).trans (keep14 m ρ c b hb)
theorem keep16 : ∀ b ∈ keptRefs, W16 m ρ c (Proc.devRef .tc b) = W2 m ρ c (Proc.devRef .tc b) := fun b hb =>
  (W16_of_ne m ρ c b (noWin4 b hb)).trans (keep15 m ρ c b hb)
theorem keep17 : ∀ b ∈ keptRefs, W17 m ρ c (Proc.devRef .tc b) = W2 m ρ c (Proc.devRef .tc b) := fun b hb =>
  (kept_hostOps5 (W16 m ρ c) b hb).trans (keep16 m ρ c b hb)
theorem keep18 : ∀ b ∈ keptRefs, W18 m ρ c (Proc.devRef .tc b) = W2 m ρ c (Proc.devRef .tc b) := fun b hb =>
  (kept_hostOps5_1 (W17 m ρ c) b hb).trans (keep17 m ρ c b hb)
theorem keep19 : ∀ b ∈ keptRefs, W19 m ρ c (Proc.devRef .tc b) = W2 m ρ c (Proc.devRef .tc b) := fun b hb =>
  (kept_hostOps5_2 (W18 m ρ c) b hb).trans (keep18 m ρ c b hb)
theorem keep20 : ∀ b ∈ keptRefs, W20 m ρ c (Proc.devRef .tc b) = W2 m ρ c (Proc.devRef .tc b) := fun b hb =>
  (W20_of_ne m ρ c b (noWin5 b hb)).trans (keep19 m ρ c b hb)
theorem keep21 : ∀ b ∈ keptRefs, W21 m ρ c (Proc.devRef .tc b) = W2 m ρ c (Proc.devRef .tc b) := fun b hb =>
  (kept_hostOps6 (W20 m ρ c) b hb).trans (keep20 m ρ c b hb)
theorem keep22 : ∀ b ∈ keptRefs, W22 m ρ c (Proc.devRef .tc b) = W2 m ρ c (Proc.devRef .tc b) := fun b hb =>
  (W22_of_ne m ρ c b (noWin6 b hb)).trans (keep21 m ρ c b hb)
theorem keep23 : ∀ b ∈ keptRefs, W23 m ρ c (Proc.devRef .tc b) = W2 m ρ c (Proc.devRef .tc b) := fun b hb =>
  (kept_hostOps7 (W22 m ρ c) b hb).trans (keep22 m ρ c b hb)
theorem keep24 : ∀ b ∈ keptRefs, W24 m ρ c (Proc.devRef .tc b) = W2 m ρ c (Proc.devRef .tc b) := fun b hb =>
  (kept_hostOps7_1 (W23 m ρ c) b hb).trans (keep23 m ρ c b hb)
theorem keep25 : ∀ b ∈ keptRefs, W25 m ρ c (Proc.devRef .tc b) = W2 m ρ c (Proc.devRef .tc b) := fun b hb =>
  (kept_hostOps7_2 (W24 m ρ c) b hb).trans (keep24 m ρ c b hb)
theorem keep26 : ∀ b ∈ keptRefs, W26 m ρ c (Proc.devRef .tc b) = W2 m ρ c (Proc.devRef .tc b) := fun b hb =>
  (W26_of_ne m ρ c b (noWin7 b hb)).trans (keep25 m ρ c b hb)
theorem keep27 : ∀ b ∈ keptRefs, W27 m ρ c (Proc.devRef .tc b) = W2 m ρ c (Proc.devRef .tc b) := fun b hb =>
  (kept_hostOps8 (W26 m ρ c) b hb).trans (keep26 m ρ c b hb)
theorem keep28 : ∀ b ∈ keptRefs, W28 m ρ c (Proc.devRef .tc b) = W2 m ρ c (Proc.devRef .tc b) := fun b hb =>
  (W28_of_ne m ρ c b (noWin8 b hb)).trans (keep27 m ρ c b hb)
theorem keep29 : ∀ b ∈ keptRefs, W29 m ρ c (Proc.devRef .tc b) = W2 m ρ c (Proc.devRef .tc b) := fun b hb =>
  (kept_hostOps9 (W28 m ρ c) b hb).trans (keep28 m ρ c b hb)
theorem keep30 : ∀ b ∈ keptRefs, W30 m ρ c (Proc.devRef .tc b) = W2 m ρ c (Proc.devRef .tc b) := fun b hb =>
  (kept_hostOps9_1 (W29 m ρ c) b hb).trans (keep29 m ρ c b hb)
theorem keep31 : ∀ b ∈ keptRefs, W31 m ρ c (Proc.devRef .tc b) = W2 m ρ c (Proc.devRef .tc b) := fun b hb =>
  (kept_hostOps9_2 (W30 m ρ c) b hb).trans (keep30 m ρ c b hb)
theorem keep32 : ∀ b ∈ keptRefs, W32 m ρ c (Proc.devRef .tc b) = W2 m ρ c (Proc.devRef .tc b) := fun b hb =>
  (W32_of_ne m ρ c b (noWin9 b hb)).trans (keep31 m ρ c b hb)
theorem keep33 : ∀ b ∈ keptRefs, W33 m ρ c (Proc.devRef .tc b) = W2 m ρ c (Proc.devRef .tc b) := fun b hb =>
  (kept_hostOps10 (W32 m ρ c) b hb).trans (keep32 m ρ c b hb)

/-- Past region 10 (which reads arguments 18 and 20 itself) and region 11 (arguments 21 and 23). -/
theorem keep34 : ∀ b ∈ keptRefs, b ≠ main_arg18 → b ≠ main_arg20 → W34 m ρ c (Proc.devRef .tc b) = W2 m ρ c (Proc.devRef .tc b) := fun b hb h18 h20 =>
  (W34_of_ne m ρ c b (noWin10 b hb h18 h20)).trans (keep33 m ρ c b hb)
theorem keep35 : ∀ b ∈ keptRefs, b ≠ main_arg18 → b ≠ main_arg20 → W35 m ρ c (Proc.devRef .tc b) = W2 m ρ c (Proc.devRef .tc b) := fun b hb h18 h20 =>
  (kept_hostOps11 (W34 m ρ c) b hb).trans (keep34 m ρ c b hb h18 h20)
theorem keep36 : ∀ b ∈ keptRefs, b ≠ main_arg18 → b ≠ main_arg20 → b ≠ main_arg21 → b ≠ main_arg23 →
    W36 m ρ c (Proc.devRef .tc b) = W2 m ρ c (Proc.devRef .tc b) := fun b hb h18 h20 h21 h23 =>
  (W36_of_ne m ρ c b (noWin11 b hb h21 h23)).trans (keep35 m ρ c b hb h18 h20)
theorem keep37 : ∀ b ∈ keptRefs, b ≠ main_arg18 → b ≠ main_arg20 → b ≠ main_arg21 → b ≠ main_arg23 →
    W37 m ρ c (Proc.devRef .tc b) = W2 m ρ c (Proc.devRef .tc b) := fun b hb h18 h20 h21 h23 =>
  (kept_hostOps12 (W36 m ρ c) b hb).trans (keep36 m ρ c b hb h18 h20 h21 h23)

end Cert.KernelIdeal.Chain

end
-- ==== Proof.StageL0.lean ====
/-
  The first stretch of both programs, from equal arguments: the embedded and rectified node features, and the three index
  arrays (edge sources, edge targets, edge attributes, each with the self loops appended) that every layer reuses.
-/
import proofs.«133701_j46024869544456_1_alg».proof.Proof.Gen.KernelIdeal.Launch
import proofs.«133701_j46024869544456_1_alg».proof.Proof.RefOps
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 8000000 in
/-- The embedded, rectified node features. -/
theorem embed (VK : Valuation Cert.KernelIdeal.τ Cert.KernelIdeal.sig (Elt Ideal)) (VR : Valuation Cert.ReferenceIdeal.τ Cert.ReferenceIdeal.sig (Elt Ideal))
    (e0 : VK (Proc.devRef .tc Cert.KernelIdeal.main_arg0) = VR (Proc.devRef .tc Cert.ReferenceIdeal.main_arg0)) (e8 : VK (Proc.devRef .tc Cert.KernelIdeal.main_arg8) = VR (Proc.devRef .tc Cert.ReferenceIdeal.main_arg8)) (e9 : VK (Proc.devRef .tc Cert.KernelIdeal.main_arg9) = VR (Proc.devRef .tc Cert.ReferenceIdeal.main_arg9)) :
    (after Cert.KernelIdeal.Gen.hostOps0_1 (after Cert.KernelIdeal.Gen.hostOps0 VK)) (Proc.devRef .tc Cert.KernelIdeal.main_v15) = (after Cert.ReferenceIdeal.Hand.q0 VR) (Proc.devRef .tc Cert.ReferenceIdeal.main_v15) := by
  simp only [Cert.KernelIdeal.Gen.hostOps0, Cert.KernelIdeal.Gen.hostOps0_1, Cert.ReferenceIdeal.Hand.q0]
  after_results_simp
  try simp only [TRef.ofBuf, TRef.toBuf, cast_eq]
  rw [e0, e8, e9]
  rfl

set_option maxHeartbeats 8000000 in
/-- The edge sources with the self loops appended. -/
theorem edgeSrc (VK : Valuation Cert.KernelIdeal.τ Cert.KernelIdeal.sig (Elt Ideal)) (VR : Valuation Cert.ReferenceIdeal.τ Cert.ReferenceIdeal.sig (Elt Ideal))
    (e1 : VK (Proc.devRef .tc Cert.KernelIdeal.main_arg1) = VR (Proc.devRef .tc Cert.ReferenceIdeal.main_arg1)) :
    (after Cert.KernelIdeal.Gen.hostOps0_1 (after Cert.KernelIdeal.Gen.hostOps0 VK)) (Proc.devRef .tc Cert.KernelIdeal.main_v3) = (after Cert.ReferenceIdeal.Hand.q0 VR) (Proc.devRef .tc Cert.ReferenceIdeal.main_v3) := by
  simp only [Cert.KernelIdeal.Gen.hostOps0, Cert.KernelIdeal.Gen.hostOps0_1, Cert.ReferenceIdeal.Hand.q0]
  after_results
  try simp only [TRef.ofBuf, TRef.toBuf, cast_eq]
  rw [e1]
  rfl

set_option maxHeartbeats 8000000 in
/-- The edge targets with the self loops appended. -/
theorem edgeDst (VK : Valuation Cert.KernelIdeal.τ Cert.KernelIdeal.sig (Elt Ideal)) (VR : Valuation Cert.ReferenceIdeal.τ Cert.ReferenceIdeal.sig (Elt Ideal))
    (e1 : VK (Proc.devRef .tc Cert.KernelIdeal.main_arg1) = VR (Proc.devRef .tc Cert.ReferenceIdeal.main_arg1)) :
    (after Cert.KernelIdeal.Gen.hostOps0_1 (after Cert.KernelIdeal.Gen.hostOps0 VK)) (Proc.devRef .tc Cert.KernelIdeal.main_v6) = (after Cert.ReferenceIdeal.Hand.q0 VR) (Proc.devRef .tc Cert.ReferenceIdeal.main_v6) := by
  simp only [Cert.KernelIdeal.Gen.hostOps0, Cert.KernelIdeal.Gen.hostOps0_1, Cert.ReferenceIdeal.Hand.q0]
  after_results
  try simp only [TRef.ofBuf, TRef.toBuf, cast_eq]
  rw [e1]
  rfl

set_option maxHeartbeats 8000000 in
/-- The edge attributes with the self loops' appended. -/
theorem edgeAttr (VK : Valuation Cert.KernelIdeal.τ Cert.KernelIdeal.sig (Elt Ideal)) (VR : Valuation Cert.ReferenceIdeal.τ Cert.ReferenceIdeal.sig (Elt Ideal))
    (e2 : VK (Proc.devRef .tc Cert.KernelIdeal.main_arg2) = VR (Proc.devRef .tc Cert.ReferenceIdeal.main_arg2)) :
    (after Cert.KernelIdeal.Gen.hostOps0_1 (after Cert.KernelIdeal.Gen.hostOps0 VK)) (Proc.devRef .tc Cert.KernelIdeal.main_v10) = (after Cert.ReferenceIdeal.Hand.q0 VR) (Proc.devRef .tc Cert.ReferenceIdeal.main_v10) := by
  simp only [Cert.KernelIdeal.Gen.hostOps0, Cert.KernelIdeal.Gen.hostOps0_1, Cert.ReferenceIdeal.Hand.q0]
  after_results
  try simp only [TRef.ofBuf, TRef.toBuf, cast_eq]
  rw [e2]
  rfl

end Cert.Bridge

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibRowBias.lean ====
import Idealize.ShloMosaic.Lib.Pipeline.Value
import Idealize.ShloMosaic.Lib.ValueIdx
import Idealize.ShloMosaic.PureOps.Ideal.Laws

/-!
  A bias row added to every row of a matrix, read at an entry.

  A [1, b] row broadcast to [a, b] — by the host's `broadcast_in_dim` over axes (0, 1), or by a kernel body's
  `vector.broadcast` — has at entry (p, q) the row's entry q.  So over the extended reals

      (X + row)[p, q] = X[p, q] + row[q]      and      max(X + row, 0)[p, q] = max(X[p, q] + row[q], 0),

  whichever of the two spellings of the broadcast and of the zero (a scalar constant broadcast to [a, b], or a scalar
  splat) the program uses.  Generic in the extents a and b.
-/

noncomputable section

namespace Cert.RowBias

open Idealize.ShloMosaic Idealize.ShloMosaic.ValueIdx

variable {α : Type} {a b : Nat}

/-- A [1, b] row broadcast over axes (0, 1) to [a, b], at (p, q): the row's entry q. -/
theorem rowInDim_apply (B : (⟨2, ![1, b]⟩ : Shape).Idx → α)
    (hb : (⟨2, ![1, b]⟩ : Shape).BroadcastsInDim ⟨2, ![a, b]⟩ ![0, 1]) (p : Fin a) (q : Fin b) :
    broadcastInDim ⟨2, ![a, b]⟩ ![0, 1] hb B (ix2 p q) = B (ix2 (0 : Fin 1) q) := by
  refine broadcastInDim_apply _ _ _ _ (ix2 (0 : Fin 1) q) (fun d => ?_)
  match d with
  | ⟨0, _⟩ => rfl
  | ⟨1, _⟩ =>
    show q.val = if b = 1 then 0 else q.val
    split_ifs with h1
    · have := q.isLt; omega
    · rfl

/-- A [1, b] row broadcast by a kernel body to [a, b], at (p, q): the row's entry q. -/
theorem rowTo_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) (fun d => ?_)
  match d with
  | ⟨0, _⟩ => rfl
  | ⟨1, _⟩ =>
    show q.val = if b = 1 then 0 else q.val
    split_ifs with h1
    · have := q.isLt; omega
    · rfl

/-- A scalar broadcast to [a, b] by the host, at any entry: the scalar. -/
theorem scalarInDim_apply (z : (⟨0, ![]⟩ : Shape).Idx → α)
    (hz : (⟨0, ![]⟩ : Shape).BroadcastsInDim ⟨2, ![a, b]⟩ ![]) (j : (⟨2, ![a, b]⟩ : Shape).Idx) :
    broadcastInDim ⟨2, ![a, b]⟩ ![] hz z j = z ix0 :=
  broadcastInDim_apply _ _ _ _ ix0 (fun d => d.elim0)

/-- The host's `max(X + row, 0)` at (p, q). -/
theorem hostBiasRelu_apply (X : FVec Ideal ⟨2, ![a, b]⟩ .f32) (B : FVec Ideal ⟨2, ![1, b]⟩ .f32)
    (hb : (⟨2, ![1, b]⟩ : Shape).BroadcastsInDim ⟨2, ![a, b]⟩ ![0, 1])
    (hz : (⟨0, ![]⟩ : Shape).BroadcastsInDim ⟨2, ![a, b]⟩ ![]) (p : Fin a) (q : Fin b) :
    maximumf (addf X (broadcastInDim ⟨2, ![a, b]⟩ ![0, 1] hb B))
        (broadcastInDim ⟨2, ![a, b]⟩ ![] hz (constant (F := Ideal) ⟨0, ![]⟩ .f32 0x00000000#32)) (ix2 p q)
      = max (X (ix2 p q) + B (ix2 (0 : Fin 1) q)) (Ideal.ofBits .f32 0x00000000#32) := by
  show max (X (ix2 p q) + broadcastInDim ⟨2, ![a, b]⟩ ![0, 1] hb B (ix2 p q))
      (broadcastInDim ⟨2, ![a, b]⟩ ![] hz (constant (F := Ideal) ⟨0, ![]⟩ .f32 0x00000000#32) (ix2 p q)) = _
  rw [rowInDim_apply, scalarInDim_apply]
  rfl

/-- A kernel body's `max(x + row, 0)` at (p, q): the row broadcast by `vector.broadcast`, the zero a scalar splat. -/
theorem bodyBiasRelu_apply (x : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    maximumf (addf x (broadcastTo ⟨2, ![a, b]⟩ r h))
        (broadcast ⟨2, ![a, b]⟩ (Scalar.ofBits (F := Ideal) .f32 0x00000000#32)) (ix2 p q)
      = max (x (ix2 p q) + r (ix2 (0 : Fin 1) q)) (Ideal.ofBits .f32 0x00000000#32) := by
  show max (x (ix2 p q) + broadcastTo ⟨2, ![a, b]⟩ r h (ix2 p q)) _ = _
  rw [rowTo_apply]
  rfl

/-- The host's `Y + row` at (p, q). -/
theorem hostBias_apply (Y : FVec Ideal ⟨2, ![a, b]⟩ .f32) (B : FVec Ideal ⟨2, ![1, b]⟩ .f32)
    (hb : (⟨2, ![1, b]⟩ : Shape).BroadcastsInDim ⟨2, ![a, b]⟩ ![0, 1]) (p : Fin a) (q : Fin b) :
    addf Y (broadcastInDim ⟨2, ![a, b]⟩ ![0, 1] hb B) (ix2 p q) = Y (ix2 p q) + B (ix2 (0 : Fin 1) q) := by
  show Y (ix2 p q) + broadcastInDim ⟨2, ![a, b]⟩ ![0, 1] hb B (ix2 p q) = _
  rw [rowInDim_apply]

/-- A kernel body's `y + row` at (p, q). -/
theorem bodyBias_apply (y : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    addf y (broadcastTo ⟨2, ![a, b]⟩ r h) (ix2 p q) = y (ix2 p q) + r (ix2 (0 : Fin 1) q) := by
  show y (ix2 p q) + broadcastTo ⟨2, ![a, b]⟩ r h (ix2 p q) = _
  rw [rowTo_apply]

end Cert.RowBias

end
-- ==== Proof.ValGinMlp.lean ====
/-
  The value of the two-layer perceptron bodies: row p of the input, times the first weight matrix, plus the first bias
  row, clipped below at zero, times the second weight matrix, plus the second bias row — over the extended reals, where
  the casts to the narrower float format are the identity and each product on the matrix unit into zeros is the inner
  product. `ginMlp n` is that function of an [n, 64] array, row by row; each such body's arithmetic is `ginMlp 6400` of
  the blocks it loads.
-/
import proofs.«133701_j46024869544456_1_alg».proof.Proof.Gen.KernelIdeal.Skeleton
import proofs.«133701_j46024869544456_1_alg».proof.Proof.LibMatmulNN
import proofs.«133701_j46024869544456_1_alg».proof.Proof.LibRowBias

noncomputable section

open scoped BigOperators

namespace Cert.KernelIdeal.Val

open Idealize.ShloMosaic Idealize.ShloMosaic.ValueIdx Cert.KernelIdeal Cert.KernelIdeal.Gen

/-- One entry of a two-layer perceptron applied to the rows of `a`: row `p` of `a` times `w1`, plus the bias row
    `b1`, clipped below at zero, times `w2`, plus the bias row `b2`, at column `q`. -/
def ginMlpAt {n : Nat} (a : (⟨2, ![n, 64]⟩ : Shape).Idx → EReal) (w1 : (⟨2, ![64, 128]⟩ : Shape).Idx → EReal)
    (b1 : (⟨2, ![1, 128]⟩ : Shape).Idx → EReal) (w2 : (⟨2, ![128, 64]⟩ : Shape).Idx → EReal)
    (b2 : (⟨2, ![1, 64]⟩ : Shape).Idx → EReal) (p : Fin n) (q : Fin 64) : EReal :=
  (∑ k : Fin 128, max ((∑ j : Fin 64, a (ix2 p j) * w1 (ix2 j k)) + b1 (ix2 (0 : Fin 1) k)) 0 * w2 (ix2 k q))
    + b2 (ix2 (0 : Fin 1) q)

/-- The perceptron applied to every row of an [n, 64] array, as an [n, 64] array. -/
def ginMlp (n : Nat) (a : (⟨2, ![n, 64]⟩ : Shape).Idx → EReal) (w1 : (⟨2, ![64, 128]⟩ : Shape).Idx → EReal)
    (b1 : (⟨2, ![1, 128]⟩ : Shape).Idx → EReal) (w2 : (⟨2, ![128, 64]⟩ : Shape).Idx → EReal)
    (b2 : (⟨2, ![1, 64]⟩ : Shape).Idx → EReal) : (⟨2, ![n, 64]⟩ : Shape).Idx → EReal :=
  fun i => ginMlpAt a w1 b1 w2 b2 (i 0 : Fin n) (i 1 : Fin 64)

theorem ginMlp_apply {n : Nat} (a : (⟨2, ![n, 64]⟩ : Shape).Idx → EReal) (w1 : (⟨2, ![64, 128]⟩ : Shape).Idx → EReal)
    (b1 : (⟨2, ![1, 128]⟩ : Shape).Idx → EReal) (w2 : (⟨2, ![128, 64]⟩ : Shape).Idx → EReal)
    (b2 : (⟨2, ![1, 64]⟩ : Shape).Idx → EReal) (p : Fin n) (q : Fin 64) :
    ginMlp n a w1 b1 w2 b2 (ix2 p q)
      = (∑ k : Fin 128, max ((∑ j : Fin 64, a (ix2 p j) * w1 (ix2 j k)) + b1 (ix2 (0 : Fin 1) k)) 0 * w2 (ix2 k q))
        + b2 (ix2 (0 : Fin 1) q) := rfl

/-- The body's arithmetic over the extended reals, at an entry: both casts to the narrower format are the identity,
    each product on the matrix unit into zeros is the inner product, each bias row is added to every row. -/
theorem mlpBody_apply {n : Nat}
    (D1 : DotDims ⟨2, ![n, 64]⟩ ⟨2, ![64, 128]⟩ ⟨2, ![n, 128]⟩) (hD1 : D1 = DotDims.plain n 64 128)
    (D2 : DotDims ⟨2, ![n, 128]⟩ ⟨2, ![128, 64]⟩ ⟨2, ![n, 64]⟩) (hD2 : D2 = DotDims.plain n 128 64)
    (x0 : FVec Ideal ⟨2, ![n, 64]⟩ .f32) (x1 : FVec Ideal ⟨2, ![64, 128]⟩ .f32) (x2 : FVec Ideal ⟨2, ![1, 128]⟩ .f32)
    (x3 : FVec Ideal ⟨2, ![128, 64]⟩ .f32) (x4 : FVec Ideal ⟨2, ![1, 64]⟩ .f32)
    (h0 : (⟨2, ![n, 64]⟩ : Shape).ShapeCasts ⟨2, ![n, 64]⟩) (h1 : (⟨2, ![64, 128]⟩ : Shape).ShapeCasts ⟨2, ![64, 128]⟩)
    (h2 : (⟨2, ![1, 128]⟩ : Shape).ShapeCasts ⟨2, ![1, 128]⟩) (h3 : (⟨2, ![128, 64]⟩ : Shape).ShapeCasts ⟨2, ![128, 64]⟩)
    (h4 : (⟨2, ![1, 64]⟩ : Shape).ShapeCasts ⟨2, ![1, 64]⟩)
    (g2 : (⟨2, ![1, 128]⟩ : Shape).Broadcasts ⟨2, ![n, 128]⟩) (g4 : (⟨2, ![1, 64]⟩ : Shape).Broadcasts ⟨2, ![n, 64]⟩)
    (hb : FTy.bits .bf16 < FTy.bits .f32) (p : Fin n) (q : Fin 64) :
    addf
        (FloatOps.matmul D2 none
          (truncf .bf16
            (maximumf
              (addf
                (FloatOps.matmul D1 none (truncf .bf16 (shapeCast ⟨2, ![n, 64]⟩ x0 h0) hb)
                  (truncf .bf16 (shapeCast ⟨2, ![64, 128]⟩ x1 h1) hb)
                  (constant (F := Ideal) ⟨2, ![n, 128]⟩ .f32 0x00000000#32))
                (broadcastTo ⟨2, ![n, 128]⟩ (shapeCast ⟨2, ![1, 128]⟩ x2 h2) g2))
              (broadcast ⟨2, ![n, 128]⟩ (Scalar.ofBits (F := Ideal) .f32 0x00000000#32))) hb)
          (truncf .bf16 (shapeCast ⟨2, ![128, 64]⟩ x3 h3) hb)
          (constant (F := Ideal) ⟨2, ![n, 64]⟩ .f32 0x00000000#32))
        (broadcastTo ⟨2, ![n, 64]⟩ (shapeCast ⟨2, ![1, 64]⟩ x4 h4) g4) (ix2 p q)
      = ginMlpAt x0 x1 x2 x3 x4 p q := by
  simp only [shapeCast_self]
  rw [Cert.RowBias.bodyBias_apply, Cert.MatmulNN.matmul_zero_apply D2 hD2]
  unfold ginMlpAt
  refine congrArg (· + x4 (ix2 (0 : Fin 1) q)) (Finset.sum_congr rfl fun k _ => ?_)
  rw [truncf_apply, truncf_apply, Cert.RowBias.bodyBiasRelu_apply, Ideal.ofBits_zero_f32,
    Cert.MatmulNN.matmul_zero_apply D1 hD1]
  refine congrArg (fun s => max (s + x2 (ix2 (0 : Fin 1) k)) 0 * x3 (ix2 k q)) (Finset.sum_congr rfl fun j _ => ?_)
  rw [truncf_apply, truncf_apply]

/-- Region 0's body is the perceptron of its blocks. -/
theorem k0_pay1_eq (x0 : Vec Ideal S6400x64 .f32) (x1 : Vec Ideal S64x128 .f32) (x2 : Vec Ideal S1x128 .f32)
    (x3 : Vec Ideal S128x64 .f32) (x4 : Vec Ideal S1x64 .f32) :
    k0_pay1 x0 x1 x2 x3 x4 = ginMlp 6400 x0 x1 x2 x3 x4 := by
  funext i
  obtain ⟨p, q, rfl⟩ : ∃ (p : Fin 6400) (q : Fin 64), i = ix2 p q := ⟨i 0, i 1, eq_ix2 i⟩
  exact mlpBody_apply _ rfl _ rfl x0 x1 x2 x3 x4 _ _ _ _ _ _ _ _ p q

/-- Region 2's body is the perceptron of its blocks. -/
theorem k2_pay1_eq (x0 : Vec Ideal S6400x64 .f32) (x1 : Vec Ideal S64x128 .f32) (x2 : Vec Ideal S1x128 .f32)
    (x3 : Vec Ideal S128x64 .f32) (x4 : Vec Ideal S1x64 .f32) :
    k2_pay1 x0 x1 x2 x3 x4 = ginMlp 6400 x0 x1 x2 x3 x4 := by
  funext i
  obtain ⟨p, q, rfl⟩ : ∃ (p : Fin 6400) (q : Fin 64), i = ix2 p q := ⟨i 0, i 1, eq_ix2 i⟩
  exact mlpBody_apply _ rfl _ rfl x0 x1 x2 x3 x4 _ _ _ _ _ _ _ _ p q

/-- Region 4's body is the perceptron of its blocks. -/
theorem k4_pay1_eq (x0 : Vec Ideal S6400x64 .f32) (x1 : Vec Ideal S64x128 .f32) (x2 : Vec Ideal S1x128 .f32)
    (x3 : Vec Ideal S128x64 .f32) (x4 : Vec Ideal S1x64 .f32) :
    k4_pay1 x0 x1 x2 x3 x4 = ginMlp 6400 x0 x1 x2 x3 x4 := by
  funext i
  obtain ⟨p, q, rfl⟩ : ∃ (p : Fin 6400) (q : Fin 64), i = ix2 p q := ⟨i 0, i 1, eq_ix2 i⟩
  exact mlpBody_apply _ rfl _ rfl x0 x1 x2 x3 x4 _ _ _ _ _ _ _ _ p q

/-- Region 6's body is the perceptron of its blocks. -/
theorem k6_pay1_eq (x0 : Vec Ideal S6400x64 .f32) (x1 : Vec Ideal S64x128 .f32) (x2 : Vec Ideal S1x128 .f32)
    (x3 : Vec Ideal S128x64 .f32) (x4 : Vec Ideal S1x64 .f32) :
    k6_pay1 x0 x1 x2 x3 x4 = ginMlp 6400 x0 x1 x2 x3 x4 := by
  funext i
  obtain ⟨p, q, rfl⟩ : ∃ (p : Fin 6400) (q : Fin 64), i = ix2 p q := ⟨i 0, i 1, eq_ix2 i⟩
  exact mlpBody_apply _ rfl _ rfl x0 x1 x2 x3 x4 _ _ _ _ _ _ _ _ p q

/-- Region 8's body is the perceptron of its blocks. -/
theorem k8_pay1_eq (x0 : Vec Ideal S6400x64 .f32) (x1 : Vec Ideal S64x128 .f32) (x2 : Vec Ideal S1x128 .f32)
    (x3 : Vec Ideal S128x64 .f32) (x4 : Vec Ideal S1x64 .f32) :
    k8_pay1 x0 x1 x2 x3 x4 = ginMlp 6400 x0 x1 x2 x3 x4 := by
  funext i
  obtain ⟨p, q, rfl⟩ : ∃ (p : Fin 6400) (q : Fin 64), i = ix2 p q := ⟨i 0, i 1, eq_ix2 i⟩
  exact mlpBody_apply _ rfl _ rfl x0 x1 x2 x3 x4 _ _ _ _ _ _ _ _ p q

end Cert.KernelIdeal.Val

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«133701_j46024869544456_1_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.LibLayout.lean ====
import Idealize.ShloMosaic.Lib.Pipeline.Value
import Idealize.ShloMosaic.Lib.ValueIdx

/-!
  Two layout facts. A vector of n entries reshaped to a [1, n] row is the vector broadcast along a new leading axis, and
  reshaped to an [n, 1] column it is the vector broadcast along a new trailing axis: in both cases entry (·, j) or (i, ·)
  of the result is entry j or i of the vector, because the row-major position of an index does not see a unit axis.
-/

noncomputable section

namespace Cert.Layout

open Idealize.ShloMosaic Idealize.ShloMosaic.ValueIdx

variable {α : Type} {n : Nat}

/-- A reshape of [n] to [1, n] is the broadcast that puts the vector's axis second. -/
theorem row_reshape_eq_broadcast (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have h0 : (j 0).val = 0 := by have := (j 0).isLt; simp at this; omega
  have hr : shapeCast ⟨2, ![1, n]⟩ v h j = v (ix1 (⟨(j 1).val, (j 1).isLt⟩ : Fin n)) :=
    shapeCast_apply v h j (ix1 (⟨(j 1).val, (j 1).isLt⟩ : Fin n)) (by
      rw [Shape.rowMajor_val_one, Shape.rowMajor_val_two, h0]; simp; rfl)
  rw [hr]
  symm
  refine broadcastInDim_apply _ _ _ _ (ix1 (⟨(j 1).val, (j 1).isLt⟩ : Fin n)) (fun a => ?_)
  have ha : a = 0 := Subsingleton.elim _ _
  subst ha
  show (j 1).val = if n = 1 then 0 else (j 1).val
  split_ifs with h1
  · have := (j 1).isLt; simp at this; omega
  · rfl

/-- A reshape of [n] to [n, 1] is the broadcast that puts the vector's axis first. -/
theorem column_reshape_eq_broadcast (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have h1 : (j 1).val = 0 := by have := (j 1).isLt; simp at this; omega
  have hr : shapeCast ⟨2, ![n, 1]⟩ v h j = v (ix1 (⟨(j 0).val, (j 0).isLt⟩ : Fin n)) :=
    shapeCast_apply v h j (ix1 (⟨(j 0).val, (j 0).isLt⟩ : Fin n)) (by
      rw [Shape.rowMajor_val_one, Shape.rowMajor_val_two, h1]; simp; rfl)
  rw [hr]
  symm
  refine broadcastInDim_apply _ _ _ _ (ix1 (⟨(j 0).val, (j 0).isLt⟩ : Fin n)) (fun a => ?_)
  have ha : a = 0 := Subsingleton.elim _ _
  subst ha
  show (j 0).val = if n = 1 then 0 else (j 0).val
  split_ifs with hn
  · have := (j 0).isLt; simp at this; omega
  · rfl

end Cert.Layout

end
-- ==== Proof.BnConsts.lean ====
/-
  The float literals the batch-normalisation stage spells, as the extended reals their bit patterns denote
  when floats are read exactly: the row count 51200, the zero, and the stabiliser ε = 10995116 / 2^40
  (the single-precision number nearest 1e-5), which is a positive real.
-/
import Idealize.ShloMosaic.PureOps.Ideal

noncomputable section

namespace Cert.BnConsts

open Idealize.ShloMosaic

/-- The word of +0.0 denotes 0. -/
theorem ofBits_zero : Ideal.ofBits .f32 0x00000000#32 = 0 := by
  simp [Ideal.ofBits, Ideal.ieee]

/-- The word of 51200.0 denotes the real 51200. -/
theorem ofBits_51200 : Ideal.ofBits .f32 0x47480000#32 = ((51200 : ℝ) : EReal) := by
  simp [Ideal.ofBits, Ideal.ieee, -EReal.coe_mul]; norm_num

/-- The stabiliser's word denotes the real 10995116 / 2^40. -/
theorem ofBits_eps : Ideal.ofBits .f32 0x3727C5AC#32 = (((10995116 : ℝ) / 1099511627776 : ℝ) : EReal) := by
  simp [Ideal.ofBits, Ideal.ieee, -EReal.coe_mul]; norm_num

/-- The stabiliser is positive. -/
theorem eps_pos : (0 : EReal) < Ideal.ofBits .f32 0x3727C5AC#32 := by
  rw [ofBits_eps]; exact_mod_cast (by norm_num : (0 : ℝ) < (10995116 : ℝ) / 1099511627776)

end Cert.BnConsts

end
-- ==== Proof.RefGin.lean ====
/-
  The reference's two-layer perceptron of a message-passing layer, read entry by entry over the extended reals.

  With a an array of 51200 rows and 64 columns, w1 a 64 × 128 matrix, w2 a 128 × 64 matrix and b1, b2 bias rows, the host
  computes  max(a · w1 + b1, 0) · w2 + b2  with two matrix products; at entry (p, q) that is

      (Σ_k max((Σ_j a[p,j] · w1[j,k]) + b1[k], 0) · w2[k,q]) + b2[q],

  each product an inner product of a row with a column, the additions and products in this order.
-/
import proofs.«133701_j46024869544456_1_alg».proof.ReferenceIdeal
import proofs.«133701_j46024869544456_1_alg».proof.Proof.Gen.ReferenceIdeal
import proofs.«133701_j46024869544456_1_alg».proof.Proof.ValGinMlp
import proofs.«133701_j46024869544456_1_alg».proof.Proof.LibDotNN
import proofs.«133701_j46024869544456_1_alg».proof.Proof.LibRowBias
import proofs.«133701_j46024869544456_1_alg».proof.Proof.LibLayout
import proofs.«133701_j46024869544456_1_alg».proof.Proof.BnConsts
import Idealize.ShloMosaic.Lib.ValueIdx
import Idealize.ShloMosaic.PureOps.Ideal.Laws

noncomputable section

namespace Cert.RefGin

open Idealize.ShloMosaic Idealize.ShloMosaic.ValueIdx Cert.ReferenceIdeal Cert.ReferenceIdeal.Gen

/-- The host's perceptron is the array whose entry (p, q) is the nested inner product above. -/
theorem gin_ref (a : FVec Ideal S51200x64 .f32) (w1 : FVec Ideal S64x128 .f32) (b1 : FVec Ideal S1x128 .f32)
    (w2 : FVec Ideal S128x64 .f32) (b2 : FVec Ideal S1x64 .f32) :
    addf (Host.dotGeneral dot_S51200x128_S128x64_S51200x64_1_0_0_1_n_n none
        (maximumf (addf (Host.dotGeneral dot_S51200x64_S64x128_S51200x128_1_0_0_1_n_n none a w1)
            (broadcastInDim S51200x128 ![0, 1] bcast_S1x128_S51200x128_0_1 b1))
          (broadcastInDim S51200x128 ![] bcast_S_S51200x128 (constant (F := Ideal) S_ .f32 0x00000000#32))) w2)
      (broadcastInDim S51200x64 ![0, 1] bcast_S1x64_S51200x64_0_1 b2)
    = Cert.KernelIdeal.Val.ginMlp 51200 a w1 b1 w2 b2 := by
  funext i
  obtain ⟨p, q, rfl⟩ : ∃ (p : Fin 51200) (q : Fin 64), i = ix2 p q := ⟨i 0, i 1, eq_ix2 i⟩
  rw [Cert.KernelIdeal.Val.ginMlp_apply, Cert.RowBias.hostBias_apply]
  congr 1
  refine (Cert.DotNN.dotGeneral_apply _ rfl none _ _ w2 p q).trans ?_
  refine Finset.sum_congr rfl fun k _ => ?_
  congr 1
  rw [Cert.RowBias.hostBiasRelu_apply, Cert.BnConsts.ofBits_zero]
  congr 2
  exact Cert.DotNN.dotGeneral_apply _ rfl none _ a w1 p k

/-- The same, with the two bias vectors laid out as rows by a reshape: a vector reshaped to a one-row matrix is the
    vector broadcast along a new leading axis. -/
theorem gin_ref' (a : FVec Ideal S51200x64 .f32) (w1 : FVec Ideal S64x128 .f32) (b1 : FVec Ideal S128 .f32)
    (w2 : FVec Ideal S128x64 .f32) (b2 : FVec Ideal S64 .f32) (h1 : S128.ShapeCasts S1x128) (h2 : S64.ShapeCasts S1x64) :
    addf (Host.dotGeneral dot_S51200x128_S128x64_S51200x64_1_0_0_1_n_n none
        (maximumf (addf (Host.dotGeneral dot_S51200x64_S64x128_S51200x128_1_0_0_1_n_n none a w1)
            (broadcastInDim S51200x128 ![0, 1] bcast_S1x128_S51200x128_0_1 (broadcastInDim S1x128 ![1] bcast_S128_S1x128_1 b1)))
          (broadcastInDim S51200x128 ![] bcast_S_S51200x128 (constant (F := Ideal) S_ .f32 0x00000000#32))) w2)
      (broadcastInDim S51200x64 ![0, 1] bcast_S1x64_S51200x64_0_1 (broadcastInDim S1x64 ![1] bcast_S64_S1x64_1 b2))
    = Cert.KernelIdeal.Val.ginMlp 51200 a w1 (shapeCast S1x128 b1 h1) w2 (shapeCast S1x64 b2 h2) := by
  rw [gin_ref, Cert.Layout.row_reshape_eq_broadcast b1 h1 bcast_S128_S1x128_1,
    Cert.Layout.row_reshape_eq_broadcast b2 h2 bcast_S64_S1x64_1]

end Cert.RefGin

end
-- ==== Proof.ValBnG.lean ====
import proofs.«133701_j46024869544456_1_alg».proof.KernelIdeal
import Idealize.ShloMosaic.Lib.ValueIdx
import Idealize.ShloMosaic.PureOps.Ideal.Laws

/-!
  Batch normalisation of a 51200 × 64 array by four rows of 64 entries, as one function of the arrays, entry by entry,
  over the extended reals:

      y[p, q] = ((h[p, q] - mu[q]) * rsqrt(var[q] + eps)) * gamma[q] + beta[q],

  followed by max(·, 0) in the layers that end with a rectifier.  The operations are kept in this order (the extended
  reals are not distributive), eps and the zero of the maximum are the readings of the body's literals.
-/

noncomputable section

namespace Cert.KernelIdeal.Val

open Cert.KernelIdeal Idealize.ShloMosaic Idealize.ShloMosaic.ValueIdx

/-- The normalised entry: centre, scale by the reciprocal square root of the variance plus epsilon, then the affine map,
    in the body's order of operations. -/
def bnY (h mu var gamma beta : EReal) : EReal :=
  ((h - mu) * Ideal.rsqrt (var + Ideal.ofBits .f32 0x3727C5AC#32)) * gamma + beta

/-- The normalised and rectified array. -/
def GBnRelu (h : S51200x64.Idx → EReal) (mu var gamma beta : S1x64.Idx → EReal) : S51200x64.Idx → EReal := fun i =>
  max (bnY (h i) (mu (ix2 (0 : Fin 1) (i 1 : Fin 64))) (var (ix2 (0 : Fin 1) (i 1 : Fin 64)))
      (gamma (ix2 (0 : Fin 1) (i 1 : Fin 64))) (beta (ix2 (0 : Fin 1) (i 1 : Fin 64))))
    (Ideal.ofBits .f32 0x00000000#32)

/-- Its entry (p, q). -/
theorem GBnRelu_apply (h : S51200x64.Idx → EReal) (mu var gamma beta : S1x64.Idx → EReal) (p : Fin 51200) (q : Fin 64) :
    GBnRelu h mu var gamma beta (ix2 p q)
      = max (bnY (h (ix2 p q)) (mu (ix2 (0 : Fin 1) q)) (var (ix2 (0 : Fin 1) q)) (gamma (ix2 (0 : Fin 1) q)) (beta (ix2 (0 : Fin 1) q)))
          (Ideal.ofBits .f32 0x00000000#32) := rfl

/-- The normalised array of the last layer (no rectifier). -/
def GBnLast (h : S51200x64.Idx → EReal) (mu var gamma beta : S1x64.Idx → EReal) : S51200x64.Idx → EReal := fun i =>
  bnY (h i) (mu (ix2 (0 : Fin 1) (i 1 : Fin 64))) (var (ix2 (0 : Fin 1) (i 1 : Fin 64)))
    (gamma (ix2 (0 : Fin 1) (i 1 : Fin 64))) (beta (ix2 (0 : Fin 1) (i 1 : Fin 64)))

/-- Its entry (p, q). -/
theorem GBnLast_apply (h : S51200x64.Idx → EReal) (mu var gamma beta : S1x64.Idx → EReal) (p : Fin 51200) (q : Fin 64) :
    GBnLast h mu var gamma beta (ix2 p q)
      = bnY (h (ix2 p q)) (mu (ix2 (0 : Fin 1) q)) (var (ix2 (0 : Fin 1) q)) (gamma (ix2 (0 : Fin 1) q)) (beta (ix2 (0 : Fin 1) q)) := rfl

end Cert.KernelIdeal.Val

end
-- ==== Proof.BnLaw.lean ====
/-
  Two facts about the extended reals behind the batch-normalisation stage.

  Dividing by the square root of a positive extended real is multiplying by its reciprocal square root, at +∞ too
  (both sides are then 0):  a / √v = a · v^(-1/2)  for every extended real a and every 0 < v ≤ +∞.

  A square is never negative, whatever the extended real:  0 ≤ x · x  (the infinities square to +∞), so a sum of
  squares, and such a sum divided by a positive real, are never negative either.
-/
import Idealize.ShloMosaic.PureOps.Ideal

noncomputable section

namespace Cert.BnLaw

open Idealize.ShloMosaic

/-- a / √v = a · v^(-1/2) for every positive extended real v. -/
theorem div_sqrt_eq_mul_rsqrt (a v : EReal) (hv : 0 < v) : Ideal.div a (Ideal.sqrt v) = a * Ideal.rsqrt v := by
  induction v using EReal.rec with
  | bot => exact absurd hv (by simp)
  | top =>
    rw [Ideal.sqrt_top, Ideal.rsqrt_top, Ideal.div, if_neg (by simp), EReal.inv_top]
  | coe r =>
    have hr : 0 < r := by exact_mod_cast hv
    have hs : 0 < Real.sqrt r := Real.sqrt_pos.mpr hr
    rw [Ideal.sqrt_coe, Ideal.rsqrt_coe, if_neg (not_lt.mpr hr.le), if_neg (not_lt.mpr hr.le), if_neg hr.ne',
      Ideal.div_coe hs.ne', one_div]

/-- A square is never negative. -/
theorem mul_self_nonneg (x : EReal) : 0 ≤ x * x := by
  induction x using EReal.rec with
  | bot => simp [EReal.bot_mul_bot]
  | top => simp [EReal.top_mul_top]
  | coe r => exact_mod_cast _root_.mul_self_nonneg r

/-- A nonnegative extended real divided by a positive real is nonnegative. -/
theorem div_nonneg_of_pos (x : EReal) (hx : 0 ≤ x) (y : ℝ) (hy : 0 < y) : 0 ≤ Ideal.div x (y : EReal) := by
  rw [Ideal.div_coe hy.ne']
  exact EReal.mul_nonneg hx (by exact_mod_cast (one_div_pos.mpr hy).le)

/-- A sum of nonnegative extended reals is nonnegative. -/
theorem sum_nonneg {ι : Type} (s : Finset ι) (f : ι → EReal) (hf : ∀ i ∈ s, 0 ≤ f i) : 0 ≤ ∑ i ∈ s, f i :=
  Finset.sum_nonneg hf

end Cert.BnLaw

end
-- ==== Proof.RefBn.lean ====
/-
  The reference's batch normalisation, read entry by entry over the extended reals.

  With h a 51200 × 64 array and mu, var, gamma, beta vectors of 64 entries, the host computes

      ((h - mu) / sqrt(var + eps)) * gamma + beta,        each vector laid out as a row and broadcast down the rows,

  then max(·, 0) in the layers that end with a rectifier.  Dividing by the square root of a positive extended real is
  multiplying by its reciprocal square root, so wherever var is nonnegative (hence var + eps positive) this is the
  array whose entry (p, q) is ((h[p,q] - mu[q]) * rsqrt(var[q] + eps)) * gamma[q] + beta[q].  Nothing is assumed of h, mu,
  gamma or beta: they may be infinite.
-/
import proofs.«133701_j46024869544456_1_alg».proof.ReferenceIdeal
import proofs.«133701_j46024869544456_1_alg».proof.Proof.Gen.ReferenceIdeal
import proofs.«133701_j46024869544456_1_alg».proof.Proof.ValBnG
import proofs.«133701_j46024869544456_1_alg».proof.Proof.LibRowBias
import proofs.«133701_j46024869544456_1_alg».proof.Proof.LibLayout
import proofs.«133701_j46024869544456_1_alg».proof.Proof.BnLaw
import proofs.«133701_j46024869544456_1_alg».proof.Proof.BnConsts
import Idealize.ShloMosaic.Lib.Pipeline.Value
import Idealize.ShloMosaic.Lib.ValueIdx
import Idealize.ShloMosaic.PureOps.Ideal.Laws

noncomputable section

namespace Cert.RefBn

open Idealize.ShloMosaic Idealize.ShloMosaic.ValueIdx Cert.ReferenceIdeal Cert.ReferenceIdeal.Gen

/-- A vector of 64 entries laid out as a [1, 64] row: entry (0, q) of the row is entry q of the vector. -/
theorem rowOfVec_apply {α : Type} (v : S64.Idx → α) (q : Fin 64) :
    broadcastInDim S1x64 ![1] bcast_S64_S1x64_1 v (ix2 (0 : Fin 1) q) = v (ix1 q) := by
  refine broadcastInDim_apply _ _ _ _ (ix1 q) (fun d => ?_)
  have hd : d = 0 := Subsingleton.elim _ _
  subst hd
  rfl

/-- A scalar broadcast to a vector of 64 entries: every entry is the scalar. -/
theorem scalarVec_apply {α : Type} (z : S_.Idx → α) (j : S64.Idx) :
    broadcastInDim S64 ![] bcast_S_S64 z j = z ix0 :=
  broadcastInDim_apply _ _ _ _ ix0 (fun d => d.elim0)

/-- The normalised entry, before the rectifier. -/
theorem bn_entry (h2 : FVec Ideal S51200x64 .f32) (mu var g b : FVec Ideal S64 .f32)
    (hv : ∀ q : Fin 64, 0 ≤ var (ix1 q)) (p : Fin 51200) (q : Fin 64) :
    addf (mulf (Host.divf (subf h2 (broadcastInDim S51200x64 ![0, 1] bcast_S1x64_S51200x64_0_1 (broadcastInDim S1x64 ![1] bcast_S64_S1x64_1 mu)))
          (broadcastInDim S51200x64 ![0, 1] bcast_S1x64_S51200x64_0_1 (broadcastInDim S1x64 ![1] bcast_S64_S1x64_1
            (Host.sqrt (addf var (broadcastInDim S64 ![] bcast_S_S64 (constant (F := Ideal) S_ .f32 0x3727C5AC#32)))))))
        (broadcastInDim S51200x64 ![0, 1] bcast_S1x64_S51200x64_0_1 (broadcastInDim S1x64 ![1] bcast_S64_S1x64_1 g)))
      (broadcastInDim S51200x64 ![0, 1] bcast_S1x64_S51200x64_0_1 (broadcastInDim S1x64 ![1] bcast_S64_S1x64_1 b)) (ix2 p q)
    = Cert.KernelIdeal.Val.bnY (h2 (ix2 p q)) (mu (ix1 q)) (var (ix1 q)) (g (ix1 q)) (b (ix1 q)) := by
  have hpos : (0 : EReal) < var (ix1 q) + Ideal.ofBits .f32 0x3727C5AC#32 :=
    lt_of_lt_of_le Cert.BnConsts.eps_pos (le_add_of_nonneg_left (hv q))
  show Ideal.div (h2 (ix2 p q) - broadcastInDim S51200x64 ![0, 1] bcast_S1x64_S51200x64_0_1 (broadcastInDim S1x64 ![1] bcast_S64_S1x64_1 mu) (ix2 p q))
        (broadcastInDim S51200x64 ![0, 1] bcast_S1x64_S51200x64_0_1 (broadcastInDim S1x64 ![1] bcast_S64_S1x64_1
            (Host.sqrt (addf var (broadcastInDim S64 ![] bcast_S_S64 (constant (F := Ideal) S_ .f32 0x3727C5AC#32))))) (ix2 p q))
        * broadcastInDim S51200x64 ![0, 1] bcast_S1x64_S51200x64_0_1 (broadcastInDim S1x64 ![1] bcast_S64_S1x64_1 g) (ix2 p q)
      + broadcastInDim S51200x64 ![0, 1] bcast_S1x64_S51200x64_0_1 (broadcastInDim S1x64 ![1] bcast_S64_S1x64_1 b) (ix2 p q) = _
  rw [Cert.RowBias.rowInDim_apply, Cert.RowBias.rowInDim_apply, Cert.RowBias.rowInDim_apply, Cert.RowBias.rowInDim_apply,
    rowOfVec_apply, rowOfVec_apply, rowOfVec_apply, rowOfVec_apply]
  show Ideal.div (h2 (ix2 p q) - mu (ix1 q))
        (Ideal.sqrt (var (ix1 q) + broadcastInDim S64 ![] bcast_S_S64 (constant (F := Ideal) S_ .f32 0x3727C5AC#32) (ix1 q)))
        * g (ix1 q) + b (ix1 q) = _
  rw [scalarVec_apply]
  show Ideal.div (h2 (ix2 p q) - mu (ix1 q)) (Ideal.sqrt (var (ix1 q) + Ideal.ofBits .f32 0x3727C5AC#32)) * g (ix1 q) + b (ix1 q) = _
  rw [Cert.BnLaw.div_sqrt_eq_mul_rsqrt _ _ hpos]
  rfl

/-- The normalised, rectified array of a layer that ends with a rectifier. -/
theorem bnRelu_ref (h2 : FVec Ideal S51200x64 .f32) (mu var g b : FVec Ideal S64 .f32)
    (hv : ∀ q : Fin 64, 0 ≤ var (ix1 q)) :
    maximumf (addf (mulf (Host.divf (subf h2 (broadcastInDim S51200x64 ![0, 1] bcast_S1x64_S51200x64_0_1 (broadcastInDim S1x64 ![1] bcast_S64_S1x64_1 mu)))
          (broadcastInDim S51200x64 ![0, 1] bcast_S1x64_S51200x64_0_1 (broadcastInDim S1x64 ![1] bcast_S64_S1x64_1 (Host.sqrt (addf var (broadcastInDim S64 ![] bcast_S_S64 (constant (F := Ideal) S_ .f32 0x3727C5AC#32)))))))
        (broadcastInDim S51200x64 ![0, 1] bcast_S1x64_S51200x64_0_1 (broadcastInDim S1x64 ![1] bcast_S64_S1x64_1 g)))
      (broadcastInDim S51200x64 ![0, 1] bcast_S1x64_S51200x64_0_1 (broadcastInDim S1x64 ![1] bcast_S64_S1x64_1 b)))
      (broadcastInDim S51200x64 ![] bcast_S_S51200x64 (constant (F := Ideal) S_ .f32 0x00000000#32))
    = Cert.KernelIdeal.Val.GBnRelu h2 (broadcastInDim S1x64 ![1] bcast_S64_S1x64_1 mu) (broadcastInDim S1x64 ![1] bcast_S64_S1x64_1 var) (broadcastInDim S1x64 ![1] bcast_S64_S1x64_1 g) (broadcastInDim S1x64 ![1] bcast_S64_S1x64_1 b) := by
  funext i
  obtain ⟨p, q, rfl⟩ : ∃ (p : Fin 51200) (q : Fin 64), i = ix2 p q := ⟨i 0, i 1, eq_ix2 i⟩
  rw [Cert.KernelIdeal.Val.GBnRelu_apply, rowOfVec_apply, rowOfVec_apply, rowOfVec_apply, rowOfVec_apply]
  show max ((addf (mulf (Host.divf (subf h2 (broadcastInDim S51200x64 ![0, 1] bcast_S1x64_S51200x64_0_1 (broadcastInDim S1x64 ![1] bcast_S64_S1x64_1 mu)))
          (broadcastInDim S51200x64 ![0, 1] bcast_S1x64_S51200x64_0_1 (broadcastInDim S1x64 ![1] bcast_S64_S1x64_1 (Host.sqrt (addf var (broadcastInDim S64 ![] bcast_S_S64 (constant (F := Ideal) S_ .f32 0x3727C5AC#32)))))))
        (broadcastInDim S51200x64 ![0, 1] bcast_S1x64_S51200x64_0_1 (broadcastInDim S1x64 ![1] bcast_S64_S1x64_1 g)))
      (broadcastInDim S51200x64 ![0, 1] bcast_S1x64_S51200x64_0_1 (broadcastInDim S1x64 ![1] bcast_S64_S1x64_1 b))) (ix2 p q))
      (broadcastInDim S51200x64 ![] bcast_S_S51200x64 (constant (F := Ideal) S_ .f32 0x00000000#32) (ix2 p q)) = _
  rw [bn_entry h2 mu var g b hv p q, Cert.RowBias.scalarInDim_apply]
  rfl

/-- The normalised array of the last layer (no rectifier). -/
theorem bnLast_ref (h2 : FVec Ideal S51200x64 .f32) (mu var g b : FVec Ideal S64 .f32)
    (hv : ∀ q : Fin 64, 0 ≤ var (ix1 q)) :
    addf (mulf (Host.divf (subf h2 (broadcastInDim S51200x64 ![0, 1] bcast_S1x64_S51200x64_0_1 (broadcastInDim S1x64 ![1] bcast_S64_S1x64_1 mu)))
          (broadcastInDim S51200x64 ![0, 1] bcast_S1x64_S51200x64_0_1 (broadcastInDim S1x64 ![1] bcast_S64_S1x64_1 (Host.sqrt (addf var (broadcastInDim S64 ![] bcast_S_S64 (constant (F := Ideal) S_ .f32 0x3727C5AC#32)))))))
        (broadcastInDim S51200x64 ![0, 1] bcast_S1x64_S51200x64_0_1 (broadcastInDim S1x64 ![1] bcast_S64_S1x64_1 g)))
      (broadcastInDim S51200x64 ![0, 1] bcast_S1x64_S51200x64_0_1 (broadcastInDim S1x64 ![1] bcast_S64_S1x64_1 b))
    = Cert.KernelIdeal.Val.GBnLast h2 (broadcastInDim S1x64 ![1] bcast_S64_S1x64_1 mu) (broadcastInDim S1x64 ![1] bcast_S64_S1x64_1 var) (broadcastInDim S1x64 ![1] bcast_S64_S1x64_1 g) (broadcastInDim S1x64 ![1] bcast_S64_S1x64_1 b) := by
  funext i
  obtain ⟨p, q, rfl⟩ : ∃ (p : Fin 51200) (q : Fin 64), i = ix2 p q := ⟨i 0, i 1, eq_ix2 i⟩
  rw [Cert.KernelIdeal.Val.GBnLast_apply, rowOfVec_apply, rowOfVec_apply, rowOfVec_apply, rowOfVec_apply]
  exact bn_entry h2 mu var g b hv p q

/-- The rectified layer with the four vectors laid out as rows by a reshape (a vector reshaped to a one-row matrix is the
    vector broadcast along a new leading axis). -/
theorem bnRelu_ref' (h2 : FVec Ideal S51200x64 .f32) (mu var g b : FVec Ideal S64 .f32) (hs : S64.ShapeCasts S1x64)
    (hv : ∀ q : Fin 64, 0 ≤ var (ix1 q)) :
    maximumf (addf (mulf (Host.divf (subf h2 (broadcastInDim S51200x64 ![0, 1] bcast_S1x64_S51200x64_0_1 (broadcastInDim S1x64 ![1] bcast_S64_S1x64_1 mu)))
          (broadcastInDim S51200x64 ![0, 1] bcast_S1x64_S51200x64_0_1 (broadcastInDim S1x64 ![1] bcast_S64_S1x64_1 (Host.sqrt (addf var (broadcastInDim S64 ![] bcast_S_S64 (constant (F := Ideal) S_ .f32 0x3727C5AC#32)))))))
        (broadcastInDim S51200x64 ![0, 1] bcast_S1x64_S51200x64_0_1 (broadcastInDim S1x64 ![1] bcast_S64_S1x64_1 g)))
      (broadcastInDim S51200x64 ![0, 1] bcast_S1x64_S51200x64_0_1 (broadcastInDim S1x64 ![1] bcast_S64_S1x64_1 b)))
      (broadcastInDim S51200x64 ![] bcast_S_S51200x64 (constant (F := Ideal) S_ .f32 0x00000000#32))
    = Cert.KernelIdeal.Val.GBnRelu h2 (shapeCast S1x64 mu hs) (shapeCast S1x64 var hs) (shapeCast S1x64 g hs) (shapeCast S1x64 b hs) := by
  rw [bnRelu_ref h2 mu var g b hv, Cert.Layout.row_reshape_eq_broadcast mu hs bcast_S64_S1x64_1,
    Cert.Layout.row_reshape_eq_broadcast var hs bcast_S64_S1x64_1, Cert.Layout.row_reshape_eq_broadcast g hs bcast_S64_S1x64_1,
    Cert.Layout.row_reshape_eq_broadcast b hs bcast_S64_S1x64_1]

/-- The last layer likewise. -/
theorem bnLast_ref' (h2 : FVec Ideal S51200x64 .f32) (mu var g b : FVec Ideal S64 .f32) (hs : S64.ShapeCasts S1x64)
    (hv : ∀ q : Fin 64, 0 ≤ var (ix1 q)) :
    addf (mulf (Host.divf (subf h2 (broadcastInDim S51200x64 ![0, 1] bcast_S1x64_S51200x64_0_1 (broadcastInDim S1x64 ![1] bcast_S64_S1x64_1 mu)))
          (broadcastInDim S51200x64 ![0, 1] bcast_S1x64_S51200x64_0_1 (broadcastInDim S1x64 ![1] bcast_S64_S1x64_1 (Host.sqrt (addf var (broadcastInDim S64 ![] bcast_S_S64 (constant (F := Ideal) S_ .f32 0x3727C5AC#32)))))))
        (broadcastInDim S51200x64 ![0, 1] bcast_S1x64_S51200x64_0_1 (broadcastInDim S1x64 ![1] bcast_S64_S1x64_1 g)))
      (broadcastInDim S51200x64 ![0, 1] bcast_S1x64_S51200x64_0_1 (broadcastInDim S1x64 ![1] bcast_S64_S1x64_1 b))
    = Cert.KernelIdeal.Val.GBnLast h2 (shapeCast S1x64 mu hs) (shapeCast S1x64 var hs) (shapeCast S1x64 g hs) (shapeCast S1x64 b hs) := by
  rw [bnLast_ref h2 mu var g b hv, Cert.Layout.row_reshape_eq_broadcast mu hs bcast_S64_S1x64_1,
    Cert.Layout.row_reshape_eq_broadcast var hs bcast_S64_S1x64_1, Cert.Layout.row_reshape_eq_broadcast g hs bcast_S64_S1x64_1,
    Cert.Layout.row_reshape_eq_broadcast b hs bcast_S64_S1x64_1]

end Cert.RefBn

end
-- ==== Proof.RefVar.lean ====
/-
  The reference's variance of a column is never negative, whatever the extended reals in the column.

  The host computes the variance of a 51200-row array x as the sum over the rows of the squared deviation
  D · D (D the array minus its column means) divided by the row count 51200 − 0, guarded by a select on
  51200 − 0 > 0 (the guard holds, so the quotient is selected).  A square of an extended real is nonnegative,
  a sum of nonnegative extended reals is nonnegative, and so is its quotient by a positive real: the variance is
  nonnegative for EVERY deviation array D, infinite entries included.
-/
import proofs.«133701_j46024869544456_1_alg».proof.ReferenceIdeal
import proofs.«133701_j46024869544456_1_alg».proof.Proof.Gen.ReferenceIdeal
import proofs.«133701_j46024869544456_1_alg».proof.Proof.RefBn
import Idealize.ShloMosaic.Lib.Pipeline.Value
import Idealize.ShloMosaic.Lib.ValueIdx
import Idealize.ShloMosaic.PureOps.Ideal.Laws
import proofs.«133701_j46024869544456_1_alg».proof.Proof.BnLaw
import proofs.«133701_j46024869544456_1_alg».proof.Proof.BnConsts

noncomputable section
namespace Cert.RefVar
open Idealize.ShloMosaic Idealize.ShloMosaic.ValueIdx Cert.ReferenceIdeal Cert.ReferenceIdeal.Gen

/-- The row count the variance divides by, 51200 − 0, is the real 51200. -/
theorem n0_eq : subf (constant (F := Ideal) S_ .f32 0x47480000#32) (sitofp (F := Ideal) .f32 (constantI S_ 32 0#32)) ix0 = ((51200 : ℝ) : EReal) := by
  show Ideal.ofBits .f32 0x47480000#32 - (((0#32 : BitVec 32).toInt : ℝ) : EReal) = _
  rw [Cert.BnConsts.ofBits_51200]
  simp

/-- The guarded quotient of a sum of squares by the row count is nonnegative at every column. -/
theorem var_nonneg_of_shape (D : FVec Ideal S51200x64 .f32) (nb : FVec Ideal S64 .f32) (q : Fin 64) :
    0 ≤ select (broadcastInDim S64 ![] bcast_S_S64 (cmpf .ogt (subf (constant (F := Ideal) S_ .f32 0x47480000#32) (sitofp (F := Ideal) .f32 (constantI S_ 32 0#32))) (constant (F := Ideal) S_ .f32 0x00000000#32)))
        (Host.divf (Host.reduceAdd (mulf D D) (constant (F := Ideal) S_ .f32 0x00000000#32) reducesTo_S51200x64_S64_d0 h_S_)
          (broadcastInDim S64 ![] bcast_S_S64 (subf (constant (F := Ideal) S_ .f32 0x47480000#32) (sitofp (F := Ideal) .f32 (constantI S_ 32 0#32)))))
        nb (ix1 q) := by
  show 0 ≤ Scalar.select (broadcastInDim S64 ![] bcast_S_S64 (cmpf .ogt (subf (constant (F := Ideal) S_ .f32 0x47480000#32) (sitofp (F := Ideal) .f32 (constantI S_ 32 0#32))) (constant (F := Ideal) S_ .f32 0x00000000#32)) (ix1 q))
      (Host.divf (Host.reduceAdd (mulf D D) (constant (F := Ideal) S_ .f32 0x00000000#32) reducesTo_S51200x64_S64_d0 h_S_)
          (broadcastInDim S64 ![] bcast_S_S64 (subf (constant (F := Ideal) S_ .f32 0x47480000#32) (sitofp (F := Ideal) .f32 (constantI S_ 32 0#32)))) (ix1 q))
      (nb (ix1 q))
  rw [Cert.RefBn.scalarVec_apply]
  show 0 ≤ Scalar.select (Ideal.cmp .ogt (subf (constant (F := Ideal) S_ .f32 0x47480000#32) (sitofp (F := Ideal) .f32 (constantI S_ 32 0#32)) ix0) (Ideal.ofBits .f32 0x00000000#32)) _ _
  rw [n0_eq, Cert.BnConsts.ofBits_zero]
  have hc : Ideal.cmp .ogt ((51200 : ℝ) : EReal) 0 = 1 := by
    unfold Ideal.cmp
    simp
  rw [hc]
  show 0 ≤ Ideal.div (Host.reduceAdd (mulf D D) (constant (F := Ideal) S_ .f32 0x00000000#32) reducesTo_S51200x64_S64_d0 h_S_ (ix1 q))
      (broadcastInDim S64 ![] bcast_S_S64 (subf (constant (F := Ideal) S_ .f32 0x47480000#32) (sitofp (F := Ideal) .f32 (constantI S_ 32 0#32))) (ix1 q))
  rw [Cert.RefBn.scalarVec_apply, n0_eq]
  refine Cert.BnLaw.div_nonneg_of_pos _ ?_ 51200 (by norm_num)
  show 0 ≤ Ideal.ofBits .f32 0x00000000#32
      + ∑ i ∈ Finset.univ.filter (fun i => Shape.ReducesTo.drop reducesTo_S51200x64_S64_d0 i = ix1 q), D i * D i
  rw [Cert.BnConsts.ofBits_zero, zero_add]
  exact Finset.sum_nonneg fun i _ => Cert.BnLaw.mul_self_nonneg (D i)
end Cert.RefVar
end
-- ==== Proof.StageL1.lean ====
/-
  Layer 1 of the message passing, stage by stage — aggregation, perceptron, batch normalisation — as both programs
  compute it from equal inputs (the valuations are arbitrary: each stage is a fact about the two lists of host operations).
-/
import proofs.«133701_j46024869544456_1_alg».proof.Proof.Gen.KernelIdeal.Launch
import proofs.«133701_j46024869544456_1_alg».proof.Proof.RefOps
import proofs.«133701_j46024869544456_1_alg».proof.Proof.RefGin
import proofs.«133701_j46024869544456_1_alg».proof.Proof.RefBn
import proofs.«133701_j46024869544456_1_alg».proof.Proof.RefVar
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 4000000 in
/-- Layer 1, the aggregation: gather the node rows and the two edge embeddings along the edges, add, scatter-add to the
    target nodes. Both programs spell it with the same host operations, so from equal inputs they compute equal arrays. -/
theorem agg1 (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v15) = VR (Proc.devRef .tc Cert.ReferenceIdeal.main_v15))
    (e3 : VK (Proc.devRef .tc Cert.KernelIdeal.main_v3) = VR (Proc.devRef .tc Cert.ReferenceIdeal.main_v3)) (e6 : VK (Proc.devRef .tc Cert.KernelIdeal.main_v6) = VR (Proc.devRef .tc Cert.ReferenceIdeal.main_v6))
    (e10 : VK (Proc.devRef .tc Cert.KernelIdeal.main_v10) = VR (Proc.devRef .tc Cert.ReferenceIdeal.main_v10))
    (e14 : VK (Proc.devRef .tc Cert.KernelIdeal.main_arg14) = VR (Proc.devRef .tc Cert.ReferenceIdeal.main_arg14)) (e15 : VK (Proc.devRef .tc Cert.KernelIdeal.main_arg15) = VR (Proc.devRef .tc Cert.ReferenceIdeal.main_arg15)) :
    after Cert.KernelIdeal.Gen.hostOps0_2 VK (Proc.devRef .tc Cert.KernelIdeal.main_v49) = (after Cert.ReferenceIdeal.Hand.q1 VR) (Proc.devRef .tc Cert.ReferenceIdeal.main_v49) := by
  simp only [Cert.KernelIdeal.Gen.hostOps0_2, Cert.ReferenceIdeal.Hand.q1]
  after_results_simp
  try simp only [TRef.ofBuf, TRef.toBuf, cast_eq]
  rw [eh, e3, e6, e10, e14, e15]
  rfl

set_option maxHeartbeats 4000000 in
/-- Layer 1, the perceptron: the kernel's region leaves the array whose entry (p, q) is the nested inner product of
    the aggregated row with the layer's two weight matrices and bias rows; the reference's two host matrix products
    compute the same array from the same slices of the stacked weights. -/
theorem gin1 (VK : Valuation Cert.KernelIdeal.τ Cert.KernelIdeal.sig (Elt Ideal)) (VR : Valuation Cert.ReferenceIdeal.τ Cert.ReferenceIdeal.sig (Elt Ideal))
    (eagg : after Cert.KernelIdeal.Gen.hostOps0_2 VK (Proc.devRef .tc Cert.KernelIdeal.main_v49) = VR (Proc.devRef .tc Cert.ReferenceIdeal.main_v49))
    (e10 : VK (Proc.devRef .tc Cert.KernelIdeal.main_arg10) = VR (Proc.devRef .tc Cert.ReferenceIdeal.main_arg10)) (e11 : VK (Proc.devRef .tc Cert.KernelIdeal.main_arg11) = VR (Proc.devRef .tc Cert.ReferenceIdeal.main_arg11))
    (e12 : VK (Proc.devRef .tc Cert.KernelIdeal.main_arg12) = VR (Proc.devRef .tc Cert.ReferenceIdeal.main_arg12)) (e13 : VK (Proc.devRef .tc Cert.KernelIdeal.main_arg13) = VR (Proc.devRef .tc Cert.ReferenceIdeal.main_arg13)) :
    Cert.KernelIdeal.Val.ginMlp 51200 (after Cert.KernelIdeal.Gen.hostOps0_2 VK (Proc.devRef .tc Cert.KernelIdeal.main_v49)) (after Cert.KernelIdeal.Gen.hostOps0_2 VK (Proc.devRef .tc Cert.KernelIdeal.main_v51)) (after Cert.KernelIdeal.Gen.hostOps0_2 VK (Proc.devRef .tc Cert.KernelIdeal.main_v58)) (after Cert.KernelIdeal.Gen.hostOps0_2 VK (Proc.devRef .tc Cert.KernelIdeal.main_v55)) (after Cert.KernelIdeal.Gen.hostOps0_2 VK (Proc.devRef .tc Cert.KernelIdeal.main_v59))
      = (after Cert.ReferenceIdeal.Hand.q3 (after Cert.ReferenceIdeal.Hand.q2 VR)) (Proc.devRef .tc Cert.ReferenceIdeal.main_v66) := by
  generalize after Cert.KernelIdeal.Gen.hostOps0_2 VK (Proc.devRef .tc Cert.KernelIdeal.main_v49) = a at eagg ⊢
  simp only [Cert.KernelIdeal.Gen.hostOps0_2, Cert.ReferenceIdeal.Hand.q2, Cert.ReferenceIdeal.Hand.q3]
  after_results_simp
  try simp only [TRef.ofBuf, TRef.toBuf, cast_eq]
  rw [Cert.RefGin.gin_ref' _ _ _ _ _ Cert.KernelIdeal.Gen.shapeCasts_S128_S1x128 Cert.KernelIdeal.Gen.shapeCasts_S64_S1x64]
  rw [eagg, e10, e11, e12, e13]
  rfl

set_option maxHeartbeats 8000000 in
/-- Layer 1, the batch normalisation and rectifier: both programs take the column means and variances of the perceptron's output with
    the same host operations; the kernel's region then multiplies the centred entries by the reciprocal square root of
    variance plus epsilon where the reference divides by the square root. The variance is a guarded mean of squares, hence
    nonnegative, so the two agree at every entry, whatever the extended reals. -/
theorem bn1 (VK : Valuation Cert.KernelIdeal.τ Cert.KernelIdeal.sig (Elt Ideal)) (VR : Valuation Cert.ReferenceIdeal.τ Cert.ReferenceIdeal.sig (Elt Ideal))
    (eh2 : VK (Proc.devRef .tc Cert.KernelIdeal.main_v60) = VR (Proc.devRef .tc Cert.ReferenceIdeal.main_v66))
    (e16 : VK (Proc.devRef .tc Cert.KernelIdeal.main_arg16) = VR (Proc.devRef .tc Cert.ReferenceIdeal.main_arg16)) (e17 : VK (Proc.devRef .tc Cert.KernelIdeal.main_arg17) = VR (Proc.devRef .tc Cert.ReferenceIdeal.main_arg17)) :
    Cert.KernelIdeal.Val.GBnRelu (after Cert.KernelIdeal.Gen.hostOps1_2 (after Cert.KernelIdeal.Gen.hostOps1_1 (after Cert.KernelIdeal.Gen.hostOps1 VK)) (Proc.devRef .tc Cert.KernelIdeal.main_v60)) (after Cert.KernelIdeal.Gen.hostOps1_2 (after Cert.KernelIdeal.Gen.hostOps1_1 (after Cert.KernelIdeal.Gen.hostOps1 VK)) (Proc.devRef .tc Cert.KernelIdeal.main_v69)) (after Cert.KernelIdeal.Gen.hostOps1_2 (after Cert.KernelIdeal.Gen.hostOps1_1 (after Cert.KernelIdeal.Gen.hostOps1 VK)) (Proc.devRef .tc Cert.KernelIdeal.main_v70)) (after Cert.KernelIdeal.Gen.hostOps1_2 (after Cert.KernelIdeal.Gen.hostOps1_1 (after Cert.KernelIdeal.Gen.hostOps1 VK)) (Proc.devRef .tc Cert.KernelIdeal.main_v71)) (after Cert.KernelIdeal.Gen.hostOps1_2 (after Cert.KernelIdeal.Gen.hostOps1_1 (after Cert.KernelIdeal.Gen.hostOps1 VK)) (Proc.devRef .tc Cert.KernelIdeal.main_v72))
      = (after Cert.ReferenceIdeal.Hand.q5 (after Cert.ReferenceIdeal.Hand.q4 VR)) (Proc.devRef .tc Cert.ReferenceIdeal.main_v90) := by
  simp only [Cert.KernelIdeal.Gen.hostOps1, Cert.KernelIdeal.Gen.hostOps1_1, Cert.KernelIdeal.Gen.hostOps1_2, Cert.ReferenceIdeal.Hand.q4, Cert.ReferenceIdeal.Hand.q5]
  after_results_simp
  try simp only [TRef.ofBuf, TRef.toBuf, cast_eq]
  rw [Cert.RefBn.bnRelu_ref' _ _ _ _ _ Cert.KernelIdeal.Gen.shapeCasts_S64_S1x64 (Cert.RefVar.var_nonneg_of_shape _ _)]
  rw [eh2, e16, e17]
  rfl

end Cert.Bridge

end
-- ==== Proof.StageL2.lean ====
/-
  Layer 2 of the message passing, stage by stage — aggregation, perceptron, batch normalisation — as both programs
  compute it from equal inputs (the valuations are arbitrary: each stage is a fact about the two lists of host operations).
-/
import proofs.«133701_j46024869544456_1_alg».proof.Proof.Gen.KernelIdeal.Launch
import proofs.«133701_j46024869544456_1_alg».proof.Proof.RefOps
import proofs.«133701_j46024869544456_1_alg».proof.Proof.RefGin
import proofs.«133701_j46024869544456_1_alg».proof.Proof.RefBn
import proofs.«133701_j46024869544456_1_alg».proof.Proof.RefVar
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 4000000 in
/-- Layer 2, the aggregation: gather the node rows and the two edge embeddings along the edges, add, scatter-add to the
    target nodes. Both programs spell it with the same host operations, so from equal inputs they compute equal arrays. -/
theorem agg2 (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v73) = VR (Proc.devRef .tc Cert.ReferenceIdeal.main_v90))
    (e3 : VK (Proc.devRef .tc Cert.KernelIdeal.main_v3) = VR (Proc.devRef .tc Cert.ReferenceIdeal.main_v3)) (e6 : VK (Proc.devRef .tc Cert.KernelIdeal.main_v6) = VR (Proc.devRef .tc Cert.ReferenceIdeal.main_v6))
    (e10 : VK (Proc.devRef .tc Cert.KernelIdeal.main_v10) = VR (Proc.devRef .tc Cert.ReferenceIdeal.main_v10))
    (e14 : VK (Proc.devRef .tc Cert.KernelIdeal.main_arg14) = VR (Proc.devRef .tc Cert.ReferenceIdeal.main_arg14)) (e15 : VK (Proc.devRef .tc Cert.KernelIdeal.main_arg15) = VR (Proc.devRef .tc Cert.ReferenceIdeal.main_arg15)) :
    after Cert.KernelIdeal.Gen.hostOps2 VK (Proc.devRef .tc Cert.KernelIdeal.main_v107) = (after Cert.ReferenceIdeal.Hand.q7 (after Cert.ReferenceIdeal.Hand.q6 VR)) (Proc.devRef .tc Cert.ReferenceIdeal.main_v124) := by
  simp only [Cert.KernelIdeal.Gen.hostOps2, Cert.ReferenceIdeal.Hand.q6, Cert.ReferenceIdeal.Hand.q7]
  after_results_simp
  try simp only [TRef.ofBuf, TRef.toBuf, cast_eq]
  rw [eh, e3, e6, e10, e14, e15]
  rfl

set_option maxHeartbeats 4000000 in
/-- Layer 2, the perceptron: the kernel's region leaves the array whose entry (p, q) is the nested inner product of
    the aggregated row with the layer's two weight matrices and bias rows; the reference's two host matrix products
    compute the same array from the same slices of the stacked weights. -/
theorem gin2 (VK : Valuation Cert.KernelIdeal.τ Cert.KernelIdeal.sig (Elt Ideal)) (VR : Valuation Cert.ReferenceIdeal.τ Cert.ReferenceIdeal.sig (Elt Ideal))
    (eagg : after Cert.KernelIdeal.Gen.hostOps2 VK (Proc.devRef .tc Cert.KernelIdeal.main_v107) = VR (Proc.devRef .tc Cert.ReferenceIdeal.main_v124))
    (e10 : VK (Proc.devRef .tc Cert.KernelIdeal.main_arg10) = VR (Proc.devRef .tc Cert.ReferenceIdeal.main_arg10)) (e11 : VK (Proc.devRef .tc Cert.KernelIdeal.main_arg11) = VR (Proc.devRef .tc Cert.ReferenceIdeal.main_arg11))
    (e12 : VK (Proc.devRef .tc Cert.KernelIdeal.main_arg12) = VR (Proc.devRef .tc Cert.ReferenceIdeal.main_arg12)) (e13 : VK (Proc.devRef .tc Cert.KernelIdeal.main_arg13) = VR (Proc.devRef .tc Cert.ReferenceIdeal.main_arg13)) :
    Cert.KernelIdeal.Val.ginMlp 51200 (after Cert.KernelIdeal.Gen.hostOps2 VK (Proc.devRef .tc Cert.KernelIdeal.main_v107)) (after Cert.KernelIdeal.Gen.hostOps2 VK (Proc.devRef .tc Cert.KernelIdeal.main_v109)) (after Cert.KernelIdeal.Gen.hostOps2 VK (Proc.devRef .tc Cert.KernelIdeal.main_v116)) (after Cert.KernelIdeal.Gen.hostOps2 VK (Proc.devRef .tc Cert.KernelIdeal.main_v113)) (after Cert.KernelIdeal.Gen.hostOps2 VK (Proc.devRef .tc Cert.KernelIdeal.main_v117))
      = (after Cert.ReferenceIdeal.Hand.q8 VR) (Proc.devRef .tc Cert.ReferenceIdeal.main_v141) := by
  generalize after Cert.KernelIdeal.Gen.hostOps2 VK (Proc.devRef .tc Cert.KernelIdeal.main_v107) = a at eagg ⊢
  simp only [Cert.KernelIdeal.Gen.hostOps2, Cert.ReferenceIdeal.Hand.q8]
  after_results_simp
  try simp only [TRef.ofBuf, TRef.toBuf, cast_eq]
  rw [Cert.RefGin.gin_ref' _ _ _ _ _ Cert.KernelIdeal.Gen.shapeCasts_S128_S1x128 Cert.KernelIdeal.Gen.shapeCasts_S64_S1x64]
  rw [eagg, e10, e11, e12, e13]
  rfl

set_option maxHeartbeats 8000000 in
/-- Layer 2, the batch normalisation and rectifier: both programs take the column means and variances of the perceptron's output with
    the same host operations; the kernel's region then multiplies the centred entries by the reciprocal square root of
    variance plus epsilon where the reference divides by the square root. The variance is a guarded mean of squares, hence
    nonnegative, so the two agree at every entry, whatever the extended reals. -/
theorem bn2 (VK : Valuation Cert.KernelIdeal.τ Cert.KernelIdeal.sig (Elt Ideal)) (VR : Valuation Cert.ReferenceIdeal.τ Cert.ReferenceIdeal.sig (Elt Ideal))
    (eh2 : VK (Proc.devRef .tc Cert.KernelIdeal.main_v118) = VR (Proc.devRef .tc Cert.ReferenceIdeal.main_v141))
    (e16 : VK (Proc.devRef .tc Cert.KernelIdeal.main_arg16) = VR (Proc.devRef .tc Cert.ReferenceIdeal.main_arg16)) (e17 : VK (Proc.devRef .tc Cert.KernelIdeal.main_arg17) = VR (Proc.devRef .tc Cert.ReferenceIdeal.main_arg17)) :
    Cert.KernelIdeal.Val.GBnRelu (after Cert.KernelIdeal.Gen.hostOps3_2 (after Cert.KernelIdeal.Gen.hostOps3_1 (after Cert.KernelIdeal.Gen.hostOps3 VK)) (Proc.devRef .tc Cert.KernelIdeal.main_v118)) (after Cert.KernelIdeal.Gen.hostOps3_2 (after Cert.KernelIdeal.Gen.hostOps3_1 (after Cert.KernelIdeal.Gen.hostOps3 VK)) (Proc.devRef .tc Cert.KernelIdeal.main_v127)) (after Cert.KernelIdeal.Gen.hostOps3_2 (after Cert.KernelIdeal.Gen.hostOps3_1 (after Cert.KernelIdeal.Gen.hostOps3 VK)) (Proc.devRef .tc Cert.KernelIdeal.main_v128)) (after Cert.KernelIdeal.Gen.hostOps3_2 (after Cert.KernelIdeal.Gen.hostOps3_1 (after Cert.KernelIdeal.Gen.hostOps3 VK)) (Proc.devRef .tc Cert.KernelIdeal.main_v129)) (after Cert.KernelIdeal.Gen.hostOps3_2 (after Cert.KernelIdeal.Gen.hostOps3_1 (after Cert.KernelIdeal.Gen.hostOps3 VK)) (Proc.devRef .tc Cert.KernelIdeal.main_v130))
      = (after Cert.ReferenceIdeal.Hand.q11 (after Cert.ReferenceIdeal.Hand.q10 (after Cert.ReferenceIdeal.Hand.q9 VR))) (Proc.devRef .tc Cert.ReferenceIdeal.main_v165) := by
  simp only [Cert.KernelIdeal.Gen.hostOps3, Cert.KernelIdeal.Gen.hostOps3_1, Cert.KernelIdeal.Gen.hostOps3_2, Cert.ReferenceIdeal.Hand.q9, Cert.ReferenceIdeal.Hand.q10, Cert.ReferenceIdeal.Hand.q11]
  after_results_simp
  try simp only [TRef.ofBuf, TRef.toBuf, cast_eq]
  rw [Cert.RefBn.bnRelu_ref' _ _ _ _ _ Cert.KernelIdeal.Gen.shapeCasts_S64_S1x64 (Cert.RefVar.var_nonneg_of_shape _ _)]
  rw [eh2, e16, e17]
  rfl

end Cert.Bridge

end
-- ==== Proof.StageL3.lean ====
/-
  Layer 3 of the message passing, stage by stage — aggregation, perceptron, batch normalisation — as both programs
  compute it from equal inputs (the valuations are arbitrary: each stage is a fact about the two lists of host operations).
-/
import proofs.«133701_j46024869544456_1_alg».proof.Proof.Gen.KernelIdeal.Launch
import proofs.«133701_j46024869544456_1_alg».proof.Proof.RefOps
import proofs.«133701_j46024869544456_1_alg».proof.Proof.RefGin
import proofs.«133701_j46024869544456_1_alg».proof.Proof.RefBn
import proofs.«133701_j46024869544456_1_alg».proof.Proof.RefVar
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 4000000 in
/-- Layer 3, the aggregation: gather the node rows and the two edge embeddings along the edges, add, scatter-add to the
    target nodes. Both programs spell it with the same host operations, so from equal inputs they compute equal arrays. -/
theorem agg3 (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v131) = VR (Proc.devRef .tc Cert.ReferenceIdeal.main_v165))
    (e3 : VK (Proc.devRef .tc Cert.KernelIdeal.main_v3) = VR (Proc.devRef .tc Cert.ReferenceIdeal.main_v3)) (e6 : VK (Proc.devRef .tc Cert.KernelIdeal.main_v6) = VR (Proc.devRef .tc Cert.ReferenceIdeal.main_v6))
    (e10 : VK (Proc.devRef .tc Cert.KernelIdeal.main_v10) = VR (Proc.devRef .tc Cert.ReferenceIdeal.main_v10))
    (e14 : VK (Proc.devRef .tc Cert.KernelIdeal.main_arg14) = VR (Proc.devRef .tc Cert.ReferenceIdeal.main_arg14)) (e15 : VK (Proc.devRef .tc Cert.KernelIdeal.main_arg15) = VR (Proc.devRef .tc Cert.ReferenceIdeal.main_arg15)) :
    after Cert.KernelIdeal.Gen.hostOps4 VK (Proc.devRef .tc Cert.KernelIdeal.main_v165) = (after Cert.ReferenceIdeal.Hand.q12 VR) (Proc.devRef .tc Cert.ReferenceIdeal.main_v199) := by
  simp only [Cert.KernelIdeal.Gen.hostOps4, Cert.ReferenceIdeal.Hand.q12]
  after_results_simp
  try simp only [TRef.ofBuf, TRef.toBuf, cast_eq]
  rw [eh, e3, e6, e10, e14, e15]
  rfl

set_option maxHeartbeats 4000000 in
/-- Layer 3, the perceptron: the kernel's region leaves the array whose entry (p, q) is the nested inner product of
    the aggregated row with the layer's two weight matrices and bias rows; the reference's two host matrix products
    compute the same array from the same slices of the stacked weights. -/
theorem gin3 (VK : Valuation Cert.KernelIdeal.τ Cert.KernelIdeal.sig (Elt Ideal)) (VR : Valuation Cert.ReferenceIdeal.τ Cert.ReferenceIdeal.sig (Elt Ideal))
    (eagg : after Cert.KernelIdeal.Gen.hostOps4 VK (Proc.devRef .tc Cert.KernelIdeal.main_v165) = VR (Proc.devRef .tc Cert.ReferenceIdeal.main_v199))
    (e10 : VK (Proc.devRef .tc Cert.KernelIdeal.main_arg10) = VR (Proc.devRef .tc Cert.ReferenceIdeal.main_arg10)) (e11 : VK (Proc.devRef .tc Cert.KernelIdeal.main_arg11) = VR (Proc.devRef .tc Cert.ReferenceIdeal.main_arg11))
    (e12 : VK (Proc.devRef .tc Cert.KernelIdeal.main_arg12) = VR (Proc.devRef .tc Cert.ReferenceIdeal.main_arg12)) (e13 : VK (Proc.devRef .tc Cert.KernelIdeal.main_arg13) = VR (Proc.devRef .tc Cert.ReferenceIdeal.main_arg13)) :
    Cert.KernelIdeal.Val.ginMlp 51200 (after Cert.KernelIdeal.Gen.hostOps4 VK (Proc.devRef .tc Cert.KernelIdeal.main_v165)) (after Cert.KernelIdeal.Gen.hostOps4 VK (Proc.devRef .tc Cert.KernelIdeal.main_v167)) (after Cert.KernelIdeal.Gen.hostOps4 VK (Proc.devRef .tc Cert.KernelIdeal.main_v174)) (after Cert.KernelIdeal.Gen.hostOps4 VK (Proc.devRef .tc Cert.KernelIdeal.main_v171)) (after Cert.KernelIdeal.Gen.hostOps4 VK (Proc.devRef .tc Cert.KernelIdeal.main_v175))
      = (after Cert.ReferenceIdeal.Hand.q14 (after Cert.ReferenceIdeal.Hand.q13 VR)) (Proc.devRef .tc Cert.ReferenceIdeal.main_v216) := by
  generalize after Cert.KernelIdeal.Gen.hostOps4 VK (Proc.devRef .tc Cert.KernelIdeal.main_v165) = a at eagg ⊢
  simp only [Cert.KernelIdeal.Gen.hostOps4, Cert.ReferenceIdeal.Hand.q13, Cert.ReferenceIdeal.Hand.q14]
  after_results_simp
  try simp only [TRef.ofBuf, TRef.toBuf, cast_eq]
  rw [Cert.RefGin.gin_ref' _ _ _ _ _ Cert.KernelIdeal.Gen.shapeCasts_S128_S1x128 Cert.KernelIdeal.Gen.shapeCasts_S64_S1x64]
  rw [eagg, e10, e11, e12, e13]
  rfl

set_option maxHeartbeats 8000000 in
/-- Layer 3, the batch normalisation and rectifier: both programs take the column means and variances of the perceptron's output with
    the same host operations; the kernel's region then multiplies the centred entries by the reciprocal square root of
    variance plus epsilon where the reference divides by the square root. The variance is a guarded mean of squares, hence
    nonnegative, so the two agree at every entry, whatever the extended reals. -/
theorem bn3 (VK : Valuation Cert.KernelIdeal.τ Cert.KernelIdeal.sig (Elt Ideal)) (VR : Valuation Cert.ReferenceIdeal.τ Cert.ReferenceIdeal.sig (Elt Ideal))
    (eh2 : VK (Proc.devRef .tc Cert.KernelIdeal.main_v176) = VR (Proc.devRef .tc Cert.ReferenceIdeal.main_v216))
    (e16 : VK (Proc.devRef .tc Cert.KernelIdeal.main_arg16) = VR (Proc.devRef .tc Cert.ReferenceIdeal.main_arg16)) (e17 : VK (Proc.devRef .tc Cert.KernelIdeal.main_arg17) = VR (Proc.devRef .tc Cert.ReferenceIdeal.main_arg17)) :
    Cert.KernelIdeal.Val.GBnRelu (after Cert.KernelIdeal.Gen.hostOps5_2 (after Cert.KernelIdeal.Gen.hostOps5_1 (after Cert.KernelIdeal.Gen.hostOps5 VK)) (Proc.devRef .tc Cert.KernelIdeal.main_v176)) (after Cert.KernelIdeal.Gen.hostOps5_2 (after Cert.KernelIdeal.Gen.hostOps5_1 (after Cert.KernelIdeal.Gen.hostOps5 VK)) (Proc.devRef .tc Cert.KernelIdeal.main_v185)) (after Cert.KernelIdeal.Gen.hostOps5_2 (after Cert.KernelIdeal.Gen.hostOps5_1 (after Cert.KernelIdeal.Gen.hostOps5 VK)) (Proc.devRef .tc Cert.KernelIdeal.main_v186)) (after Cert.KernelIdeal.Gen.hostOps5_2 (after Cert.KernelIdeal.Gen.hostOps5_1 (after Cert.KernelIdeal.Gen.hostOps5 VK)) (Proc.devRef .tc Cert.KernelIdeal.main_v187)) (after Cert.KernelIdeal.Gen.hostOps5_2 (after Cert.KernelIdeal.Gen.hostOps5_1 (after Cert.KernelIdeal.Gen.hostOps5 VK)) (Proc.devRef .tc Cert.KernelIdeal.main_v188))
      = (after Cert.ReferenceIdeal.Hand.q16 (after Cert.ReferenceIdeal.Hand.q15 VR)) (Proc.devRef .tc Cert.ReferenceIdeal.main_v240) := by
  simp only [Cert.KernelIdeal.Gen.hostOps5, Cert.KernelIdeal.Gen.hostOps5_1, Cert.KernelIdeal.Gen.hostOps5_2, Cert.ReferenceIdeal.Hand.q15, Cert.ReferenceIdeal.Hand.q16]
  after_results_simp
  try simp only [TRef.ofBuf, TRef.toBuf, cast_eq]
  rw [Cert.RefBn.bnRelu_ref' _ _ _ _ _ Cert.KernelIdeal.Gen.shapeCasts_S64_S1x64 (Cert.RefVar.var_nonneg_of_shape _ _)]
  rw [eh2, e16, e17]
  rfl

end Cert.Bridge

end
-- ==== Proof.StageL4.lean ====
/-
  Layer 4 of the message passing, stage by stage — aggregation, perceptron, batch normalisation — as both programs
  compute it from equal inputs (the valuations are arbitrary: each stage is a fact about the two lists of host operations).
-/
import proofs.«133701_j46024869544456_1_alg».proof.Proof.Gen.KernelIdeal.Launch
import proofs.«133701_j46024869544456_1_alg».proof.Proof.RefOps
import proofs.«133701_j46024869544456_1_alg».proof.Proof.RefGin
import proofs.«133701_j46024869544456_1_alg».proof.Proof.RefBn
import proofs.«133701_j46024869544456_1_alg».proof.Proof.RefVar
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 4000000 in
/-- Layer 4, the aggregation: gather the node rows and the two edge embeddings along the edges, add, scatter-add to the
    target nodes. Both programs spell it with the same host operations, so from equal inputs they compute equal arrays. -/
theorem agg4 (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v189) = VR (Proc.devRef .tc Cert.ReferenceIdeal.main_v240))
    (e3 : VK (Proc.devRef .tc Cert.KernelIdeal.main_v3) = VR (Proc.devRef .tc Cert.ReferenceIdeal.main_v3)) (e6 : VK (Proc.devRef .tc Cert.KernelIdeal.main_v6) = VR (Proc.devRef .tc Cert.ReferenceIdeal.main_v6))
    (e10 : VK (Proc.devRef .tc Cert.KernelIdeal.main_v10) = VR (Proc.devRef .tc Cert.ReferenceIdeal.main_v10))
    (e14 : VK (Proc.devRef .tc Cert.KernelIdeal.main_arg14) = VR (Proc.devRef .tc Cert.ReferenceIdeal.main_arg14)) (e15 : VK (Proc.devRef .tc Cert.KernelIdeal.main_arg15) = VR (Proc.devRef .tc Cert.ReferenceIdeal.main_arg15)) :
    after Cert.KernelIdeal.Gen.hostOps6 VK (Proc.devRef .tc Cert.KernelIdeal.main_v223) = (after Cert.ReferenceIdeal.Hand.q18 (after Cert.ReferenceIdeal.Hand.q17 VR)) (Proc.devRef .tc Cert.ReferenceIdeal.main_v274) := by
  simp only [Cert.KernelIdeal.Gen.hostOps6, Cert.ReferenceIdeal.Hand.q17, Cert.ReferenceIdeal.Hand.q18]
  after_results_simp
  try simp only [TRef.ofBuf, TRef.toBuf, cast_eq]
  rw [eh, e3, e6, e10, e14, e15]
  rfl

set_option maxHeartbeats 4000000 in
/-- Layer 4, the perceptron: the kernel's region leaves the array whose entry (p, q) is the nested inner product of
    the aggregated row with the layer's two weight matrices and bias rows; the reference's two host matrix products
    compute the same array from the same slices of the stacked weights. -/
theorem gin4 (VK : Valuation Cert.KernelIdeal.τ Cert.KernelIdeal.sig (Elt Ideal)) (VR : Valuation Cert.ReferenceIdeal.τ Cert.ReferenceIdeal.sig (Elt Ideal))
    (eagg : after Cert.KernelIdeal.Gen.hostOps6 VK (Proc.devRef .tc Cert.KernelIdeal.main_v223) = VR (Proc.devRef .tc Cert.ReferenceIdeal.main_v274))
    (e10 : VK (Proc.devRef .tc Cert.KernelIdeal.main_arg10) = VR (Proc.devRef .tc Cert.ReferenceIdeal.main_arg10)) (e11 : VK (Proc.devRef .tc Cert.KernelIdeal.main_arg11) = VR (Proc.devRef .tc Cert.ReferenceIdeal.main_arg11))
    (e12 : VK (Proc.devRef .tc Cert.KernelIdeal.main_arg12) = VR (Proc.devRef .tc Cert.ReferenceIdeal.main_arg12)) (e13 : VK (Proc.devRef .tc Cert.KernelIdeal.main_arg13) = VR (Proc.devRef .tc Cert.ReferenceIdeal.main_arg13)) :
    Cert.KernelIdeal.Val.ginMlp 51200 (after Cert.KernelIdeal.Gen.hostOps6 VK (Proc.devRef .tc Cert.KernelIdeal.main_v223)) (after Cert.KernelIdeal.Gen.hostOps6 VK (Proc.devRef .tc Cert.KernelIdeal.main_v225)) (after Cert.KernelIdeal.Gen.hostOps6 VK (Proc.devRef .tc Cert.KernelIdeal.main_v232)) (after Cert.KernelIdeal.Gen.hostOps6 VK (Proc.devRef .tc Cert.KernelIdeal.main_v229)) (after Cert.KernelIdeal.Gen.hostOps6 VK (Proc.devRef .tc Cert.KernelIdeal.main_v233))
      = (after Cert.ReferenceIdeal.Hand.q19 VR) (Proc.devRef .tc Cert.ReferenceIdeal.main_v291) := by
  generalize after Cert.KernelIdeal.Gen.hostOps6 VK (Proc.devRef .tc Cert.KernelIdeal.main_v223) = a at eagg ⊢
  simp only [Cert.KernelIdeal.Gen.hostOps6, Cert.ReferenceIdeal.Hand.q19]
  after_results_simp
  try simp only [TRef.ofBuf, TRef.toBuf, cast_eq]
  rw [Cert.RefGin.gin_ref' _ _ _ _ _ Cert.KernelIdeal.Gen.shapeCasts_S128_S1x128 Cert.KernelIdeal.Gen.shapeCasts_S64_S1x64]
  rw [eagg, e10, e11, e12, e13]
  rfl

set_option maxHeartbeats 8000000 in
/-- Layer 4, the batch normalisation and rectifier: both programs take the column means and variances of the perceptron's output with
    the same host operations; the kernel's region then multiplies the centred entries by the reciprocal square root of
    variance plus epsilon where the reference divides by the square root. The variance is a guarded mean of squares, hence
    nonnegative, so the two agree at every entry, whatever the extended reals. -/
theorem bn4 (VK : Valuation Cert.KernelIdeal.τ Cert.KernelIdeal.sig (Elt Ideal)) (VR : Valuation Cert.ReferenceIdeal.τ Cert.ReferenceIdeal.sig (Elt Ideal))
    (eh2 : VK (Proc.devRef .tc Cert.KernelIdeal.main_v234) = VR (Proc.devRef .tc Cert.ReferenceIdeal.main_v291))
    (e16 : VK (Proc.devRef .tc Cert.KernelIdeal.main_arg16) = VR (Proc.devRef .tc Cert.ReferenceIdeal.main_arg16)) (e17 : VK (Proc.devRef .tc Cert.KernelIdeal.main_arg17) = VR (Proc.devRef .tc Cert.ReferenceIdeal.main_arg17)) :
    Cert.KernelIdeal.Val.GBnRelu (after Cert.KernelIdeal.Gen.hostOps7_2 (after Cert.KernelIdeal.Gen.hostOps7_1 (after Cert.KernelIdeal.Gen.hostOps7 VK)) (Proc.devRef .tc Cert.KernelIdeal.main_v234)) (after Cert.KernelIdeal.Gen.hostOps7_2 (after Cert.KernelIdeal.Gen.hostOps7_1 (after Cert.KernelIdeal.Gen.hostOps7 VK)) (Proc.devRef .tc Cert.KernelIdeal.main_v243)) (after Cert.KernelIdeal.Gen.hostOps7_2 (after Cert.KernelIdeal.Gen.hostOps7_1 (after Cert.KernelIdeal.Gen.hostOps7 VK)) (Proc.devRef .tc Cert.KernelIdeal.main_v244)) (after Cert.KernelIdeal.Gen.hostOps7_2 (after Cert.KernelIdeal.Gen.hostOps7_1 (after Cert.KernelIdeal.Gen.hostOps7 VK)) (Proc.devRef .tc Cert.KernelIdeal.main_v245)) (after Cert.KernelIdeal.Gen.hostOps7_2 (after Cert.KernelIdeal.Gen.hostOps7_1 (after Cert.KernelIdeal.Gen.hostOps7 VK)) (Proc.devRef .tc Cert.KernelIdeal.main_v246))
      = (after Cert.ReferenceIdeal.Hand.q22 (after Cert.ReferenceIdeal.Hand.q21 (after Cert.ReferenceIdeal.Hand.q20 VR))) (Proc.devRef .tc Cert.ReferenceIdeal.main_v315) := by
  simp only [Cert.KernelIdeal.Gen.hostOps7, Cert.KernelIdeal.Gen.hostOps7_1, Cert.KernelIdeal.Gen.hostOps7_2, Cert.ReferenceIdeal.Hand.q20, Cert.ReferenceIdeal.Hand.q21, Cert.ReferenceIdeal.Hand.q22]
  after_results_simp
  try simp only [TRef.ofBuf, TRef.toBuf, cast_eq]
  rw [Cert.RefBn.bnRelu_ref' _ _ _ _ _ Cert.KernelIdeal.Gen.shapeCasts_S64_S1x64 (Cert.RefVar.var_nonneg_of_shape _ _)]
  rw [eh2, e16, e17]
  rfl

end Cert.Bridge

end
-- ==== Proof.StageL5.lean ====
/-
  Layer 5 of the message passing, stage by stage — aggregation, perceptron, batch normalisation — as both programs
  compute it from equal inputs (the valuations are arbitrary: each stage is a fact about the two lists of host operations).
-/
import proofs.«133701_j46024869544456_1_alg».proof.Proof.Gen.KernelIdeal.Launch
import proofs.«133701_j46024869544456_1_alg».proof.Proof.RefOps
import proofs.«133701_j46024869544456_1_alg».proof.Proof.RefGin
import proofs.«133701_j46024869544456_1_alg».proof.Proof.RefBn
import proofs.«133701_j46024869544456_1_alg».proof.Proof.RefVar
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 4000000 in
/-- Layer 5, the aggregation: gather the node rows and the two edge embeddings along the edges, add, scatter-add to the
    target nodes. Both programs spell it with the same host operations, so from equal inputs they compute equal arrays. -/
theorem agg5 (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v247) = VR (Proc.devRef .tc Cert.ReferenceIdeal.main_v315))
    (e3 : VK (Proc.devRef .tc Cert.KernelIdeal.main_v3) = VR (Proc.devRef .tc Cert.ReferenceIdeal.main_v3)) (e6 : VK (Proc.devRef .tc Cert.KernelIdeal.main_v6) = VR (Proc.devRef .tc Cert.ReferenceIdeal.main_v6))
    (e10 : VK (Proc.devRef .tc Cert.KernelIdeal.main_v10) = VR (Proc.devRef .tc Cert.ReferenceIdeal.main_v10))
    (e14 : VK (Proc.devRef .tc Cert.KernelIdeal.main_arg14) = VR (Proc.devRef .tc Cert.ReferenceIdeal.main_arg14)) (e15 : VK (Proc.devRef .tc Cert.KernelIdeal.main_arg15) = VR (Proc.devRef .tc Cert.ReferenceIdeal.main_arg15)) :
    after Cert.KernelIdeal.Gen.hostOps8 VK (Proc.devRef .tc Cert.KernelIdeal.main_v281) = (after Cert.ReferenceIdeal.Hand.q23 VR) (Proc.devRef .tc Cert.ReferenceIdeal.main_v349) := by
  simp only [Cert.KernelIdeal.Gen.hostOps8, Cert.ReferenceIdeal.Hand.q23]
  after_results_simp
  try simp only [TRef.ofBuf, TRef.toBuf, cast_eq]
  rw [eh, e3, e6, e10, e14, e15]
  rfl

set_option maxHeartbeats 4000000 in
/-- Layer 5, the perceptron: the kernel's region leaves the array whose entry (p, q) is the nested inner product of
    the aggregated row with the layer's two weight matrices and bias rows; the reference's two host matrix products
    compute the same array from the same slices of the stacked weights. -/
theorem gin5 (VK : Valuation Cert.KernelIdeal.τ Cert.KernelIdeal.sig (Elt Ideal)) (VR : Valuation Cert.ReferenceIdeal.τ Cert.ReferenceIdeal.sig (Elt Ideal))
    (eagg : after Cert.KernelIdeal.Gen.hostOps8 VK (Proc.devRef .tc Cert.KernelIdeal.main_v281) = VR (Proc.devRef .tc Cert.ReferenceIdeal.main_v349))
    (e10 : VK (Proc.devRef .tc Cert.KernelIdeal.main_arg10) = VR (Proc.devRef .tc Cert.ReferenceIdeal.main_arg10)) (e11 : VK (Proc.devRef .tc Cert.KernelIdeal.main_arg11) = VR (Proc.devRef .tc Cert.ReferenceIdeal.main_arg11))
    (e12 : VK (Proc.devRef .tc Cert.KernelIdeal.main_arg12) = VR (Proc.devRef .tc Cert.ReferenceIdeal.main_arg12)) (e13 : VK (Proc.devRef .tc Cert.KernelIdeal.main_arg13) = VR (Proc.devRef .tc Cert.ReferenceIdeal.main_arg13)) :
    Cert.KernelIdeal.Val.ginMlp 51200 (after Cert.KernelIdeal.Gen.hostOps8 VK (Proc.devRef .tc Cert.KernelIdeal.main_v281)) (after Cert.KernelIdeal.Gen.hostOps8 VK (Proc.devRef .tc Cert.KernelIdeal.main_v283)) (after Cert.KernelIdeal.Gen.hostOps8 VK (Proc.devRef .tc Cert.KernelIdeal.main_v290)) (after Cert.KernelIdeal.Gen.hostOps8 VK (Proc.devRef .tc Cert.KernelIdeal.main_v287)) (after Cert.KernelIdeal.Gen.hostOps8 VK (Proc.devRef .tc Cert.KernelIdeal.main_v291))
      = (after Cert.ReferenceIdeal.Hand.q24 VR) (Proc.devRef .tc Cert.ReferenceIdeal.main_v366) := by
  generalize after Cert.KernelIdeal.Gen.hostOps8 VK (Proc.devRef .tc Cert.KernelIdeal.main_v281) = a at eagg ⊢
  simp only [Cert.KernelIdeal.Gen.hostOps8, Cert.ReferenceIdeal.Hand.q24]
  after_results_simp
  try simp only [TRef.ofBuf, TRef.toBuf, cast_eq]
  rw [Cert.RefGin.gin_ref' _ _ _ _ _ Cert.KernelIdeal.Gen.shapeCasts_S128_S1x128 Cert.KernelIdeal.Gen.shapeCasts_S64_S1x64]
  rw [eagg, e10, e11, e12, e13]
  rfl

set_option maxHeartbeats 8000000 in
/-- Layer 5, the batch normalisation: both programs take the column means and variances of the perceptron's output with
    the same host operations; the kernel's region then multiplies the centred entries by the reciprocal square root of
    variance plus epsilon where the reference divides by the square root. The variance is a guarded mean of squares, hence
    nonnegative, so the two agree at every entry, whatever the extended reals. -/
theorem bn5 (VK : Valuation Cert.KernelIdeal.τ Cert.KernelIdeal.sig (Elt Ideal)) (VR : Valuation Cert.ReferenceIdeal.τ Cert.ReferenceIdeal.sig (Elt Ideal))
    (eh2 : VK (Proc.devRef .tc Cert.KernelIdeal.main_v292) = VR (Proc.devRef .tc Cert.ReferenceIdeal.main_v366))
    (e16 : VK (Proc.devRef .tc Cert.KernelIdeal.main_arg16) = VR (Proc.devRef .tc Cert.ReferenceIdeal.main_arg16)) (e17 : VK (Proc.devRef .tc Cert.KernelIdeal.main_arg17) = VR (Proc.devRef .tc Cert.ReferenceIdeal.main_arg17)) :
    Cert.KernelIdeal.Val.GBnLast (after Cert.KernelIdeal.Gen.hostOps9_2 (after Cert.KernelIdeal.Gen.hostOps9_1 (after Cert.KernelIdeal.Gen.hostOps9 VK)) (Proc.devRef .tc Cert.KernelIdeal.main_v292)) (after Cert.KernelIdeal.Gen.hostOps9_2 (after Cert.KernelIdeal.Gen.hostOps9_1 (after Cert.KernelIdeal.Gen.hostOps9 VK)) (Proc.devRef .tc Cert.KernelIdeal.main_v301)) (after Cert.KernelIdeal.Gen.hostOps9_2 (after Cert.KernelIdeal.Gen.hostOps9_1 (after Cert.KernelIdeal.Gen.hostOps9 VK)) (Proc.devRef .tc Cert.KernelIdeal.main_v302)) (after Cert.KernelIdeal.Gen.hostOps9_2 (after Cert.KernelIdeal.Gen.hostOps9_1 (after Cert.KernelIdeal.Gen.hostOps9 VK)) (Proc.devRef .tc Cert.KernelIdeal.main_v303)) (after Cert.KernelIdeal.Gen.hostOps9_2 (after Cert.KernelIdeal.Gen.hostOps9_1 (after Cert.KernelIdeal.Gen.hostOps9 VK)) (Proc.devRef .tc Cert.KernelIdeal.main_v304))
      = (after Cert.ReferenceIdeal.Hand.q27 (after Cert.ReferenceIdeal.Hand.q26 (after Cert.ReferenceIdeal.Hand.q25 VR))) (Proc.devRef .tc Cert.ReferenceIdeal.main_v389) := by
  simp only [Cert.KernelIdeal.Gen.hostOps9, Cert.KernelIdeal.Gen.hostOps9_1, Cert.KernelIdeal.Gen.hostOps9_2, Cert.ReferenceIdeal.Hand.q25, Cert.ReferenceIdeal.Hand.q26, Cert.ReferenceIdeal.Hand.q27]
  after_results_simp
  try simp only [TRef.ofBuf, TRef.toBuf, cast_eq]
  rw [Cert.RefBn.bnLast_ref' _ _ _ _ _ Cert.KernelIdeal.Gen.shapeCasts_S64_S1x64 (Cert.RefVar.var_nonneg_of_shape _ _)]
  rw [eh2, e16, e17]
  rfl

end Cert.Bridge

end
-- ==== Proof.ValGcG.lean ====
import proofs.«133701_j46024869544456_1_alg».proof.KernelIdeal
import Idealize.ShloMosaic.Lib.ValueIdx
import Idealize.ShloMosaic.PureOps.Ideal.Laws

/-!
  A graph-convolution layer on a 102400 × n array of aggregated neighbour features `agg` and a 102400 × n array of node
  features `z`, as one function of the arrays, entry by entry, over the extended reals:

      out[p, q] = max(((Σ_j agg[p, j] * wrel[j, q]) + brel[q]) + (Σ_j z[p, j] * wroot[j, q]), 0).

  The two sums and the bias are added in this order; the zero of the maximum is the reading of the body's literal.
-/

noncomputable section

namespace Cert.KernelIdeal.Val

open Cert.KernelIdeal Idealize.ShloMosaic Idealize.ShloMosaic.ValueIdx

open scoped BigOperators

/-- The layer's output array. -/
def GGc (n : Nat) (agg z : (⟨2, ![102400, n]⟩ : Shape).Idx → EReal) (wrel : (⟨2, ![n, 64]⟩ : Shape).Idx → EReal)
    (brel : S1x64.Idx → EReal) (wroot : (⟨2, ![n, 64]⟩ : Shape).Idx → EReal) : S102400x64.Idx → EReal := fun i =>
  max (((∑ j : Fin n, agg (ix2 (i 0 : Fin 102400) j) * wrel (ix2 j (i 1 : Fin 64))) + brel (ix2 (0 : Fin 1) (i 1 : Fin 64)))
      + (∑ j : Fin n, z (ix2 (i 0 : Fin 102400) j) * wroot (ix2 j (i 1 : Fin 64))))
    (Ideal.ofBits .f32 0x00000000#32)

/-- Its entry (p, q). -/
theorem GGc_apply (n : Nat) (agg z : (⟨2, ![102400, n]⟩ : Shape).Idx → EReal) (wrel : (⟨2, ![n, 64]⟩ : Shape).Idx → EReal)
    (brel : S1x64.Idx → EReal) (wroot : (⟨2, ![n, 64]⟩ : Shape).Idx → EReal) (p : Fin 102400) (q : Fin 64) :
    GGc n agg z wrel brel wroot (ix2 p q)
      = max (((∑ j : Fin n, agg (ix2 p j) * wrel (ix2 j q)) + brel (ix2 (0 : Fin 1) q))
          + (∑ j : Fin n, z (ix2 p j) * wroot (ix2 j q)))
        (Ideal.ofBits .f32 0x00000000#32) := rfl

end Cert.KernelIdeal.Val

end
-- ==== Proof.RefGc.lean ====
/-
  The reference's graph-convolution layer on the two-sets, read entry by entry over the extended reals:

      max(((agg · wrel) + brel) + (z · wroot), 0)[p, q]
        = max(((Σ_j agg[p,j] · wrel[j,q]) + brel[q]) + (Σ_j z[p,j] · wroot[j,q]), 0),

  each matrix product an inner product of a row with a column, the additions in this order.  Stated for the two widths the
  program uses (100 input columns in the first layer, 64 in the second).
-/
import proofs.«133701_j46024869544456_1_alg».proof.ReferenceIdeal
import proofs.«133701_j46024869544456_1_alg».proof.Proof.Gen.ReferenceIdeal
import proofs.«133701_j46024869544456_1_alg».proof.Proof.ValGcG
import proofs.«133701_j46024869544456_1_alg».proof.Proof.LibDotNN
import proofs.«133701_j46024869544456_1_alg».proof.Proof.LibRowBias
import proofs.«133701_j46024869544456_1_alg».proof.Proof.LibLayout
import Idealize.ShloMosaic.Lib.ValueIdx
import Idealize.ShloMosaic.PureOps.Ideal.Laws

noncomputable section

namespace Cert.RefGc

open Idealize.ShloMosaic Idealize.ShloMosaic.ValueIdx Cert.ReferenceIdeal Cert.ReferenceIdeal.Gen

/-- The first layer (100 input columns). -/
theorem gc100_ref (agg z : FVec Ideal S102400x100 .f32) (wrel : FVec Ideal S100x64 .f32) (brel : FVec Ideal S1x64 .f32)
    (wroot : FVec Ideal S100x64 .f32) :
    maximumf (addf (addf (Host.dotGeneral dot_S102400x100_S100x64_S102400x64_1_0_0_1_n_n none agg wrel)
          (broadcastInDim S102400x64 ![0, 1] bcast_S1x64_S102400x64_0_1 brel))
        (Host.dotGeneral dot_S102400x100_S100x64_S102400x64_1_0_0_1_n_n none z wroot))
      (broadcastInDim S102400x64 ![] bcast_S_S102400x64 (constant (F := Ideal) S_ .f32 0x00000000#32))
    = Cert.KernelIdeal.Val.GGc 100 agg z wrel brel wroot := by
  funext i
  obtain ⟨p, q, rfl⟩ : ∃ (p : Fin 102400) (q : Fin 64), i = ix2 p q := ⟨i 0, i 1, eq_ix2 i⟩
  rw [Cert.KernelIdeal.Val.GGc_apply]
  show max (addf (addf (Host.dotGeneral dot_S102400x100_S100x64_S102400x64_1_0_0_1_n_n none agg wrel)
          (broadcastInDim S102400x64 ![0, 1] bcast_S1x64_S102400x64_0_1 brel))
        (Host.dotGeneral dot_S102400x100_S100x64_S102400x64_1_0_0_1_n_n none z wroot) (ix2 p q))
      (broadcastInDim S102400x64 ![] bcast_S_S102400x64 (constant (F := Ideal) S_ .f32 0x00000000#32) (ix2 p q)) = _
  rw [Cert.RowBias.scalarInDim_apply]
  congr 1
  show (addf (Host.dotGeneral dot_S102400x100_S100x64_S102400x64_1_0_0_1_n_n none agg wrel)
          (broadcastInDim S102400x64 ![0, 1] bcast_S1x64_S102400x64_0_1 brel)) (ix2 p q)
        + (Host.dotGeneral dot_S102400x100_S100x64_S102400x64_1_0_0_1_n_n none z wroot) (ix2 p q) = _
  rw [Cert.RowBias.hostBias_apply]
  congr 1
  · congr 1
    exact Cert.DotNN.dotGeneral_apply _ rfl none _ agg wrel p q
  · exact Cert.DotNN.dotGeneral_apply _ rfl none _ z wroot p q

/-- The second layer (64 input columns). -/
theorem gc64_ref (agg z : FVec Ideal S102400x64 .f32) (wrel : FVec Ideal S64x64 .f32) (brel : FVec Ideal S1x64 .f32)
    (wroot : FVec Ideal S64x64 .f32) :
    maximumf (addf (addf (Host.dotGeneral dot_S102400x64_S64x64_S102400x64_1_0_0_1_n_n none agg wrel)
          (broadcastInDim S102400x64 ![0, 1] bcast_S1x64_S102400x64_0_1 brel))
        (Host.dotGeneral dot_S102400x64_S64x64_S102400x64_1_0_0_1_n_n none z wroot))
      (broadcastInDim S102400x64 ![] bcast_S_S102400x64 (constant (F := Ideal) S_ .f32 0x00000000#32))
    = Cert.KernelIdeal.Val.GGc 64 agg z wrel brel wroot := by
  funext i
  obtain ⟨p, q, rfl⟩ : ∃ (p : Fin 102400) (q : Fin 64), i = ix2 p q := ⟨i 0, i 1, eq_ix2 i⟩
  rw [Cert.KernelIdeal.Val.GGc_apply]
  show max (addf (addf (Host.dotGeneral dot_S102400x64_S64x64_S102400x64_1_0_0_1_n_n none agg wrel)
          (broadcastInDim S102400x64 ![0, 1] bcast_S1x64_S102400x64_0_1 brel))
        (Host.dotGeneral dot_S102400x64_S64x64_S102400x64_1_0_0_1_n_n none z wroot) (ix2 p q))
      (broadcastInDim S102400x64 ![] bcast_S_S102400x64 (constant (F := Ideal) S_ .f32 0x00000000#32) (ix2 p q)) = _
  rw [Cert.RowBias.scalarInDim_apply]
  congr 1
  show (addf (Host.dotGeneral dot_S102400x64_S64x64_S102400x64_1_0_0_1_n_n none agg wrel)
          (broadcastInDim S102400x64 ![0, 1] bcast_S1x64_S102400x64_0_1 brel)) (ix2 p q)
        + (Host.dotGeneral dot_S102400x64_S64x64_S102400x64_1_0_0_1_n_n none z wroot) (ix2 p q) = _
  rw [Cert.RowBias.hostBias_apply]
  congr 1
  · congr 1
    exact Cert.DotNN.dotGeneral_apply _ rfl none _ agg wrel p q
  · exact Cert.DotNN.dotGeneral_apply _ rfl none _ z wroot p q

/-- The first layer with the bias vector laid out as a row by a reshape (a vector reshaped to a one-row matrix is the
    vector broadcast along a new leading axis). -/
theorem gc100_ref' (agg z : FVec Ideal S102400x100 .f32) (wrel : FVec Ideal S100x64 .f32) (brel : FVec Ideal S64 .f32)
    (wroot : FVec Ideal S100x64 .f32) (hs : S64.ShapeCasts S1x64) :
    maximumf (addf (addf (Host.dotGeneral dot_S102400x100_S100x64_S102400x64_1_0_0_1_n_n none agg wrel)
          (broadcastInDim S102400x64 ![0, 1] bcast_S1x64_S102400x64_0_1 (broadcastInDim S1x64 ![1] bcast_S64_S1x64_1 brel)))
        (Host.dotGeneral dot_S102400x100_S100x64_S102400x64_1_0_0_1_n_n none z wroot))
      (broadcastInDim S102400x64 ![] bcast_S_S102400x64 (constant (F := Ideal) S_ .f32 0x00000000#32))
    = Cert.KernelIdeal.Val.GGc 100 agg z wrel (shapeCast S1x64 brel hs) wroot := by
  rw [gc100_ref, Cert.Layout.row_reshape_eq_broadcast brel hs bcast_S64_S1x64_1]

/-- The second layer with the bias vector laid out as a row by a reshape (a vector reshaped to a one-row matrix is the
    vector broadcast along a new leading axis). -/
theorem gc64_ref' (agg z : FVec Ideal S102400x64 .f32) (wrel : FVec Ideal S64x64 .f32) (brel : FVec Ideal S64 .f32)
    (wroot : FVec Ideal S64x64 .f32) (hs : S64.ShapeCasts S1x64) :
    maximumf (addf (addf (Host.dotGeneral dot_S102400x64_S64x64_S102400x64_1_0_0_1_n_n none agg wrel)
          (broadcastInDim S102400x64 ![0, 1] bcast_S1x64_S102400x64_0_1 (broadcastInDim S1x64 ![1] bcast_S64_S1x64_1 brel)))
        (Host.dotGeneral dot_S102400x64_S64x64_S102400x64_1_0_0_1_n_n none z wroot))
      (broadcastInDim S102400x64 ![] bcast_S_S102400x64 (constant (F := Ideal) S_ .f32 0x00000000#32))
    = Cert.KernelIdeal.Val.GGc 64 agg z wrel (shapeCast S1x64 brel hs) wroot := by
  rw [gc64_ref, Cert.Layout.row_reshape_eq_broadcast brel hs bcast_S64_S1x64_1]

end Cert.RefGc

end
-- ==== Proof.StageTail.lean ====
/-
  The read-out after the five layers, stage by stage: the mean pooling onto graphs, the pooling onto two-sets with their type
  columns, two graph convolutions on the two-sets, and their mean pooling — as both programs compute them from equal inputs.
-/
import proofs.«133701_j46024869544456_1_alg».proof.Proof.Gen.KernelIdeal.Launch
import proofs.«133701_j46024869544456_1_alg».proof.Proof.RefOps
import proofs.«133701_j46024869544456_1_alg».proof.Proof.RefGin
import proofs.«133701_j46024869544456_1_alg».proof.Proof.RefBn
import proofs.«133701_j46024869544456_1_alg».proof.Proof.RefVar
import proofs.«133701_j46024869544456_1_alg».proof.Proof.RefGc
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 8000000 in
/-- The mean of the node rows over each graph: both programs use the same host operations. -/
theorem poolNodes (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v305) = VR (Proc.devRef .tc Cert.ReferenceIdeal.main_v389)) (e3 : VK (Proc.devRef .tc Cert.KernelIdeal.main_arg3) = VR (Proc.devRef .tc Cert.ReferenceIdeal.main_arg3)) :
    (after Cert.KernelIdeal.Gen.hostOps10 VK) (Proc.devRef .tc Cert.KernelIdeal.main_v317) = (after Cert.ReferenceIdeal.Hand.q28 VR) (Proc.devRef .tc Cert.ReferenceIdeal.main_v401) := by
  simp only [Cert.KernelIdeal.Gen.hostOps10, Cert.ReferenceIdeal.Hand.q28]
  after_results_simp
  try simp only [TRef.ofBuf, TRef.toBuf, cast_eq]
  rw [eh, e3]
  rfl

set_option maxHeartbeats 8000000 in
/-- The first graph convolution on the two-sets: the kernel's region leaves max(((agg · wrel) + brel) + (z · wroot), 0)
    entry by entry as inner products; the reference's two host matrix products compute the same array. -/
theorem conv1 (VK : Valuation Cert.KernelIdeal.τ Cert.KernelIdeal.sig (Elt Ideal)) (VR : Valuation Cert.ReferenceIdeal.τ Cert.ReferenceIdeal.sig (Elt Ideal))
    (eagg : (after Cert.KernelIdeal.Gen.hostOps10 VK) (Proc.devRef .tc Cert.KernelIdeal.main_v355) = VR (Proc.devRef .tc Cert.ReferenceIdeal.main_v439))
    (ez : (after Cert.KernelIdeal.Gen.hostOps10 VK) (Proc.devRef .tc Cert.KernelIdeal.main_v341) = VR (Proc.devRef .tc Cert.ReferenceIdeal.main_v425))
    (e18 : VK (Proc.devRef .tc Cert.KernelIdeal.main_arg18) = VR (Proc.devRef .tc Cert.ReferenceIdeal.main_arg18)) (e19 : VK (Proc.devRef .tc Cert.KernelIdeal.main_arg19) = VR (Proc.devRef .tc Cert.ReferenceIdeal.main_arg19)) (e20 : VK (Proc.devRef .tc Cert.KernelIdeal.main_arg20) = VR (Proc.devRef .tc Cert.ReferenceIdeal.main_arg20)) :
    Cert.KernelIdeal.Val.GGc 100 ((after Cert.KernelIdeal.Gen.hostOps10 VK) (Proc.devRef .tc Cert.KernelIdeal.main_v355)) ((after Cert.KernelIdeal.Gen.hostOps10 VK) (Proc.devRef .tc Cert.KernelIdeal.main_v341)) ((after Cert.KernelIdeal.Gen.hostOps10 VK) (Proc.devRef .tc Cert.KernelIdeal.main_arg18))
        ((after Cert.KernelIdeal.Gen.hostOps10 VK) (Proc.devRef .tc Cert.KernelIdeal.main_v356)) ((after Cert.KernelIdeal.Gen.hostOps10 VK) (Proc.devRef .tc Cert.KernelIdeal.main_arg20))
      = after Cert.ReferenceIdeal.Hand.q32 VR (Proc.devRef .tc Cert.ReferenceIdeal.main_v446) := by
  generalize (after Cert.KernelIdeal.Gen.hostOps10 VK) (Proc.devRef .tc Cert.KernelIdeal.main_v355) = a at eagg ⊢
  generalize (after Cert.KernelIdeal.Gen.hostOps10 VK) (Proc.devRef .tc Cert.KernelIdeal.main_v341) = z at ez ⊢
  simp only [Cert.KernelIdeal.Gen.hostOps10, Cert.ReferenceIdeal.Hand.q32]
  after_results_simp
  try simp only [TRef.ofBuf, TRef.toBuf, cast_eq]
  rw [Cert.RefGc.gc100_ref' _ _ _ _ _ Cert.KernelIdeal.Gen.shapeCasts_S64_S1x64]
  rw [eagg, ez, e18, e19, e20]
  rfl

set_option maxHeartbeats 8000000 in
/-- The second convolution's aggregation over the two-set edges: the same host operations. -/
theorem aggPairs2 (VK : Valuation Cert.KernelIdeal.τ Cert.KernelIdeal.sig (Elt Ideal)) (VR : Valuation Cert.ReferenceIdeal.τ Cert.ReferenceIdeal.sig (Elt Ideal))
    (ez : VK (Proc.devRef .tc Cert.KernelIdeal.main_v357) = VR (Proc.devRef .tc Cert.ReferenceIdeal.main_v446)) (e5 : VK (Proc.devRef .tc Cert.KernelIdeal.main_arg5) = VR (Proc.devRef .tc Cert.ReferenceIdeal.main_arg5)) :
    (after Cert.KernelIdeal.Gen.hostOps11 VK) (Proc.devRef .tc Cert.KernelIdeal.main_v371) = (after Cert.ReferenceIdeal.Hand.q33 VR) (Proc.devRef .tc Cert.ReferenceIdeal.main_v460) := by
  simp only [Cert.KernelIdeal.Gen.hostOps11, Cert.ReferenceIdeal.Hand.q33]
  after_results_simp
  try simp only [TRef.ofBuf, TRef.toBuf, cast_eq]
  rw [ez, e5]
  rfl

set_option maxHeartbeats 8000000 in
/-- The second graph convolution on the two-sets, likewise. -/
theorem conv2 (VK : Valuation Cert.KernelIdeal.τ Cert.KernelIdeal.sig (Elt Ideal)) (VR : Valuation Cert.ReferenceIdeal.τ Cert.ReferenceIdeal.sig (Elt Ideal))
    (eagg : (after Cert.KernelIdeal.Gen.hostOps11 VK) (Proc.devRef .tc Cert.KernelIdeal.main_v371) = VR (Proc.devRef .tc Cert.ReferenceIdeal.main_v460))
    (ez : VK (Proc.devRef .tc Cert.KernelIdeal.main_v357) = VR (Proc.devRef .tc Cert.ReferenceIdeal.main_v446))
    (e21 : VK (Proc.devRef .tc Cert.KernelIdeal.main_arg21) = VR (Proc.devRef .tc Cert.ReferenceIdeal.main_arg21)) (e22 : VK (Proc.devRef .tc Cert.KernelIdeal.main_arg22) = VR (Proc.devRef .tc Cert.ReferenceIdeal.main_arg22)) (e23 : VK (Proc.devRef .tc Cert.KernelIdeal.main_arg23) = VR (Proc.devRef .tc Cert.ReferenceIdeal.main_arg23)) :
    Cert.KernelIdeal.Val.GGc 64 ((after Cert.KernelIdeal.Gen.hostOps11 VK) (Proc.devRef .tc Cert.KernelIdeal.main_v371)) ((after Cert.KernelIdeal.Gen.hostOps11 VK) (Proc.devRef .tc Cert.KernelIdeal.main_v357)) ((after Cert.KernelIdeal.Gen.hostOps11 VK) (Proc.devRef .tc Cert.KernelIdeal.main_arg21))
        ((after Cert.KernelIdeal.Gen.hostOps11 VK) (Proc.devRef .tc Cert.KernelIdeal.main_v372)) ((after Cert.KernelIdeal.Gen.hostOps11 VK) (Proc.devRef .tc Cert.KernelIdeal.main_arg23))
      = after Cert.ReferenceIdeal.Hand.q34 VR (Proc.devRef .tc Cert.ReferenceIdeal.main_v467) := by
  generalize (after Cert.KernelIdeal.Gen.hostOps11 VK) (Proc.devRef .tc Cert.KernelIdeal.main_v371) = a at eagg ⊢
  simp only [Cert.KernelIdeal.Gen.hostOps11, Cert.ReferenceIdeal.Hand.q34]
  after_results_simp
  try simp only [TRef.ofBuf, TRef.toBuf, cast_eq]
  rw [Cert.RefGc.gc64_ref' _ _ _ _ _ Cert.KernelIdeal.Gen.shapeCasts_S64_S1x64]
  rw [eagg, ez, e21, e22, e23]
  rfl

set_option maxHeartbeats 8000000 in
/-- The mean of the two-set rows over each graph: the same host operations. -/
theorem poolPairsOut (VK : Valuation Cert.KernelIdeal.τ Cert.KernelIdeal.sig (Elt Ideal)) (VR : Valuation Cert.ReferenceIdeal.τ Cert.ReferenceIdeal.sig (Elt Ideal))
    (ez : VK (Proc.devRef .tc Cert.KernelIdeal.main_v373) = VR (Proc.devRef .tc Cert.ReferenceIdeal.main_v467)) (e7 : VK (Proc.devRef .tc Cert.KernelIdeal.main_arg7) = VR (Proc.devRef .tc Cert.ReferenceIdeal.main_arg7)) :
    (after Cert.KernelIdeal.Gen.hostOps12 VK) (Proc.devRef .tc Cert.KernelIdeal.main_v385) = (after Cert.ReferenceIdeal.Hand.q35 VR) (Proc.devRef .tc Cert.ReferenceIdeal.main_v479) := by
  simp only [Cert.KernelIdeal.Gen.hostOps12, Cert.ReferenceIdeal.Hand.q35]
  after_results_simp
  try simp only [TRef.ofBuf, TRef.toBuf, cast_eq]
  rw [ez, e7]
  rfl

end Cert.Bridge

end
-- ==== Proof.StageCut.lean ====
-- the two operation lists below repeat, split at the concatenation, the text of the kernel's stretch hostOps10 (generated Launch module)
-- and of the reference's piece q30 (module RefOps8); produced by (from the unit directory):  bun scratch/stagecut.js
/-
  The pooling onto two-sets. Both programs average the node rows of each two-set and then append the two-set's type
  columns by a concatenation. The concatenation is cut out of the surrounding lists of host operations so that what it
  joins — the averaged rows and the type columns — are read before it and the operations after it read its result:
  before the cut both programs apply the same operations to equal inputs, and so do they after it.
-/
import proofs.«133701_j46024869544456_1_alg».proof.Proof.Gen.KernelIdeal.Launch
import proofs.«133701_j46024869544456_1_alg».proof.Proof.RefOps
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

section KernelSide
open Cert.KernelIdeal Cert.KernelIdeal.Gen
variable {F : FTy → Type} [FloatOps F]

/-- The kernel's stretch after the fifth layer, up to the averaged two-set rows (the operations before the concatenation). -/
abbrev k10a : List (HloOp τ sig (Elt F)) :=
  [ StableHlo.nullary main_cst_49 (constant S_ .f32 0x00000000#32),
    StableHlo.unary main_cst_49 main_v306 (broadcastInDim S256x64 ![] bcast_S_S256x64 : (⟨S_, .f32⟩ : BufTy).Contents (Elt F) → (⟨S256x64, .f32⟩ : BufTy).Contents (Elt F)),
    StableHlo.unary main_arg3 main_v307 (broadcastInDim S51200x1 ![0] bcast_S51200_S51200x1_0 : (⟨S51200, .i32⟩ : BufTy).Contents (Elt F) → (⟨S51200x1, .i32⟩ : BufTy).Contents (Elt F)),
    StableHlo.ternary main_v306 main_v307 main_v305 main_v308 ((fun x i u => Host.scatterAdd scatter_S256x64_S51200x1_S51200x64_1_0_0_1 x i u) : (⟨S256x64, .f32⟩ : BufTy).Contents (Elt F) → (⟨S51200x1, .i32⟩ : BufTy).Contents (Elt F) → (⟨S51200x64, .f32⟩ : BufTy).Contents (Elt F) → (⟨S256x64, .f32⟩ : BufTy).Contents (Elt F)),
    StableHlo.nullary main_cst_50 (constant S_ .f32 0x3F800000#32),
    StableHlo.unary main_cst_50 main_v309 (broadcastInDim S51200 ![] bcast_S_S51200 : (⟨S_, .f32⟩ : BufTy).Contents (Elt F) → (⟨S51200, .f32⟩ : BufTy).Contents (Elt F)),
    StableHlo.nullary main_cst_51 (constant S_ .f32 0x00000000#32),
    StableHlo.unary main_cst_51 main_v310 (broadcastInDim S256 ![] bcast_S_S256 : (⟨S_, .f32⟩ : BufTy).Contents (Elt F) → (⟨S256, .f32⟩ : BufTy).Contents (Elt F)),
    StableHlo.unary main_arg3 main_v311 (broadcastInDim S51200x1 ![0] bcast_S51200_S51200x1_0 : (⟨S51200, .i32⟩ : BufTy).Contents (Elt F) → (⟨S51200x1, .i32⟩ : BufTy).Contents (Elt F)),
    StableHlo.ternary main_v310 main_v311 main_v309 main_v312 ((fun x i u => Host.scatterAdd scatter_S256_S51200x1_S51200_n_0_0_1 x i u) : (⟨S256, .f32⟩ : BufTy).Contents (Elt F) → (⟨S51200x1, .i32⟩ : BufTy).Contents (Elt F) → (⟨S51200, .f32⟩ : BufTy).Contents (Elt F) → (⟨S256, .f32⟩ : BufTy).Contents (Elt F)),
    StableHlo.nullary main_cst_52 (constant S_ .f32 0x3F800000#32),
    StableHlo.unary main_cst_52 main_v313 (broadcastInDim S256 ![] bcast_S_S256 : (⟨S_, .f32⟩ : BufTy).Contents (Elt F) → (⟨S256, .f32⟩ : BufTy).Contents (Elt F)),
    StableHlo.binary main_v312 main_v313 main_v314 (maximumf : (⟨S256, .f32⟩ : BufTy).Contents (Elt F) → (⟨S256, .f32⟩ : BufTy).Contents (Elt F) → (⟨S256, .f32⟩ : BufTy).Contents (Elt F)),
    StableHlo.unary main_v314 main_v315 (broadcastInDim S256x1 ![0] bcast_S256_S256x1_0 : (⟨S256, .f32⟩ : BufTy).Contents (Elt F) → (⟨S256x1, .f32⟩ : BufTy).Contents (Elt F)),
    StableHlo.unary main_v315 main_v316 (broadcastInDim S256x64 ![0, 1] bcast_S256x1_S256x64_0_1 : (⟨S256x1, .f32⟩ : BufTy).Contents (Elt F) → (⟨S256x64, .f32⟩ : BufTy).Contents (Elt F)),
    StableHlo.binary main_v308 main_v316 main_v317 (Host.divf : (⟨S256x64, .f32⟩ : BufTy).Contents (Elt F) → (⟨S256x64, .f32⟩ : BufTy).Contents (Elt F) → (⟨S256x64, .f32⟩ : BufTy).Contents (Elt F)),
    StableHlo.unary main_arg6 main_v318 ((extractStridedSlice S1x204800 ![0, 0] · slices_S2x204800_S1x204800_0_0) : (⟨S2x204800, .i32⟩ : BufTy).Contents (Elt F) → (⟨S1x204800, .i32⟩ : BufTy).Contents (Elt F)),
    StableHlo.reshape main_v318 main_v319 rfl shapeCasts_S1x204800_S204800,
    StableHlo.nullary main_c_53 (constantI S_ 32 0#32),
    StableHlo.unary main_c_53 main_v320 (broadcastInDim S204800 ![] bcast_S_S204800 : (⟨S_, .i32⟩ : BufTy).Contents (Elt F) → (⟨S204800, .i32⟩ : BufTy).Contents (Elt F)),
    StableHlo.binary main_v319 main_v320 main_v321 (cmpi .slt : (⟨S204800, .i32⟩ : BufTy).Contents (Elt F) → (⟨S204800, .i32⟩ : BufTy).Contents (Elt F) → (⟨S204800, .i1⟩ : BufTy).Contents (Elt F)),
    StableHlo.nullary main_c_54 (constantI S_ 32 51200#32),
    StableHlo.unary main_c_54 main_v322 (broadcastInDim S204800 ![] bcast_S_S204800 : (⟨S_, .i32⟩ : BufTy).Contents (Elt F) → (⟨S204800, .i32⟩ : BufTy).Contents (Elt F)),
    StableHlo.binary main_v319 main_v322 main_v323 (addi : (⟨S204800, .i32⟩ : BufTy).Contents (Elt F) → (⟨S204800, .i32⟩ : BufTy).Contents (Elt F) → (⟨S204800, .i32⟩ : BufTy).Contents (Elt F)),
    StableHlo.ternary main_v321 main_v323 main_v319 main_v324 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v324 main_v325 (broadcastInDim S204800x1 ![0] bcast_S204800_S204800x1_0 : (⟨S204800, .i32⟩ : BufTy).Contents (Elt F) → (⟨S204800x1, .i32⟩ : BufTy).Contents (Elt F)),
    StableHlo.binary main_v305 main_v325 main_v326 ((fun x i => Host.gather gather_S51200x64_S204800x1_S204800x64_1_0_n_n_0_1_164 x i) : (⟨S51200x64, .f32⟩ : BufTy).Contents (Elt F) → (⟨S204800x1, .i32⟩ : BufTy).Contents (Elt F) → (⟨S204800x64, .f32⟩ : BufTy).Contents (Elt F)),
    StableHlo.unary main_arg6 main_v327 ((extractStridedSlice S1x204800 ![1, 0] · slices_S2x204800_S1x204800_1_0) : (⟨S2x204800, .i32⟩ : BufTy).Contents (Elt F) → (⟨S1x204800, .i32⟩ : BufTy).Contents (Elt F)),
    StableHlo.reshape main_v327 main_v328 rfl shapeCasts_S1x204800_S204800,
    StableHlo.nullary main_cst_55 (constant S_ .f32 0x00000000#32),
    StableHlo.unary main_cst_55 main_v329 (broadcastInDim S102400x64 ![] bcast_S_S102400x64 : (⟨S_, .f32⟩ : BufTy).Contents (Elt F) → (⟨S102400x64, .f32⟩ : BufTy).Contents (Elt F)),
    StableHlo.unary main_v328 main_v330 (broadcastInDim S204800x1 ![0] bcast_S204800_S204800x1_0 : (⟨S204800, .i32⟩ : BufTy).Contents (Elt F) → (⟨S204800x1, .i32⟩ : BufTy).Contents (Elt F)),
    StableHlo.ternary main_v329 main_v330 main_v326 main_v331 ((fun x i u => Host.scatterAdd scatter_S102400x64_S204800x1_S204800x64_1_0_0_1 x i u) : (⟨S102400x64, .f32⟩ : BufTy).Contents (Elt F) → (⟨S204800x1, .i32⟩ : BufTy).Contents (Elt F) → (⟨S204800x64, .f32⟩ : BufTy).Contents (Elt F) → (⟨S102400x64, .f32⟩ : BufTy).Contents (Elt F)),
    StableHlo.nullary main_cst_56 (constant S_ .f32 0x3F800000#32),
    StableHlo.unary main_cst_56 main_v332 (broadcastInDim S204800 ![] bcast_S_S204800 : (⟨S_, .f32⟩ : BufTy).Contents (Elt F) → (⟨S204800, .f32⟩ : BufTy).Contents (Elt F)),
    StableHlo.nullary main_cst_57 (constant S_ .f32 0x00000000#32),
    StableHlo.unary main_cst_57 main_v333 (broadcastInDim S102400 ![] bcast_S_S102400 : (⟨S_, .f32⟩ : BufTy).Contents (Elt F) → (⟨S102400, .f32⟩ : BufTy).Contents (Elt F)),
    StableHlo.unary main_v328 main_v334 (broadcastInDim S204800x1 ![0] bcast_S204800_S204800x1_0 : (⟨S204800, .i32⟩ : BufTy).Contents (Elt F) → (⟨S204800x1, .i32⟩ : BufTy).Contents (Elt F)),
    StableHlo.ternary main_v333 main_v334 main_v332 main_v335 ((fun x i u => Host.scatterAdd scatter_S102400_S204800x1_S204800_n_0_0_1 x i u) : (⟨S102400, .f32⟩ : BufTy).Contents (Elt F) → (⟨S204800x1, .i32⟩ : BufTy).Contents (Elt F) → (⟨S204800, .f32⟩ : BufTy).Contents (Elt F) → (⟨S102400, .f32⟩ : BufTy).Contents (Elt F)),
    StableHlo.nullary main_cst_58 (constant S_ .f32 0x3F800000#32),
    StableHlo.unary main_cst_58 main_v336 (broadcastInDim S102400 ![] bcast_S_S102400 : (⟨S_, .f32⟩ : BufTy).Contents (Elt F) → (⟨S102400, .f32⟩ : BufTy).Contents (Elt F)),
    StableHlo.binary main_v335 main_v336 main_v337 (maximumf : (⟨S102400, .f32⟩ : BufTy).Contents (Elt F) → (⟨S102400, .f32⟩ : BufTy).Contents (Elt F) → (⟨S102400, .f32⟩ : BufTy).Contents (Elt F)),
    StableHlo.unary main_v337 main_v338 (broadcastInDim S102400x1 ![0] bcast_S102400_S102400x1_0 : (⟨S102400, .f32⟩ : BufTy).Contents (Elt F) → (⟨S102400x1, .f32⟩ : BufTy).Contents (Elt F)),
    StableHlo.unary main_v338 main_v339 (broadcastInDim S102400x64 ![0, 1] bcast_S102400x1_S102400x64_0_1 : (⟨S102400x1, .f32⟩ : BufTy).Contents (Elt F) → (⟨S102400x64, .f32⟩ : BufTy).Contents (Elt F)),
    StableHlo.binary main_v331 main_v339 main_v340 (Host.divf : (⟨S102400x64, .f32⟩ : BufTy).Contents (Elt F) → (⟨S102400x64, .f32⟩ : BufTy).Contents (Elt F) → (⟨S102400x64, .f32⟩ : BufTy).Contents (Elt F)) ]

/-- … and from the concatenation on. -/
abbrev k10b : List (HloOp τ sig (Elt F)) :=
  [ StableHlo.binary main_v340 main_arg4 main_v341 ((fun a b => concatenate S102400x100 1 [⟨S102400x64, a⟩, ⟨S102400x36, b⟩] concatenates_S102400x64_S102400x36_S102400x100_d1) : (⟨S102400x64, .f32⟩ : BufTy).Contents (Elt F) → (⟨S102400x36, .f32⟩ : BufTy).Contents (Elt F) → (⟨S102400x100, .f32⟩ : BufTy).Contents (Elt F)),
    StableHlo.unary main_arg5 main_v342 ((extractStridedSlice S1x409600 ![0, 0] · slices_S2x409600_S1x409600_0_0) : (⟨S2x409600, .i32⟩ : BufTy).Contents (Elt F) → (⟨S1x409600, .i32⟩ : BufTy).Contents (Elt F)),
    StableHlo.reshape main_v342 main_v343 rfl shapeCasts_S1x409600_S409600,
    StableHlo.nullary main_c_59 (constantI S_ 32 0#32),
    StableHlo.unary main_c_59 main_v344 (broadcastInDim S409600 ![] bcast_S_S409600 : (⟨S_, .i32⟩ : BufTy).Contents (Elt F) → (⟨S409600, .i32⟩ : BufTy).Contents (Elt F)),
    StableHlo.binary main_v343 main_v344 main_v345 (cmpi .slt : (⟨S409600, .i32⟩ : BufTy).Contents (Elt F) → (⟨S409600, .i32⟩ : BufTy).Contents (Elt F) → (⟨S409600, .i1⟩ : BufTy).Contents (Elt F)),
    StableHlo.nullary main_c_60 (constantI S_ 32 102400#32),
    StableHlo.unary main_c_60 main_v346 (broadcastInDim S409600 ![] bcast_S_S409600 : (⟨S_, .i32⟩ : BufTy).Contents (Elt F) → (⟨S409600, .i32⟩ : BufTy).Contents (Elt F)),
    StableHlo.binary main_v343 main_v346 main_v347 (addi : (⟨S409600, .i32⟩ : BufTy).Contents (Elt F) → (⟨S409600, .i32⟩ : BufTy).Contents (Elt F) → (⟨S409600, .i32⟩ : BufTy).Contents (Elt F)),
    StableHlo.ternary main_v345 main_v347 main_v343 main_v348 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v348 main_v349 (broadcastInDim S409600x1 ![0] bcast_S409600_S409600x1_0 : (⟨S409600, .i32⟩ : BufTy).Contents (Elt F) → (⟨S409600x1, .i32⟩ : BufTy).Contents (Elt F)),
    StableHlo.binary main_v341 main_v349 main_v350 ((fun x i => Host.gather gather_S102400x100_S409600x1_S409600x100_1_0_n_n_0_1_1100 x i) : (⟨S102400x100, .f32⟩ : BufTy).Contents (Elt F) → (⟨S409600x1, .i32⟩ : BufTy).Contents (Elt F) → (⟨S409600x100, .f32⟩ : BufTy).Contents (Elt F)),
    StableHlo.unary main_arg5 main_v351 ((extractStridedSlice S1x409600 ![1, 0] · slices_S2x409600_S1x409600_1_0) : (⟨S2x409600, .i32⟩ : BufTy).Contents (Elt F) → (⟨S1x409600, .i32⟩ : BufTy).Contents (Elt F)),
    StableHlo.reshape main_v351 main_v352 rfl shapeCasts_S1x409600_S409600,
    StableHlo.nullary main_cst_61 (constant S_ .f32 0x00000000#32),
    StableHlo.unary main_cst_61 main_v353 (broadcastInDim S102400x100 ![] bcast_S_S102400x100 : (⟨S_, .f32⟩ : BufTy).Contents (Elt F) → (⟨S102400x100, .f32⟩ : BufTy).Contents (Elt F)),
    StableHlo.unary main_v352 main_v354 (broadcastInDim S409600x1 ![0] bcast_S409600_S409600x1_0 : (⟨S409600, .i32⟩ : BufTy).Contents (Elt F) → (⟨S409600x1, .i32⟩ : BufTy).Contents (Elt F)),
    StableHlo.ternary main_v353 main_v354 main_v350 main_v355 ((fun x i u => Host.scatterAdd scatter_S102400x100_S409600x1_S409600x100_1_0_0_1 x i u) : (⟨S102400x100, .f32⟩ : BufTy).Contents (Elt F) → (⟨S409600x1, .i32⟩ : BufTy).Contents (Elt F) → (⟨S409600x100, .f32⟩ : BufTy).Contents (Elt F) → (⟨S102400x100, .f32⟩ : BufTy).Contents (Elt F)),
    StableHlo.reshape main_arg19 main_v356 rfl shapeCasts_S64_S1x64 ]

theorem k10_split : (hostOps10 : List (HloOp τ sig (Elt F))) = k10a ++ k10b := rfl
end KernelSide

section ReferenceSide
open Cert.ReferenceIdeal Cert.ReferenceIdeal.Gen Cert.ReferenceIdeal.Hand
variable {F : FTy → Type} [FloatOps F]

/-- The reference's piece that ends with the concatenation, without it … -/
abbrev r30a : List (HloOp τ sig (Elt F)) :=
  [ StableHlo.unary main_cst_61 main_v416 (broadcastInDim S204800 ![] bcast_S_S204800 : (⟨S_, .f32⟩ : BufTy).Contents (Elt F) → (⟨S204800, .f32⟩ : BufTy).Contents (Elt F)),
    StableHlo.nullary main_cst_62 (constant S_ .f32 0x00000000#32),
    StableHlo.unary main_cst_62 main_v417 (broadcastInDim S102400 ![] bcast_S_S102400 : (⟨S_, .f32⟩ : BufTy).Contents (Elt F) → (⟨S102400, .f32⟩ : BufTy).Contents (Elt F)),
    StableHlo.unary main_v412 main_v418 (broadcastInDim S204800x1 ![0] bcast_S204800_S204800x1_0 : (⟨S204800, .i32⟩ : BufTy).Contents (Elt F) → (⟨S204800x1, .i32⟩ : BufTy).Contents (Elt F)),
    StableHlo.ternary main_v417 main_v418 main_v416 main_v419 ((fun x i u => Host.scatterAdd scatter_S102400_S204800x1_S204800_n_0_0_1 x i u) : (⟨S102400, .f32⟩ : BufTy).Contents (Elt F) → (⟨S204800x1, .i32⟩ : BufTy).Contents (Elt F) → (⟨S204800, .f32⟩ : BufTy).Contents (Elt F) → (⟨S102400, .f32⟩ : BufTy).Contents (Elt F)),
    StableHlo.nullary main_cst_63 (constant S_ .f32 0x3F800000#32),
    StableHlo.unary main_cst_63 main_v420 (broadcastInDim S102400 ![] bcast_S_S102400 : (⟨S_, .f32⟩ : BufTy).Contents (Elt F) → (⟨S102400, .f32⟩ : BufTy).Contents (Elt F)),
    StableHlo.binary main_v419 main_v420 main_v421 (maximumf : (⟨S102400, .f32⟩ : BufTy).Contents (Elt F) → (⟨S102400, .f32⟩ : BufTy).Contents (Elt F) → (⟨S102400, .f32⟩ : BufTy).Contents (Elt F)),
    StableHlo.unary main_v421 main_v422 (broadcastInDim S102400x1 ![0] bcast_S102400_S102400x1_0 : (⟨S102400, .f32⟩ : BufTy).Contents (Elt F) → (⟨S102400x1, .f32⟩ : BufTy).Contents (Elt F)),
    StableHlo.unary main_v422 main_v423 (broadcastInDim S102400x64 ![0, 1] bcast_S102400x1_S102400x64_0_1 : (⟨S102400x1, .f32⟩ : BufTy).Contents (Elt F) → (⟨S102400x64, .f32⟩ : BufTy).Contents (Elt F)),
    StableHlo.binary main_v415 main_v423 main_v424 (Host.divf : (⟨S102400x64, .f32⟩ : BufTy).Contents (Elt F) → (⟨S102400x64, .f32⟩ : BufTy).Contents (Elt F) → (⟨S102400x64, .f32⟩ : BufTy).Contents (Elt F)) ]

/-- … and the concatenation alone. -/
abbrev r30b : List (HloOp τ sig (Elt F)) :=
  [ StableHlo.binary main_v424 main_arg4 main_v425 ((fun a b => concatenate S102400x100 1 [⟨S102400x64, a⟩, ⟨S102400x36, b⟩] concatenates_S102400x64_S102400x36_S102400x100_d1) : (⟨S102400x64, .f32⟩ : BufTy).Contents (Elt F) → (⟨S102400x36, .f32⟩ : BufTy).Contents (Elt F) → (⟨S102400x100, .f32⟩ : BufTy).Contents (Elt F)) ]

theorem r30_split : (q30 : List (HloOp τ sig (Elt F))) = r30a ++ r30b := rfl
end ReferenceSide

set_option maxHeartbeats 8000000 in
/-- The averaged two-set rows: the same host operations on both sides. -/
theorem poolPairsPre (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v305) = VR (Proc.devRef .tc Cert.ReferenceIdeal.main_v389)) (e6 : VK (Proc.devRef .tc Cert.KernelIdeal.main_arg6) = VR (Proc.devRef .tc Cert.ReferenceIdeal.main_arg6)) :
    after k10a VK (Proc.devRef .tc Cert.KernelIdeal.main_v340) = after r30a (after Cert.ReferenceIdeal.Hand.q29 (after Cert.ReferenceIdeal.Hand.q28 VR)) (Proc.devRef .tc Cert.ReferenceIdeal.main_v424) := by
  simp only [k10a, r30a, Cert.ReferenceIdeal.Hand.q28, Cert.ReferenceIdeal.Hand.q29]
  after_results_simp
  try simp only [TRef.ofBuf, TRef.toBuf, cast_eq]
  rw [eh, e6]
  rfl

set_option maxHeartbeats 8000000 in
theorem keepK_arg4_10a (VK : Valuation Cert.KernelIdeal.τ Cert.KernelIdeal.sig (Elt Ideal)) : after k10a VK (Proc.devRef .tc Cert.KernelIdeal.main_arg4) = VK (Proc.devRef .tc Cert.KernelIdeal.main_arg4) := by
  simp only [k10a]
  after_results_simp
set_option maxHeartbeats 8000000 in
theorem keepK_arg5_10a (VK : Valuation Cert.KernelIdeal.τ Cert.KernelIdeal.sig (Elt Ideal)) : after k10a VK (Proc.devRef .tc Cert.KernelIdeal.main_arg5) = VK (Proc.devRef .tc Cert.KernelIdeal.main_arg5) := by
  simp only [k10a]
  after_results_simp
set_option maxHeartbeats 8000000 in
theorem keepR_arg4_30a (VR : Valuation Cert.ReferenceIdeal.τ Cert.ReferenceIdeal.sig (Elt Ideal)) : after r30a (after Cert.ReferenceIdeal.Hand.q29 (after Cert.ReferenceIdeal.Hand.q28 VR)) (Proc.devRef .tc Cert.ReferenceIdeal.main_arg4) = VR (Proc.devRef .tc Cert.ReferenceIdeal.main_arg4) := by
  simp only [r30a, Cert.ReferenceIdeal.Hand.q28, Cert.ReferenceIdeal.Hand.q29]
  after_results_simp
set_option maxHeartbeats 8000000 in
theorem keepR_arg5_30a (VR : Valuation Cert.ReferenceIdeal.τ Cert.ReferenceIdeal.sig (Elt Ideal)) : after r30a (after Cert.ReferenceIdeal.Hand.q29 (after Cert.ReferenceIdeal.Hand.q28 VR)) (Proc.devRef .tc Cert.ReferenceIdeal.main_arg5) = VR (Proc.devRef .tc Cert.ReferenceIdeal.main_arg5) := by
  simp only [r30a, Cert.ReferenceIdeal.Hand.q28, Cert.ReferenceIdeal.Hand.q29]
  after_results_simp

set_option maxHeartbeats 8000000 in
/-- The mean of the node rows over each two-set, with the two-set's type columns appended. -/
theorem poolPairs (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v305) = VR (Proc.devRef .tc Cert.ReferenceIdeal.main_v389)) (e6 : VK (Proc.devRef .tc Cert.KernelIdeal.main_arg6) = VR (Proc.devRef .tc Cert.ReferenceIdeal.main_arg6))
    (e4 : VK (Proc.devRef .tc Cert.KernelIdeal.main_arg4) = VR (Proc.devRef .tc Cert.ReferenceIdeal.main_arg4)) :
    after Cert.KernelIdeal.Gen.hostOps10 VK (Proc.devRef .tc Cert.KernelIdeal.main_v341) = after Cert.ReferenceIdeal.Hand.q30 (after Cert.ReferenceIdeal.Hand.q29 (after Cert.ReferenceIdeal.Hand.q28 VR)) (Proc.devRef .tc Cert.ReferenceIdeal.main_v425) := by
  rw [k10_split, r30_split, Cert.ReferenceIdeal.Hand.after_append, Cert.ReferenceIdeal.Hand.after_append]
  have e340 := poolPairsPre VK VR eh e6
  have e4' : after k10a VK (Proc.devRef .tc Cert.KernelIdeal.main_arg4) = after r30a (after Cert.ReferenceIdeal.Hand.q29 (after Cert.ReferenceIdeal.Hand.q28 VR)) (Proc.devRef .tc Cert.ReferenceIdeal.main_arg4) :=
    (keepK_arg4_10a VK).trans (e4.trans (keepR_arg4_30a VR).symm)
  generalize after k10a VK = V1 at e340 e4' ⊢
  generalize after r30a (after Cert.ReferenceIdeal.Hand.q29 (after Cert.ReferenceIdeal.Hand.q28 VR)) = V1' at e340 e4' ⊢
  simp only [k10b, r30b]
  after_results_simp
  rw [e340, e4']

set_option maxHeartbeats 8000000 in
/-- The first convolution's aggregation over the two-set edges. -/
theorem aggPairs1 (VK : Valuation Cert.KernelIdeal.τ Cert.KernelIdeal.sig (Elt Ideal)) (VR : Valuation Cert.ReferenceIdeal.τ Cert.ReferenceIdeal.sig (Elt Ideal))
    (eh : VK (Proc.devRef .tc Cert.KernelIdeal.main_v305) = VR (Proc.devRef .tc Cert.ReferenceIdeal.main_v389)) (e6 : VK (Proc.devRef .tc Cert.KernelIdeal.main_arg6) = VR (Proc.devRef .tc Cert.ReferenceIdeal.main_arg6))
    (e4 : VK (Proc.devRef .tc Cert.KernelIdeal.main_arg4) = VR (Proc.devRef .tc Cert.ReferenceIdeal.main_arg4)) (e5 : VK (Proc.devRef .tc Cert.KernelIdeal.main_arg5) = VR (Proc.devRef .tc Cert.ReferenceIdeal.main_arg5)) :
    after Cert.KernelIdeal.Gen.hostOps10 VK (Proc.devRef .tc Cert.KernelIdeal.main_v355)
      = after Cert.ReferenceIdeal.Hand.q31 (after Cert.ReferenceIdeal.Hand.q30 (after Cert.ReferenceIdeal.Hand.q29 (after Cert.ReferenceIdeal.Hand.q28 VR))) (Proc.devRef .tc Cert.ReferenceIdeal.main_v439) := by
  rw [k10_split, r30_split, Cert.ReferenceIdeal.Hand.after_append, Cert.ReferenceIdeal.Hand.after_append]
  have e340 := poolPairsPre VK VR eh e6
  have e4' : after k10a VK (Proc.devRef .tc Cert.KernelIdeal.main_arg4) = after r30a (after Cert.ReferenceIdeal.Hand.q29 (after Cert.ReferenceIdeal.Hand.q28 VR)) (Proc.devRef .tc Cert.ReferenceIdeal.main_arg4) :=
    (keepK_arg4_10a VK).trans (e4.trans (keepR_arg4_30a VR).symm)
  have e5' : after k10a VK (Proc.devRef .tc Cert.KernelIdeal.main_arg5) = after r30a (after Cert.ReferenceIdeal.Hand.q29 (after Cert.ReferenceIdeal.Hand.q28 VR)) (Proc.devRef .tc Cert.ReferenceIdeal.main_arg5) :=
    (keepK_arg5_10a VK).trans (e5.trans (keepR_arg5_30a VR).symm)
  generalize after k10a VK = V1 at e340 e4' e5' ⊢
  generalize after r30a (after Cert.ReferenceIdeal.Hand.q29 (after Cert.ReferenceIdeal.Hand.q28 VR)) = V1' at e340 e4' e5' ⊢
  simp only [k10b, r30b, Cert.ReferenceIdeal.Hand.q31]
  after_results_simp
  rw [e340, e4', e5']
  rfl

end Cert.Bridge

end
-- ==== Proof.ValReadout.lean ====
/-
  The readout body over the extended reals. Two [n, 64] arrays are set side by side into an [n, 128] array; three layers
  follow, each "times a weight matrix, plus a bias row, clipped below at zero", and a last layer without the clip. The
  casts to the narrower float format are the identity and each product on the matrix unit into zeros is the inner
  product, so the body's arithmetic is that composition, entry by entry.
-/
import proofs.«133701_j46024869544456_1_alg».proof.Proof.Gen.KernelIdeal.Skeleton
import proofs.«133701_j46024869544456_1_alg».proof.Proof.LibMatmulNN
import proofs.«133701_j46024869544456_1_alg».proof.Proof.LibRowBias
import Idealize.ShloMosaic.Lib.Pipeline.Value

noncomputable section

open scoped BigOperators

namespace Cert.KernelIdeal.Val

open Idealize.ShloMosaic Idealize.ShloMosaic.ValueIdx Cert.KernelIdeal Cert.KernelIdeal.Gen

/-- Two [n, 64] arrays side by side: columns below 64 from the first, the others from the second. -/
def catCols {n : Nat} (x1 x2 : (⟨2, ![n, 64]⟩ : Shape).Idx → EReal) : (⟨2, ![n, 128]⟩ : Shape).Idx → EReal :=
  fun i => if h : (i 1 : Fin 128).val < 64 then x1 (ix2 (i 0 : Fin n) (⟨(i 1 : Fin 128).val, h⟩ : Fin 64))
    else x2 (ix2 (i 0 : Fin n) (⟨(i 1 : Fin 128).val - 64, by have h128 : (i 1 : Fin 128).val < 128 := (i 1 : Fin 128).isLt; omega⟩ : Fin 64))

theorem catCols_apply {n : Nat} (x1 x2 : (⟨2, ![n, 64]⟩ : Shape).Idx → EReal) (p : Fin n) (j : Fin 128) :
    catCols x1 x2 (ix2 p j)
      = if h : j.val < 64 then x1 (ix2 p (⟨j.val, h⟩ : Fin 64))
        else x2 (ix2 p (⟨j.val - 64, by have := j.isLt; omega⟩ : Fin 64)) := rfl

/-- A layer without the clip: row p of x times W, plus the bias row. -/
def affLayer {n a b : Nat} (x : (⟨2, ![n, a]⟩ : Shape).Idx → EReal) (W : (⟨2, ![a, b]⟩ : Shape).Idx → EReal)
    (bias : (⟨2, ![1, b]⟩ : Shape).Idx → EReal) : (⟨2, ![n, b]⟩ : Shape).Idx → EReal :=
  fun i => (∑ j : Fin a, x (ix2 (i 0 : Fin n) j) * W (ix2 j (i 1 : Fin b))) + bias (ix2 (0 : Fin 1) (i 1 : Fin b))

theorem affLayer_apply {n a b : Nat} (x : (⟨2, ![n, a]⟩ : Shape).Idx → EReal) (W : (⟨2, ![a, b]⟩ : Shape).Idx → EReal)
    (bias : (⟨2, ![1, b]⟩ : Shape).Idx → EReal) (p : Fin n) (q : Fin b) :
    affLayer x W bias (ix2 p q) = (∑ j : Fin a, x (ix2 p j) * W (ix2 j q)) + bias (ix2 (0 : Fin 1) q) := rfl

/-- A layer with the clip below at zero. -/
def reluLayer {n a b : Nat} (x : (⟨2, ![n, a]⟩ : Shape).Idx → EReal) (W : (⟨2, ![a, b]⟩ : Shape).Idx → EReal)
    (bias : (⟨2, ![1, b]⟩ : Shape).Idx → EReal) : (⟨2, ![n, b]⟩ : Shape).Idx → EReal :=
  fun i => max ((∑ j : Fin a, x (ix2 (i 0 : Fin n) j) * W (ix2 j (i 1 : Fin b))) + bias (ix2 (0 : Fin 1) (i 1 : Fin b))) 0

theorem reluLayer_apply {n a b : Nat} (x : (⟨2, ![n, a]⟩ : Shape).Idx → EReal) (W : (⟨2, ![a, b]⟩ : Shape).Idx → EReal)
    (bias : (⟨2, ![1, b]⟩ : Shape).Idx → EReal) (p : Fin n) (q : Fin b) :
    reluLayer x W bias (ix2 p q) = max ((∑ j : Fin a, x (ix2 p j) * W (ix2 j q)) + bias (ix2 (0 : Fin 1) q)) 0 := rfl

/-- The readout: the two inputs side by side, three clipped layers, one plain layer. -/
def readout {n : Nat} (x1 x2 : (⟨2, ![n, 64]⟩ : Shape).Idx → EReal) (W0 : (⟨2, ![128, 64]⟩ : Shape).Idx → EReal)
    (b0 : (⟨2, ![1, 64]⟩ : Shape).Idx → EReal) (W1 : (⟨2, ![64, 32]⟩ : Shape).Idx → EReal)
    (b1 : (⟨2, ![1, 32]⟩ : Shape).Idx → EReal) (W2 : (⟨2, ![32, 16]⟩ : Shape).Idx → EReal)
    (b2 : (⟨2, ![1, 16]⟩ : Shape).Idx → EReal) (Wl : (⟨2, ![16, 1]⟩ : Shape).Idx → EReal)
    (bl : (⟨2, ![1, 1]⟩ : Shape).Idx → EReal) : (⟨2, ![n, 1]⟩ : Shape).Idx → EReal :=
  affLayer (reluLayer (reluLayer (reluLayer (catCols x1 x2) W0 b0) W1 b1) W2 b2) Wl bl

/-- The body's side-by-side step: the casts are the identity, the concatenation along the columns reads the first
    piece below column 64 and the second, 64 columns back, from there on. -/
theorem catCols_body {n : Nat} (x1 x2 : FVec Ideal ⟨2, ![n, 64]⟩ .f32)
    (h1 h2 : (⟨2, ![n, 64]⟩ : Shape).ShapeCasts ⟨2, ![n, 64]⟩)
    (hc : Shape.Concatenates [(⟨2, ![n, 64]⟩ : Shape), ⟨2, ![n, 64]⟩] ⟨2, ![n, 128]⟩ (1 : Fin 2))
    (hb : FTy.bits .bf16 < FTy.bits .f32) :
    (truncf .bf16 (concatenate ⟨2, ![n, 128]⟩ (1 : Fin 2)
        [⟨⟨2, ![n, 64]⟩, shapeCast ⟨2, ![n, 64]⟩ x1 h1⟩, ⟨⟨2, ![n, 64]⟩, shapeCast ⟨2, ![n, 64]⟩ x2 h2⟩] hc) hb
      : FVec Ideal ⟨2, ![n, 128]⟩ .bf16) = catCols x1 x2 := by
  funext i
  obtain ⟨p, j, rfl⟩ : ∃ (p : Fin n) (j : Fin 128), i = ix2 p j := ⟨i 0, i 1, eq_ix2 i⟩
  rw [truncf_apply, catCols_apply]
  simp only [shapeCast_self]
  by_cases h : j.val < 64
  · rw [dif_pos h]
    refine concatenate_pair_apply_left (1 : Fin 2) x1 x2 hc (ix2 p j) rfl (ix2 p (⟨j.val, h⟩ : Fin 64)) (fun b => ?_)
    match b with
    | ⟨0, _⟩ => rfl
    | ⟨1, _⟩ => rfl
  · rw [dif_neg h]
    refine concatenate_pair_apply_right (1 : Fin 2) x1 x2 hc (ix2 p j) rfl rfl
      (ix2 p (⟨j.val - 64, by have := j.isLt; omega⟩ : Fin 64)) (fun b hb => ?_) ?_
    · match b, hb with
      | ⟨0, _⟩, _ => rfl
      | ⟨1, _⟩, hb => exact (hb (Fin.ext rfl)).elim
    · show (j.val - 64) + 64 = j.val
      omega

/-- The body's plain layer. -/
theorem affLayer_body {n a b : Nat} {φ : FTy} (D : DotDims ⟨2, ![n, a]⟩ ⟨2, ![a, b]⟩ ⟨2, ![n, b]⟩)
    (hD : D = DotDims.plain n a b) (x : FVec Ideal ⟨2, ![n, a]⟩ φ) (W : FVec Ideal ⟨2, ![a, b]⟩ .f32)
    (bias : FVec Ideal ⟨2, ![1, b]⟩ .f32) (hs : (⟨2, ![1, b]⟩ : Shape).ShapeCasts ⟨2, ![1, b]⟩)
    (g : (⟨2, ![1, b]⟩ : Shape).Broadcasts ⟨2, ![n, b]⟩) (hb : FTy.bits .bf16 < FTy.bits .f32) :
    addf (FloatOps.matmul D none x (truncf .bf16 W hb) (constant (F := Ideal) ⟨2, ![n, b]⟩ .f32 0x00000000#32))
        (broadcastTo ⟨2, ![n, b]⟩ (shapeCast ⟨2, ![1, b]⟩ bias hs) g)
      = affLayer x W bias := by
  funext i
  obtain ⟨p, q, rfl⟩ : ∃ (p : Fin n) (q : Fin b), i = ix2 p q := ⟨i 0, i 1, eq_ix2 i⟩
  rw [shapeCast_self, Cert.RowBias.bodyBias_apply, Cert.MatmulNN.matmul_zero_apply D hD]
  rfl

/-- The body's clipped layer, with the cast of its result to the narrower format. -/
theorem reluLayer_body {n a b : Nat} {φ : FTy} (D : DotDims ⟨2, ![n, a]⟩ ⟨2, ![a, b]⟩ ⟨2, ![n, b]⟩)
    (hD : D = DotDims.plain n a b) (x : FVec Ideal ⟨2, ![n, a]⟩ φ) (W : FVec Ideal ⟨2, ![a, b]⟩ .f32)
    (bias : FVec Ideal ⟨2, ![1, b]⟩ .f32) (hs : (⟨2, ![1, b]⟩ : Shape).ShapeCasts ⟨2, ![1, b]⟩)
    (g : (⟨2, ![1, b]⟩ : Shape).Broadcasts ⟨2, ![n, b]⟩) (hb : FTy.bits .bf16 < FTy.bits .f32) :
    (truncf .bf16
        (maximumf
          (addf (FloatOps.matmul D none x (truncf .bf16 W hb) (constant (F := Ideal) ⟨2, ![n, b]⟩ .f32 0x00000000#32))
            (broadcastTo ⟨2, ![n, b]⟩ (shapeCast ⟨2, ![1, b]⟩ bias hs) g))
          (broadcast ⟨2, ![n, b]⟩ (Scalar.ofBits (F := Ideal) .f32 0x00000000#32))) hb
      : FVec Ideal ⟨2, ![n, b]⟩ .bf16) = reluLayer x W bias := by
  funext i
  obtain ⟨p, q, rfl⟩ : ∃ (p : Fin n) (q : Fin b), i = ix2 p q := ⟨i 0, i 1, eq_ix2 i⟩
  rw [truncf_apply, shapeCast_self, Cert.RowBias.bodyBiasRelu_apply, Ideal.ofBits_zero_f32,
    Cert.MatmulNN.matmul_zero_apply D hD]
  rfl

/-- The readout body's arithmetic is the readout of the blocks it loads. -/
theorem k12_eq (x0 x1 : Vec Ideal S256x64 .f32) (x2 : Vec Ideal S128x64 .f32) (x3 : Vec Ideal S1x64 .f32)
    (x4 : Vec Ideal S64x32 .f32) (x5 : Vec Ideal S1x32 .f32) (x6 : Vec Ideal S32x16 .f32) (x7 : Vec Ideal S1x16 .f32)
    (x8 : Vec Ideal S16x1 .f32) (x9 : Vec Ideal S1x1 .f32) :
    k12_pay1 (k12_pay2 x0 x1 x2 x3 x4 x5 x6 x7) x8 x9 = readout (n := 256) x0 x1 x2 x3 x4 x5 x6 x7 x8 x9 := by
  refine (affLayer_body _ rfl (k12_pay2 x0 x1 x2 x3 x4 x5 x6 x7) x8 x9 _ _ _).trans ?_
  refine congrArg (fun z => affLayer z x8 x9) ?_
  refine (reluLayer_body _ rfl _ x6 x7 _ _ _).trans ?_
  refine congrArg (fun z => reluLayer z x6 x7) ?_
  refine (reluLayer_body _ rfl _ x4 x5 _ _ _).trans ?_
  refine congrArg (fun z => reluLayer z x4 x5) ?_
  refine (reluLayer_body _ rfl _ x2 x3 _ _ _).trans ?_
  refine congrArg (fun z => reluLayer z x2 x3) ?_
  exact catCols_body x0 x1 _ _ _ _

/-- The readout of equal arguments at equal entries. -/
theorem readout_congr {n : Nat} {x1 x1' x2 x2' : (⟨2, ![n, 64]⟩ : Shape).Idx → EReal}
    {W0 W0' : (⟨2, ![128, 64]⟩ : Shape).Idx → EReal} {b0 b0' : (⟨2, ![1, 64]⟩ : Shape).Idx → EReal}
    {W1 W1' : (⟨2, ![64, 32]⟩ : Shape).Idx → EReal} {b1 b1' : (⟨2, ![1, 32]⟩ : Shape).Idx → EReal}
    {W2 W2' : (⟨2, ![32, 16]⟩ : Shape).Idx → EReal} {b2 b2' : (⟨2, ![1, 16]⟩ : Shape).Idx → EReal}
    {Wl Wl' : (⟨2, ![16, 1]⟩ : Shape).Idx → EReal} {bl bl' : (⟨2, ![1, 1]⟩ : Shape).Idx → EReal}
    {i i' : (⟨2, ![n, 1]⟩ : Shape).Idx}
    (h0 : x1 = x1') (h1 : x2 = x2') (h2 : W0 = W0') (h3 : b0 = b0') (h4 : W1 = W1') (h5 : b1 = b1') (h6 : W2 = W2')
    (h7 : b2 = b2') (h8 : Wl = Wl') (h9 : bl = bl') (hi : i = i') :
    readout x1 x2 W0 b0 W1 b1 W2 b2 Wl bl i = readout x1' x2' W0' b0' W1' b1' W2' b2' Wl' bl' i' := by
  subst h0 h1 h2 h3 h4 h5 h6 h7 h8 h9 hi
  rfl

end Cert.KernelIdeal.Val

end
-- ==== Proof.RefReadout.lean ====
/-
  The reference's read-out, read over the extended reals. Two arrays of 256 rows and 64 columns are set side by side
  into 256 × 128; then three layers "times a weight matrix, plus a bias row, clipped below at zero" (128 → 64 → 32 → 16)
  and a last layer without the clip (16 → 1). The host spells each product as a matrix product, each bias as a vector
  laid out as a row and repeated down the rows, each clip as a maximum with a zero array; entry by entry that is the
  composition  affLayer ∘ reluLayer ∘ reluLayer ∘ reluLayer ∘ catCols  of the kernel side's definitions.
-/
import proofs.«133701_j46024869544456_1_alg».proof.ReferenceIdeal
import proofs.«133701_j46024869544456_1_alg».proof.Proof.Gen.ReferenceIdeal
import proofs.«133701_j46024869544456_1_alg».proof.Proof.ValReadout
import proofs.«133701_j46024869544456_1_alg».proof.Proof.LibDotNN
import proofs.«133701_j46024869544456_1_alg».proof.Proof.LibRowBias
import proofs.«133701_j46024869544456_1_alg».proof.Proof.LibLayout
import proofs.«133701_j46024869544456_1_alg».proof.Proof.BnConsts
import Idealize.ShloMosaic.Lib.ValueIdx
import Idealize.ShloMosaic.PureOps.Ideal.Laws

noncomputable section

namespace Cert.RefReadout

open Idealize.ShloMosaic Idealize.ShloMosaic.ValueIdx Cert.ReferenceIdeal Cert.ReferenceIdeal.Gen

/-- The host's concatenation of two [n, 64] arrays along the columns: columns below 64 read the first array, the
    others the second, 64 columns back. -/
theorem hostCat {n : Nat} (x1 x2 : FVec Ideal ⟨2, ![n, 64]⟩ .f32)
    (hc : Shape.Concatenates [(⟨2, ![n, 64]⟩ : Shape), ⟨2, ![n, 64]⟩] ⟨2, ![n, 128]⟩ (1 : Fin 2)) :
    (concatenate ⟨2, ![n, 128]⟩ (1 : Fin 2) [⟨⟨2, ![n, 64]⟩, x1⟩, ⟨⟨2, ![n, 64]⟩, x2⟩] hc : FVec Ideal ⟨2, ![n, 128]⟩ .f32)
      = Cert.KernelIdeal.Val.catCols x1 x2 := by
  funext i
  obtain ⟨p, j, rfl⟩ : ∃ (p : Fin n) (j : Fin 128), i = ix2 p j := ⟨i 0, i 1, eq_ix2 i⟩
  rw [Cert.KernelIdeal.Val.catCols_apply]
  by_cases h : j.val < 64
  · rw [dif_pos h]
    refine concatenate_pair_apply_left (1 : Fin 2) x1 x2 hc (ix2 p j) rfl (ix2 p (⟨j.val, h⟩ : Fin 64)) (fun b => ?_)
    match b with
    | ⟨0, _⟩ => rfl
    | ⟨1, _⟩ => rfl
  · rw [dif_neg h]
    refine concatenate_pair_apply_right (1 : Fin 2) x1 x2 hc (ix2 p j) rfl rfl
      (ix2 p (⟨j.val - 64, by have := j.isLt; omega⟩ : Fin 64)) (fun b hb => ?_) ?_
    · match b, hb with
      | ⟨0, _⟩, _ => rfl
      | ⟨1, _⟩, hb => exact (hb (Fin.ext rfl)).elim
    · show (j.val - 64) + 64 = j.val
      omega

/-- The host's clipped layer: matrix product, plus the bias row repeated down the rows, maximum with the zero array. -/
theorem hostRelu {n a b : Nat} (D : DotDims ⟨2, ![n, a]⟩ ⟨2, ![a, b]⟩ ⟨2, ![n, b]⟩) (hD : D = DotDims.plain n a b)
    (x : FVec Ideal ⟨2, ![n, a]⟩ .f32) (W : FVec Ideal ⟨2, ![a, b]⟩ .f32) (B : FVec Ideal ⟨2, ![1, b]⟩ .f32)
    (hb : (⟨2, ![1, b]⟩ : Shape).BroadcastsInDim ⟨2, ![n, b]⟩ ![0, 1])
    (hz : (⟨0, ![]⟩ : Shape).BroadcastsInDim ⟨2, ![n, b]⟩ ![]) :
    maximumf (addf (Host.dotGeneral D none x W) (broadcastInDim ⟨2, ![n, b]⟩ ![0, 1] hb B))
        (broadcastInDim ⟨2, ![n, b]⟩ ![] hz (constant (F := Ideal) ⟨0, ![]⟩ .f32 0x00000000#32))
      = Cert.KernelIdeal.Val.reluLayer x W B := by
  funext i
  obtain ⟨p, q, rfl⟩ : ∃ (p : Fin n) (q : Fin b), i = ix2 p q := ⟨i 0, i 1, eq_ix2 i⟩
  rw [Cert.KernelIdeal.Val.reluLayer_apply, Cert.RowBias.hostBiasRelu_apply, Cert.BnConsts.ofBits_zero]
  congr 2
  exact Cert.DotNN.dotGeneral_apply D hD none _ x W p q

/-- The host's plain layer: matrix product, plus the bias row repeated down the rows. -/
theorem hostAff {n a b : Nat} (D : DotDims ⟨2, ![n, a]⟩ ⟨2, ![a, b]⟩ ⟨2, ![n, b]⟩) (hD : D = DotDims.plain n a b)
    (x : FVec Ideal ⟨2, ![n, a]⟩ .f32) (W : FVec Ideal ⟨2, ![a, b]⟩ .f32) (B : FVec Ideal ⟨2, ![1, b]⟩ .f32)
    (hb : (⟨2, ![1, b]⟩ : Shape).BroadcastsInDim ⟨2, ![n, b]⟩ ![0, 1]) :
    addf (Host.dotGeneral D none x W) (broadcastInDim ⟨2, ![n, b]⟩ ![0, 1] hb B)
      = Cert.KernelIdeal.Val.affLayer x W B := by
  funext i
  obtain ⟨p, q, rfl⟩ : ∃ (p : Fin n) (q : Fin b), i = ix2 p q := ⟨i 0, i 1, eq_ix2 i⟩
  rw [Cert.KernelIdeal.Val.affLayer_apply, Cert.RowBias.hostBias_apply]
  congr 1
  exact Cert.DotNN.dotGeneral_apply D hD none _ x W p q

/-- The host's read-out with the four biases given as rows. -/
theorem ro_ref (x1 x2 : FVec Ideal S256x64 .f32) (W0 : FVec Ideal S128x64 .f32) (B0 : FVec Ideal S1x64 .f32)
    (W1 : FVec Ideal S64x32 .f32) (B1 : FVec Ideal S1x32 .f32) (W2 : FVec Ideal S32x16 .f32) (B2 : FVec Ideal S1x16 .f32)
    (Wl : FVec Ideal S16x1 .f32) (Bl : FVec Ideal S1x1 .f32) :
    addf (Host.dotGeneral dot_S256x16_S16x1_S256x1_1_0_0_1_n_n none
      (maximumf (addf (Host.dotGeneral dot_S256x32_S32x16_S256x16_1_0_0_1_n_n none
        (maximumf (addf (Host.dotGeneral dot_S256x64_S64x32_S256x32_1_0_0_1_n_n none
          (maximumf (addf (Host.dotGeneral dot_S256x128_S128x64_S256x64_1_0_0_1_n_n none
              (concatenate S256x128 1 [⟨S256x64, x1⟩, ⟨S256x64, x2⟩] concatenates_S256x64_S256x64_S256x128_d1) W0)
            (broadcastInDim S256x64 ![0, 1] bcast_S1x64_S256x64_0_1 B0))
          (broadcastInDim S256x64 ![] bcast_S_S256x64 (constant (F := Ideal) S_ .f32 0x00000000#32))) W1)
          (broadcastInDim S256x32 ![0, 1] bcast_S1x32_S256x32_0_1 B1))
        (broadcastInDim S256x32 ![] bcast_S_S256x32 (constant (F := Ideal) S_ .f32 0x00000000#32))) W2)
        (broadcastInDim S256x16 ![0, 1] bcast_S1x16_S256x16_0_1 B2))
      (broadcastInDim S256x16 ![] bcast_S_S256x16 (constant (F := Ideal) S_ .f32 0x00000000#32))) Wl)
      (broadcastInDim S256x1 ![0, 1] bcast_S1x1_S256x1_0_1 Bl)
    = Cert.KernelIdeal.Val.readout (n := 256) x1 x2 W0 B0 W1 B1 W2 B2 Wl Bl := by
  refine (hostAff _ rfl _ Wl Bl _).trans ?_
  refine congrArg (fun z => Cert.KernelIdeal.Val.affLayer z Wl Bl) ?_
  refine (hostRelu _ rfl _ W2 B2 _ _).trans ?_
  refine congrArg (fun z => Cert.KernelIdeal.Val.reluLayer z W2 B2) ?_
  refine (hostRelu _ rfl _ W1 B1 _ _).trans ?_
  refine congrArg (fun z => Cert.KernelIdeal.Val.reluLayer z W1 B1) ?_
  refine (hostRelu _ rfl _ W0 B0 _ _).trans ?_
  refine congrArg (fun z => Cert.KernelIdeal.Val.reluLayer z W0 B0) ?_
  exact hostCat x1 x2 _

/-- The same with the four biases given as vectors, each laid out as a row by the host's broadcast along a new leading
    axis: that row is the vector reshaped to one row. -/
theorem ro_ref' (x1 x2 : FVec Ideal S256x64 .f32) (W0 : FVec Ideal S128x64 .f32) (b0 : FVec Ideal S64 .f32)
    (W1 : FVec Ideal S64x32 .f32) (b1 : FVec Ideal S32 .f32) (W2 : FVec Ideal S32x16 .f32) (b2 : FVec Ideal S16 .f32)
    (Wl : FVec Ideal S16x1 .f32) (bl : FVec Ideal S1 .f32)
    (hs64 : S64.ShapeCasts S1x64) (hs32 : S32.ShapeCasts S1x32) (hs16 : S16.ShapeCasts S1x16) (hs1 : S1.ShapeCasts S1x1) :
    addf (Host.dotGeneral dot_S256x16_S16x1_S256x1_1_0_0_1_n_n none
      (maximumf (addf (Host.dotGeneral dot_S256x32_S32x16_S256x16_1_0_0_1_n_n none
        (maximumf (addf (Host.dotGeneral dot_S256x64_S64x32_S256x32_1_0_0_1_n_n none
          (maximumf (addf (Host.dotGeneral dot_S256x128_S128x64_S256x64_1_0_0_1_n_n none
              (concatenate S256x128 1 [⟨S256x64, x1⟩, ⟨S256x64, x2⟩] concatenates_S256x64_S256x64_S256x128_d1) W0)
            (broadcastInDim S256x64 ![0, 1] bcast_S1x64_S256x64_0_1 (broadcastInDim S1x64 ![1] bcast_S64_S1x64_1 b0)))
          (broadcastInDim S256x64 ![] bcast_S_S256x64 (constant (F := Ideal) S_ .f32 0x00000000#32))) W1)
          (broadcastInDim S256x32 ![0, 1] bcast_S1x32_S256x32_0_1 (broadcastInDim S1x32 ![1] bcast_S32_S1x32_1 b1)))
        (broadcastInDim S256x32 ![] bcast_S_S256x32 (constant (F := Ideal) S_ .f32 0x00000000#32))) W2)
        (broadcastInDim S256x16 ![0, 1] bcast_S1x16_S256x16_0_1 (broadcastInDim S1x16 ![1] bcast_S16_S1x16_1 b2)))
      (broadcastInDim S256x16 ![] bcast_S_S256x16 (constant (F := Ideal) S_ .f32 0x00000000#32))) Wl)
      (broadcastInDim S256x1 ![0, 1] bcast_S1x1_S256x1_0_1 (broadcastInDim S1x1 ![1] bcast_S1_S1x1_1 bl))
    = Cert.KernelIdeal.Val.readout (n := 256) x1 x2 W0 (shapeCast S1x64 b0 hs64) W1 (shapeCast S1x32 b1 hs32)
        W2 (shapeCast S1x16 b2 hs16) Wl (shapeCast S1x1 bl hs1) := by
  rw [ro_ref, Cert.Layout.row_reshape_eq_broadcast b0 hs64 bcast_S64_S1x64_1,
    Cert.Layout.row_reshape_eq_broadcast b1 hs32 bcast_S32_S1x32_1,
    Cert.Layout.row_reshape_eq_broadcast b2 hs16 bcast_S16_S1x16_1,
    Cert.Layout.row_reshape_eq_broadcast bl hs1 bcast_S1_S1x1_1]

end Cert.RefReadout

end
-- ==== Proof.StageRo.lean ====
/-
  The read-out, as both programs compute it from equal inputs (the valuations are arbitrary: the stage is a fact about the
  two lists of host operations). The kernel's last region leaves the read-out of the two pooled arrays, the four weight
  matrices and the four bias rows its host stretch lays out by reshapes; the reference's host operations compute the
  same array from the same arguments, the biases laid out by broadcasts; both then reshape the 256 × 1 result to 256.
-/
import proofs.«133701_j46024869544456_1_alg».proof.Proof.Gen.KernelIdeal.Launch
import proofs.«133701_j46024869544456_1_alg».proof.Proof.RefOps
import proofs.«133701_j46024869544456_1_alg».proof.Proof.RefReadout
import proofs.«133701_j46024869544456_1_alg».proof.Proof.ValReadout
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 4000000 in
/-- The read-out: from equal pooled arrays (the first held since an earlier region, the second the kernel's last host
    stretch's quotient) and equal arguments 24 … 31, the kernel's read-out of its laid-out operands, reshaped to a
    vector, is the reference's result. -/
theorem readoutStage (VK : Valuation Cert.KernelIdeal.τ Cert.KernelIdeal.sig (Elt Ideal)) (VR : Valuation Cert.ReferenceIdeal.τ Cert.ReferenceIdeal.sig (Elt Ideal))
    (ex1 : VK (Proc.devRef .tc Cert.KernelIdeal.main_v317) = VR (Proc.devRef .tc Cert.ReferenceIdeal.main_v401))
    (ex2 : after Cert.KernelIdeal.Gen.hostOps12 VK (Proc.devRef .tc Cert.KernelIdeal.main_v385) = VR (Proc.devRef .tc Cert.ReferenceIdeal.main_v479))
    (e24 : VK (Proc.devRef .tc Cert.KernelIdeal.main_arg24) = VR (Proc.devRef .tc Cert.ReferenceIdeal.main_arg24))
    (e25 : VK (Proc.devRef .tc Cert.KernelIdeal.main_arg25) = VR (Proc.devRef .tc Cert.ReferenceIdeal.main_arg25))
    (e26 : VK (Proc.devRef .tc Cert.KernelIdeal.main_arg26) = VR (Proc.devRef .tc Cert.ReferenceIdeal.main_arg26))
    (e27 : VK (Proc.devRef .tc Cert.KernelIdeal.main_arg27) = VR (Proc.devRef .tc Cert.ReferenceIdeal.main_arg27))
    (e28 : VK (Proc.devRef .tc Cert.KernelIdeal.main_arg28) = VR (Proc.devRef .tc Cert.ReferenceIdeal.main_arg28))
    (e29 : VK (Proc.devRef .tc Cert.KernelIdeal.main_arg29) = VR (Proc.devRef .tc Cert.ReferenceIdeal.main_arg29))
    (e30 : VK (Proc.devRef .tc Cert.KernelIdeal.main_arg30) = VR (Proc.devRef .tc Cert.ReferenceIdeal.main_arg30))
    (e31 : VK (Proc.devRef .tc Cert.KernelIdeal.main_arg31) = VR (Proc.devRef .tc Cert.ReferenceIdeal.main_arg31)) :
    shapeCast Cert.KernelIdeal.S256 (Cert.KernelIdeal.Val.readout (n := 256) (after Cert.KernelIdeal.Gen.hostOps12 VK (Proc.devRef .tc Cert.KernelIdeal.main_v317)) (after Cert.KernelIdeal.Gen.hostOps12 VK (Proc.devRef .tc Cert.KernelIdeal.main_v385))
        (after Cert.KernelIdeal.Gen.hostOps12 VK (Proc.devRef .tc Cert.KernelIdeal.main_arg24)) (after Cert.KernelIdeal.Gen.hostOps12 VK (Proc.devRef .tc Cert.KernelIdeal.main_v386))
        (after Cert.KernelIdeal.Gen.hostOps12 VK (Proc.devRef .tc Cert.KernelIdeal.main_arg26)) (after Cert.KernelIdeal.Gen.hostOps12 VK (Proc.devRef .tc Cert.KernelIdeal.main_v387))
        (after Cert.KernelIdeal.Gen.hostOps12 VK (Proc.devRef .tc Cert.KernelIdeal.main_arg28)) (after Cert.KernelIdeal.Gen.hostOps12 VK (Proc.devRef .tc Cert.KernelIdeal.main_v388))
        (after Cert.KernelIdeal.Gen.hostOps12 VK (Proc.devRef .tc Cert.KernelIdeal.main_arg30)) (after Cert.KernelIdeal.Gen.hostOps12 VK (Proc.devRef .tc Cert.KernelIdeal.main_v389))) Cert.KernelIdeal.Gen.shapeCasts_S256x1_S256
      = after Cert.ReferenceIdeal.Hand.q36 VR (Proc.devRef .tc Cert.ReferenceIdeal.main_v500) := by
  generalize after Cert.KernelIdeal.Gen.hostOps12 VK (Proc.devRef .tc Cert.KernelIdeal.main_v385) = x2 at ex2 ⊢
  simp only [Cert.KernelIdeal.Gen.hostOps12, Cert.ReferenceIdeal.Hand.q36]
  after_results_simp
  try simp only [TRef.ofBuf, TRef.toBuf, cast_eq]
  rw [Cert.RefReadout.ro_ref' _ _ _ _ _ _ _ _ _ _ Cert.KernelIdeal.Gen.shapeCasts_S64_S1x64 Cert.KernelIdeal.Gen.shapeCasts_S32_S1x32
    Cert.KernelIdeal.Gen.shapeCasts_S16_S1x16 Cert.KernelIdeal.Gen.shapeCasts_S1_S1x1]
  rw [ex1, ex2, e24, e25, e26, e27, e28, e29, e30, e31]
  rfl

end Cert.Bridge

end
-- ==== Proof.StageKeep.lean ====
/-
  A stretch of host operations keeps the contents of every buffer it does not write: the few instances the read-out needs
  (the pooled node features wait for the last region while the two-set branch runs).
-/
import proofs.«133701_j46024869544456_1_alg».proof.Proof.Gen.KernelIdeal.Launch
import proofs.«133701_j46024869544456_1_alg».proof.Proof.RefOps
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

set_option maxHeartbeats 4000000 in
theorem keepK_x1_11 (VK : Valuation Cert.KernelIdeal.τ Cert.KernelIdeal.sig (Elt Ideal)) :
    (after Cert.KernelIdeal.Gen.hostOps11 VK) (Proc.devRef .tc Cert.KernelIdeal.main_v317) = VK (Proc.devRef .tc Cert.KernelIdeal.main_v317) := by
  simp only [Cert.KernelIdeal.Gen.hostOps11]
  after_results_simp

set_option maxHeartbeats 4000000 in
theorem keepK_x1_12 (VK : Valuation Cert.KernelIdeal.τ Cert.KernelIdeal.sig (Elt Ideal)) :
    (after Cert.KernelIdeal.Gen.hostOps12 VK) (Proc.devRef .tc Cert.KernelIdeal.main_v317) = VK (Proc.devRef .tc Cert.KernelIdeal.main_v317) := by
  simp only [Cert.KernelIdeal.Gen.hostOps12]
  after_results_simp

set_option maxHeartbeats 4000000 in
theorem keepR_x1 (VR : Valuation Cert.ReferenceIdeal.τ Cert.ReferenceIdeal.sig (Elt Ideal)) :
    (after Cert.ReferenceIdeal.Hand.q35 (after Cert.ReferenceIdeal.Hand.q34 (after Cert.ReferenceIdeal.Hand.q33 (after Cert.ReferenceIdeal.Hand.q32 (after Cert.ReferenceIdeal.Hand.q31 (after Cert.ReferenceIdeal.Hand.q30 (after Cert.ReferenceIdeal.Hand.q29 VR))))))) (Proc.devRef .tc Cert.ReferenceIdeal.main_v401) = VR (Proc.devRef .tc Cert.ReferenceIdeal.main_v401) := by
  simp only [Cert.ReferenceIdeal.Hand.q29, Cert.ReferenceIdeal.Hand.q30, Cert.ReferenceIdeal.Hand.q31, Cert.ReferenceIdeal.Hand.q32, Cert.ReferenceIdeal.Hand.q33, Cert.ReferenceIdeal.Hand.q34, Cert.ReferenceIdeal.Hand.q35]
  after_results_simp

set_option maxHeartbeats 4000000 in
theorem keepR_xp_q31 (VR : Valuation Cert.ReferenceIdeal.τ Cert.ReferenceIdeal.sig (Elt Ideal)) :
    (after Cert.ReferenceIdeal.Hand.q31 VR) (Proc.devRef .tc Cert.ReferenceIdeal.main_v425) = VR (Proc.devRef .tc Cert.ReferenceIdeal.main_v425) := by
  simp only [Cert.ReferenceIdeal.Hand.q31]
  after_results_simp

set_option maxHeartbeats 4000000 in
theorem keepR_z1_q33 (VR : Valuation Cert.ReferenceIdeal.τ Cert.ReferenceIdeal.sig (Elt Ideal)) :
    (after Cert.ReferenceIdeal.Hand.q33 VR) (Proc.devRef .tc Cert.ReferenceIdeal.main_v446) = VR (Proc.devRef .tc Cert.ReferenceIdeal.main_v446) := by
  simp only [Cert.ReferenceIdeal.Hand.q33]
  after_results_simp

set_option maxHeartbeats 4000000 in
/-- The last stretch flattens the read-out's column into the result vector. -/
theorem resultK (VK : Valuation Cert.KernelIdeal.τ Cert.KernelIdeal.sig (Elt Ideal)) :
    after Cert.KernelIdeal.Gen.hostOps13 VK (Proc.devRef .tc Cert.KernelIdeal.main_v391) = shapeCast Cert.KernelIdeal.S256 (VK (Proc.devRef .tc Cert.KernelIdeal.main_v390)) Cert.KernelIdeal.Gen.shapeCasts_S256x1_S256 := by
  simp only [Cert.KernelIdeal.Gen.hostOps13]
  after_results_simp
  rfl

end Cert.Bridge

end
-- ==== Proof.ValGinMlpRow.lean ====
/-
  The perceptron of a row reads only that row of its first argument: two arrays that agree on a row — possibly of
  different heights, at different row numbers — with the same weights and biases have the same perceptron on that row.
-/
import proofs.«133701_j46024869544456_1_alg».proof.Proof.ValGinMlp

noncomputable section

open scoped BigOperators

namespace Cert.KernelIdeal.Val

open Idealize.ShloMosaic Idealize.ShloMosaic.ValueIdx

theorem ginMlpAt_congr {n n' : Nat} {a : (⟨2, ![n, 64]⟩ : Shape).Idx → EReal} {a' : (⟨2, ![n', 64]⟩ : Shape).Idx → EReal}
    {w1 w1' : (⟨2, ![64, 128]⟩ : Shape).Idx → EReal} {b1 b1' : (⟨2, ![1, 128]⟩ : Shape).Idx → EReal}
    {w2 w2' : (⟨2, ![128, 64]⟩ : Shape).Idx → EReal} {b2 b2' : (⟨2, ![1, 64]⟩ : Shape).Idx → EReal}
    {p : Fin n} {p' : Fin n'} {q q' : Fin 64}
    (ha : ∀ j : Fin 64, a (ix2 p j) = a' (ix2 p' j)) (h1 : w1 = w1') (h2 : b1 = b1') (h3 : w2 = w2') (h4 : b2 = b2')
    (hq : q = q') :
    ginMlpAt a w1 b1 w2 b2 p q = ginMlpAt a' w1' b1' w2' b2' p' q' := by
  subst h1 h2 h3 h4 hq
  unfold ginMlpAt
  simp only [ha]

end Cert.KernelIdeal.Val

end
-- ==== Proof.ValGinMlp0.lean ====
/-
  Region 0 (a two-layer perceptron over row blocks): the array its output window ends holding is the perceptron of
  the arrays its input windows read, row by row. Each grid point t writes rows [6400 t, 6400 t + 6400) — the block of
  the whole-array function at t, because the perceptron of a row only reads that row of the first input and the other
  four inputs whole — and the eight blocks cover the 51200 rows.
-/
import proofs.«133701_j46024869544456_1_alg».proof.Proof.FrameKI
import Idealize.ShloMosaic.Lib.Pipeline.Value
import proofs.«133701_j46024869544456_1_alg».proof.Proof.ValGinMlpRow

set_option maxHeartbeats 1000000
set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff0 : (![0, 0] : Fin 2 → Nat) = fun _ => 0 := funext fun a => by fin_cases a <;> rfl

/-- The output's block index along the rows at point t is t (decided over the eight points). -/
theorem idx_row0 : ∀ t : Fin cfg0.N, win0_5.index t (0 : Fin 2) = t.val :=
  (by decide +kernel : ∀ t : Fin grid0.N, _)

/-- The printed index maps: the first input and the output move down the rows together, one block per point (their
    maps are the same term); every other window stays on its one block (its map is constant). -/
theorem idx_facts0 (t : Fin cfg0.N) :
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  ⟨idx_row0 t, rfl, (show win0_0.index t (0 : Fin 2) = win0_5.index t (0 : Fin 2) from rfl).trans (idx_row0 t), rfl,
    rfl, rfl, rfl, rfl, rfl, rfl, rfl, rfl⟩

/-- Entry (p, j) of the first input's block at point t is the array's entry at the row the output's block puts p on. -/
theorem blk_rows0 (c : Dev nD) (t : Fin cfg0.N) (y : S6400x64.Idx) (j : Fin 64) :
    iblk0 V c 0 t (ix2 (y 0 : Fin 6400) j)
      = V c (Pipeline.arrRef spec0 0) (ix2 ((((cfg0.win 5).blk t).view.emb y) 0 : Fin 51200) j) := by
  obtain ⟨e50, e51, e00, e01, -⟩ := idx_facts0 t
  show V c (Pipeline.arrRef spec0 0) (((cfg0.win 0).blk t).view.emb (ix2 (y 0 : Fin 6400) j)) = _
  refine congrArg _ (funext fun a => Fin.ext ?_)
  match a with
  | ⟨0, _⟩ =>
    show win0_0.index t (0 : Fin 2) * 6400 + 1 * (y 0).val = win0_5.index t (0 : Fin 2) * 6400 + 1 * (y 0).val
    omega
  | ⟨1, _⟩ =>
    show win0_0.index t (1 : Fin 2) * 64 + 1 * j.val = j.val
    omega

/-- The second input's one block is its whole array. -/
theorem blk_whole0_1 (c : Dev nD) (t : Fin cfg0.N) : iblk0 V c 1 t = V c (Pipeline.arrRef spec0 1) := by
  obtain ⟨-, -, -, -, e0, e1, -⟩ := idx_facts0 t
  funext z
  show V c (Pipeline.arrRef spec0 1) (((cfg0.win 1).blk t).view.emb z) = _
  refine congrArg _ (funext fun a => Fin.ext ?_)
  match a with
  | ⟨0, _⟩ => show win0_1.index t (0 : Fin 2) * 64 + 1 * (z 0).val = (z 0).val; omega
  | ⟨1, _⟩ => show win0_1.index t (1 : Fin 2) * 128 + 1 * (z 1).val = (z 1).val; omega

/-- The third input's one block is its whole array. -/
theorem blk_whole0_2 (c : Dev nD) (t : Fin cfg0.N) : iblk0 V c 2 t = V c (Pipeline.arrRef spec0 2) := by
  obtain ⟨-, -, -, -, -, -, e0, e1, -⟩ := idx_facts0 t
  funext z
  show V c (Pipeline.arrRef spec0 2) (((cfg0.win 2).blk t).view.emb z) = _
  refine congrArg _ (funext fun a => Fin.ext ?_)
  match a with
  | ⟨0, _⟩ => show win0_2.index t (0 : Fin 2) * 1 + 1 * (z 0).val = (z 0).val; omega
  | ⟨1, _⟩ => show win0_2.index t (1 : Fin 2) * 128 + 1 * (z 1).val = (z 1).val; omega

/-- The fourth input's one block is its whole array. -/
theorem blk_whole0_3 (c : Dev nD) (t : Fin cfg0.N) : iblk0 V c 3 t = V c (Pipeline.arrRef spec0 3) := by
  obtain ⟨-, -, -, -, -, -, -, -, e0, e1, -⟩ := idx_facts0 t
  funext z
  show V c (Pipeline.arrRef spec0 3) (((cfg0.win 3).blk t).view.emb z) = _
  refine congrArg _ (funext fun a => Fin.ext ?_)
  match a with
  | ⟨0, _⟩ => show win0_3.index t (0 : Fin 2) * 128 + 1 * (z 0).val = (z 0).val; omega
  | ⟨1, _⟩ => show win0_3.index t (1 : Fin 2) * 64 + 1 * (z 1).val = (z 1).val; omega

/-- The fifth input's one block is its whole array. -/
theorem blk_whole0_4 (c : Dev nD) (t : Fin cfg0.N) : iblk0 V c 4 t = V c (Pipeline.arrRef spec0 4) := by
  obtain ⟨-, -, -, -, -, -, -, -, -, -, e0, e1⟩ := idx_facts0 t
  funext z
  show V c (Pipeline.arrRef spec0 4) (((cfg0.win 4).blk t).view.emb z) = _
  refine congrArg _ (funext fun a => Fin.ext ?_)
  match a with
  | ⟨0, _⟩ => show win0_4.index t (0 : Fin 2) * 1 + 1 * (z 0).val = (z 0).val; omega
  | ⟨1, _⟩ => show win0_4.index t (1 : Fin 2) * 64 + 1 * (z 1).val = (z 1).val; omega

/-- The column of an output block's entry is its column in the array. -/
theorem blk_col0 (t : Fin cfg0.N) (y : S6400x64.Idx) :
    ((((cfg0.win 5).blk t).view.emb y) 1 : Fin 64) = (y 1 : Fin 64) := by
  obtain ⟨-, e51, -⟩ := idx_facts0 t
  refine Fin.ext ?_
  show win0_5.index t (1 : Fin 2) * 64 + 1 * (y 1).val = (y 1).val
  omega

/-- What the body leaves in the output's buffer at point t: the perceptron of the five blocks it loads. -/
theorem left0_eq (c : Dev nD) (t : Fin cfg0.N) :
    (dat0 (F := Ideal) V c).after 5 t
      = ginMlp 6400 (iblk0 V c 0 t) (iblk0 V c 1 t) (iblk0 V c 2 t) (iblk0 V c 3 t) (iblk0 V c 4 t) := by
  rw [after0_5]
  unfold out0_5
  rw [View.canon_unit_zero zeroOff0]
  simp only [View.ld_unit_zero (S := S6400x64) zeroOff0, View.ld_unit_zero (S := S64x128) zeroOff0,
    View.ld_unit_zero (S := S1x128) zeroOff0, View.ld_unit_zero (S := S128x64) zeroOff0,
    View.ld_unit_zero (S := S1x64) zeroOff0]
  exact k0_pay1_eq _ _ _ _ _

/-- The perceptron of point t's blocks, at an entry of the output's block, is the perceptron of the whole arrays at the
    array's entry under it. -/
theorem at_block0 (c : Dev nD) (t : Fin cfg0.N) (y : S6400x64.Idx) :
    ginMlp 6400 (iblk0 V c 0 t) (iblk0 V c 1 t) (iblk0 V c 2 t) (iblk0 V c 3 t) (iblk0 V c 4 t) y
      = ginMlp 51200 (V c (Pipeline.arrRef spec0 0)) (V c (Pipeline.arrRef spec0 1)) (V c (Pipeline.arrRef spec0 2))
          (V c (Pipeline.arrRef spec0 3)) (V c (Pipeline.arrRef spec0 4)) (((cfg0.win 5).blk t).view.emb y) :=
  ginMlpAt_congr (n := 6400) (n' := 51200) (blk_rows0 V c t y) (blk_whole0_1 V c t) (blk_whole0_2 V c t)
    (blk_whole0_3 V c t) (blk_whole0_4 V c t) (blk_col0 t y).symm

/-- What point t writes back is block t of the perceptron of the arrays the region finds. -/
theorem flushed0_eq (c : Dev nD) (t : Fin cfg0.N) :
    (dat0 (F := Ideal) V c).flushed 5 t
      = ((cfg0.win 5).blk t).view.read (Elt Ideal)
          (ginMlp 51200 (V c (Pipeline.arrRef spec0 0)) (V c (Pipeline.arrRef spec0 1)) (V c (Pipeline.arrRef spec0 2))
            (V c (Pipeline.arrRef spec0 3)) (V c (Pipeline.arrRef spec0 4))) := by
  show (cfg0.win 5).cut (grid0.coords t) ((dat0 V c).after 5 t) = _
  rw [left0_eq]
  exact funext fun y => at_block0 V c t y

/-- An index of the array is in point t's block iff each coordinate is in the block's range on its axis. -/
theorem mem_blk0 (t : Fin cfg0.N) (i : S51200x64.Idx) :
    i ∈ ((cfg0.win 5).blk t).view.set ↔ ∀ a : Fin 2, win0_5.index t a * S6400x64.size a ≤ (i a).val
      ∧ (i a).val < win0_5.index t a * S6400x64.size a + S6400x64.size a := by
  show i ∈ ((View.whole main_v60).slice (win0_5.rect t)).set ↔ _
  rw [View.set_slice_whole, Rect.mem_set_unit]
  exact Iff.rfl

/-- Every row is in the block of the point its number divided by 6400 names. -/
theorem cover0 (i : S51200x64.Idx) :
    ∃ t : Fin cfg0.N, (cfg0.win 5).flush t = true ∧ i ∈ ((cfg0.win 5).blk t).view.set := by
  have hi0 : (i 0).val < 51200 := (i 0).isLt
  have hi1 : (i 1).val < 64 := (i 1).isLt
  have hN : cfg0.N = 8 := N_0
  let t : Fin cfg0.N := ⟨(i 0).val / 6400, by rw [hN]; omega⟩
  obtain ⟨e50, e51, -⟩ := idx_facts0 t
  have ht : t.val = (i 0).val / 6400 := rfl
  refine ⟨t, flush0_5 t, ?_⟩
  rw [mem_blk0]
  intro a
  match a with
  | ⟨0, _⟩ =>
    show win0_5.index t (0 : Fin 2) * 6400 ≤ (i 0).val ∧ (i 0).val < win0_5.index t (0 : Fin 2) * 6400 + 6400
    omega
  | ⟨1, _⟩ =>
    show win0_5.index t (1 : Fin 2) * 64 ≤ (i 1).val ∧ (i 1).val < win0_5.index t (1 : Fin 2) * 64 + 64
    omega

/-- The array the output window ends holding: the perceptron of the arrays the input windows read. -/
theorem final0 (c : Dev nD) :
    (dat0 (F := Ideal) V c).arrAt 5 cfg0.N
      = ginMlp 51200 (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed0_eq V c t) (cover0)

end Cert.KernelIdeal.Val

end
-- ==== Proof.ValGinMlp2.lean ====
/-
  Region 2 (a two-layer perceptron over row blocks): the array its output window ends holding is the perceptron of
  the arrays its input windows read, row by row. Each grid point t writes rows [6400 t, 6400 t + 6400) — the block of
  the whole-array function at t, because the perceptron of a row only reads that row of the first input and the other
  four inputs whole — and the eight blocks cover the 51200 rows.
-/
import proofs.«133701_j46024869544456_1_alg».proof.Proof.FrameKI
import Idealize.ShloMosaic.Lib.Pipeline.Value
import proofs.«133701_j46024869544456_1_alg».proof.Proof.ValGinMlpRow

set_option maxHeartbeats 1000000
set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- The output's block index along the rows at point t is t (decided over the eight points). -/
theorem idx_row2 : ∀ t : Fin cfg2.N, win2_5.index t (0 : Fin 2) = t.val :=
  (by decide +kernel : ∀ t : Fin grid2.N, _)

/-- The printed index maps: the first input and the output move down the rows together, one block per point (their
    maps are the same term); every other window stays on its one block (its map is constant). -/
theorem idx_facts2 (t : Fin cfg2.N) :
    win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  ⟨idx_row2 t, rfl, (show win2_0.index t (0 : Fin 2) = win2_5.index t (0 : Fin 2) from rfl).trans (idx_row2 t), rfl,
    rfl, rfl, rfl, rfl, rfl, rfl, rfl, rfl⟩

/-- Entry (p, j) of the first input's block at point t is the array's entry at the row the output's block puts p on. -/
theorem blk_rows2 (c : Dev nD) (t : Fin cfg2.N) (y : S6400x64.Idx) (j : Fin 64) :
    iblk2 V c 0 t (ix2 (y 0 : Fin 6400) j)
      = V c (Pipeline.arrRef spec2 0) (ix2 ((((cfg2.win 5).blk t).view.emb y) 0 : Fin 51200) j) := by
  obtain ⟨e50, e51, e00, e01, -⟩ := idx_facts2 t
  show V c (Pipeline.arrRef spec2 0) (((cfg2.win 0).blk t).view.emb (ix2 (y 0 : Fin 6400) j)) = _
  refine congrArg _ (funext fun a => Fin.ext ?_)
  match a with
  | ⟨0, _⟩ =>
    show win2_0.index t (0 : Fin 2) * 6400 + 1 * (y 0).val = win2_5.index t (0 : Fin 2) * 6400 + 1 * (y 0).val
    omega
  | ⟨1, _⟩ =>
    show win2_0.index t (1 : Fin 2) * 64 + 1 * j.val = j.val
    omega

/-- The second input's one block is its whole array. -/
theorem blk_whole2_1 (c : Dev nD) (t : Fin cfg2.N) : iblk2 V c 1 t = V c (Pipeline.arrRef spec2 1) := by
  obtain ⟨-, -, -, -, e0, e1, -⟩ := idx_facts2 t
  funext z
  show V c (Pipeline.arrRef spec2 1) (((cfg2.win 1).blk t).view.emb z) = _
  refine congrArg _ (funext fun a => Fin.ext ?_)
  match a with
  | ⟨0, _⟩ => show win2_1.index t (0 : Fin 2) * 64 + 1 * (z 0).val = (z 0).val; omega
  | ⟨1, _⟩ => show win2_1.index t (1 : Fin 2) * 128 + 1 * (z 1).val = (z 1).val; omega

/-- The third input's one block is its whole array. -/
theorem blk_whole2_2 (c : Dev nD) (t : Fin cfg2.N) : iblk2 V c 2 t = V c (Pipeline.arrRef spec2 2) := by
  obtain ⟨-, -, -, -, -, -, e0, e1, -⟩ := idx_facts2 t
  funext z
  show V c (Pipeline.arrRef spec2 2) (((cfg2.win 2).blk t).view.emb z) = _
  refine congrArg _ (funext fun a => Fin.ext ?_)
  match a with
  | ⟨0, _⟩ => show win2_2.index t (0 : Fin 2) * 1 + 1 * (z 0).val = (z 0).val; omega
  | ⟨1, _⟩ => show win2_2.index t (1 : Fin 2) * 128 + 1 * (z 1).val = (z 1).val; omega

/-- The fourth input's one block is its whole array. -/
theorem blk_whole2_3 (c : Dev nD) (t : Fin cfg2.N) : iblk2 V c 3 t = V c (Pipeline.arrRef spec2 3) := by
  obtain ⟨-, -, -, -, -, -, -, -, e0, e1, -⟩ := idx_facts2 t
  funext z
  show V c (Pipeline.arrRef spec2 3) (((cfg2.win 3).blk t).view.emb z) = _
  refine congrArg _ (funext fun a => Fin.ext ?_)
  match a with
  | ⟨0, _⟩ => show win2_3.index t (0 : Fin 2) * 128 + 1 * (z 0).val = (z 0).val; omega
  | ⟨1, _⟩ => show win2_3.index t (1 : Fin 2) * 64 + 1 * (z 1).val = (z 1).val; omega

/-- The fifth input's one block is its whole array. -/
theorem blk_whole2_4 (c : Dev nD) (t : Fin cfg2.N) : iblk2 V c 4 t = V c (Pipeline.arrRef spec2 4) := by
  obtain ⟨-, -, -, -, -, -, -, -, -, -, e0, e1⟩ := idx_facts2 t
  funext z
  show V c (Pipeline.arrRef spec2 4) (((cfg2.win 4).blk t).view.emb z) = _
  refine congrArg _ (funext fun a => Fin.ext ?_)
  match a with
  | ⟨0, _⟩ => show win2_4.index t (0 : Fin 2) * 1 + 1 * (z 0).val = (z 0).val; omega
  | ⟨1, _⟩ => show win2_4.index t (1 : Fin 2) * 64 + 1 * (z 1).val = (z 1).val; omega

/-- The column of an output block's entry is its column in the array. -/
theorem blk_col2 (t : Fin cfg2.N) (y : S6400x64.Idx) :
    ((((cfg2.win 5).blk t).view.emb y) 1 : Fin 64) = (y 1 : Fin 64) := by
  obtain ⟨-, e51, -⟩ := idx_facts2 t
  refine Fin.ext ?_
  show win2_5.index t (1 : Fin 2) * 64 + 1 * (y 1).val = (y 1).val
  omega

/-- What the body leaves in the output's buffer at point t: the perceptron of the five blocks it loads. -/
theorem left2_eq (c : Dev nD) (t : Fin cfg2.N) :
    (dat2 (F := Ideal) V c).after 5 t
      = ginMlp 6400 (iblk2 V c 0 t) (iblk2 V c 1 t) (iblk2 V c 2 t) (iblk2 V c 3 t) (iblk2 V c 4 t) := by
  rw [after2_5]
  unfold out2_5
  rw [View.canon_unit_zero zeroOff2]
  simp only [View.ld_unit_zero (S := S6400x64) zeroOff2, View.ld_unit_zero (S := S64x128) zeroOff2,
    View.ld_unit_zero (S := S1x128) zeroOff2, View.ld_unit_zero (S := S128x64) zeroOff2,
    View.ld_unit_zero (S := S1x64) zeroOff2]
  exact k2_pay1_eq _ _ _ _ _

/-- The perceptron of point t's blocks, at an entry of the output's block, is the perceptron of the whole arrays at the
    array's entry under it. -/
theorem at_block2 (c : Dev nD) (t : Fin cfg2.N) (y : S6400x64.Idx) :
    ginMlp 6400 (iblk2 V c 0 t) (iblk2 V c 1 t) (iblk2 V c 2 t) (iblk2 V c 3 t) (iblk2 V c 4 t) y
      = ginMlp 51200 (V c (Pipeline.arrRef spec2 0)) (V c (Pipeline.arrRef spec2 1)) (V c (Pipeline.arrRef spec2 2))
          (V c (Pipeline.arrRef spec2 3)) (V c (Pipeline.arrRef spec2 4)) (((cfg2.win 5).blk t).view.emb y) :=
  ginMlpAt_congr (n := 6400) (n' := 51200) (blk_rows2 V c t y) (blk_whole2_1 V c t) (blk_whole2_2 V c t)
    (blk_whole2_3 V c t) (blk_whole2_4 V c t) (blk_col2 t y).symm

/-- What point t writes back is block t of the perceptron of the arrays the region finds. -/
theorem flushed2_eq (c : Dev nD) (t : Fin cfg2.N) :
    (dat2 (F := Ideal) V c).flushed 5 t
      = ((cfg2.win 5).blk t).view.read (Elt Ideal)
          (ginMlp 51200 (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((dat2 V c).after 5 t) = _
  rw [left2_eq]
  exact funext fun y => at_block2 V c t y

/-- An index of the array is in point t's block iff each coordinate is in the block's range on its axis. -/
theorem mem_blk2 (t : Fin cfg2.N) (i : S51200x64.Idx) :
    i ∈ ((cfg2.win 5).blk t).view.set ↔ ∀ a : Fin 2, win2_5.index t a * S6400x64.size a ≤ (i a).val
      ∧ (i a).val < win2_5.index t a * S6400x64.size a + S6400x64.size a := by
  show i ∈ ((View.whole main_v118).slice (win2_5.rect t)).set ↔ _
  rw [View.set_slice_whole, Rect.mem_set_unit]
  exact Iff.rfl

/-- Every row is in the block of the point its number divided by 6400 names. -/
theorem cover2 (i : S51200x64.Idx) :
    ∃ t : Fin cfg2.N, (cfg2.win 5).flush t = true ∧ i ∈ ((cfg2.win 5).blk t).view.set := by
  have hi0 : (i 0).val < 51200 := (i 0).isLt
  have hi1 : (i 1).val < 64 := (i 1).isLt
  have hN : cfg2.N = 8 := N_2
  let t : Fin cfg2.N := ⟨(i 0).val / 6400, by rw [hN]; omega⟩
  obtain ⟨e50, e51, -⟩ := idx_facts2 t
  have ht : t.val = (i 0).val / 6400 := rfl
  refine ⟨t, flush2_5 t, ?_⟩
  rw [mem_blk2]
  intro a
  match a with
  | ⟨0, _⟩ =>
    show win2_5.index t (0 : Fin 2) * 6400 ≤ (i 0).val ∧ (i 0).val < win2_5.index t (0 : Fin 2) * 6400 + 6400
    omega
  | ⟨1, _⟩ =>
    show win2_5.index t (1 : Fin 2) * 64 ≤ (i 1).val ∧ (i 1).val < win2_5.index t (1 : Fin 2) * 64 + 64
    omega

/-- The array the output window ends holding: the perceptron of the arrays the input windows read. -/
theorem final2 (c : Dev nD) :
    (dat2 (F := Ideal) V c).arrAt 5 cfg2.N
      = ginMlp 51200 (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed2_eq V c t) (cover2)

end Cert.KernelIdeal.Val

end
-- ==== Proof.ValGinMlp4.lean ====
/-
  Region 4 (a two-layer perceptron over row blocks): the array its output window ends holding is the perceptron of
  the arrays its input windows read, row by row. Each grid point t writes rows [6400 t, 6400 t + 6400) — the block of
  the whole-array function at t, because the perceptron of a row only reads that row of the first input and the other
  four inputs whole — and the eight blocks cover the 51200 rows.
-/
import proofs.«133701_j46024869544456_1_alg».proof.Proof.FrameKI
import Idealize.ShloMosaic.Lib.Pipeline.Value
import proofs.«133701_j46024869544456_1_alg».proof.Proof.ValGinMlpRow

set_option maxHeartbeats 1000000
set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The output's block index along the rows at point t is t (decided over the eight points). -/
theorem idx_row4 : ∀ t : Fin cfg4.N, win4_5.index t (0 : Fin 2) = t.val :=
  (by decide +kernel : ∀ t : Fin grid4.N, _)

/-- The printed index maps: the first input and the output move down the rows together, one block per point (their
    maps are the same term); every other window stays on its one block (its map is constant). -/
theorem idx_facts4 (t : Fin cfg4.N) :
    win4_5.index t (0 : Fin 2) = t.val ∧ win4_5.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  ⟨idx_row4 t, rfl, (show win4_0.index t (0 : Fin 2) = win4_5.index t (0 : Fin 2) from rfl).trans (idx_row4 t), rfl,
    rfl, rfl, rfl, rfl, rfl, rfl, rfl, rfl⟩

/-- Entry (p, j) of the first input's block at point t is the array's entry at the row the output's block puts p on. -/
theorem blk_rows4 (c : Dev nD) (t : Fin cfg4.N) (y : S6400x64.Idx) (j : Fin 64) :
    iblk4 V c 0 t (ix2 (y 0 : Fin 6400) j)
      = V c (Pipeline.arrRef spec4 0) (ix2 ((((cfg4.win 5).blk t).view.emb y) 0 : Fin 51200) j) := by
  obtain ⟨e50, e51, e00, e01, -⟩ := idx_facts4 t
  show V c (Pipeline.arrRef spec4 0) (((cfg4.win 0).blk t).view.emb (ix2 (y 0 : Fin 6400) j)) = _
  refine congrArg _ (funext fun a => Fin.ext ?_)
  match a with
  | ⟨0, _⟩ =>
    show win4_0.index t (0 : Fin 2) * 6400 + 1 * (y 0).val = win4_5.index t (0 : Fin 2) * 6400 + 1 * (y 0).val
    omega
  | ⟨1, _⟩ =>
    show win4_0.index t (1 : Fin 2) * 64 + 1 * j.val = j.val
    omega

/-- The second input's one block is its whole array. -/
theorem blk_whole4_1 (c : Dev nD) (t : Fin cfg4.N) : iblk4 V c 1 t = V c (Pipeline.arrRef spec4 1) := by
  obtain ⟨-, -, -, -, e0, e1, -⟩ := idx_facts4 t
  funext z
  show V c (Pipeline.arrRef spec4 1) (((cfg4.win 1).blk t).view.emb z) = _
  refine congrArg _ (funext fun a => Fin.ext ?_)
  match a with
  | ⟨0, _⟩ => show win4_1.index t (0 : Fin 2) * 64 + 1 * (z 0).val = (z 0).val; omega
  | ⟨1, _⟩ => show win4_1.index t (1 : Fin 2) * 128 + 1 * (z 1).val = (z 1).val; omega

/-- The third input's one block is its whole array. -/
theorem blk_whole4_2 (c : Dev nD) (t : Fin cfg4.N) : iblk4 V c 2 t = V c (Pipeline.arrRef spec4 2) := by
  obtain ⟨-, -, -, -, -, -, e0, e1, -⟩ := idx_facts4 t
  funext z
  show V c (Pipeline.arrRef spec4 2) (((cfg4.win 2).blk t).view.emb z) = _
  refine congrArg _ (funext fun a => Fin.ext ?_)
  match a with
  | ⟨0, _⟩ => show win4_2.index t (0 : Fin 2) * 1 + 1 * (z 0).val = (z 0).val; omega
  | ⟨1, _⟩ => show win4_2.index t (1 : Fin 2) * 128 + 1 * (z 1).val = (z 1).val; omega

/-- The fourth input's one block is its whole array. -/
theorem blk_whole4_3 (c : Dev nD) (t : Fin cfg4.N) : iblk4 V c 3 t = V c (Pipeline.arrRef spec4 3) := by
  obtain ⟨-, -, -, -, -, -, -, -, e0, e1, -⟩ := idx_facts4 t
  funext z
  show V c (Pipeline.arrRef spec4 3) (((cfg4.win 3).blk t).view.emb z) = _
  refine congrArg _ (funext fun a => Fin.ext ?_)
  match a with
  | ⟨0, _⟩ => show win4_3.index t (0 : Fin 2) * 128 + 1 * (z 0).val = (z 0).val; omega
  | ⟨1, _⟩ => show win4_3.index t (1 : Fin 2) * 64 + 1 * (z 1).val = (z 1).val; omega

/-- The fifth input's one block is its whole array. -/
theorem blk_whole4_4 (c : Dev nD) (t : Fin cfg4.N) : iblk4 V c 4 t = V c (Pipeline.arrRef spec4 4) := by
  obtain ⟨-, -, -, -, -, -, -, -, -, -, e0, e1⟩ := idx_facts4 t
  funext z
  show V c (Pipeline.arrRef spec4 4) (((cfg4.win 4).blk t).view.emb z) = _
  refine congrArg _ (funext fun a => Fin.ext ?_)
  match a with
  | ⟨0, _⟩ => show win4_4.index t (0 : Fin 2) * 1 + 1 * (z 0).val = (z 0).val; omega
  | ⟨1, _⟩ => show win4_4.index t (1 : Fin 2) * 64 + 1 * (z 1).val = (z 1).val; omega

/-- The column of an output block's entry is its column in the array. -/
theorem blk_col4 (t : Fin cfg4.N) (y : S6400x64.Idx) :
    ((((cfg4.win 5).blk t).view.emb y) 1 : Fin 64) = (y 1 : Fin 64) := by
  obtain ⟨-, e51, -⟩ := idx_facts4 t
  refine Fin.ext ?_
  show win4_5.index t (1 : Fin 2) * 64 + 1 * (y 1).val = (y 1).val
  omega

/-- What the body leaves in the output's buffer at point t: the perceptron of the five blocks it loads. -/
theorem left4_eq (c : Dev nD) (t : Fin cfg4.N) :
    (dat4 (F := Ideal) V c).after 5 t
      = ginMlp 6400 (iblk4 V c 0 t) (iblk4 V c 1 t) (iblk4 V c 2 t) (iblk4 V c 3 t) (iblk4 V c 4 t) := by
  rw [after4_5]
  unfold out4_5
  rw [View.canon_unit_zero zeroOff4]
  simp only [View.ld_unit_zero (S := S6400x64) zeroOff4, View.ld_unit_zero (S := S64x128) zeroOff4,
    View.ld_unit_zero (S := S1x128) zeroOff4, View.ld_unit_zero (S := S128x64) zeroOff4,
    View.ld_unit_zero (S := S1x64) zeroOff4]
  exact k4_pay1_eq _ _ _ _ _

/-- The perceptron of point t's blocks, at an entry of the output's block, is the perceptron of the whole arrays at the
    array's entry under it. -/
theorem at_block4 (c : Dev nD) (t : Fin cfg4.N) (y : S6400x64.Idx) :
    ginMlp 6400 (iblk4 V c 0 t) (iblk4 V c 1 t) (iblk4 V c 2 t) (iblk4 V c 3 t) (iblk4 V c 4 t) y
      = ginMlp 51200 (V c (Pipeline.arrRef spec4 0)) (V c (Pipeline.arrRef spec4 1)) (V c (Pipeline.arrRef spec4 2))
          (V c (Pipeline.arrRef spec4 3)) (V c (Pipeline.arrRef spec4 4)) (((cfg4.win 5).blk t).view.emb y) :=
  ginMlpAt_congr (n := 6400) (n' := 51200) (blk_rows4 V c t y) (blk_whole4_1 V c t) (blk_whole4_2 V c t)
    (blk_whole4_3 V c t) (blk_whole4_4 V c t) (blk_col4 t y).symm

/-- What point t writes back is block t of the perceptron of the arrays the region finds. -/
theorem flushed4_eq (c : Dev nD) (t : Fin cfg4.N) :
    (dat4 (F := Ideal) V c).flushed 5 t
      = ((cfg4.win 5).blk t).view.read (Elt Ideal)
          (ginMlp 51200 (V c (Pipeline.arrRef spec4 0)) (V c (Pipeline.arrRef spec4 1)) (V c (Pipeline.arrRef spec4 2))
            (V c (Pipeline.arrRef spec4 3)) (V c (Pipeline.arrRef spec4 4))) := by
  show (cfg4.win 5).cut (grid4.coords t) ((dat4 V c).after 5 t) = _
  rw [left4_eq]
  exact funext fun y => at_block4 V c t y

/-- An index of the array is in point t's block iff each coordinate is in the block's range on its axis. -/
theorem mem_blk4 (t : Fin cfg4.N) (i : S51200x64.Idx) :
    i ∈ ((cfg4.win 5).blk t).view.set ↔ ∀ a : Fin 2, win4_5.index t a * S6400x64.size a ≤ (i a).val
      ∧ (i a).val < win4_5.index t a * S6400x64.size a + S6400x64.size a := by
  show i ∈ ((View.whole main_v176).slice (win4_5.rect t)).set ↔ _
  rw [View.set_slice_whole, Rect.mem_set_unit]
  exact Iff.rfl

/-- Every row is in the block of the point its number divided by 6400 names. -/
theorem cover4 (i : S51200x64.Idx) :
    ∃ t : Fin cfg4.N, (cfg4.win 5).flush t = true ∧ i ∈ ((cfg4.win 5).blk t).view.set := by
  have hi0 : (i 0).val < 51200 := (i 0).isLt
  have hi1 : (i 1).val < 64 := (i 1).isLt
  have hN : cfg4.N = 8 := N_4
  let t : Fin cfg4.N := ⟨(i 0).val / 6400, by rw [hN]; omega⟩
  obtain ⟨e50, e51, -⟩ := idx_facts4 t
  have ht : t.val = (i 0).val / 6400 := rfl
  refine ⟨t, flush4_5 t, ?_⟩
  rw [mem_blk4]
  intro a
  match a with
  | ⟨0, _⟩ =>
    show win4_5.index t (0 : Fin 2) * 6400 ≤ (i 0).val ∧ (i 0).val < win4_5.index t (0 : Fin 2) * 6400 + 6400
    omega
  | ⟨1, _⟩ =>
    show win4_5.index t (1 : Fin 2) * 64 ≤ (i 1).val ∧ (i 1).val < win4_5.index t (1 : Fin 2) * 64 + 64
    omega

/-- The array the output window ends holding: the perceptron of the arrays the input windows read. -/
theorem final4 (c : Dev nD) :
    (dat4 (F := Ideal) V c).arrAt 5 cfg4.N
      = ginMlp 51200 (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => flushed4_eq V c t) (cover4)

end Cert.KernelIdeal.Val

end
-- ==== Proof.ValGinMlp6.lean ====
/-
  Region 6 (a two-layer perceptron over row blocks): the array its output window ends holding is the perceptron of
  the arrays its input windows read, row by row. Each grid point t writes rows [6400 t, 6400 t + 6400) — the block of
  the whole-array function at t, because the perceptron of a row only reads that row of the first input and the other
  four inputs whole — and the eight blocks cover the 51200 rows.
-/
import proofs.«133701_j46024869544456_1_alg».proof.Proof.FrameKI
import Idealize.ShloMosaic.Lib.Pipeline.Value
import proofs.«133701_j46024869544456_1_alg».proof.Proof.ValGinMlpRow

set_option maxHeartbeats 1000000
set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff6 : (![0, 0] : Fin 2 → Nat) = fun _ => 0 := funext fun a => by fin_cases a <;> rfl

/-- The output's block index along the rows at point t is t (decided over the eight points). -/
theorem idx_row6 : ∀ t : Fin cfg6.N, win6_5.index t (0 : Fin 2) = t.val :=
  (by decide +kernel : ∀ t : Fin grid6.N, _)

/-- The printed index maps: the first input and the output move down the rows together, one block per point (their
    maps are the same term); every other window stays on its one block (its map is constant). -/
theorem idx_facts6 (t : Fin cfg6.N) :
    win6_5.index t (0 : Fin 2) = t.val ∧ win6_5.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  ⟨idx_row6 t, rfl, (show win6_0.index t (0 : Fin 2) = win6_5.index t (0 : Fin 2) from rfl).trans (idx_row6 t), rfl,
    rfl, rfl, rfl, rfl, rfl, rfl, rfl, rfl⟩

/-- Entry (p, j) of the first input's block at point t is the array's entry at the row the output's block puts p on. -/
theorem blk_rows6 (c : Dev nD) (t : Fin cfg6.N) (y : S6400x64.Idx) (j : Fin 64) :
    iblk6 V c 0 t (ix2 (y 0 : Fin 6400) j)
      = V c (Pipeline.arrRef spec6 0) (ix2 ((((cfg6.win 5).blk t).view.emb y) 0 : Fin 51200) j) := by
  obtain ⟨e50, e51, e00, e01, -⟩ := idx_facts6 t
  show V c (Pipeline.arrRef spec6 0) (((cfg6.win 0).blk t).view.emb (ix2 (y 0 : Fin 6400) j)) = _
  refine congrArg _ (funext fun a => Fin.ext ?_)
  match a with
  | ⟨0, _⟩ =>
    show win6_0.index t (0 : Fin 2) * 6400 + 1 * (y 0).val = win6_5.index t (0 : Fin 2) * 6400 + 1 * (y 0).val
    omega
  | ⟨1, _⟩ =>
    show win6_0.index t (1 : Fin 2) * 64 + 1 * j.val = j.val
    omega

/-- The second input's one block is its whole array. -/
theorem blk_whole6_1 (c : Dev nD) (t : Fin cfg6.N) : iblk6 V c 1 t = V c (Pipeline.arrRef spec6 1) := by
  obtain ⟨-, -, -, -, e0, e1, -⟩ := idx_facts6 t
  funext z
  show V c (Pipeline.arrRef spec6 1) (((cfg6.win 1).blk t).view.emb z) = _
  refine congrArg _ (funext fun a => Fin.ext ?_)
  match a with
  | ⟨0, _⟩ => show win6_1.index t (0 : Fin 2) * 64 + 1 * (z 0).val = (z 0).val; omega
  | ⟨1, _⟩ => show win6_1.index t (1 : Fin 2) * 128 + 1 * (z 1).val = (z 1).val; omega

/-- The third input's one block is its whole array. -/
theorem blk_whole6_2 (c : Dev nD) (t : Fin cfg6.N) : iblk6 V c 2 t = V c (Pipeline.arrRef spec6 2) := by
  obtain ⟨-, -, -, -, -, -, e0, e1, -⟩ := idx_facts6 t
  funext z
  show V c (Pipeline.arrRef spec6 2) (((cfg6.win 2).blk t).view.emb z) = _
  refine congrArg _ (funext fun a => Fin.ext ?_)
  match a with
  | ⟨0, _⟩ => show win6_2.index t (0 : Fin 2) * 1 + 1 * (z 0).val = (z 0).val; omega
  | ⟨1, _⟩ => show win6_2.index t (1 : Fin 2) * 128 + 1 * (z 1).val = (z 1).val; omega

/-- The fourth input's one block is its whole array. -/
theorem blk_whole6_3 (c : Dev nD) (t : Fin cfg6.N) : iblk6 V c 3 t = V c (Pipeline.arrRef spec6 3) := by
  obtain ⟨-, -, -, -, -, -, -, -, e0, e1, -⟩ := idx_facts6 t
  funext z
  show V c (Pipeline.arrRef spec6 3) (((cfg6.win 3).blk t).view.emb z) = _
  refine congrArg _ (funext fun a => Fin.ext ?_)
  match a with
  | ⟨0, _⟩ => show win6_3.index t (0 : Fin 2) * 128 + 1 * (z 0).val = (z 0).val; omega
  | ⟨1, _⟩ => show win6_3.index t (1 : Fin 2) * 64 + 1 * (z 1).val = (z 1).val; omega

/-- The fifth input's one block is its whole array. -/
theorem blk_whole6_4 (c : Dev nD) (t : Fin cfg6.N) : iblk6 V c 4 t = V c (Pipeline.arrRef spec6 4) := by
  obtain ⟨-, -, -, -, -, -, -, -, -, -, e0, e1⟩ := idx_facts6 t
  funext z
  show V c (Pipeline.arrRef spec6 4) (((cfg6.win 4).blk t).view.emb z) = _
  refine congrArg _ (funext fun a => Fin.ext ?_)
  match a with
  | ⟨0, _⟩ => show win6_4.index t (0 : Fin 2) * 1 + 1 * (z 0).val = (z 0).val; omega
  | ⟨1, _⟩ => show win6_4.index t (1 : Fin 2) * 64 + 1 * (z 1).val = (z 1).val; omega

/-- The column of an output block's entry is its column in the array. -/
theorem blk_col6 (t : Fin cfg6.N) (y : S6400x64.Idx) :
    ((((cfg6.win 5).blk t).view.emb y) 1 : Fin 64) = (y 1 : Fin 64) := by
  obtain ⟨-, e51, -⟩ := idx_facts6 t
  refine Fin.ext ?_
  show win6_5.index t (1 : Fin 2) * 64 + 1 * (y 1).val = (y 1).val
  omega

/-- What the body leaves in the output's buffer at point t: the perceptron of the five blocks it loads. -/
theorem left6_eq (c : Dev nD) (t : Fin cfg6.N) :
    (dat6 (F := Ideal) V c).after 5 t
      = ginMlp 6400 (iblk6 V c 0 t) (iblk6 V c 1 t) (iblk6 V c 2 t) (iblk6 V c 3 t) (iblk6 V c 4 t) := by
  rw [after6_5]
  unfold out6_5
  rw [View.canon_unit_zero zeroOff6]
  simp only [View.ld_unit_zero (S := S6400x64) zeroOff6, View.ld_unit_zero (S := S64x128) zeroOff6,
    View.ld_unit_zero (S := S1x128) zeroOff6, View.ld_unit_zero (S := S128x64) zeroOff6,
    View.ld_unit_zero (S := S1x64) zeroOff6]
  exact k6_pay1_eq _ _ _ _ _

/-- The perceptron of point t's blocks, at an entry of the output's block, is the perceptron of the whole arrays at the
    array's entry under it. -/
theorem at_block6 (c : Dev nD) (t : Fin cfg6.N) (y : S6400x64.Idx) :
    ginMlp 6400 (iblk6 V c 0 t) (iblk6 V c 1 t) (iblk6 V c 2 t) (iblk6 V c 3 t) (iblk6 V c 4 t) y
      = ginMlp 51200 (V c (Pipeline.arrRef spec6 0)) (V c (Pipeline.arrRef spec6 1)) (V c (Pipeline.arrRef spec6 2))
          (V c (Pipeline.arrRef spec6 3)) (V c (Pipeline.arrRef spec6 4)) (((cfg6.win 5).blk t).view.emb y) :=
  ginMlpAt_congr (n := 6400) (n' := 51200) (blk_rows6 V c t y) (blk_whole6_1 V c t) (blk_whole6_2 V c t)
    (blk_whole6_3 V c t) (blk_whole6_4 V c t) (blk_col6 t y).symm

/-- What point t writes back is block t of the perceptron of the arrays the region finds. -/
theorem flushed6_eq (c : Dev nD) (t : Fin cfg6.N) :
    (dat6 (F := Ideal) V c).flushed 5 t
      = ((cfg6.win 5).blk t).view.read (Elt Ideal)
          (ginMlp 51200 (V c (Pipeline.arrRef spec6 0)) (V c (Pipeline.arrRef spec6 1)) (V c (Pipeline.arrRef spec6 2))
            (V c (Pipeline.arrRef spec6 3)) (V c (Pipeline.arrRef spec6 4))) := by
  show (cfg6.win 5).cut (grid6.coords t) ((dat6 V c).after 5 t) = _
  rw [left6_eq]
  exact funext fun y => at_block6 V c t y

/-- An index of the array is in point t's block iff each coordinate is in the block's range on its axis. -/
theorem mem_blk6 (t : Fin cfg6.N) (i : S51200x64.Idx) :
    i ∈ ((cfg6.win 5).blk t).view.set ↔ ∀ a : Fin 2, win6_5.index t a * S6400x64.size a ≤ (i a).val
      ∧ (i a).val < win6_5.index t a * S6400x64.size a + S6400x64.size a := by
  show i ∈ ((View.whole main_v234).slice (win6_5.rect t)).set ↔ _
  rw [View.set_slice_whole, Rect.mem_set_unit]
  exact Iff.rfl

/-- Every row is in the block of the point its number divided by 6400 names. -/
theorem cover6 (i : S51200x64.Idx) :
    ∃ t : Fin cfg6.N, (cfg6.win 5).flush t = true ∧ i ∈ ((cfg6.win 5).blk t).view.set := by
  have hi0 : (i 0).val < 51200 := (i 0).isLt
  have hi1 : (i 1).val < 64 := (i 1).isLt
  have hN : cfg6.N = 8 := N_6
  let t : Fin cfg6.N := ⟨(i 0).val / 6400, by rw [hN]; omega⟩
  obtain ⟨e50, e51, -⟩ := idx_facts6 t
  have ht : t.val = (i 0).val / 6400 := rfl
  refine ⟨t, flush6_5 t, ?_⟩
  rw [mem_blk6]
  intro a
  match a with
  | ⟨0, _⟩ =>
    show win6_5.index t (0 : Fin 2) * 6400 ≤ (i 0).val ∧ (i 0).val < win6_5.index t (0 : Fin 2) * 6400 + 6400
    omega
  | ⟨1, _⟩ =>
    show win6_5.index t (1 : Fin 2) * 64 ≤ (i 1).val ∧ (i 1).val < win6_5.index t (1 : Fin 2) * 64 + 64
    omega

/-- The array the output window ends holding: the perceptron of the arrays the input windows read. -/
theorem final6 (c : Dev nD) :
    (dat6 (F := Ideal) V c).arrAt 5 cfg6.N
      = ginMlp 51200 (V c (Pipeline.arrRef spec6 0)) (V c (Pipeline.arrRef spec6 1)) (V c (Pipeline.arrRef spec6 2))
          (V c (Pipeline.arrRef spec6 3)) (V c (Pipeline.arrRef spec6 4)) :=
  (dat6 (F := Ideal) V c).arrAt_eq_of_cover 5 _ (fun t _ => flushed6_eq V c t) (cover6)

end Cert.KernelIdeal.Val

end
-- ==== Proof.ValGinMlp8.lean ====
/-
  Region 8 (a two-layer perceptron over row blocks): the array its output window ends holding is the perceptron of
  the arrays its input windows read, row by row. Each grid point t writes rows [6400 t, 6400 t + 6400) — the block of
  the whole-array function at t, because the perceptron of a row only reads that row of the first input and the other
  four inputs whole — and the eight blocks cover the 51200 rows.
-/
import proofs.«133701_j46024869544456_1_alg».proof.Proof.FrameKI
import Idealize.ShloMosaic.Lib.Pipeline.Value
import proofs.«133701_j46024869544456_1_alg».proof.Proof.ValGinMlpRow

set_option maxHeartbeats 1000000
set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff8 : (![0, 0] : Fin 2 → Nat) = fun _ => 0 := funext fun a => by fin_cases a <;> rfl

/-- The output's block index along the rows at point t is t (decided over the eight points). -/
theorem idx_row8 : ∀ t : Fin cfg8.N, win8_5.index t (0 : Fin 2) = t.val :=
  (by decide +kernel : ∀ t : Fin grid8.N, _)

/-- The printed index maps: the first input and the output move down the rows together, one block per point (their
    maps are the same term); every other window stays on its one block (its map is constant). -/
theorem idx_facts8 (t : Fin cfg8.N) :
    win8_5.index t (0 : Fin 2) = t.val ∧ win8_5.index t (1 : Fin 2) = 0
    ∧ win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  ⟨idx_row8 t, rfl, (show win8_0.index t (0 : Fin 2) = win8_5.index t (0 : Fin 2) from rfl).trans (idx_row8 t), rfl,
    rfl, rfl, rfl, rfl, rfl, rfl, rfl, rfl⟩

/-- Entry (p, j) of the first input's block at point t is the array's entry at the row the output's block puts p on. -/
theorem blk_rows8 (c : Dev nD) (t : Fin cfg8.N) (y : S6400x64.Idx) (j : Fin 64) :
    iblk8 V c 0 t (ix2 (y 0 : Fin 6400) j)
      = V c (Pipeline.arrRef spec8 0) (ix2 ((((cfg8.win 5).blk t).view.emb y) 0 : Fin 51200) j) := by
  obtain ⟨e50, e51, e00, e01, -⟩ := idx_facts8 t
  show V c (Pipeline.arrRef spec8 0) (((cfg8.win 0).blk t).view.emb (ix2 (y 0 : Fin 6400) j)) = _
  refine congrArg _ (funext fun a => Fin.ext ?_)
  match a with
  | ⟨0, _⟩ =>
    show win8_0.index t (0 : Fin 2) * 6400 + 1 * (y 0).val = win8_5.index t (0 : Fin 2) * 6400 + 1 * (y 0).val
    omega
  | ⟨1, _⟩ =>
    show win8_0.index t (1 : Fin 2) * 64 + 1 * j.val = j.val
    omega

/-- The second input's one block is its whole array. -/
theorem blk_whole8_1 (c : Dev nD) (t : Fin cfg8.N) : iblk8 V c 1 t = V c (Pipeline.arrRef spec8 1) := by
  obtain ⟨-, -, -, -, e0, e1, -⟩ := idx_facts8 t
  funext z
  show V c (Pipeline.arrRef spec8 1) (((cfg8.win 1).blk t).view.emb z) = _
  refine congrArg _ (funext fun a => Fin.ext ?_)
  match a with
  | ⟨0, _⟩ => show win8_1.index t (0 : Fin 2) * 64 + 1 * (z 0).val = (z 0).val; omega
  | ⟨1, _⟩ => show win8_1.index t (1 : Fin 2) * 128 + 1 * (z 1).val = (z 1).val; omega

/-- The third input's one block is its whole array. -/
theorem blk_whole8_2 (c : Dev nD) (t : Fin cfg8.N) : iblk8 V c 2 t = V c (Pipeline.arrRef spec8 2) := by
  obtain ⟨-, -, -, -, -, -, e0, e1, -⟩ := idx_facts8 t
  funext z
  show V c (Pipeline.arrRef spec8 2) (((cfg8.win 2).blk t).view.emb z) = _
  refine congrArg _ (funext fun a => Fin.ext ?_)
  match a with
  | ⟨0, _⟩ => show win8_2.index t (0 : Fin 2) * 1 + 1 * (z 0).val = (z 0).val; omega
  | ⟨1, _⟩ => show win8_2.index t (1 : Fin 2) * 128 + 1 * (z 1).val = (z 1).val; omega

/-- The fourth input's one block is its whole array. -/
theorem blk_whole8_3 (c : Dev nD) (t : Fin cfg8.N) : iblk8 V c 3 t = V c (Pipeline.arrRef spec8 3) := by
  obtain ⟨-, -, -, -, -, -, -, -, e0, e1, -⟩ := idx_facts8 t
  funext z
  show V c (Pipeline.arrRef spec8 3) (((cfg8.win 3).blk t).view.emb z) = _
  refine congrArg _ (funext fun a => Fin.ext ?_)
  match a with
  | ⟨0, _⟩ => show win8_3.index t (0 : Fin 2) * 128 + 1 * (z 0).val = (z 0).val; omega
  | ⟨1, _⟩ => show win8_3.index t (1 : Fin 2) * 64 + 1 * (z 1).val = (z 1).val; omega

/-- The fifth input's one block is its whole array. -/
theorem blk_whole8_4 (c : Dev nD) (t : Fin cfg8.N) : iblk8 V c 4 t = V c (Pipeline.arrRef spec8 4) := by
  obtain ⟨-, -, -, -, -, -, -, -, -, -, e0, e1⟩ := idx_facts8 t
  funext z
  show V c (Pipeline.arrRef spec8 4) (((cfg8.win 4).blk t).view.emb z) = _
  refine congrArg _ (funext fun a => Fin.ext ?_)
  match a with
  | ⟨0, _⟩ => show win8_4.index t (0 : Fin 2) * 1 + 1 * (z 0).val = (z 0).val; omega
  | ⟨1, _⟩ => show win8_4.index t (1 : Fin 2) * 64 + 1 * (z 1).val = (z 1).val; omega

/-- The column of an output block's entry is its column in the array. -/
theorem blk_col8 (t : Fin cfg8.N) (y : S6400x64.Idx) :
    ((((cfg8.win 5).blk t).view.emb y) 1 : Fin 64) = (y 1 : Fin 64) := by
  obtain ⟨-, e51, -⟩ := idx_facts8 t
  refine Fin.ext ?_
  show win8_5.index t (1 : Fin 2) * 64 + 1 * (y 1).val = (y 1).val
  omega

/-- What the body leaves in the output's buffer at point t: the perceptron of the five blocks it loads. -/
theorem left8_eq (c : Dev nD) (t : Fin cfg8.N) :
    (dat8 (F := Ideal) V c).after 5 t
      = ginMlp 6400 (iblk8 V c 0 t) (iblk8 V c 1 t) (iblk8 V c 2 t) (iblk8 V c 3 t) (iblk8 V c 4 t) := by
  rw [after8_5]
  unfold out8_5
  rw [View.canon_unit_zero zeroOff8]
  simp only [View.ld_unit_zero (S := S6400x64) zeroOff8, View.ld_unit_zero (S := S64x128) zeroOff8,
    View.ld_unit_zero (S := S1x128) zeroOff8, View.ld_unit_zero (S := S128x64) zeroOff8,
    View.ld_unit_zero (S := S1x64) zeroOff8]
  exact k8_pay1_eq _ _ _ _ _

/-- The perceptron of point t's blocks, at an entry of the output's block, is the perceptron of the whole arrays at the
    array's entry under it. -/
theorem at_block8 (c : Dev nD) (t : Fin cfg8.N) (y : S6400x64.Idx) :
    ginMlp 6400 (iblk8 V c 0 t) (iblk8 V c 1 t) (iblk8 V c 2 t) (iblk8 V c 3 t) (iblk8 V c 4 t) y
      = ginMlp 51200 (V c (Pipeline.arrRef spec8 0)) (V c (Pipeline.arrRef spec8 1)) (V c (Pipeline.arrRef spec8 2))
          (V c (Pipeline.arrRef spec8 3)) (V c (Pipeline.arrRef spec8 4)) (((cfg8.win 5).blk t).view.emb y) :=
  ginMlpAt_congr (n := 6400) (n' := 51200) (blk_rows8 V c t y) (blk_whole8_1 V c t) (blk_whole8_2 V c t)
    (blk_whole8_3 V c t) (blk_whole8_4 V c t) (blk_col8 t y).symm

/-- What point t writes back is block t of the perceptron of the arrays the region finds. -/
theorem flushed8_eq (c : Dev nD) (t : Fin cfg8.N) :
    (dat8 (F := Ideal) V c).flushed 5 t
      = ((cfg8.win 5).blk t).view.read (Elt Ideal)
          (ginMlp 51200 (V c (Pipeline.arrRef spec8 0)) (V c (Pipeline.arrRef spec8 1)) (V c (Pipeline.arrRef spec8 2))
            (V c (Pipeline.arrRef spec8 3)) (V c (Pipeline.arrRef spec8 4))) := by
  show (cfg8.win 5).cut (grid8.coords t) ((dat8 V c).after 5 t) = _
  rw [left8_eq]
  exact funext fun y => at_block8 V c t y

/-- An index of the array is in point t's block iff each coordinate is in the block's range on its axis. -/
theorem mem_blk8 (t : Fin cfg8.N) (i : S51200x64.Idx) :
    i ∈ ((cfg8.win 5).blk t).view.set ↔ ∀ a : Fin 2, win8_5.index t a * S6400x64.size a ≤ (i a).val
      ∧ (i a).val < win8_5.index t a * S6400x64.size a + S6400x64.size a := by
  show i ∈ ((View.whole main_v292).slice (win8_5.rect t)).set ↔ _
  rw [View.set_slice_whole, Rect.mem_set_unit]
  exact Iff.rfl

/-- Every row is in the block of the point its number divided by 6400 names. -/
theorem cover8 (i : S51200x64.Idx) :
    ∃ t : Fin cfg8.N, (cfg8.win 5).flush t = true ∧ i ∈ ((cfg8.win 5).blk t).view.set := by
  have hi0 : (i 0).val < 51200 := (i 0).isLt
  have hi1 : (i 1).val < 64 := (i 1).isLt
  have hN : cfg8.N = 8 := N_8
  let t : Fin cfg8.N := ⟨(i 0).val / 6400, by rw [hN]; omega⟩
  obtain ⟨e50, e51, -⟩ := idx_facts8 t
  have ht : t.val = (i 0).val / 6400 := rfl
  refine ⟨t, flush8_5 t, ?_⟩
  rw [mem_blk8]
  intro a
  match a with
  | ⟨0, _⟩ =>
    show win8_5.index t (0 : Fin 2) * 6400 ≤ (i 0).val ∧ (i 0).val < win8_5.index t (0 : Fin 2) * 6400 + 6400
    omega
  | ⟨1, _⟩ =>
    show win8_5.index t (1 : Fin 2) * 64 ≤ (i 1).val ∧ (i 1).val < win8_5.index t (1 : Fin 2) * 64 + 64
    omega

/-- The array the output window ends holding: the perceptron of the arrays the input windows read. -/
theorem final8 (c : Dev nD) :
    (dat8 (F := Ideal) V c).arrAt 5 cfg8.N
      = ginMlp 51200 (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5 _ (fun t _ => flushed8_eq V c t) (cover8)

end Cert.KernelIdeal.Val

end
-- ==== Proof.ValBnPay.lean ====
import proofs.«133701_j46024869544456_1_alg».proof.Proof.Gen.KernelIdeal.Skeleton
import proofs.«133701_j46024869544456_1_alg».proof.Proof.LibRowBias
import proofs.«133701_j46024869544456_1_alg».proof.Proof.ValBnG
import Idealize.ShloMosaic.Lib.Pipeline.Value
import Idealize.ShloMosaic.Lib.ValueIdx

/-!
  The batch-normalisation bodies, read at an entry over the extended reals.

  With a block `h` of 6400 rows and 64 columns and the four rows `mu`, `var`, `gamma`, `beta` of 64 entries, the body
  computes at entry (p, q)

      y = ((h[p, q] - mu[q]) * rsqrt(var[q] + eps)) * gamma[q] + beta[q]

  and stores max(y, 0) (the layers followed by a rectifier) or y itself (the last layer).  The operations are kept in the
  body's order: the extended reals are not distributive.
-/

noncomputable section

namespace Cert.KernelIdeal.Val

open Cert.KernelIdeal Cert.KernelIdeal.Gen Idealize.ShloMosaic Idealize.ShloMosaic.ValueIdx

/-- The rectified body at entry (p, q). -/
theorem bnRelu_pay_apply (x0 : Vec Ideal S6400x64 .f32) (x1 x2 x3 x4 : Vec Ideal S1x64 .f32) (p : Fin 6400) (q : Fin 64) :
    k1_pay1 x0 x1 x2 x3 x4 (ix2 p q)
      = max (bnY (x0 (ix2 p q)) (x1 (ix2 (0 : Fin 1) q)) (x2 (ix2 (0 : Fin 1) q)) (x3 (ix2 (0 : Fin 1) q)) (x4 (ix2 (0 : Fin 1) q)))
          (Ideal.ofBits .f32 0x00000000#32) := by
  unfold k1_pay1 bnY
  simp only [shapeCast_self, maximumf_apply, addf_apply, mulf_apply, subf_apply, RowBias.rowTo_apply]
  rfl

/-- The last layer's body (no rectifier) at entry (p, q). -/
theorem bnLast_pay_apply (x0 : Vec Ideal S6400x64 .f32) (x1 x2 x3 x4 : Vec Ideal S1x64 .f32) (p : Fin 6400) (q : Fin 64) :
    k9_pay1 x0 x1 x2 x3 x4 (ix2 p q)
      = bnY (x0 (ix2 p q)) (x1 (ix2 (0 : Fin 1) q)) (x2 (ix2 (0 : Fin 1) q)) (x3 (ix2 (0 : Fin 1) q)) (x4 (ix2 (0 : Fin 1) q)) := by
  unfold k9_pay1 bnY
  simp only [shapeCast_self, addf_apply, mulf_apply, subf_apply, RowBias.rowTo_apply]
  rfl

/-- The rectified body at an entry `j` of a block whose entry there is the array's entry `i` (same column), the four
    rows being the arrays' rows: the array function at `i`. -/
theorem bnRelu_point (x0 : Vec Ideal S6400x64 .f32) (x1 x2 x3 x4 : Vec Ideal S1x64 .f32)
    (h : S51200x64.Idx → EReal) (mu var gamma beta : S1x64.Idx → EReal) (j : S6400x64.Idx) (i : S51200x64.Idx)
    (h0 : x0 j = h i) (h1 : x1 = mu) (h2 : x2 = var) (h3 : x3 = gamma) (h4 : x4 = beta) (hq : (i 1).val = (j 1).val) :
    k1_pay1 x0 x1 x2 x3 x4 j = GBnRelu h mu var gamma beta i := by
  subst h1 h2 h3 h4
  obtain ⟨p, q, rfl⟩ : ∃ (p : Fin 6400) (q : Fin 64), j = ix2 p q := ⟨j 0, j 1, eq_ix2 j⟩
  obtain ⟨r, q', rfl⟩ : ∃ (r : Fin 51200) (q' : Fin 64), i = ix2 r q' := ⟨i 0, i 1, eq_ix2 i⟩
  obtain rfl : q' = q := Fin.ext hq
  rw [bnRelu_pay_apply, GBnRelu_apply, h0]

/-- The same for the last layer's body. -/
theorem bnLast_point (x0 : Vec Ideal S6400x64 .f32) (x1 x2 x3 x4 : Vec Ideal S1x64 .f32)
    (h : S51200x64.Idx → EReal) (mu var gamma beta : S1x64.Idx → EReal) (j : S6400x64.Idx) (i : S51200x64.Idx)
    (h0 : x0 j = h i) (h1 : x1 = mu) (h2 : x2 = var) (h3 : x3 = gamma) (h4 : x4 = beta) (hq : (i 1).val = (j 1).val) :
    k9_pay1 x0 x1 x2 x3 x4 j = GBnLast h mu var gamma beta i := by
  subst h1 h2 h3 h4
  obtain ⟨p, q, rfl⟩ : ∃ (p : Fin 6400) (q : Fin 64), j = ix2 p q := ⟨j 0, j 1, eq_ix2 j⟩
  obtain ⟨r, q', rfl⟩ : ∃ (r : Fin 51200) (q' : Fin 64), i = ix2 r q' := ⟨i 0, i 1, eq_ix2 i⟩
  obtain rfl : q' = q := Fin.ext hq
  rw [bnLast_pay_apply, GBnLast_apply, h0]

/-- The rectified bodies of the other layers are the same term. -/
theorem k3_pay1_eq : @k3_pay1 Ideal _ = @k1_pay1 Ideal _ := rfl
theorem k5_pay1_eq : @k5_pay1 Ideal _ = @k1_pay1 Ideal _ := rfl
theorem k7_pay1_eq : @k7_pay1 Ideal _ = @k1_pay1 Ideal _ := rfl

end Cert.KernelIdeal.Val

end
-- ==== Proof.ValBn1.lean ====
import proofs.«133701_j46024869544456_1_alg».proof.Proof.FrameKI
import proofs.«133701_j46024869544456_1_alg».proof.Proof.ValBnPay
import Idealize.ShloMosaic.Lib.Pipeline.Value

/-!
  Region 1 (a batch-normalisation layer followed by a rectifier): the array its pipeline leaves in the output window is
  `GBnRelu` of the five arrays its input windows read, as the region finds them.

  The grid has 8 points; point t reads rows 6400 t … 6400 t + 6399 of the 51200 × 64 input, the four 1 × 64 rows whole,
  and writes the same rows of the output.  So what point t writes back is block t of the one array function, and the
  8 blocks cover the array: row r lies in the block of point r / 6400.
-/

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps, decided over the grid: the big input and the output move together down the rows, one block
    per point, and the four rows stay at block (0, 0). -/
theorem index_maps1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The big input's block at point t, at an entry, is the array at the entry the output's block puts there. -/
theorem iblk1_0_apply (c : Dev nD) (t : Fin cfg1.N) (y : S6400x64.Idx) :
    (iblk1 V c 0 t : Vec Ideal S6400x64 .f32) y
      = (V c (Pipeline.arrRef spec1 0) : S51200x64.Idx → EReal) (((cfg1.win 5).blk t).view.emb y) := by
  obtain ⟨e50, e51, e00, e01, -⟩ := index_maps1 t
  unfold iblk1
  rw [View.read_apply]
  show (V c (Pipeline.arrRef spec1 0) : S51200x64.Idx → EReal) (((cfg1.win 0).blk t).view.emb y) = _
  refine congrArg _ (funext fun a => Fin.ext ?_)
  match a with
  | ⟨0, _⟩ => show win1_0.index t (0 : Fin 2) * 6400 + 1 * (y 0).val = win1_5.index t (0 : Fin 2) * 6400 + 1 * (y 0).val; omega
  | ⟨1, _⟩ => show win1_0.index t (1 : Fin 2) * 64 + 1 * (y 1).val = win1_5.index t (1 : Fin 2) * 64 + 1 * (y 1).val; omega

/-- Row window 1's block at every point is its whole array. -/
theorem iblk1_1_eq (c : Dev nD) (t : Fin cfg1.N) :
    (iblk1 V c 1 t : Vec Ideal S1x64 .f32) = (V c (Pipeline.arrRef spec1 1) : S1x64.Idx → EReal) := by
  obtain ⟨-, -, -, -, e10, e11, e20, e21, e30, e31, e40, e41⟩ := index_maps1 t
  funext y
  unfold iblk1
  rw [View.read_apply]
  show (V c (Pipeline.arrRef spec1 1) : S1x64.Idx → EReal) (((cfg1.win 1).blk t).view.emb y) = _
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Row window 2's block at every point is its whole array. -/
theorem iblk1_2_eq (c : Dev nD) (t : Fin cfg1.N) :
    (iblk1 V c 2 t : Vec Ideal S1x64 .f32) = (V c (Pipeline.arrRef spec1 2) : S1x64.Idx → EReal) := by
  obtain ⟨-, -, -, -, e10, e11, e20, e21, e30, e31, e40, e41⟩ := index_maps1 t
  funext y
  unfold iblk1
  rw [View.read_apply]
  show (V c (Pipeline.arrRef spec1 2) : S1x64.Idx → EReal) (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Row window 3's block at every point is its whole array. -/
theorem iblk1_3_eq (c : Dev nD) (t : Fin cfg1.N) :
    (iblk1 V c 3 t : Vec Ideal S1x64 .f32) = (V c (Pipeline.arrRef spec1 3) : S1x64.Idx → EReal) := by
  obtain ⟨-, -, -, -, e10, e11, e20, e21, e30, e31, e40, e41⟩ := index_maps1 t
  funext y
  unfold iblk1
  rw [View.read_apply]
  show (V c (Pipeline.arrRef spec1 3) : S1x64.Idx → EReal) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Row window 4's block at every point is its whole array. -/
theorem iblk1_4_eq (c : Dev nD) (t : Fin cfg1.N) :
    (iblk1 V c 4 t : Vec Ideal S1x64 .f32) = (V c (Pipeline.arrRef spec1 4) : S1x64.Idx → EReal) := by
  obtain ⟨-, -, -, -, e10, e11, e20, e21, e30, e31, e40, e41⟩ := index_maps1 t
  funext y
  unfold iblk1
  rw [View.read_apply]
  show (V c (Pipeline.arrRef spec1 4) : S1x64.Idx → EReal) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The column of an entry of the output's block at point t is the entry's own column. -/
theorem emb1_col (t : Fin cfg1.N) (y : S6400x64.Idx) :
    ((((cfg1.win 5).blk t).view.emb y : S51200x64.Idx) 1).val = (y 1).val := by
  obtain ⟨e50, e51, -⟩ := index_maps1 t
  show win1_5.index t (1 : Fin 2) * 64 + 1 * (y 1).val = (y 1).val
  omega

/-- What point t writes back is block t of the array function of the arrays the region finds. -/
theorem flushed1_eq (c : Dev nD) (t : Fin cfg1.N) :
    (dat1 V c).flushed 5 t = ((cfg1.win 5).blk t).view.read (Elt Ideal)
      (GBnRelu (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets1]
  simp only [View.ld_unit_zero (S := S6400x64) zero_offsets1, View.ld_unit_zero (S := S1x64) zero_offsets1]
  funext j
  rw [View.read_apply]
  show k1_pay1 (iblk1 V c 0 t) (iblk1 V c 1 t) (iblk1 V c 2 t) (iblk1 V c 3 t) (iblk1 V c 4 t) j = _
  exact bnRelu_point (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) j (((cfg1.win 5).blk t).view.emb j)
    (iblk1_0_apply V c t j) (iblk1_1_eq V c t) (iblk1_2_eq V c t) (iblk1_3_eq V c t) (iblk1_4_eq V c t)
    (emb1_col t j)

/-- An index of the output array is in point t's block iff each coordinate is in the block's range on its axis. -/
theorem mem_blk1 (t : Fin cfg1.N) (i : S51200x64.Idx) :
    i ∈ ((cfg1.win 5).blk t).view.set ↔ ∀ a : Fin 2, win1_5.index t a * S6400x64.size a ≤ (i a).val
      ∧ (i a).val < win1_5.index t a * S6400x64.size a + S6400x64.size a := by
  show i ∈ ((View.whole main_v73).slice (win1_5.rect t)).set ↔ _
  rw [View.set_slice_whole, Rect.mem_set_unit]
  exact Iff.rfl

/-- Every entry of the output array is in some point's block: row r in the block of point r / 6400. -/
theorem cover1 (i : S51200x64.Idx) :
    ∃ t : Fin cfg1.N, (cfg1.win 5).flush t = true ∧ i ∈ ((cfg1.win 5).blk t).view.set := by
  have hi0 : (i 0).val < 51200 := (i 0).isLt
  have hi1 : (i 1).val < 64 := (i 1).isLt
  have hN : cfg1.N = 8 := N_1
  let t : Fin cfg1.N := ⟨(i 0).val / 6400, by rw [hN]; omega⟩
  obtain ⟨e50, e51, -⟩ := index_maps1 t
  have e50' : win1_5.index t (0 : Fin 2) = (i 0).val / 6400 := e50
  refine ⟨t, flush1_5 t, ?_⟩
  rw [mem_blk1]
  intro a
  match a with
  | ⟨0, _⟩ => show win1_5.index t (0 : Fin 2) * 6400 ≤ (i 0).val ∧ (i 0).val < win1_5.index t (0 : Fin 2) * 6400 + 6400; omega
  | ⟨1, _⟩ => show win1_5.index t (1 : Fin 2) * 64 ≤ (i 1).val ∧ (i 1).val < win1_5.index t (1 : Fin 2) * 64 + 64; omega

/-- The output array after the region's run. -/
theorem final1 (c : Dev nD) :
    (dat1 (F := Ideal) V c).arrAt 5 cfg1.N
      = GBnRelu (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed1_eq V c t) (cover1)

end Cert.KernelIdeal.Val

end
-- ==== Proof.ValBnPayK.lean ====
import proofs.«133701_j46024869544456_1_alg».proof.Proof.ValBnPay

/-!
  The rectified batch-normalisation bodies of the later layers are the first layer's term: their value at an entry of a
  block is the same array function.
-/

noncomputable section

namespace Cert.KernelIdeal.Val

open Cert.KernelIdeal Cert.KernelIdeal.Gen Idealize.ShloMosaic Idealize.ShloMosaic.ValueIdx

/-- The rectified body of region 3 at an entry of a block (the same term as region 1's). -/
theorem bnRelu_point3 (x0 : Vec Ideal S6400x64 .f32) (x1 x2 x3 x4 : Vec Ideal S1x64 .f32)
    (h : S51200x64.Idx → EReal) (mu var gamma beta : S1x64.Idx → EReal) (j : S6400x64.Idx) (i : S51200x64.Idx)
    (h0 : x0 j = h i) (h1 : x1 = mu) (h2 : x2 = var) (h3 : x3 = gamma) (h4 : x4 = beta) (hq : (i 1).val = (j 1).val) :
    k3_pay1 x0 x1 x2 x3 x4 j = GBnRelu h mu var gamma beta i :=
  (congrFun (congrFun (congrFun (congrFun (congrFun (congrFun k3_pay1_eq x0) x1) x2) x3) x4) j).trans
    (bnRelu_point x0 x1 x2 x3 x4 h mu var gamma beta j i h0 h1 h2 h3 h4 hq)

/-- The rectified body of region 5 at an entry of a block (the same term as region 1's). -/
theorem bnRelu_point5 (x0 : Vec Ideal S6400x64 .f32) (x1 x2 x3 x4 : Vec Ideal S1x64 .f32)
    (h : S51200x64.Idx → EReal) (mu var gamma beta : S1x64.Idx → EReal) (j : S6400x64.Idx) (i : S51200x64.Idx)
    (h0 : x0 j = h i) (h1 : x1 = mu) (h2 : x2 = var) (h3 : x3 = gamma) (h4 : x4 = beta) (hq : (i 1).val = (j 1).val) :
    k5_pay1 x0 x1 x2 x3 x4 j = GBnRelu h mu var gamma beta i :=
  (congrFun (congrFun (congrFun (congrFun (congrFun (congrFun k5_pay1_eq x0) x1) x2) x3) x4) j).trans
    (bnRelu_point x0 x1 x2 x3 x4 h mu var gamma beta j i h0 h1 h2 h3 h4 hq)

/-- The rectified body of region 7 at an entry of a block (the same term as region 1's). -/
theorem bnRelu_point7 (x0 : Vec Ideal S6400x64 .f32) (x1 x2 x3 x4 : Vec Ideal S1x64 .f32)
    (h : S51200x64.Idx → EReal) (mu var gamma beta : S1x64.Idx → EReal) (j : S6400x64.Idx) (i : S51200x64.Idx)
    (h0 : x0 j = h i) (h1 : x1 = mu) (h2 : x2 = var) (h3 : x3 = gamma) (h4 : x4 = beta) (hq : (i 1).val = (j 1).val) :
    k7_pay1 x0 x1 x2 x3 x4 j = GBnRelu h mu var gamma beta i :=
  (congrFun (congrFun (congrFun (congrFun (congrFun (congrFun k7_pay1_eq x0) x1) x2) x3) x4) j).trans
    (bnRelu_point x0 x1 x2 x3 x4 h mu var gamma beta j i h0 h1 h2 h3 h4 hq)

end Cert.KernelIdeal.Val

end
-- ==== Proof.ValBn3.lean ====
import proofs.«133701_j46024869544456_1_alg».proof.Proof.FrameKI
import proofs.«133701_j46024869544456_1_alg».proof.Proof.ValBnPayK
import Idealize.ShloMosaic.Lib.Pipeline.Value

/-!
  Region 3 (a batch-normalisation layer followed by a rectifier): the array its pipeline leaves in the output window is
  `GBnRelu` of the five arrays its input windows read, as the region finds them.

  The grid has 8 points; point t reads rows 6400 t … 6400 t + 6399 of the 51200 × 64 input, the four 1 × 64 rows whole,
  and writes the same rows of the output.  So what point t writes back is block t of the one array function, and the
  8 blocks cover the array: row r lies in the block of point r / 6400.
-/

set_option maxHeartbeats 1600000

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The printed index maps, decided over the grid: the big input and the output move together down the rows, one block
    per point, and the four rows stay at block (0, 0). -/
theorem index_maps3 : ∀ t : Fin cfg3.N,
    win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The big input's block at point t, at an entry, is the array at the entry the output's block puts there. -/
theorem iblk3_0_apply (c : Dev nD) (t : Fin cfg3.N) (y : S6400x64.Idx) :
    (iblk3 V c 0 t : Vec Ideal S6400x64 .f32) y
      = (V c (Pipeline.arrRef spec3 0) : S51200x64.Idx → EReal) (((cfg3.win 5).blk t).view.emb y) := by
  obtain ⟨e50, e51, e00, e01, -⟩ := index_maps3 t
  unfold iblk3
  rw [View.read_apply]
  show (V c (Pipeline.arrRef spec3 0) : S51200x64.Idx → EReal) (((cfg3.win 0).blk t).view.emb y) = _
  refine congrArg _ (funext fun a => Fin.ext ?_)
  match a with
  | ⟨0, _⟩ => show win3_0.index t (0 : Fin 2) * 6400 + 1 * (y 0).val = win3_5.index t (0 : Fin 2) * 6400 + 1 * (y 0).val; omega
  | ⟨1, _⟩ => show win3_0.index t (1 : Fin 2) * 64 + 1 * (y 1).val = win3_5.index t (1 : Fin 2) * 64 + 1 * (y 1).val; omega

/-- Row window 1's block at every point is its whole array. -/
theorem iblk3_1_eq (c : Dev nD) (t : Fin cfg3.N) :
    (iblk3 V c 1 t : Vec Ideal S1x64 .f32) = (V c (Pipeline.arrRef spec3 1) : S1x64.Idx → EReal) := by
  obtain ⟨-, -, -, -, e10, e11, e20, e21, e30, e31, e40, e41⟩ := index_maps3 t
  funext y
  unfold iblk3
  rw [View.read_apply]
  show (V c (Pipeline.arrRef spec3 1) : S1x64.Idx → EReal) (((cfg3.win 1).blk t).view.emb y) = _
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- Row window 2's block at every point is its whole array. -/
theorem iblk3_2_eq (c : Dev nD) (t : Fin cfg3.N) :
    (iblk3 V c 2 t : Vec Ideal S1x64 .f32) = (V c (Pipeline.arrRef spec3 2) : S1x64.Idx → EReal) := by
  obtain ⟨-, -, -, -, e10, e11, e20, e21, e30, e31, e40, e41⟩ := index_maps3 t
  funext y
  unfold iblk3
  rw [View.read_apply]
  show (V c (Pipeline.arrRef spec3 2) : S1x64.Idx → EReal) (((cfg3.win 2).blk t).view.emb y) = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- Row window 3's block at every point is its whole array. -/
theorem iblk3_3_eq (c : Dev nD) (t : Fin cfg3.N) :
    (iblk3 V c 3 t : Vec Ideal S1x64 .f32) = (V c (Pipeline.arrRef spec3 3) : S1x64.Idx → EReal) := by
  obtain ⟨-, -, -, -, e10, e11, e20, e21, e30, e31, e40, e41⟩ := index_maps3 t
  funext y
  unfold iblk3
  rw [View.read_apply]
  show (V c (Pipeline.arrRef spec3 3) : S1x64.Idx → EReal) (((cfg3.win 3).blk t).view.emb y) = _
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Row window 4's block at every point is its whole array. -/
theorem iblk3_4_eq (c : Dev nD) (t : Fin cfg3.N) :
    (iblk3 V c 4 t : Vec Ideal S1x64 .f32) = (V c (Pipeline.arrRef spec3 4) : S1x64.Idx → EReal) := by
  obtain ⟨-, -, -, -, e10, e11, e20, e21, e30, e31, e40, e41⟩ := index_maps3 t
  funext y
  unfold iblk3
  rw [View.read_apply]
  show (V c (Pipeline.arrRef spec3 4) : S1x64.Idx → EReal) (((cfg3.win 4).blk t).view.emb y) = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- The column of an entry of the output's block at point t is the entry's own column. -/
theorem emb3_col (t : Fin cfg3.N) (y : S6400x64.Idx) :
    ((((cfg3.win 5).blk t).view.emb y : S51200x64.Idx) 1).val = (y 1).val := by
  obtain ⟨e50, e51, -⟩ := index_maps3 t
  show win3_5.index t (1 : Fin 2) * 64 + 1 * (y 1).val = (y 1).val
  omega

/-- What point t writes back is block t of the array function of the arrays the region finds. -/
theorem flushed3_eq (c : Dev nD) (t : Fin cfg3.N) :
    (dat3 V c).flushed 5 t = ((cfg3.win 5).blk t).view.read (Elt Ideal)
      (GBnRelu (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero zero_offsets3]
  simp only [View.ld_unit_zero (S := S6400x64) zero_offsets3, View.ld_unit_zero (S := S1x64) zero_offsets3]
  funext j
  rw [View.read_apply]
  show k3_pay1 (iblk3 V c 0 t) (iblk3 V c 1 t) (iblk3 V c 2 t) (iblk3 V c 3 t) (iblk3 V c 4 t) j = _
  exact bnRelu_point3 (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) j (((cfg3.win 5).blk t).view.emb j)
    (iblk3_0_apply V c t j) (iblk3_1_eq V c t) (iblk3_2_eq V c t) (iblk3_3_eq V c t) (iblk3_4_eq V c t)
    (emb3_col t j)

/-- An index of the output array is in point t's block iff each coordinate is in the block's range on its axis. -/
theorem mem_blk3 (t : Fin cfg3.N) (i : S51200x64.Idx) :
    i ∈ ((cfg3.win 5).blk t).view.set ↔ ∀ a : Fin 2, win3_5.index t a * S6400x64.size a ≤ (i a).val
      ∧ (i a).val < win3_5.index t a * S6400x64.size a + S6400x64.size a := by
  show i ∈ ((View.whole main_v131).slice (win3_5.rect t)).set ↔ _
  rw [View.set_slice_whole, Rect.mem_set_unit]
  exact Iff.rfl

/-- Every entry of the output array is in some point's block: row r in the block of point r / 6400. -/
theorem cover3 (i : S51200x64.Idx) :
    ∃ t : Fin cfg3.N, (cfg3.win 5).flush t = true ∧ i ∈ ((cfg3.win 5).blk t).view.set := by
  have hi0 : (i 0).val < 51200 := (i 0).isLt
  have hi1 : (i 1).val < 64 := (i 1).isLt
  have hN : cfg3.N = 8 := N_3
  let t : Fin cfg3.N := ⟨(i 0).val / 6400, by rw [hN]; omega⟩
  obtain ⟨e50, e51, -⟩ := index_maps3 t
  have e50' : win3_5.index t (0 : Fin 2) = (i 0).val / 6400 := e50
  refine ⟨t, flush3_5 t, ?_⟩
  rw [mem_blk3]
  intro a
  match a with
  | ⟨0, _⟩ => show win3_5.index t (0 : Fin 2) * 6400 ≤ (i 0).val ∧ (i 0).val < win3_5.index t (0 : Fin 2) * 6400 + 6400; omega
  | ⟨1, _⟩ => show win3_5.index t (1 : Fin 2) * 64 ≤ (i 1).val ∧ (i 1).val < win3_5.index t (1 : Fin 2) * 64 + 64; omega

/-- The output array after the region's run. -/
theorem final3 (c : Dev nD) :
    (dat3 (F := Ideal) V c).arrAt 5 cfg3.N
      = GBnRelu (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed3_eq V c t) (cover3)

end Cert.KernelIdeal.Val

end
-- ==== Proof.ValBn5.lean ====
import proofs.«133701_j46024869544456_1_alg».proof.Proof.FrameKI
import proofs.«133701_j46024869544456_1_alg».proof.Proof.ValBnPayK
import Idealize.ShloMosaic.Lib.Pipeline.Value

/-!
  Region 5 (a batch-normalisation layer followed by a rectifier): the array its pipeline leaves in the output window is
  `GBnRelu` of the five arrays its input windows read, as the region finds them.

  The grid has 8 points; point t reads rows 6400 t … 6400 t + 6399 of the 51200 × 64 input, the four 1 × 64 rows whole,
  and writes the same rows of the output.  So what point t writes back is block t of the one array function, and the
  8 blocks cover the array: row r lies in the block of point r / 6400.
-/

set_option maxHeartbeats 1600000

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets5 : (![0, 0] : Fin 2 → Nat) = fun _ => 0 := funext fun a => by fin_cases a <;> rfl

/-- The printed index maps, decided over the grid: the big input and the output move together down the rows, one block
    per point, and the four rows stay at block (0, 0). -/
theorem index_maps5 : ∀ t : Fin cfg5.N,
    win5_5.index t (0 : Fin 2) = t.val ∧ win5_5.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The big input's block at point t, at an entry, is the array at the entry the output's block puts there. -/
theorem iblk5_0_apply (c : Dev nD) (t : Fin cfg5.N) (y : S6400x64.Idx) :
    (iblk5 V c 0 t : Vec Ideal S6400x64 .f32) y
      = (V c (Pipeline.arrRef spec5 0) : S51200x64.Idx → EReal) (((cfg5.win 5).blk t).view.emb y) := by
  obtain ⟨e50, e51, e00, e01, -⟩ := index_maps5 t
  unfold iblk5
  rw [View.read_apply]
  show (V c (Pipeline.arrRef spec5 0) : S51200x64.Idx → EReal) (((cfg5.win 0).blk t).view.emb y) = _
  refine congrArg _ (funext fun a => Fin.ext ?_)
  match a with
  | ⟨0, _⟩ => show win5_0.index t (0 : Fin 2) * 6400 + 1 * (y 0).val = win5_5.index t (0 : Fin 2) * 6400 + 1 * (y 0).val; omega
  | ⟨1, _⟩ => show win5_0.index t (1 : Fin 2) * 64 + 1 * (y 1).val = win5_5.index t (1 : Fin 2) * 64 + 1 * (y 1).val; omega

/-- Row window 1's block at every point is its whole array. -/
theorem iblk5_1_eq (c : Dev nD) (t : Fin cfg5.N) :
    (iblk5 V c 1 t : Vec Ideal S1x64 .f32) = (V c (Pipeline.arrRef spec5 1) : S1x64.Idx → EReal) := by
  obtain ⟨-, -, -, -, e10, e11, e20, e21, e30, e31, e40, e41⟩ := index_maps5 t
  funext y
  unfold iblk5
  rw [View.read_apply]
  show (V c (Pipeline.arrRef spec5 1) : S1x64.Idx → EReal) (((cfg5.win 1).blk t).view.emb y) = _
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- Row window 2's block at every point is its whole array. -/
theorem iblk5_2_eq (c : Dev nD) (t : Fin cfg5.N) :
    (iblk5 V c 2 t : Vec Ideal S1x64 .f32) = (V c (Pipeline.arrRef spec5 2) : S1x64.Idx → EReal) := by
  obtain ⟨-, -, -, -, e10, e11, e20, e21, e30, e31, e40, e41⟩ := index_maps5 t
  funext y
  unfold iblk5
  rw [View.read_apply]
  show (V c (Pipeline.arrRef spec5 2) : S1x64.Idx → EReal) (((cfg5.win 2).blk t).view.emb y) = _
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- Row window 3's block at every point is its whole array. -/
theorem iblk5_3_eq (c : Dev nD) (t : Fin cfg5.N) :
    (iblk5 V c 3 t : Vec Ideal S1x64 .f32) = (V c (Pipeline.arrRef spec5 3) : S1x64.Idx → EReal) := by
  obtain ⟨-, -, -, -, e10, e11, e20, e21, e30, e31, e40, e41⟩ := index_maps5 t
  funext y
  unfold iblk5
  rw [View.read_apply]
  show (V c (Pipeline.arrRef spec5 3) : S1x64.Idx → EReal) (((cfg5.win 3).blk t).view.emb y) = _
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Row window 4's block at every point is its whole array. -/
theorem iblk5_4_eq (c : Dev nD) (t : Fin cfg5.N) :
    (iblk5 V c 4 t : Vec Ideal S1x64 .f32) = (V c (Pipeline.arrRef spec5 4) : S1x64.Idx → EReal) := by
  obtain ⟨-, -, -, -, e10, e11, e20, e21, e30, e31, e40, e41⟩ := index_maps5 t
  funext y
  unfold iblk5
  rw [View.read_apply]
  show (V c (Pipeline.arrRef spec5 4) : S1x64.Idx → EReal) (((cfg5.win 4).blk t).view.emb y) = _
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- The column of an entry of the output's block at point t is the entry's own column. -/
theorem emb5_col (t : Fin cfg5.N) (y : S6400x64.Idx) :
    ((((cfg5.win 5).blk t).view.emb y : S51200x64.Idx) 1).val = (y 1).val := by
  obtain ⟨e50, e51, -⟩ := index_maps5 t
  show win5_5.index t (1 : Fin 2) * 64 + 1 * (y 1).val = (y 1).val
  omega

/-- What point t writes back is block t of the array function of the arrays the region finds. -/
theorem flushed5_eq (c : Dev nD) (t : Fin cfg5.N) :
    (dat5 V c).flushed 5 t = ((cfg5.win 5).blk t).view.read (Elt Ideal)
      (GBnRelu (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero zero_offsets5]
  simp only [View.ld_unit_zero (S := S6400x64) zero_offsets5, View.ld_unit_zero (S := S1x64) zero_offsets5]
  funext j
  rw [View.read_apply]
  show k5_pay1 (iblk5 V c 0 t) (iblk5 V c 1 t) (iblk5 V c 2 t) (iblk5 V c 3 t) (iblk5 V c 4 t) j = _
  exact bnRelu_point5 (iblk5 V c 0 t) (iblk5 V c 1 t) (iblk5 V c 2 t) (iblk5 V c 3 t) (iblk5 V c 4 t)
    (V c (Pipeline.arrRef spec5 0)) (V c (Pipeline.arrRef spec5 1)) (V c (Pipeline.arrRef spec5 2))
    (V c (Pipeline.arrRef spec5 3)) (V c (Pipeline.arrRef spec5 4)) j (((cfg5.win 5).blk t).view.emb j)
    (iblk5_0_apply V c t j) (iblk5_1_eq V c t) (iblk5_2_eq V c t) (iblk5_3_eq V c t) (iblk5_4_eq V c t)
    (emb5_col t j)

/-- An index of the output array is in point t's block iff each coordinate is in the block's range on its axis. -/
theorem mem_blk5 (t : Fin cfg5.N) (i : S51200x64.Idx) :
    i ∈ ((cfg5.win 5).blk t).view.set ↔ ∀ a : Fin 2, win5_5.index t a * S6400x64.size a ≤ (i a).val
      ∧ (i a).val < win5_5.index t a * S6400x64.size a + S6400x64.size a := by
  show i ∈ ((View.whole main_v189).slice (win5_5.rect t)).set ↔ _
  rw [View.set_slice_whole, Rect.mem_set_unit]
  exact Iff.rfl

/-- Every entry of the output array is in some point's block: row r in the block of point r / 6400. -/
theorem cover5 (i : S51200x64.Idx) :
    ∃ t : Fin cfg5.N, (cfg5.win 5).flush t = true ∧ i ∈ ((cfg5.win 5).blk t).view.set := by
  have hi0 : (i 0).val < 51200 := (i 0).isLt
  have hi1 : (i 1).val < 64 := (i 1).isLt
  have hN : cfg5.N = 8 := N_5
  let t : Fin cfg5.N := ⟨(i 0).val / 6400, by rw [hN]; omega⟩
  obtain ⟨e50, e51, -⟩ := index_maps5 t
  have e50' : win5_5.index t (0 : Fin 2) = (i 0).val / 6400 := e50
  refine ⟨t, flush5_5 t, ?_⟩
  rw [mem_blk5]
  intro a
  match a with
  | ⟨0, _⟩ => show win5_5.index t (0 : Fin 2) * 6400 ≤ (i 0).val ∧ (i 0).val < win5_5.index t (0 : Fin 2) * 6400 + 6400; omega
  | ⟨1, _⟩ => show win5_5.index t (1 : Fin 2) * 64 ≤ (i 1).val ∧ (i 1).val < win5_5.index t (1 : Fin 2) * 64 + 64; omega

/-- The output array after the region's run. -/
theorem final5 (c : Dev nD) :
    (dat5 (F := Ideal) V c).arrAt 5 cfg5.N
      = GBnRelu (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed5_eq V c t) (cover5)

end Cert.KernelIdeal.Val

end
-- ==== Proof.ValBn7.lean ====
import proofs.«133701_j46024869544456_1_alg».proof.Proof.FrameKI
import proofs.«133701_j46024869544456_1_alg».proof.Proof.ValBnPayK
import Idealize.ShloMosaic.Lib.Pipeline.Value

/-!
  Region 7 (a batch-normalisation layer followed by a rectifier): the array its pipeline leaves in the output window is
  `GBnRelu` of the five arrays its input windows read, as the region finds them.

  The grid has 8 points; point t reads rows 6400 t … 6400 t + 6399 of the 51200 × 64 input, the four 1 × 64 rows whole,
  and writes the same rows of the output.  So what point t writes back is block t of the one array function, and the
  8 blocks cover the array: row r lies in the block of point r / 6400.
-/

set_option maxHeartbeats 1600000

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets7 : (![0, 0] : Fin 2 → Nat) = fun _ => 0 := funext fun a => by fin_cases a <;> rfl

/-- The printed index maps, decided over the grid: the big input and the output move together down the rows, one block
    per point, and the four rows stay at block (0, 0). -/
theorem index_maps7 : ∀ t : Fin cfg7.N,
    win7_5.index t (0 : Fin 2) = t.val ∧ win7_5.index t (1 : Fin 2) = 0
    ∧ win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- The big input's block at point t, at an entry, is the array at the entry the output's block puts there. -/
theorem iblk7_0_apply (c : Dev nD) (t : Fin cfg7.N) (y : S6400x64.Idx) :
    (iblk7 V c 0 t : Vec Ideal S6400x64 .f32) y
      = (V c (Pipeline.arrRef spec7 0) : S51200x64.Idx → EReal) (((cfg7.win 5).blk t).view.emb y) := by
  obtain ⟨e50, e51, e00, e01, -⟩ := index_maps7 t
  unfold iblk7
  rw [View.read_apply]
  show (V c (Pipeline.arrRef spec7 0) : S51200x64.Idx → EReal) (((cfg7.win 0).blk t).view.emb y) = _
  refine congrArg _ (funext fun a => Fin.ext ?_)
  match a with
  | ⟨0, _⟩ => show win7_0.index t (0 : Fin 2) * 6400 + 1 * (y 0).val = win7_5.index t (0 : Fin 2) * 6400 + 1 * (y 0).val; omega
  | ⟨1, _⟩ => show win7_0.index t (1 : Fin 2) * 64 + 1 * (y 1).val = win7_5.index t (1 : Fin 2) * 64 + 1 * (y 1).val; omega

/-- Row window 1's block at every point is its whole array. -/
theorem iblk7_1_eq (c : Dev nD) (t : Fin cfg7.N) :
    (iblk7 V c 1 t : Vec Ideal S1x64 .f32) = (V c (Pipeline.arrRef spec7 1) : S1x64.Idx → EReal) := by
  obtain ⟨-, -, -, -, e10, e11, e20, e21, e30, e31, e40, e41⟩ := index_maps7 t
  funext y
  unfold iblk7
  rw [View.read_apply]
  show (V c (Pipeline.arrRef spec7 1) : S1x64.Idx → EReal) (((cfg7.win 1).blk t).view.emb y) = _
  refine congrArg _ (funext fun a => Fin.ext ?_)
  match a with
  | ⟨0, _⟩ => show win7_1.index t (0 : Fin 2) * 1 + 1 * (y 0).val = (y 0).val; omega
  | ⟨1, _⟩ => show win7_1.index t (1 : Fin 2) * 64 + 1 * (y 1).val = (y 1).val; omega

/-- Row window 2's block at every point is its whole array. -/
theorem iblk7_2_eq (c : Dev nD) (t : Fin cfg7.N) :
    (iblk7 V c 2 t : Vec Ideal S1x64 .f32) = (V c (Pipeline.arrRef spec7 2) : S1x64.Idx → EReal) := by
  obtain ⟨-, -, -, -, e10, e11, e20, e21, e30, e31, e40, e41⟩ := index_maps7 t
  funext y
  unfold iblk7
  rw [View.read_apply]
  show (V c (Pipeline.arrRef spec7 2) : S1x64.Idx → EReal) (((cfg7.win 2).blk t).view.emb y) = _
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- Row window 3's block at every point is its whole array. -/
theorem iblk7_3_eq (c : Dev nD) (t : Fin cfg7.N) :
    (iblk7 V c 3 t : Vec Ideal S1x64 .f32) = (V c (Pipeline.arrRef spec7 3) : S1x64.Idx → EReal) := by
  obtain ⟨-, -, -, -, e10, e11, e20, e21, e30, e31, e40, e41⟩ := index_maps7 t
  funext y
  unfold iblk7
  rw [View.read_apply]
  show (V c (Pipeline.arrRef spec7 3) : S1x64.Idx → EReal) (((cfg7.win 3).blk t).view.emb y) = _
  refine congrArg _ (funext fun a => Fin.ext ?_)
  match a with
  | ⟨0, _⟩ => show win7_3.index t (0 : Fin 2) * 1 + 1 * (y 0).val = (y 0).val; omega
  | ⟨1, _⟩ => show win7_3.index t (1 : Fin 2) * 64 + 1 * (y 1).val = (y 1).val; omega

/-- Row window 4's block at every point is its whole array. -/
theorem iblk7_4_eq (c : Dev nD) (t : Fin cfg7.N) :
    (iblk7 V c 4 t : Vec Ideal S1x64 .f32) = (V c (Pipeline.arrRef spec7 4) : S1x64.Idx → EReal) := by
  obtain ⟨-, -, -, -, e10, e11, e20, e21, e30, e31, e40, e41⟩ := index_maps7 t
  funext y
  unfold iblk7
  rw [View.read_apply]
  show (V c (Pipeline.arrRef spec7 4) : S1x64.Idx → EReal) (((cfg7.win 4).blk t).view.emb y) = _
  refine congrArg _ (funext fun a => Fin.ext ?_)
  match a with
  | ⟨0, _⟩ => show win7_4.index t (0 : Fin 2) * 1 + 1 * (y 0).val = (y 0).val; omega
  | ⟨1, _⟩ => show win7_4.index t (1 : Fin 2) * 64 + 1 * (y 1).val = (y 1).val; omega

/-- The column of an entry of the output's block at point t is the entry's own column. -/
theorem emb7_col (t : Fin cfg7.N) (y : S6400x64.Idx) :
    ((((cfg7.win 5).blk t).view.emb y : S51200x64.Idx) 1).val = (y 1).val := by
  obtain ⟨e50, e51, -⟩ := index_maps7 t
  show win7_5.index t (1 : Fin 2) * 64 + 1 * (y 1).val = (y 1).val
  omega

/-- What point t writes back is block t of the array function of the arrays the region finds. -/
theorem flushed7_eq (c : Dev nD) (t : Fin cfg7.N) :
    (dat7 V c).flushed 5 t = ((cfg7.win 5).blk t).view.read (Elt Ideal)
      (GBnRelu (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero zero_offsets7]
  simp only [View.ld_unit_zero (S := S6400x64) zero_offsets7, View.ld_unit_zero (S := S1x64) zero_offsets7]
  funext j
  rw [View.read_apply]
  show k7_pay1 (iblk7 V c 0 t) (iblk7 V c 1 t) (iblk7 V c 2 t) (iblk7 V c 3 t) (iblk7 V c 4 t) j = _
  exact bnRelu_point7 (iblk7 V c 0 t) (iblk7 V c 1 t) (iblk7 V c 2 t) (iblk7 V c 3 t) (iblk7 V c 4 t)
    (V c (Pipeline.arrRef spec7 0)) (V c (Pipeline.arrRef spec7 1)) (V c (Pipeline.arrRef spec7 2))
    (V c (Pipeline.arrRef spec7 3)) (V c (Pipeline.arrRef spec7 4)) j (((cfg7.win 5).blk t).view.emb j)
    (iblk7_0_apply V c t j) (iblk7_1_eq V c t) (iblk7_2_eq V c t) (iblk7_3_eq V c t) (iblk7_4_eq V c t)
    (emb7_col t j)

/-- An index of the output array is in point t's block iff each coordinate is in the block's range on its axis. -/
theorem mem_blk7 (t : Fin cfg7.N) (i : S51200x64.Idx) :
    i ∈ ((cfg7.win 5).blk t).view.set ↔ ∀ a : Fin 2, win7_5.index t a * S6400x64.size a ≤ (i a).val
      ∧ (i a).val < win7_5.index t a * S6400x64.size a + S6400x64.size a := by
  show i ∈ ((View.whole main_v247).slice (win7_5.rect t)).set ↔ _
  rw [View.set_slice_whole, Rect.mem_set_unit]
  exact Iff.rfl

/-- Every entry of the output array is in some point's block: row r in the block of point r / 6400. -/
theorem cover7 (i : S51200x64.Idx) :
    ∃ t : Fin cfg7.N, (cfg7.win 5).flush t = true ∧ i ∈ ((cfg7.win 5).blk t).view.set := by
  have hi0 : (i 0).val < 51200 := (i 0).isLt
  have hi1 : (i 1).val < 64 := (i 1).isLt
  have hN : cfg7.N = 8 := N_7
  let t : Fin cfg7.N := ⟨(i 0).val / 6400, by rw [hN]; omega⟩
  obtain ⟨e50, e51, -⟩ := index_maps7 t
  have e50' : win7_5.index t (0 : Fin 2) = (i 0).val / 6400 := e50
  refine ⟨t, flush7_5 t, ?_⟩
  rw [mem_blk7]
  intro a
  match a with
  | ⟨0, _⟩ => show win7_5.index t (0 : Fin 2) * 6400 ≤ (i 0).val ∧ (i 0).val < win7_5.index t (0 : Fin 2) * 6400 + 6400; omega
  | ⟨1, _⟩ => show win7_5.index t (1 : Fin 2) * 64 ≤ (i 1).val ∧ (i 1).val < win7_5.index t (1 : Fin 2) * 64 + 64; omega

/-- The output array after the region's run. -/
theorem final7 (c : Dev nD) :
    (dat7 (F := Ideal) V c).arrAt 5 cfg7.N
      = GBnRelu (V c (Pipeline.arrRef spec7 0)) (V c (Pipeline.arrRef spec7 1)) (V c (Pipeline.arrRef spec7 2))
          (V c (Pipeline.arrRef spec7 3)) (V c (Pipeline.arrRef spec7 4)) :=
  (dat7 V c).arrAt_eq_of_cover 5 _ (fun t _ => flushed7_eq V c t) (cover7)

end Cert.KernelIdeal.Val

end
-- ==== Proof.ValBn9.lean ====
import proofs.«133701_j46024869544456_1_alg».proof.Proof.FrameKI
import proofs.«133701_j46024869544456_1_alg».proof.Proof.ValBnPay
import Idealize.ShloMosaic.Lib.Pipeline.Value

/-!
  Region 9 (a batch-normalisation layer, the last one): the array its pipeline leaves in the output window is
  `GBnLast` of the five arrays its input windows read, as the region finds them.

  The grid has 8 points; point t reads rows 6400 t … 6400 t + 6399 of the 51200 × 64 input, the four 1 × 64 rows whole,
  and writes the same rows of the output.  So what point t writes back is block t of the one array function, and the
  8 blocks cover the array: row r lies in the block of point r / 6400.
-/

set_option maxHeartbeats 1600000

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets9 : (![0, 0] : Fin 2 → Nat) = fun _ => 0 := funext fun a => by fin_cases a <;> rfl

/-- The printed index maps, decided over the grid: the big input and the output move together down the rows, one block
    per point, and the four rows stay at block (0, 0). -/
theorem index_maps9 : ∀ t : Fin cfg9.N,
    win9_5.index t (0 : Fin 2) = t.val ∧ win9_5.index t (1 : Fin 2) = 0
    ∧ win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- The big input's block at point t, at an entry, is the array at the entry the output's block puts there. -/
theorem iblk9_0_apply (c : Dev nD) (t : Fin cfg9.N) (y : S6400x64.Idx) :
    (iblk9 V c 0 t : Vec Ideal S6400x64 .f32) y
      = (V c (Pipeline.arrRef spec9 0) : S51200x64.Idx → EReal) (((cfg9.win 5).blk t).view.emb y) := by
  obtain ⟨e50, e51, e00, e01, -⟩ := index_maps9 t
  unfold iblk9
  rw [View.read_apply]
  show (V c (Pipeline.arrRef spec9 0) : S51200x64.Idx → EReal) (((cfg9.win 0).blk t).view.emb y) = _
  refine congrArg _ (funext fun a => Fin.ext ?_)
  match a with
  | ⟨0, _⟩ => show win9_0.index t (0 : Fin 2) * 6400 + 1 * (y 0).val = win9_5.index t (0 : Fin 2) * 6400 + 1 * (y 0).val; omega
  | ⟨1, _⟩ => show win9_0.index t (1 : Fin 2) * 64 + 1 * (y 1).val = win9_5.index t (1 : Fin 2) * 64 + 1 * (y 1).val; omega

/-- Row window 1's block at every point is its whole array. -/
theorem iblk9_1_eq (c : Dev nD) (t : Fin cfg9.N) :
    (iblk9 V c 1 t : Vec Ideal S1x64 .f32) = (V c (Pipeline.arrRef spec9 1) : S1x64.Idx → EReal) := by
  obtain ⟨-, -, -, -, e10, e11, e20, e21, e30, e31, e40, e41⟩ := index_maps9 t
  funext y
  unfold iblk9
  rw [View.read_apply]
  show (V c (Pipeline.arrRef spec9 1) : S1x64.Idx → EReal) (((cfg9.win 1).blk t).view.emb y) = _
  refine congrArg _ (funext fun a => Fin.ext ?_)
  match a with
  | ⟨0, _⟩ => show win9_1.index t (0 : Fin 2) * 1 + 1 * (y 0).val = (y 0).val; omega
  | ⟨1, _⟩ => show win9_1.index t (1 : Fin 2) * 64 + 1 * (y 1).val = (y 1).val; omega

/-- Row window 2's block at every point is its whole array. -/
theorem iblk9_2_eq (c : Dev nD) (t : Fin cfg9.N) :
    (iblk9 V c 2 t : Vec Ideal S1x64 .f32) = (V c (Pipeline.arrRef spec9 2) : S1x64.Idx → EReal) := by
  obtain ⟨-, -, -, -, e10, e11, e20, e21, e30, e31, e40, e41⟩ := index_maps9 t
  funext y
  unfold iblk9
  rw [View.read_apply]
  show (V c (Pipeline.arrRef spec9 2) : S1x64.Idx → EReal) (((cfg9.win 2).blk t).view.emb y) = _
  refine congrArg _ (funext fun a => Fin.ext ?_)
  match a with
  | ⟨0, _⟩ => show win9_2.index t (0 : Fin 2) * 1 + 1 * (y 0).val = (y 0).val; omega
  | ⟨1, _⟩ => show win9_2.index t (1 : Fin 2) * 64 + 1 * (y 1).val = (y 1).val; omega

/-- Row window 3's block at every point is its whole array. -/
theorem iblk9_3_eq (c : Dev nD) (t : Fin cfg9.N) :
    (iblk9 V c 3 t : Vec Ideal S1x64 .f32) = (V c (Pipeline.arrRef spec9 3) : S1x64.Idx → EReal) := by
  obtain ⟨-, -, -, -, e10, e11, e20, e21, e30, e31, e40, e41⟩ := index_maps9 t
  funext y
  unfold iblk9
  rw [View.read_apply]
  show (V c (Pipeline.arrRef spec9 3) : S1x64.Idx → EReal) (((cfg9.win 3).blk t).view.emb y) = _
  refine congrArg _ (funext fun a => Fin.ext ?_)
  match a with
  | ⟨0, _⟩ => show win9_3.index t (0 : Fin 2) * 1 + 1 * (y 0).val = (y 0).val; omega
  | ⟨1, _⟩ => show win9_3.index t (1 : Fin 2) * 64 + 1 * (y 1).val = (y 1).val; omega

/-- Row window 4's block at every point is its whole array. -/
theorem iblk9_4_eq (c : Dev nD) (t : Fin cfg9.N) :
    (iblk9 V c 4 t : Vec Ideal S1x64 .f32) = (V c (Pipeline.arrRef spec9 4) : S1x64.Idx → EReal) := by
  obtain ⟨-, -, -, -, e10, e11, e20, e21, e30, e31, e40, e41⟩ := index_maps9 t
  funext y
  unfold iblk9
  rw [View.read_apply]
  show (V c (Pipeline.arrRef spec9 4) : S1x64.Idx → EReal) (((cfg9.win 4).blk t).view.emb y) = _
  refine congrArg _ (funext fun a => Fin.ext ?_)
  match a with
  | ⟨0, _⟩ => show win9_4.index t (0 : Fin 2) * 1 + 1 * (y 0).val = (y 0).val; omega
  | ⟨1, _⟩ => show win9_4.index t (1 : Fin 2) * 64 + 1 * (y 1).val = (y 1).val; omega

/-- The column of an entry of the output's block at point t is the entry's own column. -/
theorem emb9_col (t : Fin cfg9.N) (y : S6400x64.Idx) :
    ((((cfg9.win 5).blk t).view.emb y : S51200x64.Idx) 1).val = (y 1).val := by
  obtain ⟨e50, e51, -⟩ := index_maps9 t
  show win9_5.index t (1 : Fin 2) * 64 + 1 * (y 1).val = (y 1).val
  omega

/-- What point t writes back is block t of the array function of the arrays the region finds. -/
theorem flushed9_eq (c : Dev nD) (t : Fin cfg9.N) :
    (dat9 V c).flushed 5 t = ((cfg9.win 5).blk t).view.read (Elt Ideal)
      (GBnLast (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  unfold out9_5
  rw [View.canon_unit_zero zero_offsets9]
  simp only [View.ld_unit_zero (S := S6400x64) zero_offsets9, View.ld_unit_zero (S := S1x64) zero_offsets9]
  funext j
  rw [View.read_apply]
  show k9_pay1 (iblk9 V c 0 t) (iblk9 V c 1 t) (iblk9 V c 2 t) (iblk9 V c 3 t) (iblk9 V c 4 t) j = _
  exact bnLast_point (iblk9 V c 0 t) (iblk9 V c 1 t) (iblk9 V c 2 t) (iblk9 V c 3 t) (iblk9 V c 4 t)
    (V c (Pipeline.arrRef spec9 0)) (V c (Pipeline.arrRef spec9 1)) (V c (Pipeline.arrRef spec9 2))
    (V c (Pipeline.arrRef spec9 3)) (V c (Pipeline.arrRef spec9 4)) j (((cfg9.win 5).blk t).view.emb j)
    (iblk9_0_apply V c t j) (iblk9_1_eq V c t) (iblk9_2_eq V c t) (iblk9_3_eq V c t) (iblk9_4_eq V c t)
    (emb9_col t j)

/-- An index of the output array is in point t's block iff each coordinate is in the block's range on its axis. -/
theorem mem_blk9 (t : Fin cfg9.N) (i : S51200x64.Idx) :
    i ∈ ((cfg9.win 5).blk t).view.set ↔ ∀ a : Fin 2, win9_5.index t a * S6400x64.size a ≤ (i a).val
      ∧ (i a).val < win9_5.index t a * S6400x64.size a + S6400x64.size a := by
  show i ∈ ((View.whole main_v305).slice (win9_5.rect t)).set ↔ _
  rw [View.set_slice_whole, Rect.mem_set_unit]
  exact Iff.rfl

/-- Every entry of the output array is in some point's block: row r in the block of point r / 6400. -/
theorem cover9 (i : S51200x64.Idx) :
    ∃ t : Fin cfg9.N, (cfg9.win 5).flush t = true ∧ i ∈ ((cfg9.win 5).blk t).view.set := by
  have hi0 : (i 0).val < 51200 := (i 0).isLt
  have hi1 : (i 1).val < 64 := (i 1).isLt
  have hN : cfg9.N = 8 := N_9
  let t : Fin cfg9.N := ⟨(i 0).val / 6400, by rw [hN]; omega⟩
  obtain ⟨e50, e51, -⟩ := index_maps9 t
  have e50' : win9_5.index t (0 : Fin 2) = (i 0).val / 6400 := e50
  refine ⟨t, flush9_5 t, ?_⟩
  rw [mem_blk9]
  intro a
  match a with
  | ⟨0, _⟩ => show win9_5.index t (0 : Fin 2) * 6400 ≤ (i 0).val ∧ (i 0).val < win9_5.index t (0 : Fin 2) * 6400 + 6400; omega
  | ⟨1, _⟩ => show win9_5.index t (1 : Fin 2) * 64 ≤ (i 1).val ∧ (i 1).val < win9_5.index t (1 : Fin 2) * 64 + 64; omega

/-- The output array after the region's run. -/
theorem final9 (c : Dev nD) :
    (dat9 (F := Ideal) V c).arrAt 5 cfg9.N
      = GBnLast (V c (Pipeline.arrRef spec9 0)) (V c (Pipeline.arrRef spec9 1)) (V c (Pipeline.arrRef spec9 2))
          (V c (Pipeline.arrRef spec9 3)) (V c (Pipeline.arrRef spec9 4)) :=
  (dat9 V c).arrAt_eq_of_cover 5 _ (fun t _ => flushed9_eq V c t) (cover9)

end Cert.KernelIdeal.Val

end
-- ==== Proof.ValGcPay.lean ====
import proofs.«133701_j46024869544456_1_alg».proof.Proof.Gen.KernelIdeal.Skeleton
import proofs.«133701_j46024869544456_1_alg».proof.Proof.LibRowBias
import proofs.«133701_j46024869544456_1_alg».proof.Proof.LibMatmulNN
import proofs.«133701_j46024869544456_1_alg».proof.Proof.ValGcG
import Idealize.ShloMosaic.Lib.Pipeline.Value
import Idealize.ShloMosaic.Lib.ValueIdx

/-!
  The graph-convolution bodies, read at an entry over the extended reals.

  With blocks `a` and `z` of 6400 rows and n columns, weights `wrel`, `wroot` of n rows and 64 columns and a bias row
  `brel` of 64 entries, the body computes at entry (p, q)

      max(((Σ_j a[p, j] * wrel[j, q]) + brel[q]) + (Σ_j z[p, j] * wroot[j, q]), 0):

  the casts to the narrower format before each product are the identity on the extended reals, and each product
  accumulates into zeros.  n = 100 in the first layer, 64 in the second.
-/

noncomputable section

namespace Cert.KernelIdeal.Val

open Cert.KernelIdeal Cert.KernelIdeal.Gen Idealize.ShloMosaic Idealize.ShloMosaic.ValueIdx

open scoped BigOperators

/-- The first layer's body (n = 100) at entry (p, q). -/
theorem gc10_pay_apply (x0 x1 : Vec Ideal S6400x100 .f32) (w1 w2 : Vec Ideal S100x64 .f32) (b : Vec Ideal S1x64 .f32)
    (p : Fin 6400) (q : Fin 64) :
    k10_pay1 x0 x1 w1 w2 b (ix2 p q)
      = max (((∑ j : Fin 100, x0 (ix2 p j) * w1 (ix2 j q)) + b (ix2 (0 : Fin 1) q))
          + (∑ j : Fin 100, x1 (ix2 p j) * w2 (ix2 j q)))
        (Ideal.ofBits .f32 0x00000000#32) := by
  unfold k10_pay1
  simp only [shapeCast_self, maximumf_apply, addf_apply, RowBias.rowTo_apply]
  refine congrArg₂ max (congrArg₂ (· + ·) (congrArg (· + _) ?_) ?_) rfl
  · exact MatmulNN.matmul_zero_apply _ rfl none _ _ p q
  · exact MatmulNN.matmul_zero_apply _ rfl none _ _ p q

/-- The second layer's body (n = 64) at entry (p, q). -/
theorem gc11_pay_apply (x0 x1 : Vec Ideal S6400x64 .f32) (w1 w2 : Vec Ideal S64x64 .f32) (b : Vec Ideal S1x64 .f32)
    (p : Fin 6400) (q : Fin 64) :
    k11_pay1 x0 x1 w1 w2 b (ix2 p q)
      = max (((∑ j : Fin 64, x0 (ix2 p j) * w1 (ix2 j q)) + b (ix2 (0 : Fin 1) q))
          + (∑ j : Fin 64, x1 (ix2 p j) * w2 (ix2 j q)))
        (Ideal.ofBits .f32 0x00000000#32) := by
  unfold k11_pay1
  simp only [shapeCast_self, maximumf_apply, addf_apply, RowBias.rowTo_apply]
  refine congrArg₂ max (congrArg₂ (· + ·) (congrArg (· + _) ?_) ?_) rfl
  · exact MatmulNN.matmul_zero_apply _ rfl none _ _ p q
  · exact MatmulNN.matmul_zero_apply _ rfl none _ _ p q

/-- The first layer's body at an entry `j` of a block: the array function at the array's entry `i`, when the two row
    blocks' rows at `j`'s row are the arrays' rows at `i`'s row, the weights and the bias are the arrays', and the
    columns agree. -/
theorem gc10_point (x0 x1 : Vec Ideal S6400x100 .f32) (w1 w2 : Vec Ideal S100x64 .f32) (b : Vec Ideal S1x64 .f32)
    (agg z : S102400x100.Idx → EReal) (wrel : S100x64.Idx → EReal) (brel : S1x64.Idx → EReal) (wroot : S100x64.Idx → EReal)
    (j : S6400x64.Idx) (i : S102400x64.Idx)
    (h0 : ∀ k : Fin 100, x0 (ix2 (j 0 : Fin 6400) k) = agg (ix2 (i 0 : Fin 102400) k))
    (h1 : ∀ k : Fin 100, x1 (ix2 (j 0 : Fin 6400) k) = z (ix2 (i 0 : Fin 102400) k))
    (h2 : w1 = wrel) (h3 : b = brel) (h4 : w2 = wroot) (hq : (i 1).val = (j 1).val) :
    k10_pay1 x0 x1 w1 w2 b j = GGc 100 agg z wrel brel wroot i := by
  subst h2 h3 h4
  obtain ⟨p, q, rfl⟩ : ∃ (p : Fin 6400) (q : Fin 64), j = ix2 p q := ⟨j 0, j 1, eq_ix2 j⟩
  obtain ⟨r, q', rfl⟩ : ∃ (r : Fin 102400) (q' : Fin 64), i = ix2 r q' := ⟨i 0, i 1, eq_ix2 i⟩
  obtain rfl : q' = q := Fin.ext hq
  rw [gc10_pay_apply, GGc_apply]
  refine congrArg₂ max (congrArg₂ (· + ·) (congrArg (· + _) ?_) ?_) rfl
  · exact Finset.sum_congr rfl fun k _ => congrArg (· * _) (h0 k)
  · exact Finset.sum_congr rfl fun k _ => congrArg (· * _) (h1 k)

/-- The same for the second layer. -/
theorem gc11_point (x0 x1 : Vec Ideal S6400x64 .f32) (w1 w2 : Vec Ideal S64x64 .f32) (b : Vec Ideal S1x64 .f32)
    (agg z : S102400x64.Idx → EReal) (wrel : S64x64.Idx → EReal) (brel : S1x64.Idx → EReal) (wroot : S64x64.Idx → EReal)
    (j : S6400x64.Idx) (i : S102400x64.Idx)
    (h0 : ∀ k : Fin 64, x0 (ix2 (j 0 : Fin 6400) k) = agg (ix2 (i 0 : Fin 102400) k))
    (h1 : ∀ k : Fin 64, x1 (ix2 (j 0 : Fin 6400) k) = z (ix2 (i 0 : Fin 102400) k))
    (h2 : w1 = wrel) (h3 : b = brel) (h4 : w2 = wroot) (hq : (i 1).val = (j 1).val) :
    k11_pay1 x0 x1 w1 w2 b j = GGc 64 agg z wrel brel wroot i := by
  subst h2 h3 h4
  obtain ⟨p, q, rfl⟩ : ∃ (p : Fin 6400) (q : Fin 64), j = ix2 p q := ⟨j 0, j 1, eq_ix2 j⟩
  obtain ⟨r, q', rfl⟩ : ∃ (r : Fin 102400) (q' : Fin 64), i = ix2 r q' := ⟨i 0, i 1, eq_ix2 i⟩
  obtain rfl : q' = q := Fin.ext hq
  rw [gc11_pay_apply, GGc_apply]
  refine congrArg₂ max (congrArg₂ (· + ·) (congrArg (· + _) ?_) ?_) rfl
  · exact Finset.sum_congr rfl fun k _ => congrArg (· * _) (h0 k)
  · exact Finset.sum_congr rfl fun k _ => congrArg (· * _) (h1 k)

end Cert.KernelIdeal.Val

end
-- ==== Proof.ValGc10.lean ====
import proofs.«133701_j46024869544456_1_alg».proof.Proof.FrameKI
import proofs.«133701_j46024869544456_1_alg».proof.Proof.ValGcPay
import Idealize.ShloMosaic.Lib.Pipeline.Value

/-!
  Region 10 (a graph-convolution layer on 100 input features): the array its pipeline leaves in the output window is
  `GGc 100` of the five arrays its input windows read, as the region finds them.

  The grid has 16 points; point t reads rows 6400 t … 6400 t + 6399 of the two 102400 × 100 inputs, the two 100 × 64
  weights and the 1 × 64 bias whole, and writes the same rows of the 102400 × 64 output.  So what point t writes back is
  block t of the one array function, and the 16 blocks cover the array: row r lies in the block of point r / 6400.
-/

set_option maxHeartbeats 1600000

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets10 : (![0, 0] : Fin 2 → Nat) = fun _ => 0 := funext fun a => by fin_cases a <;> rfl

/-- The printed index maps, decided over the grid: the two row inputs and the output move together down the rows, one
    block per point, and the weights and the bias stay at block (0, 0). -/
theorem index_maps10 : ∀ t : Fin cfg10.N,
    win10_5.index t (0 : Fin 2) = t.val ∧ win10_5.index t (1 : Fin 2) = 0
    ∧ win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- Row input 0's block at point t, at an entry, is the array at row 6400 t + the entry's row, same column. -/
theorem iblk10_0_apply (c : Dev nD) (t : Fin cfg10.N) (y : S6400x100.Idx) (i : S102400x100.Idx)
    (h0 : (i 0).val = t.val * 6400 + (y 0).val) (h1 : (i 1).val = (y 1).val) :
    (iblk10 V c 0 t : Vec Ideal S6400x100 .f32) y = (V c (Pipeline.arrRef spec10 0) : S102400x100.Idx → EReal) i := by
  obtain ⟨-, -, e00, e01, e10, e11, -⟩ := index_maps10 t
  unfold iblk10
  rw [View.read_apply]
  show (V c (Pipeline.arrRef spec10 0) : S102400x100.Idx → EReal) (((cfg10.win 0).blk t).view.emb y) = _
  refine congrArg _ (funext fun a => Fin.ext ?_)
  match a with
  | ⟨0, _⟩ => show win10_0.index t (0 : Fin 2) * 6400 + 1 * (y 0).val = (i 0).val; omega
  | ⟨1, _⟩ => show win10_0.index t (1 : Fin 2) * 100 + 1 * (y 1).val = (i 1).val; omega

/-- Row input 1's block at point t, at an entry, is the array at row 6400 t + the entry's row, same column. -/
theorem iblk10_1_apply (c : Dev nD) (t : Fin cfg10.N) (y : S6400x100.Idx) (i : S102400x100.Idx)
    (h0 : (i 0).val = t.val * 6400 + (y 0).val) (h1 : (i 1).val = (y 1).val) :
    (iblk10 V c 1 t : Vec Ideal S6400x100 .f32) y = (V c (Pipeline.arrRef spec10 1) : S102400x100.Idx → EReal) i := by
  obtain ⟨-, -, e00, e01, e10, e11, -⟩ := index_maps10 t
  unfold iblk10
  rw [View.read_apply]
  show (V c (Pipeline.arrRef spec10 1) : S102400x100.Idx → EReal) (((cfg10.win 1).blk t).view.emb y) = _
  refine congrArg _ (funext fun a => Fin.ext ?_)
  match a with
  | ⟨0, _⟩ => show win10_1.index t (0 : Fin 2) * 6400 + 1 * (y 0).val = (i 0).val; omega
  | ⟨1, _⟩ => show win10_1.index t (1 : Fin 2) * 100 + 1 * (y 1).val = (i 1).val; omega

/-- Window 2's block at every point is its whole array. -/
theorem iblk10_2_eq (c : Dev nD) (t : Fin cfg10.N) :
    (iblk10 V c 2 t : Vec Ideal S100x64 .f32) = (V c (Pipeline.arrRef spec10 2) : S100x64.Idx → EReal) := by
  obtain ⟨-, -, -, -, -, -, e20, e21, e30, e31, e40, e41⟩ := index_maps10 t
  funext y
  unfold iblk10
  rw [View.read_apply]
  show (V c (Pipeline.arrRef spec10 2) : S100x64.Idx → EReal) (((cfg10.win 2).blk t).view.emb y) = _
  refine congrArg _ (funext fun a => Fin.ext ?_)
  match a with
  | ⟨0, _⟩ => show win10_2.index t (0 : Fin 2) * 100 + 1 * (y 0).val = (y 0).val; omega
  | ⟨1, _⟩ => show win10_2.index t (1 : Fin 2) * 64 + 1 * (y 1).val = (y 1).val; omega

/-- Window 3's block at every point is its whole array. -/
theorem iblk10_3_eq (c : Dev nD) (t : Fin cfg10.N) :
    (iblk10 V c 3 t : Vec Ideal S1x64 .f32) = (V c (Pipeline.arrRef spec10 3) : S1x64.Idx → EReal) := by
  obtain ⟨-, -, -, -, -, -, e20, e21, e30, e31, e40, e41⟩ := index_maps10 t
  funext y
  unfold iblk10
  rw [View.read_apply]
  show (V c (Pipeline.arrRef spec10 3) : S1x64.Idx → EReal) (((cfg10.win 3).blk t).view.emb y) = _
  refine congrArg _ (funext fun a => Fin.ext ?_)
  match a with
  | ⟨0, _⟩ => show win10_3.index t (0 : Fin 2) * 1 + 1 * (y 0).val = (y 0).val; omega
  | ⟨1, _⟩ => show win10_3.index t (1 : Fin 2) * 64 + 1 * (y 1).val = (y 1).val; omega

/-- Window 4's block at every point is its whole array. -/
theorem iblk10_4_eq (c : Dev nD) (t : Fin cfg10.N) :
    (iblk10 V c 4 t : Vec Ideal S100x64 .f32) = (V c (Pipeline.arrRef spec10 4) : S100x64.Idx → EReal) := by
  obtain ⟨-, -, -, -, -, -, e20, e21, e30, e31, e40, e41⟩ := index_maps10 t
  funext y
  unfold iblk10
  rw [View.read_apply]
  show (V c (Pipeline.arrRef spec10 4) : S100x64.Idx → EReal) (((cfg10.win 4).blk t).view.emb y) = _
  refine congrArg _ (funext fun a => Fin.ext ?_)
  match a with
  | ⟨0, _⟩ => show win10_4.index t (0 : Fin 2) * 100 + 1 * (y 0).val = (y 0).val; omega
  | ⟨1, _⟩ => show win10_4.index t (1 : Fin 2) * 64 + 1 * (y 1).val = (y 1).val; omega

/-- The row and the column of an entry of the output's block at point t. -/
theorem emb10_row (t : Fin cfg10.N) (y : S6400x64.Idx) :
    ((((cfg10.win 5).blk t).view.emb y : S102400x64.Idx) 0).val = t.val * 6400 + (y 0).val := by
  obtain ⟨e50, e51, -⟩ := index_maps10 t
  show win10_5.index t (0 : Fin 2) * 6400 + 1 * (y 0).val = _
  omega
theorem emb10_col (t : Fin cfg10.N) (y : S6400x64.Idx) :
    ((((cfg10.win 5).blk t).view.emb y : S102400x64.Idx) 1).val = (y 1).val := by
  obtain ⟨e50, e51, -⟩ := index_maps10 t
  show win10_5.index t (1 : Fin 2) * 64 + 1 * (y 1).val = (y 1).val
  omega

/-- What point t writes back is block t of the array function of the arrays the region finds. -/
theorem flushed10_eq (c : Dev nD) (t : Fin cfg10.N) :
    (dat10 V c).flushed 5 t = ((cfg10.win 5).blk t).view.read (Elt Ideal)
      (GGc 100 (V c (Pipeline.arrRef spec10 0)) (V c (Pipeline.arrRef spec10 1)) (V c (Pipeline.arrRef spec10 2))
        (V c (Pipeline.arrRef spec10 3)) (V c (Pipeline.arrRef spec10 4))) := by
  show (cfg10.win 5).cut (grid10.coords t) ((dat10 V c).after 5 t) = _
  rw [after10_5]
  unfold out10_5
  rw [View.canon_unit_zero zero_offsets10]
  simp only [View.ld_unit_zero (S := S6400x100) zero_offsets10, View.ld_unit_zero (S := S100x64) zero_offsets10,
    View.ld_unit_zero (S := S1x64) zero_offsets10, View.ld_unit_zero (S := S6400x64) zero_offsets10]
  funext j
  rw [View.read_apply]
  show k10_pay1 (iblk10 V c 0 t) (iblk10 V c 1 t) (iblk10 V c 2 t) (iblk10 V c 4 t) (iblk10 V c 3 t) j = _
  exact gc10_point (iblk10 V c 0 t) (iblk10 V c 1 t) (iblk10 V c 2 t) (iblk10 V c 4 t) (iblk10 V c 3 t)
    (V c (Pipeline.arrRef spec10 0)) (V c (Pipeline.arrRef spec10 1)) (V c (Pipeline.arrRef spec10 2))
    (V c (Pipeline.arrRef spec10 3)) (V c (Pipeline.arrRef spec10 4)) j (((cfg10.win 5).blk t).view.emb j)
    (fun k => iblk10_0_apply V c t (ix2 (j 0 : Fin 6400) k) (ix2 ((((cfg10.win 5).blk t).view.emb j : S102400x64.Idx) 0 : Fin 102400) k) (emb10_row t j) rfl)
    (fun k => iblk10_1_apply V c t (ix2 (j 0 : Fin 6400) k) (ix2 ((((cfg10.win 5).blk t).view.emb j : S102400x64.Idx) 0 : Fin 102400) k) (emb10_row t j) rfl)
    (iblk10_2_eq V c t) (iblk10_3_eq V c t) (iblk10_4_eq V c t) (emb10_col t j)

/-- An index of the output array is in point t's block iff each coordinate is in the block's range on its axis. -/
theorem mem_blk10 (t : Fin cfg10.N) (i : S102400x64.Idx) :
    i ∈ ((cfg10.win 5).blk t).view.set ↔ ∀ a : Fin 2, win10_5.index t a * S6400x64.size a ≤ (i a).val
      ∧ (i a).val < win10_5.index t a * S6400x64.size a + S6400x64.size a := by
  show i ∈ ((View.whole main_v357).slice (win10_5.rect t)).set ↔ _
  rw [View.set_slice_whole, Rect.mem_set_unit]
  exact Iff.rfl

/-- Every entry of the output array is in some point's block: row r in the block of point r / 6400. -/
theorem cover10 (i : S102400x64.Idx) :
    ∃ t : Fin cfg10.N, (cfg10.win 5).flush t = true ∧ i ∈ ((cfg10.win 5).blk t).view.set := by
  have hi0 : (i 0).val < 102400 := (i 0).isLt
  have hi1 : (i 1).val < 64 := (i 1).isLt
  have hN : cfg10.N = 16 := N_10
  let t : Fin cfg10.N := ⟨(i 0).val / 6400, by rw [hN]; omega⟩
  obtain ⟨e50, e51, -⟩ := index_maps10 t
  have e50' : win10_5.index t (0 : Fin 2) = (i 0).val / 6400 := e50
  refine ⟨t, flush10_5 t, ?_⟩
  rw [mem_blk10]
  intro a
  match a with
  | ⟨0, _⟩ => show win10_5.index t (0 : Fin 2) * 6400 ≤ (i 0).val ∧ (i 0).val < win10_5.index t (0 : Fin 2) * 6400 + 6400; omega
  | ⟨1, _⟩ => show win10_5.index t (1 : Fin 2) * 64 ≤ (i 1).val ∧ (i 1).val < win10_5.index t (1 : Fin 2) * 64 + 64; omega

/-- The output array after the region's run. -/
theorem final10 (c : Dev nD) :
    (dat10 (F := Ideal) V c).arrAt 5 cfg10.N
      = GGc 100 (V c (Pipeline.arrRef spec10 0)) (V c (Pipeline.arrRef spec10 1)) (V c (Pipeline.arrRef spec10 2))
          (V c (Pipeline.arrRef spec10 3)) (V c (Pipeline.arrRef spec10 4)) :=
  (dat10 V c).arrAt_eq_of_cover 5 _ (fun t _ => flushed10_eq V c t) (cover10)

end Cert.KernelIdeal.Val

end
-- ==== Proof.ValGc11.lean ====
import proofs.«133701_j46024869544456_1_alg».proof.Proof.FrameKI
import proofs.«133701_j46024869544456_1_alg».proof.Proof.ValGcPay
import Idealize.ShloMosaic.Lib.Pipeline.Value

/-!
  Region 11 (a graph-convolution layer on 64 input features): the array its pipeline leaves in the output window is
  `GGc 64` of the five arrays its input windows read, as the region finds them.

  The grid has 16 points; point t reads rows 6400 t … 6400 t + 6399 of the two 102400 × 64 inputs, the two 64 × 64
  weights and the 1 × 64 bias whole, and writes the same rows of the 102400 × 64 output.  So what point t writes back is
  block t of the one array function, and the 16 blocks cover the array: row r lies in the block of point r / 6400.
-/

set_option maxHeartbeats 1600000

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets11 : (![0, 0] : Fin 2 → Nat) = fun _ => 0 := funext fun a => by fin_cases a <;> rfl

/-- The printed index maps, decided over the grid: the two row inputs and the output move together down the rows, one
    block per point, and the weights and the bias stay at block (0, 0). -/
theorem index_maps11 : ∀ t : Fin cfg11.N,
    win11_5.index t (0 : Fin 2) = t.val ∧ win11_5.index t (1 : Fin 2) = 0
    ∧ win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- Row input 0's block at point t, at an entry, is the array at row 6400 t + the entry's row, same column. -/
theorem iblk11_0_apply (c : Dev nD) (t : Fin cfg11.N) (y : S6400x64.Idx) (i : S102400x64.Idx)
    (h0 : (i 0).val = t.val * 6400 + (y 0).val) (h1 : (i 1).val = (y 1).val) :
    (iblk11 V c 0 t : Vec Ideal S6400x64 .f32) y = (V c (Pipeline.arrRef spec11 0) : S102400x64.Idx → EReal) i := by
  obtain ⟨-, -, e00, e01, e10, e11, -⟩ := index_maps11 t
  unfold iblk11
  rw [View.read_apply]
  show (V c (Pipeline.arrRef spec11 0) : S102400x64.Idx → EReal) (((cfg11.win 0).blk t).view.emb y) = _
  refine congrArg _ (funext fun a => Fin.ext ?_)
  match a with
  | ⟨0, _⟩ => show win11_0.index t (0 : Fin 2) * 6400 + 1 * (y 0).val = (i 0).val; omega
  | ⟨1, _⟩ => show win11_0.index t (1 : Fin 2) * 64 + 1 * (y 1).val = (i 1).val; omega

/-- Row input 1's block at point t, at an entry, is the array at row 6400 t + the entry's row, same column. -/
theorem iblk11_1_apply (c : Dev nD) (t : Fin cfg11.N) (y : S6400x64.Idx) (i : S102400x64.Idx)
    (h0 : (i 0).val = t.val * 6400 + (y 0).val) (h1 : (i 1).val = (y 1).val) :
    (iblk11 V c 1 t : Vec Ideal S6400x64 .f32) y = (V c (Pipeline.arrRef spec11 1) : S102400x64.Idx → EReal) i := by
  obtain ⟨-, -, e00, e01, e10, e11, -⟩ := index_maps11 t
  unfold iblk11
  rw [View.read_apply]
  show (V c (Pipeline.arrRef spec11 1) : S102400x64.Idx → EReal) (((cfg11.win 1).blk t).view.emb y) = _
  refine congrArg _ (funext fun a => Fin.ext ?_)
  match a with
  | ⟨0, _⟩ => show win11_1.index t (0 : Fin 2) * 6400 + 1 * (y 0).val = (i 0).val; omega
  | ⟨1, _⟩ => show win11_1.index t (1 : Fin 2) * 64 + 1 * (y 1).val = (i 1).val; omega

/-- Window 2's block at every point is its whole array. -/
theorem iblk11_2_eq (c : Dev nD) (t : Fin cfg11.N) :
    (iblk11 V c 2 t : Vec Ideal S64x64 .f32) = (V c (Pipeline.arrRef spec11 2) : S64x64.Idx → EReal) := by
  obtain ⟨-, -, -, -, -, -, e20, e21, e30, e31, e40, e41⟩ := index_maps11 t
  funext y
  unfold iblk11
  rw [View.read_apply]
  show (V c (Pipeline.arrRef spec11 2) : S64x64.Idx → EReal) (((cfg11.win 2).blk t).view.emb y) = _
  refine congrArg _ (funext fun a => Fin.ext ?_)
  match a with
  | ⟨0, _⟩ => show win11_2.index t (0 : Fin 2) * 64 + 1 * (y 0).val = (y 0).val; omega
  | ⟨1, _⟩ => show win11_2.index t (1 : Fin 2) * 64 + 1 * (y 1).val = (y 1).val; omega

/-- Window 3's block at every point is its whole array. -/
theorem iblk11_3_eq (c : Dev nD) (t : Fin cfg11.N) :
    (iblk11 V c 3 t : Vec Ideal S1x64 .f32) = (V c (Pipeline.arrRef spec11 3) : S1x64.Idx → EReal) := by
  obtain ⟨-, -, -, -, -, -, e20, e21, e30, e31, e40, e41⟩ := index_maps11 t
  funext y
  unfold iblk11
  rw [View.read_apply]
  show (V c (Pipeline.arrRef spec11 3) : S1x64.Idx → EReal) (((cfg11.win 3).blk t).view.emb y) = _
  refine congrArg _ (funext fun a => Fin.ext ?_)
  match a with
  | ⟨0, _⟩ => show win11_3.index t (0 : Fin 2) * 1 + 1 * (y 0).val = (y 0).val; omega
  | ⟨1, _⟩ => show win11_3.index t (1 : Fin 2) * 64 + 1 * (y 1).val = (y 1).val; omega

/-- Window 4's block at every point is its whole array. -/
theorem iblk11_4_eq (c : Dev nD) (t : Fin cfg11.N) :
    (iblk11 V c 4 t : Vec Ideal S64x64 .f32) = (V c (Pipeline.arrRef spec11 4) : S64x64.Idx → EReal) := by
  obtain ⟨-, -, -, -, -, -, e20, e21, e30, e31, e40, e41⟩ := index_maps11 t
  funext y
  unfold iblk11
  rw [View.read_apply]
  show (V c (Pipeline.arrRef spec11 4) : S64x64.Idx → EReal) (((cfg11.win 4).blk t).view.emb y) = _
  refine congrArg _ (funext fun a => Fin.ext ?_)
  match a with
  | ⟨0, _⟩ => show win11_4.index t (0 : Fin 2) * 64 + 1 * (y 0).val = (y 0).val; omega
  | ⟨1, _⟩ => show win11_4.index t (1 : Fin 2) * 64 + 1 * (y 1).val = (y 1).val; omega

/-- The row and the column of an entry of the output's block at point t. -/
theorem emb11_row (t : Fin cfg11.N) (y : S6400x64.Idx) :
    ((((cfg11.win 5).blk t).view.emb y : S102400x64.Idx) 0).val = t.val * 6400 + (y 0).val := by
  obtain ⟨e50, e51, -⟩ := index_maps11 t
  show win11_5.index t (0 : Fin 2) * 6400 + 1 * (y 0).val = _
  omega
theorem emb11_col (t : Fin cfg11.N) (y : S6400x64.Idx) :
    ((((cfg11.win 5).blk t).view.emb y : S102400x64.Idx) 1).val = (y 1).val := by
  obtain ⟨e50, e51, -⟩ := index_maps11 t
  show win11_5.index t (1 : Fin 2) * 64 + 1 * (y 1).val = (y 1).val
  omega

/-- What point t writes back is block t of the array function of the arrays the region finds. -/
theorem flushed11_eq (c : Dev nD) (t : Fin cfg11.N) :
    (dat11 V c).flushed 5 t = ((cfg11.win 5).blk t).view.read (Elt Ideal)
      (GGc 64 (V c (Pipeline.arrRef spec11 0)) (V c (Pipeline.arrRef spec11 1)) (V c (Pipeline.arrRef spec11 2))
        (V c (Pipeline.arrRef spec11 3)) (V c (Pipeline.arrRef spec11 4))) := by
  show (cfg11.win 5).cut (grid11.coords t) ((dat11 V c).after 5 t) = _
  rw [after11_5]
  unfold out11_5
  rw [View.canon_unit_zero zero_offsets11]
  simp only [View.ld_unit_zero (S := S6400x64) zero_offsets11, View.ld_unit_zero (S := S64x64) zero_offsets11,
    View.ld_unit_zero (S := S1x64) zero_offsets11]
  funext j
  rw [View.read_apply]
  show k11_pay1 (iblk11 V c 0 t) (iblk11 V c 1 t) (iblk11 V c 2 t) (iblk11 V c 4 t) (iblk11 V c 3 t) j = _
  exact gc11_point (iblk11 V c 0 t) (iblk11 V c 1 t) (iblk11 V c 2 t) (iblk11 V c 4 t) (iblk11 V c 3 t)
    (V c (Pipeline.arrRef spec11 0)) (V c (Pipeline.arrRef spec11 1)) (V c (Pipeline.arrRef spec11 2))
    (V c (Pipeline.arrRef spec11 3)) (V c (Pipeline.arrRef spec11 4)) j (((cfg11.win 5).blk t).view.emb j)
    (fun k => iblk11_0_apply V c t (ix2 (j 0 : Fin 6400) k) (ix2 ((((cfg11.win 5).blk t).view.emb j : S102400x64.Idx) 0 : Fin 102400) k) (emb11_row t j) rfl)
    (fun k => iblk11_1_apply V c t (ix2 (j 0 : Fin 6400) k) (ix2 ((((cfg11.win 5).blk t).view.emb j : S102400x64.Idx) 0 : Fin 102400) k) (emb11_row t j) rfl)
    (iblk11_2_eq V c t) (iblk11_3_eq V c t) (iblk11_4_eq V c t) (emb11_col t j)

/-- An index of the output array is in point t's block iff each coordinate is in the block's range on its axis. -/
theorem mem_blk11 (t : Fin cfg11.N) (i : S102400x64.Idx) :
    i ∈ ((cfg11.win 5).blk t).view.set ↔ ∀ a : Fin 2, win11_5.index t a * S6400x64.size a ≤ (i a).val
      ∧ (i a).val < win11_5.index t a * S6400x64.size a + S6400x64.size a := by
  show i ∈ ((View.whole main_v373).slice (win11_5.rect t)).set ↔ _
  rw [View.set_slice_whole, Rect.mem_set_unit]
  exact Iff.rfl

/-- Every entry of the output array is in some point's block: row r in the block of point r / 6400. -/
theorem cover11 (i : S102400x64.Idx) :
    ∃ t : Fin cfg11.N, (cfg11.win 5).flush t = true ∧ i ∈ ((cfg11.win 5).blk t).view.set := by
  have hi0 : (i 0).val < 102400 := (i 0).isLt
  have hi1 : (i 1).val < 64 := (i 1).isLt
  have hN : cfg11.N = 16 := N_11
  let t : Fin cfg11.N := ⟨(i 0).val / 6400, by rw [hN]; omega⟩
  obtain ⟨e50, e51, -⟩ := index_maps11 t
  have e50' : win11_5.index t (0 : Fin 2) = (i 0).val / 6400 := e50
  refine ⟨t, flush11_5 t, ?_⟩
  rw [mem_blk11]
  intro a
  match a with
  | ⟨0, _⟩ => show win11_5.index t (0 : Fin 2) * 6400 ≤ (i 0).val ∧ (i 0).val < win11_5.index t (0 : Fin 2) * 6400 + 6400; omega
  | ⟨1, _⟩ => show win11_5.index t (1 : Fin 2) * 64 ≤ (i 1).val ∧ (i 1).val < win11_5.index t (1 : Fin 2) * 64 + 64; omega

/-- The output array after the region's run. -/
theorem final11 (c : Dev nD) :
    (dat11 (F := Ideal) V c).arrAt 5 cfg11.N
      = GGc 64 (V c (Pipeline.arrRef spec11 0)) (V c (Pipeline.arrRef spec11 1)) (V c (Pipeline.arrRef spec11 2))
          (V c (Pipeline.arrRef spec11 3)) (V c (Pipeline.arrRef spec11 4)) :=
  (dat11 V c).arrAt_eq_of_cover 5 _ (fun t _ => flushed11_eq V c t) (cover11)

end Cert.KernelIdeal.Val

end
-- ==== Proof.ValReadout12.lean ====
/-
  Region 12 (the readout, one grid point, every window whole): the array its output window ends holding is the readout
  of the arrays its ten input windows read. Each window's one block is its whole array, so what the single point writes
  back is the readout of the whole arrays, and its block is the whole output.
-/
import proofs.«133701_j46024869544456_1_alg».proof.Proof.FrameKI
import Idealize.ShloMosaic.Lib.Pipeline.Value
import proofs.«133701_j46024869544456_1_alg».proof.Proof.ValReadout

set_option maxHeartbeats 1000000
set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff12 : (![0, 0] : Fin 2 → Nat) = fun _ => 0 := funext fun a => by fin_cases a <;> rfl

/-- The first input's one block is its whole array. -/
theorem blk_whole12_0 (c : Dev nD) (t : Fin cfg12.N) : iblk12 V c 0 t = V c (Pipeline.arrRef spec12 0) := by
  have e0 : win12_0.index t (0 : Fin 2) = 0 := rfl
  have e1 : win12_0.index t (1 : Fin 2) = 0 := rfl
  funext z
  show V c (Pipeline.arrRef spec12 0) (((cfg12.win 0).blk t).view.emb z) = _
  refine congrArg _ (funext fun a => Fin.ext ?_)
  match a with
  | ⟨0, _⟩ => show win12_0.index t (0 : Fin 2) * 256 + 1 * (z 0).val = (z 0).val; omega
  | ⟨1, _⟩ => show win12_0.index t (1 : Fin 2) * 64 + 1 * (z 1).val = (z 1).val; omega

/-- The second input's one block is its whole array. -/
theorem blk_whole12_1 (c : Dev nD) (t : Fin cfg12.N) : iblk12 V c 1 t = V c (Pipeline.arrRef spec12 1) := by
  have e0 : win12_1.index t (0 : Fin 2) = 0 := rfl
  have e1 : win12_1.index t (1 : Fin 2) = 0 := rfl
  funext z
  show V c (Pipeline.arrRef spec12 1) (((cfg12.win 1).blk t).view.emb z) = _
  refine congrArg _ (funext fun a => Fin.ext ?_)
  match a with
  | ⟨0, _⟩ => show win12_1.index t (0 : Fin 2) * 256 + 1 * (z 0).val = (z 0).val; omega
  | ⟨1, _⟩ => show win12_1.index t (1 : Fin 2) * 64 + 1 * (z 1).val = (z 1).val; omega

/-- The third input's one block is its whole array. -/
theorem blk_whole12_2 (c : Dev nD) (t : Fin cfg12.N) : iblk12 V c 2 t = V c (Pipeline.arrRef spec12 2) := by
  have e0 : win12_2.index t (0 : Fin 2) = 0 := rfl
  have e1 : win12_2.index t (1 : Fin 2) = 0 := rfl
  funext z
  show V c (Pipeline.arrRef spec12 2) (((cfg12.win 2).blk t).view.emb z) = _
  refine congrArg _ (funext fun a => Fin.ext ?_)
  match a with
  | ⟨0, _⟩ => show win12_2.index t (0 : Fin 2) * 128 + 1 * (z 0).val = (z 0).val; omega
  | ⟨1, _⟩ => show win12_2.index t (1 : Fin 2) * 64 + 1 * (z 1).val = (z 1).val; omega

/-- The fourth input's one block is its whole array. -/
theorem blk_whole12_3 (c : Dev nD) (t : Fin cfg12.N) : iblk12 V c 3 t = V c (Pipeline.arrRef spec12 3) := by
  have e0 : win12_3.index t (0 : Fin 2) = 0 := rfl
  have e1 : win12_3.index t (1 : Fin 2) = 0 := rfl
  funext z
  show V c (Pipeline.arrRef spec12 3) (((cfg12.win 3).blk t).view.emb z) = _
  refine congrArg _ (funext fun a => Fin.ext ?_)
  match a with
  | ⟨0, _⟩ => show win12_3.index t (0 : Fin 2) * 1 + 1 * (z 0).val = (z 0).val; omega
  | ⟨1, _⟩ => show win12_3.index t (1 : Fin 2) * 64 + 1 * (z 1).val = (z 1).val; omega

/-- The fifth input's one block is its whole array. -/
theorem blk_whole12_4 (c : Dev nD) (t : Fin cfg12.N) : iblk12 V c 4 t = V c (Pipeline.arrRef spec12 4) := by
  have e0 : win12_4.index t (0 : Fin 2) = 0 := rfl
  have e1 : win12_4.index t (1 : Fin 2) = 0 := rfl
  funext z
  show V c (Pipeline.arrRef spec12 4) (((cfg12.win 4).blk t).view.emb z) = _
  refine congrArg _ (funext fun a => Fin.ext ?_)
  match a with
  | ⟨0, _⟩ => show win12_4.index t (0 : Fin 2) * 64 + 1 * (z 0).val = (z 0).val; omega
  | ⟨1, _⟩ => show win12_4.index t (1 : Fin 2) * 32 + 1 * (z 1).val = (z 1).val; omega

/-- The sixth input's one block is its whole array. -/
theorem blk_whole12_5 (c : Dev nD) (t : Fin cfg12.N) : iblk12 V c 5 t = V c (Pipeline.arrRef spec12 5) := by
  have e0 : win12_5.index t (0 : Fin 2) = 0 := rfl
  have e1 : win12_5.index t (1 : Fin 2) = 0 := rfl
  funext z
  show V c (Pipeline.arrRef spec12 5) (((cfg12.win 5).blk t).view.emb z) = _
  refine congrArg _ (funext fun a => Fin.ext ?_)
  match a with
  | ⟨0, _⟩ => show win12_5.index t (0 : Fin 2) * 1 + 1 * (z 0).val = (z 0).val; omega
  | ⟨1, _⟩ => show win12_5.index t (1 : Fin 2) * 32 + 1 * (z 1).val = (z 1).val; omega

/-- The seventh input's one block is its whole array. -/
theorem blk_whole12_6 (c : Dev nD) (t : Fin cfg12.N) : iblk12 V c 6 t = V c (Pipeline.arrRef spec12 6) := by
  have e0 : win12_6.index t (0 : Fin 2) = 0 := rfl
  have e1 : win12_6.index t (1 : Fin 2) = 0 := rfl
  funext z
  show V c (Pipeline.arrRef spec12 6) (((cfg12.win 6).blk t).view.emb z) = _
  refine congrArg _ (funext fun a => Fin.ext ?_)
  match a with
  | ⟨0, _⟩ => show win12_6.index t (0 : Fin 2) * 32 + 1 * (z 0).val = (z 0).val; omega
  | ⟨1, _⟩ => show win12_6.index t (1 : Fin 2) * 16 + 1 * (z 1).val = (z 1).val; omega

/-- The eighth input's one block is its whole array. -/
theorem blk_whole12_7 (c : Dev nD) (t : Fin cfg12.N) : iblk12 V c 7 t = V c (Pipeline.arrRef spec12 7) := by
  have e0 : win12_7.index t (0 : Fin 2) = 0 := rfl
  have e1 : win12_7.index t (1 : Fin 2) = 0 := rfl
  funext z
  show V c (Pipeline.arrRef spec12 7) (((cfg12.win 7).blk t).view.emb z) = _
  refine congrArg _ (funext fun a => Fin.ext ?_)
  match a with
  | ⟨0, _⟩ => show win12_7.index t (0 : Fin 2) * 1 + 1 * (z 0).val = (z 0).val; omega
  | ⟨1, _⟩ => show win12_7.index t (1 : Fin 2) * 16 + 1 * (z 1).val = (z 1).val; omega

/-- The ninth input's one block is its whole array. -/
theorem blk_whole12_8 (c : Dev nD) (t : Fin cfg12.N) : iblk12 V c 8 t = V c (Pipeline.arrRef spec12 8) := by
  have e0 : win12_8.index t (0 : Fin 2) = 0 := rfl
  have e1 : win12_8.index t (1 : Fin 2) = 0 := rfl
  funext z
  show V c (Pipeline.arrRef spec12 8) (((cfg12.win 8).blk t).view.emb z) = _
  refine congrArg _ (funext fun a => Fin.ext ?_)
  match a with
  | ⟨0, _⟩ => show win12_8.index t (0 : Fin 2) * 16 + 1 * (z 0).val = (z 0).val; omega
  | ⟨1, _⟩ => show win12_8.index t (1 : Fin 2) * 1 + 1 * (z 1).val = (z 1).val; omega

/-- The tenth input's one block is its whole array. -/
theorem blk_whole12_9 (c : Dev nD) (t : Fin cfg12.N) : iblk12 V c 9 t = V c (Pipeline.arrRef spec12 9) := by
  have e0 : win12_9.index t (0 : Fin 2) = 0 := rfl
  have e1 : win12_9.index t (1 : Fin 2) = 0 := rfl
  funext z
  show V c (Pipeline.arrRef spec12 9) (((cfg12.win 9).blk t).view.emb z) = _
  refine congrArg _ (funext fun a => Fin.ext ?_)
  match a with
  | ⟨0, _⟩ => show win12_9.index t (0 : Fin 2) * 1 + 1 * (z 0).val = (z 0).val; omega
  | ⟨1, _⟩ => show win12_9.index t (1 : Fin 2) * 1 + 1 * (z 1).val = (z 1).val; omega

/-- An entry of the output's one block sits at the same place in the array. -/
theorem blk_out12 (t : Fin cfg12.N) (y : S256x1.Idx) : y = ((cfg12.win 10).blk t).view.emb y := by
  have e0 : win12_10.index t (0 : Fin 2) = 0 := rfl
  have e1 : win12_10.index t (1 : Fin 2) = 0 := rfl
  refine funext fun a => Fin.ext ?_
  match a with
  | ⟨0, _⟩ => show (y 0).val = win12_10.index t (0 : Fin 2) * 256 + 1 * (y 0).val; omega
  | ⟨1, _⟩ => show (y 1).val = win12_10.index t (1 : Fin 2) * 1 + 1 * (y 1).val; omega

/-- What the body leaves in the output's buffer: the readout of the ten blocks it loads. -/
theorem left12_eq (c : Dev nD) (t : Fin cfg12.N) :
    (dat12 (F := Ideal) V c).after 10 t
      = readout (n := 256) (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) := by
  rw [after12_10]
  unfold out12_10
  rw [View.canon_unit_zero zeroOff12]
  simp only [View.ld_unit_zero (S := S256x64) zeroOff12,
    View.ld_unit_zero (S := S128x64) zeroOff12,
    View.ld_unit_zero (S := S1x64) zeroOff12,
    View.ld_unit_zero (S := S64x32) zeroOff12,
    View.ld_unit_zero (S := S1x32) zeroOff12,
    View.ld_unit_zero (S := S32x16) zeroOff12,
    View.ld_unit_zero (S := S1x16) zeroOff12,
    View.ld_unit_zero (S := S16x1) zeroOff12,
    View.ld_unit_zero (S := S1x1) zeroOff12]
  exact k12_eq _ _ _ _ _ _ _ _ _ _

/-- The readout of the blocks, at an entry of the output's block, is the readout of the whole arrays at the array's
    entry under it. -/
theorem at_block12 (c : Dev nD) (t : Fin cfg12.N) (y : S256x1.Idx) :
    readout (n := 256) (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) y
      = readout (n := 256) (V c (Pipeline.arrRef spec12 0))
          (V c (Pipeline.arrRef spec12 1))
          (V c (Pipeline.arrRef spec12 2))
          (V c (Pipeline.arrRef spec12 3))
          (V c (Pipeline.arrRef spec12 4))
          (V c (Pipeline.arrRef spec12 5))
          (V c (Pipeline.arrRef spec12 6))
          (V c (Pipeline.arrRef spec12 7))
          (V c (Pipeline.arrRef spec12 8))
          (V c (Pipeline.arrRef spec12 9)) (((cfg12.win 10).blk t).view.emb y) :=
  readout_congr (n := 256) (blk_whole12_0 V c t) (blk_whole12_1 V c t) (blk_whole12_2 V c t) (blk_whole12_3 V c t) (blk_whole12_4 V c t) (blk_whole12_5 V c t) (blk_whole12_6 V c t) (blk_whole12_7 V c t) (blk_whole12_8 V c t) (blk_whole12_9 V c t)
    (blk_out12 t y)

/-- What the one point writes back is its block of the readout of the arrays the region finds. -/
theorem flushed12_eq (c : Dev nD) (t : Fin cfg12.N) :
    (dat12 (F := Ideal) V c).flushed 10 t
      = ((cfg12.win 10).blk t).view.read (Elt Ideal)
          (readout (n := 256) (V c (Pipeline.arrRef spec12 0))
          (V c (Pipeline.arrRef spec12 1))
          (V c (Pipeline.arrRef spec12 2))
          (V c (Pipeline.arrRef spec12 3))
          (V c (Pipeline.arrRef spec12 4))
          (V c (Pipeline.arrRef spec12 5))
          (V c (Pipeline.arrRef spec12 6))
          (V c (Pipeline.arrRef spec12 7))
          (V c (Pipeline.arrRef spec12 8))
          (V c (Pipeline.arrRef spec12 9))) := by
  show (cfg12.win 10).cut (grid12.coords t) ((dat12 V c).after 10 t) = _
  rw [left12_eq]
  exact funext fun y => at_block12 V c t y

/-- An index of the array is in the point's block iff each coordinate is in the block's range on its axis. -/
theorem mem_blk12 (t : Fin cfg12.N) (i : S256x1.Idx) :
    i ∈ ((cfg12.win 10).blk t).view.set ↔ ∀ a : Fin 2, win12_10.index t a * S256x1.size a ≤ (i a).val
      ∧ (i a).val < win12_10.index t a * S256x1.size a + S256x1.size a := by
  show i ∈ ((View.whole main_v390).slice (win12_10.rect t)).set ↔ _
  rw [View.set_slice_whole, Rect.mem_set_unit]
  exact Iff.rfl

/-- The one block is the whole output. -/
theorem cover12 (i : S256x1.Idx) :
    ∃ t : Fin cfg12.N, (cfg12.win 10).flush t = true ∧ i ∈ ((cfg12.win 10).blk t).view.set := by
  have hi0 : (i 0).val < 256 := (i 0).isLt
  have hi1 : (i 1).val < 1 := (i 1).isLt
  have hN : cfg12.N = 1 := N_12
  let t : Fin cfg12.N := ⟨0, by rw [hN]; omega⟩
  have e0 : win12_10.index t (0 : Fin 2) = 0 := rfl
  have e1 : win12_10.index t (1 : Fin 2) = 0 := rfl
  refine ⟨t, flush12_10 t, ?_⟩
  rw [mem_blk12]
  intro a
  match a with
  | ⟨0, _⟩ =>
    show win12_10.index t (0 : Fin 2) * 256 ≤ (i 0).val ∧ (i 0).val < win12_10.index t (0 : Fin 2) * 256 + 256
    omega
  | ⟨1, _⟩ =>
    show win12_10.index t (1 : Fin 2) * 1 ≤ (i 1).val ∧ (i 1).val < win12_10.index t (1 : Fin 2) * 1 + 1
    omega

/-- The array the output window ends holding: the readout of the arrays the input windows read. -/
theorem final12 (c : Dev nD) :
    (dat12 (F := Ideal) V c).arrAt 10 cfg12.N
      = readout (n := 256) (V c (Pipeline.arrRef spec12 0))
          (V c (Pipeline.arrRef spec12 1))
          (V c (Pipeline.arrRef spec12 2))
          (V c (Pipeline.arrRef spec12 3))
          (V c (Pipeline.arrRef spec12 4))
          (V c (Pipeline.arrRef spec12 5))
          (V c (Pipeline.arrRef spec12 6))
          (V c (Pipeline.arrRef spec12 7))
          (V c (Pipeline.arrRef spec12 8))
          (V c (Pipeline.arrRef spec12 9)) :=
  (dat12 (F := Ideal) V c).arrAt_eq_of_cover 10 _ (fun t _ => flushed12_eq V c t) (cover12)

end Cert.KernelIdeal.Val

end
-- ==== Proof.Assemble.lean ====
/-
  The two idealized programs, run from memories that agree on the arguments, end with the same result array.

  The kernel's buffer contents at its segment boundaries and the reference's after each piece of its operation list are
  compared stage by stage: the input embedding, then in each of the five layers the aggregation, the perceptron (a kernel
  region against two host matrix products) and the batch normalisation (a kernel region against the host's
  divide-by-square-root, equal because a variance is never negative), then the read-out (two regions of matrix products
  and the final perceptron region). Each stage is a lemma about arbitrary buffer contents; here they are chained at the
  concrete contents, the arguments and the three index arrays being carried along unchanged.
-/
import proofs.«133701_j46024869544456_1_alg».proof.Proof.KRun
import proofs.«133701_j46024869544456_1_alg».proof.Proof.KChain
import proofs.«133701_j46024869544456_1_alg».proof.Proof.RefChain
import proofs.«133701_j46024869544456_1_alg».proof.Proof.StageL0
import proofs.«133701_j46024869544456_1_alg».proof.Proof.StageL1
import proofs.«133701_j46024869544456_1_alg».proof.Proof.StageL2
import proofs.«133701_j46024869544456_1_alg».proof.Proof.StageL3
import proofs.«133701_j46024869544456_1_alg».proof.Proof.StageL4
import proofs.«133701_j46024869544456_1_alg».proof.Proof.StageL5
import proofs.«133701_j46024869544456_1_alg».proof.Proof.StageTail
import proofs.«133701_j46024869544456_1_alg».proof.Proof.StageCut
import proofs.«133701_j46024869544456_1_alg».proof.Proof.StageRo
import proofs.«133701_j46024869544456_1_alg».proof.Proof.StageKeep
import proofs.«133701_j46024869544456_1_alg».proof.Proof.ValGinMlp0
import proofs.«133701_j46024869544456_1_alg».proof.Proof.ValGinMlp2
import proofs.«133701_j46024869544456_1_alg».proof.Proof.ValGinMlp4
import proofs.«133701_j46024869544456_1_alg».proof.Proof.ValGinMlp6
import proofs.«133701_j46024869544456_1_alg».proof.Proof.ValGinMlp8
import proofs.«133701_j46024869544456_1_alg».proof.Proof.ValBn1
import proofs.«133701_j46024869544456_1_alg».proof.Proof.ValBn3
import proofs.«133701_j46024869544456_1_alg».proof.Proof.ValBn5
import proofs.«133701_j46024869544456_1_alg».proof.Proof.ValBn7
import proofs.«133701_j46024869544456_1_alg».proof.Proof.ValBn9
import proofs.«133701_j46024869544456_1_alg».proof.Proof.ValGc10
import proofs.«133701_j46024869544456_1_alg».proof.Proof.ValGc11
import proofs.«133701_j46024869544456_1_alg».proof.Proof.ValReadout12

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- After the first stretch: the embedded node features and the three index arrays agree. -/
theorem start_h (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    W2 m ρ c (Proc.devRef .tc Cert.KernelIdeal.main_v15) = (Cert.ReferenceIdeal.Hand.R_q0 m' c) (Proc.devRef .tc Cert.ReferenceIdeal.main_v15) :=
  embed (W0 m ρ c) (Cert.ReferenceIdeal.Hand.R_init m' c) ((Cert.KernelIdeal.Chain.launch_at m ρ c Cert.KernelIdeal.main_arg0).trans (a0.symm.trans (Cert.ReferenceIdeal.Hand.launch_at m' c Cert.ReferenceIdeal.main_arg0).symm)) ((Cert.KernelIdeal.Chain.launch_at m ρ c Cert.KernelIdeal.main_arg8).trans (a8.symm.trans (Cert.ReferenceIdeal.Hand.launch_at m' c Cert.ReferenceIdeal.main_arg8).symm)) ((Cert.KernelIdeal.Chain.launch_at m ρ c Cert.KernelIdeal.main_arg9).trans (a9.symm.trans (Cert.ReferenceIdeal.Hand.launch_at m' c Cert.ReferenceIdeal.main_arg9).symm))
theorem start_v3 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    W2 m ρ c (Proc.devRef .tc Cert.KernelIdeal.main_v3) = (Cert.ReferenceIdeal.Hand.R_q0 m' c) (Proc.devRef .tc Cert.ReferenceIdeal.main_v3) :=
  edgeSrc (W0 m ρ c) (Cert.ReferenceIdeal.Hand.R_init m' c) ((Cert.KernelIdeal.Chain.launch_at m ρ c Cert.KernelIdeal.main_arg1).trans (a1.symm.trans (Cert.ReferenceIdeal.Hand.launch_at m' c Cert.ReferenceIdeal.main_arg1).symm))
theorem start_v6 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    W2 m ρ c (Proc.devRef .tc Cert.KernelIdeal.main_v6) = (Cert.ReferenceIdeal.Hand.R_q0 m' c) (Proc.devRef .tc Cert.ReferenceIdeal.main_v6) :=
  edgeDst (W0 m ρ c) (Cert.ReferenceIdeal.Hand.R_init m' c) ((Cert.KernelIdeal.Chain.launch_at m ρ c Cert.KernelIdeal.main_arg1).trans (a1.symm.trans (Cert.ReferenceIdeal.Hand.launch_at m' c Cert.ReferenceIdeal.main_arg1).symm))
theorem start_v10 (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    W2 m ρ c (Proc.devRef .tc Cert.KernelIdeal.main_v10) = (Cert.ReferenceIdeal.Hand.R_q0 m' c) (Proc.devRef .tc Cert.ReferenceIdeal.main_v10) :=
  edgeAttr (W0 m ρ c) (Cert.ReferenceIdeal.Hand.R_init m' c) ((Cert.KernelIdeal.Chain.launch_at m ρ c Cert.KernelIdeal.main_arg2).trans (a2.symm.trans (Cert.ReferenceIdeal.Hand.launch_at m' c Cert.ReferenceIdeal.main_arg2).symm))

/-- Layer 1: from equal node features, equal node features. -/
theorem layer1 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hv3 : W2 m ρ c (Proc.devRef .tc Cert.KernelIdeal.main_v3) = (Cert.ReferenceIdeal.Hand.R_q0 m' c) (Proc.devRef .tc Cert.ReferenceIdeal.main_v3)) (hv6 : W2 m ρ c (Proc.devRef .tc Cert.KernelIdeal.main_v6) = (Cert.ReferenceIdeal.Hand.R_q0 m' c) (Proc.devRef .tc Cert.ReferenceIdeal.main_v6))
    (hv10 : W2 m ρ c (Proc.devRef .tc Cert.KernelIdeal.main_v10) = (Cert.ReferenceIdeal.Hand.R_q0 m' c) (Proc.devRef .tc Cert.ReferenceIdeal.main_v10))
    (hprev : W2 m ρ c (Proc.devRef .tc Cert.KernelIdeal.main_v15) = (Cert.ReferenceIdeal.Hand.R_q0 m' c) (Proc.devRef .tc Cert.ReferenceIdeal.main_v15)) :
    W8 m ρ c (Proc.devRef .tc Cert.KernelIdeal.main_v73) = (Cert.ReferenceIdeal.Hand.R_q5 m' c) (Proc.devRef .tc Cert.ReferenceIdeal.main_v90) := by
  have eagg : after Cert.KernelIdeal.Gen.hostOps0_2 (W2 m ρ c) (Proc.devRef .tc Cert.KernelIdeal.main_v49) = (Cert.ReferenceIdeal.Hand.R_q1 m' c) (Proc.devRef .tc Cert.ReferenceIdeal.main_v49) :=
    agg1 (W2 m ρ c) (Cert.ReferenceIdeal.Hand.R_q0 m' c) hprev hv3 hv6 hv10 (((Cert.KernelIdeal.Chain.args2 m ρ c Cert.KernelIdeal.main_arg14 (by decide)).trans (Cert.KernelIdeal.Chain.launch_at m ρ c Cert.KernelIdeal.main_arg14)).trans (a14.symm.trans ((Cert.ReferenceIdeal.Hand.args_at_q0 m' c Cert.ReferenceIdeal.main_arg14 (by decide)).trans (Cert.ReferenceIdeal.Hand.launch_at m' c Cert.ReferenceIdeal.main_arg14)).symm)) (((Cert.KernelIdeal.Chain.args2 m ρ c Cert.KernelIdeal.main_arg15 (by decide)).trans (Cert.KernelIdeal.Chain.launch_at m ρ c Cert.KernelIdeal.main_arg15)).trans (a15.symm.trans ((Cert.ReferenceIdeal.Hand.args_at_q0 m' c Cert.ReferenceIdeal.main_arg15 (by decide)).trans (Cert.ReferenceIdeal.Hand.launch_at m' c Cert.ReferenceIdeal.main_arg15)).symm))
  have eh2 : W4 m ρ c (Proc.devRef .tc Cert.KernelIdeal.main_v60) = (Cert.ReferenceIdeal.Hand.R_q3 m' c) (Proc.devRef .tc Cert.ReferenceIdeal.main_v66) :=
    ((W4_arr m ρ c 5).trans (Cert.KernelIdeal.Val.final0 (V3 m ρ) c)).trans
      (gin1 (W2 m ρ c) (Cert.ReferenceIdeal.Hand.R_q1 m' c) eagg (((Cert.KernelIdeal.Chain.args2 m ρ c Cert.KernelIdeal.main_arg10 (by decide)).trans (Cert.KernelIdeal.Chain.launch_at m ρ c Cert.KernelIdeal.main_arg10)).trans (a10.symm.trans ((Cert.ReferenceIdeal.Hand.args_at_q1 m' c Cert.ReferenceIdeal.main_arg10 (by decide)).trans (Cert.ReferenceIdeal.Hand.launch_at m' c Cert.ReferenceIdeal.main_arg10)).symm)) (((Cert.KernelIdeal.Chain.args2 m ρ c Cert.KernelIdeal.main_arg11 (by decide)).trans (Cert.KernelIdeal.Chain.launch_at m ρ c Cert.KernelIdeal.main_arg11)).trans (a11.symm.trans ((Cert.ReferenceIdeal.Hand.args_at_q1 m' c Cert.ReferenceIdeal.main_arg11 (by decide)).trans (Cert.ReferenceIdeal.Hand.launch_at m' c Cert.ReferenceIdeal.main_arg11)).symm)) (((Cert.KernelIdeal.Chain.args2 m ρ c Cert.KernelIdeal.main_arg12 (by decide)).trans (Cert.KernelIdeal.Chain.launch_at m ρ c Cert.KernelIdeal.main_arg12)).trans (a12.symm.trans ((Cert.ReferenceIdeal.Hand.args_at_q1 m' c Cert.ReferenceIdeal.main_arg12 (by decide)).trans (Cert.ReferenceIdeal.Hand.launch_at m' c Cert.ReferenceIdeal.main_arg12)).symm)) (((Cert.KernelIdeal.Chain.args2 m ρ c Cert.KernelIdeal.main_arg13 (by decide)).trans (Cert.KernelIdeal.Chain.launch_at m ρ c Cert.KernelIdeal.main_arg13)).trans (a13.symm.trans ((Cert.ReferenceIdeal.Hand.args_at_q1 m' c Cert.ReferenceIdeal.main_arg13 (by decide)).trans (Cert.ReferenceIdeal.Hand.launch_at m' c Cert.ReferenceIdeal.main_arg13)).symm)))
  exact ((W8_arr m ρ c 5).trans (Cert.KernelIdeal.Val.final1 (V7 m ρ) c)).trans
    (bn1 (W4 m ρ c) (Cert.ReferenceIdeal.Hand.R_q3 m' c) eh2 (((Cert.KernelIdeal.Chain.keep4 m ρ c Cert.KernelIdeal.main_arg16 (by decide)).trans ((Cert.KernelIdeal.Chain.args2 m ρ c Cert.KernelIdeal.main_arg16 (by decide)).trans (Cert.KernelIdeal.Chain.launch_at m ρ c Cert.KernelIdeal.main_arg16))).trans (a16.symm.trans ((Cert.ReferenceIdeal.Hand.args_at_q3 m' c Cert.ReferenceIdeal.main_arg16 (by decide)).trans (Cert.ReferenceIdeal.Hand.launch_at m' c Cert.ReferenceIdeal.main_arg16)).symm)) (((Cert.KernelIdeal.Chain.keep4 m ρ c Cert.KernelIdeal.main_arg17 (by decide)).trans ((Cert.KernelIdeal.Chain.args2 m ρ c Cert.KernelIdeal.main_arg17 (by decide)).trans (Cert.KernelIdeal.Chain.launch_at m ρ c Cert.KernelIdeal.main_arg17))).trans (a17.symm.trans ((Cert.ReferenceIdeal.Hand.args_at_q3 m' c Cert.ReferenceIdeal.main_arg17 (by decide)).trans (Cert.ReferenceIdeal.Hand.launch_at m' c Cert.ReferenceIdeal.main_arg17)).symm)))

/-- Layer 2: from equal node features, equal node features. -/
theorem layer2 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hv3 : W2 m ρ c (Proc.devRef .tc Cert.KernelIdeal.main_v3) = (Cert.ReferenceIdeal.Hand.R_q0 m' c) (Proc.devRef .tc Cert.ReferenceIdeal.main_v3)) (hv6 : W2 m ρ c (Proc.devRef .tc Cert.KernelIdeal.main_v6) = (Cert.ReferenceIdeal.Hand.R_q0 m' c) (Proc.devRef .tc Cert.ReferenceIdeal.main_v6))
    (hv10 : W2 m ρ c (Proc.devRef .tc Cert.KernelIdeal.main_v10) = (Cert.ReferenceIdeal.Hand.R_q0 m' c) (Proc.devRef .tc Cert.ReferenceIdeal.main_v10))
    (hprev : W8 m ρ c (Proc.devRef .tc Cert.KernelIdeal.main_v73) = (Cert.ReferenceIdeal.Hand.R_q5 m' c) (Proc.devRef .tc Cert.ReferenceIdeal.main_v90)) :
    W14 m ρ c (Proc.devRef .tc Cert.KernelIdeal.main_v131) = (Cert.ReferenceIdeal.Hand.R_q11 m' c) (Proc.devRef .tc Cert.ReferenceIdeal.main_v165) := by
  have eagg : after Cert.KernelIdeal.Gen.hostOps2 (W8 m ρ c) (Proc.devRef .tc Cert.KernelIdeal.main_v107) = (Cert.ReferenceIdeal.Hand.R_q7 m' c) (Proc.devRef .tc Cert.ReferenceIdeal.main_v124) :=
    agg2 (W8 m ρ c) (Cert.ReferenceIdeal.Hand.R_q5 m' c) hprev (((Cert.KernelIdeal.Chain.keep8 m ρ c Cert.KernelIdeal.main_v3 (by decide)).trans hv3).trans (Cert.ReferenceIdeal.Hand.kept_at_q5 m' c Cert.ReferenceIdeal.main_v3 (by decide)).symm) (((Cert.KernelIdeal.Chain.keep8 m ρ c Cert.KernelIdeal.main_v6 (by decide)).trans hv6).trans (Cert.ReferenceIdeal.Hand.kept_at_q5 m' c Cert.ReferenceIdeal.main_v6 (by decide)).symm) (((Cert.KernelIdeal.Chain.keep8 m ρ c Cert.KernelIdeal.main_v10 (by decide)).trans hv10).trans (Cert.ReferenceIdeal.Hand.kept_at_q5 m' c Cert.ReferenceIdeal.main_v10 (by decide)).symm) (((Cert.KernelIdeal.Chain.keep8 m ρ c Cert.KernelIdeal.main_arg14 (by decide)).trans ((Cert.KernelIdeal.Chain.args2 m ρ c Cert.KernelIdeal.main_arg14 (by decide)).trans (Cert.KernelIdeal.Chain.launch_at m ρ c Cert.KernelIdeal.main_arg14))).trans (a14.symm.trans ((Cert.ReferenceIdeal.Hand.args_at_q5 m' c Cert.ReferenceIdeal.main_arg14 (by decide)).trans (Cert.ReferenceIdeal.Hand.launch_at m' c Cert.ReferenceIdeal.main_arg14)).symm)) (((Cert.KernelIdeal.Chain.keep8 m ρ c Cert.KernelIdeal.main_arg15 (by decide)).trans ((Cert.KernelIdeal.Chain.args2 m ρ c Cert.KernelIdeal.main_arg15 (by decide)).trans (Cert.KernelIdeal.Chain.launch_at m ρ c Cert.KernelIdeal.main_arg15))).trans (a15.symm.trans ((Cert.ReferenceIdeal.Hand.args_at_q5 m' c Cert.ReferenceIdeal.main_arg15 (by decide)).trans (Cert.ReferenceIdeal.Hand.launch_at m' c Cert.ReferenceIdeal.main_arg15)).symm))
  have eh2 : W10 m ρ c (Proc.devRef .tc Cert.KernelIdeal.main_v118) = (Cert.ReferenceIdeal.Hand.R_q8 m' c) (Proc.devRef .tc Cert.ReferenceIdeal.main_v141) :=
    ((W10_arr m ρ c 5).trans (Cert.KernelIdeal.Val.final2 (V9 m ρ) c)).trans
      (gin2 (W8 m ρ c) (Cert.ReferenceIdeal.Hand.R_q7 m' c) eagg (((Cert.KernelIdeal.Chain.keep8 m ρ c Cert.KernelIdeal.main_arg10 (by decide)).trans ((Cert.KernelIdeal.Chain.args2 m ρ c Cert.KernelIdeal.main_arg10 (by decide)).trans (Cert.KernelIdeal.Chain.launch_at m ρ c Cert.KernelIdeal.main_arg10))).trans (a10.symm.trans ((Cert.ReferenceIdeal.Hand.args_at_q7 m' c Cert.ReferenceIdeal.main_arg10 (by decide)).trans (Cert.ReferenceIdeal.Hand.launch_at m' c Cert.ReferenceIdeal.main_arg10)).symm)) (((Cert.KernelIdeal.Chain.keep8 m ρ c Cert.KernelIdeal.main_arg11 (by decide)).trans ((Cert.KernelIdeal.Chain.args2 m ρ c Cert.KernelIdeal.main_arg11 (by decide)).trans (Cert.KernelIdeal.Chain.launch_at m ρ c Cert.KernelIdeal.main_arg11))).trans (a11.symm.trans ((Cert.ReferenceIdeal.Hand.args_at_q7 m' c Cert.ReferenceIdeal.main_arg11 (by decide)).trans (Cert.ReferenceIdeal.Hand.launch_at m' c Cert.ReferenceIdeal.main_arg11)).symm)) (((Cert.KernelIdeal.Chain.keep8 m ρ c Cert.KernelIdeal.main_arg12 (by decide)).trans ((Cert.KernelIdeal.Chain.args2 m ρ c Cert.KernelIdeal.main_arg12 (by decide)).trans (Cert.KernelIdeal.Chain.launch_at m ρ c Cert.KernelIdeal.main_arg12))).trans (a12.symm.trans ((Cert.ReferenceIdeal.Hand.args_at_q7 m' c Cert.ReferenceIdeal.main_arg12 (by decide)).trans (Cert.ReferenceIdeal.Hand.launch_at m' c Cert.ReferenceIdeal.main_arg12)).symm)) (((Cert.KernelIdeal.Chain.keep8 m ρ c Cert.KernelIdeal.main_arg13 (by decide)).trans ((Cert.KernelIdeal.Chain.args2 m ρ c Cert.KernelIdeal.main_arg13 (by decide)).trans (Cert.KernelIdeal.Chain.launch_at m ρ c Cert.KernelIdeal.main_arg13))).trans (a13.symm.trans ((Cert.ReferenceIdeal.Hand.args_at_q7 m' c Cert.ReferenceIdeal.main_arg13 (by decide)).trans (Cert.ReferenceIdeal.Hand.launch_at m' c Cert.ReferenceIdeal.main_arg13)).symm)))
  exact ((W14_arr m ρ c 5).trans (Cert.KernelIdeal.Val.final3 (V13 m ρ) c)).trans
    (bn2 (W10 m ρ c) (Cert.ReferenceIdeal.Hand.R_q8 m' c) eh2 (((Cert.KernelIdeal.Chain.keep10 m ρ c Cert.KernelIdeal.main_arg16 (by decide)).trans ((Cert.KernelIdeal.Chain.args2 m ρ c Cert.KernelIdeal.main_arg16 (by decide)).trans (Cert.KernelIdeal.Chain.launch_at m ρ c Cert.KernelIdeal.main_arg16))).trans (a16.symm.trans ((Cert.ReferenceIdeal.Hand.args_at_q8 m' c Cert.ReferenceIdeal.main_arg16 (by decide)).trans (Cert.ReferenceIdeal.Hand.launch_at m' c Cert.ReferenceIdeal.main_arg16)).symm)) (((Cert.KernelIdeal.Chain.keep10 m ρ c Cert.KernelIdeal.main_arg17 (by decide)).trans ((Cert.KernelIdeal.Chain.args2 m ρ c Cert.KernelIdeal.main_arg17 (by decide)).trans (Cert.KernelIdeal.Chain.launch_at m ρ c Cert.KernelIdeal.main_arg17))).trans (a17.symm.trans ((Cert.ReferenceIdeal.Hand.args_at_q8 m' c Cert.ReferenceIdeal.main_arg17 (by decide)).trans (Cert.ReferenceIdeal.Hand.launch_at m' c Cert.ReferenceIdeal.main_arg17)).symm)))

/-- Layer 3: from equal node features, equal node features. -/
theorem layer3 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hv3 : W2 m ρ c (Proc.devRef .tc Cert.KernelIdeal.main_v3) = (Cert.ReferenceIdeal.Hand.R_q0 m' c) (Proc.devRef .tc Cert.ReferenceIdeal.main_v3)) (hv6 : W2 m ρ c (Proc.devRef .tc Cert.KernelIdeal.main_v6) = (Cert.ReferenceIdeal.Hand.R_q0 m' c) (Proc.devRef .tc Cert.ReferenceIdeal.main_v6))
    (hv10 : W2 m ρ c (Proc.devRef .tc Cert.KernelIdeal.main_v10) = (Cert.ReferenceIdeal.Hand.R_q0 m' c) (Proc.devRef .tc Cert.ReferenceIdeal.main_v10))
    (hprev : W14 m ρ c (Proc.devRef .tc Cert.KernelIdeal.main_v131) = (Cert.ReferenceIdeal.Hand.R_q11 m' c) (Proc.devRef .tc Cert.ReferenceIdeal.main_v165)) :
    W20 m ρ c (Proc.devRef .tc Cert.KernelIdeal.main_v189) = (Cert.ReferenceIdeal.Hand.R_q16 m' c) (Proc.devRef .tc Cert.ReferenceIdeal.main_v240) := by
  have eagg : after Cert.KernelIdeal.Gen.hostOps4 (W14 m ρ c) (Proc.devRef .tc Cert.KernelIdeal.main_v165) = (Cert.ReferenceIdeal.Hand.R_q12 m' c) (Proc.devRef .tc Cert.ReferenceIdeal.main_v199) :=
    agg3 (W14 m ρ c) (Cert.ReferenceIdeal.Hand.R_q11 m' c) hprev (((Cert.KernelIdeal.Chain.keep14 m ρ c Cert.KernelIdeal.main_v3 (by decide)).trans hv3).trans (Cert.ReferenceIdeal.Hand.kept_at_q11 m' c Cert.ReferenceIdeal.main_v3 (by decide)).symm) (((Cert.KernelIdeal.Chain.keep14 m ρ c Cert.KernelIdeal.main_v6 (by decide)).trans hv6).trans (Cert.ReferenceIdeal.Hand.kept_at_q11 m' c Cert.ReferenceIdeal.main_v6 (by decide)).symm) (((Cert.KernelIdeal.Chain.keep14 m ρ c Cert.KernelIdeal.main_v10 (by decide)).trans hv10).trans (Cert.ReferenceIdeal.Hand.kept_at_q11 m' c Cert.ReferenceIdeal.main_v10 (by decide)).symm) (((Cert.KernelIdeal.Chain.keep14 m ρ c Cert.KernelIdeal.main_arg14 (by decide)).trans ((Cert.KernelIdeal.Chain.args2 m ρ c Cert.KernelIdeal.main_arg14 (by decide)).trans (Cert.KernelIdeal.Chain.launch_at m ρ c Cert.KernelIdeal.main_arg14))).trans (a14.symm.trans ((Cert.ReferenceIdeal.Hand.args_at_q11 m' c Cert.ReferenceIdeal.main_arg14 (by decide)).trans (Cert.ReferenceIdeal.Hand.launch_at m' c Cert.ReferenceIdeal.main_arg14)).symm)) (((Cert.KernelIdeal.Chain.keep14 m ρ c Cert.KernelIdeal.main_arg15 (by decide)).trans ((Cert.KernelIdeal.Chain.args2 m ρ c Cert.KernelIdeal.main_arg15 (by decide)).trans (Cert.KernelIdeal.Chain.launch_at m ρ c Cert.KernelIdeal.main_arg15))).trans (a15.symm.trans ((Cert.ReferenceIdeal.Hand.args_at_q11 m' c Cert.ReferenceIdeal.main_arg15 (by decide)).trans (Cert.ReferenceIdeal.Hand.launch_at m' c Cert.ReferenceIdeal.main_arg15)).symm))
  have eh2 : W16 m ρ c (Proc.devRef .tc Cert.KernelIdeal.main_v176) = (Cert.ReferenceIdeal.Hand.R_q14 m' c) (Proc.devRef .tc Cert.ReferenceIdeal.main_v216) :=
    ((W16_arr m ρ c 5).trans (Cert.KernelIdeal.Val.final4 (V15 m ρ) c)).trans
      (gin3 (W14 m ρ c) (Cert.ReferenceIdeal.Hand.R_q12 m' c) eagg (((Cert.KernelIdeal.Chain.keep14 m ρ c Cert.KernelIdeal.main_arg10 (by decide)).trans ((Cert.KernelIdeal.Chain.args2 m ρ c Cert.KernelIdeal.main_arg10 (by decide)).trans (Cert.KernelIdeal.Chain.launch_at m ρ c Cert.KernelIdeal.main_arg10))).trans (a10.symm.trans ((Cert.ReferenceIdeal.Hand.args_at_q12 m' c Cert.ReferenceIdeal.main_arg10 (by decide)).trans (Cert.ReferenceIdeal.Hand.launch_at m' c Cert.ReferenceIdeal.main_arg10)).symm)) (((Cert.KernelIdeal.Chain.keep14 m ρ c Cert.KernelIdeal.main_arg11 (by decide)).trans ((Cert.KernelIdeal.Chain.args2 m ρ c Cert.KernelIdeal.main_arg11 (by decide)).trans (Cert.KernelIdeal.Chain.launch_at m ρ c Cert.KernelIdeal.main_arg11))).trans (a11.symm.trans ((Cert.ReferenceIdeal.Hand.args_at_q12 m' c Cert.ReferenceIdeal.main_arg11 (by decide)).trans (Cert.ReferenceIdeal.Hand.launch_at m' c Cert.ReferenceIdeal.main_arg11)).symm)) (((Cert.KernelIdeal.Chain.keep14 m ρ c Cert.KernelIdeal.main_arg12 (by decide)).trans ((Cert.KernelIdeal.Chain.args2 m ρ c Cert.KernelIdeal.main_arg12 (by decide)).trans (Cert.KernelIdeal.Chain.launch_at m ρ c Cert.KernelIdeal.main_arg12))).trans (a12.symm.trans ((Cert.ReferenceIdeal.Hand.args_at_q12 m' c Cert.ReferenceIdeal.main_arg12 (by decide)).trans (Cert.ReferenceIdeal.Hand.launch_at m' c Cert.ReferenceIdeal.main_arg12)).symm)) (((Cert.KernelIdeal.Chain.keep14 m ρ c Cert.KernelIdeal.main_arg13 (by decide)).trans ((Cert.KernelIdeal.Chain.args2 m ρ c Cert.KernelIdeal.main_arg13 (by decide)).trans (Cert.KernelIdeal.Chain.launch_at m ρ c Cert.KernelIdeal.main_arg13))).trans (a13.symm.trans ((Cert.ReferenceIdeal.Hand.args_at_q12 m' c Cert.ReferenceIdeal.main_arg13 (by decide)).trans (Cert.ReferenceIdeal.Hand.launch_at m' c Cert.ReferenceIdeal.main_arg13)).symm)))
  exact ((W20_arr m ρ c 5).trans (Cert.KernelIdeal.Val.final5 (V19 m ρ) c)).trans
    (bn3 (W16 m ρ c) (Cert.ReferenceIdeal.Hand.R_q14 m' c) eh2 (((Cert.KernelIdeal.Chain.keep16 m ρ c Cert.KernelIdeal.main_arg16 (by decide)).trans ((Cert.KernelIdeal.Chain.args2 m ρ c Cert.KernelIdeal.main_arg16 (by decide)).trans (Cert.KernelIdeal.Chain.launch_at m ρ c Cert.KernelIdeal.main_arg16))).trans (a16.symm.trans ((Cert.ReferenceIdeal.Hand.args_at_q14 m' c Cert.ReferenceIdeal.main_arg16 (by decide)).trans (Cert.ReferenceIdeal.Hand.launch_at m' c Cert.ReferenceIdeal.main_arg16)).symm)) (((Cert.KernelIdeal.Chain.keep16 m ρ c Cert.KernelIdeal.main_arg17 (by decide)).trans ((Cert.KernelIdeal.Chain.args2 m ρ c Cert.KernelIdeal.main_arg17 (by decide)).trans (Cert.KernelIdeal.Chain.launch_at m ρ c Cert.KernelIdeal.main_arg17))).trans (a17.symm.trans ((Cert.ReferenceIdeal.Hand.args_at_q14 m' c Cert.ReferenceIdeal.main_arg17 (by decide)).trans (Cert.ReferenceIdeal.Hand.launch_at m' c Cert.ReferenceIdeal.main_arg17)).symm)))

/-- Layer 4: from equal node features, equal node features. -/
theorem layer4 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hv3 : W2 m ρ c (Proc.devRef .tc Cert.KernelIdeal.main_v3) = (Cert.ReferenceIdeal.Hand.R_q0 m' c) (Proc.devRef .tc Cert.ReferenceIdeal.main_v3)) (hv6 : W2 m ρ c (Proc.devRef .tc Cert.KernelIdeal.main_v6) = (Cert.ReferenceIdeal.Hand.R_q0 m' c) (Proc.devRef .tc Cert.ReferenceIdeal.main_v6))
    (hv10 : W2 m ρ c (Proc.devRef .tc Cert.KernelIdeal.main_v10) = (Cert.ReferenceIdeal.Hand.R_q0 m' c) (Proc.devRef .tc Cert.ReferenceIdeal.main_v10))
    (hprev : W20 m ρ c (Proc.devRef .tc Cert.KernelIdeal.main_v189) = (Cert.ReferenceIdeal.Hand.R_q16 m' c) (Proc.devRef .tc Cert.ReferenceIdeal.main_v240)) :
    W26 m ρ c (Proc.devRef .tc Cert.KernelIdeal.main_v247) = (Cert.ReferenceIdeal.Hand.R_q22 m' c) (Proc.devRef .tc Cert.ReferenceIdeal.main_v315) := by
  have eagg : after Cert.KernelIdeal.Gen.hostOps6 (W20 m ρ c) (Proc.devRef .tc Cert.KernelIdeal.main_v223) = (Cert.ReferenceIdeal.Hand.R_q18 m' c) (Proc.devRef .tc Cert.ReferenceIdeal.main_v274) :=
    agg4 (W20 m ρ c) (Cert.ReferenceIdeal.Hand.R_q16 m' c) hprev (((Cert.KernelIdeal.Chain.keep20 m ρ c Cert.KernelIdeal.main_v3 (by decide)).trans hv3).trans (Cert.ReferenceIdeal.Hand.kept_at_q16 m' c Cert.ReferenceIdeal.main_v3 (by decide)).symm) (((Cert.KernelIdeal.Chain.keep20 m ρ c Cert.KernelIdeal.main_v6 (by decide)).trans hv6).trans (Cert.ReferenceIdeal.Hand.kept_at_q16 m' c Cert.ReferenceIdeal.main_v6 (by decide)).symm) (((Cert.KernelIdeal.Chain.keep20 m ρ c Cert.KernelIdeal.main_v10 (by decide)).trans hv10).trans (Cert.ReferenceIdeal.Hand.kept_at_q16 m' c Cert.ReferenceIdeal.main_v10 (by decide)).symm) (((Cert.KernelIdeal.Chain.keep20 m ρ c Cert.KernelIdeal.main_arg14 (by decide)).trans ((Cert.KernelIdeal.Chain.args2 m ρ c Cert.KernelIdeal.main_arg14 (by decide)).trans (Cert.KernelIdeal.Chain.launch_at m ρ c Cert.KernelIdeal.main_arg14))).trans (a14.symm.trans ((Cert.ReferenceIdeal.Hand.args_at_q16 m' c Cert.ReferenceIdeal.main_arg14 (by decide)).trans (Cert.ReferenceIdeal.Hand.launch_at m' c Cert.ReferenceIdeal.main_arg14)).symm)) (((Cert.KernelIdeal.Chain.keep20 m ρ c Cert.KernelIdeal.main_arg15 (by decide)).trans ((Cert.KernelIdeal.Chain.args2 m ρ c Cert.KernelIdeal.main_arg15 (by decide)).trans (Cert.KernelIdeal.Chain.launch_at m ρ c Cert.KernelIdeal.main_arg15))).trans (a15.symm.trans ((Cert.ReferenceIdeal.Hand.args_at_q16 m' c Cert.ReferenceIdeal.main_arg15 (by decide)).trans (Cert.ReferenceIdeal.Hand.launch_at m' c Cert.ReferenceIdeal.main_arg15)).symm))
  have eh2 : W22 m ρ c (Proc.devRef .tc Cert.KernelIdeal.main_v234) = (Cert.ReferenceIdeal.Hand.R_q19 m' c) (Proc.devRef .tc Cert.ReferenceIdeal.main_v291) :=
    ((W22_arr m ρ c 5).trans (Cert.KernelIdeal.Val.final6 (V21 m ρ) c)).trans
      (gin4 (W20 m ρ c) (Cert.ReferenceIdeal.Hand.R_q18 m' c) eagg (((Cert.KernelIdeal.Chain.keep20 m ρ c Cert.KernelIdeal.main_arg10 (by decide)).trans ((Cert.KernelIdeal.Chain.args2 m ρ c Cert.KernelIdeal.main_arg10 (by decide)).trans (Cert.KernelIdeal.Chain.launch_at m ρ c Cert.KernelIdeal.main_arg10))).trans (a10.symm.trans ((Cert.ReferenceIdeal.Hand.args_at_q18 m' c Cert.ReferenceIdeal.main_arg10 (by decide)).trans (Cert.ReferenceIdeal.Hand.launch_at m' c Cert.ReferenceIdeal.main_arg10)).symm)) (((Cert.KernelIdeal.Chain.keep20 m ρ c Cert.KernelIdeal.main_arg11 (by decide)).trans ((Cert.KernelIdeal.Chain.args2 m ρ c Cert.KernelIdeal.main_arg11 (by decide)).trans (Cert.KernelIdeal.Chain.launch_at m ρ c Cert.KernelIdeal.main_arg11))).trans (a11.symm.trans ((Cert.ReferenceIdeal.Hand.args_at_q18 m' c Cert.ReferenceIdeal.main_arg11 (by decide)).trans (Cert.ReferenceIdeal.Hand.launch_at m' c Cert.ReferenceIdeal.main_arg11)).symm)) (((Cert.KernelIdeal.Chain.keep20 m ρ c Cert.KernelIdeal.main_arg12 (by decide)).trans ((Cert.KernelIdeal.Chain.args2 m ρ c Cert.KernelIdeal.main_arg12 (by decide)).trans (Cert.KernelIdeal.Chain.launch_at m ρ c Cert.KernelIdeal.main_arg12))).trans (a12.symm.trans ((Cert.ReferenceIdeal.Hand.args_at_q18 m' c Cert.ReferenceIdeal.main_arg12 (by decide)).trans (Cert.ReferenceIdeal.Hand.launch_at m' c Cert.ReferenceIdeal.main_arg12)).symm)) (((Cert.KernelIdeal.Chain.keep20 m ρ c Cert.KernelIdeal.main_arg13 (by decide)).trans ((Cert.KernelIdeal.Chain.args2 m ρ c Cert.KernelIdeal.main_arg13 (by decide)).trans (Cert.KernelIdeal.Chain.launch_at m ρ c Cert.KernelIdeal.main_arg13))).trans (a13.symm.trans ((Cert.ReferenceIdeal.Hand.args_at_q18 m' c Cert.ReferenceIdeal.main_arg13 (by decide)).trans (Cert.ReferenceIdeal.Hand.launch_at m' c Cert.ReferenceIdeal.main_arg13)).symm)))
  exact ((W26_arr m ρ c 5).trans (Cert.KernelIdeal.Val.final7 (V25 m ρ) c)).trans
    (bn4 (W22 m ρ c) (Cert.ReferenceIdeal.Hand.R_q19 m' c) eh2 (((Cert.KernelIdeal.Chain.keep22 m ρ c Cert.KernelIdeal.main_arg16 (by decide)).trans ((Cert.KernelIdeal.Chain.args2 m ρ c Cert.KernelIdeal.main_arg16 (by decide)).trans (Cert.KernelIdeal.Chain.launch_at m ρ c Cert.KernelIdeal.main_arg16))).trans (a16.symm.trans ((Cert.ReferenceIdeal.Hand.args_at_q19 m' c Cert.ReferenceIdeal.main_arg16 (by decide)).trans (Cert.ReferenceIdeal.Hand.launch_at m' c Cert.ReferenceIdeal.main_arg16)).symm)) (((Cert.KernelIdeal.Chain.keep22 m ρ c Cert.KernelIdeal.main_arg17 (by decide)).trans ((Cert.KernelIdeal.Chain.args2 m ρ c Cert.KernelIdeal.main_arg17 (by decide)).trans (Cert.KernelIdeal.Chain.launch_at m ρ c Cert.KernelIdeal.main_arg17))).trans (a17.symm.trans ((Cert.ReferenceIdeal.Hand.args_at_q19 m' c Cert.ReferenceIdeal.main_arg17 (by decide)).trans (Cert.ReferenceIdeal.Hand.launch_at m' c Cert.ReferenceIdeal.main_arg17)).symm)))

/-- Layer 5: from equal node features, equal node features. -/
theorem layer5 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hv3 : W2 m ρ c (Proc.devRef .tc Cert.KernelIdeal.main_v3) = (Cert.ReferenceIdeal.Hand.R_q0 m' c) (Proc.devRef .tc Cert.ReferenceIdeal.main_v3)) (hv6 : W2 m ρ c (Proc.devRef .tc Cert.KernelIdeal.main_v6) = (Cert.ReferenceIdeal.Hand.R_q0 m' c) (Proc.devRef .tc Cert.ReferenceIdeal.main_v6))
    (hv10 : W2 m ρ c (Proc.devRef .tc Cert.KernelIdeal.main_v10) = (Cert.ReferenceIdeal.Hand.R_q0 m' c) (Proc.devRef .tc Cert.ReferenceIdeal.main_v10))
    (hprev : W26 m ρ c (Proc.devRef .tc Cert.KernelIdeal.main_v247) = (Cert.ReferenceIdeal.Hand.R_q22 m' c) (Proc.devRef .tc Cert.ReferenceIdeal.main_v315)) :
    W32 m ρ c (Proc.devRef .tc Cert.KernelIdeal.main_v305) = (Cert.ReferenceIdeal.Hand.R_q27 m' c) (Proc.devRef .tc Cert.ReferenceIdeal.main_v389) := by
  have eagg : after Cert.KernelIdeal.Gen.hostOps8 (W26 m ρ c) (Proc.devRef .tc Cert.KernelIdeal.main_v281) = (Cert.ReferenceIdeal.Hand.R_q23 m' c) (Proc.devRef .tc Cert.ReferenceIdeal.main_v349) :=
    agg5 (W26 m ρ c) (Cert.ReferenceIdeal.Hand.R_q22 m' c) hprev (((Cert.KernelIdeal.Chain.keep26 m ρ c Cert.KernelIdeal.main_v3 (by decide)).trans hv3).trans (Cert.ReferenceIdeal.Hand.kept_at_q22 m' c Cert.ReferenceIdeal.main_v3 (by decide)).symm) (((Cert.KernelIdeal.Chain.keep26 m ρ c Cert.KernelIdeal.main_v6 (by decide)).trans hv6).trans (Cert.ReferenceIdeal.Hand.kept_at_q22 m' c Cert.ReferenceIdeal.main_v6 (by decide)).symm) (((Cert.KernelIdeal.Chain.keep26 m ρ c Cert.KernelIdeal.main_v10 (by decide)).trans hv10).trans (Cert.ReferenceIdeal.Hand.kept_at_q22 m' c Cert.ReferenceIdeal.main_v10 (by decide)).symm) (((Cert.KernelIdeal.Chain.keep26 m ρ c Cert.KernelIdeal.main_arg14 (by decide)).trans ((Cert.KernelIdeal.Chain.args2 m ρ c Cert.KernelIdeal.main_arg14 (by decide)).trans (Cert.KernelIdeal.Chain.launch_at m ρ c Cert.KernelIdeal.main_arg14))).trans (a14.symm.trans ((Cert.ReferenceIdeal.Hand.args_at_q22 m' c Cert.ReferenceIdeal.main_arg14 (by decide)).trans (Cert.ReferenceIdeal.Hand.launch_at m' c Cert.ReferenceIdeal.main_arg14)).symm)) (((Cert.KernelIdeal.Chain.keep26 m ρ c Cert.KernelIdeal.main_arg15 (by decide)).trans ((Cert.KernelIdeal.Chain.args2 m ρ c Cert.KernelIdeal.main_arg15 (by decide)).trans (Cert.KernelIdeal.Chain.launch_at m ρ c Cert.KernelIdeal.main_arg15))).trans (a15.symm.trans ((Cert.ReferenceIdeal.Hand.args_at_q22 m' c Cert.ReferenceIdeal.main_arg15 (by decide)).trans (Cert.ReferenceIdeal.Hand.launch_at m' c Cert.ReferenceIdeal.main_arg15)).symm))
  have eh2 : W28 m ρ c (Proc.devRef .tc Cert.KernelIdeal.main_v292) = (Cert.ReferenceIdeal.Hand.R_q24 m' c) (Proc.devRef .tc Cert.ReferenceIdeal.main_v366) :=
    ((W28_arr m ρ c 5).trans (Cert.KernelIdeal.Val.final8 (V27 m ρ) c)).trans
      (gin5 (W26 m ρ c) (Cert.ReferenceIdeal.Hand.R_q23 m' c) eagg (((Cert.KernelIdeal.Chain.keep26 m ρ c Cert.KernelIdeal.main_arg10 (by decide)).trans ((Cert.KernelIdeal.Chain.args2 m ρ c Cert.KernelIdeal.main_arg10 (by decide)).trans (Cert.KernelIdeal.Chain.launch_at m ρ c Cert.KernelIdeal.main_arg10))).trans (a10.symm.trans ((Cert.ReferenceIdeal.Hand.args_at_q23 m' c Cert.ReferenceIdeal.main_arg10 (by decide)).trans (Cert.ReferenceIdeal.Hand.launch_at m' c Cert.ReferenceIdeal.main_arg10)).symm)) (((Cert.KernelIdeal.Chain.keep26 m ρ c Cert.KernelIdeal.main_arg11 (by decide)).trans ((Cert.KernelIdeal.Chain.args2 m ρ c Cert.KernelIdeal.main_arg11 (by decide)).trans (Cert.KernelIdeal.Chain.launch_at m ρ c Cert.KernelIdeal.main_arg11))).trans (a11.symm.trans ((Cert.ReferenceIdeal.Hand.args_at_q23 m' c Cert.ReferenceIdeal.main_arg11 (by decide)).trans (Cert.ReferenceIdeal.Hand.launch_at m' c Cert.ReferenceIdeal.main_arg11)).symm)) (((Cert.KernelIdeal.Chain.keep26 m ρ c Cert.KernelIdeal.main_arg12 (by decide)).trans ((Cert.KernelIdeal.Chain.args2 m ρ c Cert.KernelIdeal.main_arg12 (by decide)).trans (Cert.KernelIdeal.Chain.launch_at m ρ c Cert.KernelIdeal.main_arg12))).trans (a12.symm.trans ((Cert.ReferenceIdeal.Hand.args_at_q23 m' c Cert.ReferenceIdeal.main_arg12 (by decide)).trans (Cert.ReferenceIdeal.Hand.launch_at m' c Cert.ReferenceIdeal.main_arg12)).symm)) (((Cert.KernelIdeal.Chain.keep26 m ρ c Cert.KernelIdeal.main_arg13 (by decide)).trans ((Cert.KernelIdeal.Chain.args2 m ρ c Cert.KernelIdeal.main_arg13 (by decide)).trans (Cert.KernelIdeal.Chain.launch_at m ρ c Cert.KernelIdeal.main_arg13))).trans (a13.symm.trans ((Cert.ReferenceIdeal.Hand.args_at_q23 m' c Cert.ReferenceIdeal.main_arg13 (by decide)).trans (Cert.ReferenceIdeal.Hand.launch_at m' c Cert.ReferenceIdeal.main_arg13)).symm)))
  exact ((W32_arr m ρ c 5).trans (Cert.KernelIdeal.Val.final9 (V31 m ρ) c)).trans
    (bn5 (W28 m ρ c) (Cert.ReferenceIdeal.Hand.R_q24 m' c) eh2 (((Cert.KernelIdeal.Chain.keep28 m ρ c Cert.KernelIdeal.main_arg16 (by decide)).trans ((Cert.KernelIdeal.Chain.args2 m ρ c Cert.KernelIdeal.main_arg16 (by decide)).trans (Cert.KernelIdeal.Chain.launch_at m ρ c Cert.KernelIdeal.main_arg16))).trans (a16.symm.trans ((Cert.ReferenceIdeal.Hand.args_at_q24 m' c Cert.ReferenceIdeal.main_arg16 (by decide)).trans (Cert.ReferenceIdeal.Hand.launch_at m' c Cert.ReferenceIdeal.main_arg16)).symm)) (((Cert.KernelIdeal.Chain.keep28 m ρ c Cert.KernelIdeal.main_arg17 (by decide)).trans ((Cert.KernelIdeal.Chain.args2 m ρ c Cert.KernelIdeal.main_arg17 (by decide)).trans (Cert.KernelIdeal.Chain.launch_at m ρ c Cert.KernelIdeal.main_arg17))).trans (a17.symm.trans ((Cert.ReferenceIdeal.Hand.args_at_q24 m' c Cert.ReferenceIdeal.main_arg17 (by decide)).trans (Cert.ReferenceIdeal.Hand.launch_at m' c Cert.ReferenceIdeal.main_arg17)).symm)))

/-- The read-out: from equal node features after the fifth layer, equal results. -/
theorem tail (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (a26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (a27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (a28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (a29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (a30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (h5 : W32 m ρ c (Proc.devRef .tc Cert.KernelIdeal.main_v305) = (Cert.ReferenceIdeal.Hand.R_q27 m' c) (Proc.devRef .tc Cert.ReferenceIdeal.main_v389)) :
    W39 m ρ c (Proc.devRef .tc Cert.KernelIdeal.main_v391) = (Cert.ReferenceIdeal.Hand.R_q36 m' c) (Proc.devRef .tc Cert.ReferenceIdeal.main_v500) := by
  have ex1 : W33 m ρ c (Proc.devRef .tc Cert.KernelIdeal.main_v317) = (Cert.ReferenceIdeal.Hand.R_q28 m' c) (Proc.devRef .tc Cert.ReferenceIdeal.main_v401) := poolNodes (W32 m ρ c) (Cert.ReferenceIdeal.Hand.R_q27 m' c) h5 (((Cert.KernelIdeal.Chain.keep32 m ρ c Cert.KernelIdeal.main_arg3 (by decide)).trans ((Cert.KernelIdeal.Chain.args2 m ρ c Cert.KernelIdeal.main_arg3 (by decide)).trans (Cert.KernelIdeal.Chain.launch_at m ρ c Cert.KernelIdeal.main_arg3))).trans (a3.symm.trans ((Cert.ReferenceIdeal.Hand.args_at_q27 m' c Cert.ReferenceIdeal.main_arg3 (by decide)).trans (Cert.ReferenceIdeal.Hand.launch_at m' c Cert.ReferenceIdeal.main_arg3)).symm))
  have exp : W33 m ρ c (Proc.devRef .tc Cert.KernelIdeal.main_v341) = (Cert.ReferenceIdeal.Hand.R_q30 m' c) (Proc.devRef .tc Cert.ReferenceIdeal.main_v425) := poolPairs (W32 m ρ c) (Cert.ReferenceIdeal.Hand.R_q27 m' c) h5 (((Cert.KernelIdeal.Chain.keep32 m ρ c Cert.KernelIdeal.main_arg6 (by decide)).trans ((Cert.KernelIdeal.Chain.args2 m ρ c Cert.KernelIdeal.main_arg6 (by decide)).trans (Cert.KernelIdeal.Chain.launch_at m ρ c Cert.KernelIdeal.main_arg6))).trans (a6.symm.trans ((Cert.ReferenceIdeal.Hand.args_at_q27 m' c Cert.ReferenceIdeal.main_arg6 (by decide)).trans (Cert.ReferenceIdeal.Hand.launch_at m' c Cert.ReferenceIdeal.main_arg6)).symm)) (((Cert.KernelIdeal.Chain.keep32 m ρ c Cert.KernelIdeal.main_arg4 (by decide)).trans ((Cert.KernelIdeal.Chain.args2 m ρ c Cert.KernelIdeal.main_arg4 (by decide)).trans (Cert.KernelIdeal.Chain.launch_at m ρ c Cert.KernelIdeal.main_arg4))).trans (a4.symm.trans ((Cert.ReferenceIdeal.Hand.args_at_q27 m' c Cert.ReferenceIdeal.main_arg4 (by decide)).trans (Cert.ReferenceIdeal.Hand.launch_at m' c Cert.ReferenceIdeal.main_arg4)).symm))
  have eag1 : W33 m ρ c (Proc.devRef .tc Cert.KernelIdeal.main_v355) = (Cert.ReferenceIdeal.Hand.R_q31 m' c) (Proc.devRef .tc Cert.ReferenceIdeal.main_v439) := aggPairs1 (W32 m ρ c) (Cert.ReferenceIdeal.Hand.R_q27 m' c) h5 (((Cert.KernelIdeal.Chain.keep32 m ρ c Cert.KernelIdeal.main_arg6 (by decide)).trans ((Cert.KernelIdeal.Chain.args2 m ρ c Cert.KernelIdeal.main_arg6 (by decide)).trans (Cert.KernelIdeal.Chain.launch_at m ρ c Cert.KernelIdeal.main_arg6))).trans (a6.symm.trans ((Cert.ReferenceIdeal.Hand.args_at_q27 m' c Cert.ReferenceIdeal.main_arg6 (by decide)).trans (Cert.ReferenceIdeal.Hand.launch_at m' c Cert.ReferenceIdeal.main_arg6)).symm)) (((Cert.KernelIdeal.Chain.keep32 m ρ c Cert.KernelIdeal.main_arg4 (by decide)).trans ((Cert.KernelIdeal.Chain.args2 m ρ c Cert.KernelIdeal.main_arg4 (by decide)).trans (Cert.KernelIdeal.Chain.launch_at m ρ c Cert.KernelIdeal.main_arg4))).trans (a4.symm.trans ((Cert.ReferenceIdeal.Hand.args_at_q27 m' c Cert.ReferenceIdeal.main_arg4 (by decide)).trans (Cert.ReferenceIdeal.Hand.launch_at m' c Cert.ReferenceIdeal.main_arg4)).symm)) (((Cert.KernelIdeal.Chain.keep32 m ρ c Cert.KernelIdeal.main_arg5 (by decide)).trans ((Cert.KernelIdeal.Chain.args2 m ρ c Cert.KernelIdeal.main_arg5 (by decide)).trans (Cert.KernelIdeal.Chain.launch_at m ρ c Cert.KernelIdeal.main_arg5))).trans (a5.symm.trans ((Cert.ReferenceIdeal.Hand.args_at_q27 m' c Cert.ReferenceIdeal.main_arg5 (by decide)).trans (Cert.ReferenceIdeal.Hand.launch_at m' c Cert.ReferenceIdeal.main_arg5)).symm))
  have ez1 : W34 m ρ c (Proc.devRef .tc Cert.KernelIdeal.main_v357) = (Cert.ReferenceIdeal.Hand.R_q32 m' c) (Proc.devRef .tc Cert.ReferenceIdeal.main_v446) :=
    ((W34_arr m ρ c 5).trans (Cert.KernelIdeal.Val.final10 (V33 m ρ) c)).trans
      (conv1 (W32 m ρ c) (Cert.ReferenceIdeal.Hand.R_q31 m' c) eag1 (exp.trans (keepR_xp_q31 (Cert.ReferenceIdeal.Hand.R_q30 m' c)).symm) (((Cert.KernelIdeal.Chain.keep32 m ρ c Cert.KernelIdeal.main_arg18 (by decide)).trans ((Cert.KernelIdeal.Chain.args2 m ρ c Cert.KernelIdeal.main_arg18 (by decide)).trans (Cert.KernelIdeal.Chain.launch_at m ρ c Cert.KernelIdeal.main_arg18))).trans (a18.symm.trans ((Cert.ReferenceIdeal.Hand.args_at_q31 m' c Cert.ReferenceIdeal.main_arg18 (by decide)).trans (Cert.ReferenceIdeal.Hand.launch_at m' c Cert.ReferenceIdeal.main_arg18)).symm)) (((Cert.KernelIdeal.Chain.keep32 m ρ c Cert.KernelIdeal.main_arg19 (by decide)).trans ((Cert.KernelIdeal.Chain.args2 m ρ c Cert.KernelIdeal.main_arg19 (by decide)).trans (Cert.KernelIdeal.Chain.launch_at m ρ c Cert.KernelIdeal.main_arg19))).trans (a19.symm.trans ((Cert.ReferenceIdeal.Hand.args_at_q31 m' c Cert.ReferenceIdeal.main_arg19 (by decide)).trans (Cert.ReferenceIdeal.Hand.launch_at m' c Cert.ReferenceIdeal.main_arg19)).symm)) (((Cert.KernelIdeal.Chain.keep32 m ρ c Cert.KernelIdeal.main_arg20 (by decide)).trans ((Cert.KernelIdeal.Chain.args2 m ρ c Cert.KernelIdeal.main_arg20 (by decide)).trans (Cert.KernelIdeal.Chain.launch_at m ρ c Cert.KernelIdeal.main_arg20))).trans (a20.symm.trans ((Cert.ReferenceIdeal.Hand.args_at_q31 m' c Cert.ReferenceIdeal.main_arg20 (by decide)).trans (Cert.ReferenceIdeal.Hand.launch_at m' c Cert.ReferenceIdeal.main_arg20)).symm)))
  have eag2 : W35 m ρ c (Proc.devRef .tc Cert.KernelIdeal.main_v371) = (Cert.ReferenceIdeal.Hand.R_q33 m' c) (Proc.devRef .tc Cert.ReferenceIdeal.main_v460) := aggPairs2 (W34 m ρ c) (Cert.ReferenceIdeal.Hand.R_q32 m' c) ez1 (((Cert.KernelIdeal.Chain.keep34 m ρ c Cert.KernelIdeal.main_arg5 (by decide) (by decide) (by decide)).trans ((Cert.KernelIdeal.Chain.args2 m ρ c Cert.KernelIdeal.main_arg5 (by decide)).trans (Cert.KernelIdeal.Chain.launch_at m ρ c Cert.KernelIdeal.main_arg5))).trans (a5.symm.trans ((Cert.ReferenceIdeal.Hand.args_at_q32 m' c Cert.ReferenceIdeal.main_arg5 (by decide)).trans (Cert.ReferenceIdeal.Hand.launch_at m' c Cert.ReferenceIdeal.main_arg5)).symm))
  have ez2 : W36 m ρ c (Proc.devRef .tc Cert.KernelIdeal.main_v373) = (Cert.ReferenceIdeal.Hand.R_q34 m' c) (Proc.devRef .tc Cert.ReferenceIdeal.main_v467) :=
    ((W36_arr m ρ c 5).trans (Cert.KernelIdeal.Val.final11 (V35 m ρ) c)).trans
      (conv2 (W34 m ρ c) (Cert.ReferenceIdeal.Hand.R_q33 m' c) eag2 (ez1.trans (keepR_z1_q33 (Cert.ReferenceIdeal.Hand.R_q32 m' c)).symm) (((Cert.KernelIdeal.Chain.keep34 m ρ c Cert.KernelIdeal.main_arg21 (by decide) (by decide) (by decide)).trans ((Cert.KernelIdeal.Chain.args2 m ρ c Cert.KernelIdeal.main_arg21 (by decide)).trans (Cert.KernelIdeal.Chain.launch_at m ρ c Cert.KernelIdeal.main_arg21))).trans (a21.symm.trans ((Cert.ReferenceIdeal.Hand.args_at_q33 m' c Cert.ReferenceIdeal.main_arg21 (by decide)).trans (Cert.ReferenceIdeal.Hand.launch_at m' c Cert.ReferenceIdeal.main_arg21)).symm)) (((Cert.KernelIdeal.Chain.keep34 m ρ c Cert.KernelIdeal.main_arg22 (by decide) (by decide) (by decide)).trans ((Cert.KernelIdeal.Chain.args2 m ρ c Cert.KernelIdeal.main_arg22 (by decide)).trans (Cert.KernelIdeal.Chain.launch_at m ρ c Cert.KernelIdeal.main_arg22))).trans (a22.symm.trans ((Cert.ReferenceIdeal.Hand.args_at_q33 m' c Cert.ReferenceIdeal.main_arg22 (by decide)).trans (Cert.ReferenceIdeal.Hand.launch_at m' c Cert.ReferenceIdeal.main_arg22)).symm)) (((Cert.KernelIdeal.Chain.keep34 m ρ c Cert.KernelIdeal.main_arg23 (by decide) (by decide) (by decide)).trans ((Cert.KernelIdeal.Chain.args2 m ρ c Cert.KernelIdeal.main_arg23 (by decide)).trans (Cert.KernelIdeal.Chain.launch_at m ρ c Cert.KernelIdeal.main_arg23))).trans (a23.symm.trans ((Cert.ReferenceIdeal.Hand.args_at_q33 m' c Cert.ReferenceIdeal.main_arg23 (by decide)).trans (Cert.ReferenceIdeal.Hand.launch_at m' c Cert.ReferenceIdeal.main_arg23)).symm)))
  have ex2 : W37 m ρ c (Proc.devRef .tc Cert.KernelIdeal.main_v385) = (Cert.ReferenceIdeal.Hand.R_q35 m' c) (Proc.devRef .tc Cert.ReferenceIdeal.main_v479) := poolPairsOut (W36 m ρ c) (Cert.ReferenceIdeal.Hand.R_q34 m' c) ez2 (((Cert.KernelIdeal.Chain.keep36 m ρ c Cert.KernelIdeal.main_arg7 (by decide) (by decide) (by decide) (by decide) (by decide)).trans ((Cert.KernelIdeal.Chain.args2 m ρ c Cert.KernelIdeal.main_arg7 (by decide)).trans (Cert.KernelIdeal.Chain.launch_at m ρ c Cert.KernelIdeal.main_arg7))).trans (a7.symm.trans ((Cert.ReferenceIdeal.Hand.args_at_q34 m' c Cert.ReferenceIdeal.main_arg7 (by decide)).trans (Cert.ReferenceIdeal.Hand.launch_at m' c Cert.ReferenceIdeal.main_arg7)).symm))
  have ex1' : W36 m ρ c (Proc.devRef .tc Cert.KernelIdeal.main_v317) = (Cert.ReferenceIdeal.Hand.R_q35 m' c) (Proc.devRef .tc Cert.ReferenceIdeal.main_v401) :=
    ((W36_of_ne m ρ c Cert.KernelIdeal.main_v317 (by decide)).trans ((keepK_x1_11 (W34 m ρ c)).trans ((W34_of_ne m ρ c Cert.KernelIdeal.main_v317 (by decide)).trans ex1))).trans (keepR_x1 (Cert.ReferenceIdeal.Hand.R_q28 m' c)).symm
  exact (resultK (W38 m ρ c)).trans ((congrArg (fun (v : Cert.KernelIdeal.S256x1.Idx → EReal) => shapeCast Cert.KernelIdeal.S256 v Cert.KernelIdeal.Gen.shapeCasts_S256x1_S256) ((W38_arr m ρ c 10).trans (Cert.KernelIdeal.Val.final12 (V37 m ρ) c))).trans
    (readoutStage (W36 m ρ c) (Cert.ReferenceIdeal.Hand.R_q35 m' c) ex1' ex2 (((Cert.KernelIdeal.Chain.keep36 m ρ c Cert.KernelIdeal.main_arg24 (by decide) (by decide) (by decide) (by decide) (by decide)).trans ((Cert.KernelIdeal.Chain.args2 m ρ c Cert.KernelIdeal.main_arg24 (by decide)).trans (Cert.KernelIdeal.Chain.launch_at m ρ c Cert.KernelIdeal.main_arg24))).trans (a24.symm.trans ((Cert.ReferenceIdeal.Hand.args_at_q35 m' c Cert.ReferenceIdeal.main_arg24 (by decide)).trans (Cert.ReferenceIdeal.Hand.launch_at m' c Cert.ReferenceIdeal.main_arg24)).symm)) (((Cert.KernelIdeal.Chain.keep36 m ρ c Cert.KernelIdeal.main_arg25 (by decide) (by decide) (by decide) (by decide) (by decide)).trans ((Cert.KernelIdeal.Chain.args2 m ρ c Cert.KernelIdeal.main_arg25 (by decide)).trans (Cert.KernelIdeal.Chain.launch_at m ρ c Cert.KernelIdeal.main_arg25))).trans (a25.symm.trans ((Cert.ReferenceIdeal.Hand.args_at_q35 m' c Cert.ReferenceIdeal.main_arg25 (by decide)).trans (Cert.ReferenceIdeal.Hand.launch_at m' c Cert.ReferenceIdeal.main_arg25)).symm)) (((Cert.KernelIdeal.Chain.keep36 m ρ c Cert.KernelIdeal.main_arg26 (by decide) (by decide) (by decide) (by decide) (by decide)).trans ((Cert.KernelIdeal.Chain.args2 m ρ c Cert.KernelIdeal.main_arg26 (by decide)).trans (Cert.KernelIdeal.Chain.launch_at m ρ c Cert.KernelIdeal.main_arg26))).trans (a26.symm.trans ((Cert.ReferenceIdeal.Hand.args_at_q35 m' c Cert.ReferenceIdeal.main_arg26 (by decide)).trans (Cert.ReferenceIdeal.Hand.launch_at m' c Cert.ReferenceIdeal.main_arg26)).symm)) (((Cert.KernelIdeal.Chain.keep36 m ρ c Cert.KernelIdeal.main_arg27 (by decide) (by decide) (by decide) (by decide) (by decide)).trans ((Cert.KernelIdeal.Chain.args2 m ρ c Cert.KernelIdeal.main_arg27 (by decide)).trans (Cert.KernelIdeal.Chain.launch_at m ρ c Cert.KernelIdeal.main_arg27))).trans (a27.symm.trans ((Cert.ReferenceIdeal.Hand.args_at_q35 m' c Cert.ReferenceIdeal.main_arg27 (by decide)).trans (Cert.ReferenceIdeal.Hand.launch_at m' c Cert.ReferenceIdeal.main_arg27)).symm)) (((Cert.KernelIdeal.Chain.keep36 m ρ c Cert.KernelIdeal.main_arg28 (by decide) (by decide) (by decide) (by decide) (by decide)).trans ((Cert.KernelIdeal.Chain.args2 m ρ c Cert.KernelIdeal.main_arg28 (by decide)).trans (Cert.KernelIdeal.Chain.launch_at m ρ c Cert.KernelIdeal.main_arg28))).trans (a28.symm.trans ((Cert.ReferenceIdeal.Hand.args_at_q35 m' c Cert.ReferenceIdeal.main_arg28 (by decide)).trans (Cert.ReferenceIdeal.Hand.launch_at m' c Cert.ReferenceIdeal.main_arg28)).symm)) (((Cert.KernelIdeal.Chain.keep36 m ρ c Cert.KernelIdeal.main_arg29 (by decide) (by decide) (by decide) (by decide) (by decide)).trans ((Cert.KernelIdeal.Chain.args2 m ρ c Cert.KernelIdeal.main_arg29 (by decide)).trans (Cert.KernelIdeal.Chain.launch_at m ρ c Cert.KernelIdeal.main_arg29))).trans (a29.symm.trans ((Cert.ReferenceIdeal.Hand.args_at_q35 m' c Cert.ReferenceIdeal.main_arg29 (by decide)).trans (Cert.ReferenceIdeal.Hand.launch_at m' c Cert.ReferenceIdeal.main_arg29)).symm)) (((Cert.KernelIdeal.Chain.keep36 m ρ c Cert.KernelIdeal.main_arg30 (by decide) (by decide) (by decide) (by decide) (by decide)).trans ((Cert.KernelIdeal.Chain.args2 m ρ c Cert.KernelIdeal.main_arg30 (by decide)).trans (Cert.KernelIdeal.Chain.launch_at m ρ c Cert.KernelIdeal.main_arg30))).trans (a30.symm.trans ((Cert.ReferenceIdeal.Hand.args_at_q35 m' c Cert.ReferenceIdeal.main_arg30 (by decide)).trans (Cert.ReferenceIdeal.Hand.launch_at m' c Cert.ReferenceIdeal.main_arg30)).symm)) (((Cert.KernelIdeal.Chain.keep36 m ρ c Cert.KernelIdeal.main_arg31 (by decide) (by decide) (by decide) (by decide) (by decide)).trans ((Cert.KernelIdeal.Chain.args2 m ρ c Cert.KernelIdeal.main_arg31 (by decide)).trans (Cert.KernelIdeal.Chain.launch_at m ρ c Cert.KernelIdeal.main_arg31))).trans (a31.symm.trans ((Cert.ReferenceIdeal.Hand.args_at_q35 m' c Cert.ReferenceIdeal.main_arg31 (by decide)).trans (Cert.ReferenceIdeal.Hand.launch_at m' c Cert.ReferenceIdeal.main_arg31)).symm))))

end Cert.Bridge

end
-- ==== Proof.lean ====
/-
  The certificate: the kernel (as printed and idealized) and the idealized reference run to completion without a fault and
  leave their arguments unchanged; nothing was rewritten between the kernel and its idealization; and over the extended
  reals the idealized kernel and the idealized reference, run from memories that agree on the arguments, end with the same
  result array.

  The kernel is thirteen regions among stretches of host operations; the reference is host operations only. The two agree
  stage by stage: the host stretches are the same operations on both sides; a kernel region that multiplies matrices
  computes, entry by entry, the same inner products as the reference's host matrix products; and the batch-normalisation
  regions multiply by the reciprocal square root of (variance + epsilon) where the reference divides by the square root,
  which is the same number whenever the variance is nonnegative, as a guarded mean of squares always is. No finiteness of
  the inputs is used.
-/
import proofs.«133701_j46024869544456_1_alg».proof.Defs
import proofs.«133701_j46024869544456_1_alg».proof.Proof.Gen.Kernel
import proofs.«133701_j46024869544456_1_alg».proof.Proof.FrameK
import proofs.«133701_j46024869544456_1_alg».proof.Proof.Gen.KernelIdeal
import proofs.«133701_j46024869544456_1_alg».proof.Proof.FrameKI
import proofs.«133701_j46024869544456_1_alg».proof.Proof.Gen.ReferenceIdeal
import proofs.«133701_j46024869544456_1_alg».proof.Proof.Gen.Pre_finite_inputs
import proofs.«133701_j46024869544456_1_alg».proof.Proof.KRun
import proofs.«133701_j46024869544456_1_alg».proof.Proof.RefRun
import proofs.«133701_j46024869544456_1_alg».proof.Proof.RefKept
import proofs.«133701_j46024869544456_1_alg».proof.Proof.RefChain
import proofs.«133701_j46024869544456_1_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The printed kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: no operation of its list writes an argument buffer. -/
theorem frame_referenceIdeal : Cert.frame_ReferenceIdeal := fun m ρ _ =>
  (θ_run Cert.ReferenceIdeal.defs _ _).mono (fun r h c =>
    ⟨(h c Cert.ReferenceIdeal.main_arg0).trans ((Cert.ReferenceIdeal.Hand.kept_ops _ Cert.ReferenceIdeal.main_arg0 (by decide)).trans (Cert.ReferenceIdeal.Hand.launch_at m c Cert.ReferenceIdeal.main_arg0)),
     (h c Cert.ReferenceIdeal.main_arg1).trans ((Cert.ReferenceIdeal.Hand.kept_ops _ Cert.ReferenceIdeal.main_arg1 (by decide)).trans (Cert.ReferenceIdeal.Hand.launch_at m c Cert.ReferenceIdeal.main_arg1)),
     (h c Cert.ReferenceIdeal.main_arg2).trans ((Cert.ReferenceIdeal.Hand.kept_ops _ Cert.ReferenceIdeal.main_arg2 (by decide)).trans (Cert.ReferenceIdeal.Hand.launch_at m c Cert.ReferenceIdeal.main_arg2)),
     (h c Cert.ReferenceIdeal.main_arg3).trans ((Cert.ReferenceIdeal.Hand.kept_ops _ Cert.ReferenceIdeal.main_arg3 (by decide)).trans (Cert.ReferenceIdeal.Hand.launch_at m c Cert.ReferenceIdeal.main_arg3)),
     (h c Cert.ReferenceIdeal.main_arg4).trans ((Cert.ReferenceIdeal.Hand.kept_ops _ Cert.ReferenceIdeal.main_arg4 (by decide)).trans (Cert.ReferenceIdeal.Hand.launch_at m c Cert.ReferenceIdeal.main_arg4)),
     (h c Cert.ReferenceIdeal.main_arg5).trans ((Cert.ReferenceIdeal.Hand.kept_ops _ Cert.ReferenceIdeal.main_arg5 (by decide)).trans (Cert.ReferenceIdeal.Hand.launch_at m c Cert.ReferenceIdeal.main_arg5)),
     (h c Cert.ReferenceIdeal.main_arg6).trans ((Cert.ReferenceIdeal.Hand.kept_ops _ Cert.ReferenceIdeal.main_arg6 (by decide)).trans (Cert.ReferenceIdeal.Hand.launch_at m c Cert.ReferenceIdeal.main_arg6)),
     (h c Cert.ReferenceIdeal.main_arg7).trans ((Cert.ReferenceIdeal.Hand.kept_ops _ Cert.ReferenceIdeal.main_arg7 (by decide)).trans (Cert.ReferenceIdeal.Hand.launch_at m c Cert.ReferenceIdeal.main_arg7)),
     (h c Cert.ReferenceIdeal.main_arg8).trans ((Cert.ReferenceIdeal.Hand.kept_ops _ Cert.ReferenceIdeal.main_arg8 (by decide)).trans (Cert.ReferenceIdeal.Hand.launch_at m c Cert.ReferenceIdeal.main_arg8)),
     (h c Cert.ReferenceIdeal.main_arg9).trans ((Cert.ReferenceIdeal.Hand.kept_ops _ Cert.ReferenceIdeal.main_arg9 (by decide)).trans (Cert.ReferenceIdeal.Hand.launch_at m c Cert.ReferenceIdeal.main_arg9)),
     (h c Cert.ReferenceIdeal.main_arg10).trans ((Cert.ReferenceIdeal.Hand.kept_ops _ Cert.ReferenceIdeal.main_arg10 (by decide)).trans (Cert.ReferenceIdeal.Hand.launch_at m c Cert.ReferenceIdeal.main_arg10)),
     (h c Cert.ReferenceIdeal.main_arg11).trans ((Cert.ReferenceIdeal.Hand.kept_ops _ Cert.ReferenceIdeal.main_arg11 (by decide)).trans (Cert.ReferenceIdeal.Hand.launch_at m c Cert.ReferenceIdeal.main_arg11)),
     (h c Cert.ReferenceIdeal.main_arg12).trans ((Cert.ReferenceIdeal.Hand.kept_ops _ Cert.ReferenceIdeal.main_arg12 (by decide)).trans (Cert.ReferenceIdeal.Hand.launch_at m c Cert.ReferenceIdeal.main_arg12)),
     (h c Cert.ReferenceIdeal.main_arg13).trans ((Cert.ReferenceIdeal.Hand.kept_ops _ Cert.ReferenceIdeal.main_arg13 (by decide)).trans (Cert.ReferenceIdeal.Hand.launch_at m c Cert.ReferenceIdeal.main_arg13)),
     (h c Cert.ReferenceIdeal.main_arg14).trans ((Cert.ReferenceIdeal.Hand.kept_ops _ Cert.ReferenceIdeal.main_arg14 (by decide)).trans (Cert.ReferenceIdeal.Hand.launch_at m c Cert.ReferenceIdeal.main_arg14)),
     (h c Cert.ReferenceIdeal.main_arg15).trans ((Cert.ReferenceIdeal.Hand.kept_ops _ Cert.ReferenceIdeal.main_arg15 (by decide)).trans (Cert.ReferenceIdeal.Hand.launch_at m c Cert.ReferenceIdeal.main_arg15)),
     (h c Cert.ReferenceIdeal.main_arg16).trans ((Cert.ReferenceIdeal.Hand.kept_ops _ Cert.ReferenceIdeal.main_arg16 (by decide)).trans (Cert.ReferenceIdeal.Hand.launch_at m c Cert.ReferenceIdeal.main_arg16)),
     (h c Cert.ReferenceIdeal.main_arg17).trans ((Cert.ReferenceIdeal.Hand.kept_ops _ Cert.ReferenceIdeal.main_arg17 (by decide)).trans (Cert.ReferenceIdeal.Hand.launch_at m c Cert.ReferenceIdeal.main_arg17)),
     (h c Cert.ReferenceIdeal.main_arg18).trans ((Cert.ReferenceIdeal.Hand.kept_ops _ Cert.ReferenceIdeal.main_arg18 (by decide)).trans (Cert.ReferenceIdeal.Hand.launch_at m c Cert.ReferenceIdeal.main_arg18)),
     (h c Cert.ReferenceIdeal.main_arg19).trans ((Cert.ReferenceIdeal.Hand.kept_ops _ Cert.ReferenceIdeal.main_arg19 (by decide)).trans (Cert.ReferenceIdeal.Hand.launch_at m c Cert.ReferenceIdeal.main_arg19)),
     (h c Cert.ReferenceIdeal.main_arg20).trans ((Cert.ReferenceIdeal.Hand.kept_ops _ Cert.ReferenceIdeal.main_arg20 (by decide)).trans (Cert.ReferenceIdeal.Hand.launch_at m c Cert.ReferenceIdeal.main_arg20)),
     (h c Cert.ReferenceIdeal.main_arg21).trans ((Cert.ReferenceIdeal.Hand.kept_ops _ Cert.ReferenceIdeal.main_arg21 (by decide)).trans (Cert.ReferenceIdeal.Hand.launch_at m c Cert.ReferenceIdeal.main_arg21)),
     (h c Cert.ReferenceIdeal.main_arg22).trans ((Cert.ReferenceIdeal.Hand.kept_ops _ Cert.ReferenceIdeal.main_arg22 (by decide)).trans (Cert.ReferenceIdeal.Hand.launch_at m c Cert.ReferenceIdeal.main_arg22)),
     (h c Cert.ReferenceIdeal.main_arg23).trans ((Cert.ReferenceIdeal.Hand.kept_ops _ Cert.ReferenceIdeal.main_arg23 (by decide)).trans (Cert.ReferenceIdeal.Hand.launch_at m c Cert.ReferenceIdeal.main_arg23)),
     (h c Cert.ReferenceIdeal.main_arg24).trans ((Cert.ReferenceIdeal.Hand.kept_ops _ Cert.ReferenceIdeal.main_arg24 (by decide)).trans (Cert.ReferenceIdeal.Hand.launch_at m c Cert.ReferenceIdeal.main_arg24)),
     (h c Cert.ReferenceIdeal.main_arg25).trans ((Cert.ReferenceIdeal.Hand.kept_ops _ Cert.ReferenceIdeal.main_arg25 (by decide)).trans (Cert.ReferenceIdeal.Hand.launch_at m c Cert.ReferenceIdeal.main_arg25)),
     (h c Cert.ReferenceIdeal.main_arg26).trans ((Cert.ReferenceIdeal.Hand.kept_ops _ Cert.ReferenceIdeal.main_arg26 (by decide)).trans (Cert.ReferenceIdeal.Hand.launch_at m c Cert.ReferenceIdeal.main_arg26)),
     (h c Cert.ReferenceIdeal.main_arg27).trans ((Cert.ReferenceIdeal.Hand.kept_ops _ Cert.ReferenceIdeal.main_arg27 (by decide)).trans (Cert.ReferenceIdeal.Hand.launch_at m c Cert.ReferenceIdeal.main_arg27)),
     (h c Cert.ReferenceIdeal.main_arg28).trans ((Cert.ReferenceIdeal.Hand.kept_ops _ Cert.ReferenceIdeal.main_arg28 (by decide)).trans (Cert.ReferenceIdeal.Hand.launch_at m c Cert.ReferenceIdeal.main_arg28)),
     (h c Cert.ReferenceIdeal.main_arg29).trans ((Cert.ReferenceIdeal.Hand.kept_ops _ Cert.ReferenceIdeal.main_arg29 (by decide)).trans (Cert.ReferenceIdeal.Hand.launch_at m c Cert.ReferenceIdeal.main_arg29)),
     (h c Cert.ReferenceIdeal.main_arg30).trans ((Cert.ReferenceIdeal.Hand.kept_ops _ Cert.ReferenceIdeal.main_arg30 (by decide)).trans (Cert.ReferenceIdeal.Hand.launch_at m c Cert.ReferenceIdeal.main_arg30)),
     (h c Cert.ReferenceIdeal.main_arg31).trans ((Cert.ReferenceIdeal.Hand.kept_ops _ Cert.ReferenceIdeal.main_arg31 (by decide)).trans (Cert.ReferenceIdeal.Hand.launch_at m c Cert.ReferenceIdeal.main_arg31))⟩)
    (Cert.ReferenceIdeal.Hand.run_all (F := Ideal) m ρ)

/-- The two idealized programs end with the same result array. -/
theorem algebraic : Cert.algebraic_KernelIdeal_ReferenceIdeal := by
  intro m ρ m' ρ' _ hag
  refine ⟨fun c => Cert.KernelIdeal.Gen.W39 m ρ c (Proc.devRef .tc Cert.KernelIdeal.main_v391), Cert.KernelIdeal.Named.run_named m ρ, ?_⟩
  refine (θ_run Cert.ReferenceIdeal.defs _ _).mono (fun r h c => ?_) (Cert.ReferenceIdeal.Hand.run_all (F := Ideal) m' ρ')
  obtain ⟨a0, a1, a2, a3, a4, a5, a6, a7, a8, a9, a10, a11, a12, a13, a14, a15, a16, a17, a18, a19, a20, a21, a22, a23, a24, a25, a26, a27, a28, a29, a30, a31⟩ := hag c
  have hv3 := Cert.Bridge.start_v3 m ρ m' c a1
  have hv6 := Cert.Bridge.start_v6 m ρ m' c a1
  have hv10 := Cert.Bridge.start_v10 m ρ m' c a2
  have h0 := Cert.Bridge.start_h m ρ m' c a0 a8 a9
  have h1 := Cert.Bridge.layer1 m ρ m' c a1 a2 a10 a11 a12 a13 a14 a15 a16 a17 hv3 hv6 hv10 h0
  have h2 := Cert.Bridge.layer2 m ρ m' c a1 a2 a10 a11 a12 a13 a14 a15 a16 a17 hv3 hv6 hv10 h1
  have h3 := Cert.Bridge.layer3 m ρ m' c a1 a2 a10 a11 a12 a13 a14 a15 a16 a17 hv3 hv6 hv10 h2
  have h4 := Cert.Bridge.layer4 m ρ m' c a1 a2 a10 a11 a12 a13 a14 a15 a16 a17 hv3 hv6 hv10 h3
  have h5 := Cert.Bridge.layer5 m ρ m' c a1 a2 a10 a11 a12 a13 a14 a15 a16 a17 hv3 hv6 hv10 h4
  have hres := Cert.Bridge.tail m ρ m' c a3 a4 a5 a6 a7 a18 a19 a20 a21 a22 a23 a24 a25 a26 a27 a28 a29 a30 a31 h5
  exact ⟨(h c Cert.ReferenceIdeal.main_v500).trans ((congrFun (Cert.ReferenceIdeal.Hand.after_ops_chain m' c) _).trans hres.symm),
     (h c Cert.ReferenceIdeal.main_arg0).trans ((Cert.ReferenceIdeal.Hand.kept_ops _ Cert.ReferenceIdeal.main_arg0 (by decide)).trans (Cert.ReferenceIdeal.Hand.launch_at m' c Cert.ReferenceIdeal.main_arg0)),
     (h c Cert.ReferenceIdeal.main_arg1).trans ((Cert.ReferenceIdeal.Hand.kept_ops _ Cert.ReferenceIdeal.main_arg1 (by decide)).trans (Cert.ReferenceIdeal.Hand.launch_at m' c Cert.ReferenceIdeal.main_arg1)),
     (h c Cert.ReferenceIdeal.main_arg2).trans ((Cert.ReferenceIdeal.Hand.kept_ops _ Cert.ReferenceIdeal.main_arg2 (by decide)).trans (Cert.ReferenceIdeal.Hand.launch_at m' c Cert.ReferenceIdeal.main_arg2)),
     (h c Cert.ReferenceIdeal.main_arg3).trans ((Cert.ReferenceIdeal.Hand.kept_ops _ Cert.ReferenceIdeal.main_arg3 (by decide)).trans (Cert.ReferenceIdeal.Hand.launch_at m' c Cert.ReferenceIdeal.main_arg3)),
     (h c Cert.ReferenceIdeal.main_arg4).trans ((Cert.ReferenceIdeal.Hand.kept_ops _ Cert.ReferenceIdeal.main_arg4 (by decide)).trans (Cert.ReferenceIdeal.Hand.launch_at m' c Cert.ReferenceIdeal.main_arg4)),
     (h c Cert.ReferenceIdeal.main_arg5).trans ((Cert.ReferenceIdeal.Hand.kept_ops _ Cert.ReferenceIdeal.main_arg5 (by decide)).trans (Cert.ReferenceIdeal.Hand.launch_at m' c Cert.ReferenceIdeal.main_arg5)),
     (h c Cert.ReferenceIdeal.main_arg6).trans ((Cert.ReferenceIdeal.Hand.kept_ops _ Cert.ReferenceIdeal.main_arg6 (by decide)).trans (Cert.ReferenceIdeal.Hand.launch_at m' c Cert.ReferenceIdeal.main_arg6)),
     (h c Cert.ReferenceIdeal.main_arg7).trans ((Cert.ReferenceIdeal.Hand.kept_ops _ Cert.ReferenceIdeal.main_arg7 (by decide)).trans (Cert.ReferenceIdeal.Hand.launch_at m' c Cert.ReferenceIdeal.main_arg7)),
     (h c Cert.ReferenceIdeal.main_arg8).trans ((Cert.ReferenceIdeal.Hand.kept_ops _ Cert.ReferenceIdeal.main_arg8 (by decide)).trans (Cert.ReferenceIdeal.Hand.launch_at m' c Cert.ReferenceIdeal.main_arg8)),
     (h c Cert.ReferenceIdeal.main_arg9).trans ((Cert.ReferenceIdeal.Hand.kept_ops _ Cert.ReferenceIdeal.main_arg9 (by decide)).trans (Cert.ReferenceIdeal.Hand.launch_at m' c Cert.ReferenceIdeal.main_arg9)),
     (h c Cert.ReferenceIdeal.main_arg10).trans ((Cert.ReferenceIdeal.Hand.kept_ops _ Cert.ReferenceIdeal.main_arg10 (by decide)).trans (Cert.ReferenceIdeal.Hand.launch_at m' c Cert.ReferenceIdeal.main_arg10)),
     (h c Cert.ReferenceIdeal.main_arg11).trans ((Cert.ReferenceIdeal.Hand.kept_ops _ Cert.ReferenceIdeal.main_arg11 (by decide)).trans (Cert.ReferenceIdeal.Hand.launch_at m' c Cert.ReferenceIdeal.main_arg11)),
     (h c Cert.ReferenceIdeal.main_arg12).trans ((Cert.ReferenceIdeal.Hand.kept_ops _ Cert.ReferenceIdeal.main_arg12 (by decide)).trans (Cert.ReferenceIdeal.Hand.launch_at m' c Cert.ReferenceIdeal.main_arg12)),
     (h c Cert.ReferenceIdeal.main_arg13).trans ((Cert.ReferenceIdeal.Hand.kept_ops _ Cert.ReferenceIdeal.main_arg13 (by decide)).trans (Cert.ReferenceIdeal.Hand.launch_at m' c Cert.ReferenceIdeal.main_arg13)),
     (h c Cert.ReferenceIdeal.main_arg14).trans ((Cert.ReferenceIdeal.Hand.kept_ops _ Cert.ReferenceIdeal.main_arg14 (by decide)).trans (Cert.ReferenceIdeal.Hand.launch_at m' c Cert.ReferenceIdeal.main_arg14)),
     (h c Cert.ReferenceIdeal.main_arg15).trans ((Cert.ReferenceIdeal.Hand.kept_ops _ Cert.ReferenceIdeal.main_arg15 (by decide)).trans (Cert.ReferenceIdeal.Hand.launch_at m' c Cert.ReferenceIdeal.main_arg15)),
     (h c Cert.ReferenceIdeal.main_arg16).trans ((Cert.ReferenceIdeal.Hand.kept_ops _ Cert.ReferenceIdeal.main_arg16 (by decide)).trans (Cert.ReferenceIdeal.Hand.launch_at m' c Cert.ReferenceIdeal.main_arg16)),
     (h c Cert.ReferenceIdeal.main_arg17).trans ((Cert.ReferenceIdeal.Hand.kept_ops _ Cert.ReferenceIdeal.main_arg17 (by decide)).trans (Cert.ReferenceIdeal.Hand.launch_at m' c Cert.ReferenceIdeal.main_arg17)),
     (h c Cert.ReferenceIdeal.main_arg18).trans ((Cert.ReferenceIdeal.Hand.kept_ops _ Cert.ReferenceIdeal.main_arg18 (by decide)).trans (Cert.ReferenceIdeal.Hand.launch_at m' c Cert.ReferenceIdeal.main_arg18)),
     (h c Cert.ReferenceIdeal.main_arg19).trans ((Cert.ReferenceIdeal.Hand.kept_ops _ Cert.ReferenceIdeal.main_arg19 (by decide)).trans (Cert.ReferenceIdeal.Hand.launch_at m' c Cert.ReferenceIdeal.main_arg19)),
     (h c Cert.ReferenceIdeal.main_arg20).trans ((Cert.ReferenceIdeal.Hand.kept_ops _ Cert.ReferenceIdeal.main_arg20 (by decide)).trans (Cert.ReferenceIdeal.Hand.launch_at m' c Cert.ReferenceIdeal.main_arg20)),
     (h c Cert.ReferenceIdeal.main_arg21).trans ((Cert.ReferenceIdeal.Hand.kept_ops _ Cert.ReferenceIdeal.main_arg21 (by decide)).trans (Cert.ReferenceIdeal.Hand.launch_at m' c Cert.ReferenceIdeal.main_arg21)),
     (h c Cert.ReferenceIdeal.main_arg22).trans ((Cert.ReferenceIdeal.Hand.kept_ops _ Cert.ReferenceIdeal.main_arg22 (by decide)).trans (Cert.ReferenceIdeal.Hand.launch_at m' c Cert.ReferenceIdeal.main_arg22)),
     (h c Cert.ReferenceIdeal.main_arg23).trans ((Cert.ReferenceIdeal.Hand.kept_ops _ Cert.ReferenceIdeal.main_arg23 (by decide)).trans (Cert.ReferenceIdeal.Hand.launch_at m' c Cert.ReferenceIdeal.main_arg23)),
     (h c Cert.ReferenceIdeal.main_arg24).trans ((Cert.ReferenceIdeal.Hand.kept_ops _ Cert.ReferenceIdeal.main_arg24 (by decide)).trans (Cert.ReferenceIdeal.Hand.launch_at m' c Cert.ReferenceIdeal.main_arg24)),
     (h c Cert.ReferenceIdeal.main_arg25).trans ((Cert.ReferenceIdeal.Hand.kept_ops _ Cert.ReferenceIdeal.main_arg25 (by decide)).trans (Cert.ReferenceIdeal.Hand.launch_at m' c Cert.ReferenceIdeal.main_arg25)),
     (h c Cert.ReferenceIdeal.main_arg26).trans ((Cert.ReferenceIdeal.Hand.kept_ops _ Cert.ReferenceIdeal.main_arg26 (by decide)).trans (Cert.ReferenceIdeal.Hand.launch_at m' c Cert.ReferenceIdeal.main_arg26)),
     (h c Cert.ReferenceIdeal.main_arg27).trans ((Cert.ReferenceIdeal.Hand.kept_ops _ Cert.ReferenceIdeal.main_arg27 (by decide)).trans (Cert.ReferenceIdeal.Hand.launch_at m' c Cert.ReferenceIdeal.main_arg27)),
     (h c Cert.ReferenceIdeal.main_arg28).trans ((Cert.ReferenceIdeal.Hand.kept_ops _ Cert.ReferenceIdeal.main_arg28 (by decide)).trans (Cert.ReferenceIdeal.Hand.launch_at m' c Cert.ReferenceIdeal.main_arg28)),
     (h c Cert.ReferenceIdeal.main_arg29).trans ((Cert.ReferenceIdeal.Hand.kept_ops _ Cert.ReferenceIdeal.main_arg29 (by decide)).trans (Cert.ReferenceIdeal.Hand.launch_at m' c Cert.ReferenceIdeal.main_arg29)),
     (h c Cert.ReferenceIdeal.main_arg30).trans ((Cert.ReferenceIdeal.Hand.kept_ops _ Cert.ReferenceIdeal.main_arg30 (by decide)).trans (Cert.ReferenceIdeal.Hand.launch_at m' c Cert.ReferenceIdeal.main_arg30)),
     (h c Cert.ReferenceIdeal.main_arg31).trans ((Cert.ReferenceIdeal.Hand.kept_ops _ Cert.ReferenceIdeal.main_arg31 (by decide)).trans (Cert.ReferenceIdeal.Hand.launch_at m' c Cert.ReferenceIdeal.main_arg31))⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
